-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)) →
    ∃ (v0 : (c : Dev Cert.KernelIdeal.nD) → Buf (Elt Ideal) ((c.tc : Thread Cert.KernelIdeal.nD Cert.KernelIdeal.τ).loc Cert.KernelIdeal.main_v136)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v136) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v296) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2500000 : Shape := ⟨1, ![2500000]⟩
abbrev S1000000 : Shape := ⟨1, ![1000000]⟩
abbrev S30000x64 : Shape := ⟨2, ![30000, 64]⟩
abbrev S40000x64 : Shape := ⟨2, ![40000, 64]⟩
abbrev S40000x4096 : Shape := ⟨2, ![40000, 4096]⟩
abbrev S40000x768 : Shape := ⟨2, ![40000, 768]⟩
abbrev S64x4096 : Shape := ⟨2, ![64, 4096]⟩
abbrev S64 : Shape := ⟨1, ![64]⟩
abbrev S64x64 : Shape := ⟨2, ![64, 64]⟩
abbrev S64x768 : Shape := ⟨2, ![64, 768]⟩
abbrev S1x64 : Shape := ⟨2, ![1, 64]⟩
abbrev S_ : Shape := ⟨0, ![]⟩

class Facts : Prop where
  bcast_S_S2500000 : S_.BroadcastsInDim S2500000 (![] : Fin 0 → Fin S2500000.rank)
  reducesTo_S2500000_S_d0 : S2500000.ReducesTo [0] S_
  h_S_ : 0 < S_.numel
  bcast_S_S1000000 : S_.BroadcastsInDim S1000000 (![] : Fin 0 → Fin S1000000.rank)
  reducesTo_S1000000_S_d0 : S1000000.ReducesTo [0] S_
  bcast_S_S30000x64 : S_.BroadcastsInDim S30000x64 (![] : Fin 0 → Fin S30000x64.rank)
  reducesTo_S30000x64_S_d0_1 : S30000x64.ReducesTo [0, 1] S_
  bcast_S_S40000x64 : S_.BroadcastsInDim S40000x64 (![] : Fin 0 → Fin S40000x64.rank)
  reducesTo_S40000x64_S_d0_1 : S40000x64.ReducesTo [0, 1] S_
  bcast_S_S40000x4096 : S_.BroadcastsInDim S40000x4096 (![] : Fin 0 → Fin S40000x4096.rank)
  reducesTo_S40000x4096_S_d0_1 : S40000x4096.ReducesTo [0, 1] S_
  bcast_S_S40000x768 : S_.BroadcastsInDim S40000x768 (![] : Fin 0 → Fin S40000x768.rank)
  reducesTo_S40000x768_S_d0_1 : S40000x768.ReducesTo [0, 1] S_
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x768 : S_.BroadcastsInDim S64x768 (![] : Fin 0 → Fin S64x768.rank)
  reducesTo_S64x768_S_d0_1 : S64x768.ReducesTo [0, 1] S_
  bcast_S_S1x64 : S_.BroadcastsInDim S1x64 (![] : Fin 0 → Fin S1x64.rank)
  reducesTo_S1x64_S_d0_1 : S1x64.ReducesTo [0, 1] S_

variable [Facts]

def fn_part8 {F : FTy → Type} [FloatOps F] (main_arg36 : FVec F S64x64 .f32) (main_arg37 : FVec F S64 .f32) (main_arg38 : FVec F S1x64 .f32) (main_v133 : IVec S_ 1) (main_v136 : IVec S64 1) : IVec S_ 1 :=
  let main_c_53 : IVec S_ 1 := constantI S_ 1 1#1
  let main_v137 : IVec S_ 1 := (fun x v => Host.reduce IntOp.andi x v reducesTo_S64_S_d0 h_S_) main_v136 main_c_53
  let main_v138 : IVec S_ 1 := andi main_v133 main_v137
  let main_v139 : FVec F S64x64 .f32 := Host.absf main_arg36
  let main_cst_54 : FVec F S_ .f32 := constant S_ .f32 0x7F800000#32
  let main_v140 : FVec F S64x64 .f32 := broadcastInDim S64x64 ![] bcast_S_S64x64 main_cst_54
  let main_v141 : IVec S64x64 1 := cmpf .olt main_v139 main_v140
  let main_c_55 : IVec S_ 1 := constantI S_ 1 1#1
  let main_v142 : IVec S_ 1 := (fun x v => Host.reduce IntOp.andi x v reducesTo_S64x64_S_d0_1 h_S_) main_v141 main_c_55
  let main_v143 : IVec S_ 1 := andi main_v138 main_v142
  let main_v144 : FVec F S64 .f32 := Host.absf main_arg37
  let main_cst_56 : FVec F S_ .f32 := constant S_ .f32 0x7F800000#32
  let main_v145 : FVec F S64 .f32 := broadcastInDim S64 ![] bcast_S_S64 main_cst_56
  let main_v146 : IVec S64 1 := cmpf .olt main_v144 main_v145
  let main_c_57 : IVec S_ 1 := constantI S_ 1 1#1
  let main_v147 : IVec S_ 1 := (fun x v => Host.reduce IntOp.andi x v reducesTo_S64_S_d0 h_S_) main_v146 main_c_57
  let main_v148 : IVec S_ 1 := andi main_v143 main_v147
  let main_v149 : FVec F S1x64 .f32 := Host.absf main_arg38
  let main_cst_58 : FVec F S_ .f32 := constant S_ .f32 0x7F800000#32
  let main_v150 : FVec F S1x64 .f32 := broadcastInDim S1x64 ![] bcast_S_S1x64 main_cst_58
  let main_v151 : IVec S1x64 1 := cmpf .olt main_v149 main_v150
  let main_c_59 : IVec S_ 1 := constantI S_ 1 1#1
  let main_v152 : IVec S_ 1 := (fun x v => Host.reduce IntOp.andi x v reducesTo_S1x64_S_d0_1 h_S_) main_v151 main_c_59
  let main_v153 : IVec S_ 1 := andi main_v148 main_v152
  main_v153

def fn_part7 {F : FTy → Type} [FloatOps F] (main_arg33 : FVec F S64 .f32) (main_arg34 : FVec F S64x64 .f32) (main_arg35 : FVec F S64 .f32) (main_arg36 : FVec F S64x64 .f32) (main_arg37 : FVec F S64 .f32) (main_arg38 : FVec F S1x64 .f32) (main_v118 : IVec S_ 1) (main_v119 : FVec F S64x64 .f32) : IVec S_ 1 :=
  let main_cst_46 : FVec F S_ .f32 := constant S_ .f32 0x7F800000#32
  let main_v120 : FVec F S64x64 .f32 := broadcastInDim S64x64 ![] bcast_S_S64x64 main_cst_46
  let main_v121 : IVec S64x64 1 := cmpf .olt main_v119 main_v120
  let main_c_47 : IVec S_ 1 := constantI S_ 1 1#1
  let main_v122 : IVec S_ 1 := (fun x v => Host.reduce IntOp.andi x v reducesTo_S64x64_S_d0_1 h_S_) main_v121 main_c_47
  let main_v123 : IVec S_ 1 := andi main_v118 main_v122
  let main_v124 : FVec F S64 .f32 := Host.absf main_arg33
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  let main_v129 : FVec F S64x64 .f32 := Host.absf main_arg34
  let main_cst_50 : FVec F S_ .f32 := constant S_ .f32 0x7F800000#32
  let main_v130 : FVec F S64x64 .f32 := broadcastInDim S64x64 ![] bcast_S_S64x64 main_cst_50
  let main_v131 : IVec S64x64 1 := cmpf .olt main_v129 main_v130
  let main_c_51 : IVec S_ 1 := constantI S_ 1 1#1
  let main_v132 : IVec S_ 1 := (fun x v => Host.reduce IntOp.andi x v reducesTo_S64x64_S_d0_1 h_S_) main_v131 main_c_51
  let main_v133 : IVec S_ 1 := andi main_v128 main_v132
  let main_v134 : FVec F S64 .f32 := Host.absf main_arg35
  let main_cst_52 : FVec F S_ .f32 := constant S_ .f32 0x7F800000#32
  let main_v135 : FVec F S64 .f32 := broadcastInDim S64 ![] bcast_S_S64 main_cst_52
  let main_v136 : IVec S64 1 := cmpf .olt main_v134 main_v135
  fn_part8 (F := F) main_arg36 main_arg37 main_arg38 main_v133 main_v136

def fn_part6 {F : FTy → Type} [FloatOps F] (main_arg29 : FVec F S64 .f32) (main_arg30 : FVec F S64 .f32) (main_arg31 : FVec F S64 .f32) (main_arg32 : FVec F S64x64 .f32) (main_arg33 : FVec F S64 .f32) (main_arg34 : FVec F S64x64 .f32) (main_arg35 : FVec F S64 .f32) (main_arg36 : FVec F S64x64 .f32) (main_arg37 : FVec F S64 .f32) (main_arg38 : FVec F S1x64 .f32) (main_v98 : IVec S_ 1) (main_v101 : IVec S64x64 1) (main_c_39 : IVec S_ 1) : IVec S_ 1 :=
  let main_v102 : IVec S_ 1 := (fun x v => Host.reduce IntOp.andi x v reducesTo_S64x64_S_d0_1 h_S_) main_v101 main_c_39
  let main_v103 : IVec S_ 1 := andi main_v98 main_v102
  let main_v104 : FVec F S64 .f32 := Host.absf main_arg29
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64 .f32 := Host.absf main_arg30
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64 .f32 := Host.absf main_arg31
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64x64 .f32 := Host.absf main_arg32
  fn_part7 (F := F) main_arg33 main_arg34 main_arg35 main_arg36 main_arg37 main_arg38 main_v118 main_v119

def fn_part5 {F : FTy → Type} [FloatOps F] (main_arg26 : FVec F S64 .f32) (main_arg27 : FVec F S64 .f32) (main_arg28 : FVec F S64x64 .f32) (main_arg29 : FVec F S64 .f32) (main_arg30 : FVec F S64 .f32) (main_arg31 : FVec F S64 .f32) (main_arg32 : FVec F S64x64 .f32) (main_arg33 : FVec F S64 .f32) (main_arg34 : FVec F S64x64 .f32) (main_arg35 : FVec F S64 .f32) (main_arg36 : FVec F S64x64 .f32) (main_arg37 : FVec F S64 .f32) (main_arg38 : FVec F S1x64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg26
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg27
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x64 .f32 := Host.absf main_arg28
  let main_cst_38 : FVec F S_ .f32 := constant S_ .f32 0x7F800000#32
  let main_v100 : FVec F S64x64 .f32 := broadcastInDim S64x64 ![] bcast_S_S64x64 main_cst_38
  let main_v101 : IVec S64x64 1 := cmpf .olt main_v99 main_v100
  let main_c_39 : IVec S_ 1 := constantI S_ 1 1#1
  fn_part6 (F := F) main_arg29 main_arg30 main_arg31 main_arg32 main_arg33 main_arg34 main_arg35 main_arg36 main_arg37 main_arg38 main_v98 main_v101 main_c_39

def fn_part4 {F : FTy → Type} [FloatOps F] (main_arg22 : FVec F S64 .f32) (main_arg23 : FVec F S64 .f32) (main_arg24 : FVec F S64x768 .f32) (main_arg25 : FVec F S64 .f32) (main_arg26 : FVec F S64 .f32) (main_arg27 : FVec F S64 .f32) (main_arg28 : FVec F S64x64 .f32) (main_arg29 : FVec F S64 .f32) (main_arg30 : FVec F S64 .f32) (main_arg31 : FVec F S64 .f32) (main_arg32 : FVec F S64x64 .f32) (main_arg33 : FVec F S64 .f32) (main_arg34 : FVec F S64x64 .f32) (main_arg35 : FVec F S64 .f32) (main_arg36 : FVec F S64x64 .f32) (main_arg37 : FVec F S64 .f32) (main_arg38 : FVec F S1x64 .f32) (main_v63 : IVec S_ 1) (main_v67 : IVec S_ 1) : IVec S_ 1 :=
  let main_v68 : IVec S_ 1 := andi main_v63 main_v67
  let main_v69 : FVec F S64 .f32 := Host.absf main_arg22
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg23
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x768 .f32 := Host.absf main_arg24
  let main_cst_30 : FVec F S_ .f32 := constant S_ .f32 0x7F800000#32
  let main_v80 : FVec F S64x768 .f32 := broadcastInDim S64x768 ![] bcast_S_S64x768 main_cst_30
  let main_v81 : IVec S64x768 1 := cmpf .olt main_v79 main_v80
  let main_c_31 : IVec S_ 1 := constantI S_ 1 1#1
  let main_v82 : IVec S_ 1 := (fun x v => Host.reduce IntOp.andi x v reducesTo_S64x768_S_d0_1 h_S_) main_v81 main_c_31
  let main_v83 : IVec S_ 1 := andi main_v78 main_v82
  let main_v84 : FVec F S64 .f32 := Host.absf main_arg25
  let main_cst_32 : FVec F S_ .f32 := constant S_ .f32 0x7F800000#32
  fn_part5 (F := F) main_arg26 main_arg27 main_arg28 main_arg29 main_arg30 main_arg31 main_arg32 main_arg33 main_arg34 main_arg35 main_arg36 main_arg37 main_arg38 main_v83 main_v84 main_cst_32

def fn_part3 {F : FTy → Type} [FloatOps F] (main_arg19 : FVec F S64 .f32) (main_arg20 : FVec F S64x64 .f32) (main_arg21 : FVec F S64 .f32) (main_arg22 : FVec F S64 .f32) (main_arg23 : FVec F S64 .f32) (main_arg24 : FVec F S64x768 .f32) (main_arg25 : FVec F S64 .f32) (main_arg26 : FVec F S64 .f32) (main_arg27 : FVec F S64 .f32) (main_arg28 : FVec F S64x64 .f32) (main_arg29 : FVec F S64 .f32) (main_arg30 : FVec F S64 .f32) (main_arg31 : FVec F S64 .f32) (main_arg32 : FVec F S64x64 .f32) (main_arg33 : FVec F S64 .f32) (main_arg34 : FVec F S64x64 .f32) (main_arg35 : FVec F S64 .f32) (main_arg36 : FVec F S64x64 .f32) (main_arg37 : FVec F S64 .f32) (main_arg38 : FVec F S1x64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg19
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg20
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg21
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg22 main_arg23 main_arg24 main_arg25 main_arg26 main_arg27 main_arg28 main_arg29 main_arg30 main_arg31 main_arg32 main_arg33 main_arg34 main_arg35 main_arg36 main_arg37 main_arg38 main_v63 main_v67

def fn_part2 {F : FTy → Type} [FloatOps F] (main_arg15 : FVec F S40000x768 .f32) (main_arg16 : FVec F S64x4096 .f32) (main_arg17 : FVec F S64 .f32) (main_arg18 : FVec F S64 .f32) (main_arg19 : FVec F S64 .f32) (main_arg20 : FVec F S64x64 .f32) (main_arg21 : FVec F S64 .f32) (main_arg22 : FVec F S64 .f32) (main_arg23 : FVec F S64 .f32) (main_arg24 : FVec F S64x768 .f32) (main_arg25 : FVec F S64 .f32) (main_arg26 : FVec F S64 .f32) (main_arg27 : FVec F S64 .f32) (main_arg28 : FVec F S64x64 .f32) (main_arg29 : FVec F S64 .f32) (main_arg30 : FVec F S64 .f32) (main_arg31 : FVec F S64 .f32) (main_arg32 : FVec F S64x64 .f32) (main_arg33 : FVec F S64 .f32) (main_arg34 : FVec F S64x64 .f32) (main_arg35 : FVec F S64 .f32) (main_arg36 : FVec F S64x64 .f32) (main_arg37 : FVec F S64 .f32) (main_arg38 : FVec F S1x64 .f32) (main_v33 : IVec S_ 1) : IVec S_ 1 :=
  let main_v34 : FVec F S40000x768 .f32 := Host.absf main_arg15
  let main_cst_12 : FVec F S_ .f32 := constant S_ .f32 0x7F800000#32
  let main_v35 : FVec F S40000x768 .f32 := broadcastInDim S40000x768 ![] bcast_S_S40000x768 main_cst_12
  let main_v36 : IVec S40000x768 1 := cmpf .olt main_v34 main_v35
  let main_c_13 : IVec S_ 1 := constantI S_ 1 1#1
  let main_v37 : IVec S_ 1 := (fun x v => Host.reduce IntOp.andi x v reducesTo_S40000x768_S_d0_1 h_S_) main_v36 main_c_13
  let main_v38 : IVec S_ 1 := andi main_v33 main_v37
  let main_v39 : FVec F S64x4096 .f32 := Host.absf main_arg16
  let main_cst_14 : FVec F S_ .f32 := constant S_ .f32 0x7F800000#32
  let main_v40 : FVec F S64x4096 .f32 := broadcastInDim S64x4096 ![] bcast_S_S64x4096 main_cst_14
  let main_v41 : IVec S64x4096 1 := cmpf .olt main_v39 main_v40
  let main_c_15 : IVec S_ 1 := constantI S_ 1 1#1
  let main_v42 : IVec S_ 1 := (fun x v => Host.reduce IntOp.andi x v reducesTo_S64x4096_S_d0_1 h_S_) main_v41 main_c_15
  let main_v43 : IVec S_ 1 := andi main_v38 main_v42
  let main_v44 : FVec F S64 .f32 := Host.absf main_arg17
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg18
  let main_cst_18 : FVec F S_ .f32 := constant S_ .f32 0x7F800000#32
  let main_v50 : FVec F S64 .f32 := broadcastInDim S64 ![] bcast_S_S64 main_cst_18
  fn_part3 (F := F) main_arg19 main_arg20 main_arg21 main_arg22 main_arg23 main_arg24 main_arg25 main_arg26 main_arg27 main_arg28 main_arg29 main_arg30 main_arg31 main_arg32 main_arg33 main_arg34 main_arg35 main_arg36 main_arg37 main_arg38 main_v48 main_v49 main_v50

def fn_part1 {F : FTy → Type} [FloatOps F] (main_arg12 : FVec F S30000x64 .f32) (main_arg13 : FVec F S40000x64 .f32) (main_arg14 : FVec F S40000x4096 .f32) (main_arg15 : FVec F S40000x768 .f32) (main_arg16 : FVec F S64x4096 .f32) (main_arg17 : FVec F S64 .f32) (main_arg18 : FVec F S64 .f32) (main_arg19 : FVec F S64 .f32) (main_arg20 : FVec F S64x64 .f32) (main_arg21 : FVec F S64 .f32) (main_arg22 : FVec F S64 .f32) (main_arg23 : FVec F S64 .f32) (main_arg24 : FVec F S64x768 .f32) (main_arg25 : FVec F S64 .f32) (main_arg26 : FVec F S64 .f32) (main_arg27 : FVec F S64 .f32) (main_arg28 : FVec F S64x64 .f32) (main_arg29 : FVec F S64 .f32) (main_arg30 : FVec F S64 .f32) (main_arg31 : FVec F S64 .f32) (main_arg32 : FVec F S64x64 .f32) (main_arg33 : FVec F S64 .f32) (main_arg34 : FVec F S64x64 .f32) (main_arg35 : FVec F S64 .f32) (main_arg36 : FVec F S64x64 .f32) (main_arg37 : FVec F S64 .f32) (main_arg38 : FVec F S1x64 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S30000x64 .f32 := Host.absf main_arg12
  let main_cst_6 : FVec F S_ .f32 := constant S_ .f32 0x7F800000#32
  let main_v20 : FVec F S30000x64 .f32 := broadcastInDim S30000x64 ![] bcast_S_S30000x64 main_cst_6
  let main_v21 : IVec S30000x64 1 := cmpf .olt main_v19 main_v20
  let main_c_7 : IVec S_ 1 := constantI S_ 1 1#1
  let main_v22 : IVec S_ 1 := (fun x v => Host.reduce IntOp.andi x v reducesTo_S30000x64_S_d0_1 h_S_) main_v21 main_c_7
  let main_v23 : IVec S_ 1 := andi main_v18 main_v22
  let main_v24 : FVec F S40000x64 .f32 := Host.absf main_arg13
  let main_cst_8 : FVec F S_ .f32 := constant S_ .f32 0x7F800000#32
  let main_v25 : FVec F S40000x64 .f32 := broadcastInDim S40000x64 ![] bcast_S_S40000x64 main_cst_8
  let main_v26 : IVec S40000x64 1 := cmpf .olt main_v24 main_v25
  let main_c_9 : IVec S_ 1 := constantI S_ 1 1#1
  let main_v27 : IVec S_ 1 := (fun x v => Host.reduce IntOp.andi x v reducesTo_S40000x64_S_d0_1 h_S_) main_v26 main_c_9
  let main_v28 : IVec S_ 1 := andi main_v23 main_v27
  let main_v29 : FVec F S40000x4096 .f32 := Host.absf main_arg14
  let main_cst_10 : FVec F S_ .f32 := constant S_ .f32 0x7F800000#32
  let main_v30 : FVec F S40000x4096 .f32 := broadcastInDim S40000x4096 ![] bcast_S_S40000x4096 main_cst_10
  let main_v31 : IVec S40000x4096 1 := cmpf .olt main_v29 main_v30
  let main_c_11 : IVec S_ 1 := constantI S_ 1 1#1
  let main_v32 : IVec S_ 1 := (fun x v => Host.reduce IntOp.andi x v reducesTo_S40000x4096_S_d0_1 h_S_) main_v31 main_c_11
  let main_v33 : IVec S_ 1 := andi main_v28 main_v32
  fn_part2 (F := F) main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_v33

def fn {F : FTy → Type} [FloatOps F] (main_arg0 : IVec S2500000 32) (main_arg1 : IVec S2500000 32) (main_arg2 : FVec F S2500000 .f32) (main_arg3 : IVec S1000000 32) (main_arg4 : IVec S1000000 32) (main_arg5 : FVec F S1000000 .f32) (main_arg6 : IVec S1000000 32) (main_arg7 : IVec S1000000 32) (main_arg8 : FVec F S1000000 .f32) (main_arg9 : IVec S1000000 32) (main_arg10 : IVec S1000000 32) (main_arg11 : FVec F S1000000 .f32) (main_arg12 : FVec F S30000x64 .f32) (main_arg13 : FVec F S40000x64 .f32) (main_arg14 : FVec F S40000x4096 .f32) (main_arg15 : FVec F S40000x768 .f32) (main_arg16 : FVec F S64x4096 .f32) (main_arg17 : FVec F S64 .f32) (main_arg18 : FVec F S64 .f32) (main_arg19 : FVec F S64 .f32) (main_arg20 : FVec F S64x64 .f32) (main_arg21 : FVec F S64 .f32) (main_arg22 : FVec F S64 .f32) (main_arg23 : FVec F S64 .f32) (main_arg24 : FVec F S64x768 .f32) (main_arg25 : FVec F S64 .f32) (main_arg26 : FVec F S64 .f32) (main_arg27 : FVec F S64 .f32) (main_arg28 : FVec F S64x64 .f32) (main_arg29 : FVec F S64 .f32) (main_arg30 : FVec F S64 .f32) (main_arg31 : FVec F S64 .f32) (main_arg32 : FVec F S64x64 .f32) (main_arg33 : FVec F S64 .f32) (main_arg34 : FVec F S64x64 .f32) (main_arg35 : FVec F S64 .f32) (main_arg36 : FVec F S64x64 .f32) (main_arg37 : FVec F S64 .f32) (main_arg38 : FVec F S1x64 .f32) : IVec S_ 1 :=
  let main_v0 : FVec F S2500000 .f32 := Host.absf main_arg2
  let main_cst : FVec F S_ .f32 := constant S_ .f32 0x7F800000#32
  let main_v1 : FVec F S2500000 .f32 := broadcastInDim S2500000 ![] bcast_S_S2500000 main_cst
  let main_v2 : IVec S2500000 1 := cmpf .olt main_v0 main_v1
  let main_c : IVec S_ 1 := constantI S_ 1 1#1
  let main_v3 : IVec S_ 1 := (fun x v => Host.reduce IntOp.andi x v reducesTo_S2500000_S_d0 h_S_) main_v2 main_c
  let main_v4 : FVec F S1000000 .f32 := Host.absf main_arg5
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S1000000 .f32 := Host.absf main_arg8
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S1000000 .f32 := Host.absf main_arg11
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_v13 main_v16
-- ==== Kernel.lean ====
abbrev S2500000 : Shape := ⟨1, ![2500000]⟩
abbrev S1000000 : Shape := ⟨1, ![1000000]⟩
abbrev S30000x64 : Shape := ⟨2, ![30000, 64]⟩
abbrev S40000x64 : Shape := ⟨2, ![40000, 64]⟩
abbrev S40000x4096 : Shape := ⟨2, ![40000, 4096]⟩
abbrev S40000x768 : Shape := ⟨2, ![40000, 768]⟩
abbrev S64x4096 : Shape := ⟨2, ![64, 4096]⟩
abbrev S64 : Shape := ⟨1, ![64]⟩
abbrev S64x64 : Shape := ⟨2, ![64, 64]⟩
abbrev S64x768 : Shape := ⟨2, ![64, 768]⟩
abbrev S1x64 : Shape := ⟨2, ![1, 64]⟩
abbrev S70000x64 : Shape := ⟨2, ![70000, 64]⟩
abbrev S2500000x1 : Shape := ⟨2, ![2500000, 1]⟩
abbrev S_ : Shape := ⟨0, ![]⟩
abbrev S2500000x64 : Shape := ⟨2, ![2500000, 64]⟩
abbrev S2x64 : Shape := ⟨2, ![2, 64]⟩
abbrev S800x4096 : Shape := ⟨2, ![800, 4096]⟩
abbrev S800x64 : Shape := ⟨2, ![800, 64]⟩
abbrev S5000x64 : Shape := ⟨2, ![5000, 64]⟩
abbrev S2000x768 : Shape := ⟨2, ![2000, 768]⟩
abbrev S2000x64 : Shape := ⟨2, ![2000, 64]⟩
abbrev S1000000x1 : Shape := ⟨2, ![1000000, 1]⟩
abbrev S1000000x64 : Shape := ⟨2, ![1000000, 64]⟩
abbrev S7000x64 : Shape := ⟨2, ![7000, 64]⟩
abbrev S7000 : Shape := ⟨1, ![7000]⟩
abbrev S7000x1 : Shape := ⟨2, ![7000, 1]⟩

abbrev nBuf : Space → Nat
  | .hbm => 205
  | .vmem => 95
  | .smem => 0
  | _ => 0

abbrev hbmTy0_0 (i : Nat) : BufTy := match i % 128 with
  | 0 => ⟨S2500000, .i32⟩
  | 1 => ⟨S2500000, .i32⟩
  | 2 => ⟨S2500000, .f32⟩
  | 3 => ⟨S1000000, .i32⟩
  | 4 => ⟨S1000000, .i32⟩
  | 5 => ⟨S1000000, .f32⟩
  | 6 => ⟨S1000000, .i32⟩
  | 7 => ⟨S1000000, .i32⟩
  | 8 => ⟨S1000000, .f32⟩
  | 9 => ⟨S1000000, .i32⟩
  | 10 => ⟨S1000000, .i32⟩
  | 11 => ⟨S1000000, .f32⟩
  | 12 => ⟨S30000x64, .f32⟩
  | 13 => ⟨S40000x64, .f32⟩
  | 14 => ⟨S40000x4096, .f32⟩
  | 15 => ⟨S40000x768, .f32⟩
  | 16 => ⟨S64x4096, .f32⟩
  | 17 => ⟨S64, .f32⟩
  | 18 => ⟨S64, .f32⟩
  | 19 => ⟨S64, .f32⟩
  | 20 => ⟨S64x64, .f32⟩
  | 21 => ⟨S64, .f32⟩
  | 22 => ⟨S64, .f32⟩
  | 23 => ⟨S64, .f32⟩
  | 24 => ⟨S64x768, .f32⟩
  | 25 => ⟨S64, .f32⟩
  | 26 => ⟨S64, .f32⟩
  | 27 => ⟨S64, .f32⟩
  | 28 => ⟨S64x64, .f32⟩
  | 29 => ⟨S64, .f32⟩
  | 30 => ⟨S64, .f32⟩
  | 31 => ⟨S64, .f32⟩
  | 32 => ⟨S64x64, .f32⟩
  | 33 => ⟨S64, .f32⟩
  | 34 => ⟨S64x64, .f32⟩
  | 35 => ⟨S64, .f32⟩
  | 36 => ⟨S64x64, .f32⟩
  | 37 => ⟨S64, .f32⟩
  | 38 => ⟨S1x64, .f32⟩
  | 39 => ⟨S70000x64, .f32⟩
  | 40 => ⟨S2500000x1, .f32⟩
  | 41 => ⟨S_, .i32⟩
  | 42 => ⟨S2500000, .i32⟩
  | 43 => ⟨S2500000, .i1⟩
  | 44 => ⟨S_, .i32⟩
  | 45 => ⟨S2500000, .i32⟩
  | 46 => ⟨S2500000, .i32⟩
  | 47 => ⟨S2500000, .i32⟩
  | 48 => ⟨S2500000x1, .i32⟩
  | 49 => ⟨S2500000x64, .f32⟩
  | 50 => ⟨S2500000x64, .f32⟩
  | 51 => ⟨S2500000x64, .f32⟩
  | 52 => ⟨S_, .f32⟩
  | 53 => ⟨S70000x64, .f32⟩
  | 54 => ⟨S2500000x1, .i32⟩
  | 55 => ⟨S70000x64, .f32⟩
  | 56 => ⟨S2500000x1, .f32⟩
  | 57 => ⟨S_, .i32⟩
  | 58 => ⟨S2500000, .i32⟩
  | 59 => ⟨S2500000, .i1⟩
  | 60 => ⟨S_, .i32⟩
  | 61 => ⟨S2500000, .i32⟩
  | 62 => ⟨S2500000, .i32⟩
  | 63 => ⟨S2500000, .i32⟩
  | 64 => ⟨S2500000x1, .i32⟩
  | 65 => ⟨S2500000x64, .f32⟩
  | 66 => ⟨S2500000x64, .f32⟩
  | 67 => ⟨S2500000x64, .f32⟩
  | 68 => ⟨S_, .f32⟩
  | 69 => ⟨S70000x64, .f32⟩
  | 70 => ⟨S2500000x1, .i32⟩
  | 71 => ⟨S70000x64, .f32⟩
  | 72 => ⟨S70000x64, .f32⟩
  | 73 => ⟨S70000x64, .f32⟩
  | 74 => ⟨S_, .f32⟩
  | 75 => ⟨S70000x64, .f32⟩
  | 76 => ⟨S70000x64, .f32⟩
  | 77 => ⟨S1x64, .f32⟩
  | 78 => ⟨S40000x64, .f32⟩
  | 79 => ⟨S2x64, .f32⟩
  | 80 => ⟨S1x64, .f32⟩
  | 81 => ⟨S1x64, .f32⟩
  | 82 => ⟨S40000x64, .f32⟩
  | 83 => ⟨S1x64, .f32⟩
  | 84 => ⟨S40000x64, .f32⟩
  | 85 => ⟨S2x64, .f32⟩
  | 86 => ⟨S1x64, .f32⟩
  | 87 => ⟨S1x64, .f32⟩
  | 88 => ⟨S40000x64, .f32⟩
  | 89 => ⟨S1x64, .f32⟩
  | 90 => ⟨S40000x64, .f32⟩
  | 91 => ⟨S2x64, .f32⟩
  | 92 => ⟨S1x64, .f32⟩
  | 93 => ⟨S1x64, .f32⟩
  | 94 => ⟨S40000x64, .f32⟩
  | 95 => ⟨S1x64, .f32⟩
  | 96 => ⟨S40000x64, .f32⟩
  | 97 => ⟨S2x64, .f32⟩
  | 98 => ⟨S1x64, .f32⟩
  | 99 => ⟨S1x64, .f32⟩
  | 100 => ⟨S40000x64, .f32⟩
  | 101 => ⟨S1x64, .f32⟩
  | 102 => ⟨S40000x64, .f32⟩
  | 103 => ⟨S1x64, .f32⟩
  | 104 => ⟨S40000x64, .f32⟩
  | 105 => ⟨S1000000x1, .f32⟩
  | 106 => ⟨S_, .i32⟩
  | 107 => ⟨S1000000, .i32⟩
  | 108 => ⟨S1000000, .i1⟩
  | 109 => ⟨S_, .i32⟩
  | 110 => ⟨S1000000, .i32⟩
  | 111 => ⟨S1000000, .i32⟩
  | 112 => ⟨S1000000, .i32⟩
  | 113 => ⟨S1000000x1, .i32⟩
  | 114 => ⟨S1000000x64, .f32⟩
  | 115 => ⟨S1000000x64, .f32⟩
  | 116 => ⟨S1000000x64, .f32⟩
  | 117 => ⟨S_, .f32⟩
  | 118 => ⟨S40000x64, .f32⟩
  | 119 => ⟨S1000000x1, .i32⟩
  | 120 => ⟨S40000x64, .f32⟩
  | 121 => ⟨S1000000x1, .f32⟩
  | 122 => ⟨S_, .i32⟩
  | 123 => ⟨S1000000, .i32⟩
  | 124 => ⟨S1000000, .i1⟩
  | 125 => ⟨S_, .i32⟩
  | 126 => ⟨S1000000, .i32⟩
  | 127 => ⟨S1000000, .i32⟩
  | _ => ⟨S2500000, .i32⟩

abbrev hbmTy0_1 (i : Nat) : BufTy := match i % 128 with
  | 0 => ⟨S1000000, .i32⟩
  | 1 => ⟨S1000000x1, .i32⟩
  | 2 => ⟨S1000000x64, .f32⟩
  | 3 => ⟨S1000000x64, .f32⟩
  | 4 => ⟨S1000000x64, .f32⟩
  | 5 => ⟨S_, .f32⟩
  | 6 => ⟨S40000x64, .f32⟩
  | 7 => ⟨S1000000x1, .i32⟩
  | 8 => ⟨S40000x64, .f32⟩
  | 9 => ⟨S1000000x1, .f32⟩
  | 10 => ⟨S_, .i32⟩
  | 11 => ⟨S1000000, .i32⟩
  | 12 => ⟨S1000000, .i1⟩
  | 13 => ⟨S_, .i32⟩
  | 14 => ⟨S1000000, .i32⟩
  | 15 => ⟨S1000000, .i32⟩
  | 16 => ⟨S1000000, .i32⟩
  | 17 => ⟨S1000000x1, .i32⟩
  | 18 => ⟨S1000000x64, .f32⟩
  | 19 => ⟨S1000000x64, .f32⟩
  | 20 => ⟨S1000000x64, .f32⟩
  | 21 => ⟨S_, .f32⟩
  | 22 => ⟨S40000x64, .f32⟩
  | 23 => ⟨S1000000x1, .i32⟩
  | 24 => ⟨S40000x64, .f32⟩
  | 25 => ⟨S1000000x1, .f32⟩
  | 26 => ⟨S_, .i32⟩
  | 27 => ⟨S1000000, .i32⟩
  | 28 => ⟨S1000000, .i1⟩
  | 29 => ⟨S_, .i32⟩
  | 30 => ⟨S1000000, .i32⟩
  | 31 => ⟨S1000000, .i32⟩
  | 32 => ⟨S1000000, .i32⟩
  | 33 => ⟨S1000000x1, .i32⟩
  | 34 => ⟨S1000000x64, .f32⟩
  | 35 => ⟨S1000000x64, .f32⟩
  | 36 => ⟨S1000000x64, .f32⟩
  | 37 => ⟨S_, .f32⟩
  | 38 => ⟨S40000x64, .f32⟩
  | 39 => ⟨S1000000x1, .i32⟩
  | 40 => ⟨S40000x64, .f32⟩
  | 41 => ⟨S1000000x1, .f32⟩
  | 42 => ⟨S_, .i32⟩
  | 43 => ⟨S1000000, .i32⟩
  | 44 => ⟨S1000000, .i1⟩
  | 45 => ⟨S_, .i32⟩
  | 46 => ⟨S1000000, .i32⟩
  | 47 => ⟨S1000000, .i32⟩
  | 48 => ⟨S1000000, .i32⟩
  | 49 => ⟨S1000000x1, .i32⟩
  | 50 => ⟨S1000000x64, .f32⟩
  | 51 => ⟨S1000000x64, .f32⟩
  | 52 => ⟨S1000000x64, .f32⟩
  | 53 => ⟨S_, .f32⟩
  | 54 => ⟨S30000x64, .f32⟩
  | 55 => ⟨S1000000x1, .i32⟩
  | 56 => ⟨S30000x64, .f32⟩
  | 57 => ⟨S1000000x1, .f32⟩
  | 58 => ⟨S_, .i32⟩
  | 59 => ⟨S1000000, .i32⟩
  | 60 => ⟨S1000000, .i1⟩
  | 61 => ⟨S_, .i32⟩
  | 62 => ⟨S1000000, .i32⟩
  | 63 => ⟨S1000000, .i32⟩
  | 64 => ⟨S1000000, .i32⟩
  | 65 => ⟨S1000000x1, .i32⟩
  | 66 => ⟨S1000000x64, .f32⟩
  | 67 => ⟨S1000000x64, .f32⟩
  | 68 => ⟨S1000000x64, .f32⟩
  | 69 => ⟨S_, .f32⟩
  | 70 => ⟨S30000x64, .f32⟩
  | 71 => ⟨S1000000x1, .i32⟩
  | 72 => ⟨S30000x64, .f32⟩
  | 73 => ⟨S70000x64, .f32⟩
  | 74 => ⟨S70000x64, .f32⟩
  | 75 => ⟨S1x64, .f32⟩
  | 76 => ⟨S70000x64, .f32⟩
  | _ => ⟨S2500000, .i32⟩

abbrev hbmTy (i : Nat) : BufTy := match i / 128 with
  | 0 => hbmTy0_0 i
  | 1 => hbmTy0_1 i
  | _ => ⟨S2500000, .i32⟩

abbrev bufTy : (tb : Table) → Fin (tcTables nBuf tb) → BufTy
  | .hbm, ⟨i, _⟩ => hbmTy i
  | .local _ .vmem, ⟨0, _⟩ => ⟨S800x4096, .f32⟩
  | .local _ .vmem, ⟨1, _⟩ => ⟨S800x4096, .f32⟩
  | .local _ .vmem, ⟨2, _⟩ => ⟨S64x4096, .f32⟩
  | .local _ .vmem, ⟨3, _⟩ => ⟨S1x64, .f32⟩
  | .local _ .vmem, ⟨4, _⟩ => ⟨S800x64, .f32⟩
  | .local _ .vmem, ⟨5, _⟩ => ⟨S800x64, .f32⟩
  | .local _ .vmem, ⟨6, _⟩ => ⟨S2x64, .f32⟩
  | .local _ .vmem, ⟨7, _⟩ => ⟨S1x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S2x64, .f32⟩
  | .local _ .vmem, ⟨12, _⟩ => ⟨S1x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S2x64, .f32⟩
  | .local _ .vmem, ⟨23, _⟩ => ⟨S1x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | .local _ .vmem, ⟨27, _⟩ => ⟨S2x64, .f32⟩
  | .local _ .vmem, ⟨28, _⟩ => ⟨S1x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S2000x768, .f32⟩
  | .local _ .vmem, ⟨35, _⟩ => ⟨S2000x768, .f32⟩
  | .local _ .vmem, ⟨36, _⟩ => ⟨S64x768, .f32⟩
  | .local _ .vmem, ⟨37, _⟩ => ⟨S1x64, .f32⟩
  | .local _ .vmem, ⟨38, _⟩ => ⟨S2000x64, .f32⟩
  | .local _ .vmem, ⟨39, _⟩ => ⟨S2000x64, .f32⟩
  | .local _ .vmem, ⟨40, _⟩ => ⟨S2x64, .f32⟩
  | .local _ .vmem, ⟨41, _⟩ => ⟨S1x64, .f32⟩
  | .local _ .vmem, ⟨42, _⟩ => ⟨S1x64, .f32⟩
  | .local _ .vmem, ⟨43, _⟩ => ⟨S5000x64, .f32⟩
  | .local _ .vmem, ⟨44, _⟩ => ⟨S5000x64, .f32⟩
  | .local _ .vmem, ⟨45, _⟩ => ⟨S2x64, .f32⟩
  | .local _ .vmem, ⟨46, _⟩ => ⟨S1x64, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S64x64, .f32⟩
  | .local _ .vmem, ⟨53, _⟩ => ⟨S1x64, .f32⟩
  | .local _ .vmem, ⟨54, _⟩ => ⟨S5000x64, .f32⟩
  | .local _ .vmem, ⟨55, _⟩ => ⟨S5000x64, .f32⟩
  | .local _ .vmem, ⟨56, _⟩ => ⟨S2x64, .f32⟩
  | .local _ .vmem, ⟨57, _⟩ => ⟨S1x64, .f32⟩
  | .local _ .vmem, ⟨58, _⟩ => ⟨S1x64, .f32⟩
  | .local _ .vmem, ⟨59, _⟩ => ⟨S5000x64, .f32⟩
  | .local _ .vmem, ⟨60, _⟩ => ⟨S5000x64, .f32⟩
  | .local _ .vmem, ⟨61, _⟩ => ⟨S2x64, .f32⟩
  | .local _ .vmem, ⟨62, _⟩ => ⟨S1x64, .f32⟩
  | .local _ .vmem, ⟨63, _⟩ => ⟨S1x64, .f32⟩
  | .local _ .vmem, ⟨64, _⟩ => ⟨S5000x64, .f32⟩
  | .local _ .vmem, ⟨65, _⟩ => ⟨S5000x64, .f32⟩
  | .local _ .vmem, ⟨66, _⟩ => ⟨S5000x64, .f32⟩
  | .local _ .vmem, ⟨67, _⟩ => ⟨S5000x64, .f32⟩
  | .local _ .vmem, ⟨68, _⟩ => ⟨S5000x64, .f32⟩
  | .local _ .vmem, ⟨69, _⟩ => ⟨S5000x64, .f32⟩
  | .local _ .vmem, ⟨70, _⟩ => ⟨S64x64, .f32⟩
  | .local _ .vmem, ⟨71, _⟩ => ⟨S1x64, .f32⟩
  | .local _ .vmem, ⟨72, _⟩ => ⟨S5000x64, .f32⟩
  | .local _ .vmem, ⟨73, _⟩ => ⟨S5000x64, .f32⟩
  | .local _ .vmem, ⟨74, _⟩ => ⟨S5000x64, .f32⟩
  | .local _ .vmem, ⟨75, _⟩ => ⟨S5000x64, .f32⟩
  | .local _ .vmem, ⟨76, _⟩ => ⟨S5000x64, .f32⟩
  | .local _ .vmem, ⟨77, _⟩ => ⟨S5000x64, .f32⟩
  | .local _ .vmem, ⟨78, _⟩ => ⟨S64x64, .f32⟩
  | .local _ .vmem, ⟨79, _⟩ => ⟨S1x64, .f32⟩
  | .local _ .vmem, ⟨80, _⟩ => ⟨S5000x64, .f32⟩
  | .local _ .vmem, ⟨81, _⟩ => ⟨S5000x64, .f32⟩
  | .local _ .vmem, ⟨82, _⟩ => ⟨S5000x64, .f32⟩
  | .local _ .vmem, ⟨83, _⟩ => ⟨S5000x64, .f32⟩
  | .local _ .vmem, ⟨84, _⟩ => ⟨S7000x64, .f32⟩
  | .local _ .vmem, ⟨85, _⟩ => ⟨S7000x64, .f32⟩
  | .local _ .vmem, ⟨86, _⟩ => ⟨S7000x64, .f32⟩
  | .local _ .vmem, ⟨87, _⟩ => ⟨S7000x64, .f32⟩
  | .local _ .vmem, ⟨88, _⟩ => ⟨S7000x64, .f32⟩
  | .local _ .vmem, ⟨89, _⟩ => ⟨S7000x64, .f32⟩
  | .local _ .vmem, ⟨90, _⟩ => ⟨S64x64, .f32⟩
  | .local _ .vmem, ⟨91, _⟩ => ⟨S1x64, .f32⟩
  | .local _ .vmem, ⟨92, _⟩ => ⟨S1x64, .f32⟩
  | .local _ .vmem, ⟨93, _⟩ => ⟨S7000x64, .f32⟩
  | .local _ .vmem, ⟨94, _⟩ => ⟨S7000x64, .f32⟩
  | _, _ => ⟨S2500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | _, _ => false

abbrev semScoped : Fin 0 → Bool
  | ⟨_, h⟩ => absurd h (Nat.not_lt_zero _)

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  ofTc nBuf bufTy 0 87 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_v0 : Ref sig .tc := ⟨.hbm, 39, rfl⟩
abbrev main_v1 : Ref sig .tc := ⟨.hbm, 40, rfl⟩
abbrev main_c : Ref sig .tc := ⟨.hbm, 41, rfl⟩
abbrev main_v2 : Ref sig .tc := ⟨.hbm, 42, rfl⟩
abbrev main_v3 : Ref sig .tc := ⟨.hbm, 43, rfl⟩
abbrev main_c_0 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_cst : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_c_1 : Ref sig .tc := ⟨.hbm, 57, rfl⟩
abbrev main_v15 : Ref sig .tc := ⟨.hbm, 58, rfl⟩
abbrev main_v16 : Ref sig .tc := ⟨.hbm, 59, rfl⟩
abbrev main_c_2 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_cst_3 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_cst_4 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32_0 : Ref sig .tc := ⟨.hbm, 78, rfl⟩
abbrev main_v32_1 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37_0 : Ref sig .tc := ⟨.hbm, 84, rfl⟩
abbrev main_v37_1 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42_0 : Ref sig .tc := ⟨.hbm, 90, rfl⟩
abbrev main_v42_1 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47_0 : Ref sig .tc := ⟨.hbm, 96, rfl⟩
abbrev main_v47_1 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_c_5 : Ref sig .tc := ⟨.hbm, 106, rfl⟩
abbrev main_v56 : Ref sig .tc := ⟨.hbm, 107, rfl⟩
abbrev main_v57 : Ref sig .tc := ⟨.hbm, 108, rfl⟩
abbrev main_c_6 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_cst_7 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_c_8 : Ref sig .tc := ⟨.hbm, 122, rfl⟩
abbrev main_v69 : Ref sig .tc := ⟨.hbm, 123, rfl⟩
abbrev main_v70 : Ref sig .tc := ⟨.hbm, 124, rfl⟩
abbrev main_c_9 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_cst_10 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_c_11 : Ref sig .tc := ⟨.hbm, 138, rfl⟩
abbrev main_v82 : Ref sig .tc := ⟨.hbm, 139, rfl⟩
abbrev main_v83 : Ref sig .tc := ⟨.hbm, 140, rfl⟩
abbrev main_c_12 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_13 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_c_14 : Ref sig .tc := ⟨.hbm, 154, rfl⟩
abbrev main_v95 : Ref sig .tc := ⟨.hbm, 155, rfl⟩
abbrev main_v96 : Ref sig .tc := ⟨.hbm, 156, rfl⟩
abbrev main_c_15 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_cst_16 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_c_17 : Ref sig .tc := ⟨.hbm, 170, rfl⟩
abbrev main_v108 : Ref sig .tc := ⟨.hbm, 171, rfl⟩
abbrev main_v109 : Ref sig .tc := ⟨.hbm, 172, rfl⟩
abbrev main_c_18 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_cst_19 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_c_20 : Ref sig .tc := ⟨.hbm, 186, rfl⟩
abbrev main_v121 : Ref sig .tc := ⟨.hbm, 187, rfl⟩
abbrev main_v122 : Ref sig .tc := ⟨.hbm, 188, rfl⟩
abbrev main_c_21 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_cst_22 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_scratch0 : Ref sig .tc := ⟨.vmem, 23, rfl⟩
abbrev cc2_scratch1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_scratch0 : Ref sig .tc := ⟨.vmem, 41, rfl⟩
abbrev cc4_scratch1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg4_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg3_0 : Ref sig .tc := ⟨.vmem, 54, rfl⟩
abbrev cc6_stg3_1 : Ref sig .tc := ⟨.vmem, 55, rfl⟩
abbrev cc6_stg4_0 : Ref sig .tc := ⟨.vmem, 56, rfl⟩
abbrev cc6_scratch0 : Ref sig .tc := ⟨.vmem, 57, rfl⟩
abbrev cc6_scratch1 : Ref sig .tc := ⟨.vmem, 58, rfl⟩
abbrev cc7_stg0_0 : Ref sig .tc := ⟨.vmem, 59, rfl⟩
abbrev cc7_stg0_1 : Ref sig .tc := ⟨.vmem, 60, rfl⟩
abbrev cc7_stg1_0 : Ref sig .tc := ⟨.vmem, 61, rfl⟩
abbrev cc7_stg2_0 : Ref sig .tc := ⟨.vmem, 62, rfl⟩
abbrev cc7_stg3_0 : Ref sig .tc := ⟨.vmem, 63, rfl⟩
abbrev cc7_stg4_0 : Ref sig .tc := ⟨.vmem, 64, rfl⟩
abbrev cc7_stg4_1 : Ref sig .tc := ⟨.vmem, 65, rfl⟩
abbrev cc7_stg5_0 : Ref sig .tc := ⟨.vmem, 66, rfl⟩
abbrev cc7_stg5_1 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg2_0 : Ref sig .tc := ⟨.vmem, 71, rfl⟩
abbrev cc8_stg3_0 : Ref sig .tc := ⟨.vmem, 72, rfl⟩
abbrev cc8_stg3_1 : Ref sig .tc := ⟨.vmem, 73, rfl⟩
abbrev cc8_stg4_0 : Ref sig .tc := ⟨.vmem, 74, rfl⟩
abbrev cc8_stg4_1 : Ref sig .tc := ⟨.vmem, 75, rfl⟩
abbrev cc9_stg0_0 : Ref sig .tc := ⟨.vmem, 76, rfl⟩
abbrev cc9_stg0_1 : Ref sig .tc := ⟨.vmem, 77, rfl⟩
abbrev cc9_stg1_0 : Ref sig .tc := ⟨.vmem, 78, rfl⟩
abbrev cc9_stg2_0 : Ref sig .tc := ⟨.vmem, 79, rfl⟩
abbrev cc9_stg3_0 : Ref sig .tc := ⟨.vmem, 80, rfl⟩
abbrev cc9_stg3_1 : Ref sig .tc := ⟨.vmem, 81, rfl⟩
abbrev cc9_stg4_0 : Ref sig .tc := ⟨.vmem, 82, rfl⟩
abbrev cc9_stg4_1 : Ref sig .tc := ⟨.vmem, 83, rfl⟩
abbrev cc10_stg0_0 : Ref sig .tc := ⟨.vmem, 84, rfl⟩
abbrev cc10_stg0_1 : Ref sig .tc := ⟨.vmem, 85, rfl⟩
abbrev cc10_stg1_0 : Ref sig .tc := ⟨.vmem, 86, rfl⟩
abbrev cc10_stg1_1 : Ref sig .tc := ⟨.vmem, 87, rfl⟩
abbrev cc10_stg2_0 : Ref sig .tc := ⟨.vmem, 88, rfl⟩
abbrev cc10_stg2_1 : Ref sig .tc := ⟨.vmem, 89, rfl⟩
abbrev cc10_stg3_0 : Ref sig .tc := ⟨.vmem, 90, rfl⟩
abbrev cc10_stg4_0 : Ref sig .tc := ⟨.vmem, 91, rfl⟩
abbrev cc10_stg5_0 : Ref sig .tc := ⟨.vmem, 92, rfl⟩
abbrev cc10_stg6_0 : Ref sig .tc := ⟨.vmem, 93, rfl⟩
abbrev cc10_stg6_1 : Ref sig .tc := ⟨.vmem, 94, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem4_1 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc4_sem4_0 : DmaSem sig := 36
abbrev cc5_sem0_0 : DmaSem sig := 37
abbrev cc5_sem0_1 : DmaSem sig := 38
abbrev cc5_sem1_0 : DmaSem sig := 39
abbrev cc5_sem2_0 : DmaSem sig := 40
abbrev cc5_sem3_0 : DmaSem sig := 41
abbrev cc5_sem4_0 : DmaSem sig := 42
abbrev cc5_sem4_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem3_0 : DmaSem sig := 48
abbrev cc6_sem3_1 : DmaSem sig := 49
abbrev cc6_sem4_0 : DmaSem sig := 50
abbrev cc7_sem0_0 : DmaSem sig := 51
abbrev cc7_sem0_1 : DmaSem sig := 52
abbrev cc7_sem1_0 : DmaSem sig := 53
abbrev cc7_sem2_0 : DmaSem sig := 54
abbrev cc7_sem3_0 : DmaSem sig := 55
abbrev cc7_sem4_0 : DmaSem sig := 56
abbrev cc7_sem4_1 : DmaSem sig := 57
abbrev cc7_sem5_0 : DmaSem sig := 58
abbrev cc7_sem5_1 : DmaSem sig := 59
abbrev cc8_sem0_0 : DmaSem sig := 60
abbrev cc8_sem0_1 : DmaSem sig := 61
abbrev cc8_sem1_0 : DmaSem sig := 62
abbrev cc8_sem2_0 : DmaSem sig := 63
abbrev cc8_sem3_0 : DmaSem sig := 64
abbrev cc8_sem3_1 : DmaSem sig := 65
abbrev cc8_sem4_0 : DmaSem sig := 66
abbrev cc8_sem4_1 : DmaSem sig := 67
abbrev cc9_sem0_0 : DmaSem sig := 68
abbrev cc9_sem0_1 : DmaSem sig := 69
abbrev cc9_sem1_0 : DmaSem sig := 70
abbrev cc9_sem2_0 : DmaSem sig := 71
abbrev cc9_sem3_0 : DmaSem sig := 72
abbrev cc9_sem3_1 : DmaSem sig := 73
abbrev cc9_sem4_0 : DmaSem sig := 74
abbrev cc9_sem4_1 : DmaSem sig := 75
abbrev cc10_sem0_0 : DmaSem sig := 76
abbrev cc10_sem0_1 : DmaSem sig := 77
abbrev cc10_sem1_0 : DmaSem sig := 78
abbrev cc10_sem1_1 : DmaSem sig := 79
abbrev cc10_sem2_0 : DmaSem sig := 80
abbrev cc10_sem2_1 : DmaSem sig := 81
abbrev cc10_sem3_0 : DmaSem sig := 82
abbrev cc10_sem4_0 : DmaSem sig := 83
abbrev cc10_sem5_0 : DmaSem sig := 84
abbrev cc10_sem6_0 : DmaSem sig := 85
abbrev cc10_sem6_1 : DmaSem sig := 86

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v28 : BitVec 1 := Scalar.cmpi .eq arg0 c49_i32
  let v29 : BitVec 32 := Scalar.extui v28
  let c0_i32_18 : BitVec 32 := 0#32
  let v30 : BitVec 1 := Scalar.cmpi .ne v29 c0_i32_18
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S800x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S800x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def k2_cond2 (i : grid2.Coords) : BitVec 1 :=
  let arg0 : BitVec 32 := BitVec.ofNat 32 (i 0).val
  let c7_i32 : BitVec 32 := 7#32
  let v29 : BitVec 1 := Scalar.cmpi .eq arg0 c7_i32
  let v30 : BitVec 32 := Scalar.extui v29
  let c0_i32_18 : BitVec 32 := 0#32
  let v31 : BitVec 1 := Scalar.cmpi .ne v30 c0_i32_18
  v31

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S2x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v28 : BitVec 1 := Scalar.cmpi .eq arg0 c19_i32
  let v29 : BitVec 32 := Scalar.extui v28
  let c0_i32_18 : BitVec 32 := 0#32
  let v30 : BitVec 1 := Scalar.cmpi .ne v29 c0_i32_18
  v30

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x768 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x768 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S2x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![8], ![false]⟩

def k6_cond2 (i : grid6.Coords) : BitVec 1 :=
  let arg0 : BitVec 32 := BitVec.ofNat 32 (i 0).val
  let c7_i32 : BitVec 32 := 7#32
  let v29 : BitVec 1 := Scalar.cmpi .eq arg0 c7_i32
  let v30 : BitVec 32 := Scalar.extui v29
  let c0_i32_18 : BitVec 32 := 0#32
  let v31 : BitVec 1 := Scalar.cmpi .ne v30 c0_i32_18
  v31

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S2x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S2x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S5000x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S5000x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S7000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S7000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S7000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S64x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S7000x64 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

class Facts₀ : Prop where
  concatenates_S30000x64_S40000x64_S70000x64_d0 : Shape.Concatenates [S30000x64, S40000x64] S70000x64 0
  bcast_S2500000_S2500000x1_0 : S2500000.BroadcastsInDim S2500000x1 (![0] : Fin 1 → Fin S2500000x1.rank)
  bcast_S_S2500000 : S_.BroadcastsInDim S2500000 (![] : Fin 0 → Fin S2500000.rank)
  bcast_S2500000x1_S2500000x64_0_1 : S2500000x1.BroadcastsInDim S2500000x64 (![0, 1] : Fin 2 → Fin S2500000x64.rank)
  bcast_S_S70000x64 : S_.BroadcastsInDim S70000x64 (![] : Fin 0 → Fin S70000x64.rank)
  shapeCasts_S64_S1x64 : S64.ShapeCasts S1x64
  inb_S800x4096_S800x4096_0_0 : ∀ a, (![0, 0] : Fin 2 → Nat) a + S800x4096.size a ≤ S800x4096.size a
  h_S800x4096 : 0 < S800x4096.numel
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S800x64 : S1x64.Broadcasts S800x64
  inb_S800x64_S800x64_0_0 : ∀ a, (![0, 0] : Fin 2 → Nat) a + S800x64.size a ≤ S800x64.size a
  h_S800x64 : 0 < S800x64.numel
  reduces_S800x64_S64 : S800x64.Reduces [0] S64
  inb_S2x64_S1x64_0_0 : ∀ a, (![0, 0] : Fin 2 → Nat) a + S1x64.size a ≤ S2x64.size a
  inb_S2x64_S1x64_1_0 : ∀ a, (![1, 0] : Fin 2 → Nat) a + S1x64.size a ≤ S2x64.size a
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  reduces_S5000x64_S64 : S5000x64.Reduces [0] S64
  inb_S2000x768_S2000x768_0_0 : ∀ a, (![0, 0] : Fin 2 → Nat) a + S2000x768.size a ≤ S2000x768.size a
  h_S2000x768 : 0 < S2000x768.numel
  inb_S64x768_S64x768_0_0 : ∀ a, (![0, 0] : Fin 2 → Nat) a + S64x768.size a ≤ S64x768.size a
  h_S64x768 : 0 < S64x768.numel
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  reduces_S2000x64_S64 : S2000x64.Reduces [0] S64
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S40000x64 : S_.BroadcastsInDim S40000x64 (![] : Fin 0 → Fin S40000x64.rank)
  bcast_S_S30000x64 : S_.BroadcastsInDim S30000x64 (![] : Fin 0 → Fin S30000x64.rank)
  inb_S7000x64_S7000x64_0_0 : ∀ a, (![0, 0] : Fin 2 → Nat) a + S7000x64.size a ≤ S7000x64.size a
  h_S7000x64 : 0 < S7000x64.numel
  shapeCasts_S7000x64_S7000x64 : S7000x64.ShapeCasts S7000x64
  broadcasts_S1x64_S7000x64 : S1x64.Broadcasts S7000x64
  reduces_S7000x64_S7000 : S7000x64.Reduces [1] S7000
  shapeCasts_S7000_S7000x1 : S7000.ShapeCasts S7000x1
  broadcasts_S7000x1_S7000x64 : S7000x1.Broadcasts S7000x64
  gather_S70000x64_S2500000x1_S2500000x64_1_0_n_n_0_1_164_wf : GatherDims.WF S70000x64 S2500000x1 S2500000x64 [1] [0] [] [0] [] 1 ![1, 64]
  scatter_S70000x64_S2500000x1_S2500000x64_1_0_0_1_wf : ScatterDims.WF S70000x64 S2500000x1 S2500000x64 [1] [0] [0] 1
  dot_S800x4096_S64x4096_S800x64_1_1_0_0_n_n_wf : DotDims.WF S800x4096 S64x4096 S800x64 [1] [1] [0] [0] [] []
  dot_S5000x64_S64x64_S5000x64_1_1_0_0_n_n_wf : DotDims.WF S5000x64 S64x64 S5000x64 [1] [1] [0] [0] [] []
  dot_S2000x768_S64x768_S2000x64_1_1_0_0_n_n_wf : DotDims.WF S2000x768 S64x768 S2000x64 [1] [1] [0] [0] [] []
  gather_S40000x64_S1000000x1_S1000000x64_1_0_n_n_0_1_164_wf : GatherDims.WF S40000x64 S1000000x1 S1000000x64 [1] [0] [] [0] [] 1 ![1, 64]
  scatter_S40000x64_S1000000x1_S1000000x64_1_0_0_1_wf : ScatterDims.WF S40000x64 S1000000x1 S1000000x64 [1] [0] [0] 1
  scatter_S30000x64_S1000000x1_S1000000x64_1_0_0_1_wf : ScatterDims.WF S30000x64 S1000000x1 S1000000x64 [1] [0] [0] 1
  dot_S7000x64_S64x64_S7000x64_1_1_0_0_n_n_wf : DotDims.WF S7000x64 S64x64 S7000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x4096.size a ≤ S40000x4096.size a
  hwx0_0 : ∀ i : grid0.Coords, EltTy.bits .f32 = 32 ∨ (Rect.block (s := S40000x4096) S800x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S800x64.size a ≤ S40000x64.size a
  hwx0_3 : ∀ i : grid0.Coords, EltTy.bits .f32 = 32 ∨ (Rect.block (s := S40000x64) S800x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x64.size a ≤ S2x64.size a
  hwx0_4 : ∀ i : grid0.Coords, EltTy.bits .f32 = 32 ∨ (Rect.block (s := S2x64) S2x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S40000x64.size a
  hwx1_0 : ∀ i : grid1.Coords, EltTy.bits .f32 = 32 ∨ (Rect.block (s := S40000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x64.size a ≤ S2x64.size a
  hwx1_1 : ∀ i : grid1.Coords, EltTy.bits .f32 = 32 ∨ (Rect.block (s := S2x64) S2x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S40000x64.size a
  hwx1_4 : ∀ i : grid1.Coords, EltTy.bits .f32 = 32 ∨ (Rect.block (s := S40000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S40000x64.size a
  hwx2_0 : ∀ i : grid2.Coords, EltTy.bits .f32 = 32 ∨ (Rect.block (s := S40000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S40000x64.size a
  hwx2_3 : ∀ i : grid2.Coords, EltTy.bits .f32 = 32 ∨ (Rect.block (s := S40000x64) S5000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2x64.size a ≤ S2x64.size a
  hwx2_4 : ∀ i : grid2.Coords, EltTy.bits .f32 = 32 ∨ (Rect.block (s := S2x64) S2x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S40000x64.size a
  hwx3_0 : ∀ i : grid3.Coords, EltTy.bits .f32 = 32 ∨ (Rect.block (s := S40000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2x64.size a ≤ S2x64.size a
  hwx3_1 : ∀ i : grid3.Coords, EltTy.bits .f32 = 32 ∨ (Rect.block (s := S2x64) S2x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S40000x64.size a
  hwx3_4 : ∀ i : grid3.Coords, EltTy.bits .f32 = 32 ∨ (Rect.block (s := S40000x64) S5000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S40000x64.size a
  hwx3_5 : ∀ i : grid3.Coords, EltTy.bits .f32 = 32 ∨ (Rect.block (s := S40000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x768.size a ≤ S40000x768.size a
  hwx4_0 : ∀ i : grid4.Coords, EltTy.bits .f32 = 32 ∨ (Rect.block (s := S40000x768) S2000x768.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x768.size a ≤ S64x768.size a
  hwx4_1 : ∀ i : grid4.Coords, EltTy.bits .f32 = 32 ∨ (Rect.block (s := S64x768) S64x768.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S40000x64.size a
  hwx4_3 : ∀ i : grid4.Coords, EltTy.bits .f32 = 32 ∨ (Rect.block (s := S40000x64) S2000x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S2x64.size a ≤ S2x64.size a
  hwx4_4 : ∀ i : grid4.Coords, EltTy.bits .f32 = 32 ∨ (Rect.block (s := S2x64) S2x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S40000x64.size a
  hwx5_0 : ∀ i : grid5.Coords, EltTy.bits .f32 = 32 ∨ (Rect.block (s := S40000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2x64.size a ≤ S2x64.size a
  hwx5_1 : ∀ i : grid5.Coords, EltTy.bits .f32 = 32 ∨ (Rect.block (s := S2x64) S2x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S40000x64.size a
  hwx5_4 : ∀ i : grid5.Coords, EltTy.bits .f32 = 32 ∨ (Rect.block (s := S40000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S40000x64.size a
  hwx6_0 : ∀ i : grid6.Coords, EltTy.bits .f32 = 32 ∨ (Rect.block (s := S40000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S40000x64.size a
  hwx6_3 : ∀ i : grid6.Coords, EltTy.bits .f32 = 32 ∨ (Rect.block (s := S40000x64) S5000x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S2x64.size a ≤ S2x64.size a
  hwx6_4 : ∀ i : grid6.Coords, EltTy.bits .f32 = 32 ∨ (Rect.block (s := S2x64) S2x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S40000x64.size a
  hwx7_0 : ∀ i : grid7.Coords, EltTy.bits .f32 = 32 ∨ (Rect.block (s := S40000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S2x64.size a ≤ S2x64.size a
  hwx7_1 : ∀ i : grid7.Coords, EltTy.bits .f32 = 32 ∨ (Rect.block (s := S2x64) S2x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S40000x64.size a
  hwx7_4 : ∀ i : grid7.Coords, EltTy.bits .f32 = 32 ∨ (Rect.block (s := S40000x64) S5000x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S40000x64.size a
  hwx7_5 : ∀ i : grid7.Coords, EltTy.bits .f32 = 32 ∨ (Rect.block (s := S40000x64) S5000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S40000x64.size a
  hwx8_0 : ∀ i : grid8.Coords, EltTy.bits .f32 = 32 ∨ (Rect.block (s := S40000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x64.size a ≤ S40000x64.size a
  hwx8_3 : ∀ i : grid8.Coords, EltTy.bits .f32 = 32 ∨ (Rect.block (s := S40000x64) S5000x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x64.size a ≤ S40000x64.size a
  hwx8_4 : ∀ i : grid8.Coords, EltTy.bits .f32 = 32 ∨ (Rect.block (s := S40000x64) S5000x64.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S40000x64.size a
  hwx9_0 : ∀ i : grid9.Coords, EltTy.bits .f32 = 32 ∨ (Rect.block (s := S40000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x64.size a ≤ S40000x64.size a
  hwx9_3 : ∀ i : grid9.Coords, EltTy.bits .f32 = 32 ∨ (Rect.block (s := S40000x64) S5000x64.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x64.size a ≤ S40000x64.size a
  hwx9_4 : ∀ i : grid9.Coords, EltTy.bits .f32 = 32 ∨ (Rect.block (s := S40000x64) S5000x64.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S7000x64.size a ≤ S70000x64.size a
  hwx10_0 : ∀ i : grid10.Coords, EltTy.bits .f32 = 32 ∨ (Rect.block (s := S70000x64) S7000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S7000x64.size a ≤ S70000x64.size a
  hwx10_1 : ∀ i : grid10.Coords, EltTy.bits .f32 = 32 ∨ (Rect.block (s := S70000x64) S7000x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S7000x64.size a ≤ S70000x64.size a
  hwx10_2 : ∀ i : grid10.Coords, EltTy.bits .f32 = 32 ∨ (Rect.block (s := S70000x64) S7000x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S64x64.size a ≤ S64x64.size a
  hwx10_3 : ∀ i : grid10.Coords, EltTy.bits .f32 = 32 ∨ (Rect.block (s := S64x64) S64x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x64.size a ≤ S1x64.size a
  hwx10_4 : ∀ i : grid10.Coords, EltTy.bits .f32 = 32 ∨ (Rect.block (s := S1x64) S1x64.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x64.size a ≤ S1x64.size a
  hwx10_5 : ∀ i : grid10.Coords, EltTy.bits .f32 = 32 ∨ (Rect.block (s := S1x64) S1x64.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S7000x64.size a ≤ S70000x64.size a
  hwx10_6 : ∀ i : grid10.Coords, EltTy.bits .f32 = 32 ∨ (Rect.block (s := S70000x64) S7000x64.size (cc10_transform_6 i) (hinb10_6 i)).WholeWords (EltTy.packing .f32)

variable [Facts₀]

def gather_S70000x64_S2500000x1_S2500000x64_1_0_n_n_0_1_164 : GatherDims S70000x64 S2500000x1 S2500000x64 where
  offsetDims := [1]
  collapsedSliceDims := [0]
  operandBatchingDims := []
  startIndicesBatchingDims := []
  startIndexMap := [0]
  indexVectorDim := 1
  sliceSizes := ![1, 64]
  wf := gather_S70000x64_S2500000x1_S2500000x64_1_0_n_n_0_1_164_wf
def scatter_S70000x64_S2500000x1_S2500000x64_1_0_0_1 : ScatterDims S70000x64 S2500000x1 S2500000x64 where
  updateWindowDims := [1]
  insertedWindowDims := [0]
  scatterDimsToOperandDims := [0]
  indexVectorDim := 1
  wf := scatter_S70000x64_S2500000x1_S2500000x64_1_0_0_1_wf
def dot_S800x4096_S64x4096_S800x64_1_1_0_0_n_n : DotDims S800x4096 S64x4096 S800x64 where
  lhsContracting := [1]
  rhsContracting := [1]
  lhsNonContracting := [0]
  rhsNonContracting := [0]
  lhsBatch := []
  rhsBatch := []
  wf := dot_S800x4096_S64x4096_S800x64_1_1_0_0_n_n_wf
def dot_S5000x64_S64x64_S5000x64_1_1_0_0_n_n : DotDims S5000x64 S64x64 S5000x64 where
  lhsContracting := [1]
  rhsContracting := [1]
  lhsNonContracting := [0]
  rhsNonContracting := [0]
  lhsBatch := []
  rhsBatch := []
  wf := dot_S5000x64_S64x64_S5000x64_1_1_0_0_n_n_wf
def dot_S2000x768_S64x768_S2000x64_1_1_0_0_n_n : DotDims S2000x768 S64x768 S2000x64 where
  lhsContracting := [1]
  rhsContracting := [1]
  lhsNonContracting := [0]
  rhsNonContracting := [0]
  lhsBatch := []
  rhsBatch := []
  wf := dot_S2000x768_S64x768_S2000x64_1_1_0_0_n_n_wf
def gather_S40000x64_S1000000x1_S1000000x64_1_0_n_n_0_1_164 : GatherDims S40000x64 S1000000x1 S1000000x64 where
  offsetDims := [1]
  collapsedSliceDims := [0]
  operandBatchingDims := []
  startIndicesBatchingDims := []
  startIndexMap := [0]
  indexVectorDim := 1
  sliceSizes := ![1, 64]
  wf := gather_S40000x64_S1000000x1_S1000000x64_1_0_n_n_0_1_164_wf
def scatter_S40000x64_S1000000x1_S1000000x64_1_0_0_1 : ScatterDims S40000x64 S1000000x1 S1000000x64 where
  updateWindowDims := [1]
  insertedWindowDims := [0]
  scatterDimsToOperandDims := [0]
  indexVectorDim := 1
  wf := scatter_S40000x64_S1000000x1_S1000000x64_1_0_0_1_wf
def scatter_S30000x64_S1000000x1_S1000000x64_1_0_0_1 : ScatterDims S30000x64 S1000000x1 S1000000x64 where
  updateWindowDims := [1]
  insertedWindowDims := [0]
  scatterDimsToOperandDims := [0]
  indexVectorDim := 1
  wf := scatter_S30000x64_S1000000x1_S1000000x64_1_0_0_1_wf
def dot_S7000x64_S64x64_S7000x64_1_1_0_0_n_n : DotDims S7000x64 S64x64 S7000x64 where
  lhsContracting := [1]
  rhsContracting := [1]
  lhsNonContracting := [0]
  rhsNonContracting := [0]
  lhsBatch := []
  rhsBatch := []
  wf := dot_S7000x64_S64x64_S7000x64_1_1_0_0_n_n_wf

abbrev win0_0 : Pipeline.Window sig grid0 :=
  Pipeline.Window.ofSpec (Memref.whole main_arg14) S800x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg16) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32_0) S800x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32_1) S2x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v32_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32_1) S2x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v35) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg20) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37_0) S5000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v37_1) S2x64.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v37_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37_1) S2x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v38) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v35) S5000x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v40) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_arg15) S2000x768.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg24) S64x768.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v41) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v42_0) S2000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v42_1) S2x64.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

abbrev win5_0 : Pipeline.Window sig grid5 :=
  Pipeline.Window.ofSpec (Memref.whole main_v42_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v42_1) S2x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v43) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v44) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v45) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v45) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg28) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v46) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v47_0) S5000x64.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v47_1) S2x64.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev idle6 : Fin 5 → grid6.Coords → Bool := fun | 0 => fun _ => false | 1 => fun _ => false | 2 => fun _ => false | 3 => fun _ => false | 4 => fun i => !(k6_cond2 i == 1#1) | ⟨_ + 5, h⟩ => absurd h (Nat.not_lt.2 (Nat.le_add_left _ _))

abbrev win7_0 : Pipeline.Window sig grid7 :=
  Pipeline.Window.ofSpec (Memref.whole main_v47_0) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v47_1) S2x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v48) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v49) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v45) S5000x64.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v50) S5000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v40) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg32) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v51) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg13) S5000x64.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v52) S5000x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v50) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg34) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v53) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg13) S5000x64.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v54) S5000x64.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v133) S7000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v134) S7000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v30) S7000x64.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_arg36) S64x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v135) S1x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_arg38) S1x64.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v136) S7000x64.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

class Facts : Prop extends Facts₀ where

variable [Facts]
-- ==== ReferenceIdeal.lean ====
abbrev S2500000 : Shape := ⟨1, ![2500000]⟩
abbrev S1000000 : Shape := ⟨1, ![1000000]⟩
abbrev S30000x64 : Shape := ⟨2, ![30000, 64]⟩
abbrev S40000x64 : Shape := ⟨2, ![40000, 64]⟩
abbrev S40000x4096 : Shape := ⟨2, ![40000, 4096]⟩
abbrev S40000x768 : Shape := ⟨2, ![40000, 768]⟩
abbrev S64x4096 : Shape := ⟨2, ![64, 4096]⟩
abbrev S64 : Shape := ⟨1, ![64]⟩
abbrev S64x64 : Shape := ⟨2, ![64, 64]⟩
abbrev S64x768 : Shape := ⟨2, ![64, 768]⟩
abbrev S1x64 : Shape := ⟨2, ![1, 64]⟩
abbrev S70000x64 : Shape := ⟨2, ![70000, 64]⟩
abbrev S2500000x1 : Shape := ⟨2, ![2500000, 1]⟩
abbrev S_ : Shape := ⟨0, ![]⟩
abbrev S2500000x64 : Shape := ⟨2, ![2500000, 64]⟩
abbrev S4096x64 : Shape := ⟨2, ![4096, 64]⟩
abbrev S768x64 : Shape := ⟨2, ![768, 64]⟩
abbrev S1000000x1 : Shape := ⟨2, ![1000000, 1]⟩
abbrev S1000000x64 : Shape := ⟨2, ![1000000, 64]⟩
abbrev S64x1 : Shape := ⟨2, ![64, 1]⟩
abbrev S70000x1 : Shape := ⟨2, ![70000, 1]⟩
abbrev S70000x2 : Shape := ⟨2, ![70000, 2]⟩
abbrev S70000 : Shape := ⟨1, ![70000]⟩

abbrev nBuf : Space → Nat
  | .hbm => 480
  | .vmem => 0
  | .smem => 0
  | _ => 0

abbrev hbmTy0_0 (i : Nat) : BufTy := match i % 128 with
  | 0 => ⟨S2500000, .i32⟩
  | 1 => ⟨S2500000, .i32⟩
  | 2 => ⟨S2500000, .f32⟩
  | 3 => ⟨S1000000, .i32⟩
  | 4 => ⟨S1000000, .i32⟩
  | 5 => ⟨S1000000, .f32⟩
  | 6 => ⟨S1000000, .i32⟩
  | 7 => ⟨S1000000, .i32⟩
  | 8 => ⟨S1000000, .f32⟩
  | 9 => ⟨S1000000, .i32⟩
  | 10 => ⟨S1000000, .i32⟩
  | 11 => ⟨S1000000, .f32⟩
  | 12 => ⟨S30000x64, .f32⟩
  | 13 => ⟨S40000x64, .f32⟩
  | 14 => ⟨S40000x4096, .f32⟩
  | 15 => ⟨S40000x768, .f32⟩
  | 16 => ⟨S64x4096, .f32⟩
  | 17 => ⟨S64, .f32⟩
  | 18 => ⟨S64, .f32⟩
  | 19 => ⟨S64, .f32⟩
  | 20 => ⟨S64x64, .f32⟩
  | 21 => ⟨S64, .f32⟩
  | 22 => ⟨S64, .f32⟩
  | 23 => ⟨S64, .f32⟩
  | 24 => ⟨S64x768, .f32⟩
  | 25 => ⟨S64, .f32⟩
  | 26 => ⟨S64, .f32⟩
  | 27 => ⟨S64, .f32⟩
  | 28 => ⟨S64x64, .f32⟩
  | 29 => ⟨S64, .f32⟩
  | 30 => ⟨S64, .f32⟩
  | 31 => ⟨S64, .f32⟩
  | 32 => ⟨S64x64, .f32⟩
  | 33 => ⟨S64, .f32⟩
  | 34 => ⟨S64x64, .f32⟩
  | 35 => ⟨S64, .f32⟩
  | 36 => ⟨S64x64, .f32⟩
  | 37 => ⟨S64, .f32⟩
  | 38 => ⟨S1x64, .f32⟩
  | 39 => ⟨S70000x64, .f32⟩
  | 40 => ⟨S2500000x1, .f32⟩
  | 41 => ⟨S_, .i32⟩
  | 42 => ⟨S2500000, .i32⟩
  | 43 => ⟨S2500000, .i1⟩
  | 44 => ⟨S_, .i32⟩
  | 45 => ⟨S2500000, .i32⟩
  | 46 => ⟨S2500000, .i32⟩
  | 47 => ⟨S2500000, .i32⟩
  | 48 => ⟨S2500000x1, .i32⟩
  | 49 => ⟨S2500000x64, .f32⟩
  | 50 => ⟨S2500000x64, .f32⟩
  | 51 => ⟨S2500000x64, .f32⟩
  | 52 => ⟨S_, .f32⟩
  | 53 => ⟨S70000x64, .f32⟩
  | 54 => ⟨S2500000x1, .i32⟩
  | 55 => ⟨S70000x64, .f32⟩
  | 56 => ⟨S2500000x1, .f32⟩
  | 57 => ⟨S_, .i32⟩
  | 58 => ⟨S2500000, .i32⟩
  | 59 => ⟨S2500000, .i1⟩
  | 60 => ⟨S_, .i32⟩
  | 61 => ⟨S2500000, .i32⟩
  | 62 => ⟨S2500000, .i32⟩
  | 63 => ⟨S2500000, .i32⟩
  | 64 => ⟨S2500000x1, .i32⟩
  | 65 => ⟨S2500000x64, .f32⟩
  | 66 => ⟨S2500000x64, .f32⟩
  | 67 => ⟨S2500000x64, .f32⟩
  | 68 => ⟨S_, .f32⟩
  | 69 => ⟨S70000x64, .f32⟩
  | 70 => ⟨S2500000x1, .i32⟩
  | 71 => ⟨S70000x64, .f32⟩
  | 72 => ⟨S70000x64, .f32⟩
  | 73 => ⟨S70000x64, .f32⟩
  | 74 => ⟨S_, .f32⟩
  | 75 => ⟨S70000x64, .f32⟩
  | 76 => ⟨S70000x64, .f32⟩
  | 77 => ⟨S4096x64, .f32⟩
  | 78 => ⟨S40000x64, .f32⟩
  | 79 => ⟨S1x64, .f32⟩
  | 80 => ⟨S40000x64, .f32⟩
  | 81 => ⟨S40000x64, .f32⟩
  | 82 => ⟨S_, .f32⟩
  | 83 => ⟨S64, .f32⟩
  | 84 => ⟨S_, .f32⟩
  | 85 => ⟨S64, .f32⟩
  | 86 => ⟨S64, .f32⟩
  | 87 => ⟨S_, .i32⟩
  | 88 => ⟨S_, .f32⟩
  | 89 => ⟨S64, .f32⟩
  | 90 => ⟨S1x64, .f32⟩
  | 91 => ⟨S_, .f32⟩
  | 92 => ⟨S1x64, .f32⟩
  | 93 => ⟨S1x64, .f32⟩
  | 94 => ⟨S40000x64, .f32⟩
  | 95 => ⟨S40000x64, .f32⟩
  | 96 => ⟨S40000x64, .f32⟩
  | 97 => ⟨S_, .f32⟩
  | 98 => ⟨S_, .f32⟩
  | 99 => ⟨S_, .f32⟩
  | 100 => ⟨S_, .f32⟩
  | 101 => ⟨S64, .f32⟩
  | 102 => ⟨S64, .f32⟩
  | 103 => ⟨S64, .f32⟩
  | 104 => ⟨S_, .f32⟩
  | 105 => ⟨S_, .i1⟩
  | 106 => ⟨S_, .f32⟩
  | 107 => ⟨S_, .f32⟩
  | 108 => ⟨S64, .f32⟩
  | 109 => ⟨S64, .f32⟩
  | 110 => ⟨S1x64, .f32⟩
  | 111 => ⟨S40000x64, .f32⟩
  | 112 => ⟨S40000x64, .f32⟩
  | 113 => ⟨S_, .f32⟩
  | 114 => ⟨S64, .f32⟩
  | 115 => ⟨S64, .f32⟩
  | 116 => ⟨S64, .f32⟩
  | 117 => ⟨S1x64, .f32⟩
  | 118 => ⟨S40000x64, .f32⟩
  | 119 => ⟨S40000x64, .f32⟩
  | 120 => ⟨S1x64, .f32⟩
  | 121 => ⟨S40000x64, .f32⟩
  | 122 => ⟨S40000x64, .f32⟩
  | 123 => ⟨S1x64, .f32⟩
  | 124 => ⟨S40000x64, .f32⟩
  | 125 => ⟨S40000x64, .f32⟩
  | 126 => ⟨S_, .f32⟩
  | 127 => ⟨S40000x64, .f32⟩
  | _ => ⟨S2500000, .i32⟩

abbrev hbmTy0_1 (i : Nat) : BufTy := match i % 128 with
  | 0 => ⟨S40000x64, .i1⟩
  | 1 => ⟨S_, .f32⟩
  | 2 => ⟨S40000x64, .f32⟩
  | 3 => ⟨S40000x64, .f32⟩
  | 4 => ⟨S40000x64, .f32⟩
  | 5 => ⟨S64x64, .f32⟩
  | 6 => ⟨S40000x64, .f32⟩
  | 7 => ⟨S1x64, .f32⟩
  | 8 => ⟨S40000x64, .f32⟩
  | 9 => ⟨S40000x64, .f32⟩
  | 10 => ⟨S_, .f32⟩
  | 11 => ⟨S64, .f32⟩
  | 12 => ⟨S_, .f32⟩
  | 13 => ⟨S64, .f32⟩
  | 14 => ⟨S64, .f32⟩
  | 15 => ⟨S_, .i32⟩
  | 16 => ⟨S_, .f32⟩
  | 17 => ⟨S64, .f32⟩
  | 18 => ⟨S1x64, .f32⟩
  | 19 => ⟨S_, .f32⟩
  | 20 => ⟨S1x64, .f32⟩
  | 21 => ⟨S1x64, .f32⟩
  | 22 => ⟨S40000x64, .f32⟩
  | 23 => ⟨S40000x64, .f32⟩
  | 24 => ⟨S40000x64, .f32⟩
  | 25 => ⟨S_, .f32⟩
  | 26 => ⟨S_, .f32⟩
  | 27 => ⟨S_, .f32⟩
  | 28 => ⟨S_, .f32⟩
  | 29 => ⟨S64, .f32⟩
  | 30 => ⟨S64, .f32⟩
  | 31 => ⟨S64, .f32⟩
  | 32 => ⟨S_, .f32⟩
  | 33 => ⟨S_, .i1⟩
  | 34 => ⟨S_, .f32⟩
  | 35 => ⟨S_, .f32⟩
  | 36 => ⟨S64, .f32⟩
  | 37 => ⟨S64, .f32⟩
  | 38 => ⟨S1x64, .f32⟩
  | 39 => ⟨S40000x64, .f32⟩
  | 40 => ⟨S40000x64, .f32⟩
  | 41 => ⟨S_, .f32⟩
  | 42 => ⟨S64, .f32⟩
  | 43 => ⟨S64, .f32⟩
  | 44 => ⟨S64, .f32⟩
  | 45 => ⟨S1x64, .f32⟩
  | 46 => ⟨S40000x64, .f32⟩
  | 47 => ⟨S40000x64, .f32⟩
  | 48 => ⟨S1x64, .f32⟩
  | 49 => ⟨S40000x64, .f32⟩
  | 50 => ⟨S40000x64, .f32⟩
  | 51 => ⟨S1x64, .f32⟩
  | 52 => ⟨S40000x64, .f32⟩
  | 53 => ⟨S40000x64, .f32⟩
  | 54 => ⟨S_, .f32⟩
  | 55 => ⟨S40000x64, .f32⟩
  | 56 => ⟨S40000x64, .i1⟩
  | 57 => ⟨S_, .f32⟩
  | 58 => ⟨S40000x64, .f32⟩
  | 59 => ⟨S40000x64, .f32⟩
  | 60 => ⟨S40000x64, .f32⟩
  | 61 => ⟨S40000x64, .f32⟩
  | 62 => ⟨S768x64, .f32⟩
  | 63 => ⟨S40000x64, .f32⟩
  | 64 => ⟨S1x64, .f32⟩
  | 65 => ⟨S40000x64, .f32⟩
  | 66 => ⟨S40000x64, .f32⟩
  | 67 => ⟨S_, .f32⟩
  | 68 => ⟨S64, .f32⟩
  | 69 => ⟨S_, .f32⟩
  | 70 => ⟨S64, .f32⟩
  | 71 => ⟨S64, .f32⟩
  | 72 => ⟨S_, .i32⟩
  | 73 => ⟨S_, .f32⟩
  | 74 => ⟨S64, .f32⟩
  | 75 => ⟨S1x64, .f32⟩
  | 76 => ⟨S_, .f32⟩
  | 77 => ⟨S1x64, .f32⟩
  | 78 => ⟨S1x64, .f32⟩
  | 79 => ⟨S40000x64, .f32⟩
  | 80 => ⟨S40000x64, .f32⟩
  | 81 => ⟨S40000x64, .f32⟩
  | 82 => ⟨S_, .f32⟩
  | 83 => ⟨S_, .f32⟩
  | 84 => ⟨S_, .f32⟩
  | 85 => ⟨S_, .f32⟩
  | 86 => ⟨S64, .f32⟩
  | 87 => ⟨S64, .f32⟩
  | 88 => ⟨S64, .f32⟩
  | 89 => ⟨S_, .f32⟩
  | 90 => ⟨S_, .i1⟩
  | 91 => ⟨S_, .f32⟩
  | 92 => ⟨S_, .f32⟩
  | 93 => ⟨S64, .f32⟩
  | 94 => ⟨S64, .f32⟩
  | 95 => ⟨S1x64, .f32⟩
  | 96 => ⟨S40000x64, .f32⟩
  | 97 => ⟨S40000x64, .f32⟩
  | 98 => ⟨S_, .f32⟩
  | 99 => ⟨S64, .f32⟩
  | 100 => ⟨S64, .f32⟩
  | 101 => ⟨S64, .f32⟩
  | 102 => ⟨S1x64, .f32⟩
  | 103 => ⟨S40000x64, .f32⟩
  | 104 => ⟨S40000x64, .f32⟩
  | 105 => ⟨S1x64, .f32⟩
  | 106 => ⟨S40000x64, .f32⟩
  | 107 => ⟨S40000x64, .f32⟩
  | 108 => ⟨S1x64, .f32⟩
  | 109 => ⟨S40000x64, .f32⟩
  | 110 => ⟨S40000x64, .f32⟩
  | 111 => ⟨S_, .f32⟩
  | 112 => ⟨S40000x64, .f32⟩
  | 113 => ⟨S40000x64, .i1⟩
  | 114 => ⟨S_, .f32⟩
  | 115 => ⟨S40000x64, .f32⟩
  | 116 => ⟨S40000x64, .f32⟩
  | 117 => ⟨S40000x64, .f32⟩
  | 118 => ⟨S64x64, .f32⟩
  | 119 => ⟨S40000x64, .f32⟩
  | 120 => ⟨S1x64, .f32⟩
  | 121 => ⟨S40000x64, .f32⟩
  | 122 => ⟨S40000x64, .f32⟩
  | 123 => ⟨S_, .f32⟩
  | 124 => ⟨S64, .f32⟩
  | 125 => ⟨S_, .f32⟩
  | 126 => ⟨S64, .f32⟩
  | 127 => ⟨S64, .f32⟩
  | _ => ⟨S2500000, .i32⟩

abbrev hbmTy0_2 (i : Nat) : BufTy := match i % 128 with
  | 0 => ⟨S_, .i32⟩
  | 1 => ⟨S_, .f32⟩
  | 2 => ⟨S64, .f32⟩
  | 3 => ⟨S1x64, .f32⟩
  | 4 => ⟨S_, .f32⟩
  | 5 => ⟨S1x64, .f32⟩
  | 6 => ⟨S1x64, .f32⟩
  | 7 => ⟨S40000x64, .f32⟩
  | 8 => ⟨S40000x64, .f32⟩
  | 9 => ⟨S40000x64, .f32⟩
  | 10 => ⟨S_, .f32⟩
  | 11 => ⟨S_, .f32⟩
  | 12 => ⟨S_, .f32⟩
  | 13 => ⟨S_, .f32⟩
  | 14 => ⟨S64, .f32⟩
  | 15 => ⟨S64, .f32⟩
  | 16 => ⟨S64, .f32⟩
  | 17 => ⟨S_, .f32⟩
  | 18 => ⟨S_, .i1⟩
  | 19 => ⟨S_, .f32⟩
  | 20 => ⟨S_, .f32⟩
  | 21 => ⟨S64, .f32⟩
  | 22 => ⟨S64, .f32⟩
  | 23 => ⟨S1x64, .f32⟩
  | 24 => ⟨S40000x64, .f32⟩
  | 25 => ⟨S40000x64, .f32⟩
  | 26 => ⟨S_, .f32⟩
  | 27 => ⟨S64, .f32⟩
  | 28 => ⟨S64, .f32⟩
  | 29 => ⟨S64, .f32⟩
  | 30 => ⟨S1x64, .f32⟩
  | 31 => ⟨S40000x64, .f32⟩
  | 32 => ⟨S40000x64, .f32⟩
  | 33 => ⟨S1x64, .f32⟩
  | 34 => ⟨S40000x64, .f32⟩
  | 35 => ⟨S40000x64, .f32⟩
  | 36 => ⟨S1x64, .f32⟩
  | 37 => ⟨S40000x64, .f32⟩
  | 38 => ⟨S40000x64, .f32⟩
  | 39 => ⟨S_, .f32⟩
  | 40 => ⟨S40000x64, .f32⟩
  | 41 => ⟨S40000x64, .i1⟩
  | 42 => ⟨S_, .f32⟩
  | 43 => ⟨S40000x64, .f32⟩
  | 44 => ⟨S40000x64, .f32⟩
  | 45 => ⟨S40000x64, .f32⟩
  | 46 => ⟨S40000x64, .f32⟩
  | 47 => ⟨S64x64, .f32⟩
  | 48 => ⟨S40000x64, .f32⟩
  | 49 => ⟨S1x64, .f32⟩
  | 50 => ⟨S40000x64, .f32⟩
  | 51 => ⟨S40000x64, .f32⟩
  | 52 => ⟨S40000x64, .f32⟩
  | 53 => ⟨S40000x64, .f32⟩
  | 54 => ⟨S_, .f32⟩
  | 55 => ⟨S40000x64, .f32⟩
  | 56 => ⟨S40000x64, .f32⟩
  | 57 => ⟨S_, .f32⟩
  | 58 => ⟨S40000x64, .f32⟩
  | 59 => ⟨S40000x64, .f32⟩
  | 60 => ⟨S40000x64, .f32⟩
  | 61 => ⟨S64x64, .f32⟩
  | 62 => ⟨S40000x64, .f32⟩
  | 63 => ⟨S1x64, .f32⟩
  | 64 => ⟨S40000x64, .f32⟩
  | 65 => ⟨S40000x64, .f32⟩
  | 66 => ⟨S40000x64, .f32⟩
  | 67 => ⟨S40000x64, .f32⟩
  | 68 => ⟨S_, .f32⟩
  | 69 => ⟨S40000x64, .f32⟩
  | 70 => ⟨S40000x64, .f32⟩
  | 71 => ⟨S_, .f32⟩
  | 72 => ⟨S40000x64, .f32⟩
  | 73 => ⟨S40000x64, .f32⟩
  | 74 => ⟨S40000x64, .f32⟩
  | 75 => ⟨S1000000x1, .f32⟩
  | 76 => ⟨S_, .i32⟩
  | 77 => ⟨S1000000, .i32⟩
  | 78 => ⟨S1000000, .i1⟩
  | 79 => ⟨S_, .i32⟩
  | 80 => ⟨S1000000, .i32⟩
  | 81 => ⟨S1000000, .i32⟩
  | 82 => ⟨S1000000, .i32⟩
  | 83 => ⟨S1000000x1, .i32⟩
  | 84 => ⟨S1000000x64, .f32⟩
  | 85 => ⟨S1000000x64, .f32⟩
  | 86 => ⟨S1000000x64, .f32⟩
  | 87 => ⟨S_, .f32⟩
  | 88 => ⟨S40000x64, .f32⟩
  | 89 => ⟨S1000000x1, .i32⟩
  | 90 => ⟨S40000x64, .f32⟩
  | 91 => ⟨S1000000x1, .f32⟩
  | 92 => ⟨S_, .i32⟩
  | 93 => ⟨S1000000, .i32⟩
  | 94 => ⟨S1000000, .i1⟩
  | 95 => ⟨S_, .i32⟩
  | 96 => ⟨S1000000, .i32⟩
  | 97 => ⟨S1000000, .i32⟩
  | 98 => ⟨S1000000, .i32⟩
  | 99 => ⟨S1000000x1, .i32⟩
  | 100 => ⟨S1000000x64, .f32⟩
  | 101 => ⟨S1000000x64, .f32⟩
  | 102 => ⟨S1000000x64, .f32⟩
  | 103 => ⟨S_, .f32⟩
  | 104 => ⟨S40000x64, .f32⟩
  | 105 => ⟨S1000000x1, .i32⟩
  | 106 => ⟨S40000x64, .f32⟩
  | 107 => ⟨S1000000x1, .f32⟩
  | 108 => ⟨S_, .i32⟩
  | 109 => ⟨S1000000, .i32⟩
  | 110 => ⟨S1000000, .i1⟩
  | 111 => ⟨S_, .i32⟩
  | 112 => ⟨S1000000, .i32⟩
  | 113 => ⟨S1000000, .i32⟩
  | 114 => ⟨S1000000, .i32⟩
  | 115 => ⟨S1000000x1, .i32⟩
  | 116 => ⟨S1000000x64, .f32⟩
  | 117 => ⟨S1000000x64, .f32⟩
  | 118 => ⟨S1000000x64, .f32⟩
  | 119 => ⟨S_, .f32⟩
  | 120 => ⟨S40000x64, .f32⟩
  | 121 => ⟨S1000000x1, .i32⟩
  | 122 => ⟨S40000x64, .f32⟩
  | 123 => ⟨S1000000x1, .f32⟩
  | 124 => ⟨S_, .i32⟩
  | 125 => ⟨S1000000, .i32⟩
  | 126 => ⟨S1000000, .i1⟩
  | 127 => ⟨S_, .i32⟩
  | _ => ⟨S2500000, .i32⟩

abbrev hbmTy0_3 (i : Nat) : BufTy := match i % 128 with
  | 0 => ⟨S1000000, .i32⟩
  | 1 => ⟨S1000000, .i32⟩
  | 2 => ⟨S1000000, .i32⟩
  | 3 => ⟨S1000000x1, .i32⟩
  | 4 => ⟨S1000000x64, .f32⟩
  | 5 => ⟨S1000000x64, .f32⟩
  | 6 => ⟨S1000000x64, .f32⟩
  | 7 => ⟨S_, .f32⟩
  | 8 => ⟨S40000x64, .f32⟩
  | 9 => ⟨S1000000x1, .i32⟩
  | 10 => ⟨S40000x64, .f32⟩
  | 11 => ⟨S1000000x1, .f32⟩
  | 12 => ⟨S_, .i32⟩
  | 13 => ⟨S1000000, .i32⟩
  | 14 => ⟨S1000000, .i1⟩
  | 15 => ⟨S_, .i32⟩
  | 16 => ⟨S1000000, .i32⟩
  | 17 => ⟨S1000000, .i32⟩
  | 18 => ⟨S1000000, .i32⟩
  | 19 => ⟨S1000000x1, .i32⟩
  | 20 => ⟨S1000000x64, .f32⟩
  | 21 => ⟨S1000000x64, .f32⟩
  | 22 => ⟨S1000000x64, .f32⟩
  | 23 => ⟨S_, .f32⟩
  | 24 => ⟨S30000x64, .f32⟩
  | 25 => ⟨S1000000x1, .i32⟩
  | 26 => ⟨S30000x64, .f32⟩
  | 27 => ⟨S1000000x1, .f32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000x64, .f32⟩
  | 37 => ⟨S1000000x64, .f32⟩
  | 38 => ⟨S1000000x64, .f32⟩
  | 39 => ⟨S_, .f32⟩
  | 40 => ⟨S30000x64, .f32⟩
  | 41 => ⟨S1000000x1, .i32⟩
  | 42 => ⟨S30000x64, .f32⟩
  | 43 => ⟨S70000x64, .f32⟩
  | 44 => ⟨S70000x64, .f32⟩
  | 45 => ⟨S64x64, .f32⟩
  | 46 => ⟨S70000x64, .f32⟩
  | 47 => ⟨S1x64, .f32⟩
  | 48 => ⟨S70000x64, .f32⟩
  | 49 => ⟨S70000x64, .f32⟩
  | 50 => ⟨S_, .f32⟩
  | 51 => ⟨S70000x64, .f32⟩
  | 52 => ⟨S70000x64, .i1⟩
  | 53 => ⟨S_, .f32⟩
  | 54 => ⟨S70000x64, .f32⟩
  | 55 => ⟨S70000x64, .f32⟩
  | 56 => ⟨S70000x64, .f32⟩
  | 57 => ⟨S64x1, .f32⟩
  | 58 => ⟨S70000x1, .f32⟩
  | 59 => ⟨S64x64, .f32⟩
  | 60 => ⟨S70000x64, .f32⟩
  | 61 => ⟨S1x64, .f32⟩
  | 62 => ⟨S70000x64, .f32⟩
  | 63 => ⟨S70000x64, .f32⟩
  | 64 => ⟨S_, .f32⟩
  | 65 => ⟨S70000x64, .f32⟩
  | 66 => ⟨S70000x64, .i1⟩
  | 67 => ⟨S_, .f32⟩
  | 68 => ⟨S70000x64, .f32⟩
  | 69 => ⟨S70000x64, .f32⟩
  | 70 => ⟨S70000x64, .f32⟩
  | 71 => ⟨S64x1, .f32⟩
  | 72 => ⟨S70000x1, .f32⟩
  | 73 => ⟨S70000x2, .f32⟩
  | 74 => ⟨S_, .f32⟩
  | 75 => ⟨S70000, .f32⟩
  | 76 => ⟨S_, .f32⟩
  | 77 => ⟨S70000, .f32⟩
  | 78 => ⟨S70000, .f32⟩
  | 79 => ⟨S70000x1, .f32⟩
  | 80 => ⟨S70000x2, .f32⟩
  | 81 => ⟨S70000x2, .f32⟩
  | 82 => ⟨S70000x2, .f32⟩
  | 83 => ⟨S_, .f32⟩
  | 84 => ⟨S70000, .f32⟩
  | 85 => ⟨S70000x1, .f32⟩
  | 86 => ⟨S70000x2, .f32⟩
  | 87 => ⟨S70000x2, .f32⟩
  | 88 => ⟨S70000x1, .f32⟩
  | 89 => ⟨S70000x64, .f32⟩
  | 90 => ⟨S70000x64, .f32⟩
  | 91 => ⟨S70000x1, .f32⟩
  | 92 => ⟨S70000x64, .f32⟩
  | 93 => ⟨S70000x64, .f32⟩
  | 94 => ⟨S70000x64, .f32⟩
  | 95 => ⟨S70000x64, .f32⟩
  | _ => ⟨S2500000, .i32⟩

abbrev hbmTy (i : Nat) : BufTy := match i / 128 with
  | 0 => hbmTy0_0 i
  | 1 => hbmTy0_1 i
  | 2 => hbmTy0_2 i
  | 3 => hbmTy0_3 i
  | _ => ⟨S2500000, .i32⟩

abbrev bufTy : (tb : Table) → Fin (tcTables nBuf tb) → BufTy
  | .hbm, ⟨i, _⟩ => hbmTy i
  | _, _ => ⟨S2500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_v0 : Ref sig .tc := ⟨.hbm, 39, rfl⟩
abbrev main_v1 : Ref sig .tc := ⟨.hbm, 40, rfl⟩
abbrev main_c : Ref sig .tc := ⟨.hbm, 41, rfl⟩
abbrev main_v2 : Ref sig .tc := ⟨.hbm, 42, rfl⟩
abbrev main_v3 : Ref sig .tc := ⟨.hbm, 43, rfl⟩
abbrev main_c_0 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_cst : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_c_1 : Ref sig .tc := ⟨.hbm, 57, rfl⟩
abbrev main_v15 : Ref sig .tc := ⟨.hbm, 58, rfl⟩
abbrev main_v16 : Ref sig .tc := ⟨.hbm, 59, rfl⟩
abbrev main_c_2 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_cst_3 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_cst_4 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_cst_5 : Ref sig .tc := ⟨.hbm, 82, rfl⟩
abbrev main_v36 : Ref sig .tc := ⟨.hbm, 83, rfl⟩
abbrev main_cst_6 : Ref sig .tc := ⟨.hbm, 84, rfl⟩
abbrev main_v37 : Ref sig .tc := ⟨.hbm, 85, rfl⟩
abbrev main_v38 : Ref sig .tc := ⟨.hbm, 86, rfl⟩
abbrev main_c_7 : Ref sig .tc := ⟨.hbm, 87, rfl⟩
abbrev main_call0_cst : Ref sig .tc := ⟨.hbm, 88, rfl⟩
abbrev main_call0_v0 : Ref sig .tc := ⟨.hbm, 89, rfl⟩
abbrev main_call0_v1 : Ref sig .tc := ⟨.hbm, 90, rfl⟩
abbrev main_call0_cst_0 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_v5 : Ref sig .tc := ⟨.hbm, 95, rfl⟩
abbrev main_call0_v6 : Ref sig .tc := ⟨.hbm, 96, rfl⟩
abbrev main_call0_v7 : Ref sig .tc := ⟨.hbm, 97, rfl⟩
abbrev main_call0_cst_1 : Ref sig .tc := ⟨.hbm, 98, rfl⟩
abbrev main_call0_v8 : Ref sig .tc := ⟨.hbm, 99, rfl⟩
abbrev main_call0_cst_2 : Ref sig .tc := ⟨.hbm, 100, rfl⟩
abbrev main_call0_v9 : Ref sig .tc := ⟨.hbm, 101, rfl⟩
abbrev main_call0_v10 : Ref sig .tc := ⟨.hbm, 102, rfl⟩
abbrev main_call0_v11 : Ref sig .tc := ⟨.hbm, 103, rfl⟩
abbrev main_call0_cst_3 : Ref sig .tc := ⟨.hbm, 104, rfl⟩
abbrev main_call0_v12 : Ref sig .tc := ⟨.hbm, 105, rfl⟩
abbrev main_call0_cst_4 : Ref sig .tc := ⟨.hbm, 106, rfl⟩
abbrev main_call0_call0_v0 : Ref sig .tc := ⟨.hbm, 107, rfl⟩
abbrev main_call0_call0_v1 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_cst_8 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_cst_9 : Ref sig .tc := ⟨.hbm, 126, rfl⟩
abbrev main_v55 : Ref sig .tc := ⟨.hbm, 127, rfl⟩
abbrev main_v56 : Ref sig .tc := ⟨.hbm, 128, rfl⟩
abbrev main_cst_10 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_cst_11 : Ref sig .tc := ⟨.hbm, 138, rfl⟩
abbrev main_v65 : Ref sig .tc := ⟨.hbm, 139, rfl⟩
abbrev main_cst_12 : Ref sig .tc := ⟨.hbm, 140, rfl⟩
abbrev main_v66 : Ref sig .tc := ⟨.hbm, 141, rfl⟩
abbrev main_v67 : Ref sig .tc := ⟨.hbm, 142, rfl⟩
abbrev main_c_13 : Ref sig .tc := ⟨.hbm, 143, rfl⟩
abbrev main_call2_cst : Ref sig .tc := ⟨.hbm, 144, rfl⟩
abbrev main_call2_v0 : Ref sig .tc := ⟨.hbm, 145, rfl⟩
abbrev main_call2_v1 : Ref sig .tc := ⟨.hbm, 146, rfl⟩
abbrev main_call2_cst_0 : Ref sig .tc := ⟨.hbm, 147, rfl⟩
abbrev main_call2_v2 : Ref sig .tc := ⟨.hbm, 148, rfl⟩
abbrev main_call2_v3 : Ref sig .tc := ⟨.hbm, 149, rfl⟩
abbrev main_call2_v4 : Ref sig .tc := ⟨.hbm, 150, rfl⟩
abbrev main_call2_v5 : Ref sig .tc := ⟨.hbm, 151, rfl⟩
abbrev main_call2_v6 : Ref sig .tc := ⟨.hbm, 152, rfl⟩
abbrev main_call2_v7 : Ref sig .tc := ⟨.hbm, 153, rfl⟩
abbrev main_call2_cst_1 : Ref sig .tc := ⟨.hbm, 154, rfl⟩
abbrev main_call2_v8 : Ref sig .tc := ⟨.hbm, 155, rfl⟩
abbrev main_call2_cst_2 : Ref sig .tc := ⟨.hbm, 156, rfl⟩
abbrev main_call2_v9 : Ref sig .tc := ⟨.hbm, 157, rfl⟩
abbrev main_call2_v10 : Ref sig .tc := ⟨.hbm, 158, rfl⟩
abbrev main_call2_v11 : Ref sig .tc := ⟨.hbm, 159, rfl⟩
abbrev main_call2_cst_3 : Ref sig .tc := ⟨.hbm, 160, rfl⟩
abbrev main_call2_v12 : Ref sig .tc := ⟨.hbm, 161, rfl⟩
abbrev main_call2_cst_4 : Ref sig .tc := ⟨.hbm, 162, rfl⟩
abbrev main_call2_call0_v0 : Ref sig .tc := ⟨.hbm, 163, rfl⟩
abbrev main_call2_call0_v1 : Ref sig .tc := ⟨.hbm, 164, rfl⟩
abbrev main_v68 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_cst_14 : Ref sig .tc := ⟨.hbm, 169, rfl⟩
abbrev main_v72 : Ref sig .tc := ⟨.hbm, 170, rfl⟩
abbrev main_v73 : Ref sig .tc := ⟨.hbm, 171, rfl⟩
abbrev main_v74 : Ref sig .tc := ⟨.hbm, 172, rfl⟩
abbrev main_v75 : Ref sig .tc := ⟨.hbm, 173, rfl⟩
abbrev main_v76 : Ref sig .tc := ⟨.hbm, 174, rfl⟩
abbrev main_v77 : Ref sig .tc := ⟨.hbm, 175, rfl⟩
abbrev main_v78 : Ref sig .tc := ⟨.hbm, 176, rfl⟩
abbrev main_v79 : Ref sig .tc := ⟨.hbm, 177, rfl⟩
abbrev main_v80 : Ref sig .tc := ⟨.hbm, 178, rfl⟩
abbrev main_v81 : Ref sig .tc := ⟨.hbm, 179, rfl⟩
abbrev main_v82 : Ref sig .tc := ⟨.hbm, 180, rfl⟩
abbrev main_v83 : Ref sig .tc := ⟨.hbm, 181, rfl⟩
abbrev main_cst_15 : Ref sig .tc := ⟨.hbm, 182, rfl⟩
abbrev main_v84 : Ref sig .tc := ⟨.hbm, 183, rfl⟩
abbrev main_v85 : Ref sig .tc := ⟨.hbm, 184, rfl⟩
abbrev main_cst_16 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_v90 : Ref sig .tc := ⟨.hbm, 190, rfl⟩
abbrev main_v91 : Ref sig .tc := ⟨.hbm, 191, rfl⟩
abbrev main_v92 : Ref sig .tc := ⟨.hbm, 192, rfl⟩
abbrev main_v93 : Ref sig .tc := ⟨.hbm, 193, rfl⟩
abbrev main_v94 : Ref sig .tc := ⟨.hbm, 194, rfl⟩
abbrev main_cst_17 : Ref sig .tc := ⟨.hbm, 195, rfl⟩
abbrev main_v95 : Ref sig .tc := ⟨.hbm, 196, rfl⟩
abbrev main_cst_18 : Ref sig .tc := ⟨.hbm, 197, rfl⟩
abbrev main_v96 : Ref sig .tc := ⟨.hbm, 198, rfl⟩
abbrev main_v97 : Ref sig .tc := ⟨.hbm, 199, rfl⟩
abbrev main_c_19 : Ref sig .tc := ⟨.hbm, 200, rfl⟩
abbrev main_call4_cst : Ref sig .tc := ⟨.hbm, 201, rfl⟩
abbrev main_call4_v0 : Ref sig .tc := ⟨.hbm, 202, rfl⟩
abbrev main_call4_v1 : Ref sig .tc := ⟨.hbm, 203, rfl⟩
abbrev main_call4_cst_0 : Ref sig .tc := ⟨.hbm, 204, rfl⟩
abbrev main_call4_v2 : Ref sig .tc := ⟨.hbm, 205, rfl⟩
abbrev main_call4_v3 : Ref sig .tc := ⟨.hbm, 206, rfl⟩
abbrev main_call4_v4 : Ref sig .tc := ⟨.hbm, 207, rfl⟩
abbrev main_call4_v5 : Ref sig .tc := ⟨.hbm, 208, rfl⟩
abbrev main_call4_v6 : Ref sig .tc := ⟨.hbm, 209, rfl⟩
abbrev main_call4_v7 : Ref sig .tc := ⟨.hbm, 210, rfl⟩
abbrev main_call4_cst_1 : Ref sig .tc := ⟨.hbm, 211, rfl⟩
abbrev main_call4_v8 : Ref sig .tc := ⟨.hbm, 212, rfl⟩
abbrev main_call4_cst_2 : Ref sig .tc := ⟨.hbm, 213, rfl⟩
abbrev main_call4_v9 : Ref sig .tc := ⟨.hbm, 214, rfl⟩
abbrev main_call4_v10 : Ref sig .tc := ⟨.hbm, 215, rfl⟩
abbrev main_call4_v11 : Ref sig .tc := ⟨.hbm, 216, rfl⟩
abbrev main_call4_cst_3 : Ref sig .tc := ⟨.hbm, 217, rfl⟩
abbrev main_call4_v12 : Ref sig .tc := ⟨.hbm, 218, rfl⟩
abbrev main_call4_cst_4 : Ref sig .tc := ⟨.hbm, 219, rfl⟩
abbrev main_call4_call0_v0 : Ref sig .tc := ⟨.hbm, 220, rfl⟩
abbrev main_call4_call0_v1 : Ref sig .tc := ⟨.hbm, 221, rfl⟩
abbrev main_v98 : Ref sig .tc := ⟨.hbm, 222, rfl⟩
abbrev main_v99 : Ref sig .tc := ⟨.hbm, 223, rfl⟩
abbrev main_v100 : Ref sig .tc := ⟨.hbm, 224, rfl⟩
abbrev main_v101 : Ref sig .tc := ⟨.hbm, 225, rfl⟩
abbrev main_cst_20 : Ref sig .tc := ⟨.hbm, 226, rfl⟩
abbrev main_v102 : Ref sig .tc := ⟨.hbm, 227, rfl⟩
abbrev main_v103 : Ref sig .tc := ⟨.hbm, 228, rfl⟩
abbrev main_v104 : Ref sig .tc := ⟨.hbm, 229, rfl⟩
abbrev main_v105 : Ref sig .tc := ⟨.hbm, 230, rfl⟩
abbrev main_v106 : Ref sig .tc := ⟨.hbm, 231, rfl⟩
abbrev main_v107 : Ref sig .tc := ⟨.hbm, 232, rfl⟩
abbrev main_v108 : Ref sig .tc := ⟨.hbm, 233, rfl⟩
abbrev main_v109 : Ref sig .tc := ⟨.hbm, 234, rfl⟩
abbrev main_v110 : Ref sig .tc := ⟨.hbm, 235, rfl⟩
abbrev main_v111 : Ref sig .tc := ⟨.hbm, 236, rfl⟩
abbrev main_v112 : Ref sig .tc := ⟨.hbm, 237, rfl⟩
abbrev main_v113 : Ref sig .tc := ⟨.hbm, 238, rfl⟩
abbrev main_cst_21 : Ref sig .tc := ⟨.hbm, 239, rfl⟩
abbrev main_v114 : Ref sig .tc := ⟨.hbm, 240, rfl⟩
abbrev main_v115 : Ref sig .tc := ⟨.hbm, 241, rfl⟩
abbrev main_cst_22 : Ref sig .tc := ⟨.hbm, 242, rfl⟩
abbrev main_v116 : Ref sig .tc := ⟨.hbm, 243, rfl⟩
abbrev main_v117 : Ref sig .tc := ⟨.hbm, 244, rfl⟩
abbrev main_v118 : Ref sig .tc := ⟨.hbm, 245, rfl⟩
abbrev main_v119 : Ref sig .tc := ⟨.hbm, 246, rfl⟩
abbrev main_v120 : Ref sig .tc := ⟨.hbm, 247, rfl⟩
abbrev main_v121 : Ref sig .tc := ⟨.hbm, 248, rfl⟩
abbrev main_v122 : Ref sig .tc := ⟨.hbm, 249, rfl⟩
abbrev main_v123 : Ref sig .tc := ⟨.hbm, 250, rfl⟩
abbrev main_cst_23 : Ref sig .tc := ⟨.hbm, 251, rfl⟩
abbrev main_v124 : Ref sig .tc := ⟨.hbm, 252, rfl⟩
abbrev main_cst_24 : Ref sig .tc := ⟨.hbm, 253, rfl⟩
abbrev main_v125 : Ref sig .tc := ⟨.hbm, 254, rfl⟩
abbrev main_v126 : Ref sig .tc := ⟨.hbm, 255, rfl⟩
abbrev main_c_25 : Ref sig .tc := ⟨.hbm, 256, rfl⟩
abbrev main_call6_cst : Ref sig .tc := ⟨.hbm, 257, rfl⟩
abbrev main_call6_v0 : Ref sig .tc := ⟨.hbm, 258, rfl⟩
abbrev main_call6_v1 : Ref sig .tc := ⟨.hbm, 259, rfl⟩
abbrev main_call6_cst_0 : Ref sig .tc := ⟨.hbm, 260, rfl⟩
abbrev main_call6_v2 : Ref sig .tc := ⟨.hbm, 261, rfl⟩
abbrev main_call6_v3 : Ref sig .tc := ⟨.hbm, 262, rfl⟩
abbrev main_call6_v4 : Ref sig .tc := ⟨.hbm, 263, rfl⟩
abbrev main_call6_v5 : Ref sig .tc := ⟨.hbm, 264, rfl⟩
abbrev main_call6_v6 : Ref sig .tc := ⟨.hbm, 265, rfl⟩
abbrev main_call6_v7 : Ref sig .tc := ⟨.hbm, 266, rfl⟩
abbrev main_call6_cst_1 : Ref sig .tc := ⟨.hbm, 267, rfl⟩
abbrev main_call6_v8 : Ref sig .tc := ⟨.hbm, 268, rfl⟩
abbrev main_call6_cst_2 : Ref sig .tc := ⟨.hbm, 269, rfl⟩
abbrev main_call6_v9 : Ref sig .tc := ⟨.hbm, 270, rfl⟩
abbrev main_call6_v10 : Ref sig .tc := ⟨.hbm, 271, rfl⟩
abbrev main_call6_v11 : Ref sig .tc := ⟨.hbm, 272, rfl⟩
abbrev main_call6_cst_3 : Ref sig .tc := ⟨.hbm, 273, rfl⟩
abbrev main_call6_v12 : Ref sig .tc := ⟨.hbm, 274, rfl⟩
abbrev main_call6_cst_4 : Ref sig .tc := ⟨.hbm, 275, rfl⟩
abbrev main_call6_call0_v0 : Ref sig .tc := ⟨.hbm, 276, rfl⟩
abbrev main_call6_call0_v1 : Ref sig .tc := ⟨.hbm, 277, rfl⟩
abbrev main_v127 : Ref sig .tc := ⟨.hbm, 278, rfl⟩
abbrev main_v128 : Ref sig .tc := ⟨.hbm, 279, rfl⟩
abbrev main_v129 : Ref sig .tc := ⟨.hbm, 280, rfl⟩
abbrev main_v130 : Ref sig .tc := ⟨.hbm, 281, rfl⟩
abbrev main_cst_26 : Ref sig .tc := ⟨.hbm, 282, rfl⟩
abbrev main_v131 : Ref sig .tc := ⟨.hbm, 283, rfl⟩
abbrev main_v132 : Ref sig .tc := ⟨.hbm, 284, rfl⟩
abbrev main_v133 : Ref sig .tc := ⟨.hbm, 285, rfl⟩
abbrev main_v134 : Ref sig .tc := ⟨.hbm, 286, rfl⟩
abbrev main_v135 : Ref sig .tc := ⟨.hbm, 287, rfl⟩
abbrev main_v136 : Ref sig .tc := ⟨.hbm, 288, rfl⟩
abbrev main_v137 : Ref sig .tc := ⟨.hbm, 289, rfl⟩
abbrev main_v138 : Ref sig .tc := ⟨.hbm, 290, rfl⟩
abbrev main_v139 : Ref sig .tc := ⟨.hbm, 291, rfl⟩
abbrev main_v140 : Ref sig .tc := ⟨.hbm, 292, rfl⟩
abbrev main_v141 : Ref sig .tc := ⟨.hbm, 293, rfl⟩
abbrev main_v142 : Ref sig .tc := ⟨.hbm, 294, rfl⟩
abbrev main_cst_27 : Ref sig .tc := ⟨.hbm, 295, rfl⟩
abbrev main_v143 : Ref sig .tc := ⟨.hbm, 296, rfl⟩
abbrev main_v144 : Ref sig .tc := ⟨.hbm, 297, rfl⟩
abbrev main_cst_28 : Ref sig .tc := ⟨.hbm, 298, rfl⟩
abbrev main_v145 : Ref sig .tc := ⟨.hbm, 299, rfl⟩
abbrev main_v146 : Ref sig .tc := ⟨.hbm, 300, rfl⟩
abbrev main_v147 : Ref sig .tc := ⟨.hbm, 301, rfl⟩
abbrev main_v148 : Ref sig .tc := ⟨.hbm, 302, rfl⟩
abbrev main_v149 : Ref sig .tc := ⟨.hbm, 303, rfl⟩
abbrev main_v150 : Ref sig .tc := ⟨.hbm, 304, rfl⟩
abbrev main_v151 : Ref sig .tc := ⟨.hbm, 305, rfl⟩
abbrev main_v152 : Ref sig .tc := ⟨.hbm, 306, rfl⟩
abbrev main_v153 : Ref sig .tc := ⟨.hbm, 307, rfl⟩
abbrev main_v154 : Ref sig .tc := ⟨.hbm, 308, rfl⟩
abbrev main_v155 : Ref sig .tc := ⟨.hbm, 309, rfl⟩
abbrev main_cst_29 : Ref sig .tc := ⟨.hbm, 310, rfl⟩
abbrev main_v156 : Ref sig .tc := ⟨.hbm, 311, rfl⟩
abbrev main_v157 : Ref sig .tc := ⟨.hbm, 312, rfl⟩
abbrev main_cst_30 : Ref sig .tc := ⟨.hbm, 313, rfl⟩
abbrev main_v158 : Ref sig .tc := ⟨.hbm, 314, rfl⟩
abbrev main_v159 : Ref sig .tc := ⟨.hbm, 315, rfl⟩
abbrev main_v160 : Ref sig .tc := ⟨.hbm, 316, rfl⟩
abbrev main_v161 : Ref sig .tc := ⟨.hbm, 317, rfl⟩
abbrev main_v162 : Ref sig .tc := ⟨.hbm, 318, rfl⟩
abbrev main_v163 : Ref sig .tc := ⟨.hbm, 319, rfl⟩
abbrev main_v164 : Ref sig .tc := ⟨.hbm, 320, rfl⟩
abbrev main_v165 : Ref sig .tc := ⟨.hbm, 321, rfl⟩
abbrev main_v166 : Ref sig .tc := ⟨.hbm, 322, rfl⟩
abbrev main_v167 : Ref sig .tc := ⟨.hbm, 323, rfl⟩
abbrev main_cst_31 : Ref sig .tc := ⟨.hbm, 324, rfl⟩
abbrev main_v168 : Ref sig .tc := ⟨.hbm, 325, rfl⟩
abbrev main_v169 : Ref sig .tc := ⟨.hbm, 326, rfl⟩
abbrev main_cst_32 : Ref sig .tc := ⟨.hbm, 327, rfl⟩
abbrev main_v170 : Ref sig .tc := ⟨.hbm, 328, rfl⟩
abbrev main_v171 : Ref sig .tc := ⟨.hbm, 329, rfl⟩
abbrev main_v172 : Ref sig .tc := ⟨.hbm, 330, rfl⟩
abbrev main_v173 : Ref sig .tc := ⟨.hbm, 331, rfl⟩
abbrev main_c_33 : Ref sig .tc := ⟨.hbm, 332, rfl⟩
abbrev main_v174 : Ref sig .tc := ⟨.hbm, 333, rfl⟩
abbrev main_v175 : Ref sig .tc := ⟨.hbm, 334, rfl⟩
abbrev main_c_34 : Ref sig .tc := ⟨.hbm, 335, rfl⟩
abbrev main_v176 : Ref sig .tc := ⟨.hbm, 336, rfl⟩
abbrev main_v177 : Ref sig .tc := ⟨.hbm, 337, rfl⟩
abbrev main_v178 : Ref sig .tc := ⟨.hbm, 338, rfl⟩
abbrev main_v179 : Ref sig .tc := ⟨.hbm, 339, rfl⟩
abbrev main_v180 : Ref sig .tc := ⟨.hbm, 340, rfl⟩
abbrev main_v181 : Ref sig .tc := ⟨.hbm, 341, rfl⟩
abbrev main_v182 : Ref sig .tc := ⟨.hbm, 342, rfl⟩
abbrev main_cst_35 : Ref sig .tc := ⟨.hbm, 343, rfl⟩
abbrev main_v183 : Ref sig .tc := ⟨.hbm, 344, rfl⟩
abbrev main_v184 : Ref sig .tc := ⟨.hbm, 345, rfl⟩
abbrev main_v185 : Ref sig .tc := ⟨.hbm, 346, rfl⟩
abbrev main_v186 : Ref sig .tc := ⟨.hbm, 347, rfl⟩
abbrev main_c_36 : Ref sig .tc := ⟨.hbm, 348, rfl⟩
abbrev main_v187 : Ref sig .tc := ⟨.hbm, 349, rfl⟩
abbrev main_v188 : Ref sig .tc := ⟨.hbm, 350, rfl⟩
abbrev main_c_37 : Ref sig .tc := ⟨.hbm, 351, rfl⟩
abbrev main_v189 : Ref sig .tc := ⟨.hbm, 352, rfl⟩
abbrev main_v190 : Ref sig .tc := ⟨.hbm, 353, rfl⟩
abbrev main_v191 : Ref sig .tc := ⟨.hbm, 354, rfl⟩
abbrev main_v192 : Ref sig .tc := ⟨.hbm, 355, rfl⟩
abbrev main_v193 : Ref sig .tc := ⟨.hbm, 356, rfl⟩
abbrev main_v194 : Ref sig .tc := ⟨.hbm, 357, rfl⟩
abbrev main_v195 : Ref sig .tc := ⟨.hbm, 358, rfl⟩
abbrev main_cst_38 : Ref sig .tc := ⟨.hbm, 359, rfl⟩
abbrev main_v196 : Ref sig .tc := ⟨.hbm, 360, rfl⟩
abbrev main_v197 : Ref sig .tc := ⟨.hbm, 361, rfl⟩
abbrev main_v198 : Ref sig .tc := ⟨.hbm, 362, rfl⟩
abbrev main_v199 : Ref sig .tc := ⟨.hbm, 363, rfl⟩
abbrev main_c_39 : Ref sig .tc := ⟨.hbm, 364, rfl⟩
abbrev main_v200 : Ref sig .tc := ⟨.hbm, 365, rfl⟩
abbrev main_v201 : Ref sig .tc := ⟨.hbm, 366, rfl⟩
abbrev main_c_40 : Ref sig .tc := ⟨.hbm, 367, rfl⟩
abbrev main_v202 : Ref sig .tc := ⟨.hbm, 368, rfl⟩
abbrev main_v203 : Ref sig .tc := ⟨.hbm, 369, rfl⟩
abbrev main_v204 : Ref sig .tc := ⟨.hbm, 370, rfl⟩
abbrev main_v205 : Ref sig .tc := ⟨.hbm, 371, rfl⟩
abbrev main_v206 : Ref sig .tc := ⟨.hbm, 372, rfl⟩
abbrev main_v207 : Ref sig .tc := ⟨.hbm, 373, rfl⟩
abbrev main_v208 : Ref sig .tc := ⟨.hbm, 374, rfl⟩
abbrev main_cst_41 : Ref sig .tc := ⟨.hbm, 375, rfl⟩
abbrev main_v209 : Ref sig .tc := ⟨.hbm, 376, rfl⟩
abbrev main_v210 : Ref sig .tc := ⟨.hbm, 377, rfl⟩
abbrev main_v211 : Ref sig .tc := ⟨.hbm, 378, rfl⟩
abbrev main_v212 : Ref sig .tc := ⟨.hbm, 379, rfl⟩
abbrev main_c_42 : Ref sig .tc := ⟨.hbm, 380, rfl⟩
abbrev main_v213 : Ref sig .tc := ⟨.hbm, 381, rfl⟩
abbrev main_v214 : Ref sig .tc := ⟨.hbm, 382, rfl⟩
abbrev main_c_43 : Ref sig .tc := ⟨.hbm, 383, rfl⟩
abbrev main_v215 : Ref sig .tc := ⟨.hbm, 384, rfl⟩
abbrev main_v216 : Ref sig .tc := ⟨.hbm, 385, rfl⟩
abbrev main_v217 : Ref sig .tc := ⟨.hbm, 386, rfl⟩
abbrev main_v218 : Ref sig .tc := ⟨.hbm, 387, rfl⟩
abbrev main_v219 : Ref sig .tc := ⟨.hbm, 388, rfl⟩
abbrev main_v220 : Ref sig .tc := ⟨.hbm, 389, rfl⟩
abbrev main_v221 : Ref sig .tc := ⟨.hbm, 390, rfl⟩
abbrev main_cst_44 : Ref sig .tc := ⟨.hbm, 391, rfl⟩
abbrev main_v222 : Ref sig .tc := ⟨.hbm, 392, rfl⟩
abbrev main_v223 : Ref sig .tc := ⟨.hbm, 393, rfl⟩
abbrev main_v224 : Ref sig .tc := ⟨.hbm, 394, rfl⟩
abbrev main_v225 : Ref sig .tc := ⟨.hbm, 395, rfl⟩
abbrev main_c_45 : Ref sig .tc := ⟨.hbm, 396, rfl⟩
abbrev main_v226 : Ref sig .tc := ⟨.hbm, 397, rfl⟩
abbrev main_v227 : Ref sig .tc := ⟨.hbm, 398, rfl⟩
abbrev main_c_46 : Ref sig .tc := ⟨.hbm, 399, rfl⟩
abbrev main_v228 : Ref sig .tc := ⟨.hbm, 400, rfl⟩
abbrev main_v229 : Ref sig .tc := ⟨.hbm, 401, rfl⟩
abbrev main_v230 : Ref sig .tc := ⟨.hbm, 402, rfl⟩
abbrev main_v231 : Ref sig .tc := ⟨.hbm, 403, rfl⟩
abbrev main_v232 : Ref sig .tc := ⟨.hbm, 404, rfl⟩
abbrev main_v233 : Ref sig .tc := ⟨.hbm, 405, rfl⟩
abbrev main_v234 : Ref sig .tc := ⟨.hbm, 406, rfl⟩
abbrev main_cst_47 : Ref sig .tc := ⟨.hbm, 407, rfl⟩
abbrev main_v235 : Ref sig .tc := ⟨.hbm, 408, rfl⟩
abbrev main_v236 : Ref sig .tc := ⟨.hbm, 409, rfl⟩
abbrev main_v237 : Ref sig .tc := ⟨.hbm, 410, rfl⟩
abbrev main_v238 : Ref sig .tc := ⟨.hbm, 411, rfl⟩
abbrev main_c_48 : Ref sig .tc := ⟨.hbm, 412, rfl⟩
abbrev main_v239 : Ref sig .tc := ⟨.hbm, 413, rfl⟩
abbrev main_v240 : Ref sig .tc := ⟨.hbm, 414, rfl⟩
abbrev main_c_49 : Ref sig .tc := ⟨.hbm, 415, rfl⟩
abbrev main_v241 : Ref sig .tc := ⟨.hbm, 416, rfl⟩
abbrev main_v242 : Ref sig .tc := ⟨.hbm, 417, rfl⟩
abbrev main_v243 : Ref sig .tc := ⟨.hbm, 418, rfl⟩
abbrev main_v244 : Ref sig .tc := ⟨.hbm, 419, rfl⟩
abbrev main_v245 : Ref sig .tc := ⟨.hbm, 420, rfl⟩
abbrev main_v246 : Ref sig .tc := ⟨.hbm, 421, rfl⟩
abbrev main_v247 : Ref sig .tc := ⟨.hbm, 422, rfl⟩
abbrev main_cst_50 : Ref sig .tc := ⟨.hbm, 423, rfl⟩
abbrev main_v248 : Ref sig .tc := ⟨.hbm, 424, rfl⟩
abbrev main_v249 : Ref sig .tc := ⟨.hbm, 425, rfl⟩
abbrev main_v250 : Ref sig .tc := ⟨.hbm, 426, rfl⟩
abbrev main_v251 : Ref sig .tc := ⟨.hbm, 427, rfl⟩
abbrev main_v252 : Ref sig .tc := ⟨.hbm, 428, rfl⟩
abbrev main_v253 : Ref sig .tc := ⟨.hbm, 429, rfl⟩
abbrev main_v254 : Ref sig .tc := ⟨.hbm, 430, rfl⟩
abbrev main_v255 : Ref sig .tc := ⟨.hbm, 431, rfl⟩
abbrev main_v256 : Ref sig .tc := ⟨.hbm, 432, rfl⟩
abbrev main_v257 : Ref sig .tc := ⟨.hbm, 433, rfl⟩
abbrev main_cst_51 : Ref sig .tc := ⟨.hbm, 434, rfl⟩
abbrev main_v258 : Ref sig .tc := ⟨.hbm, 435, rfl⟩
abbrev main_v259 : Ref sig .tc := ⟨.hbm, 436, rfl⟩
abbrev main_cst_52 : Ref sig .tc := ⟨.hbm, 437, rfl⟩
abbrev main_v260 : Ref sig .tc := ⟨.hbm, 438, rfl⟩
abbrev main_v261 : Ref sig .tc := ⟨.hbm, 439, rfl⟩
abbrev main_v262 : Ref sig .tc := ⟨.hbm, 440, rfl⟩
abbrev main_v263 : Ref sig .tc := ⟨.hbm, 441, rfl⟩
abbrev main_v264 : Ref sig .tc := ⟨.hbm, 442, rfl⟩
abbrev main_v265 : Ref sig .tc := ⟨.hbm, 443, rfl⟩
abbrev main_v266 : Ref sig .tc := ⟨.hbm, 444, rfl⟩
abbrev main_v267 : Ref sig .tc := ⟨.hbm, 445, rfl⟩
abbrev main_v268 : Ref sig .tc := ⟨.hbm, 446, rfl⟩
abbrev main_v269 : Ref sig .tc := ⟨.hbm, 447, rfl⟩
abbrev main_cst_53 : Ref sig .tc := ⟨.hbm, 448, rfl⟩
abbrev main_v270 : Ref sig .tc := ⟨.hbm, 449, rfl⟩
abbrev main_v271 : Ref sig .tc := ⟨.hbm, 450, rfl⟩
abbrev main_cst_54 : Ref sig .tc := ⟨.hbm, 451, rfl⟩
abbrev main_v272 : Ref sig .tc := ⟨.hbm, 452, rfl⟩
abbrev main_v273 : Ref sig .tc := ⟨.hbm, 453, rfl⟩
abbrev main_v274 : Ref sig .tc := ⟨.hbm, 454, rfl⟩
abbrev main_v275 : Ref sig .tc := ⟨.hbm, 455, rfl⟩
abbrev main_v276 : Ref sig .tc := ⟨.hbm, 456, rfl⟩
abbrev main_v277 : Ref sig .tc := ⟨.hbm, 457, rfl⟩
abbrev main_cst_55 : Ref sig .tc := ⟨.hbm, 458, rfl⟩
abbrev main_v278 : Ref sig .tc := ⟨.hbm, 459, rfl⟩
abbrev main_cst_56 : Ref sig .tc := ⟨.hbm, 460, rfl⟩
abbrev main_v279 : Ref sig .tc := ⟨.hbm, 461, rfl⟩
abbrev main_v280 : Ref sig .tc := ⟨.hbm, 462, rfl⟩
abbrev main_v281 : Ref sig .tc := ⟨.hbm, 463, rfl⟩
abbrev main_v282 : Ref sig .tc := ⟨.hbm, 464, rfl⟩
abbrev main_v283 : Ref sig .tc := ⟨.hbm, 465, rfl⟩
abbrev main_v284 : Ref sig .tc := ⟨.hbm, 466, rfl⟩
abbrev main_cst_57 : Ref sig .tc := ⟨.hbm, 467, rfl⟩
abbrev main_v285 : Ref sig .tc := ⟨.hbm, 468, rfl⟩
abbrev main_v286 : Ref sig .tc := ⟨.hbm, 469, rfl⟩
abbrev main_v287 : Ref sig .tc := ⟨.hbm, 470, rfl⟩
abbrev main_v288 : Ref sig .tc := ⟨.hbm, 471, rfl⟩
abbrev main_v289 : Ref sig .tc := ⟨.hbm, 472, rfl⟩
abbrev main_v290 : Ref sig .tc := ⟨.hbm, 473, rfl⟩
abbrev main_v291 : Ref sig .tc := ⟨.hbm, 474, rfl⟩
abbrev main_v292 : Ref sig .tc := ⟨.hbm, 475, rfl⟩
abbrev main_v293 : Ref sig .tc := ⟨.hbm, 476, rfl⟩
abbrev main_v294 : Ref sig .tc := ⟨.hbm, 477, rfl⟩
abbrev main_v295 : Ref sig .tc := ⟨.hbm, 478, rfl⟩
abbrev main_v296 : Ref sig .tc := ⟨.hbm, 479, rfl⟩

abbrev nD : Nat := 1
abbrev τ : Topo := Topo.v7x

variable {F : FTy → Type} [FloatOps F]

class Facts₀ : Prop where
  concatenates_S30000x64_S40000x64_S70000x64_d0 : Shape.Concatenates [S30000x64, S40000x64] S70000x64 0
  bcast_S2500000_S2500000x1_0 : S2500000.BroadcastsInDim S2500000x1 (![0] : Fin 1 → Fin S2500000x1.rank)
  bcast_S_S2500000 : S_.BroadcastsInDim S2500000 (![] : Fin 0 → Fin S2500000.rank)
  bcast_S2500000x1_S2500000x64_0_1 : S2500000x1.BroadcastsInDim S2500000x64 (![0, 1] : Fin 2 → Fin S2500000x64.rank)
  bcast_S_S70000x64 : S_.BroadcastsInDim S70000x64 (![] : Fin 0 → Fin S70000x64.rank)
  transposes_S64x4096_S4096x64_1_0 : S64x4096.Transposes [1, 0] S4096x64
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  reducesTo_S40000x64_S64_d0 : S40000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S40000x64 : S_.BroadcastsInDim S40000x64 (![] : Fin 0 → Fin S40000x64.rank)
  transposes_S64x64_S64x64_1_0 : S64x64.Transposes [1, 0] S64x64
  transposes_S64x768_S768x64_1_0 : S64x768.Transposes [1, 0] S768x64
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S30000x64 : S_.BroadcastsInDim S30000x64 (![] : Fin 0 → Fin S30000x64.rank)
  bcast_S1x64_S70000x64_0_1 : S1x64.BroadcastsInDim S70000x64 (![0, 1] : Fin 2 → Fin S70000x64.rank)
  transposes_S1x64_S64x1_1_0 : S1x64.Transposes [1, 0] S64x1
  concatenates_S70000x1_S70000x1_S70000x2_d1 : Shape.Concatenates [S70000x1, S70000x1] S70000x2 1
  reducesTo_S70000x2_S70000_d1 : S70000x2.ReducesTo [1] S70000
  bcast_S_S70000 : S_.BroadcastsInDim S70000 (![] : Fin 0 → Fin S70000.rank)
  bcast_S70000_S70000x1_0 : S70000.BroadcastsInDim S70000x1 (![0] : Fin 1 → Fin S70000x1.rank)
  bcast_S70000x1_S70000x2_0_1 : S70000x1.BroadcastsInDim S70000x2 (![0, 1] : Fin 2 → Fin S70000x2.rank)
  slices_S70000x2_S70000x1_0_0 : S70000x2.Slices ![0, 0] S70000x1
  bcast_S70000x1_S70000x64_0_1 : S70000x1.BroadcastsInDim S70000x64 (![0, 1] : Fin 2 → Fin S70000x64.rank)
  slices_S70000x2_S70000x1_0_1 : S70000x2.Slices ![0, 1] S70000x1
  gather_S70000x64_S2500000x1_S2500000x64_1_0_n_n_0_1_164_wf : GatherDims.WF S70000x64 S2500000x1 S2500000x64 [1] [0] [] [0] [] 1 ![1, 64]
  scatter_S70000x64_S2500000x1_S2500000x64_1_0_0_1_wf : ScatterDims.WF S70000x64 S2500000x1 S2500000x64 [1] [0] [0] 1
  dot_S40000x4096_S4096x64_S40000x64_1_0_0_1_n_n_wf : DotDims.WF S40000x4096 S4096x64 S40000x64 [1] [0] [0] [1] [] []
  dot_S40000x64_S64x64_S40000x64_1_0_0_1_n_n_wf : DotDims.WF S40000x64 S64x64 S40000x64 [1] [0] [0] [1] [] []
  dot_S40000x768_S768x64_S40000x64_1_0_0_1_n_n_wf : DotDims.WF S40000x768 S768x64 S40000x64 [1] [0] [0] [1] [] []
  gather_S40000x64_S1000000x1_S1000000x64_1_0_n_n_0_1_164_wf : GatherDims.WF S40000x64 S1000000x1 S1000000x64 [1] [0] [] [0] [] 1 ![1, 64]
  scatter_S40000x64_S1000000x1_S1000000x64_1_0_0_1_wf : ScatterDims.WF S40000x64 S1000000x1 S1000000x64 [1] [0] [0] 1
  scatter_S30000x64_S1000000x1_S1000000x64_1_0_0_1_wf : ScatterDims.WF S30000x64 S1000000x1 S1000000x64 [1] [0] [0] 1
  dot_S70000x64_S64x64_S70000x64_1_0_0_1_n_n_wf : DotDims.WF S70000x64 S64x64 S70000x64 [1] [0] [0] [1] [] []
  dot_S70000x64_S64x1_S70000x1_1_0_0_1_n_n_wf : DotDims.WF S70000x64 S64x1 S70000x1 [1] [0] [0] [1] [] []

variable [Facts₀]

def gather_S70000x64_S2500000x1_S2500000x64_1_0_n_n_0_1_164 : GatherDims S70000x64 S2500000x1 S2500000x64 where
  offsetDims := [1]
  collapsedSliceDims := [0]
  operandBatchingDims := []
  startIndicesBatchingDims := []
  startIndexMap := [0]
  indexVectorDim := 1
  sliceSizes := ![1, 64]
  wf := gather_S70000x64_S2500000x1_S2500000x64_1_0_n_n_0_1_164_wf
def scatter_S70000x64_S2500000x1_S2500000x64_1_0_0_1 : ScatterDims S70000x64 S2500000x1 S2500000x64 where
  updateWindowDims := [1]
  insertedWindowDims := [0]
  scatterDimsToOperandDims := [0]
  indexVectorDim := 1
  wf := scatter_S70000x64_S2500000x1_S2500000x64_1_0_0_1_wf
def dot_S40000x4096_S4096x64_S40000x64_1_0_0_1_n_n : DotDims S40000x4096 S4096x64 S40000x64 where
  lhsContracting := [1]
  rhsContracting := [0]
  lhsNonContracting := [0]
  rhsNonContracting := [1]
  lhsBatch := []
  rhsBatch := []
  wf := dot_S40000x4096_S4096x64_S40000x64_1_0_0_1_n_n_wf
def dot_S40000x64_S64x64_S40000x64_1_0_0_1_n_n : DotDims S40000x64 S64x64 S40000x64 where
  lhsContracting := [1]
  rhsContracting := [0]
  lhsNonContracting := [0]
  rhsNonContracting := [1]
  lhsBatch := []
  rhsBatch := []
  wf := dot_S40000x64_S64x64_S40000x64_1_0_0_1_n_n_wf
def dot_S40000x768_S768x64_S40000x64_1_0_0_1_n_n : DotDims S40000x768 S768x64 S40000x64 where
  lhsContracting := [1]
  rhsContracting := [0]
  lhsNonContracting := [0]
  rhsNonContracting := [1]
  lhsBatch := []
  rhsBatch := []
  wf := dot_S40000x768_S768x64_S40000x64_1_0_0_1_n_n_wf
def gather_S40000x64_S1000000x1_S1000000x64_1_0_n_n_0_1_164 : GatherDims S40000x64 S1000000x1 S1000000x64 where
  offsetDims := [1]
  collapsedSliceDims := [0]
  operandBatchingDims := []
  startIndicesBatchingDims := []
  startIndexMap := [0]
  indexVectorDim := 1
  sliceSizes := ![1, 64]
  wf := gather_S40000x64_S1000000x1_S1000000x64_1_0_n_n_0_1_164_wf
def scatter_S40000x64_S1000000x1_S1000000x64_1_0_0_1 : ScatterDims S40000x64 S1000000x1 S1000000x64 where
  updateWindowDims := [1]
  insertedWindowDims := [0]
  scatterDimsToOperandDims := [0]
  indexVectorDim := 1
  wf := scatter_S40000x64_S1000000x1_S1000000x64_1_0_0_1_wf
def scatter_S30000x64_S1000000x1_S1000000x64_1_0_0_1 : ScatterDims S30000x64 S1000000x1 S1000000x64 where
  updateWindowDims := [1]
  insertedWindowDims := [0]
  scatterDimsToOperandDims := [0]
  indexVectorDim := 1
  wf := scatter_S30000x64_S1000000x1_S1000000x64_1_0_0_1_wf
def dot_S70000x64_S64x64_S70000x64_1_0_0_1_n_n : DotDims S70000x64 S64x64 S70000x64 where
  lhsContracting := [1]
  rhsContracting := [0]
  lhsNonContracting := [0]
  rhsNonContracting := [1]
  lhsBatch := []
  rhsBatch := []
  wf := dot_S70000x64_S64x64_S70000x64_1_0_0_1_n_n_wf
def dot_S70000x64_S64x1_S70000x1_1_0_0_1_n_n : DotDims S70000x64 S64x1 S70000x1 where
  lhsContracting := [1]
  rhsContracting := [0]
  lhsNonContracting := [0]
  rhsNonContracting := [1]
  lhsBatch := []
  rhsBatch := []
  wf := dot_S70000x64_S64x1_S70000x1_1_0_0_1_n_n_wf

class Facts : Prop extends Facts₀ where

variable [Facts]
-- ==== Proof.KB.Region0Runs.lean ====
import proofs.«167917_j22402549416514_2_alg».proof.Proof.Gen.Kernel.Launch
import proofs.«167917_j22402549416514_2_alg».proof.Proof.Gen.Kernel.Skeleton
import proofs.«167917_j22402549416514_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 0, a linear layer with batch statistics: what its three control cases share.

    Each grid point takes a block of 800 rows `x` of 4096 features (window 0), the weight `w` (window 1) and the bias row `b`
    (window 2), the same two at every point, and stores the block `x · wᵀ + b` (window 3). Two accumulators of one row each are
    carried from point to point: the column sums of the blocks stored so far and the column sums of their squares. They are set to
    zero at the first point, and at the last point the [2, 64] statistics (window 4) are stored from them: row 0 the mean
    (sum / 40000), row 1 the variance (sum of squares / 40000 − mean²). At every other point window 4 is left untouched. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetches it or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the point fetches it or not. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the point fetches it or not. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions, in closed form over the grid -/

/-- "This is the first point": the condition under which both accumulators are set to zero. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- "This is the last point": the condition under which the statistics are stored. -/
abbrev cond0_1 (i : grid0.Coords) : Prop := k0_cond2 i = 1#1
/-- It holds at point 49 only. -/
theorem hcond0_1 : ∀ t : Fin cfg0.N, cond0_1 (grid0.coords t) ↔ t.val = 49 :=
  (by decide +kernel : ∀ t : Fin grid0.N, cond0_1 (grid0.coords t) ↔ t.val = 49)

/-! ## Where the windows are idle -/

/-- The inputs and the block of rows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last point the statistics window is idle: nothing is stored into it, -/
theorem idleAt0_4 : ∀ t : Fin cfg0.N, ¬cond0_1 (grid0.coords t) → cfg0.idle 4 (grid0.coords t) = true := by decide +kernel
/-- and it is not written back. -/
theorem noFlush0_4 : ∀ t : Fin cfg0.N, ¬cond0_1 (grid0.coords t) → (cfg0.win 4).flush t = false := by decide +kernel
/-- At the last point it is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S800x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S800x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x64 .f32 := win0_4.stage (cfg0.slots t 4)
abbrev hs0_4 (t : Fin cfg0.N) : (ms0_4 t).IsWhole := hstage0_4 ((cfg0.slots t 4).cast nbuf0_4)
/-- The two accumulators: whole buffers of the kernel's own, passed beside the windows. -/
abbrev scM0_0 : Memref sig .tc .vmem S1x64 .f32 := Memref.whole cc0_scratch0
abbrev scM0_1 : Memref sig .tc .vmem S1x64 .f32 := Memref.whole cc0_scratch1

/-- What the region is entered with, opened at the two accumulators: each owned whole at some contents, the remainder of
    the scoped buffers unopened, and the generator register at some state. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut spec0 c [cc0_scratch0, cc0_scratch1]) ∗ (∃ r, prngReg c r)) := by
  unfold Pipeline.ΦA; rw [scopedRest0_split]; simp only [scM0_0, scM0_1, owns_whole]; try rfl

/-! ## What the body computes, in closed form -/

/-- The block of rows the body stores: `x · wᵀ + b`. -/
def lin0 (x0 : Vec F S800x4096 .f32) (x1 : Vec F S64x4096 .f32) (x2 : Vec F S1x64 .f32) : Vec F S800x64 .f32 := k0_pay1 x0 x1 x2
/-- The first accumulator after a point: what it held plus the column sums of the point's block. -/
def acc0_0 (x0 : Vec F S800x4096 .f32) (x1 : Vec F S64x4096 .f32) (x2 : Vec F S1x64 .f32) (s : Vec F S1x64 .f32) : Vec F S1x64 .f32 := k0_pay4 x0 x1 x2 s
/-- The second accumulator after a point: what it held plus the column sums of the squares of the point's block. -/
def acc0_1 (x0 : Vec F S800x4096 .f32) (x1 : Vec F S64x4096 .f32) (x2 : Vec F S1x64 .f32) (s : Vec F S1x64 .f32) : Vec F S1x64 .f32 := k0_pay5 x0 x1 x2 s
/-- The zero row each accumulator starts from. -/
def zero0_0 : Vec F S1x64 .f32 := k0_pay2 (F := F)
def zero0_1 : Vec F S1x64 .f32 := k0_pay3 (F := F)

/-- Row 0 and row 1 of the statistics. -/
abbrev r0_mean : Rect S2x64 := Rect.unit (s := S2x64) ![0, 0] S1x64.size inb_S2x64_S1x64_0_0
abbrev r0_var : Rect S2x64 := Rect.unit (s := S2x64) ![1, 0] S1x64.size inb_S2x64_S1x64_1_0

/-- The statistics of the sums `s0` (of the entries) and `s1` (of their squares): row 0 the mean `s0 / 40000`, row 1 the
    variance `s1 / 40000 − mean²`. -/
def stats0 (s0 s1 : Vec F S1x64 .f32) : Vec F S2x64 .f32 :=
  View.canon [⟨r0_var, k0_pay7 s0 s1⟩, ⟨r0_mean, k0_pay6 s0⟩]

/-- The two rows cover the statistics. -/
theorem cover0_4 (p1 p0 : Vec F S1x64 .f32) (y : S2x64.Idx) :
    ∃ pc ∈ ([⟨r0_var, p1⟩, ⟨r0_mean, p0⟩] : List (View.Piece (Elt F) S2x64 .f32)), y ∈ pc.1.set :=
  View.cover_of_tiled [⟨r0_var, p1⟩, ⟨r0_mean, p0⟩] S1x64.size (by rfl) y

end Cert.Kernel.Regions

end
-- ==== Proof.KB.Region2Runs.lean ====
import proofs.«167917_j22402549416514_2_alg».proof.Proof.Gen.Kernel.Launch
import proofs.«167917_j22402549416514_2_alg».proof.Proof.Gen.Kernel.Skeleton
import proofs.«167917_j22402549416514_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 2, a linear layer with batch statistics: what its three control cases share.

    Each grid point takes a block of 5000 rows `x` (window 0), the weight `w` (window 1) and the bias row `b` (window 2),
    the same two at every point, and stores the block `x · wᵀ + b` (window 3). Two accumulators of one row each are carried
    from point to point: the column sums of the blocks stored so far and the column sums of their squares. They are set to
    zero at the first point, and at the last point the [2, 64] statistics (window 4) are stored from them: row 0 the mean
    (sum / 40000), row 1 the variance (sum of squares / 40000 − mean²). At every other point window 4 is left untouched. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the point fetches it or not. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the point fetches it or not. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the point fetches it or not. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions, in closed form over the grid -/

/-- "This is the first point": the condition under which both accumulators are set to zero. -/
abbrev cond2_0 (i : grid2.Coords) : Prop := (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val = 0 :=
  (by decide +kernel : ∀ t : Fin grid2.N, cond2_0 (grid2.coords t) ↔ t.val = 0)

/-- "This is the last point": the condition under which the statistics are stored. -/
abbrev cond2_1 (i : grid2.Coords) : Prop := k2_cond2 i = 1#1
/-- It holds at point 7 only. -/
theorem hcond2_1 : ∀ t : Fin cfg2.N, cond2_1 (grid2.coords t) ↔ t.val = 7 :=
  (by decide +kernel : ∀ t : Fin grid2.N, cond2_1 (grid2.coords t) ↔ t.val = 7)

/-! ## Where the windows are idle -/

/-- The inputs and the block of rows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Before the last point the statistics window is idle: nothing is stored into it, -/
theorem idleAt2_4 : ∀ t : Fin cfg2.N, ¬cond2_1 (grid2.coords t) → cfg2.idle 4 (grid2.coords t) = true := by decide +kernel
/-- and it is not written back. -/
theorem noFlush2_4 : ∀ t : Fin cfg2.N, ¬cond2_1 (grid2.coords t) → (cfg2.win 4).flush t = false := by decide +kernel
/-- At the last point it is live. -/
theorem liveAt2_4 : ∀ t : Fin cfg2.N, cond2_1 (grid2.coords t) → cfg2.idle 4 (grid2.coords t) = false := by decide +kernel

/-! ## The memrefs the body is called with -/

abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S5000x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2x64 .f32 := win2_4.stage (cfg2.slots t 4)
abbrev hs2_4 (t : Fin cfg2.N) : (ms2_4 t).IsWhole := hstage2_4 ((cfg2.slots t 4).cast nbuf2_4)
/-- The two accumulators: whole buffers of the kernel's own, passed beside the windows. -/
abbrev scM2_0 : Memref sig .tc .vmem S1x64 .f32 := Memref.whole cc2_scratch0
abbrev scM2_1 : Memref sig .tc .vmem S1x64 .f32 := Memref.whole cc2_scratch1

/-- What the region is entered with, opened at the two accumulators: each owned whole at some contents, the remainder of
    the scoped buffers unopened, and the generator register at some state. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut spec2 c [cc2_scratch0, cc2_scratch1]) ∗ (∃ r, prngReg c r)) := by
  unfold Pipeline.ΦA; rw [scopedRest2_split]; simp only [scM2_0, scM2_1, owns_whole]; try rfl

/-! ## Whole-buffer loads and stores

    Every load and store of this kernel goes through the rectangle that is the whole buffer (row 0 or row 1 of the
    statistics apart). Such a load reads the contents; such a store, made last, leaves its payload. -/

/-- The zero offsets, as the rectangles spell them. -/
theorem hz2 : (![0, 0] : Fin 2 → Nat) = fun _ => 0 := funext fun a => by fin_cases a <;> rfl

/-- A whole-buffer load of a whole memref owned at `X` reads `X`. -/
theorem readAt_unread_unit_zero {S : Shape} {e : EltTy} {m : Memref sig .tc .vmem S e} (hm : m.IsWhole) {off : Fin S.rank → Nat}
    (h : off = fun _ => 0) (inb : ∀ a, off a + S.size a ≤ S.size a) (X : S.Idx → Elt F e) :
    View.readAt (Elt F) m.view (Rect.unit off S.size inb).toLoadRect (hm.unread X) = X :=
  (congrArg (fun Y => View.ld Y (Rect.unit off S.size inb)) (hm.read_unread X)).trans (View.ld_unit_zero h inb X)

/-- After a whole-buffer store made last the buffer reads as that store's payload, whatever was stored before. -/
theorem read_writes_unit_zero_last {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩), View.canon_cons_unit_zero h]

/-! ## What the body computes, in closed form -/

/-- The block of rows the body stores: `x · wᵀ + b`. -/
def lin2 (x0 : Vec F S5000x64 .f32) (x1 : Vec F S64x64 .f32) (x2 : Vec F S1x64 .f32) : Vec F S5000x64 .f32 := k2_pay3 x0 x1 x2
/-- The first accumulator after a point: what it held plus the column sums of the point's block. -/
def acc2_0 (x0 : Vec F S5000x64 .f32) (x1 : Vec F S64x64 .f32) (x2 : Vec F S1x64 .f32) (s : Vec F S1x64 .f32) : Vec F S1x64 .f32 := k2_pay6 x0 x1 x2 s
/-- The second accumulator after a point: what it held plus the column sums of the squares of the point's block. -/
def acc2_1 (x0 : Vec F S5000x64 .f32) (x1 : Vec F S64x64 .f32) (x2 : Vec F S1x64 .f32) (s : Vec F S1x64 .f32) : Vec F S1x64 .f32 := k2_pay7 x0 x1 x2 s
/-- The zero row each accumulator starts from. -/
def zero2_0 : Vec F S1x64 .f32 := k2_pay4 (F := F)
def zero2_1 : Vec F S1x64 .f32 := k2_pay5 (F := F)

/-- Row 0 and row 1 of the statistics. -/
abbrev r2_mean : Rect S2x64 := Rect.unit (s := S2x64) ![0, 0] S1x64.size inb_S2x64_S1x64_0_0
abbrev r2_var : Rect S2x64 := Rect.unit (s := S2x64) ![1, 0] S1x64.size inb_S2x64_S1x64_1_0

/-- The statistics of the sums `s0` (of the entries) and `s1` (of their squares): row 0 the mean `s0 / 40000`, row 1 the
    variance `s1 / 40000 − mean²`. -/
def stats2 (s0 s1 : Vec F S1x64 .f32) : Vec F S2x64 .f32 :=
  View.canon [⟨r2_var, k2_pay2 s0 s1⟩, ⟨r2_mean, k2_pay1 s0⟩]

/-- The two rows cover the statistics. -/
theorem cover2_4 (p1 p0 : Vec F S1x64 .f32) (y : S2x64.Idx) :
    ∃ pc ∈ ([⟨r2_var, p1⟩, ⟨r2_mean, p0⟩] : List (View.Piece (Elt F) S2x64 .f32)), y ∈ pc.1.set :=
  View.cover_of_tiled [⟨r2_var, p1⟩, ⟨r2_mean, p0⟩] S1x64.size (by rfl) y

end Cert.Kernel.Regions

end
-- ==== Proof.KB.Region0Cases.lean ====
import proofs.«167917_j22402549416514_2_alg».proof.Proof.KB.Region0Runs
import proofs.«167917_j22402549416514_2_alg».proof.Proof.KB.Region2Runs

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 0: the body's run in each of its three control cases

    The body on whole memrefs, once per case of its two conditions — the first point (both accumulators are set to zero first),
    a middle point, the last point (the statistics are stored from the final sums). Each is stated with what every buffer is left
    holding in closed form (`lin0`, `acc0_0`, `acc0_1`, `stats0`). -/

set_option maxHeartbeats 1000000 in
/-- THE FIRST POINT. On whole memrefs — the three inputs at their blocks, the block of rows and both accumulators at anything, the
    statistics at contents handed back untouched — the body leaves the block of rows at `x · wᵀ + b` and each accumulator at
    zero plus this block's column sums (of the entries, of their squares). -/
theorem sound_kernel0_A (c : Dev nD) (E : Set ℕ) (i : grid0.Coords) (arg1 : Memref sig .tc .vmem S800x4096 .f32) (harg1 : arg1.IsWhole) (arg2 : Memref sig .tc .vmem S64x4096 .f32) (harg2 : arg2.IsWhole) (arg3 : Memref sig .tc .vmem S1x64 .f32) (harg3 : arg3.IsWhole) (arg4 : Memref sig .tc .vmem S800x64 .f32) (harg4 : arg4.IsWhole) (arg5 : Memref sig .tc .vmem S2x64 .f32) (harg5 : arg5.IsWhole) (arg6 : Memref sig .tc .vmem S1x64 .f32) (harg6 : arg6.IsWhole) (arg7 : Memref sig .tc .vmem S1x64 .f32) (harg7 : arg7.IsWhole) (hc0 : cond0_0 i) (hc1 : ¬cond0_1 i)
    (x0 : Vec F S800x4096 .f32) (x1 : Vec F S64x4096 .f32) (x2 : Vec F S1x64 .f32) (xi4 : Vec F S2x64 .f32) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare (lin0 x0 x1 x2)
                ∗ owns (c : Thread nD τ) arg5 fullShare xi4
                ∗ owns (c : Thread nD τ) arg6 fullShare (acc0_0 x0 x1 x2 zero0_0)
                ∗ owns (c : Thread nD τ) arg7 fullShare (acc0_1 x0 x1 x2 zero0_1)) -∗ K ⟨⟩))
          ⊢ wp frame (wpE (defs₀ (F := F)) Variants.none c none) E (cc0_kernel i arg1 harg1 arg2 harg2 arg3 harg3 arg4 harg4 arg5 harg5 arg6 harg6 arg7 harg7) K := by
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [read_writes_unit_zero_last _ _ hz2, readAt_unread_unit_zero harg1 hz2, readAt_unread_unit_zero harg2 hz2, readAt_unread_unit_zero harg3 hz2]; rfl
    isplitl [H4]
    · iexists _; isplitr; · ipureintro; exact harg5.read_unread _
      iexact H4
    isplitl [HS0]
    · iexists _; isplitr
      swap; · iexact HS0
      ipureintro
      rw [read_writes_unit_zero_last _ _ hz2, readAt_unread_unit_zero harg1 hz2, readAt_unread_unit_zero harg2 hz2, readAt_unread_unit_zero harg3 hz2]
      sl_unfold_words
      rw [View.readCov_unit_zero (S := S1x64) _ hz2]; rfl
    iexists _; isplitr
    swap; · iexact HS1
    ipureintro
    rw [read_writes_unit_zero_last _ _ hz2, readAt_unread_unit_zero harg1 hz2, readAt_unread_unit_zero harg2 hz2, readAt_unread_unit_zero harg3 hz2]
    sl_unfold_words
    rw [View.readCov_unit_zero (S := S1x64) _ hz2]; rfl

set_option maxHeartbeats 1000000 in
/-- A MIDDLE POINT. On whole memrefs — the three inputs at their blocks, the block of rows at anything, the statistics at
    contents handed back untouched, the accumulators at what the point before left (`xs0`, `xs1`) — the body leaves the block of
    rows at `x · wᵀ + b` and each accumulator at what it held plus this block's column sums (of the entries, of their squares). -/
theorem sound_kernel0_B (c : Dev nD) (E : Set ℕ) (i : grid0.Coords) (arg1 : Memref sig .tc .vmem S800x4096 .f32) (harg1 : arg1.IsWhole) (arg2 : Memref sig .tc .vmem S64x4096 .f32) (harg2 : arg2.IsWhole) (arg3 : Memref sig .tc .vmem S1x64 .f32) (harg3 : arg3.IsWhole) (arg4 : Memref sig .tc .vmem S800x64 .f32) (harg4 : arg4.IsWhole) (arg5 : Memref sig .tc .vmem S2x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : ¬cond0_1 i)
    (x0 : Vec F S800x4096 .f32) (x1 : Vec F S64x4096 .f32) (x2 : Vec F S1x64 .f32) (xi4 : Vec F S2x64 .f32)
    (xs0 xs1 : Vec F S1x64 .f32) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare (lin0 x0 x1 x2)
                ∗ owns (c : Thread nD τ) arg5 fullShare xi4
                ∗ owns (c : Thread nD τ) arg6 fullShare (acc0_0 x0 x1 x2 xs0)
                ∗ owns (c : Thread nD τ) arg7 fullShare (acc0_1 x0 x1 x2 xs1)) -∗ K ⟨⟩))
          ⊢ wp frame (wpE (defs₀ (F := F)) Variants.none c none) E (cc0_kernel i arg1 harg1 arg2 harg2 arg3 harg3 arg4 harg4 arg5 harg5 arg6 harg6 arg7 harg7) K := by
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hf4
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [read_writes_unit_zero_last _ _ hz2, readAt_unread_unit_zero harg1 hz2, readAt_unread_unit_zero harg2 hz2, readAt_unread_unit_zero harg3 hz2]; rfl
    isplitl [H4]
    · iexists _; isplitr; · ipureintro; exact harg5.read_unread _
      iexact H4
    isplitl [HS0]
    · iexists _; isplitr
      swap; · iexact HS0
      ipureintro
      rw [read_writes_unit_zero_last _ _ hz2, readAt_unread_unit_zero harg1 hz2, readAt_unread_unit_zero harg2 hz2, readAt_unread_unit_zero harg3 hz2,
        readAt_unread_unit_zero harg6 hz2]; rfl
    iexists _; isplitr
    swap; · iexact HS1
    ipureintro
    rw [read_writes_unit_zero_last _ _ hz2, readAt_unread_unit_zero harg1 hz2, readAt_unread_unit_zero harg2 hz2, readAt_unread_unit_zero harg3 hz2,
      readAt_unread_unit_zero harg7 hz2]; rfl

set_option maxHeartbeats 1000000 in
/-- THE LAST POINT. On whole memrefs — the three inputs at their blocks, the block of rows and the statistics at anything, the
    accumulators at what the point before left (`xs0`, `xs1`) — the body leaves the block of rows at `x · wᵀ + b`, each
    accumulator at what it held plus this block's column sums, and the statistics at the mean and variance of those final sums. -/
theorem sound_kernel0_C (c : Dev nD) (E : Set ℕ) (i : grid0.Coords) (arg1 : Memref sig .tc .vmem S800x4096 .f32) (harg1 : arg1.IsWhole) (arg2 : Memref sig .tc .vmem S64x4096 .f32) (harg2 : arg2.IsWhole) (arg3 : Memref sig .tc .vmem S1x64 .f32) (harg3 : arg3.IsWhole) (arg4 : Memref sig .tc .vmem S800x64 .f32) (harg4 : arg4.IsWhole) (arg5 : Memref sig .tc .vmem S2x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S800x4096 .f32) (x1 : Vec F S64x4096 .f32) (x2 : Vec F S1x64 .f32)
    (xs0 xs1 : Vec F S1x64 .f32) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare (lin0 x0 x1 x2)
                ∗ owns (c : Thread nD τ) arg5 fullShare (stats0 (acc0_0 x0 x1 x2 xs0) (acc0_1 x0 x1 x2 xs1))
                ∗ owns (c : Thread nD τ) arg6 fullShare (acc0_0 x0 x1 x2 xs0)
                ∗ owns (c : Thread nD τ) arg7 fullShare (acc0_1 x0 x1 x2 xs1)) -∗ K ⟨⟩))
          ⊢ wp frame (wpE (defs₀ (F := F)) Variants.none c none) E (cc0_kernel i arg1 harg1 arg2 harg2 arg3 harg3 arg4 harg4 arg5 harg5 arg6 harg6 arg7 harg7) K := by
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [read_writes_unit_zero_last _ _ hz2, readAt_unread_unit_zero harg1 hz2, readAt_unread_unit_zero harg2 hz2, readAt_unread_unit_zero harg3 hz2]; rfl
    isplitl [H4]
    · iexists _; isplitr
      swap; · iexact H4
      ipureintro
      rw [View.read_writes_eq_canon _ _ _ (cover0_4 _ _)]
      sl_unfold_words
      simp only [View.readCov_unit_zero (S := S1x64) _ hz2, readAt_unread_unit_zero harg1 hz2, readAt_unread_unit_zero harg2 hz2, readAt_unread_unit_zero harg3 hz2,
        readAt_unread_unit_zero harg6 hz2, readAt_unread_unit_zero harg7 hz2]
      rfl
    isplitl [HS0]
    · iexists _; isplitr
      swap; · iexact HS0
      ipureintro
      sl_unfold_words
      rw [read_writes_unit_zero_last _ _ hz2, readAt_unread_unit_zero harg1 hz2, readAt_unread_unit_zero harg2 hz2, readAt_unread_unit_zero harg3 hz2,
        readAt_unread_unit_zero harg6 hz2]; rfl
    iexists _; isplitr
    swap; · iexact HS1
    ipureintro
    sl_unfold_words
    rw [read_writes_unit_zero_last _ _ hz2, readAt_unread_unit_zero harg1 hz2, readAt_unread_unit_zero harg2 hz2, readAt_unread_unit_zero harg3 hz2,
      readAt_unread_unit_zero harg7 hz2]; rfl

end Cert.Kernel.Regions

end
-- ==== Proof.KB.Region0.lean ====
import proofs.«167917_j22402549416514_2_alg».proof.Proof.KB.Region0Cases

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 0: the running sums, the proof data and the body obligation -/

/-- THE ACCUMULATION. The two running sums after the body at point `n`: the column sums of the blocks `x · wᵀ + b` stored at
    points `0 … n` and the column sums of their squares, each added block by block in point order onto the zero row. -/
def sums0 (c : Dev nD) : (n : ℕ) → n < cfg0.N → Vec F S1x64 .f32 × Vec F S1x64 .f32
  | 0, hn => (acc0_0 (iblk0 V c 0 ⟨0, hn⟩) (iblk0 V c 1 ⟨0, hn⟩) (iblk0 V c 2 ⟨0, hn⟩) zero0_0, acc0_1 (iblk0 V c 0 ⟨0, hn⟩) (iblk0 V c 1 ⟨0, hn⟩) (iblk0 V c 2 ⟨0, hn⟩) zero0_1)
  | n + 1, hn => (acc0_0 (iblk0 V c 0 ⟨n + 1, hn⟩) (iblk0 V c 1 ⟨n + 1, hn⟩) (iblk0 V c 2 ⟨n + 1, hn⟩) (sums0 c n (Nat.lt_of_succ_lt hn)).1,
      acc0_1 (iblk0 V c 0 ⟨n + 1, hn⟩) (iblk0 V c 1 ⟨n + 1, hn⟩) (iblk0 V c 2 ⟨n + 1, hn⟩) (sums0 c n (Nat.lt_of_succ_lt hn)).2)

/-- At the first point: the zero rows plus the first block's sums. -/
theorem sums0_first (c : Dev nD) (t : Fin cfg0.N) (h0 : t.val = 0) :
    sums0 V c t.val t.isLt = (acc0_0 (iblk0 V c 0 t) (iblk0 V c 1 t) (iblk0 V c 2 t) zero0_0, acc0_1 (iblk0 V c 0 t) (iblk0 V c 1 t) (iblk0 V c 2 t) zero0_1) := by
  obtain ⟨n, hn⟩ := t
  cases n with
  | zero => rfl
  | succ n => exact absurd h0 (Nat.succ_ne_zero n)

/-- At a later point: the sums after the point before plus this block's. -/
theorem sums0_later (c : Dev nD) (t : Fin cfg0.N) (h0 : ¬t.val = 0) :
    sums0 V c t.val t.isLt = (acc0_0 (iblk0 V c 0 t) (iblk0 V c 1 t) (iblk0 V c 2 t) (sums0 V c (t.val - 1) (Nat.lt_of_le_of_lt (Nat.sub_le _ _) t.isLt)).1,
      acc0_1 (iblk0 V c 0 t) (iblk0 V c 1 t) (iblk0 V c 2 t) (sums0 V c (t.val - 1) (Nat.lt_of_le_of_lt (Nat.sub_le _ _) t.isLt)).2) := by
  obtain ⟨n, hn⟩ := t
  cases n with
  | zero => exact absurd rfl h0
  | succ n => rfl

/-- What the two output blocks and the two accumulators hold after the body at point `n`: the block of rows `x · wᵀ + b` of
    the point's inputs; the statistics of the running sums (stored at the last point only: at any other point nothing reads this
    component, the window being idle and not written back); the two running sums. -/
def outsAt0 (c : Dev nD) (n : ℕ) (hn : n < cfg0.N) : Vec F S800x64 .f32 × Vec F S2x64 .f32 × Vec F S1x64 .f32 × Vec F S1x64 .f32 :=
  (lin0 (iblk0 V c 0 ⟨n, hn⟩) (iblk0 V c 1 ⟨n, hn⟩) (iblk0 V c 2 ⟨n, hn⟩), stats0 (sums0 V c n hn).1 (sums0 V c n hn).2, (sums0 V c n hn).1, (sums0 V c n hn).2)

/-- `outsAt0` at the first point. -/
theorem outsAt0_A (c : Dev nD) (t : Fin cfg0.N) (h0 : t.val = 0) :
    outsAt0 V c t.val t.isLt = (lin0 (iblk0 V c 0 t) (iblk0 V c 1 t) (iblk0 V c 2 t),
      stats0 (acc0_0 (iblk0 V c 0 t) (iblk0 V c 1 t) (iblk0 V c 2 t) zero0_0) (acc0_1 (iblk0 V c 0 t) (iblk0 V c 1 t) (iblk0 V c 2 t) zero0_1),
      acc0_0 (iblk0 V c 0 t) (iblk0 V c 1 t) (iblk0 V c 2 t) zero0_0, acc0_1 (iblk0 V c 0 t) (iblk0 V c 1 t) (iblk0 V c 2 t) zero0_1) := by
  unfold outsAt0; rw [sums0_first V c t h0]

/-- `outsAt0` at a middle point, over what the point before left in the accumulators. -/
theorem outsAt0_B (c : Dev nD) (t : Fin cfg0.N) (h0 : ¬t.val = 0) (h1 : ¬t.val = 49) :
    outsAt0 V c t.val t.isLt = (lin0 (iblk0 V c 0 t) (iblk0 V c 1 t) (iblk0 V c 2 t),
      stats0 (acc0_0 (iblk0 V c 0 t) (iblk0 V c 1 t) (iblk0 V c 2 t) (outsAt0 V c (t.val - 1) (Nat.lt_of_le_of_lt (Nat.sub_le _ _) t.isLt)).2.2.1)
        (acc0_1 (iblk0 V c 0 t) (iblk0 V c 1 t) (iblk0 V c 2 t) (outsAt0 V c (t.val - 1) (Nat.lt_of_le_of_lt (Nat.sub_le _ _) t.isLt)).2.2.2),
      acc0_0 (iblk0 V c 0 t) (iblk0 V c 1 t) (iblk0 V c 2 t) (outsAt0 V c (t.val - 1) (Nat.lt_of_le_of_lt (Nat.sub_le _ _) t.isLt)).2.2.1,
      acc0_1 (iblk0 V c 0 t) (iblk0 V c 1 t) (iblk0 V c 2 t) (outsAt0 V c (t.val - 1) (Nat.lt_of_le_of_lt (Nat.sub_le _ _) t.isLt)).2.2.2) := by
  unfold outsAt0; rw [sums0_later V c t h0]

/-- `outsAt0` at the last point, over what the point before left in the accumulators: the same equation, the statistics now
    being what the body stores. -/
theorem outsAt0_C (c : Dev nD) (t : Fin cfg0.N) (h0 : ¬t.val = 0) (h1 : t.val = 49) :
    outsAt0 V c t.val t.isLt = (lin0 (iblk0 V c 0 t) (iblk0 V c 1 t) (iblk0 V c 2 t),
      stats0 (acc0_0 (iblk0 V c 0 t) (iblk0 V c 1 t) (iblk0 V c 2 t) (outsAt0 V c (t.val - 1) (Nat.lt_of_le_of_lt (Nat.sub_le _ _) t.isLt)).2.2.1)
        (acc0_1 (iblk0 V c 0 t) (iblk0 V c 1 t) (iblk0 V c 2 t) (outsAt0 V c (t.val - 1) (Nat.lt_of_le_of_lt (Nat.sub_le _ _) t.isLt)).2.2.2),
      acc0_0 (iblk0 V c 0 t) (iblk0 V c 1 t) (iblk0 V c 2 t) (outsAt0 V c (t.val - 1) (Nat.lt_of_le_of_lt (Nat.sub_le _ _) t.isLt)).2.2.1,
      acc0_1 (iblk0 V c 0 t) (iblk0 V c 1 t) (iblk0 V c 2 t) (outsAt0 V c (t.val - 1) (Nat.lt_of_le_of_lt (Nat.sub_le _ _) t.isLt)).2.2.2) := by
  unfold outsAt0; rw [sums0_later V c t h0]

/-- The region's invariant before position `n`: before the first point what the region is entered with; afterwards the same
    with the two accumulators owned at the running sums the point before left. -/
def PhiS0 (c : Dev nD) : (n : ℕ) → n ≤ cfg0.N → sProp 𝕄
  | 0, _ => Pipeline.ΦA spec0 c
  | n + 1, hn => iprop(iprop(iprop(owns (c : Thread nD τ) scM0_0 fullShare (sums0 V c n hn).1 ∗ owns (c : Thread nD τ) scM0_1 fullShare (sums0 V c n hn).2)
      ∗ Pipeline.scopedRestBut spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (sums0 V c n hn).1 ∗ owns (c : Thread nD τ) scM0_1 fullShare (sums0 V c n hn).2)
      ∗ Pipeline.scopedRestBut spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (sums0 V c (n - 1) (by omega)).1
        ∗ owns (c : Thread nD τ) scM0_1 fullShare (sums0 V c (n - 1) (by omega)).2)
      ∗ Pipeline.scopedRestBut spec0 c [cc0_scratch0, cc0_scratch1]) ∗ (∃ r, prngReg c r)) := by
  cases n with
  | zero => exact absurd rfl hz
  | succ n => rfl

/-- The region's proof data: the arrays as the region finds them; after the body each input's buffer at its block, the block
    of rows at `x · wᵀ + b`, the statistics at those of the running sums; the invariant `PhiS0`; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
/-- The same two, in closed form. -/
theorem after0_3_eq (c : Dev nD) (t : Fin cfg0.N) : (dat0 V c).after 3 t = lin0 (iblk0 V c 0 t) (iblk0 V c 1 t) (iblk0 V c 2 t) := by dsimp only [dat0, outsAt0]
theorem after0_4_eq (c : Dev nD) (t : Fin cfg0.N) : (dat0 V c).after 4 t = stats0 (sums0 V c t.val t.isLt).1 (sums0 V c t.val t.isLt).2 := by dsimp only [dat0, outsAt0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' buffers hold their blocks; the closed forms of the two conditions say which of the three
    cases the point is in; the invariant hands the body the accumulators at the running sums the point before left (at anything
    at the first point) and takes them back at this point's; the statistics window is handed back untouched before the last point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3_eq]
  by_cases h0 : t.val = 0
  · have h1 : ¬t.val = 49 := by omega
    rw [Dat.leavesExact_idle (dat0 V c) 4 t (idleAt0_4 t (fun h => h1 ((hcond0_1 t).mp h))) (noFlush0_4 t (fun h => h1 ((hcond0_1 t).mp h)))]
    rw [sums0_first V c t h0]; dsimp only
    rw [PhiS0_castSucc V c t, PhiS0_zero V c _ _ h0, PhiA0_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply (sound_kernel0_A c Set.univ (grid0.coords t) _ _ _ _ _ _ _ _ _ _ _ _ _ _ ((hcond0_0 t).mpr h0) (fun h => h1 ((hcond0_1 t).mp h))
      (iblk0 V c 0 t) (iblk0 V c 1 t) (iblk0 V c 2 t) _ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    iexists _; iexact H4
  · by_cases h1 : t.val = 49
    · rw [show (dat0 V c).leavesExact 4 t = owns (c : Thread nD τ) (ms0_4 t) fullShare ((dat0 V c).after 4 t) from by
        unfold Dat.leavesExact; rw [liveAt0_4 t ((hcond0_1 t).mpr h1)], after0_4_eq]
      rw [sums0_later V c t h0]; dsimp only
      rw [PhiS0_castSucc V c t, PhiS0_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (sound_kernel0_C c Set.univ (grid0.coords t) _ _ _ _ _ _ _ _ _ _ _ _ _ _ (fun h => h0 ((hcond0_0 t).mp h)) ((hcond0_1 t).mpr h1)
        (iblk0 V c 0 t) (iblk0 V c 1 t) (iblk0 V c 2 t) _ _ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dat0 V c) 4 t (idleAt0_4 t (fun h => h1 ((hcond0_1 t).mp h))) (noFlush0_4 t (fun h => h1 ((hcond0_1 t).mp h)))]
      rw [sums0_later V c t h0]; dsimp only
      rw [PhiS0_castSucc V c t, PhiS0_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (sound_kernel0_B c Set.univ (grid0.coords t) _ _ _ _ _ _ _ _ _ _ _ _ _ _ (fun h => h0 ((hcond0_0 t).mp h)) (fun h => h1 ((hcond0_1 t).mp h))
        (iblk0 V c 0 t) (iblk0 V c 1 t) (iblk0 V c 2 t) _ _ _ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives back what the region was entered with: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 50 := N_0; omega)

end Cert.Kernel.Regions

end
-- ==== Proof.KB.Region1.lean ====
import proofs.«167917_j22402549416514_2_alg».proof.Proof.Gen.Kernel.Launch
import proofs.«167917_j22402549416514_2_alg».proof.Proof.Gen.Kernel.Skeleton
import proofs.«167917_j22402549416514_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The normalisation region 1: each 5000-row block of the linear layer's output is shifted by the batch mean, scaled by
    the reciprocal root of (batch variance + eps), by the gain, shifted by the bias and passed through the leaky rectifier.
    The block of rows is window 0; the [2, 64] statistics, the gain and the bias are windows 1 to 3, the same block at every
    point; window 4 is the output block. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetches it or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the point fetches it or not. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the point fetches it or not. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether the point fetches it or not. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_rows : Rect S5000x64 := Rect.unit (s := S5000x64) ![0, 0] S5000x64.size inb_S5000x64_S5000x64_0_0
abbrev r1_mean : Rect S2x64 := Rect.unit (s := S2x64) ![0, 0] S1x64.size inb_S2x64_S1x64_0_0
abbrev r1_var : Rect S2x64 := Rect.unit (s := S2x64) ![1, 0] S1x64.size inb_S2x64_S1x64_1_0
abbrev r1_row : Rect S1x64 := Rect.unit (s := S1x64) ![0, 0] S1x64.size inb_S1x64_S1x64_0_0

/-- The output block after the body: its one store, the normalised and rectified rows, over the four input blocks. -/
def out1_4 (x0 : Vec F S5000x64 .f32) (x1 : Vec F S2x64 .f32) (x2 : Vec F S1x64 .f32) (x3 : Vec F S1x64 .f32) : Vec F S5000x64 .f32 :=
  View.canon [⟨r1_rows, k1_pay1 (View.ld x1 r1_mean) (View.ld x1 r1_var) (View.ld x0 r1_rows) (View.ld x2 r1_row) (View.ld x3 r1_row)⟩]

/-- The one store is the whole block, so it covers it. -/
theorem cover1_4 (p0 : Vec F S5000x64 .f32) (y : S5000x64.Idx) :
    ∃ pc ∈ ([⟨r1_rows, p0⟩] : List (View.Piece (Elt F) S5000x64 .f32)), y ∈ pc.1.set :=
  View.cover_of_tiled [⟨r1_rows, p0⟩] S5000x64.size (by rfl) y

set_option maxHeartbeats 1000000 in
/-- The body on whole staging buffers: the four inputs are left as read, the output holds `out1_4` of them. -/
theorem sound_kernel1 (c : Dev nD) (E : Set ℕ) (i : grid1.Coords)
    (arg1 : Memref sig .tc .vmem S5000x64 .f32) (harg1 : arg1.IsWhole) (arg2 : Memref sig .tc .vmem S2x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S5000x64 .f32) (harg5 : arg5.IsWhole)
    (x0 : Vec F S5000x64 .f32) (x1 : Vec F S2x64 .f32) (x2 : Vec F S1x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1_kernel i arg1 harg1 arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The region's proof data: the arrays as the region finds them; after the body each input's buffer at its block and the
    output's at `out1_4` of the input blocks; the scoped rest and the generator register pass through untouched. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Regions

end
-- ==== Proof.KB.Region2Cases.lean ====
import proofs.«167917_j22402549416514_2_alg».proof.Proof.KB.Region2Runs

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 2: the body's run in each of its three control cases

    The body on whole memrefs, once per case of its two conditions — the first point (both accumulators are set to zero first),
    a middle point, the last point (the statistics are stored from the final sums). Each is stated with what every buffer is left
    holding in closed form (`lin2`, `acc2_0`, `acc2_1`, `stats2`). -/

set_option maxHeartbeats 1000000 in
/-- THE FIRST POINT. On whole memrefs — the three inputs at their blocks, the block of rows and both accumulators at anything, the
    statistics at contents handed back untouched — the body leaves the block of rows at `x · wᵀ + b` and each accumulator at
    zero plus this block's column sums (of the entries, of their squares). -/
theorem sound_kernel2_A (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S2x64 .f32) (harg5 : arg5.IsWhole) (arg6 : Memref sig .tc .vmem S1x64 .f32) (harg6 : arg6.IsWhole) (arg7 : Memref sig .tc .vmem S1x64 .f32) (harg7 : arg7.IsWhole) (hc0 : cond2_0 i) (hc1 : ¬cond2_1 i)
    (x0 : Vec F S5000x64 .f32) (x1 : Vec F S64x64 .f32) (x2 : Vec F S1x64 .f32) (xi4 : Vec F S2x64 .f32) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare (lin2 x0 x1 x2)
                ∗ owns (c : Thread nD τ) arg5 fullShare xi4
                ∗ owns (c : Thread nD τ) arg6 fullShare (acc2_0 x0 x1 x2 zero2_0)
                ∗ owns (c : Thread nD τ) arg7 fullShare (acc2_1 x0 x1 x2 zero2_1)) -∗ K ⟨⟩))
          ⊢ wp frame (wpE (defs₀ (F := F)) Variants.none c none) E (cc2_kernel i arg1 harg1 arg2 harg2 arg3 harg3 arg4 harg4 arg5 harg5 arg6 harg6 arg7 harg7) K := by
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [read_writes_unit_zero_last _ _ hz2, readAt_unread_unit_zero harg1 hz2, readAt_unread_unit_zero harg2 hz2, readAt_unread_unit_zero harg3 hz2]; rfl
    isplitl [H4]
    · iexists _; isplitr; · ipureintro; exact harg5.read_unread _
      iexact H4
    isplitl [HS0]
    · iexists _; isplitr
      swap; · iexact HS0
      ipureintro
      rw [read_writes_unit_zero_last _ _ hz2, readAt_unread_unit_zero harg1 hz2, readAt_unread_unit_zero harg2 hz2, readAt_unread_unit_zero harg3 hz2]
      sl_unfold_words
      rw [View.readCov_unit_zero (S := S1x64) _ hz2]; rfl
    iexists _; isplitr
    swap; · iexact HS1
    ipureintro
    rw [read_writes_unit_zero_last _ _ hz2, readAt_unread_unit_zero harg1 hz2, readAt_unread_unit_zero harg2 hz2, readAt_unread_unit_zero harg3 hz2]
    sl_unfold_words
    rw [View.readCov_unit_zero (S := S1x64) _ hz2]; rfl

set_option maxHeartbeats 1000000 in
/-- A MIDDLE POINT. On whole memrefs — the three inputs at their blocks, the block of rows at anything, the statistics at
    contents handed back untouched, the accumulators at what the point before left (`xs0`, `xs1`) — the body leaves the block of
    rows at `x · wᵀ + b` and each accumulator at what it held plus this block's column sums (of the entries, of their squares). -/
theorem sound_kernel2_B (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S2x64 .f32) (harg5 : arg5.IsWhole) (arg6 : Memref sig .tc .vmem S1x64 .f32) (harg6 : arg6.IsWhole) (arg7 : Memref sig .tc .vmem S1x64 .f32) (harg7 : arg7.IsWhole) (hc0 : ¬cond2_0 i) (hc1 : ¬cond2_1 i)
    (x0 : Vec F S5000x64 .f32) (x1 : Vec F S64x64 .f32) (x2 : Vec F S1x64 .f32) (xi4 : Vec F S2x64 .f32)
    (xs0 xs1 : Vec F S1x64 .f32) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare (lin2 x0 x1 x2)
                ∗ owns (c : Thread nD τ) arg5 fullShare xi4
                ∗ owns (c : Thread nD τ) arg6 fullShare (acc2_0 x0 x1 x2 xs0)
                ∗ owns (c : Thread nD τ) arg7 fullShare (acc2_1 x0 x1 x2 xs1)) -∗ K ⟨⟩))
          ⊢ wp frame (wpE (defs₀ (F := F)) Variants.none c none) E (cc2_kernel i arg1 harg1 arg2 harg2 arg3 harg3 arg4 harg4 arg5 harg5 arg6 harg6 arg7 harg7) K := by
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hf4
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [read_writes_unit_zero_last _ _ hz2, readAt_unread_unit_zero harg1 hz2, readAt_unread_unit_zero harg2 hz2, readAt_unread_unit_zero harg3 hz2]; rfl
    isplitl [H4]
    · iexists _; isplitr; · ipureintro; exact harg5.read_unread _
      iexact H4
    isplitl [HS0]
    · iexists _; isplitr
      swap; · iexact HS0
      ipureintro
      rw [read_writes_unit_zero_last _ _ hz2, readAt_unread_unit_zero harg1 hz2, readAt_unread_unit_zero harg2 hz2, readAt_unread_unit_zero harg3 hz2,
        readAt_unread_unit_zero harg6 hz2]; rfl
    iexists _; isplitr
    swap; · iexact HS1
    ipureintro
    rw [read_writes_unit_zero_last _ _ hz2, readAt_unread_unit_zero harg1 hz2, readAt_unread_unit_zero harg2 hz2, readAt_unread_unit_zero harg3 hz2,
      readAt_unread_unit_zero harg7 hz2]; rfl

set_option maxHeartbeats 1000000 in
/-- THE LAST POINT. On whole memrefs — the three inputs at their blocks, the block of rows and the statistics at anything, the
    accumulators at what the point before left (`xs0`, `xs1`) — the body leaves the block of rows at `x · wᵀ + b`, each
    accumulator at what it held plus this block's column sums, and the statistics at the mean and variance of those final sums. -/
theorem sound_kernel2_C (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S2x64 .f32) (harg5 : arg5.IsWhole) (arg6 : Memref sig .tc .vmem S1x64 .f32) (harg6 : arg6.IsWhole) (arg7 : Memref sig .tc .vmem S1x64 .f32) (harg7 : arg7.IsWhole) (hc0 : ¬cond2_0 i) (hc1 : cond2_1 i)
    (x0 : Vec F S5000x64 .f32) (x1 : Vec F S64x64 .f32) (x2 : Vec F S1x64 .f32)
    (xs0 xs1 : Vec F S1x64 .f32) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare (lin2 x0 x1 x2)
                ∗ owns (c : Thread nD τ) arg5 fullShare (stats2 (acc2_0 x0 x1 x2 xs0) (acc2_1 x0 x1 x2 xs1))
                ∗ owns (c : Thread nD τ) arg6 fullShare (acc2_0 x0 x1 x2 xs0)
                ∗ owns (c : Thread nD τ) arg7 fullShare (acc2_1 x0 x1 x2 xs1)) -∗ K ⟨⟩))
          ⊢ wp frame (wpE (defs₀ (F := F)) Variants.none c none) E (cc2_kernel i arg1 harg1 arg2 harg2 arg3 harg3 arg4 harg4 arg5 harg5 arg6 harg6 arg7 harg7) K := by
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [read_writes_unit_zero_last _ _ hz2, readAt_unread_unit_zero harg1 hz2, readAt_unread_unit_zero harg2 hz2, readAt_unread_unit_zero harg3 hz2]; rfl
    isplitl [H4]
    · iexists _; isplitr
      swap; · iexact H4
      ipureintro
      rw [View.read_writes_eq_canon _ _ _ (cover2_4 _ _)]
      sl_unfold_words
      simp only [View.readCov_unit_zero (S := S1x64) _ hz2, readAt_unread_unit_zero harg1 hz2, readAt_unread_unit_zero harg2 hz2, readAt_unread_unit_zero harg3 hz2,
        readAt_unread_unit_zero harg6 hz2, readAt_unread_unit_zero harg7 hz2]
      rfl
    isplitl [HS0]
    · iexists _; isplitr
      swap; · iexact HS0
      ipureintro
      sl_unfold_words
      rw [read_writes_unit_zero_last _ _ hz2, readAt_unread_unit_zero harg1 hz2, readAt_unread_unit_zero harg2 hz2, readAt_unread_unit_zero harg3 hz2,
        readAt_unread_unit_zero harg6 hz2]; rfl
    iexists _; isplitr
    swap; · iexact HS1
    ipureintro
    sl_unfold_words
    rw [read_writes_unit_zero_last _ _ hz2, readAt_unread_unit_zero harg1 hz2, readAt_unread_unit_zero harg2 hz2, readAt_unread_unit_zero harg3 hz2,
      readAt_unread_unit_zero harg7 hz2]; rfl

end Cert.Kernel.Regions

end
-- ==== Proof.KB.Region2.lean ====
import proofs.«167917_j22402549416514_2_alg».proof.Proof.KB.Region2Cases

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 2: the running sums, the proof data and the body obligation -/

/-- THE ACCUMULATION. The two running sums after the body at point `n`: the column sums of the blocks `x · wᵀ + b` stored at
    points `0 … n` and the column sums of their squares, each added block by block in point order onto the zero row. -/
def sums2 (c : Dev nD) : (n : ℕ) → n < cfg2.N → Vec F S1x64 .f32 × Vec F S1x64 .f32
  | 0, hn => (acc2_0 (iblk2 V c 0 ⟨0, hn⟩) (iblk2 V c 1 ⟨0, hn⟩) (iblk2 V c 2 ⟨0, hn⟩) zero2_0, acc2_1 (iblk2 V c 0 ⟨0, hn⟩) (iblk2 V c 1 ⟨0, hn⟩) (iblk2 V c 2 ⟨0, hn⟩) zero2_1)
  | n + 1, hn => (acc2_0 (iblk2 V c 0 ⟨n + 1, hn⟩) (iblk2 V c 1 ⟨n + 1, hn⟩) (iblk2 V c 2 ⟨n + 1, hn⟩) (sums2 c n (Nat.lt_of_succ_lt hn)).1,
      acc2_1 (iblk2 V c 0 ⟨n + 1, hn⟩) (iblk2 V c 1 ⟨n + 1, hn⟩) (iblk2 V c 2 ⟨n + 1, hn⟩) (sums2 c n (Nat.lt_of_succ_lt hn)).2)

/-- At the first point: the zero rows plus the first block's sums. -/
theorem sums2_first (c : Dev nD) (t : Fin cfg2.N) (h0 : t.val = 0) :
    sums2 V c t.val t.isLt = (acc2_0 (iblk2 V c 0 t) (iblk2 V c 1 t) (iblk2 V c 2 t) zero2_0, acc2_1 (iblk2 V c 0 t) (iblk2 V c 1 t) (iblk2 V c 2 t) zero2_1) := by
  obtain ⟨n, hn⟩ := t
  cases n with
  | zero => rfl
  | succ n => exact absurd h0 (Nat.succ_ne_zero n)

/-- At a later point: the sums after the point before plus this block's. -/
theorem sums2_later (c : Dev nD) (t : Fin cfg2.N) (h0 : ¬t.val = 0) :
    sums2 V c t.val t.isLt = (acc2_0 (iblk2 V c 0 t) (iblk2 V c 1 t) (iblk2 V c 2 t) (sums2 V c (t.val - 1) (Nat.lt_of_le_of_lt (Nat.sub_le _ _) t.isLt)).1,
      acc2_1 (iblk2 V c 0 t) (iblk2 V c 1 t) (iblk2 V c 2 t) (sums2 V c (t.val - 1) (Nat.lt_of_le_of_lt (Nat.sub_le _ _) t.isLt)).2) := by
  obtain ⟨n, hn⟩ := t
  cases n with
  | zero => exact absurd rfl h0
  | succ n => rfl

/-- What the two output blocks and the two accumulators hold after the body at point `n`: the block of rows `x · wᵀ + b` of
    the point's inputs; the statistics of the running sums (stored at the last point only: at any other point nothing reads this
    component, the window being idle and not written back); the two running sums. -/
def outsAt2 (c : Dev nD) (n : ℕ) (hn : n < cfg2.N) : Vec F S5000x64 .f32 × Vec F S2x64 .f32 × Vec F S1x64 .f32 × Vec F S1x64 .f32 :=
  (lin2 (iblk2 V c 0 ⟨n, hn⟩) (iblk2 V c 1 ⟨n, hn⟩) (iblk2 V c 2 ⟨n, hn⟩), stats2 (sums2 V c n hn).1 (sums2 V c n hn).2, (sums2 V c n hn).1, (sums2 V c n hn).2)

/-- `outsAt2` at the first point. -/
theorem outsAt2_A (c : Dev nD) (t : Fin cfg2.N) (h0 : t.val = 0) :
    outsAt2 V c t.val t.isLt = (lin2 (iblk2 V c 0 t) (iblk2 V c 1 t) (iblk2 V c 2 t),
      stats2 (acc2_0 (iblk2 V c 0 t) (iblk2 V c 1 t) (iblk2 V c 2 t) zero2_0) (acc2_1 (iblk2 V c 0 t) (iblk2 V c 1 t) (iblk2 V c 2 t) zero2_1),
      acc2_0 (iblk2 V c 0 t) (iblk2 V c 1 t) (iblk2 V c 2 t) zero2_0, acc2_1 (iblk2 V c 0 t) (iblk2 V c 1 t) (iblk2 V c 2 t) zero2_1) := by
  unfold outsAt2; rw [sums2_first V c t h0]

/-- `outsAt2` at a middle point, over what the point before left in the accumulators. -/
theorem outsAt2_B (c : Dev nD) (t : Fin cfg2.N) (h0 : ¬t.val = 0) (h1 : ¬t.val = 7) :
    outsAt2 V c t.val t.isLt = (lin2 (iblk2 V c 0 t) (iblk2 V c 1 t) (iblk2 V c 2 t),
      stats2 (acc2_0 (iblk2 V c 0 t) (iblk2 V c 1 t) (iblk2 V c 2 t) (outsAt2 V c (t.val - 1) (Nat.lt_of_le_of_lt (Nat.sub_le _ _) t.isLt)).2.2.1)
        (acc2_1 (iblk2 V c 0 t) (iblk2 V c 1 t) (iblk2 V c 2 t) (outsAt2 V c (t.val - 1) (Nat.lt_of_le_of_lt (Nat.sub_le _ _) t.isLt)).2.2.2),
      acc2_0 (iblk2 V c 0 t) (iblk2 V c 1 t) (iblk2 V c 2 t) (outsAt2 V c (t.val - 1) (Nat.lt_of_le_of_lt (Nat.sub_le _ _) t.isLt)).2.2.1,
      acc2_1 (iblk2 V c 0 t) (iblk2 V c 1 t) (iblk2 V c 2 t) (outsAt2 V c (t.val - 1) (Nat.lt_of_le_of_lt (Nat.sub_le _ _) t.isLt)).2.2.2) := by
  unfold outsAt2; rw [sums2_later V c t h0]

/-- `outsAt2` at the last point, over what the point before left in the accumulators: the same equation, the statistics now
    being what the body stores. -/
theorem outsAt2_C (c : Dev nD) (t : Fin cfg2.N) (h0 : ¬t.val = 0) (h1 : t.val = 7) :
    outsAt2 V c t.val t.isLt = (lin2 (iblk2 V c 0 t) (iblk2 V c 1 t) (iblk2 V c 2 t),
      stats2 (acc2_0 (iblk2 V c 0 t) (iblk2 V c 1 t) (iblk2 V c 2 t) (outsAt2 V c (t.val - 1) (Nat.lt_of_le_of_lt (Nat.sub_le _ _) t.isLt)).2.2.1)
        (acc2_1 (iblk2 V c 0 t) (iblk2 V c 1 t) (iblk2 V c 2 t) (outsAt2 V c (t.val - 1) (Nat.lt_of_le_of_lt (Nat.sub_le _ _) t.isLt)).2.2.2),
      acc2_0 (iblk2 V c 0 t) (iblk2 V c 1 t) (iblk2 V c 2 t) (outsAt2 V c (t.val - 1) (Nat.lt_of_le_of_lt (Nat.sub_le _ _) t.isLt)).2.2.1,
      acc2_1 (iblk2 V c 0 t) (iblk2 V c 1 t) (iblk2 V c 2 t) (outsAt2 V c (t.val - 1) (Nat.lt_of_le_of_lt (Nat.sub_le _ _) t.isLt)).2.2.2) := by
  unfold outsAt2; rw [sums2_later V c t h0]

/-- The region's invariant before position `n`: before the first point what the region is entered with; afterwards the same
    with the two accumulators owned at the running sums the point before left. -/
def PhiS2 (c : Dev nD) : (n : ℕ) → n ≤ cfg2.N → sProp 𝕄
  | 0, _ => Pipeline.ΦA spec2 c
  | n + 1, hn => iprop(iprop(iprop(owns (c : Thread nD τ) scM2_0 fullShare (sums2 V c n hn).1 ∗ owns (c : Thread nD τ) scM2_1 fullShare (sums2 V c n hn).2)
      ∗ Pipeline.scopedRestBut spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (sums2 V c n hn).1 ∗ owns (c : Thread nD τ) scM2_1 fullShare (sums2 V c n hn).2)
      ∗ Pipeline.scopedRestBut spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (sums2 V c (n - 1) (by omega)).1
        ∗ owns (c : Thread nD τ) scM2_1 fullShare (sums2 V c (n - 1) (by omega)).2)
      ∗ Pipeline.scopedRestBut spec2 c [cc2_scratch0, cc2_scratch1]) ∗ (∃ r, prngReg c r)) := by
  cases n with
  | zero => exact absurd rfl hz
  | succ n => rfl

/-- The region's proof data: the arrays as the region finds them; after the body each input's buffer at its block, the block
    of rows at `x · wᵀ + b`, the statistics at those of the running sums; the invariant `PhiS2`; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
/-- The same two, in closed form. -/
theorem after2_3_eq (c : Dev nD) (t : Fin cfg2.N) : (dat2 V c).after 3 t = lin2 (iblk2 V c 0 t) (iblk2 V c 1 t) (iblk2 V c 2 t) := by dsimp only [dat2, outsAt2]
theorem after2_4_eq (c : Dev nD) (t : Fin cfg2.N) : (dat2 V c).after 4 t = stats2 (sums2 V c t.val t.isLt).1 (sums2 V c t.val t.isLt).2 := by dsimp only [dat2, outsAt2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' buffers hold their blocks; the closed forms of the two conditions say which of the three
    cases the point is in; the invariant hands the body the accumulators at the running sums the point before left (at anything
    at the first point) and takes them back at this point's; the statistics window is handed back untouched before the last point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 8 := lt_of_lt_of_eq t.isLt (show cfg2.N = 8 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3_eq]
  by_cases h0 : t.val = 0
  · have h1 : ¬t.val = 7 := by omega
    rw [Dat.leavesExact_idle (dat2 V c) 4 t (idleAt2_4 t (fun h => h1 ((hcond2_1 t).mp h))) (noFlush2_4 t (fun h => h1 ((hcond2_1 t).mp h)))]
    rw [sums2_first V c t h0]; dsimp only
    rw [PhiS2_castSucc V c t, PhiS2_zero V c _ _ h0, PhiA2_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply (sound_kernel2_A c Set.univ (grid2.coords t) _ _ _ _ _ _ _ _ _ _ _ _ _ _ ((hcond2_0 t).mpr h0) (fun h => h1 ((hcond2_1 t).mp h))
      (iblk2 V c 0 t) (iblk2 V c 1 t) (iblk2 V c 2 t) _ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    iexists _; iexact H4
  · by_cases h1 : t.val = 7
    · rw [show (dat2 V c).leavesExact 4 t = owns (c : Thread nD τ) (ms2_4 t) fullShare ((dat2 V c).after 4 t) from by
        unfold Dat.leavesExact; rw [liveAt2_4 t ((hcond2_1 t).mpr h1)], after2_4_eq]
      rw [sums2_later V c t h0]; dsimp only
      rw [PhiS2_castSucc V c t, PhiS2_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (sound_kernel2_C c Set.univ (grid2.coords t) _ _ _ _ _ _ _ _ _ _ _ _ _ _ (fun h => h0 ((hcond2_0 t).mp h)) ((hcond2_1 t).mpr h1)
        (iblk2 V c 0 t) (iblk2 V c 1 t) (iblk2 V c 2 t) _ _ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dat2 V c) 4 t (idleAt2_4 t (fun h => h1 ((hcond2_1 t).mp h))) (noFlush2_4 t (fun h => h1 ((hcond2_1 t).mp h)))]
      rw [sums2_later V c t h0]; dsimp only
      rw [PhiS2_castSucc V c t, PhiS2_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (sound_kernel2_B c Set.univ (grid2.coords t) _ _ _ _ _ _ _ _ _ _ _ _ _ _ (fun h => h0 ((hcond2_0 t).mp h)) (fun h => h1 ((hcond2_1 t).mp h))
        (iblk2 V c 0 t) (iblk2 V c 1 t) (iblk2 V c 2 t) _ _ _ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives back what the region was entered with: the accumulators' contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 8 := N_2; omega)

end Cert.Kernel.Regions

end
-- ==== Proof.KB.Region3.lean ====
import proofs.«167917_j22402549416514_2_alg».proof.Proof.Gen.Kernel.Launch
import proofs.«167917_j22402549416514_2_alg».proof.Proof.Gen.Kernel.Skeleton
import proofs.«167917_j22402549416514_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The normalisation region 3 with a residual: each 5000-row block of the linear layer's output is shifted by the batch mean,
    scaled by the reciprocal root of (batch variance + eps), by the gain, shifted by the bias, passed through the leaky rectifier,
    and the same rows of the residual are added.
    The block of rows is window 0; the [2, 64] statistics, the gain and the bias are windows 1 to 3, the same block at every
    point; window 4 is the block of rows of the residual; window 5 is the output block. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the point fetches it or not. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether the point fetches it or not. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether the point fetches it or not. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, whether the point fetches it or not. -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, whether the point fetches it or not. -/
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_rows : Rect S5000x64 := Rect.unit (s := S5000x64) ![0, 0] S5000x64.size inb_S5000x64_S5000x64_0_0
abbrev r3_mean : Rect S2x64 := Rect.unit (s := S2x64) ![0, 0] S1x64.size inb_S2x64_S1x64_0_0
abbrev r3_var : Rect S2x64 := Rect.unit (s := S2x64) ![1, 0] S1x64.size inb_S2x64_S1x64_1_0
abbrev r3_row : Rect S1x64 := Rect.unit (s := S1x64) ![0, 0] S1x64.size inb_S1x64_S1x64_0_0

/-- The output block after the body: its one store, the normalised and rectified rows plus the residual rows, over the five input blocks. -/
def out3_5 (x0 : Vec F S5000x64 .f32) (x1 : Vec F S2x64 .f32) (x2 : Vec F S1x64 .f32) (x3 : Vec F S1x64 .f32) (x4 : Vec F S5000x64 .f32) : Vec F S5000x64 .f32 :=
  View.canon [⟨r3_rows, k3_pay1 (View.ld x1 r3_mean) (View.ld x1 r3_var) (View.ld x0 r3_rows) (View.ld x2 r3_row) (View.ld x3 r3_row) (View.ld x4 r3_rows)⟩]

/-- The one store is the whole block, so it covers it. -/
theorem cover3_5 (p0 : Vec F S5000x64 .f32) (y : S5000x64.Idx) :
    ∃ pc ∈ ([⟨r3_rows, p0⟩] : List (View.Piece (Elt F) S5000x64 .f32)), y ∈ pc.1.set :=
  View.cover_of_tiled [⟨r3_rows, p0⟩] S5000x64.size (by rfl) y

set_option maxHeartbeats 1000000 in
/-- The body on whole staging buffers: the five inputs are left as read, the output holds `out3_5` of them. -/
theorem sound_kernel3 (c : Dev nD) (E : Set ℕ) (i : grid3.Coords)
    (arg1 : Memref sig .tc .vmem S5000x64 .f32) (harg1 : arg1.IsWhole) (arg2 : Memref sig .tc .vmem S2x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S5000x64 .f32) (harg5 : arg5.IsWhole) (arg6 : Memref sig .tc .vmem S5000x64 .f32) (harg6 : arg6.IsWhole)
    (x0 : Vec F S5000x64 .f32) (x1 : Vec F S2x64 .f32) (x2 : Vec F S1x64 .f32) (x3 : Vec F S1x64 .f32) (x4 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3_kernel i arg1 harg1 arg2 harg2 arg3 harg3 arg4 harg4 arg5 harg5 arg6 harg6) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The region's proof data: the arrays as the region finds them; after the body each input's buffer at its block and the
    output's at `out3_5` of the input blocks; the scoped rest and the generator register pass through untouched. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so `sound_kernel3` applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Regions

end
-- ==== Proof.KB.Region4Runs.lean ====
import proofs.«167917_j22402549416514_2_alg».proof.Proof.Gen.Kernel.Launch
import proofs.«167917_j22402549416514_2_alg».proof.Proof.Gen.Kernel.Skeleton
import proofs.«167917_j22402549416514_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 4, a linear layer with batch statistics: what its three control cases share.

    Each grid point takes a block of 2000 rows `x` of 768 features (window 0), the weight `w` (window 1) and the bias row `b`
    (window 2), the same two at every point, and stores the block `x · wᵀ + b` (window 3). Two accumulators of one row each are
    carried from point to point: the column sums of the blocks stored so far and the column sums of their squares. They are set to
    zero at the first point, and at the last point the [2, 64] statistics (window 4) are stored from them: row 0 the mean
    (sum / 40000), row 1 the variance (sum of squares / 40000 − mean²). At every other point window 4 is left untouched. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, whether the point fetches it or not. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, whether the point fetches it or not. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, whether the point fetches it or not. -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The two conditions, in closed form over the grid -/

/-- "This is the first point": the condition under which both accumulators are set to zero. -/
abbrev cond4_0 (i : grid4.Coords) : Prop := (Scalar.cmpi .ne (Scalar.extui (Scalar.cmpi .eq (BitVec.ofNat 32 (i 0).val) 0#32)) 0#32) = 1#1
/-- It holds at point 0 only. -/
theorem hcond4_0 : ∀ t : Fin cfg4.N, cond4_0 (grid4.coords t) ↔ t.val = 0 :=
  (by decide +kernel : ∀ t : Fin grid4.N, cond4_0 (grid4.coords t) ↔ t.val = 0)

/-- "This is the last point": the condition under which the statistics are stored. -/
abbrev cond4_1 (i : grid4.Coords) : Prop := k4_cond2 i = 1#1
/-- It holds at point 19 only. -/
theorem hcond4_1 : ∀ t : Fin cfg4.N, cond4_1 (grid4.coords t) ↔ t.val = 19 :=
  (by decide +kernel : ∀ t : Fin grid4.N, cond4_1 (grid4.coords t) ↔ t.val = 19)

/-! ## Where the windows are idle -/

/-- The inputs and the block of rows are never idle. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- Before the last point the statistics window is idle: nothing is stored into it, -/
theorem idleAt4_4 : ∀ t : Fin cfg4.N, ¬cond4_1 (grid4.coords t) → cfg4.idle 4 (grid4.coords t) = true := by decide +kernel
/-- and it is not written back. -/
theorem noFlush4_4 : ∀ t : Fin cfg4.N, ¬cond4_1 (grid4.coords t) → (cfg4.win 4).flush t = false := by decide +kernel
/-- At the last point it is live. -/
theorem liveAt4_4 : ∀ t : Fin cfg4.N, cond4_1 (grid4.coords t) → cfg4.idle 4 (grid4.coords t) = false := by decide +kernel

/-! ## The memrefs the body is called with -/

abbrev ms4_0 (t : Fin cfg4.N) : Memref sig .tc .vmem S2000x768 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S64x768 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2000x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S2x64 .f32 := win4_4.stage (cfg4.slots t 4)
abbrev hs4_4 (t : Fin cfg4.N) : (ms4_4 t).IsWhole := hstage4_4 ((cfg4.slots t 4).cast nbuf4_4)
/-- The two accumulators: whole buffers of the kernel's own, passed beside the windows. -/
abbrev scM4_0 : Memref sig .tc .vmem S1x64 .f32 := Memref.whole cc4_scratch0
abbrev scM4_1 : Memref sig .tc .vmem S1x64 .f32 := Memref.whole cc4_scratch1

/-- What the region is entered with, opened at the two accumulators: each owned whole at some contents, the remainder of
    the scoped buffers unopened, and the generator register at some state. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut spec4 c [cc4_scratch0, cc4_scratch1]) ∗ (∃ r, prngReg c r)) := by
  unfold Pipeline.ΦA; rw [scopedRest4_split]; simp only [scM4_0, scM4_1, owns_whole]; try rfl

/-! ## What the body computes, in closed form -/

/-- The block of rows the body stores: `x · wᵀ + b`. -/
def lin4 (x0 : Vec F S2000x768 .f32) (x1 : Vec F S64x768 .f32) (x2 : Vec F S1x64 .f32) : Vec F S2000x64 .f32 := k4_pay1 x0 x1 x2
/-- The first accumulator after a point: what it held plus the column sums of the point's block. -/
def acc4_0 (x0 : Vec F S2000x768 .f32) (x1 : Vec F S64x768 .f32) (x2 : Vec F S1x64 .f32) (s : Vec F S1x64 .f32) : Vec F S1x64 .f32 := k4_pay4 x0 x1 x2 s
/-- The second accumulator after a point: what it held plus the column sums of the squares of the point's block. -/
def acc4_1 (x0 : Vec F S2000x768 .f32) (x1 : Vec F S64x768 .f32) (x2 : Vec F S1x64 .f32) (s : Vec F S1x64 .f32) : Vec F S1x64 .f32 := k4_pay5 x0 x1 x2 s
/-- The zero row each accumulator starts from. -/
def zero4_0 : Vec F S1x64 .f32 := k4_pay2 (F := F)
def zero4_1 : Vec F S1x64 .f32 := k4_pay3 (F := F)

/-- Row 0 and row 1 of the statistics. -/
abbrev r4_mean : Rect S2x64 := Rect.unit (s := S2x64) ![0, 0] S1x64.size inb_S2x64_S1x64_0_0
abbrev r4_var : Rect S2x64 := Rect.unit (s := S2x64) ![1, 0] S1x64.size inb_S2x64_S1x64_1_0

/-- The statistics of the sums `s0` (of the entries) and `s1` (of their squares): row 0 the mean `s0 / 40000`, row 1 the
    variance `s1 / 40000 − mean²`. -/
def stats4 (s0 s1 : Vec F S1x64 .f32) : Vec F S2x64 .f32 :=
  View.canon [⟨r4_var, k4_pay7 s0 s1⟩, ⟨r4_mean, k4_pay6 s0⟩]

/-- The two rows cover the statistics. -/
theorem cover4_4 (p1 p0 : Vec F S1x64 .f32) (y : S2x64.Idx) :
    ∃ pc ∈ ([⟨r4_var, p1⟩, ⟨r4_mean, p0⟩] : List (View.Piece (Elt F) S2x64 .f32)), y ∈ pc.1.set :=
  View.cover_of_tiled [⟨r4_var, p1⟩, ⟨r4_mean, p0⟩] S1x64.size (by rfl) y

end Cert.Kernel.Regions

end
-- ==== Proof.KB.Region4Cases.lean ====
import proofs.«167917_j22402549416514_2_alg».proof.Proof.KB.Region4Runs
import proofs.«167917_j22402549416514_2_alg».proof.Proof.KB.Region2Runs

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 4: the body's run in each of its three control cases

    The body on whole memrefs, once per case of its two conditions — the first point (both accumulators are set to zero first),
    a middle point, the last point (the statistics are stored from the final sums). Each is stated with what every buffer is left
    holding in closed form (`lin4`, `acc4_0`, `acc4_1`, `stats4`). -/

set_option maxHeartbeats 1000000 in
/-- THE FIRST POINT. On whole memrefs — the three inputs at their blocks, the block of rows and both accumulators at anything, the
    statistics at contents handed back untouched — the body leaves the block of rows at `x · wᵀ + b` and each accumulator at
    zero plus this block's column sums (of the entries, of their squares). -/
theorem sound_kernel4_A (c : Dev nD) (E : Set ℕ) (i : grid4.Coords) (arg1 : Memref sig .tc .vmem S2000x768 .f32) (harg1 : arg1.IsWhole) (arg2 : Memref sig .tc .vmem S64x768 .f32) (harg2 : arg2.IsWhole) (arg3 : Memref sig .tc .vmem S1x64 .f32) (harg3 : arg3.IsWhole) (arg4 : Memref sig .tc .vmem S2000x64 .f32) (harg4 : arg4.IsWhole) (arg5 : Memref sig .tc .vmem S2x64 .f32) (harg5 : arg5.IsWhole) (arg6 : Memref sig .tc .vmem S1x64 .f32) (harg6 : arg6.IsWhole) (arg7 : Memref sig .tc .vmem S1x64 .f32) (harg7 : arg7.IsWhole) (hc0 : cond4_0 i) (hc1 : ¬cond4_1 i)
    (x0 : Vec F S2000x768 .f32) (x1 : Vec F S64x768 .f32) (x2 : Vec F S1x64 .f32) (xi4 : Vec F S2x64 .f32) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare (lin4 x0 x1 x2)
                ∗ owns (c : Thread nD τ) arg5 fullShare xi4
                ∗ owns (c : Thread nD τ) arg6 fullShare (acc4_0 x0 x1 x2 zero4_0)
                ∗ owns (c : Thread nD τ) arg7 fullShare (acc4_1 x0 x1 x2 zero4_1)) -∗ K ⟨⟩))
          ⊢ wp frame (wpE (defs₀ (F := F)) Variants.none c none) E (cc4_kernel i arg1 harg1 arg2 harg2 arg3 harg3 arg4 harg4 arg5 harg5 arg6 harg6 arg7 harg7) K := by
    simp only [cc4_kernel_eq_skeleton]; unfold cc4_kernel_skel
    simp only [k4_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [read_writes_unit_zero_last _ _ hz2, readAt_unread_unit_zero harg1 hz2, readAt_unread_unit_zero harg2 hz2, readAt_unread_unit_zero harg3 hz2]; rfl
    isplitl [H4]
    · iexists _; isplitr; · ipureintro; exact harg5.read_unread _
      iexact H4
    isplitl [HS0]
    · iexists _; isplitr
      swap; · iexact HS0
      ipureintro
      rw [read_writes_unit_zero_last _ _ hz2, readAt_unread_unit_zero harg1 hz2, readAt_unread_unit_zero harg2 hz2, readAt_unread_unit_zero harg3 hz2]
      sl_unfold_words
      rw [View.readCov_unit_zero (S := S1x64) _ hz2]; rfl
    iexists _; isplitr
    swap; · iexact HS1
    ipureintro
    rw [read_writes_unit_zero_last _ _ hz2, readAt_unread_unit_zero harg1 hz2, readAt_unread_unit_zero harg2 hz2, readAt_unread_unit_zero harg3 hz2]
    sl_unfold_words
    rw [View.readCov_unit_zero (S := S1x64) _ hz2]; rfl

set_option maxHeartbeats 1000000 in
/-- A MIDDLE POINT. On whole memrefs — the three inputs at their blocks, the block of rows at anything, the statistics at
    contents handed back untouched, the accumulators at what the point before left (`xs0`, `xs1`) — the body leaves the block of
    rows at `x · wᵀ + b` and each accumulator at what it held plus this block's column sums (of the entries, of their squares). -/
theorem sound_kernel4_B (c : Dev nD) (E : Set ℕ) (i : grid4.Coords) (arg1 : Memref sig .tc .vmem S2000x768 .f32) (harg1 : arg1.IsWhole) (arg2 : Memref sig .tc .vmem S64x768 .f32) (harg2 : arg2.IsWhole) (arg3 : Memref sig .tc .vmem S1x64 .f32) (harg3 : arg3.IsWhole) (arg4 : Memref sig .tc .vmem S2000x64 .f32) (harg4 : arg4.IsWhole) (arg5 : Memref sig .tc .vmem S2x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : ¬cond4_1 i)
    (x0 : Vec F S2000x768 .f32) (x1 : Vec F S64x768 .f32) (x2 : Vec F S1x64 .f32) (xi4 : Vec F S2x64 .f32)
    (xs0 xs1 : Vec F S1x64 .f32) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare (lin4 x0 x1 x2)
                ∗ owns (c : Thread nD τ) arg5 fullShare xi4
                ∗ owns (c : Thread nD τ) arg6 fullShare (acc4_0 x0 x1 x2 xs0)
                ∗ owns (c : Thread nD τ) arg7 fullShare (acc4_1 x0 x1 x2 xs1)) -∗ K ⟨⟩))
          ⊢ wp frame (wpE (defs₀ (F := F)) Variants.none c none) E (cc4_kernel i arg1 harg1 arg2 harg2 arg3 harg3 arg4 harg4 arg5 harg5 arg6 harg6 arg7 harg7) K := by
    simp only [cc4_kernel_eq_skeleton]; unfold cc4_kernel_skel
    simp only [k4_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hf4
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [read_writes_unit_zero_last _ _ hz2, readAt_unread_unit_zero harg1 hz2, readAt_unread_unit_zero harg2 hz2, readAt_unread_unit_zero harg3 hz2]; rfl
    isplitl [H4]
    · iexists _; isplitr; · ipureintro; exact harg5.read_unread _
      iexact H4
    isplitl [HS0]
    · iexists _; isplitr
      swap; · iexact HS0
      ipureintro
      rw [read_writes_unit_zero_last _ _ hz2, readAt_unread_unit_zero harg1 hz2, readAt_unread_unit_zero harg2 hz2, readAt_unread_unit_zero harg3 hz2,
        readAt_unread_unit_zero harg6 hz2]; rfl
    iexists _; isplitr
    swap; · iexact HS1
    ipureintro
    rw [read_writes_unit_zero_last _ _ hz2, readAt_unread_unit_zero harg1 hz2, readAt_unread_unit_zero harg2 hz2, readAt_unread_unit_zero harg3 hz2,
      readAt_unread_unit_zero harg7 hz2]; rfl

set_option maxHeartbeats 1000000 in
/-- THE LAST POINT. On whole memrefs — the three inputs at their blocks, the block of rows and the statistics at anything, the
    accumulators at what the point before left (`xs0`, `xs1`) — the body leaves the block of rows at `x · wᵀ + b`, each
    accumulator at what it held plus this block's column sums, and the statistics at the mean and variance of those final sums. -/
theorem sound_kernel4_C (c : Dev nD) (E : Set ℕ) (i : grid4.Coords) (arg1 : Memref sig .tc .vmem S2000x768 .f32) (harg1 : arg1.IsWhole) (arg2 : Memref sig .tc .vmem S64x768 .f32) (harg2 : arg2.IsWhole) (arg3 : Memref sig .tc .vmem S1x64 .f32) (harg3 : arg3.IsWhole) (arg4 : Memref sig .tc .vmem S2000x64 .f32) (harg4 : arg4.IsWhole) (arg5 : Memref sig .tc .vmem S2x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 : Vec F S2000x768 .f32) (x1 : Vec F S64x768 .f32) (x2 : Vec F S1x64 .f32)
    (xs0 xs1 : Vec F S1x64 .f32) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare (lin4 x0 x1 x2)
                ∗ owns (c : Thread nD τ) arg5 fullShare (stats4 (acc4_0 x0 x1 x2 xs0) (acc4_1 x0 x1 x2 xs1))
                ∗ owns (c : Thread nD τ) arg6 fullShare (acc4_0 x0 x1 x2 xs0)
                ∗ owns (c : Thread nD τ) arg7 fullShare (acc4_1 x0 x1 x2 xs1)) -∗ K ⟨⟩))
          ⊢ wp frame (wpE (defs₀ (F := F)) Variants.none c none) E (cc4_kernel i arg1 harg1 arg2 harg2 arg3 harg3 arg4 harg4 arg5 harg5 arg6 harg6 arg7 harg7) K := by
    simp only [cc4_kernel_eq_skeleton]; unfold cc4_kernel_skel
    simp only [k4_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [read_writes_unit_zero_last _ _ hz2, readAt_unread_unit_zero harg1 hz2, readAt_unread_unit_zero harg2 hz2, readAt_unread_unit_zero harg3 hz2]; rfl
    isplitl [H4]
    · iexists _; isplitr
      swap; · iexact H4
      ipureintro
      rw [View.read_writes_eq_canon _ _ _ (cover4_4 _ _)]
      sl_unfold_words
      simp only [View.readCov_unit_zero (S := S1x64) _ hz2, readAt_unread_unit_zero harg1 hz2, readAt_unread_unit_zero harg2 hz2, readAt_unread_unit_zero harg3 hz2,
        readAt_unread_unit_zero harg6 hz2, readAt_unread_unit_zero harg7 hz2]
      rfl
    isplitl [HS0]
    · iexists _; isplitr
      swap; · iexact HS0
      ipureintro
      sl_unfold_words
      rw [read_writes_unit_zero_last _ _ hz2, readAt_unread_unit_zero harg1 hz2, readAt_unread_unit_zero harg2 hz2, readAt_unread_unit_zero harg3 hz2,
        readAt_unread_unit_zero harg6 hz2]; rfl
    iexists _; isplitr
    swap; · iexact HS1
    ipureintro
    sl_unfold_words
    rw [read_writes_unit_zero_last _ _ hz2, readAt_unread_unit_zero harg1 hz2, readAt_unread_unit_zero harg2 hz2, readAt_unread_unit_zero harg3 hz2,
      readAt_unread_unit_zero harg7 hz2]; rfl

end Cert.Kernel.Regions

end
-- ==== Proof.KB.Region4.lean ====
import proofs.«167917_j22402549416514_2_alg».proof.Proof.KB.Region4Cases

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 4: the running sums, the proof data and the body obligation -/

/-- THE ACCUMULATION. The two running sums after the body at point `n`: the column sums of the blocks `x · wᵀ + b` stored at
    points `0 … n` and the column sums of their squares, each added block by block in point order onto the zero row. -/
def sums4 (c : Dev nD) : (n : ℕ) → n < cfg4.N → Vec F S1x64 .f32 × Vec F S1x64 .f32
  | 0, hn => (acc4_0 (iblk4 V c 0 ⟨0, hn⟩) (iblk4 V c 1 ⟨0, hn⟩) (iblk4 V c 2 ⟨0, hn⟩) zero4_0, acc4_1 (iblk4 V c 0 ⟨0, hn⟩) (iblk4 V c 1 ⟨0, hn⟩) (iblk4 V c 2 ⟨0, hn⟩) zero4_1)
  | n + 1, hn => (acc4_0 (iblk4 V c 0 ⟨n + 1, hn⟩) (iblk4 V c 1 ⟨n + 1, hn⟩) (iblk4 V c 2 ⟨n + 1, hn⟩) (sums4 c n (Nat.lt_of_succ_lt hn)).1,
      acc4_1 (iblk4 V c 0 ⟨n + 1, hn⟩) (iblk4 V c 1 ⟨n + 1, hn⟩) (iblk4 V c 2 ⟨n + 1, hn⟩) (sums4 c n (Nat.lt_of_succ_lt hn)).2)

/-- At the first point: the zero rows plus the first block's sums. -/
theorem sums4_first (c : Dev nD) (t : Fin cfg4.N) (h0 : t.val = 0) :
    sums4 V c t.val t.isLt = (acc4_0 (iblk4 V c 0 t) (iblk4 V c 1 t) (iblk4 V c 2 t) zero4_0, acc4_1 (iblk4 V c 0 t) (iblk4 V c 1 t) (iblk4 V c 2 t) zero4_1) := by
  obtain ⟨n, hn⟩ := t
  cases n with
  | zero => rfl
  | succ n => exact absurd h0 (Nat.succ_ne_zero n)

/-- At a later point: the sums after the point before plus this block's. -/
theorem sums4_later (c : Dev nD) (t : Fin cfg4.N) (h0 : ¬t.val = 0) :
    sums4 V c t.val t.isLt = (acc4_0 (iblk4 V c 0 t) (iblk4 V c 1 t) (iblk4 V c 2 t) (sums4 V c (t.val - 1) (Nat.lt_of_le_of_lt (Nat.sub_le _ _) t.isLt)).1,
      acc4_1 (iblk4 V c 0 t) (iblk4 V c 1 t) (iblk4 V c 2 t) (sums4 V c (t.val - 1) (Nat.lt_of_le_of_lt (Nat.sub_le _ _) t.isLt)).2) := by
  obtain ⟨n, hn⟩ := t
  cases n with
  | zero => exact absurd rfl h0
  | succ n => rfl

/-- What the two output blocks and the two accumulators hold after the body at point `n`: the block of rows `x · wᵀ + b` of
    the point's inputs; the statistics of the running sums (stored at the last point only: at any other point nothing reads this
    component, the window being idle and not written back); the two running sums. -/
def outsAt4 (c : Dev nD) (n : ℕ) (hn : n < cfg4.N) : Vec F S2000x64 .f32 × Vec F S2x64 .f32 × Vec F S1x64 .f32 × Vec F S1x64 .f32 :=
  (lin4 (iblk4 V c 0 ⟨n, hn⟩) (iblk4 V c 1 ⟨n, hn⟩) (iblk4 V c 2 ⟨n, hn⟩), stats4 (sums4 V c n hn).1 (sums4 V c n hn).2, (sums4 V c n hn).1, (sums4 V c n hn).2)

/-- `outsAt4` at the first point. -/
theorem outsAt4_A (c : Dev nD) (t : Fin cfg4.N) (h0 : t.val = 0) :
    outsAt4 V c t.val t.isLt = (lin4 (iblk4 V c 0 t) (iblk4 V c 1 t) (iblk4 V c 2 t),
      stats4 (acc4_0 (iblk4 V c 0 t) (iblk4 V c 1 t) (iblk4 V c 2 t) zero4_0) (acc4_1 (iblk4 V c 0 t) (iblk4 V c 1 t) (iblk4 V c 2 t) zero4_1),
      acc4_0 (iblk4 V c 0 t) (iblk4 V c 1 t) (iblk4 V c 2 t) zero4_0, acc4_1 (iblk4 V c 0 t) (iblk4 V c 1 t) (iblk4 V c 2 t) zero4_1) := by
  unfold outsAt4; rw [sums4_first V c t h0]

/-- `outsAt4` at a middle point, over what the point before left in the accumulators. -/
theorem outsAt4_B (c : Dev nD) (t : Fin cfg4.N) (h0 : ¬t.val = 0) (h1 : ¬t.val = 19) :
    outsAt4 V c t.val t.isLt = (lin4 (iblk4 V c 0 t) (iblk4 V c 1 t) (iblk4 V c 2 t),
      stats4 (acc4_0 (iblk4 V c 0 t) (iblk4 V c 1 t) (iblk4 V c 2 t) (outsAt4 V c (t.val - 1) (Nat.lt_of_le_of_lt (Nat.sub_le _ _) t.isLt)).2.2.1)
        (acc4_1 (iblk4 V c 0 t) (iblk4 V c 1 t) (iblk4 V c 2 t) (outsAt4 V c (t.val - 1) (Nat.lt_of_le_of_lt (Nat.sub_le _ _) t.isLt)).2.2.2),
      acc4_0 (iblk4 V c 0 t) (iblk4 V c 1 t) (iblk4 V c 2 t) (outsAt4 V c (t.val - 1) (Nat.lt_of_le_of_lt (Nat.sub_le _ _) t.isLt)).2.2.1,
      acc4_1 (iblk4 V c 0 t) (iblk4 V c 1 t) (iblk4 V c 2 t) (outsAt4 V c (t.val - 1) (Nat.lt_of_le_of_lt (Nat.sub_le _ _) t.isLt)).2.2.2) := by
  unfold outsAt4; rw [sums4_later V c t h0]

/-- `outsAt4` at the last point, over what the point before left in the accumulators: the same equation, the statistics now
    being what the body stores. -/
theorem outsAt4_C (c : Dev nD) (t : Fin cfg4.N) (h0 : ¬t.val = 0) (h1 : t.val = 19) :
    outsAt4 V c t.val t.isLt = (lin4 (iblk4 V c 0 t) (iblk4 V c 1 t) (iblk4 V c 2 t),
      stats4 (acc4_0 (iblk4 V c 0 t) (iblk4 V c 1 t) (iblk4 V c 2 t) (outsAt4 V c (t.val - 1) (Nat.lt_of_le_of_lt (Nat.sub_le _ _) t.isLt)).2.2.1)
        (acc4_1 (iblk4 V c 0 t) (iblk4 V c 1 t) (iblk4 V c 2 t) (outsAt4 V c (t.val - 1) (Nat.lt_of_le_of_lt (Nat.sub_le _ _) t.isLt)).2.2.2),
      acc4_0 (iblk4 V c 0 t) (iblk4 V c 1 t) (iblk4 V c 2 t) (outsAt4 V c (t.val - 1) (Nat.lt_of_le_of_lt (Nat.sub_le _ _) t.isLt)).2.2.1,
      acc4_1 (iblk4 V c 0 t) (iblk4 V c 1 t) (iblk4 V c 2 t) (outsAt4 V c (t.val - 1) (Nat.lt_of_le_of_lt (Nat.sub_le _ _) t.isLt)).2.2.2) := by
  unfold outsAt4; rw [sums4_later V c t h0]

/-- The region's invariant before position `n`: before the first point what the region is entered with; afterwards the same
    with the two accumulators owned at the running sums the point before left. -/
def PhiS4 (c : Dev nD) : (n : ℕ) → n ≤ cfg4.N → sProp 𝕄
  | 0, _ => Pipeline.ΦA spec4 c
  | n + 1, hn => iprop(iprop(iprop(owns (c : Thread nD τ) scM4_0 fullShare (sums4 V c n hn).1 ∗ owns (c : Thread nD τ) scM4_1 fullShare (sums4 V c n hn).2)
      ∗ Pipeline.scopedRestBut spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (sums4 V c n hn).1 ∗ owns (c : Thread nD τ) scM4_1 fullShare (sums4 V c n hn).2)
      ∗ Pipeline.scopedRestBut spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (sums4 V c (n - 1) (by omega)).1
        ∗ owns (c : Thread nD τ) scM4_1 fullShare (sums4 V c (n - 1) (by omega)).2)
      ∗ Pipeline.scopedRestBut spec4 c [cc4_scratch0, cc4_scratch1]) ∗ (∃ r, prngReg c r)) := by
  cases n with
  | zero => exact absurd rfl hz
  | succ n => rfl

/-- The region's proof data: the arrays as the region finds them; after the body each input's buffer at its block, the block
    of rows at `x · wᵀ + b`, the statistics at those of the running sums; the invariant `PhiS4`; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2.1 := by dsimp only [dat4]
/-- The same two, in closed form. -/
theorem after4_3_eq (c : Dev nD) (t : Fin cfg4.N) : (dat4 V c).after 3 t = lin4 (iblk4 V c 0 t) (iblk4 V c 1 t) (iblk4 V c 2 t) := by dsimp only [dat4, outsAt4]
theorem after4_4_eq (c : Dev nD) (t : Fin cfg4.N) : (dat4 V c).after 4 t = stats4 (sums4 V c t.val t.isLt).1 (sums4 V c t.val t.isLt).2 := by dsimp only [dat4, outsAt4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at any point. The inputs' buffers hold their blocks; the closed forms of the two conditions say which of the three
    cases the point is in; the invariant hands the body the accumulators at the running sums the point before left (at anything
    at the first point) and takes them back at this point's; the statistics window is handed back untouched before the last point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3_eq]
  by_cases h0 : t.val = 0
  · have h1 : ¬t.val = 19 := by omega
    rw [Dat.leavesExact_idle (dat4 V c) 4 t (idleAt4_4 t (fun h => h1 ((hcond4_1 t).mp h))) (noFlush4_4 t (fun h => h1 ((hcond4_1 t).mp h)))]
    rw [sums4_first V c t h0]; dsimp only
    rw [PhiS4_castSucc V c t, PhiS4_zero V c _ _ h0, PhiA4_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply (sound_kernel4_A c Set.univ (grid4.coords t) _ _ _ _ _ _ _ _ _ _ _ _ _ _ ((hcond4_0 t).mpr h0) (fun h => h1 ((hcond4_1 t).mp h))
      (iblk4 V c 0 t) (iblk4 V c 1 t) (iblk4 V c 2 t) _ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    iexists _; iexact H4
  · by_cases h1 : t.val = 19
    · rw [show (dat4 V c).leavesExact 4 t = owns (c : Thread nD τ) (ms4_4 t) fullShare ((dat4 V c).after 4 t) from by
        unfold Dat.leavesExact; rw [liveAt4_4 t ((hcond4_1 t).mpr h1)], after4_4_eq]
      rw [sums4_later V c t h0]; dsimp only
      rw [PhiS4_castSucc V c t, PhiS4_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (sound_kernel4_C c Set.univ (grid4.coords t) _ _ _ _ _ _ _ _ _ _ _ _ _ _ (fun h => h0 ((hcond4_0 t).mp h)) ((hcond4_1 t).mpr h1)
        (iblk4 V c 0 t) (iblk4 V c 1 t) (iblk4 V c 2 t) _ _ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dat4 V c) 4 t (idleAt4_4 t (fun h => h1 ((hcond4_1 t).mp h))) (noFlush4_4 t (fun h => h1 ((hcond4_1 t).mp h)))]
      rw [sums4_later V c t h0]; dsimp only
      rw [PhiS4_castSucc V c t, PhiS4_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (sound_kernel4_B c Set.univ (grid4.coords t) _ _ _ _ _ _ _ _ _ _ _ _ _ _ (fun h => h0 ((hcond4_0 t).mp h)) (fun h => h1 ((hcond4_1 t).mp h))
        (iblk4 V c 0 t) (iblk4 V c 1 t) (iblk4 V c 2 t) _ _ _ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point the invariant gives back what the region was entered with: the accumulators' contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

/-- The same after the last point. -/
theorem hout4 (c : Dev nD) : (dat4 V c).Φ (Fin.last cfg4.N) ⊢ Pipeline.ΦA spec4 c :=
  Phi_out4 V c _ (by rw [Fin.val_last]; have : cfg4.N = 20 := N_4; omega)

end Cert.Kernel.Regions

end
-- ==== Proof.KB.Region5.lean ====
import proofs.«167917_j22402549416514_2_alg».proof.Proof.Gen.Kernel.Launch
import proofs.«167917_j22402549416514_2_alg».proof.Proof.Gen.Kernel.Skeleton
import proofs.«167917_j22402549416514_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The normalisation region 5: each 5000-row block of the linear layer's output is shifted by the batch mean, scaled by
    the reciprocal root of (batch variance + eps), by the gain, shifted by the bias and passed through the leaky rectifier.
    The block of rows is window 0; the [2, 64] statistics, the gain and the bias are windows 1 to 3, the same block at every
    point; window 4 is the output block. -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, whether the point fetches it or not. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, whether the point fetches it or not. -/
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, whether the point fetches it or not. -/
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, whether the point fetches it or not. -/
theorem before5_3_of {c : Dev nD} (dat : Dat τ (Elt F) Unit ℕ (Pipeline.UD sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

abbrev r5_rows : Rect S5000x64 := Rect.unit (s := S5000x64) ![0, 0] S5000x64.size inb_S5000x64_S5000x64_0_0
abbrev r5_mean : Rect S2x64 := Rect.unit (s := S2x64) ![0, 0] S1x64.size inb_S2x64_S1x64_0_0
abbrev r5_var : Rect S2x64 := Rect.unit (s := S2x64) ![1, 0] S1x64.size inb_S2x64_S1x64_1_0
abbrev r5_row : Rect S1x64 := Rect.unit (s := S1x64) ![0, 0] S1x64.size inb_S1x64_S1x64_0_0

/-- The output block after the body: its one store, the normalised and rectified rows, over the four input blocks. -/
def out5_4 (x0 : Vec F S5000x64 .f32) (x1 : Vec F S2x64 .f32) (x2 : Vec F S1x64 .f32) (x3 : Vec F S1x64 .f32) : Vec F S5000x64 .f32 :=
  View.canon [⟨r5_rows, k5_pay1 (View.ld x1 r5_mean) (View.ld x1 r5_var) (View.ld x0 r5_rows) (View.ld x2 r5_row) (View.ld x3 r5_row)⟩]

/-- The one store is the whole block, so it covers it. -/
theorem cover5_4 (p0 : Vec F S5000x64 .f32) (y : S5000x64.Idx) :
    ∃ pc ∈ ([⟨r5_rows, p0⟩] : List (View.Piece (Elt F) S5000x64 .f32)), y ∈ pc.1.set :=
  View.cover_of_tiled [⟨r5_rows, p0⟩] S5000x64.size (by rfl) y

set_option maxHeartbeats 1000000 in
/-- The body on whole staging buffers: the four inputs are left as read, the output holds `out5_4` of them. -/
theorem sound_kernel5 (c : Dev nD) (E : Set ℕ) (i : grid5.Coords)
    (arg1 : Memref sig .tc .vmem S5000x64 .f32) (harg1 : arg1.IsWhole) (arg2 : Memref sig .tc .vmem S2x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S5000x64 .f32) (harg5 : arg5.IsWhole)
    (x0 : Vec F S5000x64 .f32) (x1 : Vec F S2x64 .f32) (x2 : Vec F S1x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5_kernel i arg1 harg1 arg2 harg2 arg3 harg3 arg4 harg4 arg5 harg5) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-- The region's proof data: the arrays as the region finds them; after the body each input's buffer at its block and the
    output's at `out5_4` of the input blocks; the scoped rest and the generator register pass through untouched. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' buffers hold their blocks, so `sound_kernel5` applies. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Regions

end
-- ==== Proof.KB.Region6Runs.lean ====
import proofs.«167917_j22402549416514_2_alg».proof.Proof.Gen.Kernel.Launch
import proofs.«167917_j22402549416514_2_alg».proof.Proof.Gen.Kernel.Skeleton
import proofs.«167917_j22402549416514_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«167917_j22402549416514_2_alg».proof.Proof.KB.Region2Runs

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 6, a linear layer with batch statistics (the same kernel as region 2, on its own arrays): what its three control cases share.

    Each grid point takes a block of 5000 rows `x` (window 0), the weight `w` (window 1) and the bias row `b` (window 2),
    the same two at every point, and stores the block `x · wᵀ + b` (window 3). Two accumulators of one row each are carried
    from point to point: the column sums of the blocks stored so far and the column sums of their squares. They are set to
    zero at the first point, and at the last point the [2, 64] statistics (window 4) are stored from them: row 0 the mean
    (sum / 40000), row 1 the variance (sum of squares / 40000 − mean²). At every other point window 4 is left untouched. -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, whether the point fetches it or not. -/
theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, whether the point fetches it or not. -/
theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, whether the point fetches it or not. -/
theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The two conditions, in closed form over the grid -/

/-- "This is the first point": the condition under which both accumulators are set to zero. -/
abbrev cond6_0 (i : grid6.Coords) : Prop := (Scalar.cmpi .ne (Scalar.extui (Scalar.cmpi .eq (BitVec.ofNat 32 (i 0).val) 0#32)) 0#32) = 1#1
/-- It holds at point 0 only. -/
theorem hcond6_0 : ∀ t : Fin cfg6.N, cond6_0 (grid6.coords t) ↔ t.val = 0 :=
  (by decide +kernel : ∀ t : Fin grid6.N, cond6_0 (grid6.coords t) ↔ t.val = 0)

/-- "This is the last point": the condition under which the statistics are stored. -/
abbrev cond6_1 (i : grid6.Coords) : Prop := k6_cond2 i = 1#1
/-- It holds at point 7 only. -/
theorem hcond6_1 : ∀ t : Fin cfg6.N, cond6_1 (grid6.coords t) ↔ t.val = 7 :=
  (by decide +kernel : ∀ t : Fin grid6.N, cond6_1 (grid6.coords t) ↔ t.val = 7)

/-! ## Where the windows are idle -/

/-- The inputs and the block of rows are never idle. -/
theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
/-- Before the last point the statistics window is idle: nothing is stored into it, -/
theorem idleAt6_4 : ∀ t : Fin cfg6.N, ¬cond6_1 (grid6.coords t) → cfg6.idle 4 (grid6.coords t) = true := by decide +kernel
/-- and it is not written back. -/
theorem noFlush6_4 : ∀ t : Fin cfg6.N, ¬cond6_1 (grid6.coords t) → (cfg6.win 4).flush t = false := by decide +kernel
/-- At the last point it is live. -/
theorem liveAt6_4 : ∀ t : Fin cfg6.N, cond6_1 (grid6.coords t) → cfg6.idle 4 (grid6.coords t) = false := by decide +kernel

/-! ## The memrefs the body is called with -/

abbrev ms6_0 (t : Fin cfg6.N) : Memref sig .tc .vmem S5000x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S64x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x64 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S5000x64 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S2x64 .f32 := win6_4.stage (cfg6.slots t 4)
abbrev hs6_4 (t : Fin cfg6.N) : (ms6_4 t).IsWhole := hstage6_4 ((cfg6.slots t 4).cast nbuf6_4)
/-- The two accumulators: whole buffers of the kernel's own, passed beside the windows. -/
abbrev scM6_0 : Memref sig .tc .vmem S1x64 .f32 := Memref.whole cc6_scratch0
abbrev scM6_1 : Memref sig .tc .vmem S1x64 .f32 := Memref.whole cc6_scratch1

/-- What the region is entered with, opened at the two accumulators: each owned whole at some contents, the remainder of
    the scoped buffers unopened, and the generator register at some state. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut spec6 c [cc6_scratch0, cc6_scratch1]) ∗ (∃ r, prngReg c r)) := by
  unfold Pipeline.ΦA; rw [scopedRest6_split]; simp only [scM6_0, scM6_1, owns_whole]; try rfl

/-! ## What the body computes, in closed form -/

/-- The block of rows the body stores: `x · wᵀ + b`. -/
def lin6 (x0 : Vec F S5000x64 .f32) (x1 : Vec F S64x64 .f32) (x2 : Vec F S1x64 .f32) : Vec F S5000x64 .f32 := k6_pay3 x0 x1 x2
/-- The first accumulator after a point: what it held plus the column sums of the point's block. -/
def acc6_0 (x0 : Vec F S5000x64 .f32) (x1 : Vec F S64x64 .f32) (x2 : Vec F S1x64 .f32) (s : Vec F S1x64 .f32) : Vec F S1x64 .f32 := k6_pay6 x0 x1 x2 s
/-- The second accumulator after a point: what it held plus the column sums of the squares of the point's block. -/
def acc6_1 (x0 : Vec F S5000x64 .f32) (x1 : Vec F S64x64 .f32) (x2 : Vec F S1x64 .f32) (s : Vec F S1x64 .f32) : Vec F S1x64 .f32 := k6_pay7 x0 x1 x2 s
/-- The zero row each accumulator starts from. -/
def zero6_0 : Vec F S1x64 .f32 := k6_pay4 (F := F)
def zero6_1 : Vec F S1x64 .f32 := k6_pay5 (F := F)

/-- Row 0 and row 1 of the statistics. -/
abbrev r6_mean : Rect S2x64 := Rect.unit (s := S2x64) ![0, 0] S1x64.size inb_S2x64_S1x64_0_0
abbrev r6_var : Rect S2x64 := Rect.unit (s := S2x64) ![1, 0] S1x64.size inb_S2x64_S1x64_1_0

/-- The statistics of the sums `s0` (of the entries) and `s1` (of their squares): row 0 the mean `s0 / 40000`, row 1 the
    variance `s1 / 40000 − mean²`. -/
def stats6 (s0 s1 : Vec F S1x64 .f32) : Vec F S2x64 .f32 :=
  View.canon [⟨r6_var, k6_pay2 s0 s1⟩, ⟨r6_mean, k6_pay1 s0⟩]

/-- The two rows cover the statistics. -/
theorem cover6_4 (p1 p0 : Vec F S1x64 .f32) (y : S2x64.Idx) :
    ∃ pc ∈ ([⟨r6_var, p1⟩, ⟨r6_mean, p0⟩] : List (View.Piece (Elt F) S2x64 .f32)), y ∈ pc.1.set :=
  View.cover_of_tiled [⟨r6_var, p1⟩, ⟨r6_mean, p0⟩] S1x64.size (by rfl) y

end Cert.Kernel.Regions

end
-- ==== Proof.KB.Region6Cases.lean ====
import proofs.«167917_j22402549416514_2_alg».proof.Proof.KB.Region6Runs

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 6: the body's run in each of its three control cases

    The body on whole memrefs, once per case of its two conditions — the first point (both accumulators are set to zero first),
    a middle point, the last point (the statistics are stored from the final sums). Each is stated with what every buffer is left
    holding in closed form (`lin6`, `acc6_0`, `acc6_1`, `stats6`). -/

set_option maxHeartbeats 1000000 in
/-- THE FIRST POINT. On whole memrefs — the three inputs at their blocks, the block of rows and both accumulators at anything, the
    statistics at contents handed back untouched — the body leaves the block of rows at `x · wᵀ + b` and each accumulator at
    zero plus this block's column sums (of the entries, of their squares). -/
theorem sound_kernel6_A (c : Dev nD) (E : Set ℕ) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S2x64 .f32) (harg5 : arg5.IsWhole) (arg6 : Memref sig .tc .vmem S1x64 .f32) (harg6 : arg6.IsWhole) (arg7 : Memref sig .tc .vmem S1x64 .f32) (harg7 : arg7.IsWhole) (hc0 : cond6_0 i) (hc1 : ¬cond6_1 i)
    (x0 : Vec F S5000x64 .f32) (x1 : Vec F S64x64 .f32) (x2 : Vec F S1x64 .f32) (xi4 : Vec F S2x64 .f32) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare (lin6 x0 x1 x2)
                ∗ owns (c : Thread nD τ) arg5 fullShare xi4
                ∗ owns (c : Thread nD τ) arg6 fullShare (acc6_0 x0 x1 x2 zero6_0)
                ∗ owns (c : Thread nD τ) arg7 fullShare (acc6_1 x0 x1 x2 zero6_1)) -∗ K ⟨⟩))
          ⊢ wp frame (wpE (defs₀ (F := F)) Variants.none c none) E (cc6_kernel i arg1 harg1 arg2 harg2 arg3 harg3 arg4 harg4 arg5 harg5 arg6 harg6 arg7 harg7) K := by
    simp only [cc6_kernel_eq_skeleton]; unfold cc6_kernel_skel
    simp only [k6_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [read_writes_unit_zero_last _ _ hz2, readAt_unread_unit_zero harg1 hz2, readAt_unread_unit_zero harg2 hz2, readAt_unread_unit_zero harg3 hz2]; rfl
    isplitl [H4]
    · iexists _; isplitr; · ipureintro; exact harg5.read_unread _
      iexact H4
    isplitl [HS0]
    · iexists _; isplitr
      swap; · iexact HS0
      ipureintro
      rw [read_writes_unit_zero_last _ _ hz2, readAt_unread_unit_zero harg1 hz2, readAt_unread_unit_zero harg2 hz2, readAt_unread_unit_zero harg3 hz2]
      sl_unfold_words
      rw [View.readCov_unit_zero (S := S1x64) _ hz2]; rfl
    iexists _; isplitr
    swap; · iexact HS1
    ipureintro
    rw [read_writes_unit_zero_last _ _ hz2, readAt_unread_unit_zero harg1 hz2, readAt_unread_unit_zero harg2 hz2, readAt_unread_unit_zero harg3 hz2]
    sl_unfold_words
    rw [View.readCov_unit_zero (S := S1x64) _ hz2]; rfl

set_option maxHeartbeats 1000000 in
/-- A MIDDLE POINT. On whole memrefs — the three inputs at their blocks, the block of rows at anything, the statistics at
    contents handed back untouched, the accumulators at what the point before left (`xs0`, `xs1`) — the body leaves the block of
    rows at `x · wᵀ + b` and each accumulator at what it held plus this block's column sums (of the entries, of their squares). -/
theorem sound_kernel6_B (c : Dev nD) (E : Set ℕ) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S2x64 .f32) (harg5 : arg5.IsWhole) (arg6 : Memref sig .tc .vmem S1x64 .f32) (harg6 : arg6.IsWhole) (arg7 : Memref sig .tc .vmem S1x64 .f32) (harg7 : arg7.IsWhole) (hc0 : ¬cond6_0 i) (hc1 : ¬cond6_1 i)
    (x0 : Vec F S5000x64 .f32) (x1 : Vec F S64x64 .f32) (x2 : Vec F S1x64 .f32) (xi4 : Vec F S2x64 .f32)
    (xs0 xs1 : Vec F S1x64 .f32) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare (lin6 x0 x1 x2)
                ∗ owns (c : Thread nD τ) arg5 fullShare xi4
                ∗ owns (c : Thread nD τ) arg6 fullShare (acc6_0 x0 x1 x2 xs0)
                ∗ owns (c : Thread nD τ) arg7 fullShare (acc6_1 x0 x1 x2 xs1)) -∗ K ⟨⟩))
          ⊢ wp frame (wpE (defs₀ (F := F)) Variants.none c none) E (cc6_kernel i arg1 harg1 arg2 harg2 arg3 harg3 arg4 harg4 arg5 harg5 arg6 harg6 arg7 harg7) K := by
    simp only [cc6_kernel_eq_skeleton]; unfold cc6_kernel_skel
    simp only [k6_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hf4
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [read_writes_unit_zero_last _ _ hz2, readAt_unread_unit_zero harg1 hz2, readAt_unread_unit_zero harg2 hz2, readAt_unread_unit_zero harg3 hz2]; rfl
    isplitl [H4]
    · iexists _; isplitr; · ipureintro; exact harg5.read_unread _
      iexact H4
    isplitl [HS0]
    · iexists _; isplitr
      swap; · iexact HS0
      ipureintro
      rw [read_writes_unit_zero_last _ _ hz2, readAt_unread_unit_zero harg1 hz2, readAt_unread_unit_zero harg2 hz2, readAt_unread_unit_zero harg3 hz2,
        readAt_unread_unit_zero harg6 hz2]; rfl
    iexists _; isplitr
    swap; · iexact HS1
    ipureintro
    rw [read_writes_unit_zero_last _ _ hz2, readAt_unread_unit_zero harg1 hz2, readAt_unread_unit_zero harg2 hz2, readAt_unread_unit_zero harg3 hz2,
      readAt_unread_unit_zero harg7 hz2]; rfl

set_option maxHeartbeats 1000000 in
/-- THE LAST POINT. On whole memrefs — the three inputs at their blocks, the block of rows and the statistics at anything, the
    accumulators at what the point before left (`xs0`, `xs1`) — the body leaves the block of rows at `x · wᵀ + b`, each
    accumulator at what it held plus this block's column sums, and the statistics at the mean and variance of those final sums. -/
theorem sound_kernel6_C (c : Dev nD) (E : Set ℕ) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S2x64 .f32) (harg5 : arg5.IsWhole) (arg6 : Memref sig .tc .vmem S1x64 .f32) (harg6 : arg6.IsWhole) (arg7 : Memref sig .tc .vmem S1x64 .f32) (harg7 : arg7.IsWhole) (hc0 : ¬cond6_0 i) (hc1 : cond6_1 i)
    (x0 : Vec F S5000x64 .f32) (x1 : Vec F S64x64 .f32) (x2 : Vec F S1x64 .f32)
    (xs0 xs1 : Vec F S1x64 .f32) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare (lin6 x0 x1 x2)
                ∗ owns (c : Thread nD τ) arg5 fullShare (stats6 (acc6_0 x0 x1 x2 xs0) (acc6_1 x0 x1 x2 xs1))
                ∗ owns (c : Thread nD τ) arg6 fullShare (acc6_0 x0 x1 x2 xs0)
                ∗ owns (c : Thread nD τ) arg7 fullShare (acc6_1 x0 x1 x2 xs1)) -∗ K ⟨⟩))
          ⊢ wp frame (wpE (defs₀ (F := F)) Variants.none c none) E (cc6_kernel i arg1 harg1 arg2 harg2 arg3 harg3 arg4 harg4 arg5 harg5 arg6 harg6 arg7 harg7) K := by
    simp only [cc6_kernel_eq_skeleton]; unfold cc6_kernel_skel
    simp only [k6_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [read_writes_unit_zero_last _ _ hz2, readAt_unread_unit_zero harg1 hz2, readAt_unread_unit_zero harg2 hz2, readAt_unread_unit_zero harg3 hz2]; rfl
    isplitl [H4]
    · iexists _; isplitr
      swap; · iexact H4
      ipureintro
      rw [View.read_writes_eq_canon _ _ _ (cover6_4 _ _)]
      sl_unfold_words
      simp only [View.readCov_unit_zero (S := S1x64) _ hz2, readAt_unread_unit_zero harg1 hz2, readAt_unread_unit_zero harg2 hz2, readAt_unread_unit_zero harg3 hz2,
        readAt_unread_unit_zero harg6 hz2, readAt_unread_unit_zero harg7 hz2]
      rfl
    isplitl [HS0]
    · iexists _; isplitr
      swap; · iexact HS0
      ipureintro
      sl_unfold_words
      rw [read_writes_unit_zero_last _ _ hz2, readAt_unread_unit_zero harg1 hz2, readAt_unread_unit_zero harg2 hz2, readAt_unread_unit_zero harg3 hz2,
        readAt_unread_unit_zero harg6 hz2]; rfl
    iexists _; isplitr
    swap; · iexact HS1
    ipureintro
    sl_unfold_words
    rw [read_writes_unit_zero_last _ _ hz2, readAt_unread_unit_zero harg1 hz2, readAt_unread_unit_zero harg2 hz2, readAt_unread_unit_zero harg3 hz2,
      readAt_unread_unit_zero harg7 hz2]; rfl

end Cert.Kernel.Regions

end
-- ==== Proof.KB.Region6.lean ====
import proofs.«167917_j22402549416514_2_alg».proof.Proof.KB.Region6Cases

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 6: the running sums, the proof data and the body obligation -/

/-- THE ACCUMULATION. The two running sums after the body at point `n`: the column sums of the blocks `x · wᵀ + b` stored at
    points `0 … n` and the column sums of their squares, each added block by block in point order onto the zero row. -/
def sums6 (c : Dev nD) : (n : ℕ) → n < cfg6.N → Vec F S1x64 .f32 × Vec F S1x64 .f32
  | 0, hn => (acc6_0 (iblk6 V c 0 ⟨0, hn⟩) (iblk6 V c 1 ⟨0, hn⟩) (iblk6 V c 2 ⟨0, hn⟩) zero6_0, acc6_1 (iblk6 V c 0 ⟨0, hn⟩) (iblk6 V c 1 ⟨0, hn⟩) (iblk6 V c 2 ⟨0, hn⟩) zero6_1)
  | n + 1, hn => (acc6_0 (iblk6 V c 0 ⟨n + 1, hn⟩) (iblk6 V c 1 ⟨n + 1, hn⟩) (iblk6 V c 2 ⟨n + 1, hn⟩) (sums6 c n (Nat.lt_of_succ_lt hn)).1,
      acc6_1 (iblk6 V c 0 ⟨n + 1, hn⟩) (iblk6 V c 1 ⟨n + 1, hn⟩) (iblk6 V c 2 ⟨n + 1, hn⟩) (sums6 c n (Nat.lt_of_succ_lt hn)).2)

/-- At the first point: the zero rows plus the first block's sums. -/
theorem sums6_first (c : Dev nD) (t : Fin cfg6.N) (h0 : t.val = 0) :
    sums6 V c t.val t.isLt = (acc6_0 (iblk6 V c 0 t) (iblk6 V c 1 t) (iblk6 V c 2 t) zero6_0, acc6_1 (iblk6 V c 0 t) (iblk6 V c 1 t) (iblk6 V c 2 t) zero6_1) := by
  obtain ⟨n, hn⟩ := t
  cases n with
  | zero => rfl
  | succ n => exact absurd h0 (Nat.succ_ne_zero n)

/-- At a later point: the sums after the point before plus this block's. -/
theorem sums6_later (c : Dev nD) (t : Fin cfg6.N) (h0 : ¬t.val = 0) :
    sums6 V c t.val t.isLt = (acc6_0 (iblk6 V c 0 t) (iblk6 V c 1 t) (iblk6 V c 2 t) (sums6 V c (t.val - 1) (Nat.lt_of_le_of_lt (Nat.sub_le _ _) t.isLt)).1,
      acc6_1 (iblk6 V c 0 t) (iblk6 V c 1 t) (iblk6 V c 2 t) (sums6 V c (t.val - 1) (Nat.lt_of_le_of_lt (Nat.sub_le _ _) t.isLt)).2) := by
  obtain ⟨n, hn⟩ := t
  cases n with
  | zero => exact absurd rfl h0
  | succ n => rfl

/-- What the two output blocks and the two accumulators hold after the body at point `n`: the block of rows `x · wᵀ + b` of
    the point's inputs; the statistics of the running sums (stored at the last point only: at any other point nothing reads this
    component, the window being idle and not written back); the two running sums. -/
def outsAt6 (c : Dev nD) (n : ℕ) (hn : n < cfg6.N) : Vec F S5000x64 .f32 × Vec F S2x64 .f32 × Vec F S1x64 .f32 × Vec F S1x64 .f32 :=
  (lin6 (iblk6 V c 0 ⟨n, hn⟩) (iblk6 V c 1 ⟨n, hn⟩) (iblk6 V c 2 ⟨n, hn⟩), stats6 (sums6 V c n hn).1 (sums6 V c n hn).2, (sums6 V c n hn).1, (sums6 V c n hn).2)

/-- `outsAt6` at the first point. -/
theorem outsAt6_A (c : Dev nD) (t : Fin cfg6.N) (h0 : t.val = 0) :
    outsAt6 V c t.val t.isLt = (lin6 (iblk6 V c 0 t) (iblk6 V c 1 t) (iblk6 V c 2 t),
      stats6 (acc6_0 (iblk6 V c 0 t) (iblk6 V c 1 t) (iblk6 V c 2 t) zero6_0) (acc6_1 (iblk6 V c 0 t) (iblk6 V c 1 t) (iblk6 V c 2 t) zero6_1),
      acc6_0 (iblk6 V c 0 t) (iblk6 V c 1 t) (iblk6 V c 2 t) zero6_0, acc6_1 (iblk6 V c 0 t) (iblk6 V c 1 t) (iblk6 V c 2 t) zero6_1) := by
  unfold outsAt6; rw [sums6_first V c t h0]

/-- `outsAt6` at a middle point, over what the point before left in the accumulators. -/
theorem outsAt6_B (c : Dev nD) (t : Fin cfg6.N) (h0 : ¬t.val = 0) (h1 : ¬t.val = 7) :
    outsAt6 V c t.val t.isLt = (lin6 (iblk6 V c 0 t) (iblk6 V c 1 t) (iblk6 V c 2 t),
      stats6 (acc6_0 (iblk6 V c 0 t) (iblk6 V c 1 t) (iblk6 V c 2 t) (outsAt6 V c (t.val - 1) (Nat.lt_of_le_of_lt (Nat.sub_le _ _) t.isLt)).2.2.1)
        (acc6_1 (iblk6 V c 0 t) (iblk6 V c 1 t) (iblk6 V c 2 t) (outsAt6 V c (t.val - 1) (Nat.lt_of_le_of_lt (Nat.sub_le _ _) t.isLt)).2.2.2),
      acc6_0 (iblk6 V c 0 t) (iblk6 V c 1 t) (iblk6 V c 2 t) (outsAt6 V c (t.val - 1) (Nat.lt_of_le_of_lt (Nat.sub_le _ _) t.isLt)).2.2.1,
      acc6_1 (iblk6 V c 0 t) (iblk6 V c 1 t) (iblk6 V c 2 t) (outsAt6 V c (t.val - 1) (Nat.lt_of_le_of_lt (Nat.sub_le _ _) t.isLt)).2.2.2) := by
  unfold outsAt6; rw [sums6_later V c t h0]

/-- `outsAt6` at the last point, over what the point before left in the accumulators: the same equation, the statistics now
    being what the body stores. -/
theorem outsAt6_C (c : Dev nD) (t : Fin cfg6.N) (h0 : ¬t.val = 0) (h1 : t.val = 7) :
    outsAt6 V c t.val t.isLt = (lin6 (iblk6 V c 0 t) (iblk6 V c 1 t) (iblk6 V c 2 t),
      stats6 (acc6_0 (iblk6 V c 0 t) (iblk6 V c 1 t) (iblk6 V c 2 t) (outsAt6 V c (t.val - 1) (Nat.lt_of_le_of_lt (Nat.sub_le _ _) t.isLt)).2.2.1)
        (acc6_1 (iblk6 V c 0 t) (iblk6 V c 1 t) (iblk6 V c 2 t) (outsAt6 V c (t.val - 1) (Nat.lt_of_le_of_lt (Nat.sub_le _ _) t.isLt)).2.2.2),
      acc6_0 (iblk6 V c 0 t) (iblk6 V c 1 t) (iblk6 V c 2 t) (outsAt6 V c (t.val - 1) (Nat.lt_of_le_of_lt (Nat.sub_le _ _) t.isLt)).2.2.1,
      acc6_1 (iblk6 V c 0 t) (iblk6 V c 1 t) (iblk6 V c 2 t) (outsAt6 V c (t.val - 1) (Nat.lt_of_le_of_lt (Nat.sub_le _ _) t.isLt)).2.2.2) := by
  unfold outsAt6; rw [sums6_later V c t h0]

/-- The region's invariant before position `n`: before the first point what the region is entered with; afterwards the same
    with the two accumulators owned at the running sums the point before left. -/
def PhiS6 (c : Dev nD) : (n : ℕ) → n ≤ cfg6.N → sProp 𝕄
  | 0, _ => Pipeline.ΦA spec6 c
  | n + 1, hn => iprop(iprop(iprop(owns (c : Thread nD τ) scM6_0 fullShare (sums6 V c n hn).1 ∗ owns (c : Thread nD τ) scM6_1 fullShare (sums6 V c n hn).2)
      ∗ Pipeline.scopedRestBut spec6 c [cc6_scratch0, cc6_scratch1]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (sums6 V c n hn).1 ∗ owns (c : Thread nD τ) scM6_1 fullShare (sums6 V c n hn).2)
      ∗ Pipeline.scopedRestBut spec6 c [cc6_scratch0, cc6_scratch1]) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (sums6 V c (n - 1) (by omega)).1
        ∗ owns (c : Thread nD τ) scM6_1 fullShare (sums6 V c (n - 1) (by omega)).2)
      ∗ Pipeline.scopedRestBut spec6 c [cc6_scratch0, cc6_scratch1]) ∗ (∃ r, prngReg c r)) := by
  cases n with
  | zero => exact absurd rfl hz
  | succ n => rfl

/-- The region's proof data: the arrays as the region finds them; after the body each input's buffer at its block, the block
    of rows at `x · wᵀ + b`, the statistics at those of the running sums; the invariant `PhiS6`; nothing owed; full shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
    | ⟨4, _⟩ => (outsAt6 V c t.val t.isLt).2.1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]
theorem after6_4 (c : Dev nD) (t : Fin cfg6.N) : (dat6 V c).after 4 t = (outsAt6 V c t.val t.isLt).2.1 := by dsimp only [dat6]
/-- The same two, in closed form. -/
theorem after6_3_eq (c : Dev nD) (t : Fin cfg6.N) : (dat6 V c).after 3 t = lin6 (iblk6 V c 0 t) (iblk6 V c 1 t) (iblk6 V c 2 t) := by dsimp only [dat6, outsAt6]
theorem after6_4_eq (c : Dev nD) (t : Fin cfg6.N) : (dat6 V c).after 4 t = stats6 (sums6 V c t.val t.isLt).1 (sums6 V c t.val t.isLt).2 := by dsimp only [dat6, outsAt6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

set_option maxHeartbeats 4800000 in
/-- The body at any point. The inputs' buffers hold their blocks; the closed forms of the two conditions say which of the three
    cases the point is in; the invariant hands the body the accumulators at the running sums the point before left (at anything
    at the first point) and takes them back at this point's; the statistics window is handed back untouched before the last point. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  have hN : t.val < 8 := lt_of_lt_of_eq t.isLt (show cfg6.N = 8 from N_6)
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3_eq]
  by_cases h0 : t.val = 0
  · have h1 : ¬t.val = 7 := by omega
    rw [Dat.leavesExact_idle (dat6 V c) 4 t (idleAt6_4 t (fun h => h1 ((hcond6_1 t).mp h))) (noFlush6_4 t (fun h => h1 ((hcond6_1 t).mp h)))]
    rw [sums6_first V c t h0]; dsimp only
    rw [PhiS6_castSucc V c t, PhiS6_zero V c _ _ h0, PhiA6_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply (sound_kernel6_A c Set.univ (grid6.coords t) _ _ _ _ _ _ _ _ _ _ _ _ _ _ ((hcond6_0 t).mpr h0) (fun h => h1 ((hcond6_1 t).mp h))
      (iblk6 V c 0 t) (iblk6 V c 1 t) (iblk6 V c 2 t) _ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    iexists _; iexact H4
  · by_cases h1 : t.val = 7
    · rw [show (dat6 V c).leavesExact 4 t = owns (c : Thread nD τ) (ms6_4 t) fullShare ((dat6 V c).after 4 t) from by
        unfold Dat.leavesExact; rw [liveAt6_4 t ((hcond6_1 t).mpr h1)], after6_4_eq]
      rw [sums6_later V c t h0]; dsimp only
      rw [PhiS6_castSucc V c t, PhiS6_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (sound_kernel6_C c Set.univ (grid6.coords t) _ _ _ _ _ _ _ _ _ _ _ _ _ _ (fun h => h0 ((hcond6_0 t).mp h)) ((hcond6_1 t).mpr h1)
        (iblk6 V c 0 t) (iblk6 V c 1 t) (iblk6 V c 2 t) _ _ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dat6 V c) 4 t (idleAt6_4 t (fun h => h1 ((hcond6_1 t).mp h))) (noFlush6_4 t (fun h => h1 ((hcond6_1 t).mp h)))]
      rw [sums6_later V c t h0]; dsimp only
      rw [PhiS6_castSucc V c t, PhiS6_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (sound_kernel6_B c Set.univ (grid6.coords t) _ _ _ _ _ _ _ _ _ _ _ _ _ _ (fun h => h0 ((hcond6_0 t).mp h)) (fun h => h1 ((hcond6_1 t).mp h))
        (iblk6 V c 0 t) (iblk6 V c 1 t) (iblk6 V c 2 t) _ _ _ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the region is entered with is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point the invariant gives back what the region was entered with: the accumulators' contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

/-- The same after the last point. -/
theorem hout6 (c : Dev nD) : (dat6 V c).Φ (Fin.last cfg6.N) ⊢ Pipeline.ΦA spec6 c :=
  Phi_out6 V c _ (by rw [Fin.val_last]; have : cfg6.N = 8 := N_6; omega)

end Cert.Kernel.Regions

end
-- ==== Proof.KB.Region7.lean ====
import proofs.«167917_j22402549416514_2_alg».proof.Proof.Gen.Kernel.Launch
import proofs.«167917_j22402549416514_2_alg».proof.Proof.Gen.Kernel.Skeleton
import proofs.«167917_j22402549416514_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The normalisation region 7 with a residual: each 5000-row block of the linear layer's output is shifted by the batch mean,
    scaled by the reciprocal root of (batch variance + eps), by the gain, shifted by the bias, passed through the leaky rectifier,
    and the same rows of the residual are added.
    The block of rows is window 0; the [2, 64] statistics, the gain and the bias are windows 1 to 3, the same block at every
    point; window 4 is the block of rows of the residual; window 5 is the output block. -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, whether the point fetches it or not. -/
theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, whether the point fetches it or not. -/
theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, whether the point fetches it or not. -/
theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every point, whether the point fetches it or not. -/
theorem before7_3_of {c : Dev nD} (dat : Dat τ (Elt F) Unit ℕ (Pipeline.UD sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds its block at every point, whether the point fetches it or not. -/
theorem before7_4_of {c : Dev nD} (dat : Dat τ (Elt F) Unit ℕ (Pipeline.UD sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

abbrev r7_rows : Rect S5000x64 := Rect.unit (s := S5000x64) ![0, 0] S5000x64.size inb_S5000x64_S5000x64_0_0
abbrev r7_mean : Rect S2x64 := Rect.unit (s := S2x64) ![0, 0] S1x64.size inb_S2x64_S1x64_0_0
abbrev r7_var : Rect S2x64 := Rect.unit (s := S2x64) ![1, 0] S1x64.size inb_S2x64_S1x64_1_0
abbrev r7_row : Rect S1x64 := Rect.unit (s := S1x64) ![0, 0] S1x64.size inb_S1x64_S1x64_0_0

/-- The output block after the body: its one store, the normalised and rectified rows plus the residual rows, over the five input blocks. -/
def out7_5 (x0 : Vec F S5000x64 .f32) (x1 : Vec F S2x64 .f32) (x2 : Vec F S1x64 .f32) (x3 : Vec F S1x64 .f32) (x4 : Vec F S5000x64 .f32) : Vec F S5000x64 .f32 :=
  View.canon [⟨r7_rows, k7_pay1 (View.ld x1 r7_mean) (View.ld x1 r7_var) (View.ld x0 r7_rows) (View.ld x2 r7_row) (View.ld x3 r7_row) (View.ld x4 r7_rows)⟩]

/-- The one store is the whole block, so it covers it. -/
theorem cover7_5 (p0 : Vec F S5000x64 .f32) (y : S5000x64.Idx) :
    ∃ pc ∈ ([⟨r7_rows, p0⟩] : List (View.Piece (Elt F) S5000x64 .f32)), y ∈ pc.1.set :=
  View.cover_of_tiled [⟨r7_rows, p0⟩] S5000x64.size (by rfl) y

set_option maxHeartbeats 1000000 in
/-- The body on whole staging buffers: the five inputs are left as read, the output holds `out7_5` of them. -/
theorem sound_kernel7 (c : Dev nD) (E : Set ℕ) (i : grid7.Coords)
    (arg1 : Memref sig .tc .vmem S5000x64 .f32) (harg1 : arg1.IsWhole) (arg2 : Memref sig .tc .vmem S2x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S5000x64 .f32) (harg5 : arg5.IsWhole) (arg6 : Memref sig .tc .vmem S5000x64 .f32) (harg6 : arg6.IsWhole)
    (x0 : Vec F S5000x64 .f32) (x1 : Vec F S2x64 .f32) (x2 : Vec F S1x64 .f32) (x3 : Vec F S1x64 .f32) (x4 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out7_5 x0 x1 x2 x3 x4)) -∗ K ⟨⟩))
      ⊢ wp frame (wpE (defs₀ (F := F)) Variants.none c none) E (cc7_kernel i arg1 harg1 arg2 harg2 arg3 harg3 arg4 harg4 arg5 harg5 arg6 harg6) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-- The region's proof data: the arrays as the region finds them; after the body each input's buffer at its block and the
    output's at `out7_5` of the input blocks; the scoped rest and the generator register pass through untouched. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' buffers hold their blocks, so `sound_kernel7` applies. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ (grid7.coords t) _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Regions

end
-- ==== Proof.KB.Region8.lean ====
import proofs.«167917_j22402549416514_2_alg».proof.Proof.Gen.Kernel.Launch
import proofs.«167917_j22402549416514_2_alg».proof.Proof.Gen.Kernel.Skeleton
import proofs.«167917_j22402549416514_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The gating region 8: each 5000-row block of the features is multiplied by the transposed 64 x 64 weight, the bias row is
    added, the logistic function applied, and the result multiplies the same rows of the item embedding.
    Window 0 is the block of feature rows, window 1 the weight, window 2 the bias row (the same block at every point),
    window 3 the block of embedding rows, window 4 the output block. -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, whether the point fetches it or not. -/
theorem before8_0_of {c : Dev nD} (dat : Dat τ (Elt F) Unit ℕ (Pipeline.UD sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every point, whether the point fetches it or not. -/
theorem before8_1_of {c : Dev nD} (dat : Dat τ (Elt F) Unit ℕ (Pipeline.UD sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds its block at every point, whether the point fetches it or not. -/
theorem before8_2_of {c : Dev nD} (dat : Dat τ (Elt F) Unit ℕ (Pipeline.UD sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer holds its block at every point, whether the point fetches it or not. -/
theorem before8_3_of {c : Dev nD} (dat : Dat τ (Elt F) Unit ℕ (Pipeline.UD sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

abbrev r8_rows : Rect S5000x64 := Rect.unit (s := S5000x64) ![0, 0] S5000x64.size inb_S5000x64_S5000x64_0_0
abbrev r8_w : Rect S64x64 := Rect.unit (s := S64x64) ![0, 0] S64x64.size inb_S64x64_S64x64_0_0
abbrev r8_row : Rect S1x64 := Rect.unit (s := S1x64) ![0, 0] S1x64.size inb_S1x64_S1x64_0_0

/-- The output block after the body: its one store, the gated embedding rows, over the four input blocks. -/
def out8_4 (x0 : Vec F S5000x64 .f32) (x1 : Vec F S64x64 .f32) (x2 : Vec F S1x64 .f32) (x3 : Vec F S5000x64 .f32) : Vec F S5000x64 .f32 :=
  View.canon [⟨r8_rows, k8_pay1 (View.ld x0 r8_rows) (View.ld x1 r8_w) (View.ld x2 r8_row) (View.ld x3 r8_rows)⟩]

/-- The one store is the whole block, so it covers it. -/
theorem cover8_4 (p0 : Vec F S5000x64 .f32) (y : S5000x64.Idx) :
    ∃ pc ∈ ([⟨r8_rows, p0⟩] : List (View.Piece (Elt F) S5000x64 .f32)), y ∈ pc.1.set :=
  View.cover_of_tiled [⟨r8_rows, p0⟩] S5000x64.size (by rfl) y

set_option maxHeartbeats 1000000 in
/-- The body on whole staging buffers: the four inputs are left as read, the output holds `out8_4` of them. -/
theorem sound_kernel8 (c : Dev nD) (E : Set ℕ) (i : grid8.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (arg5 : Memref sig .tc .vmem S5000x64 .f32) (harg5 : arg5.IsWhole)
    (x0 : Vec F S5000x64 .f32) (x1 : Vec F S64x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out8_4 x0 x1 x2 x3)) -∗ K ⟨⟩))
      ⊢ wp frame (wpE (defs₀ (F := F)) Variants.none c none) E (cc8_kernel i arg1 harg1 arg2 harg2 arg3 harg3 arg4 harg4 arg5 harg5) K := by
  simp only [cc8_kernel_eq_skeleton]; unfold cc8_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8_4 _)

/-- The region's proof data: the arrays as the region finds them; after the body each input's buffer at its block and the
    output's at `out8_4` of the input blocks; the scoped rest and the generator register pass through untouched. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = out8_4 (iblk8 V c 0 t) (iblk8 V c 1 t) (iblk8 V c 2 t) (iblk8 V c 3 t) := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

/-- The body at any point: the inputs' buffers hold their blocks, so `sound_kernel8` applies. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ (grid8.coords t) _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Regions

end
-- ==== Proof.KB.Region9.lean ====
import proofs.«167917_j22402549416514_2_alg».proof.Proof.Gen.Kernel.Launch
import proofs.«167917_j22402549416514_2_alg».proof.Proof.Gen.Kernel.Skeleton
import proofs.«167917_j22402549416514_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The gating region 9: each 5000-row block of the features is multiplied by the transposed 64 x 64 weight, the bias row is
    added, the logistic function applied, and the result multiplies the same rows of the item embedding.
    Window 0 is the block of feature rows, window 1 the weight, window 2 the bias row (the same block at every point),
    window 3 the block of embedding rows, window 4 the output block. -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block at every point, whether the point fetches it or not. -/
theorem before9_0_of {c : Dev nD} (dat : Dat τ (Elt F) Unit ℕ (Pipeline.UD sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds its block at every point, whether the point fetches it or not. -/
theorem before9_1_of {c : Dev nD} (dat : Dat τ (Elt F) Unit ℕ (Pipeline.UD sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's staging buffer holds its block at every point, whether the point fetches it or not. -/
theorem before9_2_of {c : Dev nD} (dat : Dat τ (Elt F) Unit ℕ (Pipeline.UD sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's staging buffer holds its block at every point, whether the point fetches it or not. -/
theorem before9_3_of {c : Dev nD} (dat : Dat τ (Elt F) Unit ℕ (Pipeline.UD sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

abbrev r9_rows : Rect S5000x64 := Rect.unit (s := S5000x64) ![0, 0] S5000x64.size inb_S5000x64_S5000x64_0_0
abbrev r9_w : Rect S64x64 := Rect.unit (s := S64x64) ![0, 0] S64x64.size inb_S64x64_S64x64_0_0
abbrev r9_row : Rect S1x64 := Rect.unit (s := S1x64) ![0, 0] S1x64.size inb_S1x64_S1x64_0_0

/-- The output block after the body: its one store, the gated embedding rows, over the four input blocks. -/
def out9_4 (x0 : Vec F S5000x64 .f32) (x1 : Vec F S64x64 .f32) (x2 : Vec F S1x64 .f32) (x3 : Vec F S5000x64 .f32) : Vec F S5000x64 .f32 :=
  View.canon [⟨r9_rows, k9_pay1 (View.ld x0 r9_rows) (View.ld x1 r9_w) (View.ld x2 r9_row) (View.ld x3 r9_rows)⟩]

/-- The one store is the whole block, so it covers it. -/
theorem cover9_4 (p0 : Vec F S5000x64 .f32) (y : S5000x64.Idx) :
    ∃ pc ∈ ([⟨r9_rows, p0⟩] : List (View.Piece (Elt F) S5000x64 .f32)), y ∈ pc.1.set :=
  View.cover_of_tiled [⟨r9_rows, p0⟩] S5000x64.size (by rfl) y

set_option maxHeartbeats 1000000 in
/-- The body on whole staging buffers: the four inputs are left as read, the output holds `out9_4` of them. -/
theorem sound_kernel9 (c : Dev nD) (E : Set ℕ) (i : grid9.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (arg5 : Memref sig .tc .vmem S5000x64 .f32) (harg5 : arg5.IsWhole)
    (x0 : Vec F S5000x64 .f32) (x1 : Vec F S64x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out9_4 x0 x1 x2 x3)) -∗ K ⟨⟩))
      ⊢ wp frame (wpE (defs₀ (F := F)) Variants.none c none) E (cc9_kernel i arg1 harg1 arg2 harg2 arg3 harg3 arg4 harg4 arg5 harg5) K := by
  simp only [cc9_kernel_eq_skeleton]; unfold cc9_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover9_4 _)

/-- The region's proof data: the arrays as the region finds them; after the body each input's buffer at its block and the
    output's at `out9_4` of the input blocks; the scoped rest and the generator register pass through untouched. -/
def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = out9_4 (iblk9 V c 0 t) (iblk9 V c 1 t) (iblk9 V c 2 t) (iblk9 V c 3 t) := by dsimp only [dat9]
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any point: the inputs' buffers hold their blocks, so `sound_kernel9` applies. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ (grid9.coords t) _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Regions

end
-- ==== Proof.KB.Region10.lean ====
import proofs.«167917_j22402549416514_2_alg».proof.Proof.Gen.Kernel.Launch
import proofs.«167917_j22402549416514_2_alg».proof.Proof.Gen.Kernel.Skeleton
import proofs.«167917_j22402549416514_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The fusion region 10: on each 7000-row block, the two modality tables are each multiplied by the transposed 64 x 64 weight,
    the bias row added and the leaky rectifier applied; each row's score is the sum along the row of that hidden row times the second
    weight row; the attention of the first table is the logistic function of the difference of the two scores and the second table's
    is one minus it; the output is the content rows plus the attention-weighted sum of the two tables' rows.
    Windows 0 and 1 are the blocks of rows of the two modality tables, window 2 the block of rows of the content table;
    window 3 is the weight, window 4 the bias row, window 5 the second weight row (the same block at every point);
    window 6 is the output block. -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's staging buffer holds its block at every point, whether the point fetches it or not. -/
theorem before10_0_of {c : Dev nD} (dat : Dat τ (Elt F) Unit ℕ (Pipeline.UD sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's staging buffer holds its block at every point, whether the point fetches it or not. -/
theorem before10_1_of {c : Dev nD} (dat : Dat τ (Elt F) Unit ℕ (Pipeline.UD sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's staging buffer holds its block at every point, whether the point fetches it or not. -/
theorem before10_2_of {c : Dev nD} (dat : Dat τ (Elt F) Unit ℕ (Pipeline.UD sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's staging buffer holds its block at every point, whether the point fetches it or not. -/
theorem before10_3_of {c : Dev nD} (dat : Dat τ (Elt F) Unit ℕ (Pipeline.UD sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's staging buffer holds its block at every point, whether the point fetches it or not. -/
theorem before10_4_of {c : Dev nD} (dat : Dat τ (Elt F) Unit ℕ (Pipeline.UD sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Input window 5's staging buffer holds its block at every point, whether the point fetches it or not. -/
theorem before10_5_of {c : Dev nD} (dat : Dat τ (Elt F) Unit ℕ (Pipeline.UD sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

abbrev r10_rows : Rect S7000x64 := Rect.unit (s := S7000x64) ![0, 0] S7000x64.size inb_S7000x64_S7000x64_0_0
abbrev r10_w : Rect S64x64 := Rect.unit (s := S64x64) ![0, 0] S64x64.size inb_S64x64_S64x64_0_0
abbrev r10_row : Rect S1x64 := Rect.unit (s := S1x64) ![0, 0] S1x64.size inb_S1x64_S1x64_0_0

/-- The output block after the body: its one store, the content rows plus the attention-weighted rows of the two tables,
    over the six input blocks. The first part of the body reads the two tables, the weight, the bias row and the second weight
    row and hands on the two tables' rows, one minus the attention and the attention spread along the rows. -/
def out10_6 (x0 : Vec F S7000x64 .f32) (x1 : Vec F S7000x64 .f32) (x2 : Vec F S7000x64 .f32) (x3 : Vec F S64x64 .f32) (x4 : Vec F S1x64 .f32) (x5 : Vec F S1x64 .f32) : Vec F S7000x64 .f32 :=
  View.canon [⟨r10_rows, k10_pay1 (k10_pay2 (View.ld x0 r10_rows)) (k10_pay3 (View.ld x1 r10_rows))
    (k10_pay5 (View.ld x0 r10_rows) (View.ld x1 r10_rows) (View.ld x3 r10_w) (View.ld x4 r10_row) (View.ld x5 r10_row))
    (k10_pay6 (View.ld x0 r10_rows) (View.ld x1 r10_rows) (View.ld x3 r10_w) (View.ld x4 r10_row) (View.ld x5 r10_row))
    (View.ld x2 r10_rows)⟩]

/-- The one store is the whole block, so it covers it. -/
theorem cover10_6 (p0 : Vec F S7000x64 .f32) (y : S7000x64.Idx) :
    ∃ pc ∈ ([⟨r10_rows, p0⟩] : List (View.Piece (Elt F) S7000x64 .f32)), y ∈ pc.1.set :=
  View.cover_of_tiled [⟨r10_rows, p0⟩] S7000x64.size (by rfl) y

set_option maxHeartbeats 1000000 in
/-- The body on whole staging buffers: the six inputs are left as read, the output holds `out10_6` of them. -/
theorem sound_kernel10 (c : Dev nD) (E : Set ℕ) (i : grid10.Coords)
    (arg1 : Memref sig .tc .vmem S7000x64 .f32) (harg1 : arg1.IsWhole) (arg2 : Memref sig .tc .vmem S7000x64 .f32) (harg2 : arg2.IsWhole)
    (arg3 : Memref sig .tc .vmem S7000x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S7000x64 .f32) (harg7 : arg7.IsWhole)
    (x0 : Vec F S7000x64 .f32) (x1 : Vec F S7000x64 .f32) (x2 : Vec F S7000x64 .f32) (x3 : Vec F S64x64 .f32) (x4 : Vec F S1x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out10_6 x0 x1 x2 x3 x4 x5)) -∗ K ⟨⟩))
      ⊢ wp frame (wpE (defs₀ (F := F)) Variants.none c none) E (cc10_kernel i arg1 harg1 arg2 harg2 arg3 harg3 arg4 harg4 arg5 harg5 arg6 harg6 arg7 harg7) K := by
  simp only [cc10_kernel_eq_skeleton]; unfold cc10_kernel_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover10_6 _)

/-- The region's proof data: the arrays as the region finds them; after the body each input's buffer at its block and the
    output's at `out10_6` of the input blocks; the scoped rest and the generator register pass through untouched. -/
def dat10 (c : Dev nD) : Dat τ (Elt F) Unit ℕ (Pipeline.UD sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => out10_6 (iblk10 V c 0 t) (iblk10 V c 1 t) (iblk10 V c 2 t) (iblk10 V c 3 t) (iblk10 V c 4 t) (iblk10 V c 5 t)
  Φ _ := Pipeline.ΦA spec10 c
  q _ := fullShare
  owed _ := 0

theorem A_eq10 (c : Dev nD) (w : Fin cfg10.W) : (dat10 V c).A w = V c (Pipeline.arrRef spec10 w) := by
  dsimp only [dat10]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = out10_6 (iblk10 V c 0 t) (iblk10 V c 1 t) (iblk10 V c 2 t) (iblk10 V c 3 t) (iblk10 V c 4 t) (iblk10 V c 5 t) := by dsimp only [dat10]
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t))

/-- The body at any point: the inputs' buffers hold their blocks, so `sound_kernel10` applies. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel10 c Set.univ (grid10.coords t) _ _ _ _ _ _ _ _ _ _ _ _ _ _ (iblk10 V c 0 t) (iblk10 V c 1 t) (iblk10 V c 2 t) (iblk10 V c 3 t) (iblk10 V c 4 t) (iblk10 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Regions

end
-- ==== Proof.KB.Bounds.lean ====
import proofs.«167917_j22402549416514_2_alg».proof.Proof.KB.Region0
import proofs.«167917_j22402549416514_2_alg».proof.Proof.KB.Region1
import proofs.«167917_j22402549416514_2_alg».proof.Proof.KB.Region2
import proofs.«167917_j22402549416514_2_alg».proof.Proof.KB.Region3
import proofs.«167917_j22402549416514_2_alg».proof.Proof.KB.Region4
import proofs.«167917_j22402549416514_2_alg».proof.Proof.KB.Region5
import proofs.«167917_j22402549416514_2_alg».proof.Proof.KB.Region6
import proofs.«167917_j22402549416514_2_alg».proof.Proof.KB.Region7
import proofs.«167917_j22402549416514_2_alg».proof.Proof.KB.Region8
import proofs.«167917_j22402549416514_2_alg».proof.Proof.KB.Region9
import proofs.«167917_j22402549416514_2_alg».proof.Proof.KB.Region10
import Idealize.ShloMosaic.Lib.StableHlo.Run

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # The run: the program is eleven stretches of host operations, each followed by one kernel region.
    The buffer contents at every boundary are named: E K at region K's entry (the stretch before it applied to what the
    region before left), X K at its exit (its arrays at what its write-backs leave, every other buffer as entered). -/

/-- The program's argument arrays. -/
def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31, main_arg32, main_arg33, main_arg34, main_arg35, main_arg36, main_arg37, main_arg38]

/-- Core c's buffers at launch. -/
abbrev W0 : Dev nD → Valuation τ sig (Elt F) := fun c b => (s₀ m ρ).mem ((c : Dev nD), b)

/-! ## Stretch 0 and region 0 -/

/-- No operation of stretch 0 allocates a buffer. -/
theorem hostOps0_fresh : (hostOps0 : List (HloOp τ sig (Elt F))).Forall fun op => op.fresh = ∅ := by
  simp only [List.Forall]; repeat' constructor

/-- No operation of stretch 0 writes an argument array. -/
theorem hostOps0_args : ∀ op ∈ (hostOps0 : List (HloOp τ sig (Elt F))), ∀ b ∈ argRefs, (Proc.devRef .tc b : DevRef τ sig) ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (by revert b; decide)))

/-- The contents at region 0's entry. -/
abbrev E0 : Dev nD → Valuation τ sig (Elt F) := fun c => StableHlo.after hostOps0 (W0 m ρ c)
abbrev VE0 : (c : Dev nD) → (b : Ref sig .tc) → Buf (Elt F) ((c : Thread nD τ).loc b) := fun c b => E0 m ρ c b
/-- The contents at region 0's exit. -/
def X0 (c : Dev nD) : Valuation τ sig (Elt F) :=
  Pipeline.withArrays spec0 c (E0 m ρ c) fun w => (dat0 (VE0 m ρ) c).arrAt w cfg0.N
theorem X0_arr (c : Dev nD) (w : Fin cfg0.W) :
    X0 m ρ c (Proc.devRef .tc (Pipeline.arrRef spec0 w)) = (dat0 (VE0 m ρ) c).arrAt w cfg0.N := by
  unfold X0; exact Pipeline.withArrays_arr spec0 launch0.win.arr_inj c _ _ w
theorem X0_of_ne (c : Dev nD) (b : Ref sig .tc) (hb : ∀ w, Pipeline.arrRef spec0 w ≠ b) :
    X0 m ρ c (Proc.devRef .tc b) = E0 m ρ c (Proc.devRef .tc b) := by
  unfold X0; exact Pipeline.withArrays_of_ne spec0 c _ _ b hb
abbrev VX0 : (c : Dev nD) → (b : Ref sig .tc) → Buf (Elt F) ((c : Thread nD τ).loc b) := fun c b => X0 m ρ c b
theorem hF0 (c : Dev nD) (w : Fin cfg0.W) : (dat0 (VE0 m ρ) c).arrAt w cfg0.N = VX0 m ρ c (Pipeline.arrRef spec0 w) :=
  (X0_arr m ρ c w).symm
theorem hrest0 (c : Dev nD) : ∀ b, b ∉ Finset.univ.image (Pipeline.arrRef spec0) → VX0 m ρ c b = VE0 m ρ c b :=
  fun b hb => X0_of_ne m ρ c b fun w e => hb (Finset.mem_image.mpr ⟨w, Finset.mem_univ _, e⟩)
/-- A buffer that is no output array of region 0 leaves the region as it entered it. -/
theorem X0_keep (c : Dev nD) (b : Ref sig .tc) (hb : ∀ w : Fin cfg0.W, Pipeline.arrRef spec0 w = b → (cfg0.win w).isOut = false) :
    X0 m ρ c (Proc.devRef .tc b) = E0 m ρ c (Proc.devRef .tc b) := by
  by_cases h : ∃ w, Pipeline.arrRef spec0 w = b
  · obtain ⟨w, rfl⟩ := h
    exact (X0_arr m ρ c w).trans (((dat0 (VE0 m ρ) c).arrAt_in w (hb w rfl) _).trans (A_eq0 (VE0 m ρ) c w))
  · exact X0_of_ne m ρ c b fun w e => h ⟨w, e⟩
/-- The argument arrays pass stretch 0 and region 0 unchanged. -/
theorem keepE0 (c : Dev nD) : ∀ b ∈ argRefs, E0 m ρ c (Proc.devRef .tc b) = W0 m ρ c (Proc.devRef .tc b) := fun b hb =>
  StableHlo.after_of_forall_not_mem _ _ fun op hop => hostOps0_args op hop b hb
theorem keepX0 (c : Dev nD) : ∀ b ∈ argRefs, X0 m ρ c (Proc.devRef .tc b) = E0 m ρ c (Proc.devRef .tc b) := fun b hb =>
  X0_keep m ρ c b (by revert b; decide)

/-! ## Stretch 1 and region 1 -/

/-- No operation of stretch 1 allocates a buffer. -/
theorem hostOps1_fresh : (hostOps1 : List (HloOp τ sig (Elt F))).Forall fun op => op.fresh = ∅ := by
  simp only [List.Forall]; repeat' constructor

/-- No operation of stretch 1 writes an argument array. -/
theorem hostOps1_args : ∀ op ∈ (hostOps1 : List (HloOp τ sig (Elt F))), ∀ b ∈ argRefs, (Proc.devRef .tc b : DevRef τ sig) ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (by revert b; decide)))

/-- The contents at region 1's entry. -/
abbrev E1 : Dev nD → Valuation τ sig (Elt F) := fun c => StableHlo.after hostOps1 (X0 m ρ c)
abbrev VE1 : (c : Dev nD) → (b : Ref sig .tc) → Buf (Elt F) ((c : Thread nD τ).loc b) := fun c b => E1 m ρ c b
/-- The contents at region 1's exit. -/
def X1 (c : Dev nD) : Valuation τ sig (Elt F) :=
  Pipeline.withArrays spec1 c (E1 m ρ c) fun w => (dat1 (VE1 m ρ) c).arrAt w cfg1.N
theorem X1_arr (c : Dev nD) (w : Fin cfg1.W) :
    X1 m ρ c (Proc.devRef .tc (Pipeline.arrRef spec1 w)) = (dat1 (VE1 m ρ) c).arrAt w cfg1.N := by
  unfold X1; exact Pipeline.withArrays_arr spec1 launch1.win.arr_inj c _ _ w
theorem X1_of_ne (c : Dev nD) (b : Ref sig .tc) (hb : ∀ w, Pipeline.arrRef spec1 w ≠ b) :
    X1 m ρ c (Proc.devRef .tc b) = E1 m ρ c (Proc.devRef .tc b) := by
  unfold X1; exact Pipeline.withArrays_of_ne spec1 c _ _ b hb
abbrev VX1 : (c : Dev nD) → (b : Ref sig .tc) → Buf (Elt F) ((c : Thread nD τ).loc b) := fun c b => X1 m ρ c b
theorem hF1 (c : Dev nD) (w : Fin cfg1.W) : (dat1 (VE1 m ρ) c).arrAt w cfg1.N = VX1 m ρ c (Pipeline.arrRef spec1 w) :=
  (X1_arr m ρ c w).symm
theorem hrest1 (c : Dev nD) : ∀ b, b ∉ Finset.univ.image (Pipeline.arrRef spec1) → VX1 m ρ c b = VE1 m ρ c b :=
  fun b hb => X1_of_ne m ρ c b fun w e => hb (Finset.mem_image.mpr ⟨w, Finset.mem_univ _, e⟩)
/-- A buffer that is no output array of region 1 leaves the region as it entered it. -/
theorem X1_keep (c : Dev nD) (b : Ref sig .tc) (hb : ∀ w : Fin cfg1.W, Pipeline.arrRef spec1 w = b → (cfg1.win w).isOut = false) :
    X1 m ρ c (Proc.devRef .tc b) = E1 m ρ c (Proc.devRef .tc b) := by
  by_cases h : ∃ w, Pipeline.arrRef spec1 w = b
  · obtain ⟨w, rfl⟩ := h
    exact (X1_arr m ρ c w).trans (((dat1 (VE1 m ρ) c).arrAt_in w (hb w rfl) _).trans (A_eq1 (VE1 m ρ) c w))
  · exact X1_of_ne m ρ c b fun w e => h ⟨w, e⟩
/-- The argument arrays pass stretch 1 and region 1 unchanged. -/
theorem keepE1 (c : Dev nD) : ∀ b ∈ argRefs, E1 m ρ c (Proc.devRef .tc b) = X0 m ρ c (Proc.devRef .tc b) := fun b hb =>
  StableHlo.after_of_forall_not_mem _ _ fun op hop => hostOps1_args op hop b hb
theorem keepX1 (c : Dev nD) : ∀ b ∈ argRefs, X1 m ρ c (Proc.devRef .tc b) = E1 m ρ c (Proc.devRef .tc b) := fun b hb =>
  X1_keep m ρ c b (by revert b; decide)

/-! ## Stretch 2 and region 2 -/

/-- No operation of stretch 2 allocates a buffer. -/
theorem hostOps2_fresh : (hostOps2 : List (HloOp τ sig (Elt F))).Forall fun op => op.fresh = ∅ := by
  simp only [List.Forall]; repeat' constructor

/-- No operation of stretch 2 writes an argument array. -/
theorem hostOps2_args : ∀ op ∈ (hostOps2 : List (HloOp τ sig (Elt F))), ∀ b ∈ argRefs, (Proc.devRef .tc b : DevRef τ sig) ∉ op.writes :=
  List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (by revert b; decide)))

/-- The contents at region 2's entry. -/
abbrev E2 : Dev nD → Valuation τ sig (Elt F) := fun c => StableHlo.after hostOps2 (X1 m ρ c)
abbrev VE2 : (c : Dev nD) → (b : Ref sig .tc) → Buf (Elt F) ((c : Thread nD τ).loc b) := fun c b => E2 m ρ c b
/-- The contents at region 2's exit. -/
def X2 (c : Dev nD) : Valuation τ sig (Elt F) :=
  Pipeline.withArrays spec2 c (E2 m ρ c) fun w => (dat2 (VE2 m ρ) c).arrAt w cfg2.N
theorem X2_arr (c : Dev nD) (w : Fin cfg2.W) :
    X2 m ρ c (Proc.devRef .tc (Pipeline.arrRef spec2 w)) = (dat2 (VE2 m ρ) c).arrAt w cfg2.N := by
  unfold X2; exact Pipeline.withArrays_arr spec2 launch2.win.arr_inj c _ _ w
theorem X2_of_ne (c : Dev nD) (b : Ref sig .tc) (hb : ∀ w, Pipeline.arrRef spec2 w ≠ b) :
    X2 m ρ c (Proc.devRef .tc b) = E2 m ρ c (Proc.devRef .tc b) := by
  unfold X2; exact Pipeline.withArrays_of_ne spec2 c _ _ b hb
abbrev VX2 : (c : Dev nD) → (b : Ref sig .tc) → Buf (Elt F) ((c : Thread nD τ).loc b) := fun c b => X2 m ρ c b
theorem hF2 (c : Dev nD) (w : Fin cfg2.W) : (dat2 (VE2 m ρ) c).arrAt w cfg2.N = VX2 m ρ c (Pipeline.arrRef spec2 w) :=
  (X2_arr m ρ c w).symm
theorem hrest2 (c : Dev nD) : ∀ b, b ∉ Finset.univ.image (Pipeline.arrRef spec2) → VX2 m ρ c b = VE2 m ρ c b :=
  fun b hb => X2_of_ne m ρ c b fun w e => hb (Finset.mem_image.mpr ⟨w, Finset.mem_univ _, e⟩)
/-- A buffer that is no output array of region 2 leaves the region as it entered it. -/
theorem X2_keep (c : Dev nD) (b : Ref sig .tc) (hb : ∀ w : Fin cfg2.W, Pipeline.arrRef spec2 w = b → (cfg2.win w).isOut = false) :
    X2 m ρ c (Proc.devRef .tc b) = E2 m ρ c (Proc.devRef .tc b) := by
  by_cases h : ∃ w, Pipeline.arrRef spec2 w = b
  · obtain ⟨w, rfl⟩ := h
    exact (X2_arr m ρ c w).trans (((dat2 (VE2 m ρ) c).arrAt_in w (hb w rfl) _).trans (A_eq2 (VE2 m ρ) c w))
  · exact X2_of_ne m ρ c b fun w e => h ⟨w, e⟩
/-- The argument arrays pass stretch 2 and region 2 unchanged. -/
theorem keepE2 (c : Dev nD) : ∀ b ∈ argRefs, E2 m ρ c (Proc.devRef .tc b) = X1 m ρ c (Proc.devRef .tc b) := fun b hb =>
  StableHlo.after_of_forall_not_mem _ _ fun op hop => hostOps2_args op hop b hb
theorem keepX2 (c : Dev nD) : ∀ b ∈ argRefs, X2 m ρ c (Proc.devRef .tc b) = E2 m ρ c (Proc.devRef .tc b) := fun b hb =>
  X2_keep m ρ c b (by revert b; decide)

/-! ## Stretch 3 and region 3 -/

/-- No operation of stretch 3 allocates a buffer. -/
theorem hostOps3_fresh : (hostOps3 : List (HloOp τ sig (Elt F))).Forall fun op => op.fresh = ∅ := by
  simp only [List.Forall]; repeat' constructor

/-- No operation of stretch 3 writes an argument array. -/
theorem hostOps3_args : ∀ op ∈ (hostOps3 : List (HloOp τ sig (Elt F))), ∀ b ∈ argRefs, (Proc.devRef .tc b : DevRef τ sig) ∉ op.writes :=
  List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (by revert b; decide)))

/-- The contents at region 3's entry. -/
abbrev E3 : Dev nD → Valuation τ sig (Elt F) := fun c => StableHlo.after hostOps3 (X2 m ρ c)
abbrev VE3 : (c : Dev nD) → (b : Ref sig .tc) → Buf (Elt F) ((c : Thread nD τ).loc b) := fun c b => E3 m ρ c b
/-- The contents at region 3's exit. -/
def X3 (c : Dev nD) : Valuation τ sig (Elt F) :=
  Pipeline.withArrays spec3 c (E3 m ρ c) fun w => (dat3 (VE3 m ρ) c).arrAt w cfg3.N
theorem X3_arr (c : Dev nD) (w : Fin cfg3.W) :
    X3 m ρ c (Proc.devRef .tc (Pipeline.arrRef spec3 w)) = (dat3 (VE3 m ρ) c).arrAt w cfg3.N := by
  unfold X3; exact Pipeline.withArrays_arr spec3 launch3.win.arr_inj c _ _ w
theorem X3_of_ne (c : Dev nD) (b : Ref sig .tc) (hb : ∀ w, Pipeline.arrRef spec3 w ≠ b) :
    X3 m ρ c (Proc.devRef .tc b) = E3 m ρ c (Proc.devRef .tc b) := by
  unfold X3; exact Pipeline.withArrays_of_ne spec3 c _ _ b hb
abbrev VX3 : (c : Dev nD) → (b : Ref sig .tc) → Buf (Elt F) ((c : Thread nD τ).loc b) := fun c b => X3 m ρ c b
theorem hF3 (c : Dev nD) (w : Fin cfg3.W) : (dat3 (VE3 m ρ) c).arrAt w cfg3.N = VX3 m ρ c (Pipeline.arrRef spec3 w) :=
  (X3_arr m ρ c w).symm
theorem hrest3 (c : Dev nD) : ∀ b, b ∉ Finset.univ.image (Pipeline.arrRef spec3) → VX3 m ρ c b = VE3 m ρ c b :=
  fun b hb => X3_of_ne m ρ c b fun w e => hb (Finset.mem_image.mpr ⟨w, Finset.mem_univ _, e⟩)
/-- A buffer that is no output array of region 3 leaves the region as it entered it. -/
theorem X3_keep (c : Dev nD) (b : Ref sig .tc) (hb : ∀ w : Fin cfg3.W, Pipeline.arrRef spec3 w = b → (cfg3.win w).isOut = false) :
    X3 m ρ c (Proc.devRef .tc b) = E3 m ρ c (Proc.devRef .tc b) := by
  by_cases h : ∃ w, Pipeline.arrRef spec3 w = b
  · obtain ⟨w, rfl⟩ := h
    exact (X3_arr m ρ c w).trans (((dat3 (VE3 m ρ) c).arrAt_in w (hb w rfl) _).trans (A_eq3 (VE3 m ρ) c w))
  · exact X3_of_ne m ρ c b fun w e => h ⟨w, e⟩
/-- The argument arrays pass stretch 3 and region 3 unchanged. -/
theorem keepE3 (c : Dev nD) : ∀ b ∈ argRefs, E3 m ρ c (Proc.devRef .tc b) = X2 m ρ c (Proc.devRef .tc b) := fun b hb =>
  StableHlo.after_of_forall_not_mem _ _ fun op hop => hostOps3_args op hop b hb
theorem keepX3 (c : Dev nD) : ∀ b ∈ argRefs, X3 m ρ c (Proc.devRef .tc b) = E3 m ρ c (Proc.devRef .tc b) := fun b hb =>
  X3_keep m ρ c b (by revert b; decide)

/-! ## Stretch 4 and region 4 -/

/-- No operation of stretch 4 allocates a buffer. -/
theorem hostOps4_fresh : (hostOps4 : List (HloOp τ sig (Elt F))).Forall fun op => op.fresh = ∅ := by
  simp only [List.Forall]; repeat' constructor

/-- No operation of stretch 4 writes an argument array. -/
theorem hostOps4_args : ∀ op ∈ (hostOps4 : List (HloOp τ sig (Elt F))), ∀ b ∈ argRefs, (Proc.devRef .tc b : DevRef τ sig) ∉ op.writes :=
  List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (by revert b; decide)))

/-- The contents at region 4's entry. -/
abbrev E4 : Dev nD → Valuation τ sig (Elt F) := fun c => StableHlo.after hostOps4 (X3 m ρ c)
abbrev VE4 : (c : Dev nD) → (b : Ref sig .tc) → Buf (Elt F) ((c : Thread nD τ).loc b) := fun c b => E4 m ρ c b
/-- The contents at region 4's exit. -/
def X4 (c : Dev nD) : Valuation τ sig (Elt F) :=
  Pipeline.withArrays spec4 c (E4 m ρ c) fun w => (dat4 (VE4 m ρ) c).arrAt w cfg4.N
theorem X4_arr (c : Dev nD) (w : Fin cfg4.W) :
    X4 m ρ c (Proc.devRef .tc (Pipeline.arrRef spec4 w)) = (dat4 (VE4 m ρ) c).arrAt w cfg4.N := by
  unfold X4; exact Pipeline.withArrays_arr spec4 launch4.win.arr_inj c _ _ w
theorem X4_of_ne (c : Dev nD) (b : Ref sig .tc) (hb : ∀ w, Pipeline.arrRef spec4 w ≠ b) :
    X4 m ρ c (Proc.devRef .tc b) = E4 m ρ c (Proc.devRef .tc b) := by
  unfold X4; exact Pipeline.withArrays_of_ne spec4 c _ _ b hb
abbrev VX4 : (c : Dev nD) → (b : Ref sig .tc) → Buf (Elt F) ((c : Thread nD τ).loc b) := fun c b => X4 m ρ c b
theorem hF4 (c : Dev nD) (w : Fin cfg4.W) : (dat4 (VE4 m ρ) c).arrAt w cfg4.N = VX4 m ρ c (Pipeline.arrRef spec4 w) :=
  (X4_arr m ρ c w).symm
theorem hrest4 (c : Dev nD) : ∀ b, b ∉ Finset.univ.image (Pipeline.arrRef spec4) → VX4 m ρ c b = VE4 m ρ c b :=
  fun b hb => X4_of_ne m ρ c b fun w e => hb (Finset.mem_image.mpr ⟨w, Finset.mem_univ _, e⟩)
/-- A buffer that is no output array of region 4 leaves the region as it entered it. -/
theorem X4_keep (c : Dev nD) (b : Ref sig .tc) (hb : ∀ w : Fin cfg4.W, Pipeline.arrRef spec4 w = b → (cfg4.win w).isOut = false) :
    X4 m ρ c (Proc.devRef .tc b) = E4 m ρ c (Proc.devRef .tc b) := by
  by_cases h : ∃ w, Pipeline.arrRef spec4 w = b
  · obtain ⟨w, rfl⟩ := h
    exact (X4_arr m ρ c w).trans (((dat4 (VE4 m ρ) c).arrAt_in w (hb w rfl) _).trans (A_eq4 (VE4 m ρ) c w))
  · exact X4_of_ne m ρ c b fun w e => h ⟨w, e⟩
/-- The argument arrays pass stretch 4 and region 4 unchanged. -/
theorem keepE4 (c : Dev nD) : ∀ b ∈ argRefs, E4 m ρ c (Proc.devRef .tc b) = X3 m ρ c (Proc.devRef .tc b) := fun b hb =>
  StableHlo.after_of_forall_not_mem _ _ fun op hop => hostOps4_args op hop b hb
theorem keepX4 (c : Dev nD) : ∀ b ∈ argRefs, X4 m ρ c (Proc.devRef .tc b) = E4 m ρ c (Proc.devRef .tc b) := fun b hb =>
  X4_keep m ρ c b (by revert b; decide)

/-! ## Stretch 5 and region 5 -/

/-- No operation of stretch 5 allocates a buffer. -/
theorem hostOps5_fresh : (hostOps5 : List (HloOp τ sig (Elt F))).Forall fun op => op.fresh = ∅ := by
  simp only [List.Forall]; repeat' constructor

/-- No operation of stretch 5 writes an argument array. -/
theorem hostOps5_args : ∀ op ∈ (hostOps5 : List (HloOp τ sig (Elt F))), ∀ b ∈ argRefs, (Proc.devRef .tc b : DevRef τ sig) ∉ op.writes :=
  List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (by revert b; decide)))

/-- The contents at region 5's entry. -/
abbrev E5 : Dev nD → Valuation τ sig (Elt F) := fun c => StableHlo.after hostOps5 (X4 m ρ c)
abbrev VE5 : (c : Dev nD) → (b : Ref sig .tc) → Buf (Elt F) ((c : Thread nD τ).loc b) := fun c b => E5 m ρ c b
/-- The contents at region 5's exit. -/
def X5 (c : Dev nD) : Valuation τ sig (Elt F) :=
  Pipeline.withArrays spec5 c (E5 m ρ c) fun w => (dat5 (VE5 m ρ) c).arrAt w cfg5.N
theorem X5_arr (c : Dev nD) (w : Fin cfg5.W) :
    X5 m ρ c (Proc.devRef .tc (Pipeline.arrRef spec5 w)) = (dat5 (VE5 m ρ) c).arrAt w cfg5.N := by
  unfold X5; exact Pipeline.withArrays_arr spec5 launch5.win.arr_inj c _ _ w
theorem X5_of_ne (c : Dev nD) (b : Ref sig .tc) (hb : ∀ w, Pipeline.arrRef spec5 w ≠ b) :
    X5 m ρ c (Proc.devRef .tc b) = E5 m ρ c (Proc.devRef .tc b) := by
  unfold X5; exact Pipeline.withArrays_of_ne spec5 c _ _ b hb
abbrev VX5 : (c : Dev nD) → (b : Ref sig .tc) → Buf (Elt F) ((c : Thread nD τ).loc b) := fun c b => X5 m ρ c b
theorem hF5 (c : Dev nD) (w : Fin cfg5.W) : (dat5 (VE5 m ρ) c).arrAt w cfg5.N = VX5 m ρ c (Pipeline.arrRef spec5 w) :=
  (X5_arr m ρ c w).symm
theorem hrest5 (c : Dev nD) : ∀ b, b ∉ Finset.univ.image (Pipeline.arrRef spec5) → VX5 m ρ c b = VE5 m ρ c b :=
  fun b hb => X5_of_ne m ρ c b fun w e => hb (Finset.mem_image.mpr ⟨w, Finset.mem_univ _, e⟩)
/-- A buffer that is no output array of region 5 leaves the region as it entered it. -/
theorem X5_keep (c : Dev nD) (b : Ref sig .tc) (hb : ∀ w : Fin cfg5.W, Pipeline.arrRef spec5 w = b → (cfg5.win w).isOut = false) :
    X5 m ρ c (Proc.devRef .tc b) = E5 m ρ c (Proc.devRef .tc b) := by
  by_cases h : ∃ w, Pipeline.arrRef spec5 w = b
  · obtain ⟨w, rfl⟩ := h
    exact (X5_arr m ρ c w).trans (((dat5 (VE5 m ρ) c).arrAt_in w (hb w rfl) _).trans (A_eq5 (VE5 m ρ) c w))
  · exact X5_of_ne m ρ c b fun w e => h ⟨w, e⟩
/-- The argument arrays pass stretch 5 and region 5 unchanged. -/
theorem keepE5 (c : Dev nD) : ∀ b ∈ argRefs, E5 m ρ c (Proc.devRef .tc b) = X4 m ρ c (Proc.devRef .tc b) := fun b hb =>
  StableHlo.after_of_forall_not_mem _ _ fun op hop => hostOps5_args op hop b hb
theorem keepX5 (c : Dev nD) : ∀ b ∈ argRefs, X5 m ρ c (Proc.devRef .tc b) = E5 m ρ c (Proc.devRef .tc b) := fun b hb =>
  X5_keep m ρ c b (by revert b; decide)

/-! ## Stretch 6 and region 6 -/

/-- No operation of stretch 6 allocates a buffer. -/
theorem hostOps6_fresh : (hostOps6 : List (HloOp τ sig (Elt F))).Forall fun op => op.fresh = ∅ := by
  simp only [List.Forall]; repeat' constructor

/-- No operation of stretch 6 writes an argument array. -/
theorem hostOps6_args : ∀ op ∈ (hostOps6 : List (HloOp τ sig (Elt F))), ∀ b ∈ argRefs, (Proc.devRef .tc b : DevRef τ sig) ∉ op.writes :=
  List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (by revert b; decide)))

/-- The contents at region 6's entry. -/
abbrev E6 : Dev nD → Valuation τ sig (Elt F) := fun c => StableHlo.after hostOps6 (X5 m ρ c)
abbrev VE6 : (c : Dev nD) → (b : Ref sig .tc) → Buf (Elt F) ((c : Thread nD τ).loc b) := fun c b => E6 m ρ c b
/-- The contents at region 6's exit. -/
def X6 (c : Dev nD) : Valuation τ sig (Elt F) :=
  Pipeline.withArrays spec6 c (E6 m ρ c) fun w => (dat6 (VE6 m ρ) c).arrAt w cfg6.N
theorem X6_arr (c : Dev nD) (w : Fin cfg6.W) :
    X6 m ρ c (Proc.devRef .tc (Pipeline.arrRef spec6 w)) = (dat6 (VE6 m ρ) c).arrAt w cfg6.N := by
  unfold X6; exact Pipeline.withArrays_arr spec6 launch6.win.arr_inj c _ _ w
theorem X6_of_ne (c : Dev nD) (b : Ref sig .tc) (hb : ∀ w, Pipeline.arrRef spec6 w ≠ b) :
    X6 m ρ c (Proc.devRef .tc b) = E6 m ρ c (Proc.devRef .tc b) := by
  unfold X6; exact Pipeline.withArrays_of_ne spec6 c _ _ b hb
abbrev VX6 : (c : Dev nD) → (b : Ref sig .tc) → Buf (Elt F) ((c : Thread nD τ).loc b) := fun c b => X6 m ρ c b
theorem hF6 (c : Dev nD) (w : Fin cfg6.W) : (dat6 (VE6 m ρ) c).arrAt w cfg6.N = VX6 m ρ c (Pipeline.arrRef spec6 w) :=
  (X6_arr m ρ c w).symm
theorem hrest6 (c : Dev nD) : ∀ b, b ∉ Finset.univ.image (Pipeline.arrRef spec6) → VX6 m ρ c b = VE6 m ρ c b :=
  fun b hb => X6_of_ne m ρ c b fun w e => hb (Finset.mem_image.mpr ⟨w, Finset.mem_univ _, e⟩)
/-- A buffer that is no output array of region 6 leaves the region as it entered it. -/
theorem X6_keep (c : Dev nD) (b : Ref sig .tc) (hb : ∀ w : Fin cfg6.W, Pipeline.arrRef spec6 w = b → (cfg6.win w).isOut = false) :
    X6 m ρ c (Proc.devRef .tc b) = E6 m ρ c (Proc.devRef .tc b) := by
  by_cases h : ∃ w, Pipeline.arrRef spec6 w = b
  · obtain ⟨w, rfl⟩ := h
    exact (X6_arr m ρ c w).trans (((dat6 (VE6 m ρ) c).arrAt_in w (hb w rfl) _).trans (A_eq6 (VE6 m ρ) c w))
  · exact X6_of_ne m ρ c b fun w e => h ⟨w, e⟩
/-- The argument arrays pass stretch 6 and region 6 unchanged. -/
theorem keepE6 (c : Dev nD) : ∀ b ∈ argRefs, E6 m ρ c (Proc.devRef .tc b) = X5 m ρ c (Proc.devRef .tc b) := fun b hb =>
  StableHlo.after_of_forall_not_mem _ _ fun op hop => hostOps6_args op hop b hb
theorem keepX6 (c : Dev nD) : ∀ b ∈ argRefs, X6 m ρ c (Proc.devRef .tc b) = E6 m ρ c (Proc.devRef .tc b) := fun b hb =>
  X6_keep m ρ c b (by revert b; decide)

/-! ## Stretch 7 and region 7 -/

/-- No operation of stretch 7 allocates a buffer. -/
theorem hostOps7_fresh : (hostOps7 : List (HloOp τ sig (Elt F))).Forall fun op => op.fresh = ∅ := by
  simp only [List.Forall]; repeat' constructor

/-- No operation of stretch 7 writes an argument array. -/
theorem hostOps7_args : ∀ op ∈ (hostOps7 : List (HloOp τ sig (Elt F))), ∀ b ∈ argRefs, (Proc.devRef .tc b : DevRef τ sig) ∉ op.writes :=
  List.forall_iff_forall_mem.mp (by
    simp only [hostOps7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (by revert b; decide)))

/-- The contents at region 7's entry. -/
abbrev E7 : Dev nD → Valuation τ sig (Elt F) := fun c => StableHlo.after hostOps7 (X6 m ρ c)
abbrev VE7 : (c : Dev nD) → (b : Ref sig .tc) → Buf (Elt F) ((c : Thread nD τ).loc b) := fun c b => E7 m ρ c b
/-- The contents at region 7's exit. -/
def X7 (c : Dev nD) : Valuation τ sig (Elt F) :=
  Pipeline.withArrays spec7 c (E7 m ρ c) fun w => (dat7 (VE7 m ρ) c).arrAt w cfg7.N
theorem X7_arr (c : Dev nD) (w : Fin cfg7.W) :
    X7 m ρ c (Proc.devRef .tc (Pipeline.arrRef spec7 w)) = (dat7 (VE7 m ρ) c).arrAt w cfg7.N := by
  unfold X7; exact Pipeline.withArrays_arr spec7 launch7.win.arr_inj c _ _ w
theorem X7_of_ne (c : Dev nD) (b : Ref sig .tc) (hb : ∀ w, Pipeline.arrRef spec7 w ≠ b) :
    X7 m ρ c (Proc.devRef .tc b) = E7 m ρ c (Proc.devRef .tc b) := by
  unfold X7; exact Pipeline.withArrays_of_ne spec7 c _ _ b hb
abbrev VX7 : (c : Dev nD) → (b : Ref sig .tc) → Buf (Elt F) ((c : Thread nD τ).loc b) := fun c b => X7 m ρ c b
theorem hF7 (c : Dev nD) (w : Fin cfg7.W) : (dat7 (VE7 m ρ) c).arrAt w cfg7.N = VX7 m ρ c (Pipeline.arrRef spec7 w) :=
  (X7_arr m ρ c w).symm
theorem hrest7 (c : Dev nD) : ∀ b, b ∉ Finset.univ.image (Pipeline.arrRef spec7) → VX7 m ρ c b = VE7 m ρ c b :=
  fun b hb => X7_of_ne m ρ c b fun w e => hb (Finset.mem_image.mpr ⟨w, Finset.mem_univ _, e⟩)
/-- A buffer that is no output array of region 7 leaves the region as it entered it. -/
theorem X7_keep (c : Dev nD) (b : Ref sig .tc) (hb : ∀ w : Fin cfg7.W, Pipeline.arrRef spec7 w = b → (cfg7.win w).isOut = false) :
    X7 m ρ c (Proc.devRef .tc b) = E7 m ρ c (Proc.devRef .tc b) := by
  by_cases h : ∃ w, Pipeline.arrRef spec7 w = b
  · obtain ⟨w, rfl⟩ := h
    exact (X7_arr m ρ c w).trans (((dat7 (VE7 m ρ) c).arrAt_in w (hb w rfl) _).trans (A_eq7 (VE7 m ρ) c w))
  · exact X7_of_ne m ρ c b fun w e => h ⟨w, e⟩
/-- The argument arrays pass stretch 7 and region 7 unchanged. -/
theorem keepE7 (c : Dev nD) : ∀ b ∈ argRefs, E7 m ρ c (Proc.devRef .tc b) = X6 m ρ c (Proc.devRef .tc b) := fun b hb =>
  StableHlo.after_of_forall_not_mem _ _ fun op hop => hostOps7_args op hop b hb
theorem keepX7 (c : Dev nD) : ∀ b ∈ argRefs, X7 m ρ c (Proc.devRef .tc b) = E7 m ρ c (Proc.devRef .tc b) := fun b hb =>
  X7_keep m ρ c b (by revert b; decide)

/-! ## Stretch 8 and region 8 -/

/-- No operation of stretch 8 allocates a buffer. -/
theorem hostOps8_fresh : (hostOps8 : List (HloOp τ sig (Elt F))).Forall fun op => op.fresh = ∅ := by
  simp only [List.Forall]; repeat' constructor

/-- No operation of stretch 8 writes an argument array. -/
theorem hostOps8_args : ∀ op ∈ (hostOps8 : List (HloOp τ sig (Elt F))), ∀ b ∈ argRefs, (Proc.devRef .tc b : DevRef τ sig) ∉ op.writes :=
  List.forall_iff_forall_mem.mp (by
    simp only [hostOps8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (by revert b; decide)))

/-- The contents at region 8's entry. -/
abbrev E8 : Dev nD → Valuation τ sig (Elt F) := fun c => StableHlo.after hostOps8 (X7 m ρ c)
abbrev VE8 : (c : Dev nD) → (b : Ref sig .tc) → Buf (Elt F) ((c : Thread nD τ).loc b) := fun c b => E8 m ρ c b
/-- The contents at region 8's exit. -/
def X8 (c : Dev nD) : Valuation τ sig (Elt F) :=
  Pipeline.withArrays spec8 c (E8 m ρ c) fun w => (dat8 (VE8 m ρ) c).arrAt w cfg8.N
theorem X8_arr (c : Dev nD) (w : Fin cfg8.W) :
    X8 m ρ c (Proc.devRef .tc (Pipeline.arrRef spec8 w)) = (dat8 (VE8 m ρ) c).arrAt w cfg8.N := by
  unfold X8; exact Pipeline.withArrays_arr spec8 launch8.win.arr_inj c _ _ w
theorem X8_of_ne (c : Dev nD) (b : Ref sig .tc) (hb : ∀ w, Pipeline.arrRef spec8 w ≠ b) :
    X8 m ρ c (Proc.devRef .tc b) = E8 m ρ c (Proc.devRef .tc b) := by
  unfold X8; exact Pipeline.withArrays_of_ne spec8 c _ _ b hb
abbrev VX8 : (c : Dev nD) → (b : Ref sig .tc) → Buf (Elt F) ((c : Thread nD τ).loc b) := fun c b => X8 m ρ c b
theorem hF8 (c : Dev nD) (w : Fin cfg8.W) : (dat8 (VE8 m ρ) c).arrAt w cfg8.N = VX8 m ρ c (Pipeline.arrRef spec8 w) :=
  (X8_arr m ρ c w).symm
theorem hrest8 (c : Dev nD) : ∀ b, b ∉ Finset.univ.image (Pipeline.arrRef spec8) → VX8 m ρ c b = VE8 m ρ c b :=
  fun b hb => X8_of_ne m ρ c b fun w e => hb (Finset.mem_image.mpr ⟨w, Finset.mem_univ _, e⟩)
/-- A buffer that is no output array of region 8 leaves the region as it entered it. -/
theorem X8_keep (c : Dev nD) (b : Ref sig .tc) (hb : ∀ w : Fin cfg8.W, Pipeline.arrRef spec8 w = b → (cfg8.win w).isOut = false) :
    X8 m ρ c (Proc.devRef .tc b) = E8 m ρ c (Proc.devRef .tc b) := by
  by_cases h : ∃ w, Pipeline.arrRef spec8 w = b
  · obtain ⟨w, rfl⟩ := h
    exact (X8_arr m ρ c w).trans (((dat8 (VE8 m ρ) c).arrAt_in w (hb w rfl) _).trans (A_eq8 (VE8 m ρ) c w))
  · exact X8_of_ne m ρ c b fun w e => h ⟨w, e⟩
/-- The argument arrays pass stretch 8 and region 8 unchanged. -/
theorem keepE8 (c : Dev nD) : ∀ b ∈ argRefs, E8 m ρ c (Proc.devRef .tc b) = X7 m ρ c (Proc.devRef .tc b) := fun b hb =>
  StableHlo.after_of_forall_not_mem _ _ fun op hop => hostOps8_args op hop b hb
theorem keepX8 (c : Dev nD) : ∀ b ∈ argRefs, X8 m ρ c (Proc.devRef .tc b) = E8 m ρ c (Proc.devRef .tc b) := fun b hb =>
  X8_keep m ρ c b (by revert b; decide)

/-! ## Stretch 9 and region 9 -/

/-- No operation of stretch 9 allocates a buffer. -/
theorem hostOps9_fresh : (hostOps9 : List (HloOp τ sig (Elt F))).Forall fun op => op.fresh = ∅ := by
  simp only [List.Forall]; repeat' constructor

/-- No operation of stretch 9 writes an argument array. -/
theorem hostOps9_args : ∀ op ∈ (hostOps9 : List (HloOp τ sig (Elt F))), ∀ b ∈ argRefs, (Proc.devRef .tc b : DevRef τ sig) ∉ op.writes :=
  List.forall_iff_forall_mem.mp (by
    simp only [hostOps9, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (by revert b; decide)))

/-- The contents at region 9's entry. -/
abbrev E9 : Dev nD → Valuation τ sig (Elt F) := fun c => StableHlo.after hostOps9 (X8 m ρ c)
abbrev VE9 : (c : Dev nD) → (b : Ref sig .tc) → Buf (Elt F) ((c : Thread nD τ).loc b) := fun c b => E9 m ρ c b
/-- The contents at region 9's exit. -/
def X9 (c : Dev nD) : Valuation τ sig (Elt F) :=
  Pipeline.withArrays spec9 c (E9 m ρ c) fun w => (dat9 (VE9 m ρ) c).arrAt w cfg9.N
theorem X9_arr (c : Dev nD) (w : Fin cfg9.W) :
    X9 m ρ c (Proc.devRef .tc (Pipeline.arrRef spec9 w)) = (dat9 (VE9 m ρ) c).arrAt w cfg9.N := by
  unfold X9; exact Pipeline.withArrays_arr spec9 launch9.win.arr_inj c _ _ w
theorem X9_of_ne (c : Dev nD) (b : Ref sig .tc) (hb : ∀ w, Pipeline.arrRef spec9 w ≠ b) :
    X9 m ρ c (Proc.devRef .tc b) = E9 m ρ c (Proc.devRef .tc b) := by
  unfold X9; exact Pipeline.withArrays_of_ne spec9 c _ _ b hb
abbrev VX9 : (c : Dev nD) → (b : Ref sig .tc) → Buf (Elt F) ((c : Thread nD τ).loc b) := fun c b => X9 m ρ c b
theorem hF9 (c : Dev nD) (w : Fin cfg9.W) : (dat9 (VE9 m ρ) c).arrAt w cfg9.N = VX9 m ρ c (Pipeline.arrRef spec9 w) :=
  (X9_arr m ρ c w).symm
theorem hrest9 (c : Dev nD) : ∀ b, b ∉ Finset.univ.image (Pipeline.arrRef spec9) → VX9 m ρ c b = VE9 m ρ c b :=
  fun b hb => X9_of_ne m ρ c b fun w e => hb (Finset.mem_image.mpr ⟨w, Finset.mem_univ _, e⟩)
/-- A buffer that is no output array of region 9 leaves the region as it entered it. -/
theorem X9_keep (c : Dev nD) (b : Ref sig .tc) (hb : ∀ w : Fin cfg9.W, Pipeline.arrRef spec9 w = b → (cfg9.win w).isOut = false) :
    X9 m ρ c (Proc.devRef .tc b) = E9 m ρ c (Proc.devRef .tc b) := by
  by_cases h : ∃ w, Pipeline.arrRef spec9 w = b
  · obtain ⟨w, rfl⟩ := h
    exact (X9_arr m ρ c w).trans (((dat9 (VE9 m ρ) c).arrAt_in w (hb w rfl) _).trans (A_eq9 (VE9 m ρ) c w))
  · exact X9_of_ne m ρ c b fun w e => h ⟨w, e⟩
/-- The argument arrays pass stretch 9 and region 9 unchanged. -/
theorem keepE9 (c : Dev nD) : ∀ b ∈ argRefs, E9 m ρ c (Proc.devRef .tc b) = X8 m ρ c (Proc.devRef .tc b) := fun b hb =>
  StableHlo.after_of_forall_not_mem _ _ fun op hop => hostOps9_args op hop b hb
theorem keepX9 (c : Dev nD) : ∀ b ∈ argRefs, X9 m ρ c (Proc.devRef .tc b) = E9 m ρ c (Proc.devRef .tc b) := fun b hb =>
  X9_keep m ρ c b (by revert b; decide)

/-! ## Stretch 10 and region 10 -/

/-- No operation of stretch 10 allocates a buffer. -/
theorem hostOps10_fresh : (hostOps10 : List (HloOp τ sig (Elt F))).Forall fun op => op.fresh = ∅ := by
  simp only [List.Forall]; repeat' constructor

/-- No operation of stretch 10 writes an argument array. -/
theorem hostOps10_args : ∀ op ∈ (hostOps10 : List (HloOp τ sig (Elt F))), ∀ b ∈ argRefs, (Proc.devRef .tc b : DevRef τ sig) ∉ op.writes :=
  List.forall_iff_forall_mem.mp (by
    simp only [hostOps10, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (by revert b; decide)))

/-- The contents at region 10's entry. -/
abbrev E10 : Dev nD → Valuation τ sig (Elt F) := fun c => StableHlo.after hostOps10 (X9 m ρ c)
abbrev VE10 : (c : Dev nD) → (b : Ref sig .tc) → Buf (Elt F) ((c : Thread nD τ).loc b) := fun c b => E10 m ρ c b
/-- The contents at region 10's exit. -/
def X10 (c : Dev nD) : Valuation τ sig (Elt F) :=
  Pipeline.withArrays spec10 c (E10 m ρ c) fun w => (dat10 (VE10 m ρ) c).arrAt w cfg10.N
theorem X10_arr (c : Dev nD) (w : Fin cfg10.W) :
    X10 m ρ c (Proc.devRef .tc (Pipeline.arrRef spec10 w)) = (dat10 (VE10 m ρ) c).arrAt w cfg10.N := by
  unfold X10; exact Pipeline.withArrays_arr spec10 launch10.win.arr_inj c _ _ w
theorem X10_of_ne (c : Dev nD) (b : Ref sig .tc) (hb : ∀ w, Pipeline.arrRef spec10 w ≠ b) :
    X10 m ρ c (Proc.devRef .tc b) = E10 m ρ c (Proc.devRef .tc b) := by
  unfold X10; exact Pipeline.withArrays_of_ne spec10 c _ _ b hb
abbrev VX10 : (c : Dev nD) → (b : Ref sig .tc) → Buf (Elt F) ((c : Thread nD τ).loc b) := fun c b => X10 m ρ c b
theorem hF10 (c : Dev nD) (w : Fin cfg10.W) : (dat10 (VE10 m ρ) c).arrAt w cfg10.N = VX10 m ρ c (Pipeline.arrRef spec10 w) :=
  (X10_arr m ρ c w).symm
theorem hrest10 (c : Dev nD) : ∀ b, b ∉ Finset.univ.image (Pipeline.arrRef spec10) → VX10 m ρ c b = VE10 m ρ c b :=
  fun b hb => X10_of_ne m ρ c b fun w e => hb (Finset.mem_image.mpr ⟨w, Finset.mem_univ _, e⟩)
/-- A buffer that is no output array of region 10 leaves the region as it entered it. -/
theorem X10_keep (c : Dev nD) (b : Ref sig .tc) (hb : ∀ w : Fin cfg10.W, Pipeline.arrRef spec10 w = b → (cfg10.win w).isOut = false) :
    X10 m ρ c (Proc.devRef .tc b) = E10 m ρ c (Proc.devRef .tc b) := by
  by_cases h : ∃ w, Pipeline.arrRef spec10 w = b
  · obtain ⟨w, rfl⟩ := h
    exact (X10_arr m ρ c w).trans (((dat10 (VE10 m ρ) c).arrAt_in w (hb w rfl) _).trans (A_eq10 (VE10 m ρ) c w))
  · exact X10_of_ne m ρ c b fun w e => h ⟨w, e⟩
/-- The argument arrays pass stretch 10 and region 10 unchanged. -/
theorem keepE10 (c : Dev nD) : ∀ b ∈ argRefs, E10 m ρ c (Proc.devRef .tc b) = X9 m ρ c (Proc.devRef .tc b) := fun b hb =>
  StableHlo.after_of_forall_not_mem _ _ fun op hop => hostOps10_args op hop b hb
theorem keepX10 (c : Dev nD) : ∀ b ∈ argRefs, X10 m ρ c (Proc.devRef .tc b) = E10 m ρ c (Proc.devRef .tc b) := fun b hb =>
  X10_keep m ρ c b (by revert b; decide)

/-- At region 0's entry and exit every argument array is as launched. -/
theorem argsE0 (c : Dev nD) : ∀ b ∈ argRefs, E0 m ρ c (Proc.devRef .tc b) = m ((c : Thread nD τ).loc b) := fun b hb =>
  (keepE0 m ρ c b hb).trans rfl
theorem argsX0 (c : Dev nD) : ∀ b ∈ argRefs, X0 m ρ c (Proc.devRef .tc b) = m ((c : Thread nD τ).loc b) := fun b hb =>
  (keepX0 m ρ c b hb).trans (argsE0 m ρ c b hb)

/-- At region 1's entry and exit every argument array is as launched. -/
theorem argsE1 (c : Dev nD) : ∀ b ∈ argRefs, E1 m ρ c (Proc.devRef .tc b) = m ((c : Thread nD τ).loc b) := fun b hb =>
  (keepE1 m ρ c b hb).trans (argsX0 m ρ c b hb)
theorem argsX1 (c : Dev nD) : ∀ b ∈ argRefs, X1 m ρ c (Proc.devRef .tc b) = m ((c : Thread nD τ).loc b) := fun b hb =>
  (keepX1 m ρ c b hb).trans (argsE1 m ρ c b hb)

/-- At region 2's entry and exit every argument array is as launched. -/
theorem argsE2 (c : Dev nD) : ∀ b ∈ argRefs, E2 m ρ c (Proc.devRef .tc b) = m ((c : Thread nD τ).loc b) := fun b hb =>
  (keepE2 m ρ c b hb).trans (argsX1 m ρ c b hb)
theorem argsX2 (c : Dev nD) : ∀ b ∈ argRefs, X2 m ρ c (Proc.devRef .tc b) = m ((c : Thread nD τ).loc b) := fun b hb =>
  (keepX2 m ρ c b hb).trans (argsE2 m ρ c b hb)

/-- At region 3's entry and exit every argument array is as launched. -/
theorem argsE3 (c : Dev nD) : ∀ b ∈ argRefs, E3 m ρ c (Proc.devRef .tc b) = m ((c : Thread nD τ).loc b) := fun b hb =>
  (keepE3 m ρ c b hb).trans (argsX2 m ρ c b hb)
theorem argsX3 (c : Dev nD) : ∀ b ∈ argRefs, X3 m ρ c (Proc.devRef .tc b) = m ((c : Thread nD τ).loc b) := fun b hb =>
  (keepX3 m ρ c b hb).trans (argsE3 m ρ c b hb)

/-- At region 4's entry and exit every argument array is as launched. -/
theorem argsE4 (c : Dev nD) : ∀ b ∈ argRefs, E4 m ρ c (Proc.devRef .tc b) = m ((c : Thread nD τ).loc b) := fun b hb =>
  (keepE4 m ρ c b hb).trans (argsX3 m ρ c b hb)
theorem argsX4 (c : Dev nD) : ∀ b ∈ argRefs, X4 m ρ c (Proc.devRef .tc b) = m ((c : Thread nD τ).loc b) := fun b hb =>
  (keepX4 m ρ c b hb).trans (argsE4 m ρ c b hb)

/-- At region 5's entry and exit every argument array is as launched. -/
theorem argsE5 (c : Dev nD) : ∀ b ∈ argRefs, E5 m ρ c (Proc.devRef .tc b) = m ((c : Thread nD τ).loc b) := fun b hb =>
  (keepE5 m ρ c b hb).trans (argsX4 m ρ c b hb)
theorem argsX5 (c : Dev nD) : ∀ b ∈ argRefs, X5 m ρ c (Proc.devRef .tc b) = m ((c : Thread nD τ).loc b) := fun b hb =>
  (keepX5 m ρ c b hb).trans (argsE5 m ρ c b hb)

/-- At region 6's entry and exit every argument array is as launched. -/
theorem argsE6 (c : Dev nD) : ∀ b ∈ argRefs, E6 m ρ c (Proc.devRef .tc b) = m ((c : Thread nD τ).loc b) := fun b hb =>
  (keepE6 m ρ c b hb).trans (argsX5 m ρ c b hb)
theorem argsX6 (c : Dev nD) : ∀ b ∈ argRefs, X6 m ρ c (Proc.devRef .tc b) = m ((c : Thread nD τ).loc b) := fun b hb =>
  (keepX6 m ρ c b hb).trans (argsE6 m ρ c b hb)

/-- At region 7's entry and exit every argument array is as launched. -/
theorem argsE7 (c : Dev nD) : ∀ b ∈ argRefs, E7 m ρ c (Proc.devRef .tc b) = m ((c : Thread nD τ).loc b) := fun b hb =>
  (keepE7 m ρ c b hb).trans (argsX6 m ρ c b hb)
theorem argsX7 (c : Dev nD) : ∀ b ∈ argRefs, X7 m ρ c (Proc.devRef .tc b) = m ((c : Thread nD τ).loc b) := fun b hb =>
  (keepX7 m ρ c b hb).trans (argsE7 m ρ c b hb)

/-- At region 8's entry and exit every argument array is as launched. -/
theorem argsE8 (c : Dev nD) : ∀ b ∈ argRefs, E8 m ρ c (Proc.devRef .tc b) = m ((c : Thread nD τ).loc b) := fun b hb =>
  (keepE8 m ρ c b hb).trans (argsX7 m ρ c b hb)
theorem argsX8 (c : Dev nD) : ∀ b ∈ argRefs, X8 m ρ c (Proc.devRef .tc b) = m ((c : Thread nD τ).loc b) := fun b hb =>
  (keepX8 m ρ c b hb).trans (argsE8 m ρ c b hb)

/-- At region 9's entry and exit every argument array is as launched. -/
theorem argsE9 (c : Dev nD) : ∀ b ∈ argRefs, E9 m ρ c (Proc.devRef .tc b) = m ((c : Thread nD τ).loc b) := fun b hb =>
  (keepE9 m ρ c b hb).trans (argsX8 m ρ c b hb)
theorem argsX9 (c : Dev nD) : ∀ b ∈ argRefs, X9 m ρ c (Proc.devRef .tc b) = m ((c : Thread nD τ).loc b) := fun b hb =>
  (keepX9 m ρ c b hb).trans (argsE9 m ρ c b hb)

/-- At region 10's entry and exit every argument array is as launched. -/
theorem argsE10 (c : Dev nD) : ∀ b ∈ argRefs, E10 m ρ c (Proc.devRef .tc b) = m ((c : Thread nD τ).loc b) := fun b hb =>
  (keepE10 m ρ c b hb).trans (argsX9 m ρ c b hb)
theorem argsX10 (c : Dev nD) : ∀ b ∈ argRefs, X10 m ρ c (Proc.devRef .tc b) = m ((c : Thread nD τ).loc b) := fun b hb =>
  (keepX10 m ρ c b hb).trans (argsE10 m ρ c b hb)

/-- Every argument array ends as launched: no stretch and no region writes one. -/
theorem keep_args (c : Dev nD) : ∀ b ∈ argRefs, X10 m ρ c (Proc.devRef .tc b) = m ((c : Thread nD τ).loc b) := fun b hb =>
  argsX10 m ρ c b hb

end Cert.Kernel.Regions

end
-- ==== Proof.KB.Run.lean ====
import proofs.«167917_j22402549416514_2_alg».proof.Proof.KB.Bounds
set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data family and the thread state -/

abbrev adm : (p : Fin 11) → (pcfgs (F := F) p).Adm := fun p => (cfgs p).toPCfg_adm
/-- Every region's proof data at its entry contents. -/
def pdats : (p : Fin 11) → (c : Dev nD) → Dat τ (Elt F) Unit ℕ (Pipeline.UD sig nD τ) ℕ (Pipeline.pin (pcfgs (F := F)) adm p) c
  | ⟨0, _⟩ => fun c => dat0 (VE0 m ρ) c
  | ⟨1, _⟩ => fun c => dat1 (VE1 m ρ) c
  | ⟨2, _⟩ => fun c => dat2 (VE2 m ρ) c
  | ⟨3, _⟩ => fun c => dat3 (VE3 m ρ) c
  | ⟨4, _⟩ => fun c => dat4 (VE4 m ρ) c
  | ⟨5, _⟩ => fun c => dat5 (VE5 m ρ) c
  | ⟨6, _⟩ => fun c => dat6 (VE6 m ρ) c
  | ⟨7, _⟩ => fun c => dat7 (VE7 m ρ) c
  | ⟨8, _⟩ => fun c => dat8 (VE8 m ρ) c
  | ⟨9, _⟩ => fun c => dat9 (VE9 m ρ) c
  | ⟨10, _⟩ => fun c => dat10 (VE10 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (X10 m ρ c) ∗ ∃ r, prngReg c r)

/-! ## The regions as segments -/

set_option backward.isDefEq.respectTransparency.types false in
/-- Region 0 over the thread state: entered from every unscoped buffer at E0, left at X0; its arrays split out of the
    unscoped buffers and put back at the exit contents; the generator register into the invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ L lv 0 fun _ _ => rfl
  pre c := iprop(StableHlo.held (c : Thread nD τ) (Pipeline.ucRefs τ sig) (E0 m ρ c) ∗ R c)
  post c := iprop(StableHlo.held (c : Thread nD τ) (Pipeline.ucRefs τ sig) (X0 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (VE0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (VE0 m ρ) c).Φ 0 from rfl]
    iintro ⟨Hp, -, Hr⟩
    iapply (hin0 (VE0 m ρ) c)
    unfold Pipeline.ΦA
    isplitl [Hr]; · iexact Hr
    iexact Hp
  hout c := by
    rw [Pipeline.ownSems0_none, show (pdats m ρ 0 c).Φ (Fin.last _) = (dat0 (VE0 m ρ) c).Φ (Fin.last _) from rfl]
    have h := hout0 (VE0 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (VE0 m ρ c) (VX0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at E1, left at X1; its arrays split out of the
    unscoped buffers and put back at the exit contents; the generator register into the invariant and out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m ρ) c).loose
  hwaits := Pipeline.hwaits_of_owed_zero _ _ _ _ L lv 1 fun _ _ => rfl
  pre c := iprop(StableHlo.held (c : Thread nD τ) (Pipeline.ucRefs τ sig) (E1 m ρ c) ∗ R c)
  post c := iprop(StableHlo.held (c : Thread nD τ) (Pipeline.ucRefs τ sig) (X1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (VE1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (VE1 m ρ c) (VX1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at E2, left at X2; its arrays split out of the
    unscoped buffers and put back at the exit contents; the generator register into the invariant and out; nothing owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VE2 m ρ) c).loose
  hwaits := Pipeline.hwaits_of_owed_zero _ _ _ _ L lv 2 fun _ _ => rfl
  pre c := iprop(StableHlo.held (c : Thread nD τ) (Pipeline.ucRefs τ sig) (E2 m ρ c) ∗ R c)
  post c := iprop(StableHlo.held (c : Thread nD τ) (Pipeline.ucRefs τ sig) (X2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (VE2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (VE2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (VE2 m ρ) c).Φ 0 from rfl]
    iintro ⟨Hp, -, Hr⟩
    iapply (hin2 (VE2 m ρ) c)
    unfold Pipeline.ΦA
    isplitl [Hr]; · iexact Hr
    iexact Hp
  hout c := by
    rw [Pipeline.ownSems0_none, show (pdats m ρ 2 c).Φ (Fin.last _) = (dat2 (VE2 m ρ) c).Φ (Fin.last _) from rfl]
    have h := hout2 (VE2 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (VE2 m ρ c) (VX2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at E3, left at X3; its arrays split out of the
    unscoped buffers and put back at the exit contents; the generator register into the invariant and out; nothing owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VE3 m ρ) c).loose
  hwaits := Pipeline.hwaits_of_owed_zero _ _ _ _ L lv 3 fun _ _ => rfl
  pre c := iprop(StableHlo.held (c : Thread nD τ) (Pipeline.ucRefs τ sig) (E3 m ρ c) ∗ R c)
  post c := iprop(StableHlo.held (c : Thread nD τ) (Pipeline.ucRefs τ sig) (X3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (VE3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (VE3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (VE3 m ρ c) (VX3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at E4, left at X4; its arrays split out of the
    unscoped buffers and put back at the exit contents; the generator register into the invariant and out; nothing owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (VE4 m ρ) c).loose
  hwaits := Pipeline.hwaits_of_owed_zero _ _ _ _ L lv 4 fun _ _ => rfl
  pre c := iprop(StableHlo.held (c : Thread nD τ) (Pipeline.ucRefs τ sig) (E4 m ρ c) ∗ R c)
  post c := iprop(StableHlo.held (c : Thread nD τ) (Pipeline.ucRefs τ sig) (X4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (VE4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (VE4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (VE4 m ρ) c).Φ 0 from rfl]
    iintro ⟨Hp, -, Hr⟩
    iapply (hin4 (VE4 m ρ) c)
    unfold Pipeline.ΦA
    isplitl [Hr]; · iexact Hr
    iexact Hp
  hout c := by
    rw [Pipeline.ownSems0_none, show (pdats m ρ 4 c).Φ (Fin.last _) = (dat4 (VE4 m ρ) c).Φ (Fin.last _) from rfl]
    have h := hout4 (VE4 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (VE4 m ρ c) (VX4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at E5, left at X5; its arrays split out of the
    unscoped buffers and put back at the exit contents; the generator register into the invariant and out; nothing owed. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (VE5 m ρ) c).loose
  hwaits := Pipeline.hwaits_of_owed_zero _ _ _ _ L lv 5 fun _ _ => rfl
  pre c := iprop(StableHlo.held (c : Thread nD τ) (Pipeline.ucRefs τ sig) (E5 m ρ c) ∗ R c)
  post c := iprop(StableHlo.held (c : Thread nD τ) (Pipeline.ucRefs τ sig) (X5 m ρ c) ∗ R c)
  X c := iprop(∃ r, prngReg c r)
  Y c := iprop(∃ r, prngReg c r)
  Z c := Pipeline.unscopedRest (Ix := Unit) (Name := ℕ) (U := Pipeline.UD sig nD τ) (Lvl := ℕ) spec5 c (VE5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (VE5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m ρ) ((pdats m ρ 5 c).share_full fun _ => rfl)
      (VE5 m ρ c) (VX5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at E6, left at X6; its arrays split out of the
    unscoped buffers and put back at the exit contents; the generator register into the invariant and out; nothing owed. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (VE6 m ρ) c).loose
  hwaits := Pipeline.hwaits_of_owed_zero _ _ _ _ L lv 6 fun _ _ => rfl
  pre c := iprop(StableHlo.held (c : Thread nD τ) (Pipeline.ucRefs τ sig) (E6 m ρ c) ∗ R c)
  post c := iprop(StableHlo.held (c : Thread nD τ) (Pipeline.ucRefs τ sig) (X6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec6 c (VE6 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (VE6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = (dat6 (VE6 m ρ) c).Φ 0 from rfl]
    iintro ⟨Hp, -, Hr⟩
    iapply (hin6 (VE6 m ρ) c)
    unfold Pipeline.ΦA
    isplitl [Hr]; · iexact Hr
    iexact Hp
  hout c := by
    rw [Pipeline.ownSems0_none, show (pdats m ρ 6 c).Φ (Fin.last _) = (dat6 (VE6 m ρ) c).Φ (Fin.last _) from rfl]
    have h := hout6 (VE6 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := Pipeline.UD sig nD τ) (Lvl := ℕ)
      launch6.win launch6.arr_whole c (pdats m ρ) ((pdats m ρ 6 c).share_full fun _ => rfl)
      (VE6 m ρ c) (VX6 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at E7, left at X7; its arrays split out of the
    unscoped buffers and put back at the exit contents; the generator register into the invariant and out; nothing owed. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (VE7 m ρ) c).loose
  hwaits := Pipeline.hwaits_of_owed_zero _ _ _ _ L lv 7 fun _ _ => rfl
  pre c := iprop(StableHlo.held (c : Thread nD τ) (Pipeline.ucRefs τ sig) (E7 m ρ c) ∗ R c)
  post c := iprop(StableHlo.held (c : Thread nD τ) (Pipeline.ucRefs τ sig) (X7 m ρ c) ∗ R c)
  X c := iprop(∃ r, prngReg c r)
  Y c := iprop(∃ r, prngReg c r)
  Z c := Pipeline.unscopedRest (Ix := Unit) (Name := ℕ) (U := Pipeline.UD sig nD τ) (Lvl := ℕ) spec7 c (VE7 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (VE7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := Pipeline.UD sig nD τ) (Lvl := ℕ)
      launch7.win launch7.arr_whole c (pdats m ρ) ((pdats m ρ 7 c).share_full fun _ => rfl)
      (VE7 m ρ c) (VX7 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at E8, left at X8; its arrays split out of the
    unscoped buffers and put back at the exit contents; the generator register into the invariant and out; nothing owed. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (VE8 m ρ) c).loose
  hwaits := Pipeline.hwaits_of_owed_zero _ _ _ _ L lv 8 fun _ _ => rfl
  pre c := iprop(StableHlo.held (c : Thread nD τ) (Pipeline.ucRefs τ sig) (E8 m ρ c) ∗ R c)
  post c := iprop(StableHlo.held (c : Thread nD τ) (Pipeline.ucRefs τ sig) (X8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec8 c (VE8 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (VE8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := Pipeline.UD sig nD τ) (Lvl := ℕ)
      launch8.win launch8.arr_whole c (pdats m ρ) ((pdats m ρ 8 c).share_full fun _ => rfl)
      (VE8 m ρ c) (VX8 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at E9, left at X9; its arrays split out of the
    unscoped buffers and put back at the exit contents; the generator register into the invariant and out; nothing owed. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (VE9 m ρ) c).loose
  hwaits := Pipeline.hwaits_of_owed_zero _ _ _ _ L lv 9 fun _ _ => rfl
  pre c := iprop(StableHlo.held (c : Thread nD τ) (Pipeline.ucRefs τ sig) (E9 m ρ c) ∗ R c)
  post c := iprop(StableHlo.held (c : Thread nD τ) (Pipeline.ucRefs τ sig) (X9 m ρ c) ∗ R c)
  X c := iprop(∃ r, prngReg c r)
  Y c := iprop(∃ r, prngReg c r)
  Z c := Pipeline.unscopedRest (Ix := Unit) (Name := ℕ) (U := Pipeline.UD sig nD τ) (Lvl := ℕ) spec9 c (VE9 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (VE9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := Pipeline.UD sig nD τ) (Lvl := ℕ)
      launch9.win launch9.arr_whole c (pdats m ρ) ((pdats m ρ 9 c).share_full fun _ => rfl)
      (VE9 m ρ c) (VX9 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at E10, left at X10; its arrays split out of the
    unscoped buffers and put back at the exit contents; the generator register into the invariant and out; nothing owed. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (VE10 m ρ) c).loose
  hwaits := Pipeline.hwaits_of_owed_zero _ _ _ _ L lv 10 fun _ _ => rfl
  pre c := iprop(StableHlo.held (c : Thread nD τ) (Pipeline.ucRefs τ sig) (E10 m ρ c) ∗ R c)
  post c := iprop(StableHlo.held (c : Thread nD τ) (Pipeline.ucRefs τ sig) (X10 m ρ c) ∗ R c)
  X c := iprop(∃ r, prngReg c r)
  Y c := iprop(∃ r, prngReg c r)
  Z c := Pipeline.unscopedRest (Ix := Unit) (Name := ℕ) (U := Pipeline.UD sig nD τ) (Lvl := ℕ) spec10 c (VE10 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (VE10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := Pipeline.UD sig nD τ) (Lvl := ℕ)
      launch10.win launch10.arr_whole c (pdats m ρ) ((pdats m ρ 10 c).share_full fun _ => rfl)
      (VE10 m ρ c) (VX10 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (X0 m ρ)),
    .region (reg1 m ρ),
    .host (hseg hostOps2 hostOps2_sub hostOps2_fresh (X1 m ρ)),
    .region (reg2 m ρ),
    .host (hseg hostOps3 hostOps3_sub hostOps3_fresh (X2 m ρ)),
    .region (reg3 m ρ),
    .host (hseg hostOps4 hostOps4_sub hostOps4_fresh (X3 m ρ)),
    .region (reg4 m ρ),
    .host (hseg hostOps5 hostOps5_sub hostOps5_fresh (X4 m ρ)),
    .region (reg5 m ρ),
    .host (hseg hostOps6 hostOps6_sub hostOps6_fresh (X5 m ρ)),
    .region (reg6 m ρ),
    .host (hseg hostOps7 hostOps7_sub hostOps7_fresh (X6 m ρ)),
    .region (reg7 m ρ),
    .host (hseg hostOps8 hostOps8_sub hostOps8_fresh (X7 m ρ)),
    .region (reg8 m ρ),
    .host (hseg hostOps9 hostOps9_sub hostOps9_fresh (X8 m ρ)),
    .region (reg9 m ρ),
    .host (hseg hostOps10 hostOps10_sub hostOps10_fresh (X9 m ρ)),
    .region (reg10 m ρ) ]
/-- The program is the run of the segments. -/
theorem main_run (c : Dev nD) : main (F := F) c = Pipeline.Seg.run (segs m ρ) := (main_chain c).trans (by chain_rfl)

set_option backward.isDefEq.respectTransparency.types false in
/-- The run: from any memory with zero counters every weakly fair execution terminates, nothing faulting; the result array
    ends at what the last region's write-backs leave and every argument array as launched. -/
theorem run : θ_run defs (onTc (τ := τ) (main (F := F))) ⟨m, fun _ => 0, ρ⟩ (fun r => ∀ c : Dev nD,
      r.2.mem ((c.tc : Thread nD τ).loc main_v136) = (dat10 (VE10 m ρ) c).arrAt 6 cfg10.N
      ∧ ∀ b ∈ argRefs, r.2.mem ((c.tc : Thread nD τ).loc b) = m ((c.tc : Thread nD τ).loc b)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (X10 m ρ c) ∗ R c) ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X10 m ρ c b)
    (hfin := fun c s' => by
      iintro ⟨⟨Hh, -⟩, HSI⟩
      unfold StableHlo.held
      imodintro
      iapply (pointsTo_read_all (Pipeline.ucRefs τ sig) (fun b => (((c : Thread nD τ)).1, b)) (X10 m ρ c) s')
      isplitl [Hh] <;> iassumption)
    (hQ := fun s h c =>
      ⟨(h c _ (mem_uc main_v136 (by decide))).trans (X10_arr m ρ c 6),
       fun b hb => (h c _ (mem_uc b (by revert b; decide))).trans (keep_args m ρ c b hb)⟩)

end Cert.Kernel.Regions

end
-- ==== Proof.KI.Region0Runs.lean ====
import proofs.«167917_j22402549416514_2_alg».proof.Proof.Gen.KernelIdeal.Launch
import proofs.«167917_j22402549416514_2_alg».proof.Proof.Gen.KernelIdeal.Skeleton
import proofs.«167917_j22402549416514_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 0, a linear layer with batch statistics: what its three control cases share.

    Each grid point takes a block of 800 rows `x` of 4096 features (window 0), the weight `w` (window 1) and the bias row `b`
    (window 2), the same two at every point, and stores the block `x · wᵀ + b` (window 3). Two accumulators of one row each are
    carried from point to point: the column sums of the blocks stored so far and the column sums of their squares. They are set to
    zero at the first point, and at the last point the [2, 64] statistics (window 4) are stored from them: row 0 the mean
    (sum / 40000), row 1 the variance (sum of squares / 40000 − mean²). At every other point window 4 is left untouched. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetches it or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the point fetches it or not. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the point fetches it or not. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions, in closed form over the grid -/

/-- "This is the first point": the condition under which both accumulators are set to zero. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- "This is the last point": the condition under which the statistics are stored. -/
abbrev cond0_1 (i : grid0.Coords) : Prop := k0_cond2 i = 1#1
/-- It holds at point 49 only. -/
theorem hcond0_1 : ∀ t : Fin cfg0.N, cond0_1 (grid0.coords t) ↔ t.val = 49 :=
  (by decide +kernel : ∀ t : Fin grid0.N, cond0_1 (grid0.coords t) ↔ t.val = 49)

/-! ## Where the windows are idle -/

/-- The inputs and the block of rows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last point the statistics window is idle: nothing is stored into it, -/
theorem idleAt0_4 : ∀ t : Fin cfg0.N, ¬cond0_1 (grid0.coords t) → cfg0.idle 4 (grid0.coords t) = true := by decide +kernel
/-- and it is not written back. -/
theorem noFlush0_4 : ∀ t : Fin cfg0.N, ¬cond0_1 (grid0.coords t) → (cfg0.win 4).flush t = false := by decide +kernel
/-- At the last point it is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S800x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S800x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x64 .f32 := win0_4.stage (cfg0.slots t 4)
abbrev hs0_4 (t : Fin cfg0.N) : (ms0_4 t).IsWhole := hstage0_4 ((cfg0.slots t 4).cast nbuf0_4)
/-- The two accumulators: whole buffers of the kernel's own, passed beside the windows. -/
abbrev scM0_0 : Memref sig .tc .vmem S1x64 .f32 := Memref.whole cc0_scratch0
abbrev scM0_1 : Memref sig .tc .vmem S1x64 .f32 := Memref.whole cc0_scratch1

/-- What the region is entered with, opened at the two accumulators: each owned whole at some contents, the remainder of
    the scoped buffers unopened, and the generator register at some state. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut spec0 c [cc0_scratch0, cc0_scratch1]) ∗ (∃ r, prngReg c r)) := by
  unfold Pipeline.ΦA; rw [scopedRest0_split]; simp only [scM0_0, scM0_1, owns_whole]; try rfl

/-! ## What the body computes, in closed form -/

/-- The block of rows the body stores: `x · wᵀ + b`. -/
def lin0 (x0 : Vec F S800x4096 .f32) (x1 : Vec F S64x4096 .f32) (x2 : Vec F S1x64 .f32) : Vec F S800x64 .f32 := k0_pay1 x0 x1 x2
/-- The first accumulator after a point: what it held plus the column sums of the point's block. -/
def acc0_0 (x0 : Vec F S800x4096 .f32) (x1 : Vec F S64x4096 .f32) (x2 : Vec F S1x64 .f32) (s : Vec F S1x64 .f32) : Vec F S1x64 .f32 := k0_pay4 x0 x1 x2 s
/-- The second accumulator after a point: what it held plus the column sums of the squares of the point's block. -/
def acc0_1 (x0 : Vec F S800x4096 .f32) (x1 : Vec F S64x4096 .f32) (x2 : Vec F S1x64 .f32) (s : Vec F S1x64 .f32) : Vec F S1x64 .f32 := k0_pay5 x0 x1 x2 s
/-- The zero row each accumulator starts from. -/
def zero0_0 : Vec F S1x64 .f32 := k0_pay2 (F := F)
def zero0_1 : Vec F S1x64 .f32 := k0_pay3 (F := F)

/-- Row 0 and row 1 of the statistics. -/
abbrev r0_mean : Rect S2x64 := Rect.unit (s := S2x64) ![0, 0] S1x64.size inb_S2x64_S1x64_0_0
abbrev r0_var : Rect S2x64 := Rect.unit (s := S2x64) ![1, 0] S1x64.size inb_S2x64_S1x64_1_0

/-- The statistics of the sums `s0` (of the entries) and `s1` (of their squares): row 0 the mean `s0 / 40000`, row 1 the
    variance `s1 / 40000 − mean²`. -/
def stats0 (s0 s1 : Vec F S1x64 .f32) : Vec F S2x64 .f32 :=
  View.canon [⟨r0_var, k0_pay7 s0 s1⟩, ⟨r0_mean, k0_pay6 s0⟩]

/-- The two rows cover the statistics. -/
theorem cover0_4 (p1 p0 : Vec F S1x64 .f32) (y : S2x64.Idx) :
    ∃ pc ∈ ([⟨r0_var, p1⟩, ⟨r0_mean, p0⟩] : List (View.Piece (Elt F) S2x64 .f32)), y ∈ pc.1.set :=
  View.cover_of_tiled [⟨r0_var, p1⟩, ⟨r0_mean, p0⟩] S1x64.size (by rfl) y

end Cert.KernelIdeal.Regions

end
-- ==== Proof.KI.Region2Runs.lean ====
import proofs.«167917_j22402549416514_2_alg».proof.Proof.Gen.KernelIdeal.Launch
import proofs.«167917_j22402549416514_2_alg».proof.Proof.Gen.KernelIdeal.Skeleton
import proofs.«167917_j22402549416514_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 2, a linear layer with batch statistics: what its three control cases share.

    Each grid point takes a block of 5000 rows `x` (window 0), the weight `w` (window 1) and the bias row `b` (window 2),
    the same two at every point, and stores the block `x · wᵀ + b` (window 3). Two accumulators of one row each are carried
    from point to point: the column sums of the blocks stored so far and the column sums of their squares. They are set to
    zero at the first point, and at the last point the [2, 64] statistics (window 4) are stored from them: row 0 the mean
    (sum / 40000), row 1 the variance (sum of squares / 40000 − mean²). At every other point window 4 is left untouched. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the point fetches it or not. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the point fetches it or not. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the point fetches it or not. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions, in closed form over the grid -/

/-- "This is the first point": the condition under which both accumulators are set to zero. -/
abbrev cond2_0 (i : grid2.Coords) : Prop := (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val = 0 :=
  (by decide +kernel : ∀ t : Fin grid2.N, cond2_0 (grid2.coords t) ↔ t.val = 0)

/-- "This is the last point": the condition under which the statistics are stored. -/
abbrev cond2_1 (i : grid2.Coords) : Prop := k2_cond2 i = 1#1
/-- It holds at point 7 only. -/
theorem hcond2_1 : ∀ t : Fin cfg2.N, cond2_1 (grid2.coords t) ↔ t.val = 7 :=
  (by decide +kernel : ∀ t : Fin grid2.N, cond2_1 (grid2.coords t) ↔ t.val = 7)

/-! ## Where the windows are idle -/

/-- The inputs and the block of rows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Before the last point the statistics window is idle: nothing is stored into it, -/
theorem idleAt2_4 : ∀ t : Fin cfg2.N, ¬cond2_1 (grid2.coords t) → cfg2.idle 4 (grid2.coords t) = true := by decide +kernel
/-- and it is not written back. -/
theorem noFlush2_4 : ∀ t : Fin cfg2.N, ¬cond2_1 (grid2.coords t) → (cfg2.win 4).flush t = false := by decide +kernel
/-- At the last point it is live. -/
theorem liveAt2_4 : ∀ t : Fin cfg2.N, cond2_1 (grid2.coords t) → cfg2.idle 4 (grid2.coords t) = false := by decide +kernel

/-! ## The memrefs the body is called with -/

abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S5000x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2x64 .f32 := win2_4.stage (cfg2.slots t 4)
abbrev hs2_4 (t : Fin cfg2.N) : (ms2_4 t).IsWhole := hstage2_4 ((cfg2.slots t 4).cast nbuf2_4)
/-- The two accumulators: whole buffers of the kernel's own, passed beside the windows. -/
abbrev scM2_0 : Memref sig .tc .vmem S1x64 .f32 := Memref.whole cc2_scratch0
abbrev scM2_1 : Memref sig .tc .vmem S1x64 .f32 := Memref.whole cc2_scratch1

/-- What the region is entered with, opened at the two accumulators: each owned whole at some contents, the remainder of
    the scoped buffers unopened, and the generator register at some state. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut spec2 c [cc2_scratch0, cc2_scratch1]) ∗ (∃ r, prngReg c r)) := by
  unfold Pipeline.ΦA; rw [scopedRest2_split]; simp only [scM2_0, scM2_1, owns_whole]; try rfl

/-! ## Whole-buffer loads and stores

    Every load and store of this kernel goes through the rectangle that is the whole buffer (row 0 or row 1 of the
    statistics apart). Such a load reads the contents; such a store, made last, leaves its payload. -/

/-- The zero offsets, as the rectangles spell them. -/
theorem hz2 : (![0, 0] : Fin 2 → Nat) = fun _ => 0 := funext fun a => by fin_cases a <;> rfl

/-- A whole-buffer load of a whole memref owned at `X` reads `X`. -/
theorem readAt_unread_unit_zero {S : Shape} {e : EltTy} {m : Memref sig .tc .vmem S e} (hm : m.IsWhole) {off : Fin S.rank → Nat}
    (h : off = fun _ => 0) (inb : ∀ a, off a + S.size a ≤ S.size a) (X : S.Idx → Elt F e) :
    View.readAt (Elt F) m.view (Rect.unit off S.size inb).toLoadRect (hm.unread X) = X :=
  (congrArg (fun Y => View.ld Y (Rect.unit off S.size inb)) (hm.read_unread X)).trans (View.ld_unit_zero h inb X)

/-- After a whole-buffer store made last the buffer reads as that store's payload, whatever was stored before. -/
theorem read_writes_unit_zero_last {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩), View.canon_cons_unit_zero h]

/-! ## What the body computes, in closed form -/

/-- The block of rows the body stores: `x · wᵀ + b`. -/
def lin2 (x0 : Vec F S5000x64 .f32) (x1 : Vec F S64x64 .f32) (x2 : Vec F S1x64 .f32) : Vec F S5000x64 .f32 := k2_pay3 x0 x1 x2
/-- The first accumulator after a point: what it held plus the column sums of the point's block. -/
def acc2_0 (x0 : Vec F S5000x64 .f32) (x1 : Vec F S64x64 .f32) (x2 : Vec F S1x64 .f32) (s : Vec F S1x64 .f32) : Vec F S1x64 .f32 := k2_pay6 x0 x1 x2 s
/-- The second accumulator after a point: what it held plus the column sums of the squares of the point's block. -/
def acc2_1 (x0 : Vec F S5000x64 .f32) (x1 : Vec F S64x64 .f32) (x2 : Vec F S1x64 .f32) (s : Vec F S1x64 .f32) : Vec F S1x64 .f32 := k2_pay7 x0 x1 x2 s
/-- The zero row each accumulator starts from. -/
def zero2_0 : Vec F S1x64 .f32 := k2_pay4 (F := F)
def zero2_1 : Vec F S1x64 .f32 := k2_pay5 (F := F)

/-- Row 0 and row 1 of the statistics. -/
abbrev r2_mean : Rect S2x64 := Rect.unit (s := S2x64) ![0, 0] S1x64.size inb_S2x64_S1x64_0_0
abbrev r2_var : Rect S2x64 := Rect.unit (s := S2x64) ![1, 0] S1x64.size inb_S2x64_S1x64_1_0

/-- The statistics of the sums `s0` (of the entries) and `s1` (of their squares): row 0 the mean `s0 / 40000`, row 1 the
    variance `s1 / 40000 − mean²`. -/
def stats2 (s0 s1 : Vec F S1x64 .f32) : Vec F S2x64 .f32 :=
  View.canon [⟨r2_var, k2_pay2 s0 s1⟩, ⟨r2_mean, k2_pay1 s0⟩]

/-- The two rows cover the statistics. -/
theorem cover2_4 (p1 p0 : Vec F S1x64 .f32) (y : S2x64.Idx) :
    ∃ pc ∈ ([⟨r2_var, p1⟩, ⟨r2_mean, p0⟩] : List (View.Piece (Elt F) S2x64 .f32)), y ∈ pc.1.set :=
  View.cover_of_tiled [⟨r2_var, p1⟩, ⟨r2_mean, p0⟩] S1x64.size (by rfl) y

end Cert.KernelIdeal.Regions

end
-- ==== Proof.KI.Region0Cases.lean ====
import proofs.«167917_j22402549416514_2_alg».proof.Proof.KI.Region0Runs
import proofs.«167917_j22402549416514_2_alg».proof.Proof.KI.Region2Runs

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 0: the body's run in each of its three control cases

    The body on whole memrefs, once per case of its two conditions — the first point (both accumulators are set to zero first),
    a middle point, the last point (the statistics are stored from the final sums). Each is stated with what every buffer is left
    holding in closed form (`lin0`, `acc0_0`, `acc0_1`, `stats0`). -/

set_option maxHeartbeats 1000000 in
/-- THE FIRST POINT. On whole memrefs — the three inputs at their blocks, the block of rows and both accumulators at anything, the
    statistics at contents handed back untouched — the body leaves the block of rows at `x · wᵀ + b` and each accumulator at
    zero plus this block's column sums (of the entries, of their squares). -/
theorem sound_kernel0_A (c : Dev nD) (E : Set ℕ) (i : grid0.Coords) (arg1 : Memref sig .tc .vmem S800x4096 .f32) (harg1 : arg1.IsWhole) (arg2 : Memref sig .tc .vmem S64x4096 .f32) (harg2 : arg2.IsWhole) (arg3 : Memref sig .tc .vmem S1x64 .f32) (harg3 : arg3.IsWhole) (arg4 : Memref sig .tc .vmem S800x64 .f32) (harg4 : arg4.IsWhole) (arg5 : Memref sig .tc .vmem S2x64 .f32) (harg5 : arg5.IsWhole) (arg6 : Memref sig .tc .vmem S1x64 .f32) (harg6 : arg6.IsWhole) (arg7 : Memref sig .tc .vmem S1x64 .f32) (harg7 : arg7.IsWhole) (hc0 : cond0_0 i) (hc1 : ¬cond0_1 i)
    (x0 : Vec F S800x4096 .f32) (x1 : Vec F S64x4096 .f32) (x2 : Vec F S1x64 .f32) (xi4 : Vec F S2x64 .f32) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare (lin0 x0 x1 x2)
                ∗ owns (c : Thread nD τ) arg5 fullShare xi4
                ∗ owns (c : Thread nD τ) arg6 fullShare (acc0_0 x0 x1 x2 zero0_0)
                ∗ owns (c : Thread nD τ) arg7 fullShare (acc0_1 x0 x1 x2 zero0_1)) -∗ K ⟨⟩))
          ⊢ wp frame (wpE (defs₀ (F := F)) Variants.none c none) E (cc0_kernel i arg1 harg1 arg2 harg2 arg3 harg3 arg4 harg4 arg5 harg5 arg6 harg6 arg7 harg7) K := by
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [read_writes_unit_zero_last _ _ hz2, readAt_unread_unit_zero harg1 hz2, readAt_unread_unit_zero harg2 hz2, readAt_unread_unit_zero harg3 hz2]; rfl
    isplitl [H4]
    · iexists _; isplitr; · ipureintro; exact harg5.read_unread _
      iexact H4
    isplitl [HS0]
    · iexists _; isplitr
      swap; · iexact HS0
      ipureintro
      rw [read_writes_unit_zero_last _ _ hz2, readAt_unread_unit_zero harg1 hz2, readAt_unread_unit_zero harg2 hz2, readAt_unread_unit_zero harg3 hz2]
      sl_unfold_words
      rw [View.readCov_unit_zero (S := S1x64) _ hz2]; rfl
    iexists _; isplitr
    swap; · iexact HS1
    ipureintro
    rw [read_writes_unit_zero_last _ _ hz2, readAt_unread_unit_zero harg1 hz2, readAt_unread_unit_zero harg2 hz2, readAt_unread_unit_zero harg3 hz2]
    sl_unfold_words
    rw [View.readCov_unit_zero (S := S1x64) _ hz2]; rfl

set_option maxHeartbeats 1000000 in
/-- A MIDDLE POINT. On whole memrefs — the three inputs at their blocks, the block of rows at anything, the statistics at
    contents handed back untouched, the accumulators at what the point before left (`xs0`, `xs1`) — the body leaves the block of
    rows at `x · wᵀ + b` and each accumulator at what it held plus this block's column sums (of the entries, of their squares). -/
theorem sound_kernel0_B (c : Dev nD) (E : Set ℕ) (i : grid0.Coords) (arg1 : Memref sig .tc .vmem S800x4096 .f32) (harg1 : arg1.IsWhole) (arg2 : Memref sig .tc .vmem S64x4096 .f32) (harg2 : arg2.IsWhole) (arg3 : Memref sig .tc .vmem S1x64 .f32) (harg3 : arg3.IsWhole) (arg4 : Memref sig .tc .vmem S800x64 .f32) (harg4 : arg4.IsWhole) (arg5 : Memref sig .tc .vmem S2x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : ¬cond0_1 i)
    (x0 : Vec F S800x4096 .f32) (x1 : Vec F S64x4096 .f32) (x2 : Vec F S1x64 .f32) (xi4 : Vec F S2x64 .f32)
    (xs0 xs1 : Vec F S1x64 .f32) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare (lin0 x0 x1 x2)
                ∗ owns (c : Thread nD τ) arg5 fullShare xi4
                ∗ owns (c : Thread nD τ) arg6 fullShare (acc0_0 x0 x1 x2 xs0)
                ∗ owns (c : Thread nD τ) arg7 fullShare (acc0_1 x0 x1 x2 xs1)) -∗ K ⟨⟩))
          ⊢ wp frame (wpE (defs₀ (F := F)) Variants.none c none) E (cc0_kernel i arg1 harg1 arg2 harg2 arg3 harg3 arg4 harg4 arg5 harg5 arg6 harg6 arg7 harg7) K := by
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hf4
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [read_writes_unit_zero_last _ _ hz2, readAt_unread_unit_zero harg1 hz2, readAt_unread_unit_zero harg2 hz2, readAt_unread_unit_zero harg3 hz2]; rfl
    isplitl [H4]
    · iexists _; isplitr; · ipureintro; exact harg5.read_unread _
      iexact H4
    isplitl [HS0]
    · iexists _; isplitr
      swap; · iexact HS0
      ipureintro
      rw [read_writes_unit_zero_last _ _ hz2, readAt_unread_unit_zero harg1 hz2, readAt_unread_unit_zero harg2 hz2, readAt_unread_unit_zero harg3 hz2,
        readAt_unread_unit_zero harg6 hz2]; rfl
    iexists _; isplitr
    swap; · iexact HS1
    ipureintro
    rw [read_writes_unit_zero_last _ _ hz2, readAt_unread_unit_zero harg1 hz2, readAt_unread_unit_zero harg2 hz2, readAt_unread_unit_zero harg3 hz2,
      readAt_unread_unit_zero harg7 hz2]; rfl

set_option maxHeartbeats 1000000 in
/-- THE LAST POINT. On whole memrefs — the three inputs at their blocks, the block of rows and the statistics at anything, the
    accumulators at what the point before left (`xs0`, `xs1`) — the body leaves the block of rows at `x · wᵀ + b`, each
    accumulator at what it held plus this block's column sums, and the statistics at the mean and variance of those final sums. -/
theorem sound_kernel0_C (c : Dev nD) (E : Set ℕ) (i : grid0.Coords) (arg1 : Memref sig .tc .vmem S800x4096 .f32) (harg1 : arg1.IsWhole) (arg2 : Memref sig .tc .vmem S64x4096 .f32) (harg2 : arg2.IsWhole) (arg3 : Memref sig .tc .vmem S1x64 .f32) (harg3 : arg3.IsWhole) (arg4 : Memref sig .tc .vmem S800x64 .f32) (harg4 : arg4.IsWhole) (arg5 : Memref sig .tc .vmem S2x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S800x4096 .f32) (x1 : Vec F S64x4096 .f32) (x2 : Vec F S1x64 .f32)
    (xs0 xs1 : Vec F S1x64 .f32) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare (lin0 x0 x1 x2)
                ∗ owns (c : Thread nD τ) arg5 fullShare (stats0 (acc0_0 x0 x1 x2 xs0) (acc0_1 x0 x1 x2 xs1))
                ∗ owns (c : Thread nD τ) arg6 fullShare (acc0_0 x0 x1 x2 xs0)
                ∗ owns (c : Thread nD τ) arg7 fullShare (acc0_1 x0 x1 x2 xs1)) -∗ K ⟨⟩))
          ⊢ wp frame (wpE (defs₀ (F := F)) Variants.none c none) E (cc0_kernel i arg1 harg1 arg2 harg2 arg3 harg3 arg4 harg4 arg5 harg5 arg6 harg6 arg7 harg7) K := by
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [read_writes_unit_zero_last _ _ hz2, readAt_unread_unit_zero harg1 hz2, readAt_unread_unit_zero harg2 hz2, readAt_unread_unit_zero harg3 hz2]; rfl
    isplitl [H4]
    · iexists _; isplitr
      swap; · iexact H4
      ipureintro
      rw [View.read_writes_eq_canon _ _ _ (cover0_4 _ _)]
      sl_unfold_words
      simp only [View.readCov_unit_zero (S := S1x64) _ hz2, readAt_unread_unit_zero harg1 hz2, readAt_unread_unit_zero harg2 hz2, readAt_unread_unit_zero harg3 hz2,
        readAt_unread_unit_zero harg6 hz2, readAt_unread_unit_zero harg7 hz2]
      rfl
    isplitl [HS0]
    · iexists _; isplitr
      swap; · iexact HS0
      ipureintro
      sl_unfold_words
      rw [read_writes_unit_zero_last _ _ hz2, readAt_unread_unit_zero harg1 hz2, readAt_unread_unit_zero harg2 hz2, readAt_unread_unit_zero harg3 hz2,
        readAt_unread_unit_zero harg6 hz2]; rfl
    iexists _; isplitr
    swap; · iexact HS1
    ipureintro
    sl_unfold_words
    rw [read_writes_unit_zero_last _ _ hz2, readAt_unread_unit_zero harg1 hz2, readAt_unread_unit_zero harg2 hz2, readAt_unread_unit_zero harg3 hz2,
      readAt_unread_unit_zero harg7 hz2]; rfl

end Cert.KernelIdeal.Regions

end
-- ==== Proof.KI.Region0.lean ====
import proofs.«167917_j22402549416514_2_alg».proof.Proof.KI.Region0Cases

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 0: the running sums, the proof data and the body obligation -/

/-- THE ACCUMULATION. The two running sums after the body at point `n`: the column sums of the blocks `x · wᵀ + b` stored at
    points `0 … n` and the column sums of their squares, each added block by block in point order onto the zero row. -/
def sums0 (c : Dev nD) : (n : ℕ) → n < cfg0.N → Vec F S1x64 .f32 × Vec F S1x64 .f32
  | 0, hn => (acc0_0 (iblk0 V c 0 ⟨0, hn⟩) (iblk0 V c 1 ⟨0, hn⟩) (iblk0 V c 2 ⟨0, hn⟩) zero0_0, acc0_1 (iblk0 V c 0 ⟨0, hn⟩) (iblk0 V c 1 ⟨0, hn⟩) (iblk0 V c 2 ⟨0, hn⟩) zero0_1)
  | n + 1, hn => (acc0_0 (iblk0 V c 0 ⟨n + 1, hn⟩) (iblk0 V c 1 ⟨n + 1, hn⟩) (iblk0 V c 2 ⟨n + 1, hn⟩) (sums0 c n (Nat.lt_of_succ_lt hn)).1,
      acc0_1 (iblk0 V c 0 ⟨n + 1, hn⟩) (iblk0 V c 1 ⟨n + 1, hn⟩) (iblk0 V c 2 ⟨n + 1, hn⟩) (sums0 c n (Nat.lt_of_succ_lt hn)).2)

/-- At the first point: the zero rows plus the first block's sums. -/
theorem sums0_first (c : Dev nD) (t : Fin cfg0.N) (h0 : t.val = 0) :
    sums0 V c t.val t.isLt = (acc0_0 (iblk0 V c 0 t) (iblk0 V c 1 t) (iblk0 V c 2 t) zero0_0, acc0_1 (iblk0 V c 0 t) (iblk0 V c 1 t) (iblk0 V c 2 t) zero0_1) := by
  obtain ⟨n, hn⟩ := t
  cases n with
  | zero => rfl
  | succ n => exact absurd h0 (Nat.succ_ne_zero n)

/-- At a later point: the sums after the point before plus this block's. -/
theorem sums0_later (c : Dev nD) (t : Fin cfg0.N) (h0 : ¬t.val = 0) :
    sums0 V c t.val t.isLt = (acc0_0 (iblk0 V c 0 t) (iblk0 V c 1 t) (iblk0 V c 2 t) (sums0 V c (t.val - 1) (Nat.lt_of_le_of_lt (Nat.sub_le _ _) t.isLt)).1,
      acc0_1 (iblk0 V c 0 t) (iblk0 V c 1 t) (iblk0 V c 2 t) (sums0 V c (t.val - 1) (Nat.lt_of_le_of_lt (Nat.sub_le _ _) t.isLt)).2) := by
  obtain ⟨n, hn⟩ := t
  cases n with
  | zero => exact absurd rfl h0
  | succ n => rfl

/-- What the two output blocks and the two accumulators hold after the body at point `n`: the block of rows `x · wᵀ + b` of
    the point's inputs; the statistics of the running sums (stored at the last point only: at any other point nothing reads this
    component, the window being idle and not written back); the two running sums. -/
def outsAt0 (c : Dev nD) (n : ℕ) (hn : n < cfg0.N) : Vec F S800x64 .f32 × Vec F S2x64 .f32 × Vec F S1x64 .f32 × Vec F S1x64 .f32 :=
  (lin0 (iblk0 V c 0 ⟨n, hn⟩) (iblk0 V c 1 ⟨n, hn⟩) (iblk0 V c 2 ⟨n, hn⟩), stats0 (sums0 V c n hn).1 (sums0 V c n hn).2, (sums0 V c n hn).1, (sums0 V c n hn).2)

/-- `outsAt0` at the first point. -/
theorem outsAt0_A (c : Dev nD) (t : Fin cfg0.N) (h0 : t.val = 0) :
    outsAt0 V c t.val t.isLt = (lin0 (iblk0 V c 0 t) (iblk0 V c 1 t) (iblk0 V c 2 t),
      stats0 (acc0_0 (iblk0 V c 0 t) (iblk0 V c 1 t) (iblk0 V c 2 t) zero0_0) (acc0_1 (iblk0 V c 0 t) (iblk0 V c 1 t) (iblk0 V c 2 t) zero0_1),
      acc0_0 (iblk0 V c 0 t) (iblk0 V c 1 t) (iblk0 V c 2 t) zero0_0, acc0_1 (iblk0 V c 0 t) (iblk0 V c 1 t) (iblk0 V c 2 t) zero0_1) := by
  unfold outsAt0; rw [sums0_first V c t h0]

/-- `outsAt0` at a middle point, over what the point before left in the accumulators. -/
theorem outsAt0_B (c : Dev nD) (t : Fin cfg0.N) (h0 : ¬t.val = 0) (h1 : ¬t.val = 49) :
    outsAt0 V c t.val t.isLt = (lin0 (iblk0 V c 0 t) (iblk0 V c 1 t) (iblk0 V c 2 t),
      stats0 (acc0_0 (iblk0 V c 0 t) (iblk0 V c 1 t) (iblk0 V c 2 t) (outsAt0 V c (t.val - 1) (Nat.lt_of_le_of_lt (Nat.sub_le _ _) t.isLt)).2.2.1)
        (acc0_1 (iblk0 V c 0 t) (iblk0 V c 1 t) (iblk0 V c 2 t) (outsAt0 V c (t.val - 1) (Nat.lt_of_le_of_lt (Nat.sub_le _ _) t.isLt)).2.2.2),
      acc0_0 (iblk0 V c 0 t) (iblk0 V c 1 t) (iblk0 V c 2 t) (outsAt0 V c (t.val - 1) (Nat.lt_of_le_of_lt (Nat.sub_le _ _) t.isLt)).2.2.1,
      acc0_1 (iblk0 V c 0 t) (iblk0 V c 1 t) (iblk0 V c 2 t) (outsAt0 V c (t.val - 1) (Nat.lt_of_le_of_lt (Nat.sub_le _ _) t.isLt)).2.2.2) := by
  unfold outsAt0; rw [sums0_later V c t h0]

/-- `outsAt0` at the last point, over what the point before left in the accumulators: the same equation, the statistics now
    being what the body stores. -/
theorem outsAt0_C (c : Dev nD) (t : Fin cfg0.N) (h0 : ¬t.val = 0) (h1 : t.val = 49) :
    outsAt0 V c t.val t.isLt = (lin0 (iblk0 V c 0 t) (iblk0 V c 1 t) (iblk0 V c 2 t),
      stats0 (acc0_0 (iblk0 V c 0 t) (iblk0 V c 1 t) (iblk0 V c 2 t) (outsAt0 V c (t.val - 1) (Nat.lt_of_le_of_lt (Nat.sub_le _ _) t.isLt)).2.2.1)
        (acc0_1 (iblk0 V c 0 t) (iblk0 V c 1 t) (iblk0 V c 2 t) (outsAt0 V c (t.val - 1) (Nat.lt_of_le_of_lt (Nat.sub_le _ _) t.isLt)).2.2.2),
      acc0_0 (iblk0 V c 0 t) (iblk0 V c 1 t) (iblk0 V c 2 t) (outsAt0 V c (t.val - 1) (Nat.lt_of_le_of_lt (Nat.sub_le _ _) t.isLt)).2.2.1,
      acc0_1 (iblk0 V c 0 t) (iblk0 V c 1 t) (iblk0 V c 2 t) (outsAt0 V c (t.val - 1) (Nat.lt_of_le_of_lt (Nat.sub_le _ _) t.isLt)).2.2.2) := by
  unfold outsAt0; rw [sums0_later V c t h0]

/-- The region's invariant before position `n`: before the first point what the region is entered with; afterwards the same
    with the two accumulators owned at the running sums the point before left. -/
def PhiS0 (c : Dev nD) : (n : ℕ) → n ≤ cfg0.N → sProp 𝕄
  | 0, _ => Pipeline.ΦA spec0 c
  | n + 1, hn => iprop(iprop(iprop(owns (c : Thread nD τ) scM0_0 fullShare (sums0 V c n hn).1 ∗ owns (c : Thread nD τ) scM0_1 fullShare (sums0 V c n hn).2)
      ∗ Pipeline.scopedRestBut spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (sums0 V c n hn).1 ∗ owns (c : Thread nD τ) scM0_1 fullShare (sums0 V c n hn).2)
      ∗ Pipeline.scopedRestBut spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (sums0 V c (n - 1) (by omega)).1
        ∗ owns (c : Thread nD τ) scM0_1 fullShare (sums0 V c (n - 1) (by omega)).2)
      ∗ Pipeline.scopedRestBut spec0 c [cc0_scratch0, cc0_scratch1]) ∗ (∃ r, prngReg c r)) := by
  cases n with
  | zero => exact absurd rfl hz
  | succ n => rfl

/-- The region's proof data: the arrays as the region finds them; after the body each input's buffer at its block, the block
    of rows at `x · wᵀ + b`, the statistics at those of the running sums; the invariant `PhiS0`; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
/-- The same two, in closed form. -/
theorem after0_3_eq (c : Dev nD) (t : Fin cfg0.N) : (dat0 V c).after 3 t = lin0 (iblk0 V c 0 t) (iblk0 V c 1 t) (iblk0 V c 2 t) := by dsimp only [dat0, outsAt0]
theorem after0_4_eq (c : Dev nD) (t : Fin cfg0.N) : (dat0 V c).after 4 t = stats0 (sums0 V c t.val t.isLt).1 (sums0 V c t.val t.isLt).2 := by dsimp only [dat0, outsAt0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' buffers hold their blocks; the closed forms of the two conditions say which of the three
    cases the point is in; the invariant hands the body the accumulators at the running sums the point before left (at anything
    at the first point) and takes them back at this point's; the statistics window is handed back untouched before the last point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3_eq]
  by_cases h0 : t.val = 0
  · have h1 : ¬t.val = 49 := by omega
    rw [Dat.leavesExact_idle (dat0 V c) 4 t (idleAt0_4 t (fun h => h1 ((hcond0_1 t).mp h))) (noFlush0_4 t (fun h => h1 ((hcond0_1 t).mp h)))]
    rw [sums0_first V c t h0]; dsimp only
    rw [PhiS0_castSucc V c t, PhiS0_zero V c _ _ h0, PhiA0_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply (sound_kernel0_A c Set.univ (grid0.coords t) _ _ _ _ _ _ _ _ _ _ _ _ _ _ ((hcond0_0 t).mpr h0) (fun h => h1 ((hcond0_1 t).mp h))
      (iblk0 V c 0 t) (iblk0 V c 1 t) (iblk0 V c 2 t) _ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    iexists _; iexact H4
  · by_cases h1 : t.val = 49
    · rw [show (dat0 V c).leavesExact 4 t = owns (c : Thread nD τ) (ms0_4 t) fullShare ((dat0 V c).after 4 t) from by
        unfold Dat.leavesExact; rw [liveAt0_4 t ((hcond0_1 t).mpr h1)], after0_4_eq]
      rw [sums0_later V c t h0]; dsimp only
      rw [PhiS0_castSucc V c t, PhiS0_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (sound_kernel0_C c Set.univ (grid0.coords t) _ _ _ _ _ _ _ _ _ _ _ _ _ _ (fun h => h0 ((hcond0_0 t).mp h)) ((hcond0_1 t).mpr h1)
        (iblk0 V c 0 t) (iblk0 V c 1 t) (iblk0 V c 2 t) _ _ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dat0 V c) 4 t (idleAt0_4 t (fun h => h1 ((hcond0_1 t).mp h))) (noFlush0_4 t (fun h => h1 ((hcond0_1 t).mp h)))]
      rw [sums0_later V c t h0]; dsimp only
      rw [PhiS0_castSucc V c t, PhiS0_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (sound_kernel0_B c Set.univ (grid0.coords t) _ _ _ _ _ _ _ _ _ _ _ _ _ _ (fun h => h0 ((hcond0_0 t).mp h)) (fun h => h1 ((hcond0_1 t).mp h))
        (iblk0 V c 0 t) (iblk0 V c 1 t) (iblk0 V c 2 t) _ _ _ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives back what the region was entered with: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 50 := N_0; omega)

end Cert.KernelIdeal.Regions

end
-- ==== Proof.KI.Region1.lean ====
import proofs.«167917_j22402549416514_2_alg».proof.Proof.Gen.KernelIdeal.Launch
import proofs.«167917_j22402549416514_2_alg».proof.Proof.Gen.KernelIdeal.Skeleton
import proofs.«167917_j22402549416514_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The normalisation region 1: each 5000-row block of the linear layer's output is shifted by the batch mean, scaled by
    the reciprocal root of (batch variance + eps), by the gain, shifted by the bias and passed through the leaky rectifier.
    The block of rows is window 0; the [2, 64] statistics, the gain and the bias are windows 1 to 3, the same block at every
    point; window 4 is the output block. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetches it or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the point fetches it or not. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the point fetches it or not. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether the point fetches it or not. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_rows : Rect S5000x64 := Rect.unit (s := S5000x64) ![0, 0] S5000x64.size inb_S5000x64_S5000x64_0_0
abbrev r1_mean : Rect S2x64 := Rect.unit (s := S2x64) ![0, 0] S1x64.size inb_S2x64_S1x64_0_0
abbrev r1_var : Rect S2x64 := Rect.unit (s := S2x64) ![1, 0] S1x64.size inb_S2x64_S1x64_1_0
abbrev r1_row : Rect S1x64 := Rect.unit (s := S1x64) ![0, 0] S1x64.size inb_S1x64_S1x64_0_0

/-- The output block after the body: its one store, the normalised and rectified rows, over the four input blocks. -/
def out1_4 (x0 : Vec F S5000x64 .f32) (x1 : Vec F S2x64 .f32) (x2 : Vec F S1x64 .f32) (x3 : Vec F S1x64 .f32) : Vec F S5000x64 .f32 :=
  View.canon [⟨r1_rows, k1_pay1 (View.ld x1 r1_mean) (View.ld x1 r1_var) (View.ld x0 r1_rows) (View.ld x2 r1_row) (View.ld x3 r1_row)⟩]

/-- The one store is the whole block, so it covers it. -/
theorem cover1_4 (p0 : Vec F S5000x64 .f32) (y : S5000x64.Idx) :
    ∃ pc ∈ ([⟨r1_rows, p0⟩] : List (View.Piece (Elt F) S5000x64 .f32)), y ∈ pc.1.set :=
  View.cover_of_tiled [⟨r1_rows, p0⟩] S5000x64.size (by rfl) y

set_option maxHeartbeats 1000000 in
/-- The body on whole staging buffers: the four inputs are left as read, the output holds `out1_4` of them. -/
theorem sound_kernel1 (c : Dev nD) (E : Set ℕ) (i : grid1.Coords)
    (arg1 : Memref sig .tc .vmem S5000x64 .f32) (harg1 : arg1.IsWhole) (arg2 : Memref sig .tc .vmem S2x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S5000x64 .f32) (harg5 : arg5.IsWhole)
    (x0 : Vec F S5000x64 .f32) (x1 : Vec F S2x64 .f32) (x2 : Vec F S1x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1_kernel i arg1 harg1 arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The region's proof data: the arrays as the region finds them; after the body each input's buffer at its block and the
    output's at `out1_4` of the input blocks; the scoped rest and the generator register pass through untouched. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Regions

end
-- ==== Proof.KI.Region2Cases.lean ====
import proofs.«167917_j22402549416514_2_alg».proof.Proof.KI.Region2Runs

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 2: the body's run in each of its three control cases

    The body on whole memrefs, once per case of its two conditions — the first point (both accumulators are set to zero first),
    a middle point, the last point (the statistics are stored from the final sums). Each is stated with what every buffer is left
    holding in closed form (`lin2`, `acc2_0`, `acc2_1`, `stats2`). -/

set_option maxHeartbeats 1000000 in
/-- THE FIRST POINT. On whole memrefs — the three inputs at their blocks, the block of rows and both accumulators at anything, the
    statistics at contents handed back untouched — the body leaves the block of rows at `x · wᵀ + b` and each accumulator at
    zero plus this block's column sums (of the entries, of their squares). -/
theorem sound_kernel2_A (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S2x64 .f32) (harg5 : arg5.IsWhole) (arg6 : Memref sig .tc .vmem S1x64 .f32) (harg6 : arg6.IsWhole) (arg7 : Memref sig .tc .vmem S1x64 .f32) (harg7 : arg7.IsWhole) (hc0 : cond2_0 i) (hc1 : ¬cond2_1 i)
    (x0 : Vec F S5000x64 .f32) (x1 : Vec F S64x64 .f32) (x2 : Vec F S1x64 .f32) (xi4 : Vec F S2x64 .f32) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare (lin2 x0 x1 x2)
                ∗ owns (c : Thread nD τ) arg5 fullShare xi4
                ∗ owns (c : Thread nD τ) arg6 fullShare (acc2_0 x0 x1 x2 zero2_0)
                ∗ owns (c : Thread nD τ) arg7 fullShare (acc2_1 x0 x1 x2 zero2_1)) -∗ K ⟨⟩))
          ⊢ wp frame (wpE (defs₀ (F := F)) Variants.none c none) E (cc2_kernel i arg1 harg1 arg2 harg2 arg3 harg3 arg4 harg4 arg5 harg5 arg6 harg6 arg7 harg7) K := by
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [read_writes_unit_zero_last _ _ hz2, readAt_unread_unit_zero harg1 hz2, readAt_unread_unit_zero harg2 hz2, readAt_unread_unit_zero harg3 hz2]; rfl
    isplitl [H4]
    · iexists _; isplitr; · ipureintro; exact harg5.read_unread _
      iexact H4
    isplitl [HS0]
    · iexists _; isplitr
      swap; · iexact HS0
      ipureintro
      rw [read_writes_unit_zero_last _ _ hz2, readAt_unread_unit_zero harg1 hz2, readAt_unread_unit_zero harg2 hz2, readAt_unread_unit_zero harg3 hz2]
      sl_unfold_words
      rw [View.readCov_unit_zero (S := S1x64) _ hz2]; rfl
    iexists _; isplitr
    swap; · iexact HS1
    ipureintro
    rw [read_writes_unit_zero_last _ _ hz2, readAt_unread_unit_zero harg1 hz2, readAt_unread_unit_zero harg2 hz2, readAt_unread_unit_zero harg3 hz2]
    sl_unfold_words
    rw [View.readCov_unit_zero (S := S1x64) _ hz2]; rfl

set_option maxHeartbeats 1000000 in
/-- A MIDDLE POINT. On whole memrefs — the three inputs at their blocks, the block of rows at anything, the statistics at
    contents handed back untouched, the accumulators at what the point before left (`xs0`, `xs1`) — the body leaves the block of
    rows at `x · wᵀ + b` and each accumulator at what it held plus this block's column sums (of the entries, of their squares). -/
theorem sound_kernel2_B (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S2x64 .f32) (harg5 : arg5.IsWhole) (arg6 : Memref sig .tc .vmem S1x64 .f32) (harg6 : arg6.IsWhole) (arg7 : Memref sig .tc .vmem S1x64 .f32) (harg7 : arg7.IsWhole) (hc0 : ¬cond2_0 i) (hc1 : ¬cond2_1 i)
    (x0 : Vec F S5000x64 .f32) (x1 : Vec F S64x64 .f32) (x2 : Vec F S1x64 .f32) (xi4 : Vec F S2x64 .f32)
    (xs0 xs1 : Vec F S1x64 .f32) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare (lin2 x0 x1 x2)
                ∗ owns (c : Thread nD τ) arg5 fullShare xi4
                ∗ owns (c : Thread nD τ) arg6 fullShare (acc2_0 x0 x1 x2 xs0)
                ∗ owns (c : Thread nD τ) arg7 fullShare (acc2_1 x0 x1 x2 xs1)) -∗ K ⟨⟩))
          ⊢ wp frame (wpE (defs₀ (F := F)) Variants.none c none) E (cc2_kernel i arg1 harg1 arg2 harg2 arg3 harg3 arg4 harg4 arg5 harg5 arg6 harg6 arg7 harg7) K := by
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hf4
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [read_writes_unit_zero_last _ _ hz2, readAt_unread_unit_zero harg1 hz2, readAt_unread_unit_zero harg2 hz2, readAt_unread_unit_zero harg3 hz2]; rfl
    isplitl [H4]
    · iexists _; isplitr; · ipureintro; exact harg5.read_unread _
      iexact H4
    isplitl [HS0]
    · iexists _; isplitr
      swap; · iexact HS0
      ipureintro
      rw [read_writes_unit_zero_last _ _ hz2, readAt_unread_unit_zero harg1 hz2, readAt_unread_unit_zero harg2 hz2, readAt_unread_unit_zero harg3 hz2,
        readAt_unread_unit_zero harg6 hz2]; rfl
    iexists _; isplitr
    swap; · iexact HS1
    ipureintro
    rw [read_writes_unit_zero_last _ _ hz2, readAt_unread_unit_zero harg1 hz2, readAt_unread_unit_zero harg2 hz2, readAt_unread_unit_zero harg3 hz2,
      readAt_unread_unit_zero harg7 hz2]; rfl

set_option maxHeartbeats 1000000 in
/-- THE LAST POINT. On whole memrefs — the three inputs at their blocks, the block of rows and the statistics at anything, the
    accumulators at what the point before left (`xs0`, `xs1`) — the body leaves the block of rows at `x · wᵀ + b`, each
    accumulator at what it held plus this block's column sums, and the statistics at the mean and variance of those final sums. -/
theorem sound_kernel2_C (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S2x64 .f32) (harg5 : arg5.IsWhole) (arg6 : Memref sig .tc .vmem S1x64 .f32) (harg6 : arg6.IsWhole) (arg7 : Memref sig .tc .vmem S1x64 .f32) (harg7 : arg7.IsWhole) (hc0 : ¬cond2_0 i) (hc1 : cond2_1 i)
    (x0 : Vec F S5000x64 .f32) (x1 : Vec F S64x64 .f32) (x2 : Vec F S1x64 .f32)
    (xs0 xs1 : Vec F S1x64 .f32) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare (lin2 x0 x1 x2)
                ∗ owns (c : Thread nD τ) arg5 fullShare (stats2 (acc2_0 x0 x1 x2 xs0) (acc2_1 x0 x1 x2 xs1))
                ∗ owns (c : Thread nD τ) arg6 fullShare (acc2_0 x0 x1 x2 xs0)
                ∗ owns (c : Thread nD τ) arg7 fullShare (acc2_1 x0 x1 x2 xs1)) -∗ K ⟨⟩))
          ⊢ wp frame (wpE (defs₀ (F := F)) Variants.none c none) E (cc2_kernel i arg1 harg1 arg2 harg2 arg3 harg3 arg4 harg4 arg5 harg5 arg6 harg6 arg7 harg7) K := by
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [read_writes_unit_zero_last _ _ hz2, readAt_unread_unit_zero harg1 hz2, readAt_unread_unit_zero harg2 hz2, readAt_unread_unit_zero harg3 hz2]; rfl
    isplitl [H4]
    · iexists _; isplitr
      swap; · iexact H4
      ipureintro
      rw [View.read_writes_eq_canon _ _ _ (cover2_4 _ _)]
      sl_unfold_words
      simp only [View.readCov_unit_zero (S := S1x64) _ hz2, readAt_unread_unit_zero harg1 hz2, readAt_unread_unit_zero harg2 hz2, readAt_unread_unit_zero harg3 hz2,
        readAt_unread_unit_zero harg6 hz2, readAt_unread_unit_zero harg7 hz2]
      rfl
    isplitl [HS0]
    · iexists _; isplitr
      swap; · iexact HS0
      ipureintro
      sl_unfold_words
      rw [read_writes_unit_zero_last _ _ hz2, readAt_unread_unit_zero harg1 hz2, readAt_unread_unit_zero harg2 hz2, readAt_unread_unit_zero harg3 hz2,
        readAt_unread_unit_zero harg6 hz2]; rfl
    iexists _; isplitr
    swap; · iexact HS1
    ipureintro
    sl_unfold_words
    rw [read_writes_unit_zero_last _ _ hz2, readAt_unread_unit_zero harg1 hz2, readAt_unread_unit_zero harg2 hz2, readAt_unread_unit_zero harg3 hz2,
      readAt_unread_unit_zero harg7 hz2]; rfl

end Cert.KernelIdeal.Regions

end
-- ==== Proof.KI.Region2.lean ====
import proofs.«167917_j22402549416514_2_alg».proof.Proof.KI.Region2Cases

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 2: the running sums, the proof data and the body obligation -/

/-- THE ACCUMULATION. The two running sums after the body at point `n`: the column sums of the blocks `x · wᵀ + b` stored at
    points `0 … n` and the column sums of their squares, each added block by block in point order onto the zero row. -/
def sums2 (c : Dev nD) : (n : ℕ) → n < cfg2.N → Vec F S1x64 .f32 × Vec F S1x64 .f32
  | 0, hn => (acc2_0 (iblk2 V c 0 ⟨0, hn⟩) (iblk2 V c 1 ⟨0, hn⟩) (iblk2 V c 2 ⟨0, hn⟩) zero2_0, acc2_1 (iblk2 V c 0 ⟨0, hn⟩) (iblk2 V c 1 ⟨0, hn⟩) (iblk2 V c 2 ⟨0, hn⟩) zero2_1)
  | n + 1, hn => (acc2_0 (iblk2 V c 0 ⟨n + 1, hn⟩) (iblk2 V c 1 ⟨n + 1, hn⟩) (iblk2 V c 2 ⟨n + 1, hn⟩) (sums2 c n (Nat.lt_of_succ_lt hn)).1,
      acc2_1 (iblk2 V c 0 ⟨n + 1, hn⟩) (iblk2 V c 1 ⟨n + 1, hn⟩) (iblk2 V c 2 ⟨n + 1, hn⟩) (sums2 c n (Nat.lt_of_succ_lt hn)).2)

/-- At the first point: the zero rows plus the first block's sums. -/
theorem sums2_first (c : Dev nD) (t : Fin cfg2.N) (h0 : t.val = 0) :
    sums2 V c t.val t.isLt = (acc2_0 (iblk2 V c 0 t) (iblk2 V c 1 t) (iblk2 V c 2 t) zero2_0, acc2_1 (iblk2 V c 0 t) (iblk2 V c 1 t) (iblk2 V c 2 t) zero2_1) := by
  obtain ⟨n, hn⟩ := t
  cases n with
  | zero => rfl
  | succ n => exact absurd h0 (Nat.succ_ne_zero n)

/-- At a later point: the sums after the point before plus this block's. -/
theorem sums2_later (c : Dev nD) (t : Fin cfg2.N) (h0 : ¬t.val = 0) :
    sums2 V c t.val t.isLt = (acc2_0 (iblk2 V c 0 t) (iblk2 V c 1 t) (iblk2 V c 2 t) (sums2 V c (t.val - 1) (Nat.lt_of_le_of_lt (Nat.sub_le _ _) t.isLt)).1,
      acc2_1 (iblk2 V c 0 t) (iblk2 V c 1 t) (iblk2 V c 2 t) (sums2 V c (t.val - 1) (Nat.lt_of_le_of_lt (Nat.sub_le _ _) t.isLt)).2) := by
  obtain ⟨n, hn⟩ := t
  cases n with
  | zero => exact absurd rfl h0
  | succ n => rfl

/-- What the two output blocks and the two accumulators hold after the body at point `n`: the block of rows `x · wᵀ + b` of
    the point's inputs; the statistics of the running sums (stored at the last point only: at any other point nothing reads this
    component, the window being idle and not written back); the two running sums. -/
def outsAt2 (c : Dev nD) (n : ℕ) (hn : n < cfg2.N) : Vec F S5000x64 .f32 × Vec F S2x64 .f32 × Vec F S1x64 .f32 × Vec F S1x64 .f32 :=
  (lin2 (iblk2 V c 0 ⟨n, hn⟩) (iblk2 V c 1 ⟨n, hn⟩) (iblk2 V c 2 ⟨n, hn⟩), stats2 (sums2 V c n hn).1 (sums2 V c n hn).2, (sums2 V c n hn).1, (sums2 V c n hn).2)

/-- `outsAt2` at the first point. -/
theorem outsAt2_A (c : Dev nD) (t : Fin cfg2.N) (h0 : t.val = 0) :
    outsAt2 V c t.val t.isLt = (lin2 (iblk2 V c 0 t) (iblk2 V c 1 t) (iblk2 V c 2 t),
      stats2 (acc2_0 (iblk2 V c 0 t) (iblk2 V c 1 t) (iblk2 V c 2 t) zero2_0) (acc2_1 (iblk2 V c 0 t) (iblk2 V c 1 t) (iblk2 V c 2 t) zero2_1),
      acc2_0 (iblk2 V c 0 t) (iblk2 V c 1 t) (iblk2 V c 2 t) zero2_0, acc2_1 (iblk2 V c 0 t) (iblk2 V c 1 t) (iblk2 V c 2 t) zero2_1) := by
  unfold outsAt2; rw [sums2_first V c t h0]

/-- `outsAt2` at a middle point, over what the point before left in the accumulators. -/
theorem outsAt2_B (c : Dev nD) (t : Fin cfg2.N) (h0 : ¬t.val = 0) (h1 : ¬t.val = 7) :
    outsAt2 V c t.val t.isLt = (lin2 (iblk2 V c 0 t) (iblk2 V c 1 t) (iblk2 V c 2 t),
      stats2 (acc2_0 (iblk2 V c 0 t) (iblk2 V c 1 t) (iblk2 V c 2 t) (outsAt2 V c (t.val - 1) (Nat.lt_of_le_of_lt (Nat.sub_le _ _) t.isLt)).2.2.1)
        (acc2_1 (iblk2 V c 0 t) (iblk2 V c 1 t) (iblk2 V c 2 t) (outsAt2 V c (t.val - 1) (Nat.lt_of_le_of_lt (Nat.sub_le _ _) t.isLt)).2.2.2),
      acc2_0 (iblk2 V c 0 t) (iblk2 V c 1 t) (iblk2 V c 2 t) (outsAt2 V c (t.val - 1) (Nat.lt_of_le_of_lt (Nat.sub_le _ _) t.isLt)).2.2.1,
      acc2_1 (iblk2 V c 0 t) (iblk2 V c 1 t) (iblk2 V c 2 t) (outsAt2 V c (t.val - 1) (Nat.lt_of_le_of_lt (Nat.sub_le _ _) t.isLt)).2.2.2) := by
  unfold outsAt2; rw [sums2_later V c t h0]

/-- `outsAt2` at the last point, over what the point before left in the accumulators: the same equation, the statistics now
    being what the body stores. -/
theorem outsAt2_C (c : Dev nD) (t : Fin cfg2.N) (h0 : ¬t.val = 0) (h1 : t.val = 7) :
    outsAt2 V c t.val t.isLt = (lin2 (iblk2 V c 0 t) (iblk2 V c 1 t) (iblk2 V c 2 t),
      stats2 (acc2_0 (iblk2 V c 0 t) (iblk2 V c 1 t) (iblk2 V c 2 t) (outsAt2 V c (t.val - 1) (Nat.lt_of_le_of_lt (Nat.sub_le _ _) t.isLt)).2.2.1)
        (acc2_1 (iblk2 V c 0 t) (iblk2 V c 1 t) (iblk2 V c 2 t) (outsAt2 V c (t.val - 1) (Nat.lt_of_le_of_lt (Nat.sub_le _ _) t.isLt)).2.2.2),
      acc2_0 (iblk2 V c 0 t) (iblk2 V c 1 t) (iblk2 V c 2 t) (outsAt2 V c (t.val - 1) (Nat.lt_of_le_of_lt (Nat.sub_le _ _) t.isLt)).2.2.1,
      acc2_1 (iblk2 V c 0 t) (iblk2 V c 1 t) (iblk2 V c 2 t) (outsAt2 V c (t.val - 1) (Nat.lt_of_le_of_lt (Nat.sub_le _ _) t.isLt)).2.2.2) := by
  unfold outsAt2; rw [sums2_later V c t h0]

/-- The region's invariant before position `n`: before the first point what the region is entered with; afterwards the same
    with the two accumulators owned at the running sums the point before left. -/
def PhiS2 (c : Dev nD) : (n : ℕ) → n ≤ cfg2.N → sProp 𝕄
  | 0, _ => Pipeline.ΦA spec2 c
  | n + 1, hn => iprop(iprop(iprop(owns (c : Thread nD τ) scM2_0 fullShare (sums2 V c n hn).1 ∗ owns (c : Thread nD τ) scM2_1 fullShare (sums2 V c n hn).2)
      ∗ Pipeline.scopedRestBut spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (sums2 V c n hn).1 ∗ owns (c : Thread nD τ) scM2_1 fullShare (sums2 V c n hn).2)
      ∗ Pipeline.scopedRestBut spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (sums2 V c (n - 1) (by omega)).1
        ∗ owns (c : Thread nD τ) scM2_1 fullShare (sums2 V c (n - 1) (by omega)).2)
      ∗ Pipeline.scopedRestBut spec2 c [cc2_scratch0, cc2_scratch1]) ∗ (∃ r, prngReg c r)) := by
  cases n with
  | zero => exact absurd rfl hz
  | succ n => rfl

/-- The region's proof data: the arrays as the region finds them; after the body each input's buffer at its block, the block
    of rows at `x · wᵀ + b`, the statistics at those of the running sums; the invariant `PhiS2`; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
/-- The same two, in closed form. -/
theorem after2_3_eq (c : Dev nD) (t : Fin cfg2.N) : (dat2 V c).after 3 t = lin2 (iblk2 V c 0 t) (iblk2 V c 1 t) (iblk2 V c 2 t) := by dsimp only [dat2, outsAt2]
theorem after2_4_eq (c : Dev nD) (t : Fin cfg2.N) : (dat2 V c).after 4 t = stats2 (sums2 V c t.val t.isLt).1 (sums2 V c t.val t.isLt).2 := by dsimp only [dat2, outsAt2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' buffers hold their blocks; the closed forms of the two conditions say which of the three
    cases the point is in; the invariant hands the body the accumulators at the running sums the point before left (at anything
    at the first point) and takes them back at this point's; the statistics window is handed back untouched before the last point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 8 := lt_of_lt_of_eq t.isLt (show cfg2.N = 8 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3_eq]
  by_cases h0 : t.val = 0
  · have h1 : ¬t.val = 7 := by omega
    rw [Dat.leavesExact_idle (dat2 V c) 4 t (idleAt2_4 t (fun h => h1 ((hcond2_1 t).mp h))) (noFlush2_4 t (fun h => h1 ((hcond2_1 t).mp h)))]
    rw [sums2_first V c t h0]; dsimp only
    rw [PhiS2_castSucc V c t, PhiS2_zero V c _ _ h0, PhiA2_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply (sound_kernel2_A c Set.univ (grid2.coords t) _ _ _ _ _ _ _ _ _ _ _ _ _ _ ((hcond2_0 t).mpr h0) (fun h => h1 ((hcond2_1 t).mp h))
      (iblk2 V c 0 t) (iblk2 V c 1 t) (iblk2 V c 2 t) _ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    iexists _; iexact H4
  · by_cases h1 : t.val = 7
    · rw [show (dat2 V c).leavesExact 4 t = owns (c : Thread nD τ) (ms2_4 t) fullShare ((dat2 V c).after 4 t) from by
        unfold Dat.leavesExact; rw [liveAt2_4 t ((hcond2_1 t).mpr h1)], after2_4_eq]
      rw [sums2_later V c t h0]; dsimp only
      rw [PhiS2_castSucc V c t, PhiS2_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (sound_kernel2_C c Set.univ (grid2.coords t) _ _ _ _ _ _ _ _ _ _ _ _ _ _ (fun h => h0 ((hcond2_0 t).mp h)) ((hcond2_1 t).mpr h1)
        (iblk2 V c 0 t) (iblk2 V c 1 t) (iblk2 V c 2 t) _ _ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dat2 V c) 4 t (idleAt2_4 t (fun h => h1 ((hcond2_1 t).mp h))) (noFlush2_4 t (fun h => h1 ((hcond2_1 t).mp h)))]
      rw [sums2_later V c t h0]; dsimp only
      rw [PhiS2_castSucc V c t, PhiS2_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (sound_kernel2_B c Set.univ (grid2.coords t) _ _ _ _ _ _ _ _ _ _ _ _ _ _ (fun h => h0 ((hcond2_0 t).mp h)) (fun h => h1 ((hcond2_1 t).mp h))
        (iblk2 V c 0 t) (iblk2 V c 1 t) (iblk2 V c 2 t) _ _ _ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives back what the region was entered with: the accumulators' contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 8 := N_2; omega)

end Cert.KernelIdeal.Regions

end
-- ==== Proof.KI.Region3.lean ====
import proofs.«167917_j22402549416514_2_alg».proof.Proof.Gen.KernelIdeal.Launch
import proofs.«167917_j22402549416514_2_alg».proof.Proof.Gen.KernelIdeal.Skeleton
import proofs.«167917_j22402549416514_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The normalisation region 3 with a residual: each 5000-row block of the linear layer's output is shifted by the batch mean,
    scaled by the reciprocal root of (batch variance + eps), by the gain, shifted by the bias, passed through the leaky rectifier,
    and the same rows of the residual are added.
    The block of rows is window 0; the [2, 64] statistics, the gain and the bias are windows 1 to 3, the same block at every
    point; window 4 is the block of rows of the residual; window 5 is the output block. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the point fetches it or not. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether the point fetches it or not. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether the point fetches it or not. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, whether the point fetches it or not. -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, whether the point fetches it or not. -/
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_rows : Rect S5000x64 := Rect.unit (s := S5000x64) ![0, 0] S5000x64.size inb_S5000x64_S5000x64_0_0
abbrev r3_mean : Rect S2x64 := Rect.unit (s := S2x64) ![0, 0] S1x64.size inb_S2x64_S1x64_0_0
abbrev r3_var : Rect S2x64 := Rect.unit (s := S2x64) ![1, 0] S1x64.size inb_S2x64_S1x64_1_0
abbrev r3_row : Rect S1x64 := Rect.unit (s := S1x64) ![0, 0] S1x64.size inb_S1x64_S1x64_0_0

/-- The output block after the body: its one store, the normalised and rectified rows plus the residual rows, over the five input blocks. -/
def out3_5 (x0 : Vec F S5000x64 .f32) (x1 : Vec F S2x64 .f32) (x2 : Vec F S1x64 .f32) (x3 : Vec F S1x64 .f32) (x4 : Vec F S5000x64 .f32) : Vec F S5000x64 .f32 :=
  View.canon [⟨r3_rows, k3_pay1 (View.ld x1 r3_mean) (View.ld x1 r3_var) (View.ld x0 r3_rows) (View.ld x2 r3_row) (View.ld x3 r3_row) (View.ld x4 r3_rows)⟩]

/-- The one store is the whole block, so it covers it. -/
theorem cover3_5 (p0 : Vec F S5000x64 .f32) (y : S5000x64.Idx) :
    ∃ pc ∈ ([⟨r3_rows, p0⟩] : List (View.Piece (Elt F) S5000x64 .f32)), y ∈ pc.1.set :=
  View.cover_of_tiled [⟨r3_rows, p0⟩] S5000x64.size (by rfl) y

set_option maxHeartbeats 1000000 in
/-- The body on whole staging buffers: the five inputs are left as read, the output holds `out3_5` of them. -/
theorem sound_kernel3 (c : Dev nD) (E : Set ℕ) (i : grid3.Coords)
    (arg1 : Memref sig .tc .vmem S5000x64 .f32) (harg1 : arg1.IsWhole) (arg2 : Memref sig .tc .vmem S2x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S5000x64 .f32) (harg5 : arg5.IsWhole) (arg6 : Memref sig .tc .vmem S5000x64 .f32) (harg6 : arg6.IsWhole)
    (x0 : Vec F S5000x64 .f32) (x1 : Vec F S2x64 .f32) (x2 : Vec F S1x64 .f32) (x3 : Vec F S1x64 .f32) (x4 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3_kernel i arg1 harg1 arg2 harg2 arg3 harg3 arg4 harg4 arg5 harg5 arg6 harg6) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The region's proof data: the arrays as the region finds them; after the body each input's buffer at its block and the
    output's at `out3_5` of the input blocks; the scoped rest and the generator register pass through untouched. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so `sound_kernel3` applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Regions

end
-- ==== Proof.KI.Region4Runs.lean ====
import proofs.«167917_j22402549416514_2_alg».proof.Proof.Gen.KernelIdeal.Launch
import proofs.«167917_j22402549416514_2_alg».proof.Proof.Gen.KernelIdeal.Skeleton
import proofs.«167917_j22402549416514_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 4, a linear layer with batch statistics: what its three control cases share.

    Each grid point takes a block of 2000 rows `x` of 768 features (window 0), the weight `w` (window 1) and the bias row `b`
    (window 2), the same two at every point, and stores the block `x · wᵀ + b` (window 3). Two accumulators of one row each are
    carried from point to point: the column sums of the blocks stored so far and the column sums of their squares. They are set to
    zero at the first point, and at the last point the [2, 64] statistics (window 4) are stored from them: row 0 the mean
    (sum / 40000), row 1 the variance (sum of squares / 40000 − mean²). At every other point window 4 is left untouched. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, whether the point fetches it or not. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, whether the point fetches it or not. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, whether the point fetches it or not. -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The two conditions, in closed form over the grid -/

/-- "This is the first point": the condition under which both accumulators are set to zero. -/
abbrev cond4_0 (i : grid4.Coords) : Prop := (Scalar.cmpi .ne (Scalar.extui (Scalar.cmpi .eq (BitVec.ofNat 32 (i 0).val) 0#32)) 0#32) = 1#1
/-- It holds at point 0 only. -/
theorem hcond4_0 : ∀ t : Fin cfg4.N, cond4_0 (grid4.coords t) ↔ t.val = 0 :=
  (by decide +kernel : ∀ t : Fin grid4.N, cond4_0 (grid4.coords t) ↔ t.val = 0)

/-- "This is the last point": the condition under which the statistics are stored. -/
abbrev cond4_1 (i : grid4.Coords) : Prop := k4_cond2 i = 1#1
/-- It holds at point 19 only. -/
theorem hcond4_1 : ∀ t : Fin cfg4.N, cond4_1 (grid4.coords t) ↔ t.val = 19 :=
  (by decide +kernel : ∀ t : Fin grid4.N, cond4_1 (grid4.coords t) ↔ t.val = 19)

/-! ## Where the windows are idle -/

/-- The inputs and the block of rows are never idle. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- Before the last point the statistics window is idle: nothing is stored into it, -/
theorem idleAt4_4 : ∀ t : Fin cfg4.N, ¬cond4_1 (grid4.coords t) → cfg4.idle 4 (grid4.coords t) = true := by decide +kernel
/-- and it is not written back. -/
theorem noFlush4_4 : ∀ t : Fin cfg4.N, ¬cond4_1 (grid4.coords t) → (cfg4.win 4).flush t = false := by decide +kernel
/-- At the last point it is live. -/
theorem liveAt4_4 : ∀ t : Fin cfg4.N, cond4_1 (grid4.coords t) → cfg4.idle 4 (grid4.coords t) = false := by decide +kernel

/-! ## The memrefs the body is called with -/

abbrev ms4_0 (t : Fin cfg4.N) : Memref sig .tc .vmem S2000x768 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S64x768 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2000x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S2x64 .f32 := win4_4.stage (cfg4.slots t 4)
abbrev hs4_4 (t : Fin cfg4.N) : (ms4_4 t).IsWhole := hstage4_4 ((cfg4.slots t 4).cast nbuf4_4)
/-- The two accumulators: whole buffers of the kernel's own, passed beside the windows. -/
abbrev scM4_0 : Memref sig .tc .vmem S1x64 .f32 := Memref.whole cc4_scratch0
abbrev scM4_1 : Memref sig .tc .vmem S1x64 .f32 := Memref.whole cc4_scratch1

/-- What the region is entered with, opened at the two accumulators: each owned whole at some contents, the remainder of
    the scoped buffers unopened, and the generator register at some state. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut spec4 c [cc4_scratch0, cc4_scratch1]) ∗ (∃ r, prngReg c r)) := by
  unfold Pipeline.ΦA; rw [scopedRest4_split]; simp only [scM4_0, scM4_1, owns_whole]; try rfl

/-! ## What the body computes, in closed form -/

/-- The block of rows the body stores: `x · wᵀ + b`. -/
def lin4 (x0 : Vec F S2000x768 .f32) (x1 : Vec F S64x768 .f32) (x2 : Vec F S1x64 .f32) : Vec F S2000x64 .f32 := k4_pay1 x0 x1 x2
/-- The first accumulator after a point: what it held plus the column sums of the point's block. -/
def acc4_0 (x0 : Vec F S2000x768 .f32) (x1 : Vec F S64x768 .f32) (x2 : Vec F S1x64 .f32) (s : Vec F S1x64 .f32) : Vec F S1x64 .f32 := k4_pay4 x0 x1 x2 s
/-- The second accumulator after a point: what it held plus the column sums of the squares of the point's block. -/
def acc4_1 (x0 : Vec F S2000x768 .f32) (x1 : Vec F S64x768 .f32) (x2 : Vec F S1x64 .f32) (s : Vec F S1x64 .f32) : Vec F S1x64 .f32 := k4_pay5 x0 x1 x2 s
/-- The zero row each accumulator starts from. -/
def zero4_0 : Vec F S1x64 .f32 := k4_pay2 (F := F)
def zero4_1 : Vec F S1x64 .f32 := k4_pay3 (F := F)

/-- Row 0 and row 1 of the statistics. -/
abbrev r4_mean : Rect S2x64 := Rect.unit (s := S2x64) ![0, 0] S1x64.size inb_S2x64_S1x64_0_0
abbrev r4_var : Rect S2x64 := Rect.unit (s := S2x64) ![1, 0] S1x64.size inb_S2x64_S1x64_1_0

/-- The statistics of the sums `s0` (of the entries) and `s1` (of their squares): row 0 the mean `s0 / 40000`, row 1 the
    variance `s1 / 40000 − mean²`. -/
def stats4 (s0 s1 : Vec F S1x64 .f32) : Vec F S2x64 .f32 :=
  View.canon [⟨r4_var, k4_pay7 s0 s1⟩, ⟨r4_mean, k4_pay6 s0⟩]

/-- The two rows cover the statistics. -/
theorem cover4_4 (p1 p0 : Vec F S1x64 .f32) (y : S2x64.Idx) :
    ∃ pc ∈ ([⟨r4_var, p1⟩, ⟨r4_mean, p0⟩] : List (View.Piece (Elt F) S2x64 .f32)), y ∈ pc.1.set :=
  View.cover_of_tiled [⟨r4_var, p1⟩, ⟨r4_mean, p0⟩] S1x64.size (by rfl) y

end Cert.KernelIdeal.Regions

end
-- ==== Proof.KI.Region4Cases.lean ====
import proofs.«167917_j22402549416514_2_alg».proof.Proof.KI.Region4Runs
import proofs.«167917_j22402549416514_2_alg».proof.Proof.KI.Region2Runs

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 4: the body's run in each of its three control cases

    The body on whole memrefs, once per case of its two conditions — the first point (both accumulators are set to zero first),
    a middle point, the last point (the statistics are stored from the final sums). Each is stated with what every buffer is left
    holding in closed form (`lin4`, `acc4_0`, `acc4_1`, `stats4`). -/

set_option maxHeartbeats 1000000 in
/-- THE FIRST POINT. On whole memrefs — the three inputs at their blocks, the block of rows and both accumulators at anything, the
    statistics at contents handed back untouched — the body leaves the block of rows at `x · wᵀ + b` and each accumulator at
    zero plus this block's column sums (of the entries, of their squares). -/
theorem sound_kernel4_A (c : Dev nD) (E : Set ℕ) (i : grid4.Coords) (arg1 : Memref sig .tc .vmem S2000x768 .f32) (harg1 : arg1.IsWhole) (arg2 : Memref sig .tc .vmem S64x768 .f32) (harg2 : arg2.IsWhole) (arg3 : Memref sig .tc .vmem S1x64 .f32) (harg3 : arg3.IsWhole) (arg4 : Memref sig .tc .vmem S2000x64 .f32) (harg4 : arg4.IsWhole) (arg5 : Memref sig .tc .vmem S2x64 .f32) (harg5 : arg5.IsWhole) (arg6 : Memref sig .tc .vmem S1x64 .f32) (harg6 : arg6.IsWhole) (arg7 : Memref sig .tc .vmem S1x64 .f32) (harg7 : arg7.IsWhole) (hc0 : cond4_0 i) (hc1 : ¬cond4_1 i)
    (x0 : Vec F S2000x768 .f32) (x1 : Vec F S64x768 .f32) (x2 : Vec F S1x64 .f32) (xi4 : Vec F S2x64 .f32) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare (lin4 x0 x1 x2)
                ∗ owns (c : Thread nD τ) arg5 fullShare xi4
                ∗ owns (c : Thread nD τ) arg6 fullShare (acc4_0 x0 x1 x2 zero4_0)
                ∗ owns (c : Thread nD τ) arg7 fullShare (acc4_1 x0 x1 x2 zero4_1)) -∗ K ⟨⟩))
          ⊢ wp frame (wpE (defs₀ (F := F)) Variants.none c none) E (cc4_kernel i arg1 harg1 arg2 harg2 arg3 harg3 arg4 harg4 arg5 harg5 arg6 harg6 arg7 harg7) K := by
    simp only [cc4_kernel_eq_skeleton]; unfold cc4_kernel_skel
    simp only [k4_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [read_writes_unit_zero_last _ _ hz2, readAt_unread_unit_zero harg1 hz2, readAt_unread_unit_zero harg2 hz2, readAt_unread_unit_zero harg3 hz2]; rfl
    isplitl [H4]
    · iexists _; isplitr; · ipureintro; exact harg5.read_unread _
      iexact H4
    isplitl [HS0]
    · iexists _; isplitr
      swap; · iexact HS0
      ipureintro
      rw [read_writes_unit_zero_last _ _ hz2, readAt_unread_unit_zero harg1 hz2, readAt_unread_unit_zero harg2 hz2, readAt_unread_unit_zero harg3 hz2]
      sl_unfold_words
      rw [View.readCov_unit_zero (S := S1x64) _ hz2]; rfl
    iexists _; isplitr
    swap; · iexact HS1
    ipureintro
    rw [read_writes_unit_zero_last _ _ hz2, readAt_unread_unit_zero harg1 hz2, readAt_unread_unit_zero harg2 hz2, readAt_unread_unit_zero harg3 hz2]
    sl_unfold_words
    rw [View.readCov_unit_zero (S := S1x64) _ hz2]; rfl

set_option maxHeartbeats 1000000 in
/-- A MIDDLE POINT. On whole memrefs — the three inputs at their blocks, the block of rows at anything, the statistics at
    contents handed back untouched, the accumulators at what the point before left (`xs0`, `xs1`) — the body leaves the block of
    rows at `x · wᵀ + b` and each accumulator at what it held plus this block's column sums (of the entries, of their squares). -/
theorem sound_kernel4_B (c : Dev nD) (E : Set ℕ) (i : grid4.Coords) (arg1 : Memref sig .tc .vmem S2000x768 .f32) (harg1 : arg1.IsWhole) (arg2 : Memref sig .tc .vmem S64x768 .f32) (harg2 : arg2.IsWhole) (arg3 : Memref sig .tc .vmem S1x64 .f32) (harg3 : arg3.IsWhole) (arg4 : Memref sig .tc .vmem S2000x64 .f32) (harg4 : arg4.IsWhole) (arg5 : Memref sig .tc .vmem S2x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : ¬cond4_1 i)
    (x0 : Vec F S2000x768 .f32) (x1 : Vec F S64x768 .f32) (x2 : Vec F S1x64 .f32) (xi4 : Vec F S2x64 .f32)
    (xs0 xs1 : Vec F S1x64 .f32) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare (lin4 x0 x1 x2)
                ∗ owns (c : Thread nD τ) arg5 fullShare xi4
                ∗ owns (c : Thread nD τ) arg6 fullShare (acc4_0 x0 x1 x2 xs0)
                ∗ owns (c : Thread nD τ) arg7 fullShare (acc4_1 x0 x1 x2 xs1)) -∗ K ⟨⟩))
          ⊢ wp frame (wpE (defs₀ (F := F)) Variants.none c none) E (cc4_kernel i arg1 harg1 arg2 harg2 arg3 harg3 arg4 harg4 arg5 harg5 arg6 harg6 arg7 harg7) K := by
    simp only [cc4_kernel_eq_skeleton]; unfold cc4_kernel_skel
    simp only [k4_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hf4
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [read_writes_unit_zero_last _ _ hz2, readAt_unread_unit_zero harg1 hz2, readAt_unread_unit_zero harg2 hz2, readAt_unread_unit_zero harg3 hz2]; rfl
    isplitl [H4]
    · iexists _; isplitr; · ipureintro; exact harg5.read_unread _
      iexact H4
    isplitl [HS0]
    · iexists _; isplitr
      swap; · iexact HS0
      ipureintro
      rw [read_writes_unit_zero_last _ _ hz2, readAt_unread_unit_zero harg1 hz2, readAt_unread_unit_zero harg2 hz2, readAt_unread_unit_zero harg3 hz2,
        readAt_unread_unit_zero harg6 hz2]; rfl
    iexists _; isplitr
    swap; · iexact HS1
    ipureintro
    rw [read_writes_unit_zero_last _ _ hz2, readAt_unread_unit_zero harg1 hz2, readAt_unread_unit_zero harg2 hz2, readAt_unread_unit_zero harg3 hz2,
      readAt_unread_unit_zero harg7 hz2]; rfl

set_option maxHeartbeats 1000000 in
/-- THE LAST POINT. On whole memrefs — the three inputs at their blocks, the block of rows and the statistics at anything, the
    accumulators at what the point before left (`xs0`, `xs1`) — the body leaves the block of rows at `x · wᵀ + b`, each
    accumulator at what it held plus this block's column sums, and the statistics at the mean and variance of those final sums. -/
theorem sound_kernel4_C (c : Dev nD) (E : Set ℕ) (i : grid4.Coords) (arg1 : Memref sig .tc .vmem S2000x768 .f32) (harg1 : arg1.IsWhole) (arg2 : Memref sig .tc .vmem S64x768 .f32) (harg2 : arg2.IsWhole) (arg3 : Memref sig .tc .vmem S1x64 .f32) (harg3 : arg3.IsWhole) (arg4 : Memref sig .tc .vmem S2000x64 .f32) (harg4 : arg4.IsWhole) (arg5 : Memref sig .tc .vmem S2x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i) (hc1 : cond4_1 i)
    (x0 : Vec F S2000x768 .f32) (x1 : Vec F S64x768 .f32) (x2 : Vec F S1x64 .f32)
    (xs0 xs1 : Vec F S1x64 .f32) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare (lin4 x0 x1 x2)
                ∗ owns (c : Thread nD τ) arg5 fullShare (stats4 (acc4_0 x0 x1 x2 xs0) (acc4_1 x0 x1 x2 xs1))
                ∗ owns (c : Thread nD τ) arg6 fullShare (acc4_0 x0 x1 x2 xs0)
                ∗ owns (c : Thread nD τ) arg7 fullShare (acc4_1 x0 x1 x2 xs1)) -∗ K ⟨⟩))
          ⊢ wp frame (wpE (defs₀ (F := F)) Variants.none c none) E (cc4_kernel i arg1 harg1 arg2 harg2 arg3 harg3 arg4 harg4 arg5 harg5 arg6 harg6 arg7 harg7) K := by
    simp only [cc4_kernel_eq_skeleton]; unfold cc4_kernel_skel
    simp only [k4_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [read_writes_unit_zero_last _ _ hz2, readAt_unread_unit_zero harg1 hz2, readAt_unread_unit_zero harg2 hz2, readAt_unread_unit_zero harg3 hz2]; rfl
    isplitl [H4]
    · iexists _; isplitr
      swap; · iexact H4
      ipureintro
      rw [View.read_writes_eq_canon _ _ _ (cover4_4 _ _)]
      sl_unfold_words
      simp only [View.readCov_unit_zero (S := S1x64) _ hz2, readAt_unread_unit_zero harg1 hz2, readAt_unread_unit_zero harg2 hz2, readAt_unread_unit_zero harg3 hz2,
        readAt_unread_unit_zero harg6 hz2, readAt_unread_unit_zero harg7 hz2]
      rfl
    isplitl [HS0]
    · iexists _; isplitr
      swap; · iexact HS0
      ipureintro
      sl_unfold_words
      rw [read_writes_unit_zero_last _ _ hz2, readAt_unread_unit_zero harg1 hz2, readAt_unread_unit_zero harg2 hz2, readAt_unread_unit_zero harg3 hz2,
        readAt_unread_unit_zero harg6 hz2]; rfl
    iexists _; isplitr
    swap; · iexact HS1
    ipureintro
    sl_unfold_words
    rw [read_writes_unit_zero_last _ _ hz2, readAt_unread_unit_zero harg1 hz2, readAt_unread_unit_zero harg2 hz2, readAt_unread_unit_zero harg3 hz2,
      readAt_unread_unit_zero harg7 hz2]; rfl

end Cert.KernelIdeal.Regions

end
-- ==== Proof.KI.Region4.lean ====
import proofs.«167917_j22402549416514_2_alg».proof.Proof.KI.Region4Cases

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 4: the running sums, the proof data and the body obligation -/

/-- THE ACCUMULATION. The two running sums after the body at point `n`: the column sums of the blocks `x · wᵀ + b` stored at
    points `0 … n` and the column sums of their squares, each added block by block in point order onto the zero row. -/
def sums4 (c : Dev nD) : (n : ℕ) → n < cfg4.N → Vec F S1x64 .f32 × Vec F S1x64 .f32
  | 0, hn => (acc4_0 (iblk4 V c 0 ⟨0, hn⟩) (iblk4 V c 1 ⟨0, hn⟩) (iblk4 V c 2 ⟨0, hn⟩) zero4_0, acc4_1 (iblk4 V c 0 ⟨0, hn⟩) (iblk4 V c 1 ⟨0, hn⟩) (iblk4 V c 2 ⟨0, hn⟩) zero4_1)
  | n + 1, hn => (acc4_0 (iblk4 V c 0 ⟨n + 1, hn⟩) (iblk4 V c 1 ⟨n + 1, hn⟩) (iblk4 V c 2 ⟨n + 1, hn⟩) (sums4 c n (Nat.lt_of_succ_lt hn)).1,
      acc4_1 (iblk4 V c 0 ⟨n + 1, hn⟩) (iblk4 V c 1 ⟨n + 1, hn⟩) (iblk4 V c 2 ⟨n + 1, hn⟩) (sums4 c n (Nat.lt_of_succ_lt hn)).2)

/-- At the first point: the zero rows plus the first block's sums. -/
theorem sums4_first (c : Dev nD) (t : Fin cfg4.N) (h0 : t.val = 0) :
    sums4 V c t.val t.isLt = (acc4_0 (iblk4 V c 0 t) (iblk4 V c 1 t) (iblk4 V c 2 t) zero4_0, acc4_1 (iblk4 V c 0 t) (iblk4 V c 1 t) (iblk4 V c 2 t) zero4_1) := by
  obtain ⟨n, hn⟩ := t
  cases n with
  | zero => rfl
  | succ n => exact absurd h0 (Nat.succ_ne_zero n)

/-- At a later point: the sums after the point before plus this block's. -/
theorem sums4_later (c : Dev nD) (t : Fin cfg4.N) (h0 : ¬t.val = 0) :
    sums4 V c t.val t.isLt = (acc4_0 (iblk4 V c 0 t) (iblk4 V c 1 t) (iblk4 V c 2 t) (sums4 V c (t.val - 1) (Nat.lt_of_le_of_lt (Nat.sub_le _ _) t.isLt)).1,
      acc4_1 (iblk4 V c 0 t) (iblk4 V c 1 t) (iblk4 V c 2 t) (sums4 V c (t.val - 1) (Nat.lt_of_le_of_lt (Nat.sub_le _ _) t.isLt)).2) := by
  obtain ⟨n, hn⟩ := t
  cases n with
  | zero => exact absurd rfl h0
  | succ n => rfl

/-- What the two output blocks and the two accumulators hold after the body at point `n`: the block of rows `x · wᵀ + b` of
    the point's inputs; the statistics of the running sums (stored at the last point only: at any other point nothing reads this
    component, the window being idle and not written back); the two running sums. -/
def outsAt4 (c : Dev nD) (n : ℕ) (hn : n < cfg4.N) : Vec F S2000x64 .f32 × Vec F S2x64 .f32 × Vec F S1x64 .f32 × Vec F S1x64 .f32 :=
  (lin4 (iblk4 V c 0 ⟨n, hn⟩) (iblk4 V c 1 ⟨n, hn⟩) (iblk4 V c 2 ⟨n, hn⟩), stats4 (sums4 V c n hn).1 (sums4 V c n hn).2, (sums4 V c n hn).1, (sums4 V c n hn).2)

/-- `outsAt4` at the first point. -/
theorem outsAt4_A (c : Dev nD) (t : Fin cfg4.N) (h0 : t.val = 0) :
    outsAt4 V c t.val t.isLt = (lin4 (iblk4 V c 0 t) (iblk4 V c 1 t) (iblk4 V c 2 t),
      stats4 (acc4_0 (iblk4 V c 0 t) (iblk4 V c 1 t) (iblk4 V c 2 t) zero4_0) (acc4_1 (iblk4 V c 0 t) (iblk4 V c 1 t) (iblk4 V c 2 t) zero4_1),
      acc4_0 (iblk4 V c 0 t) (iblk4 V c 1 t) (iblk4 V c 2 t) zero4_0, acc4_1 (iblk4 V c 0 t) (iblk4 V c 1 t) (iblk4 V c 2 t) zero4_1) := by
  unfold outsAt4; rw [sums4_first V c t h0]

/-- `outsAt4` at a middle point, over what the point before left in the accumulators. -/
theorem outsAt4_B (c : Dev nD) (t : Fin cfg4.N) (h0 : ¬t.val = 0) (h1 : ¬t.val = 19) :
    outsAt4 V c t.val t.isLt = (lin4 (iblk4 V c 0 t) (iblk4 V c 1 t) (iblk4 V c 2 t),
      stats4 (acc4_0 (iblk4 V c 0 t) (iblk4 V c 1 t) (iblk4 V c 2 t) (outsAt4 V c (t.val - 1) (Nat.lt_of_le_of_lt (Nat.sub_le _ _) t.isLt)).2.2.1)
        (acc4_1 (iblk4 V c 0 t) (iblk4 V c 1 t) (iblk4 V c 2 t) (outsAt4 V c (t.val - 1) (Nat.lt_of_le_of_lt (Nat.sub_le _ _) t.isLt)).2.2.2),
      acc4_0 (iblk4 V c 0 t) (iblk4 V c 1 t) (iblk4 V c 2 t) (outsAt4 V c (t.val - 1) (Nat.lt_of_le_of_lt (Nat.sub_le _ _) t.isLt)).2.2.1,
      acc4_1 (iblk4 V c 0 t) (iblk4 V c 1 t) (iblk4 V c 2 t) (outsAt4 V c (t.val - 1) (Nat.lt_of_le_of_lt (Nat.sub_le _ _) t.isLt)).2.2.2) := by
  unfold outsAt4; rw [sums4_later V c t h0]

/-- `outsAt4` at the last point, over what the point before left in the accumulators: the same equation, the statistics now
    being what the body stores. -/
theorem outsAt4_C (c : Dev nD) (t : Fin cfg4.N) (h0 : ¬t.val = 0) (h1 : t.val = 19) :
    outsAt4 V c t.val t.isLt = (lin4 (iblk4 V c 0 t) (iblk4 V c 1 t) (iblk4 V c 2 t),
      stats4 (acc4_0 (iblk4 V c 0 t) (iblk4 V c 1 t) (iblk4 V c 2 t) (outsAt4 V c (t.val - 1) (Nat.lt_of_le_of_lt (Nat.sub_le _ _) t.isLt)).2.2.1)
        (acc4_1 (iblk4 V c 0 t) (iblk4 V c 1 t) (iblk4 V c 2 t) (outsAt4 V c (t.val - 1) (Nat.lt_of_le_of_lt (Nat.sub_le _ _) t.isLt)).2.2.2),
      acc4_0 (iblk4 V c 0 t) (iblk4 V c 1 t) (iblk4 V c 2 t) (outsAt4 V c (t.val - 1) (Nat.lt_of_le_of_lt (Nat.sub_le _ _) t.isLt)).2.2.1,
      acc4_1 (iblk4 V c 0 t) (iblk4 V c 1 t) (iblk4 V c 2 t) (outsAt4 V c (t.val - 1) (Nat.lt_of_le_of_lt (Nat.sub_le _ _) t.isLt)).2.2.2) := by
  unfold outsAt4; rw [sums4_later V c t h0]

/-- The region's invariant before position `n`: before the first point what the region is entered with; afterwards the same
    with the two accumulators owned at the running sums the point before left. -/
def PhiS4 (c : Dev nD) : (n : ℕ) → n ≤ cfg4.N → sProp 𝕄
  | 0, _ => Pipeline.ΦA spec4 c
  | n + 1, hn => iprop(iprop(iprop(owns (c : Thread nD τ) scM4_0 fullShare (sums4 V c n hn).1 ∗ owns (c : Thread nD τ) scM4_1 fullShare (sums4 V c n hn).2)
      ∗ Pipeline.scopedRestBut spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (sums4 V c n hn).1 ∗ owns (c : Thread nD τ) scM4_1 fullShare (sums4 V c n hn).2)
      ∗ Pipeline.scopedRestBut spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (sums4 V c (n - 1) (by omega)).1
        ∗ owns (c : Thread nD τ) scM4_1 fullShare (sums4 V c (n - 1) (by omega)).2)
      ∗ Pipeline.scopedRestBut spec4 c [cc4_scratch0, cc4_scratch1]) ∗ (∃ r, prngReg c r)) := by
  cases n with
  | zero => exact absurd rfl hz
  | succ n => rfl

/-- The region's proof data: the arrays as the region finds them; after the body each input's buffer at its block, the block
    of rows at `x · wᵀ + b`, the statistics at those of the running sums; the invariant `PhiS4`; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2.1 := by dsimp only [dat4]
/-- The same two, in closed form. -/
theorem after4_3_eq (c : Dev nD) (t : Fin cfg4.N) : (dat4 V c).after 3 t = lin4 (iblk4 V c 0 t) (iblk4 V c 1 t) (iblk4 V c 2 t) := by dsimp only [dat4, outsAt4]
theorem after4_4_eq (c : Dev nD) (t : Fin cfg4.N) : (dat4 V c).after 4 t = stats4 (sums4 V c t.val t.isLt).1 (sums4 V c t.val t.isLt).2 := by dsimp only [dat4, outsAt4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at any point. The inputs' buffers hold their blocks; the closed forms of the two conditions say which of the three
    cases the point is in; the invariant hands the body the accumulators at the running sums the point before left (at anything
    at the first point) and takes them back at this point's; the statistics window is handed back untouched before the last point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3_eq]
  by_cases h0 : t.val = 0
  · have h1 : ¬t.val = 19 := by omega
    rw [Dat.leavesExact_idle (dat4 V c) 4 t (idleAt4_4 t (fun h => h1 ((hcond4_1 t).mp h))) (noFlush4_4 t (fun h => h1 ((hcond4_1 t).mp h)))]
    rw [sums4_first V c t h0]; dsimp only
    rw [PhiS4_castSucc V c t, PhiS4_zero V c _ _ h0, PhiA4_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply (sound_kernel4_A c Set.univ (grid4.coords t) _ _ _ _ _ _ _ _ _ _ _ _ _ _ ((hcond4_0 t).mpr h0) (fun h => h1 ((hcond4_1 t).mp h))
      (iblk4 V c 0 t) (iblk4 V c 1 t) (iblk4 V c 2 t) _ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    iexists _; iexact H4
  · by_cases h1 : t.val = 19
    · rw [show (dat4 V c).leavesExact 4 t = owns (c : Thread nD τ) (ms4_4 t) fullShare ((dat4 V c).after 4 t) from by
        unfold Dat.leavesExact; rw [liveAt4_4 t ((hcond4_1 t).mpr h1)], after4_4_eq]
      rw [sums4_later V c t h0]; dsimp only
      rw [PhiS4_castSucc V c t, PhiS4_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (sound_kernel4_C c Set.univ (grid4.coords t) _ _ _ _ _ _ _ _ _ _ _ _ _ _ (fun h => h0 ((hcond4_0 t).mp h)) ((hcond4_1 t).mpr h1)
        (iblk4 V c 0 t) (iblk4 V c 1 t) (iblk4 V c 2 t) _ _ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dat4 V c) 4 t (idleAt4_4 t (fun h => h1 ((hcond4_1 t).mp h))) (noFlush4_4 t (fun h => h1 ((hcond4_1 t).mp h)))]
      rw [sums4_later V c t h0]; dsimp only
      rw [PhiS4_castSucc V c t, PhiS4_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (sound_kernel4_B c Set.univ (grid4.coords t) _ _ _ _ _ _ _ _ _ _ _ _ _ _ (fun h => h0 ((hcond4_0 t).mp h)) (fun h => h1 ((hcond4_1 t).mp h))
        (iblk4 V c 0 t) (iblk4 V c 1 t) (iblk4 V c 2 t) _ _ _ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point the invariant gives back what the region was entered with: the accumulators' contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

/-- The same after the last point. -/
theorem hout4 (c : Dev nD) : (dat4 V c).Φ (Fin.last cfg4.N) ⊢ Pipeline.ΦA spec4 c :=
  Phi_out4 V c _ (by rw [Fin.val_last]; have : cfg4.N = 20 := N_4; omega)

end Cert.KernelIdeal.Regions

end
-- ==== Proof.KI.Region5.lean ====
import proofs.«167917_j22402549416514_2_alg».proof.Proof.Gen.KernelIdeal.Launch
import proofs.«167917_j22402549416514_2_alg».proof.Proof.Gen.KernelIdeal.Skeleton
import proofs.«167917_j22402549416514_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The normalisation region 5: each 5000-row block of the linear layer's output is shifted by the batch mean, scaled by
    the reciprocal root of (batch variance + eps), by the gain, shifted by the bias and passed through the leaky rectifier.
    The block of rows is window 0; the [2, 64] statistics, the gain and the bias are windows 1 to 3, the same block at every
    point; window 4 is the output block. -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, whether the point fetches it or not. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, whether the point fetches it or not. -/
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, whether the point fetches it or not. -/
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, whether the point fetches it or not. -/
theorem before5_3_of {c : Dev nD} (dat : Dat τ (Elt F) Unit ℕ (Pipeline.UD sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

abbrev r5_rows : Rect S5000x64 := Rect.unit (s := S5000x64) ![0, 0] S5000x64.size inb_S5000x64_S5000x64_0_0
abbrev r5_mean : Rect S2x64 := Rect.unit (s := S2x64) ![0, 0] S1x64.size inb_S2x64_S1x64_0_0
abbrev r5_var : Rect S2x64 := Rect.unit (s := S2x64) ![1, 0] S1x64.size inb_S2x64_S1x64_1_0
abbrev r5_row : Rect S1x64 := Rect.unit (s := S1x64) ![0, 0] S1x64.size inb_S1x64_S1x64_0_0

/-- The output block after the body: its one store, the normalised and rectified rows, over the four input blocks. -/
def out5_4 (x0 : Vec F S5000x64 .f32) (x1 : Vec F S2x64 .f32) (x2 : Vec F S1x64 .f32) (x3 : Vec F S1x64 .f32) : Vec F S5000x64 .f32 :=
  View.canon [⟨r5_rows, k5_pay1 (View.ld x1 r5_mean) (View.ld x1 r5_var) (View.ld x0 r5_rows) (View.ld x2 r5_row) (View.ld x3 r5_row)⟩]

/-- The one store is the whole block, so it covers it. -/
theorem cover5_4 (p0 : Vec F S5000x64 .f32) (y : S5000x64.Idx) :
    ∃ pc ∈ ([⟨r5_rows, p0⟩] : List (View.Piece (Elt F) S5000x64 .f32)), y ∈ pc.1.set :=
  View.cover_of_tiled [⟨r5_rows, p0⟩] S5000x64.size (by rfl) y

set_option maxHeartbeats 1000000 in
/-- The body on whole staging buffers: the four inputs are left as read, the output holds `out5_4` of them. -/
theorem sound_kernel5 (c : Dev nD) (E : Set ℕ) (i : grid5.Coords)
    (arg1 : Memref sig .tc .vmem S5000x64 .f32) (harg1 : arg1.IsWhole) (arg2 : Memref sig .tc .vmem S2x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S5000x64 .f32) (harg5 : arg5.IsWhole)
    (x0 : Vec F S5000x64 .f32) (x1 : Vec F S2x64 .f32) (x2 : Vec F S1x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5_kernel i arg1 harg1 arg2 harg2 arg3 harg3 arg4 harg4 arg5 harg5) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-- The region's proof data: the arrays as the region finds them; after the body each input's buffer at its block and the
    output's at `out5_4` of the input blocks; the scoped rest and the generator register pass through untouched. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' buffers hold their blocks, so `sound_kernel5` applies. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Regions

end
-- ==== Proof.KI.Region6Runs.lean ====
import proofs.«167917_j22402549416514_2_alg».proof.Proof.Gen.KernelIdeal.Launch
import proofs.«167917_j22402549416514_2_alg».proof.Proof.Gen.KernelIdeal.Skeleton
import proofs.«167917_j22402549416514_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«167917_j22402549416514_2_alg».proof.Proof.KI.Region2Runs

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 6, a linear layer with batch statistics (the same kernel as region 2, on its own arrays): what its three control cases share.

    Each grid point takes a block of 5000 rows `x` (window 0), the weight `w` (window 1) and the bias row `b` (window 2),
    the same two at every point, and stores the block `x · wᵀ + b` (window 3). Two accumulators of one row each are carried
    from point to point: the column sums of the blocks stored so far and the column sums of their squares. They are set to
    zero at the first point, and at the last point the [2, 64] statistics (window 4) are stored from them: row 0 the mean
    (sum / 40000), row 1 the variance (sum of squares / 40000 − mean²). At every other point window 4 is left untouched. -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, whether the point fetches it or not. -/
theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, whether the point fetches it or not. -/
theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, whether the point fetches it or not. -/
theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The two conditions, in closed form over the grid -/

/-- "This is the first point": the condition under which both accumulators are set to zero. -/
abbrev cond6_0 (i : grid6.Coords) : Prop := (Scalar.cmpi .ne (Scalar.extui (Scalar.cmpi .eq (BitVec.ofNat 32 (i 0).val) 0#32)) 0#32) = 1#1
/-- It holds at point 0 only. -/
theorem hcond6_0 : ∀ t : Fin cfg6.N, cond6_0 (grid6.coords t) ↔ t.val = 0 :=
  (by decide +kernel : ∀ t : Fin grid6.N, cond6_0 (grid6.coords t) ↔ t.val = 0)

/-- "This is the last point": the condition under which the statistics are stored. -/
abbrev cond6_1 (i : grid6.Coords) : Prop := k6_cond2 i = 1#1
/-- It holds at point 7 only. -/
theorem hcond6_1 : ∀ t : Fin cfg6.N, cond6_1 (grid6.coords t) ↔ t.val = 7 :=
  (by decide +kernel : ∀ t : Fin grid6.N, cond6_1 (grid6.coords t) ↔ t.val = 7)

/-! ## Where the windows are idle -/

/-- The inputs and the block of rows are never idle. -/
theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
/-- Before the last point the statistics window is idle: nothing is stored into it, -/
theorem idleAt6_4 : ∀ t : Fin cfg6.N, ¬cond6_1 (grid6.coords t) → cfg6.idle 4 (grid6.coords t) = true := by decide +kernel
/-- and it is not written back. -/
theorem noFlush6_4 : ∀ t : Fin cfg6.N, ¬cond6_1 (grid6.coords t) → (cfg6.win 4).flush t = false := by decide +kernel
/-- At the last point it is live. -/
theorem liveAt6_4 : ∀ t : Fin cfg6.N, cond6_1 (grid6.coords t) → cfg6.idle 4 (grid6.coords t) = false := by decide +kernel

/-! ## The memrefs the body is called with -/

abbrev ms6_0 (t : Fin cfg6.N) : Memref sig .tc .vmem S5000x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S64x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x64 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S5000x64 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S2x64 .f32 := win6_4.stage (cfg6.slots t 4)
abbrev hs6_4 (t : Fin cfg6.N) : (ms6_4 t).IsWhole := hstage6_4 ((cfg6.slots t 4).cast nbuf6_4)
/-- The two accumulators: whole buffers of the kernel's own, passed beside the windows. -/
abbrev scM6_0 : Memref sig .tc .vmem S1x64 .f32 := Memref.whole cc6_scratch0
abbrev scM6_1 : Memref sig .tc .vmem S1x64 .f32 := Memref.whole cc6_scratch1

/-- What the region is entered with, opened at the two accumulators: each owned whole at some contents, the remainder of
    the scoped buffers unopened, and the generator register at some state. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut spec6 c [cc6_scratch0, cc6_scratch1]) ∗ (∃ r, prngReg c r)) := by
  unfold Pipeline.ΦA; rw [scopedRest6_split]; simp only [scM6_0, scM6_1, owns_whole]; try rfl

/-! ## What the body computes, in closed form -/

/-- The block of rows the body stores: `x · wᵀ + b`. -/
def lin6 (x0 : Vec F S5000x64 .f32) (x1 : Vec F S64x64 .f32) (x2 : Vec F S1x64 .f32) : Vec F S5000x64 .f32 := k6_pay3 x0 x1 x2
/-- The first accumulator after a point: what it held plus the column sums of the point's block. -/
def acc6_0 (x0 : Vec F S5000x64 .f32) (x1 : Vec F S64x64 .f32) (x2 : Vec F S1x64 .f32) (s : Vec F S1x64 .f32) : Vec F S1x64 .f32 := k6_pay6 x0 x1 x2 s
/-- The second accumulator after a point: what it held plus the column sums of the squares of the point's block. -/
def acc6_1 (x0 : Vec F S5000x64 .f32) (x1 : Vec F S64x64 .f32) (x2 : Vec F S1x64 .f32) (s : Vec F S1x64 .f32) : Vec F S1x64 .f32 := k6_pay7 x0 x1 x2 s
/-- The zero row each accumulator starts from. -/
def zero6_0 : Vec F S1x64 .f32 := k6_pay4 (F := F)
def zero6_1 : Vec F S1x64 .f32 := k6_pay5 (F := F)

/-- Row 0 and row 1 of the statistics. -/
abbrev r6_mean : Rect S2x64 := Rect.unit (s := S2x64) ![0, 0] S1x64.size inb_S2x64_S1x64_0_0
abbrev r6_var : Rect S2x64 := Rect.unit (s := S2x64) ![1, 0] S1x64.size inb_S2x64_S1x64_1_0

/-- The statistics of the sums `s0` (of the entries) and `s1` (of their squares): row 0 the mean `s0 / 40000`, row 1 the
    variance `s1 / 40000 − mean²`. -/
def stats6 (s0 s1 : Vec F S1x64 .f32) : Vec F S2x64 .f32 :=
  View.canon [⟨r6_var, k6_pay2 s0 s1⟩, ⟨r6_mean, k6_pay1 s0⟩]

/-- The two rows cover the statistics. -/
theorem cover6_4 (p1 p0 : Vec F S1x64 .f32) (y : S2x64.Idx) :
    ∃ pc ∈ ([⟨r6_var, p1⟩, ⟨r6_mean, p0⟩] : List (View.Piece (Elt F) S2x64 .f32)), y ∈ pc.1.set :=
  View.cover_of_tiled [⟨r6_var, p1⟩, ⟨r6_mean, p0⟩] S1x64.size (by rfl) y

end Cert.KernelIdeal.Regions

end
-- ==== Proof.KI.Region6Cases.lean ====
import proofs.«167917_j22402549416514_2_alg».proof.Proof.KI.Region6Runs

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 6: the body's run in each of its three control cases

    The body on whole memrefs, once per case of its two conditions — the first point (both accumulators are set to zero first),
    a middle point, the last point (the statistics are stored from the final sums). Each is stated with what every buffer is left
    holding in closed form (`lin6`, `acc6_0`, `acc6_1`, `stats6`). -/

set_option maxHeartbeats 1000000 in
/-- THE FIRST POINT. On whole memrefs — the three inputs at their blocks, the block of rows and both accumulators at anything, the
    statistics at contents handed back untouched — the body leaves the block of rows at `x · wᵀ + b` and each accumulator at
    zero plus this block's column sums (of the entries, of their squares). -/
theorem sound_kernel6_A (c : Dev nD) (E : Set ℕ) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S2x64 .f32) (harg5 : arg5.IsWhole) (arg6 : Memref sig .tc .vmem S1x64 .f32) (harg6 : arg6.IsWhole) (arg7 : Memref sig .tc .vmem S1x64 .f32) (harg7 : arg7.IsWhole) (hc0 : cond6_0 i) (hc1 : ¬cond6_1 i)
    (x0 : Vec F S5000x64 .f32) (x1 : Vec F S64x64 .f32) (x2 : Vec F S1x64 .f32) (xi4 : Vec F S2x64 .f32) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare (lin6 x0 x1 x2)
                ∗ owns (c : Thread nD τ) arg5 fullShare xi4
                ∗ owns (c : Thread nD τ) arg6 fullShare (acc6_0 x0 x1 x2 zero6_0)
                ∗ owns (c : Thread nD τ) arg7 fullShare (acc6_1 x0 x1 x2 zero6_1)) -∗ K ⟨⟩))
          ⊢ wp frame (wpE (defs₀ (F := F)) Variants.none c none) E (cc6_kernel i arg1 harg1 arg2 harg2 arg3 harg3 arg4 harg4 arg5 harg5 arg6 harg6 arg7 harg7) K := by
    simp only [cc6_kernel_eq_skeleton]; unfold cc6_kernel_skel
    simp only [k6_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [read_writes_unit_zero_last _ _ hz2, readAt_unread_unit_zero harg1 hz2, readAt_unread_unit_zero harg2 hz2, readAt_unread_unit_zero harg3 hz2]; rfl
    isplitl [H4]
    · iexists _; isplitr; · ipureintro; exact harg5.read_unread _
      iexact H4
    isplitl [HS0]
    · iexists _; isplitr
      swap; · iexact HS0
      ipureintro
      rw [read_writes_unit_zero_last _ _ hz2, readAt_unread_unit_zero harg1 hz2, readAt_unread_unit_zero harg2 hz2, readAt_unread_unit_zero harg3 hz2]
      sl_unfold_words
      rw [View.readCov_unit_zero (S := S1x64) _ hz2]; rfl
    iexists _; isplitr
    swap; · iexact HS1
    ipureintro
    rw [read_writes_unit_zero_last _ _ hz2, readAt_unread_unit_zero harg1 hz2, readAt_unread_unit_zero harg2 hz2, readAt_unread_unit_zero harg3 hz2]
    sl_unfold_words
    rw [View.readCov_unit_zero (S := S1x64) _ hz2]; rfl

set_option maxHeartbeats 1000000 in
/-- A MIDDLE POINT. On whole memrefs — the three inputs at their blocks, the block of rows at anything, the statistics at
    contents handed back untouched, the accumulators at what the point before left (`xs0`, `xs1`) — the body leaves the block of
    rows at `x · wᵀ + b` and each accumulator at what it held plus this block's column sums (of the entries, of their squares). -/
theorem sound_kernel6_B (c : Dev nD) (E : Set ℕ) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S2x64 .f32) (harg5 : arg5.IsWhole) (arg6 : Memref sig .tc .vmem S1x64 .f32) (harg6 : arg6.IsWhole) (arg7 : Memref sig .tc .vmem S1x64 .f32) (harg7 : arg7.IsWhole) (hc0 : ¬cond6_0 i) (hc1 : ¬cond6_1 i)
    (x0 : Vec F S5000x64 .f32) (x1 : Vec F S64x64 .f32) (x2 : Vec F S1x64 .f32) (xi4 : Vec F S2x64 .f32)
    (xs0 xs1 : Vec F S1x64 .f32) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare (lin6 x0 x1 x2)
                ∗ owns (c : Thread nD τ) arg5 fullShare xi4
                ∗ owns (c : Thread nD τ) arg6 fullShare (acc6_0 x0 x1 x2 xs0)
                ∗ owns (c : Thread nD τ) arg7 fullShare (acc6_1 x0 x1 x2 xs1)) -∗ K ⟨⟩))
          ⊢ wp frame (wpE (defs₀ (F := F)) Variants.none c none) E (cc6_kernel i arg1 harg1 arg2 harg2 arg3 harg3 arg4 harg4 arg5 harg5 arg6 harg6 arg7 harg7) K := by
    simp only [cc6_kernel_eq_skeleton]; unfold cc6_kernel_skel
    simp only [k6_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hf4
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [read_writes_unit_zero_last _ _ hz2, readAt_unread_unit_zero harg1 hz2, readAt_unread_unit_zero harg2 hz2, readAt_unread_unit_zero harg3 hz2]; rfl
    isplitl [H4]
    · iexists _; isplitr; · ipureintro; exact harg5.read_unread _
      iexact H4
    isplitl [HS0]
    · iexists _; isplitr
      swap; · iexact HS0
      ipureintro
      rw [read_writes_unit_zero_last _ _ hz2, readAt_unread_unit_zero harg1 hz2, readAt_unread_unit_zero harg2 hz2, readAt_unread_unit_zero harg3 hz2,
        readAt_unread_unit_zero harg6 hz2]; rfl
    iexists _; isplitr
    swap; · iexact HS1
    ipureintro
    rw [read_writes_unit_zero_last _ _ hz2, readAt_unread_unit_zero harg1 hz2, readAt_unread_unit_zero harg2 hz2, readAt_unread_unit_zero harg3 hz2,
      readAt_unread_unit_zero harg7 hz2]; rfl

set_option maxHeartbeats 1000000 in
/-- THE LAST POINT. On whole memrefs — the three inputs at their blocks, the block of rows and the statistics at anything, the
    accumulators at what the point before left (`xs0`, `xs1`) — the body leaves the block of rows at `x · wᵀ + b`, each
    accumulator at what it held plus this block's column sums, and the statistics at the mean and variance of those final sums. -/
theorem sound_kernel6_C (c : Dev nD) (E : Set ℕ) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S2x64 .f32) (harg5 : arg5.IsWhole) (arg6 : Memref sig .tc .vmem S1x64 .f32) (harg6 : arg6.IsWhole) (arg7 : Memref sig .tc .vmem S1x64 .f32) (harg7 : arg7.IsWhole) (hc0 : ¬cond6_0 i) (hc1 : cond6_1 i)
    (x0 : Vec F S5000x64 .f32) (x1 : Vec F S64x64 .f32) (x2 : Vec F S1x64 .f32)
    (xs0 xs1 : Vec F S1x64 .f32) (K : PUnit → sProp 𝕄) :
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2
                ∗ owns (c : Thread nD τ) arg4 fullShare (lin6 x0 x1 x2)
                ∗ owns (c : Thread nD τ) arg5 fullShare (stats6 (acc6_0 x0 x1 x2 xs0) (acc6_1 x0 x1 x2 xs1))
                ∗ owns (c : Thread nD τ) arg6 fullShare (acc6_0 x0 x1 x2 xs0)
                ∗ owns (c : Thread nD τ) arg7 fullShare (acc6_1 x0 x1 x2 xs1)) -∗ K ⟨⟩))
          ⊢ wp frame (wpE (defs₀ (F := F)) Variants.none c none) E (cc6_kernel i arg1 harg1 arg2 harg2 arg3 harg3 arg4 harg4 arg5 harg5 arg6 harg6 arg7 harg7) K := by
    simp only [cc6_kernel_eq_skeleton]; unfold cc6_kernel_skel
    simp only [k6_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [read_writes_unit_zero_last _ _ hz2, readAt_unread_unit_zero harg1 hz2, readAt_unread_unit_zero harg2 hz2, readAt_unread_unit_zero harg3 hz2]; rfl
    isplitl [H4]
    · iexists _; isplitr
      swap; · iexact H4
      ipureintro
      rw [View.read_writes_eq_canon _ _ _ (cover6_4 _ _)]
      sl_unfold_words
      simp only [View.readCov_unit_zero (S := S1x64) _ hz2, readAt_unread_unit_zero harg1 hz2, readAt_unread_unit_zero harg2 hz2, readAt_unread_unit_zero harg3 hz2,
        readAt_unread_unit_zero harg6 hz2, readAt_unread_unit_zero harg7 hz2]
      rfl
    isplitl [HS0]
    · iexists _; isplitr
      swap; · iexact HS0
      ipureintro
      sl_unfold_words
      rw [read_writes_unit_zero_last _ _ hz2, readAt_unread_unit_zero harg1 hz2, readAt_unread_unit_zero harg2 hz2, readAt_unread_unit_zero harg3 hz2,
        readAt_unread_unit_zero harg6 hz2]; rfl
    iexists _; isplitr
    swap; · iexact HS1
    ipureintro
    sl_unfold_words
    rw [read_writes_unit_zero_last _ _ hz2, readAt_unread_unit_zero harg1 hz2, readAt_unread_unit_zero harg2 hz2, readAt_unread_unit_zero harg3 hz2,
      readAt_unread_unit_zero harg7 hz2]; rfl

end Cert.KernelIdeal.Regions

end
-- ==== Proof.KI.Region6.lean ====
import proofs.«167917_j22402549416514_2_alg».proof.Proof.KI.Region6Cases

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 6: the running sums, the proof data and the body obligation -/

/-- THE ACCUMULATION. The two running sums after the body at point `n`: the column sums of the blocks `x · wᵀ + b` stored at
    points `0 … n` and the column sums of their squares, each added block by block in point order onto the zero row. -/
def sums6 (c : Dev nD) : (n : ℕ) → n < cfg6.N → Vec F S1x64 .f32 × Vec F S1x64 .f32
  | 0, hn => (acc6_0 (iblk6 V c 0 ⟨0, hn⟩) (iblk6 V c 1 ⟨0, hn⟩) (iblk6 V c 2 ⟨0, hn⟩) zero6_0, acc6_1 (iblk6 V c 0 ⟨0, hn⟩) (iblk6 V c 1 ⟨0, hn⟩) (iblk6 V c 2 ⟨0, hn⟩) zero6_1)
  | n + 1, hn => (acc6_0 (iblk6 V c 0 ⟨n + 1, hn⟩) (iblk6 V c 1 ⟨n + 1, hn⟩) (iblk6 V c 2 ⟨n + 1, hn⟩) (sums6 c n (Nat.lt_of_succ_lt hn)).1,
      acc6_1 (iblk6 V c 0 ⟨n + 1, hn⟩) (iblk6 V c 1 ⟨n + 1, hn⟩) (iblk6 V c 2 ⟨n + 1, hn⟩) (sums6 c n (Nat.lt_of_succ_lt hn)).2)

/-- At the first point: the zero rows plus the first block's sums. -/
theorem sums6_first (c : Dev nD) (t : Fin cfg6.N) (h0 : t.val = 0) :
    sums6 V c t.val t.isLt = (acc6_0 (iblk6 V c 0 t) (iblk6 V c 1 t) (iblk6 V c 2 t) zero6_0, acc6_1 (iblk6 V c 0 t) (iblk6 V c 1 t) (iblk6 V c 2 t) zero6_1) := by
  obtain ⟨n, hn⟩ := t
  cases n with
  | zero => rfl
  | succ n => exact absurd h0 (Nat.succ_ne_zero n)

/-- At a later point: the sums after the point before plus this block's. -/
theorem sums6_later (c : Dev nD) (t : Fin cfg6.N) (h0 : ¬t.val = 0) :
    sums6 V c t.val t.isLt = (acc6_0 (iblk6 V c 0 t) (iblk6 V c 1 t) (iblk6 V c 2 t) (sums6 V c (t.val - 1) (Nat.lt_of_le_of_lt (Nat.sub_le _ _) t.isLt)).1,
      acc6_1 (iblk6 V c 0 t) (iblk6 V c 1 t) (iblk6 V c 2 t) (sums6 V c (t.val - 1) (Nat.lt_of_le_of_lt (Nat.sub_le _ _) t.isLt)).2) := by
  obtain ⟨n, hn⟩ := t
  cases n with
  | zero => exact absurd rfl h0
  | succ n => rfl

/-- What the two output blocks and the two accumulators hold after the body at point `n`: the block of rows `x · wᵀ + b` of
    the point's inputs; the statistics of the running sums (stored at the last point only: at any other point nothing reads this
    component, the window being idle and not written back); the two running sums. -/
def outsAt6 (c : Dev nD) (n : ℕ) (hn : n < cfg6.N) : Vec F S5000x64 .f32 × Vec F S2x64 .f32 × Vec F S1x64 .f32 × Vec F S1x64 .f32 :=
  (lin6 (iblk6 V c 0 ⟨n, hn⟩) (iblk6 V c 1 ⟨n, hn⟩) (iblk6 V c 2 ⟨n, hn⟩), stats6 (sums6 V c n hn).1 (sums6 V c n hn).2, (sums6 V c n hn).1, (sums6 V c n hn).2)

/-- `outsAt6` at the first point. -/
theorem outsAt6_A (c : Dev nD) (t : Fin cfg6.N) (h0 : t.val = 0) :
    outsAt6 V c t.val t.isLt = (lin6 (iblk6 V c 0 t) (iblk6 V c 1 t) (iblk6 V c 2 t),
      stats6 (acc6_0 (iblk6 V c 0 t) (iblk6 V c 1 t) (iblk6 V c 2 t) zero6_0) (acc6_1 (iblk6 V c 0 t) (iblk6 V c 1 t) (iblk6 V c 2 t) zero6_1),
      acc6_0 (iblk6 V c 0 t) (iblk6 V c 1 t) (iblk6 V c 2 t) zero6_0, acc6_1 (iblk6 V c 0 t) (iblk6 V c 1 t) (iblk6 V c 2 t) zero6_1) := by
  unfold outsAt6; rw [sums6_first V c t h0]

/-- `outsAt6` at a middle point, over what the point before left in the accumulators. -/
theorem outsAt6_B (c : Dev nD) (t : Fin cfg6.N) (h0 : ¬t.val = 0) (h1 : ¬t.val = 7) :
    outsAt6 V c t.val t.isLt = (lin6 (iblk6 V c 0 t) (iblk6 V c 1 t) (iblk6 V c 2 t),
      stats6 (acc6_0 (iblk6 V c 0 t) (iblk6 V c 1 t) (iblk6 V c 2 t) (outsAt6 V c (t.val - 1) (Nat.lt_of_le_of_lt (Nat.sub_le _ _) t.isLt)).2.2.1)
        (acc6_1 (iblk6 V c 0 t) (iblk6 V c 1 t) (iblk6 V c 2 t) (outsAt6 V c (t.val - 1) (Nat.lt_of_le_of_lt (Nat.sub_le _ _) t.isLt)).2.2.2),
      acc6_0 (iblk6 V c 0 t) (iblk6 V c 1 t) (iblk6 V c 2 t) (outsAt6 V c (t.val - 1) (Nat.lt_of_le_of_lt (Nat.sub_le _ _) t.isLt)).2.2.1,
      acc6_1 (iblk6 V c 0 t) (iblk6 V c 1 t) (iblk6 V c 2 t) (outsAt6 V c (t.val - 1) (Nat.lt_of_le_of_lt (Nat.sub_le _ _) t.isLt)).2.2.2) := by
  unfold outsAt6; rw [sums6_later V c t h0]

/-- `outsAt6` at the last point, over what the point before left in the accumulators: the same equation, the statistics now
    being what the body stores. -/
theorem outsAt6_C (c : Dev nD) (t : Fin cfg6.N) (h0 : ¬t.val = 0) (h1 : t.val = 7) :
    outsAt6 V c t.val t.isLt = (lin6 (iblk6 V c 0 t) (iblk6 V c 1 t) (iblk6 V c 2 t),
      stats6 (acc6_0 (iblk6 V c 0 t) (iblk6 V c 1 t) (iblk6 V c 2 t) (outsAt6 V c (t.val - 1) (Nat.lt_of_le_of_lt (Nat.sub_le _ _) t.isLt)).2.2.1)
        (acc6_1 (iblk6 V c 0 t) (iblk6 V c 1 t) (iblk6 V c 2 t) (outsAt6 V c (t.val - 1) (Nat.lt_of_le_of_lt (Nat.sub_le _ _) t.isLt)).2.2.2),
      acc6_0 (iblk6 V c 0 t) (iblk6 V c 1 t) (iblk6 V c 2 t) (outsAt6 V c (t.val - 1) (Nat.lt_of_le_of_lt (Nat.sub_le _ _) t.isLt)).2.2.1,
      acc6_1 (iblk6 V c 0 t) (iblk6 V c 1 t) (iblk6 V c 2 t) (outsAt6 V c (t.val - 1) (Nat.lt_of_le_of_lt (Nat.sub_le _ _) t.isLt)).2.2.2) := by
  unfold outsAt6; rw [sums6_later V c t h0]

/-- The region's invariant before position `n`: before the first point what the region is entered with; afterwards the same
    with the two accumulators owned at the running sums the point before left. -/
def PhiS6 (c : Dev nD) : (n : ℕ) → n ≤ cfg6.N → sProp 𝕄
  | 0, _ => Pipeline.ΦA spec6 c
  | n + 1, hn => iprop(iprop(iprop(owns (c : Thread nD τ) scM6_0 fullShare (sums6 V c n hn).1 ∗ owns (c : Thread nD τ) scM6_1 fullShare (sums6 V c n hn).2)
      ∗ Pipeline.scopedRestBut spec6 c [cc6_scratch0, cc6_scratch1]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (sums6 V c n hn).1 ∗ owns (c : Thread nD τ) scM6_1 fullShare (sums6 V c n hn).2)
      ∗ Pipeline.scopedRestBut spec6 c [cc6_scratch0, cc6_scratch1]) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (sums6 V c (n - 1) (by omega)).1
        ∗ owns (c : Thread nD τ) scM6_1 fullShare (sums6 V c (n - 1) (by omega)).2)
      ∗ Pipeline.scopedRestBut spec6 c [cc6_scratch0, cc6_scratch1]) ∗ (∃ r, prngReg c r)) := by
  cases n with
  | zero => exact absurd rfl hz
  | succ n => rfl

/-- The region's proof data: the arrays as the region finds them; after the body each input's buffer at its block, the block
    of rows at `x · wᵀ + b`, the statistics at those of the running sums; the invariant `PhiS6`; nothing owed; full shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
    | ⟨4, _⟩ => (outsAt6 V c t.val t.isLt).2.1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]
theorem after6_4 (c : Dev nD) (t : Fin cfg6.N) : (dat6 V c).after 4 t = (outsAt6 V c t.val t.isLt).2.1 := by dsimp only [dat6]
/-- The same two, in closed form. -/
theorem after6_3_eq (c : Dev nD) (t : Fin cfg6.N) : (dat6 V c).after 3 t = lin6 (iblk6 V c 0 t) (iblk6 V c 1 t) (iblk6 V c 2 t) := by dsimp only [dat6, outsAt6]
theorem after6_4_eq (c : Dev nD) (t : Fin cfg6.N) : (dat6 V c).after 4 t = stats6 (sums6 V c t.val t.isLt).1 (sums6 V c t.val t.isLt).2 := by dsimp only [dat6, outsAt6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

set_option maxHeartbeats 4800000 in
/-- The body at any point. The inputs' buffers hold their blocks; the closed forms of the two conditions say which of the three
    cases the point is in; the invariant hands the body the accumulators at the running sums the point before left (at anything
    at the first point) and takes them back at this point's; the statistics window is handed back untouched before the last point. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  have hN : t.val < 8 := lt_of_lt_of_eq t.isLt (show cfg6.N = 8 from N_6)
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3_eq]
  by_cases h0 : t.val = 0
  · have h1 : ¬t.val = 7 := by omega
    rw [Dat.leavesExact_idle (dat6 V c) 4 t (idleAt6_4 t (fun h => h1 ((hcond6_1 t).mp h))) (noFlush6_4 t (fun h => h1 ((hcond6_1 t).mp h)))]
    rw [sums6_first V c t h0]; dsimp only
    rw [PhiS6_castSucc V c t, PhiS6_zero V c _ _ h0, PhiA6_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply (sound_kernel6_A c Set.univ (grid6.coords t) _ _ _ _ _ _ _ _ _ _ _ _ _ _ ((hcond6_0 t).mpr h0) (fun h => h1 ((hcond6_1 t).mp h))
      (iblk6 V c 0 t) (iblk6 V c 1 t) (iblk6 V c 2 t) _ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, H3, H4, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    iexists _; iexact H4
  · by_cases h1 : t.val = 7
    · rw [show (dat6 V c).leavesExact 4 t = owns (c : Thread nD τ) (ms6_4 t) fullShare ((dat6 V c).after 4 t) from by
        unfold Dat.leavesExact; rw [liveAt6_4 t ((hcond6_1 t).mpr h1)], after6_4_eq]
      rw [sums6_later V c t h0]; dsimp only
      rw [PhiS6_castSucc V c t, PhiS6_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (sound_kernel6_C c Set.univ (grid6.coords t) _ _ _ _ _ _ _ _ _ _ _ _ _ _ (fun h => h0 ((hcond6_0 t).mp h)) ((hcond6_1 t).mpr h1)
        (iblk6 V c 0 t) (iblk6 V c 1 t) (iblk6 V c 2 t) _ _ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dat6 V c) 4 t (idleAt6_4 t (fun h => h1 ((hcond6_1 t).mp h))) (noFlush6_4 t (fun h => h1 ((hcond6_1 t).mp h)))]
      rw [sums6_later V c t h0]; dsimp only
      rw [PhiS6_castSucc V c t, PhiS6_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply (sound_kernel6_B c Set.univ (grid6.coords t) _ _ _ _ _ _ _ _ _ _ _ _ _ _ (fun h => h0 ((hcond6_0 t).mp h)) (fun h => h1 ((hcond6_1 t).mp h))
        (iblk6 V c 0 t) (iblk6 V c 1 t) (iblk6 V c 2 t) _ _ _ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, H3, H4, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the region is entered with is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point the invariant gives back what the region was entered with: the accumulators' contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

/-- The same after the last point. -/
theorem hout6 (c : Dev nD) : (dat6 V c).Φ (Fin.last cfg6.N) ⊢ Pipeline.ΦA spec6 c :=
  Phi_out6 V c _ (by rw [Fin.val_last]; have : cfg6.N = 8 := N_6; omega)

end Cert.KernelIdeal.Regions

end
-- ==== Proof.KI.Region7.lean ====
import proofs.«167917_j22402549416514_2_alg».proof.Proof.Gen.KernelIdeal.Launch
import proofs.«167917_j22402549416514_2_alg».proof.Proof.Gen.KernelIdeal.Skeleton
import proofs.«167917_j22402549416514_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The normalisation region 7 with a residual: each 5000-row block of the linear layer's output is shifted by the batch mean,
    scaled by the reciprocal root of (batch variance + eps), by the gain, shifted by the bias, passed through the leaky rectifier,
    and the same rows of the residual are added.
    The block of rows is window 0; the [2, 64] statistics, the gain and the bias are windows 1 to 3, the same block at every
    point; window 4 is the block of rows of the residual; window 5 is the output block. -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, whether the point fetches it or not. -/
theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, whether the point fetches it or not. -/
theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, whether the point fetches it or not. -/
theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every point, whether the point fetches it or not. -/
theorem before7_3_of {c : Dev nD} (dat : Dat τ (Elt F) Unit ℕ (Pipeline.UD sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds its block at every point, whether the point fetches it or not. -/
theorem before7_4_of {c : Dev nD} (dat : Dat τ (Elt F) Unit ℕ (Pipeline.UD sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

abbrev r7_rows : Rect S5000x64 := Rect.unit (s := S5000x64) ![0, 0] S5000x64.size inb_S5000x64_S5000x64_0_0
abbrev r7_mean : Rect S2x64 := Rect.unit (s := S2x64) ![0, 0] S1x64.size inb_S2x64_S1x64_0_0
abbrev r7_var : Rect S2x64 := Rect.unit (s := S2x64) ![1, 0] S1x64.size inb_S2x64_S1x64_1_0
abbrev r7_row : Rect S1x64 := Rect.unit (s := S1x64) ![0, 0] S1x64.size inb_S1x64_S1x64_0_0

/-- The output block after the body: its one store, the normalised and rectified rows plus the residual rows, over the five input blocks. -/
def out7_5 (x0 : Vec F S5000x64 .f32) (x1 : Vec F S2x64 .f32) (x2 : Vec F S1x64 .f32) (x3 : Vec F S1x64 .f32) (x4 : Vec F S5000x64 .f32) : Vec F S5000x64 .f32 :=
  View.canon [⟨r7_rows, k7_pay1 (View.ld x1 r7_mean) (View.ld x1 r7_var) (View.ld x0 r7_rows) (View.ld x2 r7_row) (View.ld x3 r7_row) (View.ld x4 r7_rows)⟩]

/-- The one store is the whole block, so it covers it. -/
theorem cover7_5 (p0 : Vec F S5000x64 .f32) (y : S5000x64.Idx) :
    ∃ pc ∈ ([⟨r7_rows, p0⟩] : List (View.Piece (Elt F) S5000x64 .f32)), y ∈ pc.1.set :=
  View.cover_of_tiled [⟨r7_rows, p0⟩] S5000x64.size (by rfl) y

set_option maxHeartbeats 1000000 in
/-- The body on whole staging buffers: the five inputs are left as read, the output holds `out7_5` of them. -/
theorem sound_kernel7 (c : Dev nD) (E : Set ℕ) (i : grid7.Coords)
    (arg1 : Memref sig .tc .vmem S5000x64 .f32) (harg1 : arg1.IsWhole) (arg2 : Memref sig .tc .vmem S2x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S5000x64 .f32) (harg5 : arg5.IsWhole) (arg6 : Memref sig .tc .vmem S5000x64 .f32) (harg6 : arg6.IsWhole)
    (x0 : Vec F S5000x64 .f32) (x1 : Vec F S2x64 .f32) (x2 : Vec F S1x64 .f32) (x3 : Vec F S1x64 .f32) (x4 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out7_5 x0 x1 x2 x3 x4)) -∗ K ⟨⟩))
      ⊢ wp frame (wpE (defs₀ (F := F)) Variants.none c none) E (cc7_kernel i arg1 harg1 arg2 harg2 arg3 harg3 arg4 harg4 arg5 harg5 arg6 harg6) K := by
  simp only [cc7_kernel_eq_skeleton]; unfold cc7_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-- The region's proof data: the arrays as the region finds them; after the body each input's buffer at its block and the
    output's at `out7_5` of the input blocks; the scoped rest and the generator register pass through untouched. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' buffers hold their blocks, so `sound_kernel7` applies. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ (grid7.coords t) _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Regions

end
-- ==== Proof.KI.Region8.lean ====
import proofs.«167917_j22402549416514_2_alg».proof.Proof.Gen.KernelIdeal.Launch
import proofs.«167917_j22402549416514_2_alg».proof.Proof.Gen.KernelIdeal.Skeleton
import proofs.«167917_j22402549416514_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The gating region 8: each 5000-row block of the features is multiplied by the transposed 64 x 64 weight, the bias row is
    added, the logistic function applied, and the result multiplies the same rows of the item embedding.
    Window 0 is the block of feature rows, window 1 the weight, window 2 the bias row (the same block at every point),
    window 3 the block of embedding rows, window 4 the output block. -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, whether the point fetches it or not. -/
theorem before8_0_of {c : Dev nD} (dat : Dat τ (Elt F) Unit ℕ (Pipeline.UD sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every point, whether the point fetches it or not. -/
theorem before8_1_of {c : Dev nD} (dat : Dat τ (Elt F) Unit ℕ (Pipeline.UD sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds its block at every point, whether the point fetches it or not. -/
theorem before8_2_of {c : Dev nD} (dat : Dat τ (Elt F) Unit ℕ (Pipeline.UD sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer holds its block at every point, whether the point fetches it or not. -/
theorem before8_3_of {c : Dev nD} (dat : Dat τ (Elt F) Unit ℕ (Pipeline.UD sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

abbrev r8_rows : Rect S5000x64 := Rect.unit (s := S5000x64) ![0, 0] S5000x64.size inb_S5000x64_S5000x64_0_0
abbrev r8_w : Rect S64x64 := Rect.unit (s := S64x64) ![0, 0] S64x64.size inb_S64x64_S64x64_0_0
abbrev r8_row : Rect S1x64 := Rect.unit (s := S1x64) ![0, 0] S1x64.size inb_S1x64_S1x64_0_0

/-- The output block after the body: its one store, the gated embedding rows, over the four input blocks. -/
def out8_4 (x0 : Vec F S5000x64 .f32) (x1 : Vec F S64x64 .f32) (x2 : Vec F S1x64 .f32) (x3 : Vec F S5000x64 .f32) : Vec F S5000x64 .f32 :=
  View.canon [⟨r8_rows, k8_pay1 (View.ld x0 r8_rows) (View.ld x1 r8_w) (View.ld x2 r8_row) (View.ld x3 r8_rows)⟩]

/-- The one store is the whole block, so it covers it. -/
theorem cover8_4 (p0 : Vec F S5000x64 .f32) (y : S5000x64.Idx) :
    ∃ pc ∈ ([⟨r8_rows, p0⟩] : List (View.Piece (Elt F) S5000x64 .f32)), y ∈ pc.1.set :=
  View.cover_of_tiled [⟨r8_rows, p0⟩] S5000x64.size (by rfl) y

set_option maxHeartbeats 1000000 in
/-- The body on whole staging buffers: the four inputs are left as read, the output holds `out8_4` of them. -/
theorem sound_kernel8 (c : Dev nD) (E : Set ℕ) (i : grid8.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (arg5 : Memref sig .tc .vmem S5000x64 .f32) (harg5 : arg5.IsWhole)
    (x0 : Vec F S5000x64 .f32) (x1 : Vec F S64x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out8_4 x0 x1 x2 x3)) -∗ K ⟨⟩))
      ⊢ wp frame (wpE (defs₀ (F := F)) Variants.none c none) E (cc8_kernel i arg1 harg1 arg2 harg2 arg3 harg3 arg4 harg4 arg5 harg5) K := by
  simp only [cc8_kernel_eq_skeleton]; unfold cc8_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8_4 _)

/-- The region's proof data: the arrays as the region finds them; after the body each input's buffer at its block and the
    output's at `out8_4` of the input blocks; the scoped rest and the generator register pass through untouched. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = out8_4 (iblk8 V c 0 t) (iblk8 V c 1 t) (iblk8 V c 2 t) (iblk8 V c 3 t) := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

/-- The body at any point: the inputs' buffers hold their blocks, so `sound_kernel8` applies. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ (grid8.coords t) _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Regions

end
-- ==== Proof.KI.Region9.lean ====
import proofs.«167917_j22402549416514_2_alg».proof.Proof.Gen.KernelIdeal.Launch
import proofs.«167917_j22402549416514_2_alg».proof.Proof.Gen.KernelIdeal.Skeleton
import proofs.«167917_j22402549416514_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The gating region 9: each 5000-row block of the features is multiplied by the transposed 64 x 64 weight, the bias row is
    added, the logistic function applied, and the result multiplies the same rows of the item embedding.
    Window 0 is the block of feature rows, window 1 the weight, window 2 the bias row (the same block at every point),
    window 3 the block of embedding rows, window 4 the output block. -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block at every point, whether the point fetches it or not. -/
theorem before9_0_of {c : Dev nD} (dat : Dat τ (Elt F) Unit ℕ (Pipeline.UD sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds its block at every point, whether the point fetches it or not. -/
theorem before9_1_of {c : Dev nD} (dat : Dat τ (Elt F) Unit ℕ (Pipeline.UD sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's staging buffer holds its block at every point, whether the point fetches it or not. -/
theorem before9_2_of {c : Dev nD} (dat : Dat τ (Elt F) Unit ℕ (Pipeline.UD sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's staging buffer holds its block at every point, whether the point fetches it or not. -/
theorem before9_3_of {c : Dev nD} (dat : Dat τ (Elt F) Unit ℕ (Pipeline.UD sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

abbrev r9_rows : Rect S5000x64 := Rect.unit (s := S5000x64) ![0, 0] S5000x64.size inb_S5000x64_S5000x64_0_0
abbrev r9_w : Rect S64x64 := Rect.unit (s := S64x64) ![0, 0] S64x64.size inb_S64x64_S64x64_0_0
abbrev r9_row : Rect S1x64 := Rect.unit (s := S1x64) ![0, 0] S1x64.size inb_S1x64_S1x64_0_0

/-- The output block after the body: its one store, the gated embedding rows, over the four input blocks. -/
def out9_4 (x0 : Vec F S5000x64 .f32) (x1 : Vec F S64x64 .f32) (x2 : Vec F S1x64 .f32) (x3 : Vec F S5000x64 .f32) : Vec F S5000x64 .f32 :=
  View.canon [⟨r9_rows, k9_pay1 (View.ld x0 r9_rows) (View.ld x1 r9_w) (View.ld x2 r9_row) (View.ld x3 r9_rows)⟩]

/-- The one store is the whole block, so it covers it. -/
theorem cover9_4 (p0 : Vec F S5000x64 .f32) (y : S5000x64.Idx) :
    ∃ pc ∈ ([⟨r9_rows, p0⟩] : List (View.Piece (Elt F) S5000x64 .f32)), y ∈ pc.1.set :=
  View.cover_of_tiled [⟨r9_rows, p0⟩] S5000x64.size (by rfl) y

set_option maxHeartbeats 1000000 in
/-- The body on whole staging buffers: the four inputs are left as read, the output holds `out9_4` of them. -/
theorem sound_kernel9 (c : Dev nD) (E : Set ℕ) (i : grid9.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (arg5 : Memref sig .tc .vmem S5000x64 .f32) (harg5 : arg5.IsWhole)
    (x0 : Vec F S5000x64 .f32) (x1 : Vec F S64x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out9_4 x0 x1 x2 x3)) -∗ K ⟨⟩))
      ⊢ wp frame (wpE (defs₀ (F := F)) Variants.none c none) E (cc9_kernel i arg1 harg1 arg2 harg2 arg3 harg3 arg4 harg4 arg5 harg5) K := by
  simp only [cc9_kernel_eq_skeleton]; unfold cc9_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover9_4 _)

/-- The region's proof data: the arrays as the region finds them; after the body each input's buffer at its block and the
    output's at `out9_4` of the input blocks; the scoped rest and the generator register pass through untouched. -/
def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = out9_4 (iblk9 V c 0 t) (iblk9 V c 1 t) (iblk9 V c 2 t) (iblk9 V c 3 t) := by dsimp only [dat9]
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any point: the inputs' buffers hold their blocks, so `sound_kernel9` applies. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ (grid9.coords t) _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Regions

end
-- ==== Proof.KI.Region10.lean ====
import proofs.«167917_j22402549416514_2_alg».proof.Proof.Gen.KernelIdeal.Launch
import proofs.«167917_j22402549416514_2_alg».proof.Proof.Gen.KernelIdeal.Skeleton
import proofs.«167917_j22402549416514_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The fusion region 10: on each 7000-row block, the two modality tables are each multiplied by the transposed 64 x 64 weight,
    the bias row added and the leaky rectifier applied; each row's score is the sum along the row of that hidden row times the second
    weight row; the attention of the first table is the logistic function of the difference of the two scores and the second table's
    is one minus it; the output is the content rows plus the attention-weighted sum of the two tables' rows.
    Windows 0 and 1 are the blocks of rows of the two modality tables, window 2 the block of rows of the content table;
    window 3 is the weight, window 4 the bias row, window 5 the second weight row (the same block at every point);
    window 6 is the output block. -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's staging buffer holds its block at every point, whether the point fetches it or not. -/
theorem before10_0_of {c : Dev nD} (dat : Dat τ (Elt F) Unit ℕ (Pipeline.UD sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's staging buffer holds its block at every point, whether the point fetches it or not. -/
theorem before10_1_of {c : Dev nD} (dat : Dat τ (Elt F) Unit ℕ (Pipeline.UD sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's staging buffer holds its block at every point, whether the point fetches it or not. -/
theorem before10_2_of {c : Dev nD} (dat : Dat τ (Elt F) Unit ℕ (Pipeline.UD sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's staging buffer holds its block at every point, whether the point fetches it or not. -/
theorem before10_3_of {c : Dev nD} (dat : Dat τ (Elt F) Unit ℕ (Pipeline.UD sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's staging buffer holds its block at every point, whether the point fetches it or not. -/
theorem before10_4_of {c : Dev nD} (dat : Dat τ (Elt F) Unit ℕ (Pipeline.UD sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Input window 5's staging buffer holds its block at every point, whether the point fetches it or not. -/
theorem before10_5_of {c : Dev nD} (dat : Dat τ (Elt F) Unit ℕ (Pipeline.UD sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

abbrev r10_rows : Rect S7000x64 := Rect.unit (s := S7000x64) ![0, 0] S7000x64.size inb_S7000x64_S7000x64_0_0
abbrev r10_w : Rect S64x64 := Rect.unit (s := S64x64) ![0, 0] S64x64.size inb_S64x64_S64x64_0_0
abbrev r10_row : Rect S1x64 := Rect.unit (s := S1x64) ![0, 0] S1x64.size inb_S1x64_S1x64_0_0

/-- The output block after the body: its one store, the content rows plus the attention-weighted rows of the two tables,
    over the six input blocks. The first part of the body reads the two tables, the weight, the bias row and the second weight
    row and hands on the two tables' rows, one minus the attention and the attention spread along the rows. -/
def out10_6 (x0 : Vec F S7000x64 .f32) (x1 : Vec F S7000x64 .f32) (x2 : Vec F S7000x64 .f32) (x3 : Vec F S64x64 .f32) (x4 : Vec F S1x64 .f32) (x5 : Vec F S1x64 .f32) : Vec F S7000x64 .f32 :=
  View.canon [⟨r10_rows, k10_pay1 (k10_pay2 (View.ld x0 r10_rows)) (k10_pay3 (View.ld x1 r10_rows))
    (k10_pay5 (View.ld x0 r10_rows) (View.ld x1 r10_rows) (View.ld x3 r10_w) (View.ld x4 r10_row) (View.ld x5 r10_row))
    (k10_pay6 (View.ld x0 r10_rows) (View.ld x1 r10_rows) (View.ld x3 r10_w) (View.ld x4 r10_row) (View.ld x5 r10_row))
    (View.ld x2 r10_rows)⟩]

/-- The one store is the whole block, so it covers it. -/
theorem cover10_6 (p0 : Vec F S7000x64 .f32) (y : S7000x64.Idx) :
    ∃ pc ∈ ([⟨r10_rows, p0⟩] : List (View.Piece (Elt F) S7000x64 .f32)), y ∈ pc.1.set :=
  View.cover_of_tiled [⟨r10_rows, p0⟩] S7000x64.size (by rfl) y

set_option maxHeartbeats 1000000 in
/-- The body on whole staging buffers: the six inputs are left as read, the output holds `out10_6` of them. -/
theorem sound_kernel10 (c : Dev nD) (E : Set ℕ) (i : grid10.Coords)
    (arg1 : Memref sig .tc .vmem S7000x64 .f32) (harg1 : arg1.IsWhole) (arg2 : Memref sig .tc .vmem S7000x64 .f32) (harg2 : arg2.IsWhole)
    (arg3 : Memref sig .tc .vmem S7000x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S7000x64 .f32) (harg7 : arg7.IsWhole)
    (x0 : Vec F S7000x64 .f32) (x1 : Vec F S7000x64 .f32) (x2 : Vec F S7000x64 .f32) (x3 : Vec F S64x64 .f32) (x4 : Vec F S1x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out10_6 x0 x1 x2 x3 x4 x5)) -∗ K ⟨⟩))
      ⊢ wp frame (wpE (defs₀ (F := F)) Variants.none c none) E (cc10_kernel i arg1 harg1 arg2 harg2 arg3 harg3 arg4 harg4 arg5 harg5 arg6 harg6 arg7 harg7) K := by
  simp only [cc10_kernel_eq_skeleton]; unfold cc10_kernel_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover10_6 _)

/-- The region's proof data: the arrays as the region finds them; after the body each input's buffer at its block and the
    output's at `out10_6` of the input blocks; the scoped rest and the generator register pass through untouched. -/
def dat10 (c : Dev nD) : Dat τ (Elt F) Unit ℕ (Pipeline.UD sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => out10_6 (iblk10 V c 0 t) (iblk10 V c 1 t) (iblk10 V c 2 t) (iblk10 V c 3 t) (iblk10 V c 4 t) (iblk10 V c 5 t)
  Φ _ := Pipeline.ΦA spec10 c
  q _ := fullShare
  owed _ := 0

theorem A_eq10 (c : Dev nD) (w : Fin cfg10.W) : (dat10 V c).A w = V c (Pipeline.arrRef spec10 w) := by
  dsimp only [dat10]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = out10_6 (iblk10 V c 0 t) (iblk10 V c 1 t) (iblk10 V c 2 t) (iblk10 V c 3 t) (iblk10 V c 4 t) (iblk10 V c 5 t) := by dsimp only [dat10]
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t))

/-- The body at any point: the inputs' buffers hold their blocks, so `sound_kernel10` applies. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel10 c Set.univ (grid10.coords t) _ _ _ _ _ _ _ _ _ _ _ _ _ _ (iblk10 V c 0 t) (iblk10 V c 1 t) (iblk10 V c 2 t) (iblk10 V c 3 t) (iblk10 V c 4 t) (iblk10 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Regions

end
-- ==== Proof.KI.Bounds.lean ====
import proofs.«167917_j22402549416514_2_alg».proof.Proof.KI.Region0
import proofs.«167917_j22402549416514_2_alg».proof.Proof.KI.Region1
import proofs.«167917_j22402549416514_2_alg».proof.Proof.KI.Region2
import proofs.«167917_j22402549416514_2_alg».proof.Proof.KI.Region3
import proofs.«167917_j22402549416514_2_alg».proof.Proof.KI.Region4
import proofs.«167917_j22402549416514_2_alg».proof.Proof.KI.Region5
import proofs.«167917_j22402549416514_2_alg».proof.Proof.KI.Region6
import proofs.«167917_j22402549416514_2_alg».proof.Proof.KI.Region7
import proofs.«167917_j22402549416514_2_alg».proof.Proof.KI.Region8
import proofs.«167917_j22402549416514_2_alg».proof.Proof.KI.Region9
import proofs.«167917_j22402549416514_2_alg».proof.Proof.KI.Region10
import Idealize.ShloMosaic.Lib.StableHlo.Run

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # The run: the program is eleven stretches of host operations, each followed by one kernel region.
    The buffer contents at every boundary are named: E K at region K's entry (the stretch before it applied to what the
    region before left), X K at its exit (its arrays at what its write-backs leave, every other buffer as entered). -/

/-- The program's argument arrays. -/
def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31, main_arg32, main_arg33, main_arg34, main_arg35, main_arg36, main_arg37, main_arg38]

/-- Core c's buffers at launch. -/
abbrev W0 : Dev nD → Valuation τ sig (Elt F) := fun c b => (s₀ m ρ).mem ((c : Dev nD), b)

/-! ## Stretch 0 and region 0 -/

/-- No operation of stretch 0 allocates a buffer. -/
theorem hostOps0_fresh : (hostOps0 : List (HloOp τ sig (Elt F))).Forall fun op => op.fresh = ∅ := by
  simp only [List.Forall]; repeat' constructor

/-- No operation of stretch 0 writes an argument array. -/
theorem hostOps0_args : ∀ op ∈ (hostOps0 : List (HloOp τ sig (Elt F))), ∀ b ∈ argRefs, (Proc.devRef .tc b : DevRef τ sig) ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (by revert b; decide)))

/-- The contents at region 0's entry. -/
abbrev E0 : Dev nD → Valuation τ sig (Elt F) := fun c => StableHlo.after hostOps0 (W0 m ρ c)
abbrev VE0 : (c : Dev nD) → (b : Ref sig .tc) → Buf (Elt F) ((c : Thread nD τ).loc b) := fun c b => E0 m ρ c b
/-- The contents at region 0's exit. -/
def X0 (c : Dev nD) : Valuation τ sig (Elt F) :=
  Pipeline.withArrays spec0 c (E0 m ρ c) fun w => (dat0 (VE0 m ρ) c).arrAt w cfg0.N
theorem X0_arr (c : Dev nD) (w : Fin cfg0.W) :
    X0 m ρ c (Proc.devRef .tc (Pipeline.arrRef spec0 w)) = (dat0 (VE0 m ρ) c).arrAt w cfg0.N := by
  unfold X0; exact Pipeline.withArrays_arr spec0 launch0.win.arr_inj c _ _ w
theorem X0_of_ne (c : Dev nD) (b : Ref sig .tc) (hb : ∀ w, Pipeline.arrRef spec0 w ≠ b) :
    X0 m ρ c (Proc.devRef .tc b) = E0 m ρ c (Proc.devRef .tc b) := by
  unfold X0; exact Pipeline.withArrays_of_ne spec0 c _ _ b hb
abbrev VX0 : (c : Dev nD) → (b : Ref sig .tc) → Buf (Elt F) ((c : Thread nD τ).loc b) := fun c b => X0 m ρ c b
theorem hF0 (c : Dev nD) (w : Fin cfg0.W) : (dat0 (VE0 m ρ) c).arrAt w cfg0.N = VX0 m ρ c (Pipeline.arrRef spec0 w) :=
  (X0_arr m ρ c w).symm
theorem hrest0 (c : Dev nD) : ∀ b, b ∉ Finset.univ.image (Pipeline.arrRef spec0) → VX0 m ρ c b = VE0 m ρ c b :=
  fun b hb => X0_of_ne m ρ c b fun w e => hb (Finset.mem_image.mpr ⟨w, Finset.mem_univ _, e⟩)
/-- A buffer that is no output array of region 0 leaves the region as it entered it. -/
theorem X0_keep (c : Dev nD) (b : Ref sig .tc) (hb : ∀ w : Fin cfg0.W, Pipeline.arrRef spec0 w = b → (cfg0.win w).isOut = false) :
    X0 m ρ c (Proc.devRef .tc b) = E0 m ρ c (Proc.devRef .tc b) := by
  by_cases h : ∃ w, Pipeline.arrRef spec0 w = b
  · obtain ⟨w, rfl⟩ := h
    exact (X0_arr m ρ c w).trans (((dat0 (VE0 m ρ) c).arrAt_in w (hb w rfl) _).trans (A_eq0 (VE0 m ρ) c w))
  · exact X0_of_ne m ρ c b fun w e => h ⟨w, e⟩
/-- The argument arrays pass stretch 0 and region 0 unchanged. -/
theorem keepE0 (c : Dev nD) : ∀ b ∈ argRefs, E0 m ρ c (Proc.devRef .tc b) = W0 m ρ c (Proc.devRef .tc b) := fun b hb =>
  StableHlo.after_of_forall_not_mem _ _ fun op hop => hostOps0_args op hop b hb
theorem keepX0 (c : Dev nD) : ∀ b ∈ argRefs, X0 m ρ c (Proc.devRef .tc b) = E0 m ρ c (Proc.devRef .tc b) := fun b hb =>
  X0_keep m ρ c b (by revert b; decide)

/-! ## Stretch 1 and region 1 -/

/-- No operation of stretch 1 allocates a buffer. -/
theorem hostOps1_fresh : (hostOps1 : List (HloOp τ sig (Elt F))).Forall fun op => op.fresh = ∅ := by
  simp only [List.Forall]; repeat' constructor

/-- No operation of stretch 1 writes an argument array. -/
theorem hostOps1_args : ∀ op ∈ (hostOps1 : List (HloOp τ sig (Elt F))), ∀ b ∈ argRefs, (Proc.devRef .tc b : DevRef τ sig) ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (by revert b; decide)))

/-- The contents at region 1's entry. -/
abbrev E1 : Dev nD → Valuation τ sig (Elt F) := fun c => StableHlo.after hostOps1 (X0 m ρ c)
abbrev VE1 : (c : Dev nD) → (b : Ref sig .tc) → Buf (Elt F) ((c : Thread nD τ).loc b) := fun c b => E1 m ρ c b
/-- The contents at region 1's exit. -/
def X1 (c : Dev nD) : Valuation τ sig (Elt F) :=
  Pipeline.withArrays spec1 c (E1 m ρ c) fun w => (dat1 (VE1 m ρ) c).arrAt w cfg1.N
theorem X1_arr (c : Dev nD) (w : Fin cfg1.W) :
    X1 m ρ c (Proc.devRef .tc (Pipeline.arrRef spec1 w)) = (dat1 (VE1 m ρ) c).arrAt w cfg1.N := by
  unfold X1; exact Pipeline.withArrays_arr spec1 launch1.win.arr_inj c _ _ w
theorem X1_of_ne (c : Dev nD) (b : Ref sig .tc) (hb : ∀ w, Pipeline.arrRef spec1 w ≠ b) :
    X1 m ρ c (Proc.devRef .tc b) = E1 m ρ c (Proc.devRef .tc b) := by
  unfold X1; exact Pipeline.withArrays_of_ne spec1 c _ _ b hb
abbrev VX1 : (c : Dev nD) → (b : Ref sig .tc) → Buf (Elt F) ((c : Thread nD τ).loc b) := fun c b => X1 m ρ c b
theorem hF1 (c : Dev nD) (w : Fin cfg1.W) : (dat1 (VE1 m ρ) c).arrAt w cfg1.N = VX1 m ρ c (Pipeline.arrRef spec1 w) :=
  (X1_arr m ρ c w).symm
theorem hrest1 (c : Dev nD) : ∀ b, b ∉ Finset.univ.image (Pipeline.arrRef spec1) → VX1 m ρ c b = VE1 m ρ c b :=
  fun b hb => X1_of_ne m ρ c b fun w e => hb (Finset.mem_image.mpr ⟨w, Finset.mem_univ _, e⟩)
/-- A buffer that is no output array of region 1 leaves the region as it entered it. -/
theorem X1_keep (c : Dev nD) (b : Ref sig .tc) (hb : ∀ w : Fin cfg1.W, Pipeline.arrRef spec1 w = b → (cfg1.win w).isOut = false) :
    X1 m ρ c (Proc.devRef .tc b) = E1 m ρ c (Proc.devRef .tc b) := by
  by_cases h : ∃ w, Pipeline.arrRef spec1 w = b
  · obtain ⟨w, rfl⟩ := h
    exact (X1_arr m ρ c w).trans (((dat1 (VE1 m ρ) c).arrAt_in w (hb w rfl) _).trans (A_eq1 (VE1 m ρ) c w))
  · exact X1_of_ne m ρ c b fun w e => h ⟨w, e⟩
/-- The argument arrays pass stretch 1 and region 1 unchanged. -/
theorem keepE1 (c : Dev nD) : ∀ b ∈ argRefs, E1 m ρ c (Proc.devRef .tc b) = X0 m ρ c (Proc.devRef .tc b) := fun b hb =>
  StableHlo.after_of_forall_not_mem _ _ fun op hop => hostOps1_args op hop b hb
theorem keepX1 (c : Dev nD) : ∀ b ∈ argRefs, X1 m ρ c (Proc.devRef .tc b) = E1 m ρ c (Proc.devRef .tc b) := fun b hb =>
  X1_keep m ρ c b (by revert b; decide)

/-! ## Stretch 2 and region 2 -/

/-- No operation of stretch 2 allocates a buffer. -/
theorem hostOps2_fresh : (hostOps2 : List (HloOp τ sig (Elt F))).Forall fun op => op.fresh = ∅ := by
  simp only [List.Forall]; repeat' constructor

/-- No operation of stretch 2 writes an argument array. -/
theorem hostOps2_args : ∀ op ∈ (hostOps2 : List (HloOp τ sig (Elt F))), ∀ b ∈ argRefs, (Proc.devRef .tc b : DevRef τ sig) ∉ op.writes :=
  List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (by revert b; decide)))

/-- The contents at region 2's entry. -/
abbrev E2 : Dev nD → Valuation τ sig (Elt F) := fun c => StableHlo.after hostOps2 (X1 m ρ c)
abbrev VE2 : (c : Dev nD) → (b : Ref sig .tc) → Buf (Elt F) ((c : Thread nD τ).loc b) := fun c b => E2 m ρ c b
/-- The contents at region 2's exit. -/
def X2 (c : Dev nD) : Valuation τ sig (Elt F) :=
  Pipeline.withArrays spec2 c (E2 m ρ c) fun w => (dat2 (VE2 m ρ) c).arrAt w cfg2.N
theorem X2_arr (c : Dev nD) (w : Fin cfg2.W) :
    X2 m ρ c (Proc.devRef .tc (Pipeline.arrRef spec2 w)) = (dat2 (VE2 m ρ) c).arrAt w cfg2.N := by
  unfold X2; exact Pipeline.withArrays_arr spec2 launch2.win.arr_inj c _ _ w
theorem X2_of_ne (c : Dev nD) (b : Ref sig .tc) (hb : ∀ w, Pipeline.arrRef spec2 w ≠ b) :
    X2 m ρ c (Proc.devRef .tc b) = E2 m ρ c (Proc.devRef .tc b) := by
  unfold X2; exact Pipeline.withArrays_of_ne spec2 c _ _ b hb
abbrev VX2 : (c : Dev nD) → (b : Ref sig .tc) → Buf (Elt F) ((c : Thread nD τ).loc b) := fun c b => X2 m ρ c b
theorem hF2 (c : Dev nD) (w : Fin cfg2.W) : (dat2 (VE2 m ρ) c).arrAt w cfg2.N = VX2 m ρ c (Pipeline.arrRef spec2 w) :=
  (X2_arr m ρ c w).symm
theorem hrest2 (c : Dev nD) : ∀ b, b ∉ Finset.univ.image (Pipeline.arrRef spec2) → VX2 m ρ c b = VE2 m ρ c b :=
  fun b hb => X2_of_ne m ρ c b fun w e => hb (Finset.mem_image.mpr ⟨w, Finset.mem_univ _, e⟩)
/-- A buffer that is no output array of region 2 leaves the region as it entered it. -/
theorem X2_keep (c : Dev nD) (b : Ref sig .tc) (hb : ∀ w : Fin cfg2.W, Pipeline.arrRef spec2 w = b → (cfg2.win w).isOut = false) :
    X2 m ρ c (Proc.devRef .tc b) = E2 m ρ c (Proc.devRef .tc b) := by
  by_cases h : ∃ w, Pipeline.arrRef spec2 w = b
  · obtain ⟨w, rfl⟩ := h
    exact (X2_arr m ρ c w).trans (((dat2 (VE2 m ρ) c).arrAt_in w (hb w rfl) _).trans (A_eq2 (VE2 m ρ) c w))
  · exact X2_of_ne m ρ c b fun w e => h ⟨w, e⟩
/-- The argument arrays pass stretch 2 and region 2 unchanged. -/
theorem keepE2 (c : Dev nD) : ∀ b ∈ argRefs, E2 m ρ c (Proc.devRef .tc b) = X1 m ρ c (Proc.devRef .tc b) := fun b hb =>
  StableHlo.after_of_forall_not_mem _ _ fun op hop => hostOps2_args op hop b hb
theorem keepX2 (c : Dev nD) : ∀ b ∈ argRefs, X2 m ρ c (Proc.devRef .tc b) = E2 m ρ c (Proc.devRef .tc b) := fun b hb =>
  X2_keep m ρ c b (by revert b; decide)

/-! ## Stretch 3 and region 3 -/

/-- No operation of stretch 3 allocates a buffer. -/
theorem hostOps3_fresh : (hostOps3 : List (HloOp τ sig (Elt F))).Forall fun op => op.fresh = ∅ := by
  simp only [List.Forall]; repeat' constructor

/-- No operation of stretch 3 writes an argument array. -/
theorem hostOps3_args : ∀ op ∈ (hostOps3 : List (HloOp τ sig (Elt F))), ∀ b ∈ argRefs, (Proc.devRef .tc b : DevRef τ sig) ∉ op.writes :=
  List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (by revert b; decide)))

/-- The contents at region 3's entry. -/
abbrev E3 : Dev nD → Valuation τ sig (Elt F) := fun c => StableHlo.after hostOps3 (X2 m ρ c)
abbrev VE3 : (c : Dev nD) → (b : Ref sig .tc) → Buf (Elt F) ((c : Thread nD τ).loc b) := fun c b => E3 m ρ c b
/-- The contents at region 3's exit. -/
def X3 (c : Dev nD) : Valuation τ sig (Elt F) :=
  Pipeline.withArrays spec3 c (E3 m ρ c) fun w => (dat3 (VE3 m ρ) c).arrAt w cfg3.N
theorem X3_arr (c : Dev nD) (w : Fin cfg3.W) :
    X3 m ρ c (Proc.devRef .tc (Pipeline.arrRef spec3 w)) = (dat3 (VE3 m ρ) c).arrAt w cfg3.N := by
  unfold X3; exact Pipeline.withArrays_arr spec3 launch3.win.arr_inj c _ _ w
theorem X3_of_ne (c : Dev nD) (b : Ref sig .tc) (hb : ∀ w, Pipeline.arrRef spec3 w ≠ b) :
    X3 m ρ c (Proc.devRef .tc b) = E3 m ρ c (Proc.devRef .tc b) := by
  unfold X3; exact Pipeline.withArrays_of_ne spec3 c _ _ b hb
abbrev VX3 : (c : Dev nD) → (b : Ref sig .tc) → Buf (Elt F) ((c : Thread nD τ).loc b) := fun c b => X3 m ρ c b
theorem hF3 (c : Dev nD) (w : Fin cfg3.W) : (dat3 (VE3 m ρ) c).arrAt w cfg3.N = VX3 m ρ c (Pipeline.arrRef spec3 w) :=
  (X3_arr m ρ c w).symm
theorem hrest3 (c : Dev nD) : ∀ b, b ∉ Finset.univ.image (Pipeline.arrRef spec3) → VX3 m ρ c b = VE3 m ρ c b :=
  fun b hb => X3_of_ne m ρ c b fun w e => hb (Finset.mem_image.mpr ⟨w, Finset.mem_univ _, e⟩)
/-- A buffer that is no output array of region 3 leaves the region as it entered it. -/
theorem X3_keep (c : Dev nD) (b : Ref sig .tc) (hb : ∀ w : Fin cfg3.W, Pipeline.arrRef spec3 w = b → (cfg3.win w).isOut = false) :
    X3 m ρ c (Proc.devRef .tc b) = E3 m ρ c (Proc.devRef .tc b) := by
  by_cases h : ∃ w, Pipeline.arrRef spec3 w = b
  · obtain ⟨w, rfl⟩ := h
    exact (X3_arr m ρ c w).trans (((dat3 (VE3 m ρ) c).arrAt_in w (hb w rfl) _).trans (A_eq3 (VE3 m ρ) c w))
  · exact X3_of_ne m ρ c b fun w e => h ⟨w, e⟩
/-- The argument arrays pass stretch 3 and region 3 unchanged. -/
theorem keepE3 (c : Dev nD) : ∀ b ∈ argRefs, E3 m ρ c (Proc.devRef .tc b) = X2 m ρ c (Proc.devRef .tc b) := fun b hb =>
  StableHlo.after_of_forall_not_mem _ _ fun op hop => hostOps3_args op hop b hb
theorem keepX3 (c : Dev nD) : ∀ b ∈ argRefs, X3 m ρ c (Proc.devRef .tc b) = E3 m ρ c (Proc.devRef .tc b) := fun b hb =>
  X3_keep m ρ c b (by revert b; decide)

/-! ## Stretch 4 and region 4 -/

/-- No operation of stretch 4 allocates a buffer. -/
theorem hostOps4_fresh : (hostOps4 : List (HloOp τ sig (Elt F))).Forall fun op => op.fresh = ∅ := by
  simp only [List.Forall]; repeat' constructor

/-- No operation of stretch 4 writes an argument array. -/
theorem hostOps4_args : ∀ op ∈ (hostOps4 : List (HloOp τ sig (Elt F))), ∀ b ∈ argRefs, (Proc.devRef .tc b : DevRef τ sig) ∉ op.writes :=
  List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (by revert b; decide)))

/-- The contents at region 4's entry. -/
abbrev E4 : Dev nD → Valuation τ sig (Elt F) := fun c => StableHlo.after hostOps4 (X3 m ρ c)
abbrev VE4 : (c : Dev nD) → (b : Ref sig .tc) → Buf (Elt F) ((c : Thread nD τ).loc b) := fun c b => E4 m ρ c b
/-- The contents at region 4's exit. -/
def X4 (c : Dev nD) : Valuation τ sig (Elt F) :=
  Pipeline.withArrays spec4 c (E4 m ρ c) fun w => (dat4 (VE4 m ρ) c).arrAt w cfg4.N
theorem X4_arr (c : Dev nD) (w : Fin cfg4.W) :
    X4 m ρ c (Proc.devRef .tc (Pipeline.arrRef spec4 w)) = (dat4 (VE4 m ρ) c).arrAt w cfg4.N := by
  unfold X4; exact Pipeline.withArrays_arr spec4 launch4.win.arr_inj c _ _ w
theorem X4_of_ne (c : Dev nD) (b : Ref sig .tc) (hb : ∀ w, Pipeline.arrRef spec4 w ≠ b) :
    X4 m ρ c (Proc.devRef .tc b) = E4 m ρ c (Proc.devRef .tc b) := by
  unfold X4; exact Pipeline.withArrays_of_ne spec4 c _ _ b hb
abbrev VX4 : (c : Dev nD) → (b : Ref sig .tc) → Buf (Elt F) ((c : Thread nD τ).loc b) := fun c b => X4 m ρ c b
theorem hF4 (c : Dev nD) (w : Fin cfg4.W) : (dat4 (VE4 m ρ) c).arrAt w cfg4.N = VX4 m ρ c (Pipeline.arrRef spec4 w) :=
  (X4_arr m ρ c w).symm
theorem hrest4 (c : Dev nD) : ∀ b, b ∉ Finset.univ.image (Pipeline.arrRef spec4) → VX4 m ρ c b = VE4 m ρ c b :=
  fun b hb => X4_of_ne m ρ c b fun w e => hb (Finset.mem_image.mpr ⟨w, Finset.mem_univ _, e⟩)
/-- A buffer that is no output array of region 4 leaves the region as it entered it. -/
theorem X4_keep (c : Dev nD) (b : Ref sig .tc) (hb : ∀ w : Fin cfg4.W, Pipeline.arrRef spec4 w = b → (cfg4.win w).isOut = false) :
    X4 m ρ c (Proc.devRef .tc b) = E4 m ρ c (Proc.devRef .tc b) := by
  by_cases h : ∃ w, Pipeline.arrRef spec4 w = b
  · obtain ⟨w, rfl⟩ := h
    exact (X4_arr m ρ c w).trans (((dat4 (VE4 m ρ) c).arrAt_in w (hb w rfl) _).trans (A_eq4 (VE4 m ρ) c w))
  · exact X4_of_ne m ρ c b fun w e => h ⟨w, e⟩
/-- The argument arrays pass stretch 4 and region 4 unchanged. -/
theorem keepE4 (c : Dev nD) : ∀ b ∈ argRefs, E4 m ρ c (Proc.devRef .tc b) = X3 m ρ c (Proc.devRef .tc b) := fun b hb =>
  StableHlo.after_of_forall_not_mem _ _ fun op hop => hostOps4_args op hop b hb
theorem keepX4 (c : Dev nD) : ∀ b ∈ argRefs, X4 m ρ c (Proc.devRef .tc b) = E4 m ρ c (Proc.devRef .tc b) := fun b hb =>
  X4_keep m ρ c b (by revert b; decide)

/-! ## Stretch 5 and region 5 -/

/-- No operation of stretch 5 allocates a buffer. -/
theorem hostOps5_fresh : (hostOps5 : List (HloOp τ sig (Elt F))).Forall fun op => op.fresh = ∅ := by
  simp only [List.Forall]; repeat' constructor

/-- No operation of stretch 5 writes an argument array. -/
theorem hostOps5_args : ∀ op ∈ (hostOps5 : List (HloOp τ sig (Elt F))), ∀ b ∈ argRefs, (Proc.devRef .tc b : DevRef τ sig) ∉ op.writes :=
  List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (by revert b; decide)))

/-- The contents at region 5's entry. -/
abbrev E5 : Dev nD → Valuation τ sig (Elt F) := fun c => StableHlo.after hostOps5 (X4 m ρ c)
abbrev VE5 : (c : Dev nD) → (b : Ref sig .tc) → Buf (Elt F) ((c : Thread nD τ).loc b) := fun c b => E5 m ρ c b
/-- The contents at region 5's exit. -/
def X5 (c : Dev nD) : Valuation τ sig (Elt F) :=
  Pipeline.withArrays spec5 c (E5 m ρ c) fun w => (dat5 (VE5 m ρ) c).arrAt w cfg5.N
theorem X5_arr (c : Dev nD) (w : Fin cfg5.W) :
    X5 m ρ c (Proc.devRef .tc (Pipeline.arrRef spec5 w)) = (dat5 (VE5 m ρ) c).arrAt w cfg5.N := by
  unfold X5; exact Pipeline.withArrays_arr spec5 launch5.win.arr_inj c _ _ w
theorem X5_of_ne (c : Dev nD) (b : Ref sig .tc) (hb : ∀ w, Pipeline.arrRef spec5 w ≠ b) :
    X5 m ρ c (Proc.devRef .tc b) = E5 m ρ c (Proc.devRef .tc b) := by
  unfold X5; exact Pipeline.withArrays_of_ne spec5 c _ _ b hb
abbrev VX5 : (c : Dev nD) → (b : Ref sig .tc) → Buf (Elt F) ((c : Thread nD τ).loc b) := fun c b => X5 m ρ c b
theorem hF5 (c : Dev nD) (w : Fin cfg5.W) : (dat5 (VE5 m ρ) c).arrAt w cfg5.N = VX5 m ρ c (Pipeline.arrRef spec5 w) :=
  (X5_arr m ρ c w).symm
theorem hrest5 (c : Dev nD) : ∀ b, b ∉ Finset.univ.image (Pipeline.arrRef spec5) → VX5 m ρ c b = VE5 m ρ c b :=
  fun b hb => X5_of_ne m ρ c b fun w e => hb (Finset.mem_image.mpr ⟨w, Finset.mem_univ _, e⟩)
/-- A buffer that is no output array of region 5 leaves the region as it entered it. -/
theorem X5_keep (c : Dev nD) (b : Ref sig .tc) (hb : ∀ w : Fin cfg5.W, Pipeline.arrRef spec5 w = b → (cfg5.win w).isOut = false) :
    X5 m ρ c (Proc.devRef .tc b) = E5 m ρ c (Proc.devRef .tc b) := by
  by_cases h : ∃ w, Pipeline.arrRef spec5 w = b
  · obtain ⟨w, rfl⟩ := h
    exact (X5_arr m ρ c w).trans (((dat5 (VE5 m ρ) c).arrAt_in w (hb w rfl) _).trans (A_eq5 (VE5 m ρ) c w))
  · exact X5_of_ne m ρ c b fun w e => h ⟨w, e⟩
/-- The argument arrays pass stretch 5 and region 5 unchanged. -/
theorem keepE5 (c : Dev nD) : ∀ b ∈ argRefs, E5 m ρ c (Proc.devRef .tc b) = X4 m ρ c (Proc.devRef .tc b) := fun b hb =>
  StableHlo.after_of_forall_not_mem _ _ fun op hop => hostOps5_args op hop b hb
theorem keepX5 (c : Dev nD) : ∀ b ∈ argRefs, X5 m ρ c (Proc.devRef .tc b) = E5 m ρ c (Proc.devRef .tc b) := fun b hb =>
  X5_keep m ρ c b (by revert b; decide)

/-! ## Stretch 6 and region 6 -/

/-- No operation of stretch 6 allocates a buffer. -/
theorem hostOps6_fresh : (hostOps6 : List (HloOp τ sig (Elt F))).Forall fun op => op.fresh = ∅ := by
  simp only [List.Forall]; repeat' constructor

/-- No operation of stretch 6 writes an argument array. -/
theorem hostOps6_args : ∀ op ∈ (hostOps6 : List (HloOp τ sig (Elt F))), ∀ b ∈ argRefs, (Proc.devRef .tc b : DevRef τ sig) ∉ op.writes :=
  List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (by revert b; decide)))

/-- The contents at region 6's entry. -/
abbrev E6 : Dev nD → Valuation τ sig (Elt F) := fun c => StableHlo.after hostOps6 (X5 m ρ c)
abbrev VE6 : (c : Dev nD) → (b : Ref sig .tc) → Buf (Elt F) ((c : Thread nD τ).loc b) := fun c b => E6 m ρ c b
/-- The contents at region 6's exit. -/
def X6 (c : Dev nD) : Valuation τ sig (Elt F) :=
  Pipeline.withArrays spec6 c (E6 m ρ c) fun w => (dat6 (VE6 m ρ) c).arrAt w cfg6.N
theorem X6_arr (c : Dev nD) (w : Fin cfg6.W) :
    X6 m ρ c (Proc.devRef .tc (Pipeline.arrRef spec6 w)) = (dat6 (VE6 m ρ) c).arrAt w cfg6.N := by
  unfold X6; exact Pipeline.withArrays_arr spec6 launch6.win.arr_inj c _ _ w
theorem X6_of_ne (c : Dev nD) (b : Ref sig .tc) (hb : ∀ w, Pipeline.arrRef spec6 w ≠ b) :
    X6 m ρ c (Proc.devRef .tc b) = E6 m ρ c (Proc.devRef .tc b) := by
  unfold X6; exact Pipeline.withArrays_of_ne spec6 c _ _ b hb
abbrev VX6 : (c : Dev nD) → (b : Ref sig .tc) → Buf (Elt F) ((c : Thread nD τ).loc b) := fun c b => X6 m ρ c b
theorem hF6 (c : Dev nD) (w : Fin cfg6.W) : (dat6 (VE6 m ρ) c).arrAt w cfg6.N = VX6 m ρ c (Pipeline.arrRef spec6 w) :=
  (X6_arr m ρ c w).symm
theorem hrest6 (c : Dev nD) : ∀ b, b ∉ Finset.univ.image (Pipeline.arrRef spec6) → VX6 m ρ c b = VE6 m ρ c b :=
  fun b hb => X6_of_ne m ρ c b fun w e => hb (Finset.mem_image.mpr ⟨w, Finset.mem_univ _, e⟩)
/-- A buffer that is no output array of region 6 leaves the region as it entered it. -/
theorem X6_keep (c : Dev nD) (b : Ref sig .tc) (hb : ∀ w : Fin cfg6.W, Pipeline.arrRef spec6 w = b → (cfg6.win w).isOut = false) :
    X6 m ρ c (Proc.devRef .tc b) = E6 m ρ c (Proc.devRef .tc b) := by
  by_cases h : ∃ w, Pipeline.arrRef spec6 w = b
  · obtain ⟨w, rfl⟩ := h
    exact (X6_arr m ρ c w).trans (((dat6 (VE6 m ρ) c).arrAt_in w (hb w rfl) _).trans (A_eq6 (VE6 m ρ) c w))
  · exact X6_of_ne m ρ c b fun w e => h ⟨w, e⟩
/-- The argument arrays pass stretch 6 and region 6 unchanged. -/
theorem keepE6 (c : Dev nD) : ∀ b ∈ argRefs, E6 m ρ c (Proc.devRef .tc b) = X5 m ρ c (Proc.devRef .tc b) := fun b hb =>
  StableHlo.after_of_forall_not_mem _ _ fun op hop => hostOps6_args op hop b hb
theorem keepX6 (c : Dev nD) : ∀ b ∈ argRefs, X6 m ρ c (Proc.devRef .tc b) = E6 m ρ c (Proc.devRef .tc b) := fun b hb =>
  X6_keep m ρ c b (by revert b; decide)

/-! ## Stretch 7 and region 7 -/

/-- No operation of stretch 7 allocates a buffer. -/
theorem hostOps7_fresh : (hostOps7 : List (HloOp τ sig (Elt F))).Forall fun op => op.fresh = ∅ := by
  simp only [List.Forall]; repeat' constructor

/-- No operation of stretch 7 writes an argument array. -/
theorem hostOps7_args : ∀ op ∈ (hostOps7 : List (HloOp τ sig (Elt F))), ∀ b ∈ argRefs, (Proc.devRef .tc b : DevRef τ sig) ∉ op.writes :=
  List.forall_iff_forall_mem.mp (by
    simp only [hostOps7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (by revert b; decide)))

/-- The contents at region 7's entry. -/
abbrev E7 : Dev nD → Valuation τ sig (Elt F) := fun c => StableHlo.after hostOps7 (X6 m ρ c)
abbrev VE7 : (c : Dev nD) → (b : Ref sig .tc) → Buf (Elt F) ((c : Thread nD τ).loc b) := fun c b => E7 m ρ c b
/-- The contents at region 7's exit. -/
def X7 (c : Dev nD) : Valuation τ sig (Elt F) :=
  Pipeline.withArrays spec7 c (E7 m ρ c) fun w => (dat7 (VE7 m ρ) c).arrAt w cfg7.N
theorem X7_arr (c : Dev nD) (w : Fin cfg7.W) :
    X7 m ρ c (Proc.devRef .tc (Pipeline.arrRef spec7 w)) = (dat7 (VE7 m ρ) c).arrAt w cfg7.N := by
  unfold X7; exact Pipeline.withArrays_arr spec7 launch7.win.arr_inj c _ _ w
theorem X7_of_ne (c : Dev nD) (b : Ref sig .tc) (hb : ∀ w, Pipeline.arrRef spec7 w ≠ b) :
    X7 m ρ c (Proc.devRef .tc b) = E7 m ρ c (Proc.devRef .tc b) := by
  unfold X7; exact Pipeline.withArrays_of_ne spec7 c _ _ b hb
abbrev VX7 : (c : Dev nD) → (b : Ref sig .tc) → Buf (Elt F) ((c : Thread nD τ).loc b) := fun c b => X7 m ρ c b
theorem hF7 (c : Dev nD) (w : Fin cfg7.W) : (dat7 (VE7 m ρ) c).arrAt w cfg7.N = VX7 m ρ c (Pipeline.arrRef spec7 w) :=
  (X7_arr m ρ c w).symm
theorem hrest7 (c : Dev nD) : ∀ b, b ∉ Finset.univ.image (Pipeline.arrRef spec7) → VX7 m ρ c b = VE7 m ρ c b :=
  fun b hb => X7_of_ne m ρ c b fun w e => hb (Finset.mem_image.mpr ⟨w, Finset.mem_univ _, e⟩)
/-- A buffer that is no output array of region 7 leaves the region as it entered it. -/
theorem X7_keep (c : Dev nD) (b : Ref sig .tc) (hb : ∀ w : Fin cfg7.W, Pipeline.arrRef spec7 w = b → (cfg7.win w).isOut = false) :
    X7 m ρ c (Proc.devRef .tc b) = E7 m ρ c (Proc.devRef .tc b) := by
  by_cases h : ∃ w, Pipeline.arrRef spec7 w = b
  · obtain ⟨w, rfl⟩ := h
    exact (X7_arr m ρ c w).trans (((dat7 (VE7 m ρ) c).arrAt_in w (hb w rfl) _).trans (A_eq7 (VE7 m ρ) c w))
  · exact X7_of_ne m ρ c b fun w e => h ⟨w, e⟩
/-- The argument arrays pass stretch 7 and region 7 unchanged. -/
theorem keepE7 (c : Dev nD) : ∀ b ∈ argRefs, E7 m ρ c (Proc.devRef .tc b) = X6 m ρ c (Proc.devRef .tc b) := fun b hb =>
  StableHlo.after_of_forall_not_mem _ _ fun op hop => hostOps7_args op hop b hb
theorem keepX7 (c : Dev nD) : ∀ b ∈ argRefs, X7 m ρ c (Proc.devRef .tc b) = E7 m ρ c (Proc.devRef .tc b) := fun b hb =>
  X7_keep m ρ c b (by revert b; decide)

/-! ## Stretch 8 and region 8 -/

/-- No operation of stretch 8 allocates a buffer. -/
theorem hostOps8_fresh : (hostOps8 : List (HloOp τ sig (Elt F))).Forall fun op => op.fresh = ∅ := by
  simp only [List.Forall]; repeat' constructor

/-- No operation of stretch 8 writes an argument array. -/
theorem hostOps8_args : ∀ op ∈ (hostOps8 : List (HloOp τ sig (Elt F))), ∀ b ∈ argRefs, (Proc.devRef .tc b : DevRef τ sig) ∉ op.writes :=
  List.forall_iff_forall_mem.mp (by
    simp only [hostOps8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (by revert b; decide)))

/-- The contents at region 8's entry. -/
abbrev E8 : Dev nD → Valuation τ sig (Elt F) := fun c => StableHlo.after hostOps8 (X7 m ρ c)
abbrev VE8 : (c : Dev nD) → (b : Ref sig .tc) → Buf (Elt F) ((c : Thread nD τ).loc b) := fun c b => E8 m ρ c b
/-- The contents at region 8's exit. -/
def X8 (c : Dev nD) : Valuation τ sig (Elt F) :=
  Pipeline.withArrays spec8 c (E8 m ρ c) fun w => (dat8 (VE8 m ρ) c).arrAt w cfg8.N
theorem X8_arr (c : Dev nD) (w : Fin cfg8.W) :
    X8 m ρ c (Proc.devRef .tc (Pipeline.arrRef spec8 w)) = (dat8 (VE8 m ρ) c).arrAt w cfg8.N := by
  unfold X8; exact Pipeline.withArrays_arr spec8 launch8.win.arr_inj c _ _ w
theorem X8_of_ne (c : Dev nD) (b : Ref sig .tc) (hb : ∀ w, Pipeline.arrRef spec8 w ≠ b) :
    X8 m ρ c (Proc.devRef .tc b) = E8 m ρ c (Proc.devRef .tc b) := by
  unfold X8; exact Pipeline.withArrays_of_ne spec8 c _ _ b hb
abbrev VX8 : (c : Dev nD) → (b : Ref sig .tc) → Buf (Elt F) ((c : Thread nD τ).loc b) := fun c b => X8 m ρ c b
theorem hF8 (c : Dev nD) (w : Fin cfg8.W) : (dat8 (VE8 m ρ) c).arrAt w cfg8.N = VX8 m ρ c (Pipeline.arrRef spec8 w) :=
  (X8_arr m ρ c w).symm
theorem hrest8 (c : Dev nD) : ∀ b, b ∉ Finset.univ.image (Pipeline.arrRef spec8) → VX8 m ρ c b = VE8 m ρ c b :=
  fun b hb => X8_of_ne m ρ c b fun w e => hb (Finset.mem_image.mpr ⟨w, Finset.mem_univ _, e⟩)
/-- A buffer that is no output array of region 8 leaves the region as it entered it. -/
theorem X8_keep (c : Dev nD) (b : Ref sig .tc) (hb : ∀ w : Fin cfg8.W, Pipeline.arrRef spec8 w = b → (cfg8.win w).isOut = false) :
    X8 m ρ c (Proc.devRef .tc b) = E8 m ρ c (Proc.devRef .tc b) := by
  by_cases h : ∃ w, Pipeline.arrRef spec8 w = b
  · obtain ⟨w, rfl⟩ := h
    exact (X8_arr m ρ c w).trans (((dat8 (VE8 m ρ) c).arrAt_in w (hb w rfl) _).trans (A_eq8 (VE8 m ρ) c w))
  · exact X8_of_ne m ρ c b fun w e => h ⟨w, e⟩
/-- The argument arrays pass stretch 8 and region 8 unchanged. -/
theorem keepE8 (c : Dev nD) : ∀ b ∈ argRefs, E8 m ρ c (Proc.devRef .tc b) = X7 m ρ c (Proc.devRef .tc b) := fun b hb =>
  StableHlo.after_of_forall_not_mem _ _ fun op hop => hostOps8_args op hop b hb
theorem keepX8 (c : Dev nD) : ∀ b ∈ argRefs, X8 m ρ c (Proc.devRef .tc b) = E8 m ρ c (Proc.devRef .tc b) := fun b hb =>
  X8_keep m ρ c b (by revert b; decide)

/-! ## Stretch 9 and region 9 -/

/-- No operation of stretch 9 allocates a buffer. -/
theorem hostOps9_fresh : (hostOps9 : List (HloOp τ sig (Elt F))).Forall fun op => op.fresh = ∅ := by
  simp only [List.Forall]; repeat' constructor

/-- No operation of stretch 9 writes an argument array. -/
theorem hostOps9_args : ∀ op ∈ (hostOps9 : List (HloOp τ sig (Elt F))), ∀ b ∈ argRefs, (Proc.devRef .tc b : DevRef τ sig) ∉ op.writes :=
  List.forall_iff_forall_mem.mp (by
    simp only [hostOps9, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (by revert b; decide)))

/-- The contents at region 9's entry. -/
abbrev E9 : Dev nD → Valuation τ sig (Elt F) := fun c => StableHlo.after hostOps9 (X8 m ρ c)
abbrev VE9 : (c : Dev nD) → (b : Ref sig .tc) → Buf (Elt F) ((c : Thread nD τ).loc b) := fun c b => E9 m ρ c b
/-- The contents at region 9's exit. -/
def X9 (c : Dev nD) : Valuation τ sig (Elt F) :=
  Pipeline.withArrays spec9 c (E9 m ρ c) fun w => (dat9 (VE9 m ρ) c).arrAt w cfg9.N
theorem X9_arr (c : Dev nD) (w : Fin cfg9.W) :
    X9 m ρ c (Proc.devRef .tc (Pipeline.arrRef spec9 w)) = (dat9 (VE9 m ρ) c).arrAt w cfg9.N := by
  unfold X9; exact Pipeline.withArrays_arr spec9 launch9.win.arr_inj c _ _ w
theorem X9_of_ne (c : Dev nD) (b : Ref sig .tc) (hb : ∀ w, Pipeline.arrRef spec9 w ≠ b) :
    X9 m ρ c (Proc.devRef .tc b) = E9 m ρ c (Proc.devRef .tc b) := by
  unfold X9; exact Pipeline.withArrays_of_ne spec9 c _ _ b hb
abbrev VX9 : (c : Dev nD) → (b : Ref sig .tc) → Buf (Elt F) ((c : Thread nD τ).loc b) := fun c b => X9 m ρ c b
theorem hF9 (c : Dev nD) (w : Fin cfg9.W) : (dat9 (VE9 m ρ) c).arrAt w cfg9.N = VX9 m ρ c (Pipeline.arrRef spec9 w) :=
  (X9_arr m ρ c w).symm
theorem hrest9 (c : Dev nD) : ∀ b, b ∉ Finset.univ.image (Pipeline.arrRef spec9) → VX9 m ρ c b = VE9 m ρ c b :=
  fun b hb => X9_of_ne m ρ c b fun w e => hb (Finset.mem_image.mpr ⟨w, Finset.mem_univ _, e⟩)
/-- A buffer that is no output array of region 9 leaves the region as it entered it. -/
theorem X9_keep (c : Dev nD) (b : Ref sig .tc) (hb : ∀ w : Fin cfg9.W, Pipeline.arrRef spec9 w = b → (cfg9.win w).isOut = false) :
    X9 m ρ c (Proc.devRef .tc b) = E9 m ρ c (Proc.devRef .tc b) := by
  by_cases h : ∃ w, Pipeline.arrRef spec9 w = b
  · obtain ⟨w, rfl⟩ := h
    exact (X9_arr m ρ c w).trans (((dat9 (VE9 m ρ) c).arrAt_in w (hb w rfl) _).trans (A_eq9 (VE9 m ρ) c w))
  · exact X9_of_ne m ρ c b fun w e => h ⟨w, e⟩
/-- The argument arrays pass stretch 9 and region 9 unchanged. -/
theorem keepE9 (c : Dev nD) : ∀ b ∈ argRefs, E9 m ρ c (Proc.devRef .tc b) = X8 m ρ c (Proc.devRef .tc b) := fun b hb =>
  StableHlo.after_of_forall_not_mem _ _ fun op hop => hostOps9_args op hop b hb
theorem keepX9 (c : Dev nD) : ∀ b ∈ argRefs, X9 m ρ c (Proc.devRef .tc b) = E9 m ρ c (Proc.devRef .tc b) := fun b hb =>
  X9_keep m ρ c b (by revert b; decide)

/-! ## Stretch 10 and region 10 -/

/-- No operation of stretch 10 allocates a buffer. -/
theorem hostOps10_fresh : (hostOps10 : List (HloOp τ sig (Elt F))).Forall fun op => op.fresh = ∅ := by
  simp only [List.Forall]; repeat' constructor

/-- No operation of stretch 10 writes an argument array. -/
theorem hostOps10_args : ∀ op ∈ (hostOps10 : List (HloOp τ sig (Elt F))), ∀ b ∈ argRefs, (Proc.devRef .tc b : DevRef τ sig) ∉ op.writes :=
  List.forall_iff_forall_mem.mp (by
    simp only [hostOps10, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (by revert b; decide)))

/-- The contents at region 10's entry. -/
abbrev E10 : Dev nD → Valuation τ sig (Elt F) := fun c => StableHlo.after hostOps10 (X9 m ρ c)
abbrev VE10 : (c : Dev nD) → (b : Ref sig .tc) → Buf (Elt F) ((c : Thread nD τ).loc b) := fun c b => E10 m ρ c b
/-- The contents at region 10's exit. -/
def X10 (c : Dev nD) : Valuation τ sig (Elt F) :=
  Pipeline.withArrays spec10 c (E10 m ρ c) fun w => (dat10 (VE10 m ρ) c).arrAt w cfg10.N
theorem X10_arr (c : Dev nD) (w : Fin cfg10.W) :
    X10 m ρ c (Proc.devRef .tc (Pipeline.arrRef spec10 w)) = (dat10 (VE10 m ρ) c).arrAt w cfg10.N := by
  unfold X10; exact Pipeline.withArrays_arr spec10 launch10.win.arr_inj c _ _ w
theorem X10_of_ne (c : Dev nD) (b : Ref sig .tc) (hb : ∀ w, Pipeline.arrRef spec10 w ≠ b) :
    X10 m ρ c (Proc.devRef .tc b) = E10 m ρ c (Proc.devRef .tc b) := by
  unfold X10; exact Pipeline.withArrays_of_ne spec10 c _ _ b hb
abbrev VX10 : (c : Dev nD) → (b : Ref sig .tc) → Buf (Elt F) ((c : Thread nD τ).loc b) := fun c b => X10 m ρ c b
theorem hF10 (c : Dev nD) (w : Fin cfg10.W) : (dat10 (VE10 m ρ) c).arrAt w cfg10.N = VX10 m ρ c (Pipeline.arrRef spec10 w) :=
  (X10_arr m ρ c w).symm
theorem hrest10 (c : Dev nD) : ∀ b, b ∉ Finset.univ.image (Pipeline.arrRef spec10) → VX10 m ρ c b = VE10 m ρ c b :=
  fun b hb => X10_of_ne m ρ c b fun w e => hb (Finset.mem_image.mpr ⟨w, Finset.mem_univ _, e⟩)
/-- A buffer that is no output array of region 10 leaves the region as it entered it. -/
theorem X10_keep (c : Dev nD) (b : Ref sig .tc) (hb : ∀ w : Fin cfg10.W, Pipeline.arrRef spec10 w = b → (cfg10.win w).isOut = false) :
    X10 m ρ c (Proc.devRef .tc b) = E10 m ρ c (Proc.devRef .tc b) := by
  by_cases h : ∃ w, Pipeline.arrRef spec10 w = b
  · obtain ⟨w, rfl⟩ := h
    exact (X10_arr m ρ c w).trans (((dat10 (VE10 m ρ) c).arrAt_in w (hb w rfl) _).trans (A_eq10 (VE10 m ρ) c w))
  · exact X10_of_ne m ρ c b fun w e => h ⟨w, e⟩
/-- The argument arrays pass stretch 10 and region 10 unchanged. -/
theorem keepE10 (c : Dev nD) : ∀ b ∈ argRefs, E10 m ρ c (Proc.devRef .tc b) = X9 m ρ c (Proc.devRef .tc b) := fun b hb =>
  StableHlo.after_of_forall_not_mem _ _ fun op hop => hostOps10_args op hop b hb
theorem keepX10 (c : Dev nD) : ∀ b ∈ argRefs, X10 m ρ c (Proc.devRef .tc b) = E10 m ρ c (Proc.devRef .tc b) := fun b hb =>
  X10_keep m ρ c b (by revert b; decide)

/-- At region 0's entry and exit every argument array is as launched. -/
theorem argsE0 (c : Dev nD) : ∀ b ∈ argRefs, E0 m ρ c (Proc.devRef .tc b) = m ((c : Thread nD τ).loc b) := fun b hb =>
  (keepE0 m ρ c b hb).trans rfl
theorem argsX0 (c : Dev nD) : ∀ b ∈ argRefs, X0 m ρ c (Proc.devRef .tc b) = m ((c : Thread nD τ).loc b) := fun b hb =>
  (keepX0 m ρ c b hb).trans (argsE0 m ρ c b hb)

/-- At region 1's entry and exit every argument array is as launched. -/
theorem argsE1 (c : Dev nD) : ∀ b ∈ argRefs, E1 m ρ c (Proc.devRef .tc b) = m ((c : Thread nD τ).loc b) := fun b hb =>
  (keepE1 m ρ c b hb).trans (argsX0 m ρ c b hb)
theorem argsX1 (c : Dev nD) : ∀ b ∈ argRefs, X1 m ρ c (Proc.devRef .tc b) = m ((c : Thread nD τ).loc b) := fun b hb =>
  (keepX1 m ρ c b hb).trans (argsE1 m ρ c b hb)

/-- At region 2's entry and exit every argument array is as launched. -/
theorem argsE2 (c : Dev nD) : ∀ b ∈ argRefs, E2 m ρ c (Proc.devRef .tc b) = m ((c : Thread nD τ).loc b) := fun b hb =>
  (keepE2 m ρ c b hb).trans (argsX1 m ρ c b hb)
theorem argsX2 (c : Dev nD) : ∀ b ∈ argRefs, X2 m ρ c (Proc.devRef .tc b) = m ((c : Thread nD τ).loc b) := fun b hb =>
  (keepX2 m ρ c b hb).trans (argsE2 m ρ c b hb)

/-- At region 3's entry and exit every argument array is as launched. -/
theorem argsE3 (c : Dev nD) : ∀ b ∈ argRefs, E3 m ρ c (Proc.devRef .tc b) = m ((c : Thread nD τ).loc b) := fun b hb =>
  (keepE3 m ρ c b hb).trans (argsX2 m ρ c b hb)
theorem argsX3 (c : Dev nD) : ∀ b ∈ argRefs, X3 m ρ c (Proc.devRef .tc b) = m ((c : Thread nD τ).loc b) := fun b hb =>
  (keepX3 m ρ c b hb).trans (argsE3 m ρ c b hb)

/-- At region 4's entry and exit every argument array is as launched. -/
theorem argsE4 (c : Dev nD) : ∀ b ∈ argRefs, E4 m ρ c (Proc.devRef .tc b) = m ((c : Thread nD τ).loc b) := fun b hb =>
  (keepE4 m ρ c b hb).trans (argsX3 m ρ c b hb)
theorem argsX4 (c : Dev nD) : ∀ b ∈ argRefs, X4 m ρ c (Proc.devRef .tc b) = m ((c : Thread nD τ).loc b) := fun b hb =>
  (keepX4 m ρ c b hb).trans (argsE4 m ρ c b hb)

/-- At region 5's entry and exit every argument array is as launched. -/
theorem argsE5 (c : Dev nD) : ∀ b ∈ argRefs, E5 m ρ c (Proc.devRef .tc b) = m ((c : Thread nD τ).loc b) := fun b hb =>
  (keepE5 m ρ c b hb).trans (argsX4 m ρ c b hb)
theorem argsX5 (c : Dev nD) : ∀ b ∈ argRefs, X5 m ρ c (Proc.devRef .tc b) = m ((c : Thread nD τ).loc b) := fun b hb =>
  (keepX5 m ρ c b hb).trans (argsE5 m ρ c b hb)

/-- At region 6's entry and exit every argument array is as launched. -/
theorem argsE6 (c : Dev nD) : ∀ b ∈ argRefs, E6 m ρ c (Proc.devRef .tc b) = m ((c : Thread nD τ).loc b) := fun b hb =>
  (keepE6 m ρ c b hb).trans (argsX5 m ρ c b hb)
theorem argsX6 (c : Dev nD) : ∀ b ∈ argRefs, X6 m ρ c (Proc.devRef .tc b) = m ((c : Thread nD τ).loc b) := fun b hb =>
  (keepX6 m ρ c b hb).trans (argsE6 m ρ c b hb)

/-- At region 7's entry and exit every argument array is as launched. -/
theorem argsE7 (c : Dev nD) : ∀ b ∈ argRefs, E7 m ρ c (Proc.devRef .tc b) = m ((c : Thread nD τ).loc b) := fun b hb =>
  (keepE7 m ρ c b hb).trans (argsX6 m ρ c b hb)
theorem argsX7 (c : Dev nD) : ∀ b ∈ argRefs, X7 m ρ c (Proc.devRef .tc b) = m ((c : Thread nD τ).loc b) := fun b hb =>
  (keepX7 m ρ c b hb).trans (argsE7 m ρ c b hb)

/-- At region 8's entry and exit every argument array is as launched. -/
theorem argsE8 (c : Dev nD) : ∀ b ∈ argRefs, E8 m ρ c (Proc.devRef .tc b) = m ((c : Thread nD τ).loc b) := fun b hb =>
  (keepE8 m ρ c b hb).trans (argsX7 m ρ c b hb)
theorem argsX8 (c : Dev nD) : ∀ b ∈ argRefs, X8 m ρ c (Proc.devRef .tc b) = m ((c : Thread nD τ).loc b) := fun b hb =>
  (keepX8 m ρ c b hb).trans (argsE8 m ρ c b hb)

/-- At region 9's entry and exit every argument array is as launched. -/
theorem argsE9 (c : Dev nD) : ∀ b ∈ argRefs, E9 m ρ c (Proc.devRef .tc b) = m ((c : Thread nD τ).loc b) := fun b hb =>
  (keepE9 m ρ c b hb).trans (argsX8 m ρ c b hb)
theorem argsX9 (c : Dev nD) : ∀ b ∈ argRefs, X9 m ρ c (Proc.devRef .tc b) = m ((c : Thread nD τ).loc b) := fun b hb =>
  (keepX9 m ρ c b hb).trans (argsE9 m ρ c b hb)

/-- At region 10's entry and exit every argument array is as launched. -/
theorem argsE10 (c : Dev nD) : ∀ b ∈ argRefs, E10 m ρ c (Proc.devRef .tc b) = m ((c : Thread nD τ).loc b) := fun b hb =>
  (keepE10 m ρ c b hb).trans (argsX9 m ρ c b hb)
theorem argsX10 (c : Dev nD) : ∀ b ∈ argRefs, X10 m ρ c (Proc.devRef .tc b) = m ((c : Thread nD τ).loc b) := fun b hb =>
  (keepX10 m ρ c b hb).trans (argsE10 m ρ c b hb)

/-- Every argument array ends as launched: no stretch and no region writes one. -/
theorem keep_args (c : Dev nD) : ∀ b ∈ argRefs, X10 m ρ c (Proc.devRef .tc b) = m ((c : Thread nD τ).loc b) := fun b hb =>
  argsX10 m ρ c b hb

end Cert.KernelIdeal.Regions

end
-- ==== Proof.KI.Run.lean ====
import proofs.«167917_j22402549416514_2_alg».proof.Proof.KI.Bounds
set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data family and the thread state -/

abbrev adm : (p : Fin 11) → (pcfgs (F := F) p).Adm := fun p => (cfgs p).toPCfg_adm
/-- Every region's proof data at its entry contents. -/
def pdats : (p : Fin 11) → (c : Dev nD) → Dat τ (Elt F) Unit ℕ (Pipeline.UD sig nD τ) ℕ (Pipeline.pin (pcfgs (F := F)) adm p) c
  | ⟨0, _⟩ => fun c => dat0 (VE0 m ρ) c
  | ⟨1, _⟩ => fun c => dat1 (VE1 m ρ) c
  | ⟨2, _⟩ => fun c => dat2 (VE2 m ρ) c
  | ⟨3, _⟩ => fun c => dat3 (VE3 m ρ) c
  | ⟨4, _⟩ => fun c => dat4 (VE4 m ρ) c
  | ⟨5, _⟩ => fun c => dat5 (VE5 m ρ) c
  | ⟨6, _⟩ => fun c => dat6 (VE6 m ρ) c
  | ⟨7, _⟩ => fun c => dat7 (VE7 m ρ) c
  | ⟨8, _⟩ => fun c => dat8 (VE8 m ρ) c
  | ⟨9, _⟩ => fun c => dat9 (VE9 m ρ) c
  | ⟨10, _⟩ => fun c => dat10 (VE10 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (X10 m ρ c) ∗ ∃ r, prngReg c r)

/-! ## The regions as segments -/

set_option backward.isDefEq.respectTransparency.types false in
/-- Region 0 over the thread state: entered from every unscoped buffer at E0, left at X0; its arrays split out of the
    unscoped buffers and put back at the exit contents; the generator register into the invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ L lv 0 fun _ _ => rfl
  pre c := iprop(StableHlo.held (c : Thread nD τ) (Pipeline.ucRefs τ sig) (E0 m ρ c) ∗ R c)
  post c := iprop(StableHlo.held (c : Thread nD τ) (Pipeline.ucRefs τ sig) (X0 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (VE0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (VE0 m ρ) c).Φ 0 from rfl]
    iintro ⟨Hp, -, Hr⟩
    iapply (hin0 (VE0 m ρ) c)
    unfold Pipeline.ΦA
    isplitl [Hr]; · iexact Hr
    iexact Hp
  hout c := by
    rw [Pipeline.ownSems0_none, show (pdats m ρ 0 c).Φ (Fin.last _) = (dat0 (VE0 m ρ) c).Φ (Fin.last _) from rfl]
    have h := hout0 (VE0 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (VE0 m ρ c) (VX0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at E1, left at X1; its arrays split out of the
    unscoped buffers and put back at the exit contents; the generator register into the invariant and out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m ρ) c).loose
  hwaits := Pipeline.hwaits_of_owed_zero _ _ _ _ L lv 1 fun _ _ => rfl
  pre c := iprop(StableHlo.held (c : Thread nD τ) (Pipeline.ucRefs τ sig) (E1 m ρ c) ∗ R c)
  post c := iprop(StableHlo.held (c : Thread nD τ) (Pipeline.ucRefs τ sig) (X1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (VE1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (VE1 m ρ c) (VX1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at E2, left at X2; its arrays split out of the
    unscoped buffers and put back at the exit contents; the generator register into the invariant and out; nothing owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VE2 m ρ) c).loose
  hwaits := Pipeline.hwaits_of_owed_zero _ _ _ _ L lv 2 fun _ _ => rfl
  pre c := iprop(StableHlo.held (c : Thread nD τ) (Pipeline.ucRefs τ sig) (E2 m ρ c) ∗ R c)
  post c := iprop(StableHlo.held (c : Thread nD τ) (Pipeline.ucRefs τ sig) (X2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (VE2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (VE2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (VE2 m ρ) c).Φ 0 from rfl]
    iintro ⟨Hp, -, Hr⟩
    iapply (hin2 (VE2 m ρ) c)
    unfold Pipeline.ΦA
    isplitl [Hr]; · iexact Hr
    iexact Hp
  hout c := by
    rw [Pipeline.ownSems0_none, show (pdats m ρ 2 c).Φ (Fin.last _) = (dat2 (VE2 m ρ) c).Φ (Fin.last _) from rfl]
    have h := hout2 (VE2 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (VE2 m ρ c) (VX2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at E3, left at X3; its arrays split out of the
    unscoped buffers and put back at the exit contents; the generator register into the invariant and out; nothing owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VE3 m ρ) c).loose
  hwaits := Pipeline.hwaits_of_owed_zero _ _ _ _ L lv 3 fun _ _ => rfl
  pre c := iprop(StableHlo.held (c : Thread nD τ) (Pipeline.ucRefs τ sig) (E3 m ρ c) ∗ R c)
  post c := iprop(StableHlo.held (c : Thread nD τ) (Pipeline.ucRefs τ sig) (X3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (VE3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (VE3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (VE3 m ρ c) (VX3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at E4, left at X4; its arrays split out of the
    unscoped buffers and put back at the exit contents; the generator register into the invariant and out; nothing owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (VE4 m ρ) c).loose
  hwaits := Pipeline.hwaits_of_owed_zero _ _ _ _ L lv 4 fun _ _ => rfl
  pre c := iprop(StableHlo.held (c : Thread nD τ) (Pipeline.ucRefs τ sig) (E4 m ρ c) ∗ R c)
  post c := iprop(StableHlo.held (c : Thread nD τ) (Pipeline.ucRefs τ sig) (X4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (VE4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (VE4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (VE4 m ρ) c).Φ 0 from rfl]
    iintro ⟨Hp, -, Hr⟩
    iapply (hin4 (VE4 m ρ) c)
    unfold Pipeline.ΦA
    isplitl [Hr]; · iexact Hr
    iexact Hp
  hout c := by
    rw [Pipeline.ownSems0_none, show (pdats m ρ 4 c).Φ (Fin.last _) = (dat4 (VE4 m ρ) c).Φ (Fin.last _) from rfl]
    have h := hout4 (VE4 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (VE4 m ρ c) (VX4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at E5, left at X5; its arrays split out of the
    unscoped buffers and put back at the exit contents; the generator register into the invariant and out; nothing owed. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (VE5 m ρ) c).loose
  hwaits := Pipeline.hwaits_of_owed_zero _ _ _ _ L lv 5 fun _ _ => rfl
  pre c := iprop(StableHlo.held (c : Thread nD τ) (Pipeline.ucRefs τ sig) (E5 m ρ c) ∗ R c)
  post c := iprop(StableHlo.held (c : Thread nD τ) (Pipeline.ucRefs τ sig) (X5 m ρ c) ∗ R c)
  X c := iprop(∃ r, prngReg c r)
  Y c := iprop(∃ r, prngReg c r)
  Z c := Pipeline.unscopedRest (Ix := Unit) (Name := ℕ) (U := Pipeline.UD sig nD τ) (Lvl := ℕ) spec5 c (VE5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (VE5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m ρ) ((pdats m ρ 5 c).share_full fun _ => rfl)
      (VE5 m ρ c) (VX5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at E6, left at X6; its arrays split out of the
    unscoped buffers and put back at the exit contents; the generator register into the invariant and out; nothing owed. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (VE6 m ρ) c).loose
  hwaits := Pipeline.hwaits_of_owed_zero _ _ _ _ L lv 6 fun _ _ => rfl
  pre c := iprop(StableHlo.held (c : Thread nD τ) (Pipeline.ucRefs τ sig) (E6 m ρ c) ∗ R c)
  post c := iprop(StableHlo.held (c : Thread nD τ) (Pipeline.ucRefs τ sig) (X6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec6 c (VE6 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (VE6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = (dat6 (VE6 m ρ) c).Φ 0 from rfl]
    iintro ⟨Hp, -, Hr⟩
    iapply (hin6 (VE6 m ρ) c)
    unfold Pipeline.ΦA
    isplitl [Hr]; · iexact Hr
    iexact Hp
  hout c := by
    rw [Pipeline.ownSems0_none, show (pdats m ρ 6 c).Φ (Fin.last _) = (dat6 (VE6 m ρ) c).Φ (Fin.last _) from rfl]
    have h := hout6 (VE6 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := Pipeline.UD sig nD τ) (Lvl := ℕ)
      launch6.win launch6.arr_whole c (pdats m ρ) ((pdats m ρ 6 c).share_full fun _ => rfl)
      (VE6 m ρ c) (VX6 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at E7, left at X7; its arrays split out of the
    unscoped buffers and put back at the exit contents; the generator register into the invariant and out; nothing owed. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (VE7 m ρ) c).loose
  hwaits := Pipeline.hwaits_of_owed_zero _ _ _ _ L lv 7 fun _ _ => rfl
  pre c := iprop(StableHlo.held (c : Thread nD τ) (Pipeline.ucRefs τ sig) (E7 m ρ c) ∗ R c)
  post c := iprop(StableHlo.held (c : Thread nD τ) (Pipeline.ucRefs τ sig) (X7 m ρ c) ∗ R c)
  X c := iprop(∃ r, prngReg c r)
  Y c := iprop(∃ r, prngReg c r)
  Z c := Pipeline.unscopedRest (Ix := Unit) (Name := ℕ) (U := Pipeline.UD sig nD τ) (Lvl := ℕ) spec7 c (VE7 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (VE7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := Pipeline.UD sig nD τ) (Lvl := ℕ)
      launch7.win launch7.arr_whole c (pdats m ρ) ((pdats m ρ 7 c).share_full fun _ => rfl)
      (VE7 m ρ c) (VX7 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at E8, left at X8; its arrays split out of the
    unscoped buffers and put back at the exit contents; the generator register into the invariant and out; nothing owed. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (VE8 m ρ) c).loose
  hwaits := Pipeline.hwaits_of_owed_zero _ _ _ _ L lv 8 fun _ _ => rfl
  pre c := iprop(StableHlo.held (c : Thread nD τ) (Pipeline.ucRefs τ sig) (E8 m ρ c) ∗ R c)
  post c := iprop(StableHlo.held (c : Thread nD τ) (Pipeline.ucRefs τ sig) (X8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec8 c (VE8 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (VE8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := Pipeline.UD sig nD τ) (Lvl := ℕ)
      launch8.win launch8.arr_whole c (pdats m ρ) ((pdats m ρ 8 c).share_full fun _ => rfl)
      (VE8 m ρ c) (VX8 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at E9, left at X9; its arrays split out of the
    unscoped buffers and put back at the exit contents; the generator register into the invariant and out; nothing owed. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (VE9 m ρ) c).loose
  hwaits := Pipeline.hwaits_of_owed_zero _ _ _ _ L lv 9 fun _ _ => rfl
  pre c := iprop(StableHlo.held (c : Thread nD τ) (Pipeline.ucRefs τ sig) (E9 m ρ c) ∗ R c)
  post c := iprop(StableHlo.held (c : Thread nD τ) (Pipeline.ucRefs τ sig) (X9 m ρ c) ∗ R c)
  X c := iprop(∃ r, prngReg c r)
  Y c := iprop(∃ r, prngReg c r)
  Z c := Pipeline.unscopedRest (Ix := Unit) (Name := ℕ) (U := Pipeline.UD sig nD τ) (Lvl := ℕ) spec9 c (VE9 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (VE9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := Pipeline.UD sig nD τ) (Lvl := ℕ)
      launch9.win launch9.arr_whole c (pdats m ρ) ((pdats m ρ 9 c).share_full fun _ => rfl)
      (VE9 m ρ c) (VX9 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at E10, left at X10; its arrays split out of the
    unscoped buffers and put back at the exit contents; the generator register into the invariant and out; nothing owed. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (VE10 m ρ) c).loose
  hwaits := Pipeline.hwaits_of_owed_zero _ _ _ _ L lv 10 fun _ _ => rfl
  pre c := iprop(StableHlo.held (c : Thread nD τ) (Pipeline.ucRefs τ sig) (E10 m ρ c) ∗ R c)
  post c := iprop(StableHlo.held (c : Thread nD τ) (Pipeline.ucRefs τ sig) (X10 m ρ c) ∗ R c)
  X c := iprop(∃ r, prngReg c r)
  Y c := iprop(∃ r, prngReg c r)
  Z c := Pipeline.unscopedRest (Ix := Unit) (Name := ℕ) (U := Pipeline.UD sig nD τ) (Lvl := ℕ) spec10 c (VE10 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (VE10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := Pipeline.UD sig nD τ) (Lvl := ℕ)
      launch10.win launch10.arr_whole c (pdats m ρ) ((pdats m ρ 10 c).share_full fun _ => rfl)
      (VE10 m ρ c) (VX10 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (X0 m ρ)),
    .region (reg1 m ρ),
    .host (hseg hostOps2 hostOps2_sub hostOps2_fresh (X1 m ρ)),
    .region (reg2 m ρ),
    .host (hseg hostOps3 hostOps3_sub hostOps3_fresh (X2 m ρ)),
    .region (reg3 m ρ),
    .host (hseg hostOps4 hostOps4_sub hostOps4_fresh (X3 m ρ)),
    .region (reg4 m ρ),
    .host (hseg hostOps5 hostOps5_sub hostOps5_fresh (X4 m ρ)),
    .region (reg5 m ρ),
    .host (hseg hostOps6 hostOps6_sub hostOps6_fresh (X5 m ρ)),
    .region (reg6 m ρ),
    .host (hseg hostOps7 hostOps7_sub hostOps7_fresh (X6 m ρ)),
    .region (reg7 m ρ),
    .host (hseg hostOps8 hostOps8_sub hostOps8_fresh (X7 m ρ)),
    .region (reg8 m ρ),
    .host (hseg hostOps9 hostOps9_sub hostOps9_fresh (X8 m ρ)),
    .region (reg9 m ρ),
    .host (hseg hostOps10 hostOps10_sub hostOps10_fresh (X9 m ρ)),
    .region (reg10 m ρ) ]
/-- The program is the run of the segments. -/
theorem main_run (c : Dev nD) : main (F := F) c = Pipeline.Seg.run (segs m ρ) := (main_chain c).trans (by chain_rfl)

set_option backward.isDefEq.respectTransparency.types false in
/-- The run: from any memory with zero counters every weakly fair execution terminates, nothing faulting; the result array
    ends at what the last region's write-backs leave and every argument array as launched. -/
theorem run : θ_run defs (onTc (τ := τ) (main (F := F))) ⟨m, fun _ => 0, ρ⟩ (fun r => ∀ c : Dev nD,
      r.2.mem ((c.tc : Thread nD τ).loc main_v136) = (dat10 (VE10 m ρ) c).arrAt 6 cfg10.N
      ∧ ∀ b ∈ argRefs, r.2.mem ((c.tc : Thread nD τ).loc b) = m ((c.tc : Thread nD τ).loc b)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (X10 m ρ c) ∗ R c) ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X10 m ρ c b)
    (hfin := fun c s' => by
      iintro ⟨⟨Hh, -⟩, HSI⟩
      unfold StableHlo.held
      imodintro
      iapply (pointsTo_read_all (Pipeline.ucRefs τ sig) (fun b => (((c : Thread nD τ)).1, b)) (X10 m ρ c) s')
      isplitl [Hh] <;> iassumption)
    (hQ := fun s h c =>
      ⟨(h c _ (mem_uc main_v136 (by decide))).trans (X10_arr m ρ c 6),
       fun b hb => (h c _ (mem_uc b (by revert b; decide))).trans (keep_args m ρ c b hb)⟩)

end Cert.KernelIdeal.Regions

end
-- ==== Proof.RefOps.lean ====
/-
  The reference program's @main as a list of its host operations.

  @main is a straight line: 347 operations of its own and ten calls of four outlined functions — the column variance
  (four calls, each calling the three-operation select that guards its divisor), and two element-wise selects (four calls
  and two). A call executes the callee's body on the operands, every value of the body in a buffer of that call's own, so
  the flat program is the callee's operations written at the call site over the call's record of buffers: 441 operations in
  all. They are listed here in program order, each with the pure function and the buffers the program's text gives it, cut
  into thirteen consecutive stages so that a fold over the whole line is the composition of the folds over the stages
  (`after (l₁ ++ l₂) V = after l₂ (after l₁ V)`); a stage ends where a layer of the computation ends or where the program's
  text is cut into its parts, whichever comes first.
-/
import proofs.«167917_j22402549416514_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 38 of 441 (through the one writing `main_v30`): the two embedding tables stacked, the stack's two products with the weighted graph on all the nodes (each product: gather the source rows, scale each by its edge's weight, add into the target rows of a zero table), and the mean of the three tables. -/
abbrev ops00 : List (HloOp τ sig (Elt F)) :=
  [ StableHlo.binary main_arg12 main_arg13 main_v0 ((fun a b => concatenate S70000x64 0 [⟨S30000x64, a⟩, ⟨S40000x64, b⟩] concatenates_S30000x64_S40000x64_S70000x64_d0) : (⟨S30000x64, .f32⟩ : BufTy).Contents (Elt F) → (⟨S40000x64, .f32⟩ : BufTy).Contents (Elt F) → (⟨S70000x64, .f32⟩ : BufTy).Contents (Elt F)),
    StableHlo.unary main_arg2 main_v1 (broadcastInDim S2500000x1 ![0] bcast_S2500000_S2500000x1_0 : (⟨S2500000, .f32⟩ : BufTy).Contents (Elt F) → (⟨S2500000x1, .f32⟩ : BufTy).Contents (Elt F)),
    StableHlo.nullary main_c (constantI S_ 32 0#32),
    StableHlo.unary main_c main_v2 (broadcastInDim S2500000 ![] bcast_S_S2500000 : (⟨S_, .i32⟩ : BufTy).Contents (Elt F) → (⟨S2500000, .i32⟩ : BufTy).Contents (Elt F)),
    StableHlo.binary main_arg1 main_v2 main_v3 (cmpi .slt : (⟨S2500000, .i32⟩ : BufTy).Contents (Elt F) → (⟨S2500000, .i32⟩ : BufTy).Contents (Elt F) → (⟨S2500000, .i1⟩ : BufTy).Contents (Elt F)),
    StableHlo.nullary main_c_0 (constantI S_ 32 70000#32),
    StableHlo.unary main_c_0 main_v4 (broadcastInDim S2500000 ![] bcast_S_S2500000 : (⟨S_, .i32⟩ : BufTy).Contents (Elt F) → (⟨S2500000, .i32⟩ : BufTy).Contents (Elt F)),
    StableHlo.binary main_arg1 main_v4 main_v5 (addi : (⟨S2500000, .i32⟩ : BufTy).Contents (Elt F) → (⟨S2500000, .i32⟩ : BufTy).Contents (Elt F) → (⟨S2500000, .i32⟩ : BufTy).Contents (Elt F)),
    StableHlo.ternary main_v3 main_v5 main_arg1 main_v6 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    StableHlo.unary main_v6 main_v7 (broadcastInDim S2500000x1 ![0] bcast_S2500000_S2500000x1_0 : (⟨S2500000, .i32⟩ : BufTy).Contents (Elt F) → (⟨S2500000x1, .i32⟩ : BufTy).Contents (Elt F)),
    StableHlo.binary main_v0 main_v7 main_v8 ((fun x i => Host.gather gather_S70000x64_S2500000x1_S2500000x64_1_0_n_n_0_1_164 x i) : (⟨S70000x64, .f32⟩ : BufTy).Contents (Elt F) → (⟨S2500000x1, .i32⟩ : BufTy).Contents (Elt F) → (⟨S2500000x64, .f32⟩ : BufTy).Contents (Elt F)),
    StableHlo.unary main_v1 main_v9 (broadcastInDim S2500000x64 ![0, 1] bcast_S2500000x1_S2500000x64_0_1 : (⟨S2500000x1, .f32⟩ : BufTy).Contents (Elt F) → (⟨S2500000x64, .f32⟩ : BufTy).Contents (Elt F)),
    StableHlo.binary main_v9 main_v8 main_v10 (mulf : (⟨S2500000x64, .f32⟩ : BufTy).Contents (Elt F) → (⟨S2500000x64, .f32⟩ : BufTy).Contents (Elt F) → (⟨S2500000x64, .f32⟩ : BufTy).Contents (Elt F)),
    StableHlo.nullary main_cst (constant S_ .f32 0x00000000#32),
    StableHlo.unary main_cst main_v11 (broadcastInDim S70000x64 ![] bcast_S_S70000x64 : (⟨S_, .f32⟩ : BufTy).Contents (Elt F) → (⟨S70000x64, .f32⟩ : BufTy).Contents (Elt F)),
    StableHlo.unary main_arg0 main_v12 (broadcastInDim S2500000x1 ![0] bcast_S2500000_S2500000x1_0 : (⟨S2500000, .i32⟩ : BufTy).Contents (Elt F) → (⟨S2500000x1, .i32⟩ : BufTy).Contents (Elt F)),
    StableHlo.ternary main_v11 main_v12 main_v10 main_v13 ((fun x i u => Host.scatterAdd scatter_S70000x64_S2500000x1_S2500000x64_1_0_0_1 x i u) : (⟨S70000x64, .f32⟩ : BufTy).Contents (Elt F) → (⟨S2500000x1, .i32⟩ : BufTy).Contents (Elt F) → (⟨S2500000x64, .f32⟩ : BufTy).Contents (Elt F) → (⟨S70000x64, .f32⟩ : BufTy).Contents (Elt F)),
    StableHlo.unary main_arg2 main_v14 (broadcastInDim S2500000x1 ![0] bcast_S2500000_S2500000x1_0 : (⟨S2500000, .f32⟩ : BufTy).Contents (Elt F) → (⟨S2500000x1, .f32⟩ : BufTy).Contents (Elt F)),
    StableHlo.nullary main_c_1 (constantI S_ 32 0#32),
    StableHlo.unary main_c_1 main_v15 (broadcastInDim S2500000 ![] bcast_S_S2500000 : (⟨S_, .i32⟩ : BufTy).Contents (Elt F) → (⟨S2500000, .i32⟩ : BufTy).Contents (Elt F)),
    StableHlo.binary main_arg1 main_v15 main_v16 (cmpi .slt : (⟨S2500000, .i32⟩ : BufTy).Contents (Elt F) → (⟨S2500000, .i32⟩ : BufTy).Contents (Elt F) → (⟨S2500000, .i1⟩ : BufTy).Contents (Elt F)),
    StableHlo.nullary main_c_2 (constantI S_ 32 70000#32),
    StableHlo.unary main_c_2 main_v17 (broadcastInDim S2500000 ![] bcast_S_S2500000 : (⟨S_, .i32⟩ : BufTy).Contents (Elt F) → (⟨S2500000, .i32⟩ : BufTy).Contents (Elt F)),
    StableHlo.binary main_arg1 main_v17 main_v18 (addi : (⟨S2500000, .i32⟩ : BufTy).Contents (Elt F) → (⟨S2500000, .i32⟩ : BufTy).Contents (Elt F) → (⟨S2500000, .i32⟩ : BufTy).Contents (Elt F)),
    StableHlo.ternary main_v16 main_v18 main_arg1 main_v19 (select : (⟨S2500000, .i1⟩ : BufTy).Contents (Elt F) → (⟨S2500000, .i32⟩ : BufTy).Contents (Elt F) → (⟨S2500000, .i32⟩ : BufTy).Contents (Elt F) → (⟨S2500000, .i32⟩ : BufTy).Contents (Elt F)),
    StableHlo.unary main_v19 main_v20 (broadcastInDim S2500000x1 ![0] bcast_S2500000_S2500000x1_0 : (⟨S2500000, .i32⟩ : BufTy).Contents (Elt F) → (⟨S2500000x1, .i32⟩ : BufTy).Contents (Elt F)),
    StableHlo.binary main_v13 main_v20 main_v21 ((fun x i => Host.gather gather_S70000x64_S2500000x1_S2500000x64_1_0_n_n_0_1_164 x i) : (⟨S70000x64, .f32⟩ : BufTy).Contents (Elt F) → (⟨S2500000x1, .i32⟩ : BufTy).Contents (Elt F) → (⟨S2500000x64, .f32⟩ : BufTy).Contents (Elt F)),
    StableHlo.unary main_v14 main_v22 (broadcastInDim S2500000x64 ![0, 1] bcast_S2500000x1_S2500000x64_0_1 : (⟨S2500000x1, .f32⟩ : BufTy).Contents (Elt F) → (⟨S2500000x64, .f32⟩ : BufTy).Contents (Elt F)),
    StableHlo.binary main_v22 main_v21 main_v23 (mulf : (⟨S2500000x64, .f32⟩ : BufTy).Contents (Elt F) → (⟨S2500000x64, .f32⟩ : BufTy).Contents (Elt F) → (⟨S2500000x64, .f32⟩ : BufTy).Contents (Elt F)),
    StableHlo.nullary main_cst_3 (constant S_ .f32 0x00000000#32),
    StableHlo.unary main_cst_3 main_v24 (broadcastInDim S70000x64 ![] bcast_S_S70000x64 : (⟨S_, .f32⟩ : BufTy).Contents (Elt F) → (⟨S70000x64, .f32⟩ : BufTy).Contents (Elt F)),
    StableHlo.unary main_arg0 main_v25 (broadcastInDim S2500000x1 ![0] bcast_S2500000_S2500000x1_0 : (⟨S2500000, .i32⟩ : BufTy).Contents (Elt F) → (⟨S2500000x1, .i32⟩ : BufTy).Contents (Elt F)),
    StableHlo.ternary main_v24 main_v25 main_v23 main_v26 ((fun x i u => Host.scatterAdd scatter_S70000x64_S2500000x1_S2500000x64_1_0_0_1 x i u) : (⟨S70000x64, .f32⟩ : BufTy).Contents (Elt F) → (⟨S2500000x1, .i32⟩ : BufTy).Contents (Elt F) → (⟨S2500000x64, .f32⟩ : BufTy).Contents (Elt F) → (⟨S70000x64, .f32⟩ : BufTy).Contents (Elt F)),
    StableHlo.binary main_v0 main_v13 main_v27 (addf : (⟨S70000x64, .f32⟩ : BufTy).Contents (Elt F) → (⟨S70000x64, .f32⟩ : BufTy).Contents (Elt F) → (⟨S70000x64, .f32⟩ : BufTy).Contents (Elt F)),
    StableHlo.binary main_v27 main_v26 main_v28 (addf : (⟨S70000x64, .f32⟩ : BufTy).Contents (Elt F) → (⟨S70000x64, .f32⟩ : BufTy).Contents (Elt F) → (⟨S70000x64, .f32⟩ : BufTy).Contents (Elt F)),
    StableHlo.nullary main_cst_4 (constant S_ .f32 0x40400000#32),
    StableHlo.unary main_cst_4 main_v29 (broadcastInDim S70000x64 ![] bcast_S_S70000x64 : (⟨S_, .f32⟩ : BufTy).Contents (Elt F) → (⟨S70000x64, .f32⟩ : BufTy).Contents (Elt F)),
    StableHlo.binary main_v28 main_v29 main_v30 (Host.divf : (⟨S70000x64, .f32⟩ : BufTy).Contents (Elt F) → (⟨S70000x64, .f32⟩ : BufTy).Contents (Elt F) → (⟨S70000x64, .f32⟩ : BufTy).Contents (Elt F)) ]

/-- Operations 39 … 81 of 441 (through the one writing `main_v48`): the first linear layer of the first feature matrix with its bias, its column mean, its column variance as the outlined function computes it (the mean of the squared deviations from the column mean, the count's positivity guarded by a select), and the centred values times the reciprocal square root of the variance plus epsilon. -/
abbrev ops01 : List (HloOp τ sig (Elt F)) :=
  [ StableHlo.unary main_arg16 main_v31 ((transpose S4096x64 [1, 0] · transposes_S64x4096_S4096x64_1_0) : (⟨S64x4096, .f32⟩ : BufTy).Contents (Elt F) → (⟨S4096x64, .f32⟩ : BufTy).Contents (Elt F)),
    StableHlo.binary main_arg14 main_v31 main_v32 ((fun l r => Host.dotGeneral dot_S40000x4096_S4096x64_S40000x64_1_0_0_1_n_n none l r) : (⟨S40000x4096, .f32⟩ : BufTy).Contents (Elt F) → (⟨S4096x64, .f32⟩ : BufTy).Contents (Elt F) → (⟨S40000x64, .f32⟩ : BufTy).Contents (Elt F)),
    StableHlo.unary main_arg17 main_v33 (broadcastInDim S1x64 ![1] bcast_S64_S1x64_1 : (⟨S64, .f32⟩ : BufTy).Contents (Elt F) → (⟨S1x64, .f32⟩ : BufTy).Contents (Elt F)),
    StableHlo.unary main_v33 main_v34 (broadcastInDim S40000x64 ![0, 1] bcast_S1x64_S40000x64_0_1 : (⟨S1x64, .f32⟩ : BufTy).Contents (Elt F) → (⟨S40000x64, .f32⟩ : BufTy).Contents (Elt F)),
    StableHlo.binary main_v32 main_v34 main_v35 (addf : (⟨S40000x64, .f32⟩ : BufTy).Contents (Elt F) → (⟨S40000x64, .f32⟩ : BufTy).Contents (Elt F) → (⟨S40000x64, .f32⟩ : BufTy).Contents (Elt F)),
    StableHlo.nullary main_cst_5 (constant S_ .f32 0x00000000#32),
    StableHlo.binary main_v35 main_cst_5 main_v36 ((fun x v => Host.reduceAdd x v reducesTo_S40000x64_S64_d0 h_S_) : (⟨S40000x64, .f32⟩ : BufTy).Contents (Elt F) → (⟨S_, .f32⟩ : BufTy).Contents (Elt F) → (⟨S64, .f32⟩ : BufTy).Contents (Elt F)),
    StableHlo.nullary main_cst_6 (constant S_ .f32 0x471C4000#32),
    StableHlo.unary main_cst_6 main_v37 (broadcastInDim S64 ![] bcast_S_S64 : (⟨S_, .f32⟩ : BufTy).Contents (Elt F) → (⟨S64, .f32⟩ : BufTy).Contents (Elt F)),
    StableHlo.binary main_v36 main_v37 main_v38 (Host.divf : (⟨S64, .f32⟩ : BufTy).Contents (Elt F) → (⟨S64, .f32⟩ : BufTy).Contents (Elt F) → (⟨S64, .f32⟩ : BufTy).Contents (Elt F)),
    StableHlo.nullary main_c_7 (constantI S_ 32 0#32),
    StableHlo.TRef.nullary main_call0.cst (constant S_ .f32 0x00000000#32),
    StableHlo.TRef.binary (.of main_v35 : StableHlo.TRef sig ⟨S40000x64, .f32⟩) main_call0.cst main_call0.v0 (fun x v => Host.reduceAdd x v reducesTo_S40000x64_S64_d0 h_S_),
    StableHlo.TRef.unary main_call0.v0 main_call0.v1 (broadcastInDim S1x64 ![1] bcast_S64_S1x64_1),
    StableHlo.TRef.nullary main_call0.cst_0 (constant S_ .f32 0x471C4000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S40000x64 ![0, 1] bcast_S1x64_S40000x64_0_1),
    StableHlo.TRef.binary (.of main_v35 : StableHlo.TRef sig ⟨S40000x64, .f32⟩) main_call0.v4 main_call0.v5 subf,
    StableHlo.TRef.binary main_call0.v5 main_call0.v5 main_call0.v6 mulf,
    StableHlo.TRef.unary (.of main_c_7 : StableHlo.TRef sig ⟨S_, .i32⟩) main_call0.v7 (sitofp .f32),
    StableHlo.TRef.nullary main_call0.cst_1 (constant S_ .f32 0x471C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S40000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v38 main_v40 (broadcastInDim S1x64 ![1] bcast_S64_S1x64_1 : (⟨S64, .f32⟩ : BufTy).Contents (Elt F) → (⟨S1x64, .f32⟩ : BufTy).Contents (Elt F)),
    StableHlo.unary main_v40 main_v41 (broadcastInDim S40000x64 ![0, 1] bcast_S1x64_S40000x64_0_1 : (⟨S1x64, .f32⟩ : BufTy).Contents (Elt F) → (⟨S40000x64, .f32⟩ : BufTy).Contents (Elt F)),
    StableHlo.binary main_v35 main_v41 main_v42 (subf : (⟨S40000x64, .f32⟩ : BufTy).Contents (Elt F) → (⟨S40000x64, .f32⟩ : BufTy).Contents (Elt F) → (⟨S40000x64, .f32⟩ : BufTy).Contents (Elt F)),
    StableHlo.nullary main_cst_8 (constant S_ .f32 0x3727C5AC#32),
    StableHlo.unary main_cst_8 main_v43 (broadcastInDim S64 ![] bcast_S_S64 : (⟨S_, .f32⟩ : BufTy).Contents (Elt F) → (⟨S64, .f32⟩ : BufTy).Contents (Elt F)),
    StableHlo.binary main_v39 main_v43 main_v44 (addf : (⟨S64, .f32⟩ : BufTy).Contents (Elt F) → (⟨S64, .f32⟩ : BufTy).Contents (Elt F) → (⟨S64, .f32⟩ : BufTy).Contents (Elt F)),
    StableHlo.unary main_v44 main_v45 (Host.rsqrt : (⟨S64, .f32⟩ : BufTy).Contents (Elt F) → (⟨S64, .f32⟩ : BufTy).Contents (Elt F)),
    StableHlo.unary main_v45 main_v46 (broadcastInDim S1x64 ![1] bcast_S64_S1x64_1 : (⟨S64, .f32⟩ : BufTy).Contents (Elt F) → (⟨S1x64, .f32⟩ : BufTy).Contents (Elt F)),
    StableHlo.unary main_v46 main_v47 (broadcastInDim S40000x64 ![0, 1] bcast_S1x64_S40000x64_0_1 : (⟨S1x64, .f32⟩ : BufTy).Contents (Elt F) → (⟨S40000x64, .f32⟩ : BufTy).Contents (Elt F)),
    StableHlo.binary main_v42 main_v47 main_v48 (mulf : (⟨S40000x64, .f32⟩ : BufTy).Contents (Elt F) → (⟨S40000x64, .f32⟩ : BufTy).Contents (Elt F) → (⟨S40000x64, .f32⟩ : BufTy).Contents (Elt F)) ]

/-- Operations 82 … 94 of 441 (through the one writing `main_v59`): that layer's scale and shift and its leaky rectifier (a select between the value and a hundredth of it, by the value's sign). -/
abbrev ops02 : List (HloOp τ sig (Elt F)) :=
  [ StableHlo.unary main_arg18 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S40000x64 ![0, 1] bcast_S1x64_S40000x64_0_1 : (⟨S1x64, .f32⟩ : BufTy).Contents (Elt F) → (⟨S40000x64, .f32⟩ : BufTy).Contents (Elt F)),
    StableHlo.binary main_v48 main_v50 main_v51 (mulf : (⟨S40000x64, .f32⟩ : BufTy).Contents (Elt F) → (⟨S40000x64, .f32⟩ : BufTy).Contents (Elt F) → (⟨S40000x64, .f32⟩ : BufTy).Contents (Elt F)),
    StableHlo.unary main_arg19 main_v52 (broadcastInDim S1x64 ![1] bcast_S64_S1x64_1 : (⟨S64, .f32⟩ : BufTy).Contents (Elt F) → (⟨S1x64, .f32⟩ : BufTy).Contents (Elt F)),
    StableHlo.unary main_v52 main_v53 (broadcastInDim S40000x64 ![0, 1] bcast_S1x64_S40000x64_0_1 : (⟨S1x64, .f32⟩ : BufTy).Contents (Elt F) → (⟨S40000x64, .f32⟩ : BufTy).Contents (Elt F)),
    StableHlo.binary main_v51 main_v53 main_v54 (addf : (⟨S40000x64, .f32⟩ : BufTy).Contents (Elt F) → (⟨S40000x64, .f32⟩ : BufTy).Contents (Elt F) → (⟨S40000x64, .f32⟩ : BufTy).Contents (Elt F)),
    StableHlo.nullary main_cst_9 (constant S_ .f32 0x00000000#32),
    StableHlo.unary main_cst_9 main_v55 (broadcastInDim S40000x64 ![] bcast_S_S40000x64 : (⟨S_, .f32⟩ : BufTy).Contents (Elt F) → (⟨S40000x64, .f32⟩ : BufTy).Contents (Elt F)),
    StableHlo.binary main_v54 main_v55 main_v56 (cmpf .oge : (⟨S40000x64, .f32⟩ : BufTy).Contents (Elt F) → (⟨S40000x64, .f32⟩ : BufTy).Contents (Elt F) → (⟨S40000x64, .i1⟩ : BufTy).Contents (Elt F)),
    StableHlo.nullary main_cst_10 (constant S_ .f32 0x3C23D70A#32),
    StableHlo.unary main_cst_10 main_v57 (broadcastInDim S40000x64 ![] bcast_S_S40000x64 : (⟨S_, .f32⟩ : BufTy).Contents (Elt F) → (⟨S40000x64, .f32⟩ : BufTy).Contents (Elt F)),
    StableHlo.binary main_v57 main_v54 main_v58 (mulf : (⟨S40000x64, .f32⟩ : BufTy).Contents (Elt F) → (⟨S40000x64, .f32⟩ : BufTy).Contents (Elt F) → (⟨S40000x64, .f32⟩ : BufTy).Contents (Elt F)),
    StableHlo.TRef.ternary (.of main_v56 : StableHlo.TRef sig ⟨S40000x64, .i1⟩) (.of main_v54 : StableHlo.TRef sig ⟨S40000x64, .f32⟩) (.of main_v58 : StableHlo.TRef sig ⟨S40000x64, .f32⟩) main_call1.v0 select ]

/-- Operations 95 … 151 of 441 (through the one writing `main_v89`): the second linear layer of the first branch, its column statistics, normalisation, scale, shift and rectifier, and the sum with the first layer's output. -/
abbrev ops03 : List (HloOp τ sig (Elt F)) :=
  [ StableHlo.unary main_arg20 main_v60 ((transpose S64x64 [1, 0] · transposes_S64x64_S64x64_1_0) : (⟨S64x64, .f32⟩ : BufTy).Contents (Elt F) → (⟨S64x64, .f32⟩ : BufTy).Contents (Elt F)),
    StableHlo.binary main_v59 main_v60 main_v61 ((fun l r => Host.dotGeneral dot_S40000x64_S64x64_S40000x64_1_0_0_1_n_n none l r) : (⟨S40000x64, .f32⟩ : BufTy).Contents (Elt F) → (⟨S64x64, .f32⟩ : BufTy).Contents (Elt F) → (⟨S40000x64, .f32⟩ : BufTy).Contents (Elt F)),
    StableHlo.unary main_arg21 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S40000x64 ![0, 1] bcast_S1x64_S40000x64_0_1 : (⟨S1x64, .f32⟩ : BufTy).Contents (Elt F) → (⟨S40000x64, .f32⟩ : BufTy).Contents (Elt F)),
    StableHlo.binary main_v61 main_v63 main_v64 (addf : (⟨S40000x64, .f32⟩ : BufTy).Contents (Elt F) → (⟨S40000x64, .f32⟩ : BufTy).Contents (Elt F) → (⟨S40000x64, .f32⟩ : BufTy).Contents (Elt F)),
    StableHlo.nullary main_cst_11 (constant S_ .f32 0x00000000#32),
    StableHlo.binary main_v64 main_cst_11 main_v65 ((fun x v => Host.reduceAdd x v reducesTo_S40000x64_S64_d0 h_S_) : (⟨S40000x64, .f32⟩ : BufTy).Contents (Elt F) → (⟨S_, .f32⟩ : BufTy).Contents (Elt F) → (⟨S64, .f32⟩ : BufTy).Contents (Elt F)),
    StableHlo.nullary main_cst_12 (constant S_ .f32 0x471C4000#32),
    StableHlo.unary main_cst_12 main_v66 (broadcastInDim S64 ![] bcast_S_S64 : (⟨S_, .f32⟩ : BufTy).Contents (Elt F) → (⟨S64, .f32⟩ : BufTy).Contents (Elt F)),
    StableHlo.binary main_v65 main_v66 main_v67 (Host.divf : (⟨S64, .f32⟩ : BufTy).Contents (Elt F) → (⟨S64, .f32⟩ : BufTy).Contents (Elt F) → (⟨S64, .f32⟩ : BufTy).Contents (Elt F)),
    StableHlo.nullary main_c_13 (constantI S_ 32 0#32),
    StableHlo.TRef.nullary main_call2.cst (constant S_ .f32 0x00000000#32),
    StableHlo.TRef.binary (.of main_v64 : StableHlo.TRef sig ⟨S40000x64, .f32⟩) main_call2.cst main_call2.v0 (fun x v => Host.reduceAdd x v reducesTo_S40000x64_S64_d0 h_S_),
    StableHlo.TRef.unary main_call2.v0 main_call2.v1 (broadcastInDim S1x64 ![1] bcast_S64_S1x64_1),
    StableHlo.TRef.nullary main_call2.cst_0 (constant S_ .f32 0x471C4000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S40000x64 ![0, 1] bcast_S1x64_S40000x64_0_1),
    StableHlo.TRef.binary (.of main_v64 : StableHlo.TRef sig ⟨S40000x64, .f32⟩) main_call2.v4 main_call2.v5 subf,
    StableHlo.TRef.binary main_call2.v5 main_call2.v5 main_call2.v6 mulf,
    StableHlo.TRef.unary (.of main_c_13 : StableHlo.TRef sig ⟨S_, .i32⟩) main_call2.v7 (sitofp .f32),
    StableHlo.TRef.nullary main_call2.cst_1 (constant S_ .f32 0x471C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S40000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v67 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S40000x64 ![0, 1] bcast_S1x64_S40000x64_0_1 : (⟨S1x64, .f32⟩ : BufTy).Contents (Elt F) → (⟨S40000x64, .f32⟩ : BufTy).Contents (Elt F)),
    StableHlo.binary main_v64 main_v70 main_v71 (subf : (⟨S40000x64, .f32⟩ : BufTy).Contents (Elt F) → (⟨S40000x64, .f32⟩ : BufTy).Contents (Elt F) → (⟨S40000x64, .f32⟩ : BufTy).Contents (Elt F)),
    StableHlo.nullary main_cst_14 (constant S_ .f32 0x3727C5AC#32),
    StableHlo.unary main_cst_14 main_v72 (broadcastInDim S64 ![] bcast_S_S64 : (⟨S_, .f32⟩ : BufTy).Contents (Elt F) → (⟨S64, .f32⟩ : BufTy).Contents (Elt F)),
    StableHlo.binary main_v68 main_v72 main_v73 (addf : (⟨S64, .f32⟩ : BufTy).Contents (Elt F) → (⟨S64, .f32⟩ : BufTy).Contents (Elt F) → (⟨S64, .f32⟩ : BufTy).Contents (Elt F)),
    StableHlo.unary main_v73 main_v74 (Host.rsqrt : (⟨S64, .f32⟩ : BufTy).Contents (Elt F) → (⟨S64, .f32⟩ : BufTy).Contents (Elt F)),
    StableHlo.unary main_v74 main_v75 (broadcastInDim S1x64 ![1] bcast_S64_S1x64_1 : (⟨S64, .f32⟩ : BufTy).Contents (Elt F) → (⟨S1x64, .f32⟩ : BufTy).Contents (Elt F)),
    StableHlo.unary main_v75 main_v76 (broadcastInDim S40000x64 ![0, 1] bcast_S1x64_S40000x64_0_1 : (⟨S1x64, .f32⟩ : BufTy).Contents (Elt F) → (⟨S40000x64, .f32⟩ : BufTy).Contents (Elt F)),
    StableHlo.binary main_v71 main_v76 main_v77 (mulf : (⟨S40000x64, .f32⟩ : BufTy).Contents (Elt F) → (⟨S40000x64, .f32⟩ : BufTy).Contents (Elt F) → (⟨S40000x64, .f32⟩ : BufTy).Contents (Elt F)),
    StableHlo.unary main_arg22 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S40000x64 ![0, 1] bcast_S1x64_S40000x64_0_1 : (⟨S1x64, .f32⟩ : BufTy).Contents (Elt F) → (⟨S40000x64, .f32⟩ : BufTy).Contents (Elt F)),
    StableHlo.binary main_v77 main_v79 main_v80 (mulf : (⟨S40000x64, .f32⟩ : BufTy).Contents (Elt F) → (⟨S40000x64, .f32⟩ : BufTy).Contents (Elt F) → (⟨S40000x64, .f32⟩ : BufTy).Contents (Elt F)),
    StableHlo.unary main_arg23 main_v81 (broadcastInDim S1x64 ![1] bcast_S64_S1x64_1 : (⟨S64, .f32⟩ : BufTy).Contents (Elt F) → (⟨S1x64, .f32⟩ : BufTy).Contents (Elt F)),
    StableHlo.unary main_v81 main_v82 (broadcastInDim S40000x64 ![0, 1] bcast_S1x64_S40000x64_0_1 : (⟨S1x64, .f32⟩ : BufTy).Contents (Elt F) → (⟨S40000x64, .f32⟩ : BufTy).Contents (Elt F)),
    StableHlo.binary main_v80 main_v82 main_v83 (addf : (⟨S40000x64, .f32⟩ : BufTy).Contents (Elt F) → (⟨S40000x64, .f32⟩ : BufTy).Contents (Elt F) → (⟨S40000x64, .f32⟩ : BufTy).Contents (Elt F)),
    StableHlo.nullary main_cst_15 (constant S_ .f32 0x00000000#32),
    StableHlo.unary main_cst_15 main_v84 (broadcastInDim S40000x64 ![] bcast_S_S40000x64 : (⟨S_, .f32⟩ : BufTy).Contents (Elt F) → (⟨S40000x64, .f32⟩ : BufTy).Contents (Elt F)),
    StableHlo.binary main_v83 main_v84 main_v85 (cmpf .oge : (⟨S40000x64, .f32⟩ : BufTy).Contents (Elt F) → (⟨S40000x64, .f32⟩ : BufTy).Contents (Elt F) → (⟨S40000x64, .i1⟩ : BufTy).Contents (Elt F)),
    StableHlo.nullary main_cst_16 (constant S_ .f32 0x3C23D70A#32),
    StableHlo.unary main_cst_16 main_v86 (broadcastInDim S40000x64 ![] bcast_S_S40000x64 : (⟨S_, .f32⟩ : BufTy).Contents (Elt F) → (⟨S40000x64, .f32⟩ : BufTy).Contents (Elt F)),
    StableHlo.binary main_v86 main_v83 main_v87 (mulf : (⟨S40000x64, .f32⟩ : BufTy).Contents (Elt F) → (⟨S40000x64, .f32⟩ : BufTy).Contents (Elt F) → (⟨S40000x64, .f32⟩ : BufTy).Contents (Elt F)),
    StableHlo.TRef.ternary (.of main_v85 : StableHlo.TRef sig ⟨S40000x64, .i1⟩) (.of main_v83 : StableHlo.TRef sig ⟨S40000x64, .f32⟩) (.of main_v87 : StableHlo.TRef sig ⟨S40000x64, .f32⟩) main_call3.v0 select,
    StableHlo.binary main_v88 main_v59 main_v89 (addf : (⟨S40000x64, .f32⟩ : BufTy).Contents (Elt F) → (⟨S40000x64, .f32⟩ : BufTy).Contents (Elt F) → (⟨S40000x64, .f32⟩ : BufTy).Contents (Elt F)) ]

/-- Operations 152 … 162 of 441 (through the one writing `main_c_19`): the first linear layer of the second feature matrix with its bias, and its column mean. -/
abbrev ops04 : List (HloOp τ sig (Elt F)) :=
  [ StableHlo.unary main_arg24 main_v90 ((transpose S768x64 [1, 0] · transposes_S64x768_S768x64_1_0) : (⟨S64x768, .f32⟩ : BufTy).Contents (Elt F) → (⟨S768x64, .f32⟩ : BufTy).Contents (Elt F)),
    StableHlo.binary main_arg15 main_v90 main_v91 ((fun l r => Host.dotGeneral dot_S40000x768_S768x64_S40000x64_1_0_0_1_n_n none l r) : (⟨S40000x768, .f32⟩ : BufTy).Contents (Elt F) → (⟨S768x64, .f32⟩ : BufTy).Contents (Elt F) → (⟨S40000x64, .f32⟩ : BufTy).Contents (Elt F)),
    StableHlo.unary main_arg25 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S40000x64 ![0, 1] bcast_S1x64_S40000x64_0_1 : (⟨S1x64, .f32⟩ : BufTy).Contents (Elt F) → (⟨S40000x64, .f32⟩ : BufTy).Contents (Elt F)),
    StableHlo.binary main_v91 main_v93 main_v94 (addf : (⟨S40000x64, .f32⟩ : BufTy).Contents (Elt F) → (⟨S40000x64, .f32⟩ : BufTy).Contents (Elt F) → (⟨S40000x64, .f32⟩ : BufTy).Contents (Elt F)),
    StableHlo.nullary main_cst_17 (constant S_ .f32 0x00000000#32),
    StableHlo.binary main_v94 main_cst_17 main_v95 ((fun x v => Host.reduceAdd x v reducesTo_S40000x64_S64_d0 h_S_) : (⟨S40000x64, .f32⟩ : BufTy).Contents (Elt F) → (⟨S_, .f32⟩ : BufTy).Contents (Elt F) → (⟨S64, .f32⟩ : BufTy).Contents (Elt F)),
    StableHlo.nullary main_cst_18 (constant S_ .f32 0x471C4000#32),
    StableHlo.unary main_cst_18 main_v96 (broadcastInDim S64 ![] bcast_S_S64 : (⟨S_, .f32⟩ : BufTy).Contents (Elt F) → (⟨S64, .f32⟩ : BufTy).Contents (Elt F)),
    StableHlo.binary main_v95 main_v96 main_v97 (Host.divf : (⟨S64, .f32⟩ : BufTy).Contents (Elt F) → (⟨S64, .f32⟩ : BufTy).Contents (Elt F) → (⟨S64, .f32⟩ : BufTy).Contents (Elt F)),
    StableHlo.nullary main_c_19 (constantI S_ 32 0#32) ]

/-- Operations 163 … 207 of 441 (through the one writing `main_v118`): that layer's column variance, normalisation, scale, shift and rectifier. -/
abbrev ops05 : List (HloOp τ sig (Elt F)) :=
  [ StableHlo.TRef.nullary main_call4.cst (constant S_ .f32 0x00000000#32),
    StableHlo.TRef.binary (.of main_v94 : StableHlo.TRef sig ⟨S40000x64, .f32⟩) main_call4.cst main_call4.v0 (fun x v => Host.reduceAdd x v reducesTo_S40000x64_S64_d0 h_S_),
    StableHlo.TRef.unary main_call4.v0 main_call4.v1 (broadcastInDim S1x64 ![1] bcast_S64_S1x64_1),
    StableHlo.TRef.nullary main_call4.cst_0 (constant S_ .f32 0x471C4000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S40000x64 ![0, 1] bcast_S1x64_S40000x64_0_1),
    StableHlo.TRef.binary (.of main_v94 : StableHlo.TRef sig ⟨S40000x64, .f32⟩) main_call4.v4 main_call4.v5 subf,
    StableHlo.TRef.binary main_call4.v5 main_call4.v5 main_call4.v6 mulf,
    StableHlo.TRef.unary (.of main_c_19 : StableHlo.TRef sig ⟨S_, .i32⟩) main_call4.v7 (sitofp .f32),
    StableHlo.TRef.nullary main_call4.cst_1 (constant S_ .f32 0x471C4000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S40000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v97 main_v99 (broadcastInDim S1x64 ![1] bcast_S64_S1x64_1 : (⟨S64, .f32⟩ : BufTy).Contents (Elt F) → (⟨S1x64, .f32⟩ : BufTy).Contents (Elt F)),
    StableHlo.unary main_v99 main_v100 (broadcastInDim S40000x64 ![0, 1] bcast_S1x64_S40000x64_0_1 : (⟨S1x64, .f32⟩ : BufTy).Contents (Elt F) → (⟨S40000x64, .f32⟩ : BufTy).Contents (Elt F)),
    StableHlo.binary main_v94 main_v100 main_v101 (subf : (⟨S40000x64, .f32⟩ : BufTy).Contents (Elt F) → (⟨S40000x64, .f32⟩ : BufTy).Contents (Elt F) → (⟨S40000x64, .f32⟩ : BufTy).Contents (Elt F)),
    StableHlo.nullary main_cst_20 (constant S_ .f32 0x3727C5AC#32),
    StableHlo.unary main_cst_20 main_v102 (broadcastInDim S64 ![] bcast_S_S64 : (⟨S_, .f32⟩ : BufTy).Contents (Elt F) → (⟨S64, .f32⟩ : BufTy).Contents (Elt F)),
    StableHlo.binary main_v98 main_v102 main_v103 (addf : (⟨S64, .f32⟩ : BufTy).Contents (Elt F) → (⟨S64, .f32⟩ : BufTy).Contents (Elt F) → (⟨S64, .f32⟩ : BufTy).Contents (Elt F)),
    StableHlo.unary main_v103 main_v104 (Host.rsqrt : (⟨S64, .f32⟩ : BufTy).Contents (Elt F) → (⟨S64, .f32⟩ : BufTy).Contents (Elt F)),
    StableHlo.unary main_v104 main_v105 (broadcastInDim S1x64 ![1] bcast_S64_S1x64_1 : (⟨S64, .f32⟩ : BufTy).Contents (Elt F) → (⟨S1x64, .f32⟩ : BufTy).Contents (Elt F)),
    StableHlo.unary main_v105 main_v106 (broadcastInDim S40000x64 ![0, 1] bcast_S1x64_S40000x64_0_1 : (⟨S1x64, .f32⟩ : BufTy).Contents (Elt F) → (⟨S40000x64, .f32⟩ : BufTy).Contents (Elt F)),
    StableHlo.binary main_v101 main_v106 main_v107 (mulf : (⟨S40000x64, .f32⟩ : BufTy).Contents (Elt F) → (⟨S40000x64, .f32⟩ : BufTy).Contents (Elt F) → (⟨S40000x64, .f32⟩ : BufTy).Contents (Elt F)),
    StableHlo.unary main_arg26 main_v108 (broadcastInDim S1x64 ![1] bcast_S64_S1x64_1 : (⟨S64, .f32⟩ : BufTy).Contents (Elt F) → (⟨S1x64, .f32⟩ : BufTy).Contents (Elt F)),
    StableHlo.unary main_v108 main_v109 (broadcastInDim S40000x64 ![0, 1] bcast_S1x64_S40000x64_0_1 : (⟨S1x64, .f32⟩ : BufTy).Contents (Elt F) → (⟨S40000x64, .f32⟩ : BufTy).Contents (Elt F)),
    StableHlo.binary main_v107 main_v109 main_v110 (mulf : (⟨S40000x64, .f32⟩ : BufTy).Contents (Elt F) → (⟨S40000x64, .f32⟩ : BufTy).Contents (Elt F) → (⟨S40000x64, .f32⟩ : BufTy).Contents (Elt F)),
    StableHlo.unary main_arg27 main_v111 (broadcastInDim S1x64 ![1] bcast_S64_S1x64_1 : (⟨S64, .f32⟩ : BufTy).Contents (Elt F) → (⟨S1x64, .f32⟩ : BufTy).Contents (Elt F)),
    StableHlo.unary main_v111 main_v112 (broadcastInDim S40000x64 ![0, 1] bcast_S1x64_S40000x64_0_1 : (⟨S1x64, .f32⟩ : BufTy).Contents (Elt F) → (⟨S40000x64, .f32⟩ : BufTy).Contents (Elt F)),
    StableHlo.binary main_v110 main_v112 main_v113 (addf : (⟨S40000x64, .f32⟩ : BufTy).Contents (Elt F) → (⟨S40000x64, .f32⟩ : BufTy).Contents (Elt F) → (⟨S40000x64, .f32⟩ : BufTy).Contents (Elt F)),
    StableHlo.nullary main_cst_21 (constant S_ .f32 0x00000000#32),
    StableHlo.unary main_cst_21 main_v114 (broadcastInDim S40000x64 ![] bcast_S_S40000x64 : (⟨S_, .f32⟩ : BufTy).Contents (Elt F) → (⟨S40000x64, .f32⟩ : BufTy).Contents (Elt F)),
    StableHlo.binary main_v113 main_v114 main_v115 (cmpf .oge : (⟨S40000x64, .f32⟩ : BufTy).Contents (Elt F) → (⟨S40000x64, .f32⟩ : BufTy).Contents (Elt F) → (⟨S40000x64, .i1⟩ : BufTy).Contents (Elt F)),
    StableHlo.nullary main_cst_22 (constant S_ .f32 0x3C23D70A#32),
    StableHlo.unary main_cst_22 main_v116 (broadcastInDim S40000x64 ![] bcast_S_S40000x64 : (⟨S_, .f32⟩ : BufTy).Contents (Elt F) → (⟨S40000x64, .f32⟩ : BufTy).Contents (Elt F)),
    StableHlo.binary main_v116 main_v113 main_v117 (mulf : (⟨S40000x64, .f32⟩ : BufTy).Contents (Elt F) → (⟨S40000x64, .f32⟩ : BufTy).Contents (Elt F) → (⟨S40000x64, .f32⟩ : BufTy).Contents (Elt F)),
    StableHlo.TRef.ternary (.of main_v115 : StableHlo.TRef sig ⟨S40000x64, .i1⟩) (.of main_v113 : StableHlo.TRef sig ⟨S40000x64, .f32⟩) (.of main_v117 : StableHlo.TRef sig ⟨S40000x64, .f32⟩) main_call5.v0 select ]

/-- Operations 208 … 264 of 441 (through the one writing `main_v148`): the second linear layer of the second branch, its column statistics, normalisation, scale, shift and rectifier, and the sum with that branch's first layer's output. -/
abbrev ops06 : List (HloOp τ sig (Elt F)) :=
  [ StableHlo.unary main_arg28 main_v119 ((transpose S64x64 [1, 0] · transposes_S64x64_S64x64_1_0) : (⟨S64x64, .f32⟩ : BufTy).Contents (Elt F) → (⟨S64x64, .f32⟩ : BufTy).Contents (Elt F)),
    StableHlo.binary main_v118 main_v119 main_v120 ((fun l r => Host.dotGeneral dot_S40000x64_S64x64_S40000x64_1_0_0_1_n_n none l r) : (⟨S40000x64, .f32⟩ : BufTy).Contents (Elt F) → (⟨S64x64, .f32⟩ : BufTy).Contents (Elt F) → (⟨S40000x64, .f32⟩ : BufTy).Contents (Elt F)),
    StableHlo.unary main_arg29 main_v121 (broadcastInDim S1x64 ![1] bcast_S64_S1x64_1 : (⟨S64, .f32⟩ : BufTy).Contents (Elt F) → (⟨S1x64, .f32⟩ : BufTy).Contents (Elt F)),
    StableHlo.unary main_v121 main_v122 (broadcastInDim S40000x64 ![0, 1] bcast_S1x64_S40000x64_0_1 : (⟨S1x64, .f32⟩ : BufTy).Contents (Elt F) → (⟨S40000x64, .f32⟩ : BufTy).Contents (Elt F)),
    StableHlo.binary main_v120 main_v122 main_v123 (addf : (⟨S40000x64, .f32⟩ : BufTy).Contents (Elt F) → (⟨S40000x64, .f32⟩ : BufTy).Contents (Elt F) → (⟨S40000x64, .f32⟩ : BufTy).Contents (Elt F)),
    StableHlo.nullary main_cst_23 (constant S_ .f32 0x00000000#32),
    StableHlo.binary main_v123 main_cst_23 main_v124 ((fun x v => Host.reduceAdd x v reducesTo_S40000x64_S64_d0 h_S_) : (⟨S40000x64, .f32⟩ : BufTy).Contents (Elt F) → (⟨S_, .f32⟩ : BufTy).Contents (Elt F) → (⟨S64, .f32⟩ : BufTy).Contents (Elt F)),
    StableHlo.nullary main_cst_24 (constant S_ .f32 0x471C4000#32),
    StableHlo.unary main_cst_24 main_v125 (broadcastInDim S64 ![] bcast_S_S64 : (⟨S_, .f32⟩ : BufTy).Contents (Elt F) → (⟨S64, .f32⟩ : BufTy).Contents (Elt F)),
    StableHlo.binary main_v124 main_v125 main_v126 (Host.divf : (⟨S64, .f32⟩ : BufTy).Contents (Elt F) → (⟨S64, .f32⟩ : BufTy).Contents (Elt F) → (⟨S64, .f32⟩ : BufTy).Contents (Elt F)),
    StableHlo.nullary main_c_25 (constantI S_ 32 0#32),
    StableHlo.TRef.nullary main_call6.cst (constant S_ .f32 0x00000000#32),
    StableHlo.TRef.binary (.of main_v123 : StableHlo.TRef sig ⟨S40000x64, .f32⟩) main_call6.cst main_call6.v0 (fun x v => Host.reduceAdd x v reducesTo_S40000x64_S64_d0 h_S_),
    StableHlo.TRef.unary main_call6.v0 main_call6.v1 (broadcastInDim S1x64 ![1] bcast_S64_S1x64_1),
    StableHlo.TRef.nullary main_call6.cst_0 (constant S_ .f32 0x471C4000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S40000x64 ![0, 1] bcast_S1x64_S40000x64_0_1),
    StableHlo.TRef.binary (.of main_v123 : StableHlo.TRef sig ⟨S40000x64, .f32⟩) main_call6.v4 main_call6.v5 subf,
    StableHlo.TRef.binary main_call6.v5 main_call6.v5 main_call6.v6 mulf,
    StableHlo.TRef.unary (.of main_c_25 : StableHlo.TRef sig ⟨S_, .i32⟩) main_call6.v7 (sitofp .f32),
    StableHlo.TRef.nullary main_call6.cst_1 (constant S_ .f32 0x471C4000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S40000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v126 main_v128 (broadcastInDim S1x64 ![1] bcast_S64_S1x64_1 : (⟨S64, .f32⟩ : BufTy).Contents (Elt F) → (⟨S1x64, .f32⟩ : BufTy).Contents (Elt F)),
    StableHlo.unary main_v128 main_v129 (broadcastInDim S40000x64 ![0, 1] bcast_S1x64_S40000x64_0_1 : (⟨S1x64, .f32⟩ : BufTy).Contents (Elt F) → (⟨S40000x64, .f32⟩ : BufTy).Contents (Elt F)),
    StableHlo.binary main_v123 main_v129 main_v130 (subf : (⟨S40000x64, .f32⟩ : BufTy).Contents (Elt F) → (⟨S40000x64, .f32⟩ : BufTy).Contents (Elt F) → (⟨S40000x64, .f32⟩ : BufTy).Contents (Elt F)),
    StableHlo.nullary main_cst_26 (constant S_ .f32 0x3727C5AC#32),
    StableHlo.unary main_cst_26 main_v131 (broadcastInDim S64 ![] bcast_S_S64 : (⟨S_, .f32⟩ : BufTy).Contents (Elt F) → (⟨S64, .f32⟩ : BufTy).Contents (Elt F)),
    StableHlo.binary main_v127 main_v131 main_v132 (addf : (⟨S64, .f32⟩ : BufTy).Contents (Elt F) → (⟨S64, .f32⟩ : BufTy).Contents (Elt F) → (⟨S64, .f32⟩ : BufTy).Contents (Elt F)),
    StableHlo.unary main_v132 main_v133 (Host.rsqrt : (⟨S64, .f32⟩ : BufTy).Contents (Elt F) → (⟨S64, .f32⟩ : BufTy).Contents (Elt F)),
    StableHlo.unary main_v133 main_v134 (broadcastInDim S1x64 ![1] bcast_S64_S1x64_1 : (⟨S64, .f32⟩ : BufTy).Contents (Elt F) → (⟨S1x64, .f32⟩ : BufTy).Contents (Elt F)),
    StableHlo.unary main_v134 main_v135 (broadcastInDim S40000x64 ![0, 1] bcast_S1x64_S40000x64_0_1 : (⟨S1x64, .f32⟩ : BufTy).Contents (Elt F) → (⟨S40000x64, .f32⟩ : BufTy).Contents (Elt F)),
    StableHlo.binary main_v130 main_v135 main_v136 (mulf : (⟨S40000x64, .f32⟩ : BufTy).Contents (Elt F) → (⟨S40000x64, .f32⟩ : BufTy).Contents (Elt F) → (⟨S40000x64, .f32⟩ : BufTy).Contents (Elt F)),
    StableHlo.unary main_arg30 main_v137 (broadcastInDim S1x64 ![1] bcast_S64_S1x64_1 : (⟨S64, .f32⟩ : BufTy).Contents (Elt F) → (⟨S1x64, .f32⟩ : BufTy).Contents (Elt F)),
    StableHlo.unary main_v137 main_v138 (broadcastInDim S40000x64 ![0, 1] bcast_S1x64_S40000x64_0_1 : (⟨S1x64, .f32⟩ : BufTy).Contents (Elt F) → (⟨S40000x64, .f32⟩ : BufTy).Contents (Elt F)),
    StableHlo.binary main_v136 main_v138 main_v139 (mulf : (⟨S40000x64, .f32⟩ : BufTy).Contents (Elt F) → (⟨S40000x64, .f32⟩ : BufTy).Contents (Elt F) → (⟨S40000x64, .f32⟩ : BufTy).Contents (Elt F)),
    StableHlo.unary main_arg31 main_v140 (broadcastInDim S1x64 ![1] bcast_S64_S1x64_1 : (⟨S64, .f32⟩ : BufTy).Contents (Elt F) → (⟨S1x64, .f32⟩ : BufTy).Contents (Elt F)),
    StableHlo.unary main_v140 main_v141 (broadcastInDim S40000x64 ![0, 1] bcast_S1x64_S40000x64_0_1 : (⟨S1x64, .f32⟩ : BufTy).Contents (Elt F) → (⟨S40000x64, .f32⟩ : BufTy).Contents (Elt F)),
    StableHlo.binary main_v139 main_v141 main_v142 (addf : (⟨S40000x64, .f32⟩ : BufTy).Contents (Elt F) → (⟨S40000x64, .f32⟩ : BufTy).Contents (Elt F) → (⟨S40000x64, .f32⟩ : BufTy).Contents (Elt F)),
    StableHlo.nullary main_cst_27 (constant S_ .f32 0x00000000#32),
    StableHlo.unary main_cst_27 main_v143 (broadcastInDim S40000x64 ![] bcast_S_S40000x64 : (⟨S_, .f32⟩ : BufTy).Contents (Elt F) → (⟨S40000x64, .f32⟩ : BufTy).Contents (Elt F)),
    StableHlo.binary main_v142 main_v143 main_v144 (cmpf .oge : (⟨S40000x64, .f32⟩ : BufTy).Contents (Elt F) → (⟨S40000x64, .f32⟩ : BufTy).Contents (Elt F) → (⟨S40000x64, .i1⟩ : BufTy).Contents (Elt F)),
    StableHlo.nullary main_cst_28 (constant S_ .f32 0x3C23D70A#32),
    StableHlo.unary main_cst_28 main_v145 (broadcastInDim S40000x64 ![] bcast_S_S40000x64 : (⟨S_, .f32⟩ : BufTy).Contents (Elt F) → (⟨S40000x64, .f32⟩ : BufTy).Contents (Elt F)),
    StableHlo.binary main_v145 main_v142 main_v146 (mulf : (⟨S40000x64, .f32⟩ : BufTy).Contents (Elt F) → (⟨S40000x64, .f32⟩ : BufTy).Contents (Elt F) → (⟨S40000x64, .f32⟩ : BufTy).Contents (Elt F)),
    StableHlo.TRef.ternary (.of main_v144 : StableHlo.TRef sig ⟨S40000x64, .i1⟩) (.of main_v142 : StableHlo.TRef sig ⟨S40000x64, .f32⟩) (.of main_v146 : StableHlo.TRef sig ⟨S40000x64, .f32⟩) main_call7.v0 select,
    StableHlo.binary main_v147 main_v118 main_v148 (addf : (⟨S40000x64, .f32⟩ : BufTy).Contents (Elt F) → (⟨S40000x64, .f32⟩ : BufTy).Contents (Elt F) → (⟨S40000x64, .f32⟩ : BufTy).Contents (Elt F)) ]

/-- Operations 265 … 292 of 441 (through the one writing `main_v172`): the two gates: a linear layer of each branch's output, the logistic function of it written `1 / (1 + exp (-x))`, times the second embedding table. -/
abbrev ops07 : List (HloOp τ sig (Elt F)) :=
  [ StableHlo.unary main_arg32 main_v149 ((transpose S64x64 [1, 0] · transposes_S64x64_S64x64_1_0) : (⟨S64x64, .f32⟩ : BufTy).Contents (Elt F) → (⟨S64x64, .f32⟩ : BufTy).Contents (Elt F)),
    StableHlo.binary main_v89 main_v149 main_v150 ((fun l r => Host.dotGeneral dot_S40000x64_S64x64_S40000x64_1_0_0_1_n_n none l r) : (⟨S40000x64, .f32⟩ : BufTy).Contents (Elt F) → (⟨S64x64, .f32⟩ : BufTy).Contents (Elt F) → (⟨S40000x64, .f32⟩ : BufTy).Contents (Elt F)),
    StableHlo.unary main_arg33 main_v151 (broadcastInDim S1x64 ![1] bcast_S64_S1x64_1 : (⟨S64, .f32⟩ : BufTy).Contents (Elt F) → (⟨S1x64, .f32⟩ : BufTy).Contents (Elt F)),
    StableHlo.unary main_v151 main_v152 (broadcastInDim S40000x64 ![0, 1] bcast_S1x64_S40000x64_0_1 : (⟨S1x64, .f32⟩ : BufTy).Contents (Elt F) → (⟨S40000x64, .f32⟩ : BufTy).Contents (Elt F)),
    StableHlo.binary main_v150 main_v152 main_v153 (addf : (⟨S40000x64, .f32⟩ : BufTy).Contents (Elt F) → (⟨S40000x64, .f32⟩ : BufTy).Contents (Elt F) → (⟨S40000x64, .f32⟩ : BufTy).Contents (Elt F)),
    StableHlo.unary main_v153 main_v154 (Host.negf : (⟨S40000x64, .f32⟩ : BufTy).Contents (Elt F) → (⟨S40000x64, .f32⟩ : BufTy).Contents (Elt F)),
    StableHlo.unary main_v154 main_v155 (Host.exp : (⟨S40000x64, .f32⟩ : BufTy).Contents (Elt F) → (⟨S40000x64, .f32⟩ : BufTy).Contents (Elt F)),
    StableHlo.nullary main_cst_29 (constant S_ .f32 0x3F800000#32),
    StableHlo.unary main_cst_29 main_v156 (broadcastInDim S40000x64 ![] bcast_S_S40000x64 : (⟨S_, .f32⟩ : BufTy).Contents (Elt F) → (⟨S40000x64, .f32⟩ : BufTy).Contents (Elt F)),
    StableHlo.binary main_v156 main_v155 main_v157 (addf : (⟨S40000x64, .f32⟩ : BufTy).Contents (Elt F) → (⟨S40000x64, .f32⟩ : BufTy).Contents (Elt F) → (⟨S40000x64, .f32⟩ : BufTy).Contents (Elt F)),
    StableHlo.nullary main_cst_30 (constant S_ .f32 0x3F800000#32),
    StableHlo.unary main_cst_30 main_v158 (broadcastInDim S40000x64 ![] bcast_S_S40000x64 : (⟨S_, .f32⟩ : BufTy).Contents (Elt F) → (⟨S40000x64, .f32⟩ : BufTy).Contents (Elt F)),
    StableHlo.binary main_v158 main_v157 main_v159 (Host.divf : (⟨S40000x64, .f32⟩ : BufTy).Contents (Elt F) → (⟨S40000x64, .f32⟩ : BufTy).Contents (Elt F) → (⟨S40000x64, .f32⟩ : BufTy).Contents (Elt F)),
    StableHlo.binary main_arg13 main_v159 main_v160 (mulf : (⟨S40000x64, .f32⟩ : BufTy).Contents (Elt F) → (⟨S40000x64, .f32⟩ : BufTy).Contents (Elt F) → (⟨S40000x64, .f32⟩ : BufTy).Contents (Elt F)),
    StableHlo.unary main_arg34 main_v161 ((transpose S64x64 [1, 0] · transposes_S64x64_S64x64_1_0) : (⟨S64x64, .f32⟩ : BufTy).Contents (Elt F) → (⟨S64x64, .f32⟩ : BufTy).Contents (Elt F)),
    StableHlo.binary main_v148 main_v161 main_v162 ((fun l r => Host.dotGeneral dot_S40000x64_S64x64_S40000x64_1_0_0_1_n_n none l r) : (⟨S40000x64, .f32⟩ : BufTy).Contents (Elt F) → (⟨S64x64, .f32⟩ : BufTy).Contents (Elt F) → (⟨S40000x64, .f32⟩ : BufTy).Contents (Elt F)),
    StableHlo.unary main_arg35 main_v163 (broadcastInDim S1x64 ![1] bcast_S64_S1x64_1 : (⟨S64, .f32⟩ : BufTy).Contents (Elt F) → (⟨S1x64, .f32⟩ : BufTy).Contents (Elt F)),
    StableHlo.unary main_v163 main_v164 (broadcastInDim S40000x64 ![0, 1] bcast_S1x64_S40000x64_0_1 : (⟨S1x64, .f32⟩ : BufTy).Contents (Elt F) → (⟨S40000x64, .f32⟩ : BufTy).Contents (Elt F)),
    StableHlo.binary main_v162 main_v164 main_v165 (addf : (⟨S40000x64, .f32⟩ : BufTy).Contents (Elt F) → (⟨S40000x64, .f32⟩ : BufTy).Contents (Elt F) → (⟨S40000x64, .f32⟩ : BufTy).Contents (Elt F)),
    StableHlo.unary main_v165 main_v166 (Host.negf : (⟨S40000x64, .f32⟩ : BufTy).Contents (Elt F) → (⟨S40000x64, .f32⟩ : BufTy).Contents (Elt F)),
    StableHlo.unary main_v166 main_v167 (Host.exp : (⟨S40000x64, .f32⟩ : BufTy).Contents (Elt F) → (⟨S40000x64, .f32⟩ : BufTy).Contents (Elt F)),
    StableHlo.nullary main_cst_31 (constant S_ .f32 0x3F800000#32),
    StableHlo.unary main_cst_31 main_v168 (broadcastInDim S40000x64 ![] bcast_S_S40000x64 : (⟨S_, .f32⟩ : BufTy).Contents (Elt F) → (⟨S40000x64, .f32⟩ : BufTy).Contents (Elt F)),
    StableHlo.binary main_v168 main_v167 main_v169 (addf : (⟨S40000x64, .f32⟩ : BufTy).Contents (Elt F) → (⟨S40000x64, .f32⟩ : BufTy).Contents (Elt F) → (⟨S40000x64, .f32⟩ : BufTy).Contents (Elt F)),
    StableHlo.nullary main_cst_32 (constant S_ .f32 0x3F800000#32),
    StableHlo.unary main_cst_32 main_v170 (broadcastInDim S40000x64 ![] bcast_S_S40000x64 : (⟨S_, .f32⟩ : BufTy).Contents (Elt F) → (⟨S40000x64, .f32⟩ : BufTy).Contents (Elt F)),
    StableHlo.binary main_v170 main_v169 main_v171 (Host.divf : (⟨S40000x64, .f32⟩ : BufTy).Contents (Elt F) → (⟨S40000x64, .f32⟩ : BufTy).Contents (Elt F) → (⟨S40000x64, .f32⟩ : BufTy).Contents (Elt F)),
    StableHlo.binary main_arg13 main_v171 main_v172 (mulf : (⟨S40000x64, .f32⟩ : BufTy).Contents (Elt F) → (⟨S40000x64, .f32⟩ : BufTy).Contents (Elt F) → (⟨S40000x64, .f32⟩ : BufTy).Contents (Elt F)) ]

/-- Operations 293 … 324 of 441 (through the one writing `main_v198`): the first gated table's two products with the first weighted graph on the second table's nodes. -/
abbrev ops08 : List (HloOp τ sig (Elt F)) :=
  [ StableHlo.unary main_arg5 main_v173 (broadcastInDim S1000000x1 ![0] bcast_S1000000_S1000000x1_0 : (⟨S1000000, .f32⟩ : BufTy).Contents (Elt F) → (⟨S1000000x1, .f32⟩ : BufTy).Contents (Elt F)),
    StableHlo.nullary main_c_33 (constantI S_ 32 0#32),
    StableHlo.unary main_c_33 main_v174 (broadcastInDim S1000000 ![] bcast_S_S1000000 : (⟨S_, .i32⟩ : BufTy).Contents (Elt F) → (⟨S1000000, .i32⟩ : BufTy).Contents (Elt F)),
    StableHlo.binary main_arg4 main_v174 main_v175 (cmpi .slt : (⟨S1000000, .i32⟩ : BufTy).Contents (Elt F) → (⟨S1000000, .i32⟩ : BufTy).Contents (Elt F) → (⟨S1000000, .i1⟩ : BufTy).Contents (Elt F)),
    StableHlo.nullary main_c_34 (constantI S_ 32 40000#32),
    StableHlo.unary main_c_34 main_v176 (broadcastInDim S1000000 ![] bcast_S_S1000000 : (⟨S_, .i32⟩ : BufTy).Contents (Elt F) → (⟨S1000000, .i32⟩ : BufTy).Contents (Elt F)),
    StableHlo.binary main_arg4 main_v176 main_v177 (addi : (⟨S1000000, .i32⟩ : BufTy).Contents (Elt F) → (⟨S1000000, .i32⟩ : BufTy).Contents (Elt F) → (⟨S1000000, .i32⟩ : BufTy).Contents (Elt F)),
    StableHlo.ternary main_v175 main_v177 main_arg4 main_v178 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v178 main_v179 (broadcastInDim S1000000x1 ![0] bcast_S1000000_S1000000x1_0 : (⟨S1000000, .i32⟩ : BufTy).Contents (Elt F) → (⟨S1000000x1, .i32⟩ : BufTy).Contents (Elt F)),
    StableHlo.binary main_v160 main_v179 main_v180 ((fun x i => Host.gather gather_S40000x64_S1000000x1_S1000000x64_1_0_n_n_0_1_164 x i) : (⟨S40000x64, .f32⟩ : BufTy).Contents (Elt F) → (⟨S1000000x1, .i32⟩ : BufTy).Contents (Elt F) → (⟨S1000000x64, .f32⟩ : BufTy).Contents (Elt F)),
    StableHlo.unary main_v173 main_v181 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v181 main_v180 main_v182 (mulf : (⟨S1000000x64, .f32⟩ : BufTy).Contents (Elt F) → (⟨S1000000x64, .f32⟩ : BufTy).Contents (Elt F) → (⟨S1000000x64, .f32⟩ : BufTy).Contents (Elt F)),
    StableHlo.nullary main_cst_35 (constant S_ .f32 0x00000000#32),
    StableHlo.unary main_cst_35 main_v183 (broadcastInDim S40000x64 ![] bcast_S_S40000x64 : (⟨S_, .f32⟩ : BufTy).Contents (Elt F) → (⟨S40000x64, .f32⟩ : BufTy).Contents (Elt F)),
    StableHlo.unary main_arg3 main_v184 (broadcastInDim S1000000x1 ![0] bcast_S1000000_S1000000x1_0 : (⟨S1000000, .i32⟩ : BufTy).Contents (Elt F) → (⟨S1000000x1, .i32⟩ : BufTy).Contents (Elt F)),
    StableHlo.ternary main_v183 main_v184 main_v182 main_v185 ((fun x i u => Host.scatterAdd scatter_S40000x64_S1000000x1_S1000000x64_1_0_0_1 x i u) : (⟨S40000x64, .f32⟩ : BufTy).Contents (Elt F) → (⟨S1000000x1, .i32⟩ : BufTy).Contents (Elt F) → (⟨S1000000x64, .f32⟩ : BufTy).Contents (Elt F) → (⟨S40000x64, .f32⟩ : BufTy).Contents (Elt F)),
    StableHlo.unary main_arg5 main_v186 (broadcastInDim S1000000x1 ![0] bcast_S1000000_S1000000x1_0 : (⟨S1000000, .f32⟩ : BufTy).Contents (Elt F) → (⟨S1000000x1, .f32⟩ : BufTy).Contents (Elt F)),
    StableHlo.nullary main_c_36 (constantI S_ 32 0#32),
    StableHlo.unary main_c_36 main_v187 (broadcastInDim S1000000 ![] bcast_S_S1000000 : (⟨S_, .i32⟩ : BufTy).Contents (Elt F) → (⟨S1000000, .i32⟩ : BufTy).Contents (Elt F)),
    StableHlo.binary main_arg4 main_v187 main_v188 (cmpi .slt : (⟨S1000000, .i32⟩ : BufTy).Contents (Elt F) → (⟨S1000000, .i32⟩ : BufTy).Contents (Elt F) → (⟨S1000000, .i1⟩ : BufTy).Contents (Elt F)),
    StableHlo.nullary main_c_37 (constantI S_ 32 40000#32),
    StableHlo.unary main_c_37 main_v189 (broadcastInDim S1000000 ![] bcast_S_S1000000 : (⟨S_, .i32⟩ : BufTy).Contents (Elt F) → (⟨S1000000, .i32⟩ : BufTy).Contents (Elt F)),
    StableHlo.binary main_arg4 main_v189 main_v190 (addi : (⟨S1000000, .i32⟩ : BufTy).Contents (Elt F) → (⟨S1000000, .i32⟩ : BufTy).Contents (Elt F) → (⟨S1000000, .i32⟩ : BufTy).Contents (Elt F)),
    StableHlo.ternary main_v188 main_v190 main_arg4 main_v191 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v191 main_v192 (broadcastInDim S1000000x1 ![0] bcast_S1000000_S1000000x1_0 : (⟨S1000000, .i32⟩ : BufTy).Contents (Elt F) → (⟨S1000000x1, .i32⟩ : BufTy).Contents (Elt F)),
    StableHlo.binary main_v185 main_v192 main_v193 ((fun x i => Host.gather gather_S40000x64_S1000000x1_S1000000x64_1_0_n_n_0_1_164 x i) : (⟨S40000x64, .f32⟩ : BufTy).Contents (Elt F) → (⟨S1000000x1, .i32⟩ : BufTy).Contents (Elt F) → (⟨S1000000x64, .f32⟩ : BufTy).Contents (Elt F)),
    StableHlo.unary main_v186 main_v194 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v194 main_v193 main_v195 (mulf : (⟨S1000000x64, .f32⟩ : BufTy).Contents (Elt F) → (⟨S1000000x64, .f32⟩ : BufTy).Contents (Elt F) → (⟨S1000000x64, .f32⟩ : BufTy).Contents (Elt F)),
    StableHlo.nullary main_cst_38 (constant S_ .f32 0x00000000#32),
    StableHlo.unary main_cst_38 main_v196 (broadcastInDim S40000x64 ![] bcast_S_S40000x64 : (⟨S_, .f32⟩ : BufTy).Contents (Elt F) → (⟨S40000x64, .f32⟩ : BufTy).Contents (Elt F)),
    StableHlo.unary main_arg3 main_v197 (broadcastInDim S1000000x1 ![0] bcast_S1000000_S1000000x1_0 : (⟨S1000000, .i32⟩ : BufTy).Contents (Elt F) → (⟨S1000000x1, .i32⟩ : BufTy).Contents (Elt F)),
    StableHlo.ternary main_v196 main_v197 main_v195 main_v198 ((fun x i u => Host.scatterAdd scatter_S40000x64_S1000000x1_S1000000x64_1_0_0_1 x i u) : (⟨S40000x64, .f32⟩ : BufTy).Contents (Elt F) → (⟨S1000000x1, .i32⟩ : BufTy).Contents (Elt F) → (⟨S1000000x64, .f32⟩ : BufTy).Contents (Elt F) → (⟨S40000x64, .f32⟩ : BufTy).Contents (Elt F)) ]

/-- Operations 325 … 356 of 441 (through the one writing `main_v224`): the second gated table's two products with the second weighted graph on those nodes. -/
abbrev ops09 : List (HloOp τ sig (Elt F)) :=
  [ StableHlo.unary main_arg8 main_v199 (broadcastInDim S1000000x1 ![0] bcast_S1000000_S1000000x1_0 : (⟨S1000000, .f32⟩ : BufTy).Contents (Elt F) → (⟨S1000000x1, .f32⟩ : BufTy).Contents (Elt F)),
    StableHlo.nullary main_c_39 (constantI S_ 32 0#32),
    StableHlo.unary main_c_39 main_v200 (broadcastInDim S1000000 ![] bcast_S_S1000000 : (⟨S_, .i32⟩ : BufTy).Contents (Elt F) → (⟨S1000000, .i32⟩ : BufTy).Contents (Elt F)),
    StableHlo.binary main_arg7 main_v200 main_v201 (cmpi .slt : (⟨S1000000, .i32⟩ : BufTy).Contents (Elt F) → (⟨S1000000, .i32⟩ : BufTy).Contents (Elt F) → (⟨S1000000, .i1⟩ : BufTy).Contents (Elt F)),
    StableHlo.nullary main_c_40 (constantI S_ 32 40000#32),
    StableHlo.unary main_c_40 main_v202 (broadcastInDim S1000000 ![] bcast_S_S1000000 : (⟨S_, .i32⟩ : BufTy).Contents (Elt F) → (⟨S1000000, .i32⟩ : BufTy).Contents (Elt F)),
    StableHlo.binary main_arg7 main_v202 main_v203 (addi : (⟨S1000000, .i32⟩ : BufTy).Contents (Elt F) → (⟨S1000000, .i32⟩ : BufTy).Contents (Elt F) → (⟨S1000000, .i32⟩ : BufTy).Contents (Elt F)),
    StableHlo.ternary main_v201 main_v203 main_arg7 main_v204 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v204 main_v205 (broadcastInDim S1000000x1 ![0] bcast_S1000000_S1000000x1_0 : (⟨S1000000, .i32⟩ : BufTy).Contents (Elt F) → (⟨S1000000x1, .i32⟩ : BufTy).Contents (Elt F)),
    StableHlo.binary main_v172 main_v205 main_v206 ((fun x i => Host.gather gather_S40000x64_S1000000x1_S1000000x64_1_0_n_n_0_1_164 x i) : (⟨S40000x64, .f32⟩ : BufTy).Contents (Elt F) → (⟨S1000000x1, .i32⟩ : BufTy).Contents (Elt F) → (⟨S1000000x64, .f32⟩ : BufTy).Contents (Elt F)),
    StableHlo.unary main_v199 main_v207 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v207 main_v206 main_v208 (mulf : (⟨S1000000x64, .f32⟩ : BufTy).Contents (Elt F) → (⟨S1000000x64, .f32⟩ : BufTy).Contents (Elt F) → (⟨S1000000x64, .f32⟩ : BufTy).Contents (Elt F)),
    StableHlo.nullary main_cst_41 (constant S_ .f32 0x00000000#32),
    StableHlo.unary main_cst_41 main_v209 (broadcastInDim S40000x64 ![] bcast_S_S40000x64 : (⟨S_, .f32⟩ : BufTy).Contents (Elt F) → (⟨S40000x64, .f32⟩ : BufTy).Contents (Elt F)),
    StableHlo.unary main_arg6 main_v210 (broadcastInDim S1000000x1 ![0] bcast_S1000000_S1000000x1_0 : (⟨S1000000, .i32⟩ : BufTy).Contents (Elt F) → (⟨S1000000x1, .i32⟩ : BufTy).Contents (Elt F)),
    StableHlo.ternary main_v209 main_v210 main_v208 main_v211 ((fun x i u => Host.scatterAdd scatter_S40000x64_S1000000x1_S1000000x64_1_0_0_1 x i u) : (⟨S40000x64, .f32⟩ : BufTy).Contents (Elt F) → (⟨S1000000x1, .i32⟩ : BufTy).Contents (Elt F) → (⟨S1000000x64, .f32⟩ : BufTy).Contents (Elt F) → (⟨S40000x64, .f32⟩ : BufTy).Contents (Elt F)),
    StableHlo.unary main_arg8 main_v212 (broadcastInDim S1000000x1 ![0] bcast_S1000000_S1000000x1_0 : (⟨S1000000, .f32⟩ : BufTy).Contents (Elt F) → (⟨S1000000x1, .f32⟩ : BufTy).Contents (Elt F)),
    StableHlo.nullary main_c_42 (constantI S_ 32 0#32),
    StableHlo.unary main_c_42 main_v213 (broadcastInDim S1000000 ![] bcast_S_S1000000 : (⟨S_, .i32⟩ : BufTy).Contents (Elt F) → (⟨S1000000, .i32⟩ : BufTy).Contents (Elt F)),
    StableHlo.binary main_arg7 main_v213 main_v214 (cmpi .slt : (⟨S1000000, .i32⟩ : BufTy).Contents (Elt F) → (⟨S1000000, .i32⟩ : BufTy).Contents (Elt F) → (⟨S1000000, .i1⟩ : BufTy).Contents (Elt F)),
    StableHlo.nullary main_c_43 (constantI S_ 32 40000#32),
    StableHlo.unary main_c_43 main_v215 (broadcastInDim S1000000 ![] bcast_S_S1000000 : (⟨S_, .i32⟩ : BufTy).Contents (Elt F) → (⟨S1000000, .i32⟩ : BufTy).Contents (Elt F)),
    StableHlo.binary main_arg7 main_v215 main_v216 (addi : (⟨S1000000, .i32⟩ : BufTy).Contents (Elt F) → (⟨S1000000, .i32⟩ : BufTy).Contents (Elt F) → (⟨S1000000, .i32⟩ : BufTy).Contents (Elt F)),
    StableHlo.ternary main_v214 main_v216 main_arg7 main_v217 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v217 main_v218 (broadcastInDim S1000000x1 ![0] bcast_S1000000_S1000000x1_0 : (⟨S1000000, .i32⟩ : BufTy).Contents (Elt F) → (⟨S1000000x1, .i32⟩ : BufTy).Contents (Elt F)),
    StableHlo.binary main_v211 main_v218 main_v219 ((fun x i => Host.gather gather_S40000x64_S1000000x1_S1000000x64_1_0_n_n_0_1_164 x i) : (⟨S40000x64, .f32⟩ : BufTy).Contents (Elt F) → (⟨S1000000x1, .i32⟩ : BufTy).Contents (Elt F) → (⟨S1000000x64, .f32⟩ : BufTy).Contents (Elt F)),
    StableHlo.unary main_v212 main_v220 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v220 main_v219 main_v221 (mulf : (⟨S1000000x64, .f32⟩ : BufTy).Contents (Elt F) → (⟨S1000000x64, .f32⟩ : BufTy).Contents (Elt F) → (⟨S1000000x64, .f32⟩ : BufTy).Contents (Elt F)),
    StableHlo.nullary main_cst_44 (constant S_ .f32 0x00000000#32),
    StableHlo.unary main_cst_44 main_v222 (broadcastInDim S40000x64 ![] bcast_S_S40000x64 : (⟨S_, .f32⟩ : BufTy).Contents (Elt F) → (⟨S40000x64, .f32⟩ : BufTy).Contents (Elt F)),
    StableHlo.unary main_arg6 main_v223 (broadcastInDim S1000000x1 ![0] bcast_S1000000_S1000000x1_0 : (⟨S1000000, .i32⟩ : BufTy).Contents (Elt F) → (⟨S1000000x1, .i32⟩ : BufTy).Contents (Elt F)),
    StableHlo.ternary main_v222 main_v223 main_v221 main_v224 ((fun x i u => Host.scatterAdd scatter_S40000x64_S1000000x1_S1000000x64_1_0_0_1 x i u) : (⟨S40000x64, .f32⟩ : BufTy).Contents (Elt F) → (⟨S1000000x1, .i32⟩ : BufTy).Contents (Elt F) → (⟨S1000000x64, .f32⟩ : BufTy).Contents (Elt F) → (⟨S40000x64, .f32⟩ : BufTy).Contents (Elt F)) ]

/-- Operations 357 … 384 of 441 (through the one writing `main_v247`): the product of the third weighted graph with the first of the two results, and of the second result the gathered rows scaled by the edges' weights. -/
abbrev ops10 : List (HloOp τ sig (Elt F)) :=
  [ StableHlo.unary main_arg11 main_v225 (broadcastInDim S1000000x1 ![0] bcast_S1000000_S1000000x1_0 : (⟨S1000000, .f32⟩ : BufTy).Contents (Elt F) → (⟨S1000000x1, .f32⟩ : BufTy).Contents (Elt F)),
    StableHlo.nullary main_c_45 (constantI S_ 32 0#32),
    StableHlo.unary main_c_45 main_v226 (broadcastInDim S1000000 ![] bcast_S_S1000000 : (⟨S_, .i32⟩ : BufTy).Contents (Elt F) → (⟨S1000000, .i32⟩ : BufTy).Contents (Elt F)),
    StableHlo.binary main_arg10 main_v226 main_v227 (cmpi .slt : (⟨S1000000, .i32⟩ : BufTy).Contents (Elt F) → (⟨S1000000, .i32⟩ : BufTy).Contents (Elt F) → (⟨S1000000, .i1⟩ : BufTy).Contents (Elt F)),
    StableHlo.nullary main_c_46 (constantI S_ 32 40000#32),
    StableHlo.unary main_c_46 main_v228 (broadcastInDim S1000000 ![] bcast_S_S1000000 : (⟨S_, .i32⟩ : BufTy).Contents (Elt F) → (⟨S1000000, .i32⟩ : BufTy).Contents (Elt F)),
    StableHlo.binary main_arg10 main_v228 main_v229 (addi : (⟨S1000000, .i32⟩ : BufTy).Contents (Elt F) → (⟨S1000000, .i32⟩ : BufTy).Contents (Elt F) → (⟨S1000000, .i32⟩ : BufTy).Contents (Elt F)),
    StableHlo.ternary main_v227 main_v229 main_arg10 main_v230 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v230 main_v231 (broadcastInDim S1000000x1 ![0] bcast_S1000000_S1000000x1_0 : (⟨S1000000, .i32⟩ : BufTy).Contents (Elt F) → (⟨S1000000x1, .i32⟩ : BufTy).Contents (Elt F)),
    StableHlo.binary main_v198 main_v231 main_v232 ((fun x i => Host.gather gather_S40000x64_S1000000x1_S1000000x64_1_0_n_n_0_1_164 x i) : (⟨S40000x64, .f32⟩ : BufTy).Contents (Elt F) → (⟨S1000000x1, .i32⟩ : BufTy).Contents (Elt F) → (⟨S1000000x64, .f32⟩ : BufTy).Contents (Elt F)),
    StableHlo.unary main_v225 main_v233 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v233 main_v232 main_v234 (mulf : (⟨S1000000x64, .f32⟩ : BufTy).Contents (Elt F) → (⟨S1000000x64, .f32⟩ : BufTy).Contents (Elt F) → (⟨S1000000x64, .f32⟩ : BufTy).Contents (Elt F)),
    StableHlo.nullary main_cst_47 (constant S_ .f32 0x00000000#32),
    StableHlo.unary main_cst_47 main_v235 (broadcastInDim S30000x64 ![] bcast_S_S30000x64 : (⟨S_, .f32⟩ : BufTy).Contents (Elt F) → (⟨S30000x64, .f32⟩ : BufTy).Contents (Elt F)),
    StableHlo.unary main_arg9 main_v236 (broadcastInDim S1000000x1 ![0] bcast_S1000000_S1000000x1_0 : (⟨S1000000, .i32⟩ : BufTy).Contents (Elt F) → (⟨S1000000x1, .i32⟩ : BufTy).Contents (Elt F)),
    StableHlo.ternary main_v235 main_v236 main_v234 main_v237 ((fun x i u => Host.scatterAdd scatter_S30000x64_S1000000x1_S1000000x64_1_0_0_1 x i u) : (⟨S30000x64, .f32⟩ : BufTy).Contents (Elt F) → (⟨S1000000x1, .i32⟩ : BufTy).Contents (Elt F) → (⟨S1000000x64, .f32⟩ : BufTy).Contents (Elt F) → (⟨S30000x64, .f32⟩ : BufTy).Contents (Elt F)),
    StableHlo.unary main_arg11 main_v238 (broadcastInDim S1000000x1 ![0] bcast_S1000000_S1000000x1_0 : (⟨S1000000, .f32⟩ : BufTy).Contents (Elt F) → (⟨S1000000x1, .f32⟩ : BufTy).Contents (Elt F)),
    StableHlo.nullary main_c_48 (constantI S_ 32 0#32),
    StableHlo.unary main_c_48 main_v239 (broadcastInDim S1000000 ![] bcast_S_S1000000 : (⟨S_, .i32⟩ : BufTy).Contents (Elt F) → (⟨S1000000, .i32⟩ : BufTy).Contents (Elt F)),
    StableHlo.binary main_arg10 main_v239 main_v240 (cmpi .slt : (⟨S1000000, .i32⟩ : BufTy).Contents (Elt F) → (⟨S1000000, .i32⟩ : BufTy).Contents (Elt F) → (⟨S1000000, .i1⟩ : BufTy).Contents (Elt F)),
    StableHlo.nullary main_c_49 (constantI S_ 32 40000#32),
    StableHlo.unary main_c_49 main_v241 (broadcastInDim S1000000 ![] bcast_S_S1000000 : (⟨S_, .i32⟩ : BufTy).Contents (Elt F) → (⟨S1000000, .i32⟩ : BufTy).Contents (Elt F)),
    StableHlo.binary main_arg10 main_v241 main_v242 (addi : (⟨S1000000, .i32⟩ : BufTy).Contents (Elt F) → (⟨S1000000, .i32⟩ : BufTy).Contents (Elt F) → (⟨S1000000, .i32⟩ : BufTy).Contents (Elt F)),
    StableHlo.ternary main_v240 main_v242 main_arg10 main_v243 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v243 main_v244 (broadcastInDim S1000000x1 ![0] bcast_S1000000_S1000000x1_0 : (⟨S1000000, .i32⟩ : BufTy).Contents (Elt F) → (⟨S1000000x1, .i32⟩ : BufTy).Contents (Elt F)),
    StableHlo.binary main_v224 main_v244 main_v245 ((fun x i => Host.gather gather_S40000x64_S1000000x1_S1000000x64_1_0_n_n_0_1_164 x i) : (⟨S40000x64, .f32⟩ : BufTy).Contents (Elt F) → (⟨S1000000x1, .i32⟩ : BufTy).Contents (Elt F) → (⟨S1000000x64, .f32⟩ : BufTy).Contents (Elt F)),
    StableHlo.unary main_v238 main_v246 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v246 main_v245 main_v247 (mulf : (⟨S1000000x64, .f32⟩ : BufTy).Contents (Elt F) → (⟨S1000000x64, .f32⟩ : BufTy).Contents (Elt F) → (⟨S1000000x64, .f32⟩ : BufTy).Contents (Elt F)) ]

/-- Operations 385 … 388 of 441 (through the one writing `main_v250`): the rest of that product: the zero table, the target rows' indices, and the sum into them. -/
abbrev ops11 : List (HloOp τ sig (Elt F)) :=
  [ StableHlo.nullary main_cst_50 (constant S_ .f32 0x00000000#32),
    StableHlo.unary main_cst_50 main_v248 (broadcastInDim S30000x64 ![] bcast_S_S30000x64 : (⟨S_, .f32⟩ : BufTy).Contents (Elt F) → (⟨S30000x64, .f32⟩ : BufTy).Contents (Elt F)),
    StableHlo.unary main_arg9 main_v249 (broadcastInDim S1000000x1 ![0] bcast_S1000000_S1000000x1_0 : (⟨S1000000, .i32⟩ : BufTy).Contents (Elt F) → (⟨S1000000x1, .i32⟩ : BufTy).Contents (Elt F)),
    StableHlo.ternary main_v248 main_v249 main_v247 main_v250 ((fun x i u => Host.scatterAdd scatter_S30000x64_S1000000x1_S1000000x64_1_0_0_1 x i u) : (⟨S30000x64, .f32⟩ : BufTy).Contents (Elt F) → (⟨S1000000x1, .i32⟩ : BufTy).Contents (Elt F) → (⟨S1000000x64, .f32⟩ : BufTy).Contents (Elt F) → (⟨S30000x64, .f32⟩ : BufTy).Contents (Elt F)) ]

/-- Operations 389 … 441 of 441 (through the one writing `main_v296`): the two pairs of tables stacked, the shared linear layer, rectifier and score of each stack, the softmax over the two scores (their maximum subtracted, the exponentials divided by their sum), the two stacks weighted by it and summed, and the sum with the mean of the first stage. -/
abbrev ops12 : List (HloOp τ sig (Elt F)) :=
  [ StableHlo.binary main_v237 main_v198 main_v251 ((fun a b => concatenate S70000x64 0 [⟨S30000x64, a⟩, ⟨S40000x64, b⟩] concatenates_S30000x64_S40000x64_S70000x64_d0) : (⟨S30000x64, .f32⟩ : BufTy).Contents (Elt F) → (⟨S40000x64, .f32⟩ : BufTy).Contents (Elt F) → (⟨S70000x64, .f32⟩ : BufTy).Contents (Elt F)),
    StableHlo.binary main_v250 main_v224 main_v252 ((fun a b => concatenate S70000x64 0 [⟨S30000x64, a⟩, ⟨S40000x64, b⟩] concatenates_S30000x64_S40000x64_S70000x64_d0) : (⟨S30000x64, .f32⟩ : BufTy).Contents (Elt F) → (⟨S40000x64, .f32⟩ : BufTy).Contents (Elt F) → (⟨S70000x64, .f32⟩ : BufTy).Contents (Elt F)),
    StableHlo.unary main_arg36 main_v253 ((transpose S64x64 [1, 0] · transposes_S64x64_S64x64_1_0) : (⟨S64x64, .f32⟩ : BufTy).Contents (Elt F) → (⟨S64x64, .f32⟩ : BufTy).Contents (Elt F)),
    StableHlo.binary main_v251 main_v253 main_v254 ((fun l r => Host.dotGeneral dot_S70000x64_S64x64_S70000x64_1_0_0_1_n_n none l r) : (⟨S70000x64, .f32⟩ : BufTy).Contents (Elt F) → (⟨S64x64, .f32⟩ : BufTy).Contents (Elt F) → (⟨S70000x64, .f32⟩ : BufTy).Contents (Elt F)),
    StableHlo.unary main_arg37 main_v255 (broadcastInDim S1x64 ![1] bcast_S64_S1x64_1 : (⟨S64, .f32⟩ : BufTy).Contents (Elt F) → (⟨S1x64, .f32⟩ : BufTy).Contents (Elt F)),
    StableHlo.unary main_v255 main_v256 (broadcastInDim S70000x64 ![0, 1] bcast_S1x64_S70000x64_0_1 : (⟨S1x64, .f32⟩ : BufTy).Contents (Elt F) → (⟨S70000x64, .f32⟩ : BufTy).Contents (Elt F)),
    StableHlo.binary main_v254 main_v256 main_v257 (addf : (⟨S70000x64, .f32⟩ : BufTy).Contents (Elt F) → (⟨S70000x64, .f32⟩ : BufTy).Contents (Elt F) → (⟨S70000x64, .f32⟩ : BufTy).Contents (Elt F)),
    StableHlo.nullary main_cst_51 (constant S_ .f32 0x00000000#32),
    StableHlo.unary main_cst_51 main_v258 (broadcastInDim S70000x64 ![] bcast_S_S70000x64 : (⟨S_, .f32⟩ : BufTy).Contents (Elt F) → (⟨S70000x64, .f32⟩ : BufTy).Contents (Elt F)),
    StableHlo.binary main_v257 main_v258 main_v259 (cmpf .oge : (⟨S70000x64, .f32⟩ : BufTy).Contents (Elt F) → (⟨S70000x64, .f32⟩ : BufTy).Contents (Elt F) → (⟨S70000x64, .i1⟩ : BufTy).Contents (Elt F)),
    StableHlo.nullary main_cst_52 (constant S_ .f32 0x3C23D70A#32),
    StableHlo.unary main_cst_52 main_v260 (broadcastInDim S70000x64 ![] bcast_S_S70000x64 : (⟨S_, .f32⟩ : BufTy).Contents (Elt F) → (⟨S70000x64, .f32⟩ : BufTy).Contents (Elt F)),
    StableHlo.binary main_v260 main_v257 main_v261 (mulf : (⟨S70000x64, .f32⟩ : BufTy).Contents (Elt F) → (⟨S70000x64, .f32⟩ : BufTy).Contents (Elt F) → (⟨S70000x64, .f32⟩ : BufTy).Contents (Elt F)),
    StableHlo.TRef.ternary (.of main_v259 : StableHlo.TRef sig ⟨S70000x64, .i1⟩) (.of main_v257 : StableHlo.TRef sig ⟨S70000x64, .f32⟩) (.of main_v261 : StableHlo.TRef sig ⟨S70000x64, .f32⟩) main_call8.v0 select,
    StableHlo.unary main_arg38 main_v263 ((transpose S64x1 [1, 0] · transposes_S1x64_S64x1_1_0) : (⟨S1x64, .f32⟩ : BufTy).Contents (Elt F) → (⟨S64x1, .f32⟩ : BufTy).Contents (Elt F)),
    StableHlo.binary main_v262 main_v263 main_v264 ((fun l r => Host.dotGeneral dot_S70000x64_S64x1_S70000x1_1_0_0_1_n_n none l r) : (⟨S70000x64, .f32⟩ : BufTy).Contents (Elt F) → (⟨S64x1, .f32⟩ : BufTy).Contents (Elt F) → (⟨S70000x1, .f32⟩ : BufTy).Contents (Elt F)),
    StableHlo.unary main_arg36 main_v265 ((transpose S64x64 [1, 0] · transposes_S64x64_S64x64_1_0) : (⟨S64x64, .f32⟩ : BufTy).Contents (Elt F) → (⟨S64x64, .f32⟩ : BufTy).Contents (Elt F)),
    StableHlo.binary main_v252 main_v265 main_v266 ((fun l r => Host.dotGeneral dot_S70000x64_S64x64_S70000x64_1_0_0_1_n_n none l r) : (⟨S70000x64, .f32⟩ : BufTy).Contents (Elt F) → (⟨S64x64, .f32⟩ : BufTy).Contents (Elt F) → (⟨S70000x64, .f32⟩ : BufTy).Contents (Elt F)),
    StableHlo.unary main_arg37 main_v267 (broadcastInDim S1x64 ![1] bcast_S64_S1x64_1 : (⟨S64, .f32⟩ : BufTy).Contents (Elt F) → (⟨S1x64, .f32⟩ : BufTy).Contents (Elt F)),
    StableHlo.unary main_v267 main_v268 (broadcastInDim S70000x64 ![0, 1] bcast_S1x64_S70000x64_0_1 : (⟨S1x64, .f32⟩ : BufTy).Contents (Elt F) → (⟨S70000x64, .f32⟩ : BufTy).Contents (Elt F)),
    StableHlo.binary main_v266 main_v268 main_v269 (addf : (⟨S70000x64, .f32⟩ : BufTy).Contents (Elt F) → (⟨S70000x64, .f32⟩ : BufTy).Contents (Elt F) → (⟨S70000x64, .f32⟩ : BufTy).Contents (Elt F)),
    StableHlo.nullary main_cst_53 (constant S_ .f32 0x00000000#32),
    StableHlo.unary main_cst_53 main_v270 (broadcastInDim S70000x64 ![] bcast_S_S70000x64 : (⟨S_, .f32⟩ : BufTy).Contents (Elt F) → (⟨S70000x64, .f32⟩ : BufTy).Contents (Elt F)),
    StableHlo.binary main_v269 main_v270 main_v271 (cmpf .oge : (⟨S70000x64, .f32⟩ : BufTy).Contents (Elt F) → (⟨S70000x64, .f32⟩ : BufTy).Contents (Elt F) → (⟨S70000x64, .i1⟩ : BufTy).Contents (Elt F)),
    StableHlo.nullary main_cst_54 (constant S_ .f32 0x3C23D70A#32),
    StableHlo.unary main_cst_54 main_v272 (broadcastInDim S70000x64 ![] bcast_S_S70000x64 : (⟨S_, .f32⟩ : BufTy).Contents (Elt F) → (⟨S70000x64, .f32⟩ : BufTy).Contents (Elt F)),
    StableHlo.binary main_v272 main_v269 main_v273 (mulf : (⟨S70000x64, .f32⟩ : BufTy).Contents (Elt F) → (⟨S70000x64, .f32⟩ : BufTy).Contents (Elt F) → (⟨S70000x64, .f32⟩ : BufTy).Contents (Elt F)),
    StableHlo.TRef.ternary (.of main_v271 : StableHlo.TRef sig ⟨S70000x64, .i1⟩) (.of main_v269 : StableHlo.TRef sig ⟨S70000x64, .f32⟩) (.of main_v273 : StableHlo.TRef sig ⟨S70000x64, .f32⟩) main_call9.v0 select,
    StableHlo.unary main_arg38 main_v275 ((transpose S64x1 [1, 0] · transposes_S1x64_S64x1_1_0) : (⟨S1x64, .f32⟩ : BufTy).Contents (Elt F) → (⟨S64x1, .f32⟩ : BufTy).Contents (Elt F)),
    StableHlo.binary main_v274 main_v275 main_v276 ((fun l r => Host.dotGeneral dot_S70000x64_S64x1_S70000x1_1_0_0_1_n_n none l r) : (⟨S70000x64, .f32⟩ : BufTy).Contents (Elt F) → (⟨S64x1, .f32⟩ : BufTy).Contents (Elt F) → (⟨S70000x1, .f32⟩ : BufTy).Contents (Elt F)),
    StableHlo.binary main_v264 main_v276 main_v277 ((fun a b => concatenate S70000x2 1 [⟨S70000x1, a⟩, ⟨S70000x1, b⟩] concatenates_S70000x1_S70000x1_S70000x2_d1) : (⟨S70000x1, .f32⟩ : BufTy).Contents (Elt F) → (⟨S70000x1, .f32⟩ : BufTy).Contents (Elt F) → (⟨S70000x2, .f32⟩ : BufTy).Contents (Elt F)),
    StableHlo.nullary main_cst_55 (constant S_ .f32 0xFF800000#32),
    StableHlo.binary main_v277 main_cst_55 main_v278 ((fun x v => Host.reduce FloatOps.maximumf x v reducesTo_S70000x2_S70000_d1 h_S_) : (⟨S70000x2, .f32⟩ : BufTy).Contents (Elt F) → (⟨S_, .f32⟩ : BufTy).Contents (Elt F) → (⟨S70000, .f32⟩ : BufTy).Contents (Elt F)),
    StableHlo.nullary main_cst_56 (constant S_ .f32 0xFF800000#32),
    StableHlo.unary main_cst_56 main_v279 (broadcastInDim S70000 ![] bcast_S_S70000 : (⟨S_, .f32⟩ : BufTy).Contents (Elt F) → (⟨S70000, .f32⟩ : BufTy).Contents (Elt F)),
    StableHlo.binary main_v279 main_v278 main_v280 (maximumf : (⟨S70000, .f32⟩ : BufTy).Contents (Elt F) → (⟨S70000, .f32⟩ : BufTy).Contents (Elt F) → (⟨S70000, .f32⟩ : BufTy).Contents (Elt F)),
    StableHlo.unary main_v280 main_v281 (broadcastInDim S70000x1 ![0] bcast_S70000_S70000x1_0 : (⟨S70000, .f32⟩ : BufTy).Contents (Elt F) → (⟨S70000x1, .f32⟩ : BufTy).Contents (Elt F)),
    StableHlo.unary main_v281 main_v282 (broadcastInDim S70000x2 ![0, 1] bcast_S70000x1_S70000x2_0_1 : (⟨S70000x1, .f32⟩ : BufTy).Contents (Elt F) → (⟨S70000x2, .f32⟩ : BufTy).Contents (Elt F)),
    StableHlo.binary main_v277 main_v282 main_v283 (subf : (⟨S70000x2, .f32⟩ : BufTy).Contents (Elt F) → (⟨S70000x2, .f32⟩ : BufTy).Contents (Elt F) → (⟨S70000x2, .f32⟩ : BufTy).Contents (Elt F)),
    StableHlo.unary main_v283 main_v284 (Host.exp : (⟨S70000x2, .f32⟩ : BufTy).Contents (Elt F) → (⟨S70000x2, .f32⟩ : BufTy).Contents (Elt F)),
    StableHlo.nullary main_cst_57 (constant S_ .f32 0x00000000#32),
    StableHlo.binary main_v284 main_cst_57 main_v285 ((fun x v => Host.reduceAdd x v reducesTo_S70000x2_S70000_d1 h_S_) : (⟨S70000x2, .f32⟩ : BufTy).Contents (Elt F) → (⟨S_, .f32⟩ : BufTy).Contents (Elt F) → (⟨S70000, .f32⟩ : BufTy).Contents (Elt F)),
    StableHlo.unary main_v285 main_v286 (broadcastInDim S70000x1 ![0] bcast_S70000_S70000x1_0 : (⟨S70000, .f32⟩ : BufTy).Contents (Elt F) → (⟨S70000x1, .f32⟩ : BufTy).Contents (Elt F)),
    StableHlo.unary main_v286 main_v287 (broadcastInDim S70000x2 ![0, 1] bcast_S70000x1_S70000x2_0_1 : (⟨S70000x1, .f32⟩ : BufTy).Contents (Elt F) → (⟨S70000x2, .f32⟩ : BufTy).Contents (Elt F)),
    StableHlo.binary main_v284 main_v287 main_v288 (Host.divf : (⟨S70000x2, .f32⟩ : BufTy).Contents (Elt F) → (⟨S70000x2, .f32⟩ : BufTy).Contents (Elt F) → (⟨S70000x2, .f32⟩ : BufTy).Contents (Elt F)),
    StableHlo.unary main_v288 main_v289 ((extractStridedSlice S70000x1 ![0, 0] · slices_S70000x2_S70000x1_0_0) : (⟨S70000x2, .f32⟩ : BufTy).Contents (Elt F) → (⟨S70000x1, .f32⟩ : BufTy).Contents (Elt F)),
    StableHlo.unary main_v289 main_v290 (broadcastInDim S70000x64 ![0, 1] bcast_S70000x1_S70000x64_0_1 : (⟨S70000x1, .f32⟩ : BufTy).Contents (Elt F) → (⟨S70000x64, .f32⟩ : BufTy).Contents (Elt F)),
    StableHlo.binary main_v290 main_v251 main_v291 (mulf : (⟨S70000x64, .f32⟩ : BufTy).Contents (Elt F) → (⟨S70000x64, .f32⟩ : BufTy).Contents (Elt F) → (⟨S70000x64, .f32⟩ : BufTy).Contents (Elt F)),
    StableHlo.unary main_v288 main_v292 ((extractStridedSlice S70000x1 ![0, 1] · slices_S70000x2_S70000x1_0_1) : (⟨S70000x2, .f32⟩ : BufTy).Contents (Elt F) → (⟨S70000x1, .f32⟩ : BufTy).Contents (Elt F)),
    StableHlo.unary main_v292 main_v293 (broadcastInDim S70000x64 ![0, 1] bcast_S70000x1_S70000x64_0_1 : (⟨S70000x1, .f32⟩ : BufTy).Contents (Elt F) → (⟨S70000x64, .f32⟩ : BufTy).Contents (Elt F)),
    StableHlo.binary main_v293 main_v252 main_v294 (mulf : (⟨S70000x64, .f32⟩ : BufTy).Contents (Elt F) → (⟨S70000x64, .f32⟩ : BufTy).Contents (Elt F) → (⟨S70000x64, .f32⟩ : BufTy).Contents (Elt F)),
    StableHlo.binary main_v291 main_v294 main_v295 (addf : (⟨S70000x64, .f32⟩ : BufTy).Contents (Elt F) → (⟨S70000x64, .f32⟩ : BufTy).Contents (Elt F) → (⟨S70000x64, .f32⟩ : BufTy).Contents (Elt F)),
    StableHlo.binary main_v30 main_v295 main_v296 (addf : (⟨S70000x64, .f32⟩ : BufTy).Contents (Elt F) → (⟨S70000x64, .f32⟩ : BufTy).Contents (Elt F) → (⟨S70000x64, .f32⟩ : BufTy).Contents (Elt F)) ]

/-- @main's 441 operations in order, each call of an outlined function unfolded at its call site over that call's own buffers: the stages one after the other. -/
abbrev ops : List (HloOp τ sig (Elt F)) :=
  ops00 (F := F) ++ ops01 (F := F) ++ ops02 (F := F) ++ ops03 (F := F) ++ ops04 (F := F) ++ ops05 (F := F) ++ ops06 (F := F) ++ ops07 (F := F) ++ ops08 (F := F) ++ ops09 (F := F) ++ ops10 (F := F) ++ ops11 (F := F) ++ ops12 (F := F)

end Cert.ReferenceIdeal.RefRun

end
-- ==== Proof.RefRun.lean ====
/-
  The run of the reference program's @main.

  @main's text is its list of operations (`RefOps.lean`) run as a straight line: that is `main_eq`, proved part by part.
  The signature scopes no TensorCore buffer and no semaphore, every operation touches TensorCore references only and
  determines everything it writes, so the straight-line rule applies (`run_seq`): from any memory with zero counters every
  weakly fair execution terminates, and each TensorCore buffer ends at the fold of the operations' results over its launch
  contents (`run_main`).
-/
import proofs.«167917_j22402549416514_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program is the line

Each part of @main's text is the line of its stages: the outlined functions' definitions unfolded at their calls and the
calls' records at their fields, both sides are one chain of `hlo` steps once sequencing is reassociated (`bind_assoc`,
`pure_bind`; a part's last step followed by the empty line's `pure` is that step, `bind_pure_unit`); what is left differs in
the proofs of the shape relations only, which are equal as proofs of one proposition. -/

set_option maxRecDepth 8192 in
set_option maxHeartbeats 4000000 in
/-- Part 0 of @main's text is the line of stages 0, 1. -/
theorem part0_eq (d : Dev nD) : main_part0 (F := F) d = seq (ops00 (F := F) ++ ops01 (F := F)) := by
  simp only [main_part0, fn_var.body, fn_where.body, ops00, ops01, List.cons_append, List.nil_append, seq,
    bind_assoc, pure_bind, bind_pure_unit]

set_option maxRecDepth 8192 in
set_option maxHeartbeats 4000000 in
/-- Part 1 of @main's text is the line of stages 2, 3, 4. -/
theorem part1_eq (d : Dev nD) : main_part1 (F := F) d = seq (ops02 (F := F) ++ ops03 (F := F) ++ ops04 (F := F)) := by
  simp only [main_part1, fn_var.body, fn_where.body, fn_where_0.body, ops02, ops03, ops04, List.cons_append, List.nil_append, seq,
    bind_assoc, pure_bind, bind_pure_unit]

set_option maxRecDepth 8192 in
set_option maxHeartbeats 4000000 in
/-- Part 2 of @main's text is the line of stages 5, 6. -/
theorem part2_eq (d : Dev nD) : main_part2 (F := F) d = seq (ops05 (F := F) ++ ops06 (F := F)) := by
  simp only [main_part2, fn_var.body, fn_where.body, fn_where_0.body, ops05, ops06, List.cons_append, List.nil_append, seq,
    bind_assoc, pure_bind, bind_pure_unit]

set_option maxRecDepth 8192 in
set_option maxHeartbeats 4000000 in
/-- Part 3 of @main's text is the line of stages 7, 8. -/
theorem part3_eq (d : Dev nD) : main_part3 (F := F) d = seq (ops07 (F := F) ++ ops08 (F := F)) := by
  simp only [main_part3, ops07, ops08, List.cons_append, List.nil_append, seq,
    bind_assoc, pure_bind, bind_pure_unit]

set_option maxRecDepth 8192 in
set_option maxHeartbeats 4000000 in
/-- Part 4 of @main's text is the line of stages 9, 10. -/
theorem part4_eq (d : Dev nD) : main_part4 (F := F) d = seq (ops09 (F := F) ++ ops10 (F := F)) := by
  simp only [main_part4, ops09, ops10, List.cons_append, List.nil_append, seq,
    bind_assoc, pure_bind, bind_pure_unit]

set_option maxRecDepth 8192 in
set_option maxHeartbeats 4000000 in
/-- Part 5 of @main's text is the line of stages 11, 12. -/
theorem part5_eq (d : Dev nD) : main_part5 (F := F) d = seq (ops11 (F := F) ++ ops12 (F := F)) := by
  simp only [main_part5, fn_where_1.body, ops11, ops12, List.cons_append, List.nil_append, seq,
    bind_assoc, pure_bind, bind_pure_unit]

/-- The whole line, grouped by the parts of @main's text. -/
theorem ops_eq_parts : (ops : List (HloOp τ sig (Elt F))) =
    ((ops00 (F := F) ++ ops01 (F := F)) ++ ((ops02 (F := F) ++ ops03 (F := F) ++ ops04 (F := F)) ++ ((ops05 (F := F) ++ ops06 (F := F)) ++ ((ops07 (F := F) ++ ops08 (F := F)) ++ ((ops09 (F := F) ++ ops10 (F := F)) ++ ((ops11 (F := F) ++ ops12 (F := F)))))))) := by
  simp only [ops, List.append_assoc]

/-- @main is the line: its text runs its six parts in order, each the line of its stages, and lines run one after the
    other are their concatenation run as one (`seq_append`). -/
theorem main_eq (c : Dev nD) : main (F := F) c = seq ops := by
  rw [ops_eq_parts]
  simp only [main, part0_eq, part1_eq, part2_eq, part3_eq, part4_eq, part5_eq, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and determines what it writes -/

theorem ops00_sub : (ops00 : List (HloOp τ sig (Elt F))).Forall fun op => op.bufs ⊆ tcRefs τ sig :=
  ⟨binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., binary_bufs_sub .., binary_bufs_sub .., nullary_bufs_sub ..,
    unary_bufs_sub .., binary_bufs_sub ..⟩

theorem ops01_sub : (ops01 : List (HloOp τ sig (Elt F))).Forall fun op => op.bufs ⊆ tcRefs τ sig :=
  ⟨unary_bufs_sub .., binary_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub ..⟩

theorem ops02_sub : (ops02 : List (HloOp τ sig (Elt F))).Forall fun op => op.bufs ⊆ tcRefs τ sig :=
  ⟨unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub ..⟩

theorem ops03_sub : (ops03 : List (HloOp τ sig (Elt F))).Forall fun op => op.bufs ⊆ tcRefs τ sig :=
  ⟨unary_bufs_sub .., binary_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., binary_bufs_sub ..⟩

theorem ops04_sub : (ops04 : List (HloOp τ sig (Elt F))).Forall fun op => op.bufs ⊆ tcRefs τ sig :=
  ⟨unary_bufs_sub .., binary_bufs_sub .., unary_bufs_sub .., unary_bufs_sub .., binary_bufs_sub .., nullary_bufs_sub ..,
    binary_bufs_sub .., nullary_bufs_sub .., unary_bufs_sub .., binary_bufs_sub .., nullary_bufs_sub ..⟩

theorem ops05_sub : (ops05 : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub ..⟩

theorem ops06_sub : (ops06 : List (HloOp τ sig (Elt F))).Forall fun op => op.bufs ⊆ tcRefs τ sig :=
  ⟨unary_bufs_sub .., binary_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., binary_bufs_sub ..⟩

theorem ops07_sub : (ops07 : List (HloOp τ sig (Elt F))).Forall fun op => op.bufs ⊆ tcRefs τ sig :=
  ⟨unary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., binary_bufs_sub .., unary_bufs_sub .., binary_bufs_sub .., unary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., binary_bufs_sub ..⟩

theorem ops08_sub : (ops08 : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    unary_bufs_sub .., ternary_bufs_sub ..⟩

theorem ops09_sub : (ops09 : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    unary_bufs_sub .., ternary_bufs_sub ..⟩

theorem ops10_sub : (ops10 : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub ..⟩

theorem ops11_sub : (ops11 : List (HloOp τ sig (Elt F))).Forall fun op => op.bufs ⊆ tcRefs τ sig :=
  ⟨nullary_bufs_sub .., unary_bufs_sub .., unary_bufs_sub .., ternary_bufs_sub ..⟩

theorem ops12_sub : (ops12 : List (HloOp τ sig (Elt F))).Forall fun op => op.bufs ⊆ tcRefs τ sig :=
  ⟨binary_bufs_sub .., binary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., binary_bufs_sub ..⟩

theorem ops_sub : (ops : List (HloOp τ sig (Elt F))).Forall fun op => op.bufs ⊆ tcRefs τ sig :=
  (List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨ops00_sub, ops01_sub⟩), ops02_sub⟩), ops03_sub⟩), ops04_sub⟩), ops05_sub⟩), ops06_sub⟩), ops07_sub⟩), ops08_sub⟩), ops09_sub⟩), ops10_sub⟩), ops11_sub⟩), ops12_sub⟩)

theorem ops00_fresh : (ops00 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

theorem ops01_fresh : (ops01 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

theorem ops02_fresh : (ops02 : List (HloOp τ sig (Elt F))).Forall fun op => op.fresh = ∅ :=
  ⟨rfl, rfl, rfl, rfl, rfl, rfl, rfl, rfl, rfl, rfl, rfl, rfl, rfl⟩

theorem ops03_fresh : (ops03 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl⟩

theorem ops04_fresh : (ops04 : List (HloOp τ sig (Elt F))).Forall fun op => op.fresh = ∅ :=
  ⟨rfl, rfl, rfl, rfl, rfl, rfl, rfl, rfl, rfl, rfl, rfl⟩

theorem ops05_fresh : (ops05 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl⟩

theorem ops06_fresh : (ops06 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl⟩

theorem ops07_fresh : (ops07 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl⟩

theorem ops08_fresh : (ops08 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

theorem ops09_fresh : (ops09 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

theorem ops10_fresh : (ops10 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl⟩

theorem ops11_fresh : (ops11 : List (HloOp τ sig (Elt F))).Forall fun op => op.fresh = ∅ :=
  ⟨rfl, rfl, rfl, rfl⟩

theorem ops12_fresh : (ops12 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

/-- No operation of the line leaves a buffer's contents undetermined. -/
theorem ops_fresh : ∀ op ∈ (ops : List (HloOp τ sig (Elt F))), op.fresh = ∅ :=
  List.forall_iff_forall_mem.mp (List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨ops00_fresh, ops01_fresh⟩), ops02_fresh⟩), ops03_fresh⟩), ops04_fresh⟩), ops05_fresh⟩), ops06_fresh⟩), ops07_fresh⟩), ops08_fresh⟩), ops09_fresh⟩), ops10_fresh⟩), ops11_fresh⟩), ops12_fresh⟩)

/-! ## The run -/

/-- On every device, for any float values, from any memory with zero counters: every weakly fair execution of @main on the
    TensorCores terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefFrame.lean ====
/-
  The reference program leaves its arguments as launched.

  After a line of operations a buffer that none of them writes holds what it held before (`after_of_writes_sub`: the
  buffer's reference is outside a list holding every written reference). Each operation of @main's line writes exactly its
  result's buffer; the list of those references, `written`, stage by stage, holds no argument. With the run of the line
  (`run_main`) this is the certificate's frame conjunct for the reference program.
-/
import proofs.«167917_j22402549416514_2_alg».proof.Proof.RefRun
import proofs.«167917_j22402549416514_2_alg».proof.Defs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The references stage 0's operations write: operation by operation, its result's buffer. -/
abbrev written00 : List (Ref sig .tc) :=
  [ main_v0, main_v1, main_c, main_v2, main_v3, main_c_0, main_v4, main_v5, main_v6, main_v7,
    main_v8, main_v9, main_v10, main_cst, main_v11, main_v12, main_v13, main_v14, main_c_1, main_v15,
    main_v16, main_c_2, main_v17, main_v18, main_v19, main_v20, main_v21, main_v22, main_v23, main_cst_3,
    main_v24, main_v25, main_v26, main_v27, main_v28, main_cst_4, main_v29, main_v30 ]

/-- The references stage 1's operations write: operation by operation, its result's buffer. -/
abbrev written01 : List (Ref sig .tc) :=
  [ main_v31, main_v32, main_v33, main_v34, main_v35, main_cst_5, main_v36, main_cst_6, main_v37, main_v38,
    main_c_7, main_call0_cst, main_call0_v0, main_call0_v1, main_call0_cst_0, main_call0_v2, main_call0_v3, main_call0_v4, main_call0_v5, main_call0_v6,
    main_call0_v7, main_call0_cst_1, main_call0_v8, main_call0_cst_2, main_call0_v9, main_call0_v10, main_call0_v11, main_call0_cst_3, main_call0_v12, main_call0_cst_4,
    main_call0_call0_v0, main_call0_call0_v1, main_v39, main_v40, main_v41, main_v42, main_cst_8, main_v43, main_v44, main_v45,
    main_v46, main_v47, main_v48 ]

/-- The references stage 2's operations write: operation by operation, its result's buffer. -/
abbrev written02 : List (Ref sig .tc) :=
  [ main_v49, main_v50, main_v51, main_v52, main_v53, main_v54, main_cst_9, main_v55, main_v56, main_cst_10,
    main_v57, main_v58, main_v59 ]

/-- The references stage 3's operations write: operation by operation, its result's buffer. -/
abbrev written03 : List (Ref sig .tc) :=
  [ main_v60, main_v61, main_v62, main_v63, main_v64, main_cst_11, main_v65, main_cst_12, main_v66, main_v67,
    main_c_13, main_call2_cst, main_call2_v0, main_call2_v1, main_call2_cst_0, main_call2_v2, main_call2_v3, main_call2_v4, main_call2_v5, main_call2_v6,
    main_call2_v7, main_call2_cst_1, main_call2_v8, main_call2_cst_2, main_call2_v9, main_call2_v10, main_call2_v11, main_call2_cst_3, main_call2_v12, main_call2_cst_4,
    main_call2_call0_v0, main_call2_call0_v1, main_v68, main_v69, main_v70, main_v71, main_cst_14, main_v72, main_v73, main_v74,
    main_v75, main_v76, main_v77, main_v78, main_v79, main_v80, main_v81, main_v82, main_v83, main_cst_15,
    main_v84, main_v85, main_cst_16, main_v86, main_v87, main_v88, main_v89 ]

/-- The references stage 4's operations write: operation by operation, its result's buffer. -/
abbrev written04 : List (Ref sig .tc) :=
  [ main_v90, main_v91, main_v92, main_v93, main_v94, main_cst_17, main_v95, main_cst_18, main_v96, main_v97,
    main_c_19 ]

/-- The references stage 5's operations write: operation by operation, its result's buffer. -/
abbrev written05 : List (Ref sig .tc) :=
  [ main_call4_cst, main_call4_v0, main_call4_v1, main_call4_cst_0, main_call4_v2, main_call4_v3, main_call4_v4, main_call4_v5, main_call4_v6, main_call4_v7,
    main_call4_cst_1, main_call4_v8, main_call4_cst_2, main_call4_v9, main_call4_v10, main_call4_v11, main_call4_cst_3, main_call4_v12, main_call4_cst_4, main_call4_call0_v0,
    main_call4_call0_v1, main_v98, main_v99, main_v100, main_v101, main_cst_20, main_v102, main_v103, main_v104, main_v105,
    main_v106, main_v107, main_v108, main_v109, main_v110, main_v111, main_v112, main_v113, main_cst_21, main_v114,
    main_v115, main_cst_22, main_v116, main_v117, main_v118 ]

/-- The references stage 6's operations write: operation by operation, its result's buffer. -/
abbrev written06 : List (Ref sig .tc) :=
  [ main_v119, main_v120, main_v121, main_v122, main_v123, main_cst_23, main_v124, main_cst_24, main_v125, main_v126,
    main_c_25, main_call6_cst, main_call6_v0, main_call6_v1, main_call6_cst_0, main_call6_v2, main_call6_v3, main_call6_v4, main_call6_v5, main_call6_v6,
    main_call6_v7, main_call6_cst_1, main_call6_v8, main_call6_cst_2, main_call6_v9, main_call6_v10, main_call6_v11, main_call6_cst_3, main_call6_v12, main_call6_cst_4,
    main_call6_call0_v0, main_call6_call0_v1, main_v127, main_v128, main_v129, main_v130, main_cst_26, main_v131, main_v132, main_v133,
    main_v134, main_v135, main_v136, main_v137, main_v138, main_v139, main_v140, main_v141, main_v142, main_cst_27,
    main_v143, main_v144, main_cst_28, main_v145, main_v146, main_v147, main_v148 ]

/-- The references stage 7's operations write: operation by operation, its result's buffer. -/
abbrev written07 : List (Ref sig .tc) :=
  [ main_v149, main_v150, main_v151, main_v152, main_v153, main_v154, main_v155, main_cst_29, main_v156, main_v157,
    main_cst_30, main_v158, main_v159, main_v160, main_v161, main_v162, main_v163, main_v164, main_v165, main_v166,
    main_v167, main_cst_31, main_v168, main_v169, main_cst_32, main_v170, main_v171, main_v172 ]

/-- The references stage 8's operations write: operation by operation, its result's buffer. -/
abbrev written08 : List (Ref sig .tc) :=
  [ main_v173, main_c_33, main_v174, main_v175, main_c_34, main_v176, main_v177, main_v178, main_v179, main_v180,
    main_v181, main_v182, main_cst_35, main_v183, main_v184, main_v185, main_v186, main_c_36, main_v187, main_v188,
    main_c_37, main_v189, main_v190, main_v191, main_v192, main_v193, main_v194, main_v195, main_cst_38, main_v196,
    main_v197, main_v198 ]

/-- The references stage 9's operations write: operation by operation, its result's buffer. -/
abbrev written09 : List (Ref sig .tc) :=
  [ main_v199, main_c_39, main_v200, main_v201, main_c_40, main_v202, main_v203, main_v204, main_v205, main_v206,
    main_v207, main_v208, main_cst_41, main_v209, main_v210, main_v211, main_v212, main_c_42, main_v213, main_v214,
    main_c_43, main_v215, main_v216, main_v217, main_v218, main_v219, main_v220, main_v221, main_cst_44, main_v222,
    main_v223, main_v224 ]

/-- The references stage 10's operations write: operation by operation, its result's buffer. -/
abbrev written10 : List (Ref sig .tc) :=
  [ main_v225, main_c_45, main_v226, main_v227, main_c_46, main_v228, main_v229, main_v230, main_v231, main_v232,
    main_v233, main_v234, main_cst_47, main_v235, main_v236, main_v237, main_v238, main_c_48, main_v239, main_v240,
    main_c_49, main_v241, main_v242, main_v243, main_v244, main_v245, main_v246, main_v247 ]

/-- The references stage 11's operations write: operation by operation, its result's buffer. -/
abbrev written11 : List (Ref sig .tc) :=
  [ main_cst_50, main_v248, main_v249, main_v250 ]

/-- The references stage 12's operations write: operation by operation, its result's buffer. -/
abbrev written12 : List (Ref sig .tc) :=
  [ main_v251, main_v252, main_v253, main_v254, main_v255, main_v256, main_v257, main_cst_51, main_v258, main_v259,
    main_cst_52, main_v260, main_v261, main_v262, main_v263, main_v264, main_v265, main_v266, main_v267, main_v268,
    main_v269, main_cst_53, main_v270, main_v271, main_cst_54, main_v272, main_v273, main_v274, main_v275, main_v276,
    main_v277, main_cst_55, main_v278, main_cst_56, main_v279, main_v280, main_v281, main_v282, main_v283, main_v284,
    main_cst_57, main_v285, main_v286, main_v287, main_v288, main_v289, main_v290, main_v291, main_v292, main_v293,
    main_v294, main_v295, main_v296 ]

/-- Every reference an operation of the line writes, stage by stage. -/
abbrev written : List (Ref sig .tc) :=
  written00 ++ written01 ++ written02 ++ written03 ++ written04 ++ written05 ++ written06 ++ written07 ++ written08 ++ written09 ++ written10 ++ written11 ++ written12

/-- An operation whose one written buffer is a listed reference's writes inside the list. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Writing inside a list is writing inside any list that holds it. -/
theorem writes_sub_mono {W W' : List (Ref sig .tc)} (hW : ∀ y ∈ W, y ∈ W') {l : List (HloOp τ sig (Elt F))}
    (h : l.Forall fun op => op.writes ⊆ (W.map (Proc.devRef (τ := τ) .tc)).toFinset) :
    l.Forall fun op => op.writes ⊆ (W'.map (Proc.devRef (τ := τ) .tc)).toFinset :=
  h.imp fun _ ho => ho.trans fun _ hb => by
    obtain ⟨y, hy, rfl⟩ := List.mem_map.mp (List.mem_toFinset.mp hb)
    exact List.mem_toFinset.mpr (List.mem_map_of_mem (hW y hy))

theorem ops00_writes : (ops00 : List (HloOp τ sig (Elt F))).Forall fun op =>
    op.writes ⊆ (written00.map (Proc.devRef (τ := τ) .tc)).toFinset :=
  ⟨writes_sub_of_mem (y := main_v0) (by decide +kernel), writes_sub_of_mem (y := main_v1) (by decide +kernel), writes_sub_of_mem (y := main_c) (by decide +kernel),
    writes_sub_of_mem (y := main_v2) (by decide +kernel), writes_sub_of_mem (y := main_v3) (by decide +kernel), writes_sub_of_mem (y := main_c_0) (by decide +kernel),
    writes_sub_of_mem (y := main_v4) (by decide +kernel), writes_sub_of_mem (y := main_v5) (by decide +kernel), writes_sub_of_mem (y := main_v6) (by decide +kernel),
    writes_sub_of_mem (y := main_v7) (by decide +kernel), writes_sub_of_mem (y := main_v8) (by decide +kernel), writes_sub_of_mem (y := main_v9) (by decide +kernel),
    writes_sub_of_mem (y := main_v10) (by decide +kernel), writes_sub_of_mem (y := main_cst) (by decide +kernel), writes_sub_of_mem (y := main_v11) (by decide +kernel),
    writes_sub_of_mem (y := main_v12) (by decide +kernel), writes_sub_of_mem (y := main_v13) (by decide +kernel), writes_sub_of_mem (y := main_v14) (by decide +kernel),
    writes_sub_of_mem (y := main_c_1) (by decide +kernel), writes_sub_of_mem (y := main_v15) (by decide +kernel), writes_sub_of_mem (y := main_v16) (by decide +kernel),
    writes_sub_of_mem (y := main_c_2) (by decide +kernel), writes_sub_of_mem (y := main_v17) (by decide +kernel), writes_sub_of_mem (y := main_v18) (by decide +kernel),
    writes_sub_of_mem (y := main_v19) (by decide +kernel), writes_sub_of_mem (y := main_v20) (by decide +kernel), writes_sub_of_mem (y := main_v21) (by decide +kernel),
    writes_sub_of_mem (y := main_v22) (by decide +kernel), writes_sub_of_mem (y := main_v23) (by decide +kernel), writes_sub_of_mem (y := main_cst_3) (by decide +kernel),
    writes_sub_of_mem (y := main_v24) (by decide +kernel), writes_sub_of_mem (y := main_v25) (by decide +kernel), writes_sub_of_mem (y := main_v26) (by decide +kernel),
    writes_sub_of_mem (y := main_v27) (by decide +kernel), writes_sub_of_mem (y := main_v28) (by decide +kernel), writes_sub_of_mem (y := main_cst_4) (by decide +kernel),
    writes_sub_of_mem (y := main_v29) (by decide +kernel), writes_sub_of_mem (y := main_v30) (by decide +kernel)⟩

theorem ops01_writes : (ops01 : List (HloOp τ sig (Elt F))).Forall fun op =>
    op.writes ⊆ (written01.map (Proc.devRef (τ := τ) .tc)).toFinset :=
  ⟨writes_sub_of_mem (y := main_v31) (by decide +kernel), writes_sub_of_mem (y := main_v32) (by decide +kernel), writes_sub_of_mem (y := main_v33) (by decide +kernel),
    writes_sub_of_mem (y := main_v34) (by decide +kernel), writes_sub_of_mem (y := main_v35) (by decide +kernel), writes_sub_of_mem (y := main_cst_5) (by decide +kernel),
    writes_sub_of_mem (y := main_v36) (by decide +kernel), writes_sub_of_mem (y := main_cst_6) (by decide +kernel), writes_sub_of_mem (y := main_v37) (by decide +kernel),
    writes_sub_of_mem (y := main_v38) (by decide +kernel), writes_sub_of_mem (y := main_c_7) (by decide +kernel), writes_sub_of_mem (y := main_call0_cst) (by decide +kernel),
    writes_sub_of_mem (y := main_call0_v0) (by decide +kernel), writes_sub_of_mem (y := main_call0_v1) (by decide +kernel), writes_sub_of_mem (y := main_call0_cst_0) (by decide +kernel),
    writes_sub_of_mem (y := main_call0_v2) (by decide +kernel), writes_sub_of_mem (y := main_call0_v3) (by decide +kernel), writes_sub_of_mem (y := main_call0_v4) (by decide +kernel),
    writes_sub_of_mem (y := main_call0_v5) (by decide +kernel), writes_sub_of_mem (y := main_call0_v6) (by decide +kernel), writes_sub_of_mem (y := main_call0_v7) (by decide +kernel),
    writes_sub_of_mem (y := main_call0_cst_1) (by decide +kernel), writes_sub_of_mem (y := main_call0_v8) (by decide +kernel), writes_sub_of_mem (y := main_call0_cst_2) (by decide +kernel),
    writes_sub_of_mem (y := main_call0_v9) (by decide +kernel), writes_sub_of_mem (y := main_call0_v10) (by decide +kernel), writes_sub_of_mem (y := main_call0_v11) (by decide +kernel),
    writes_sub_of_mem (y := main_call0_cst_3) (by decide +kernel), writes_sub_of_mem (y := main_call0_v12) (by decide +kernel), writes_sub_of_mem (y := main_call0_cst_4) (by decide +kernel),
    writes_sub_of_mem (y := main_call0_call0_v0) (by decide +kernel), writes_sub_of_mem (y := main_call0_call0_v1) (by decide +kernel), writes_sub_of_mem (y := main_v39) (by decide +kernel),
    writes_sub_of_mem (y := main_v40) (by decide +kernel), writes_sub_of_mem (y := main_v41) (by decide +kernel), writes_sub_of_mem (y := main_v42) (by decide +kernel),
    writes_sub_of_mem (y := main_cst_8) (by decide +kernel), writes_sub_of_mem (y := main_v43) (by decide +kernel), writes_sub_of_mem (y := main_v44) (by decide +kernel),
    writes_sub_of_mem (y := main_v45) (by decide +kernel), writes_sub_of_mem (y := main_v46) (by decide +kernel), writes_sub_of_mem (y := main_v47) (by decide +kernel),
    writes_sub_of_mem (y := main_v48) (by decide +kernel)⟩

theorem ops02_writes : (ops02 : List (HloOp τ sig (Elt F))).Forall fun op =>
    op.writes ⊆ (written02.map (Proc.devRef (τ := τ) .tc)).toFinset :=
  ⟨writes_sub_of_mem (y := main_v49) (by decide +kernel), writes_sub_of_mem (y := main_v50) (by decide +kernel), writes_sub_of_mem (y := main_v51) (by decide +kernel),
    writes_sub_of_mem (y := main_v52) (by decide +kernel), writes_sub_of_mem (y := main_v53) (by decide +kernel), writes_sub_of_mem (y := main_v54) (by decide +kernel),
    writes_sub_of_mem (y := main_cst_9) (by decide +kernel), writes_sub_of_mem (y := main_v55) (by decide +kernel), writes_sub_of_mem (y := main_v56) (by decide +kernel),
    writes_sub_of_mem (y := main_cst_10) (by decide +kernel), writes_sub_of_mem (y := main_v57) (by decide +kernel), writes_sub_of_mem (y := main_v58) (by decide +kernel),
    writes_sub_of_mem (y := main_v59) (by decide +kernel)⟩

theorem ops03_writes : (ops03 : List (HloOp τ sig (Elt F))).Forall fun op =>
    op.writes ⊆ (written03.map (Proc.devRef (τ := τ) .tc)).toFinset :=
  ⟨writes_sub_of_mem (y := main_v60) (by decide +kernel), writes_sub_of_mem (y := main_v61) (by decide +kernel), writes_sub_of_mem (y := main_v62) (by decide +kernel),
    writes_sub_of_mem (y := main_v63) (by decide +kernel), writes_sub_of_mem (y := main_v64) (by decide +kernel), writes_sub_of_mem (y := main_cst_11) (by decide +kernel),
    writes_sub_of_mem (y := main_v65) (by decide +kernel), writes_sub_of_mem (y := main_cst_12) (by decide +kernel), writes_sub_of_mem (y := main_v66) (by decide +kernel),
    writes_sub_of_mem (y := main_v67) (by decide +kernel), writes_sub_of_mem (y := main_c_13) (by decide +kernel), writes_sub_of_mem (y := main_call2_cst) (by decide +kernel),
    writes_sub_of_mem (y := main_call2_v0) (by decide +kernel), writes_sub_of_mem (y := main_call2_v1) (by decide +kernel), writes_sub_of_mem (y := main_call2_cst_0) (by decide +kernel),
    writes_sub_of_mem (y := main_call2_v2) (by decide +kernel), writes_sub_of_mem (y := main_call2_v3) (by decide +kernel), writes_sub_of_mem (y := main_call2_v4) (by decide +kernel),
    writes_sub_of_mem (y := main_call2_v5) (by decide +kernel), writes_sub_of_mem (y := main_call2_v6) (by decide +kernel), writes_sub_of_mem (y := main_call2_v7) (by decide +kernel),
    writes_sub_of_mem (y := main_call2_cst_1) (by decide +kernel), writes_sub_of_mem (y := main_call2_v8) (by decide +kernel), writes_sub_of_mem (y := main_call2_cst_2) (by decide +kernel),
    writes_sub_of_mem (y := main_call2_v9) (by decide +kernel), writes_sub_of_mem (y := main_call2_v10) (by decide +kernel), writes_sub_of_mem (y := main_call2_v11) (by decide +kernel),
    writes_sub_of_mem (y := main_call2_cst_3) (by decide +kernel), writes_sub_of_mem (y := main_call2_v12) (by decide +kernel), writes_sub_of_mem (y := main_call2_cst_4) (by decide +kernel),
    writes_sub_of_mem (y := main_call2_call0_v0) (by decide +kernel), writes_sub_of_mem (y := main_call2_call0_v1) (by decide +kernel), writes_sub_of_mem (y := main_v68) (by decide +kernel),
    writes_sub_of_mem (y := main_v69) (by decide +kernel), writes_sub_of_mem (y := main_v70) (by decide +kernel), writes_sub_of_mem (y := main_v71) (by decide +kernel),
    writes_sub_of_mem (y := main_cst_14) (by decide +kernel), writes_sub_of_mem (y := main_v72) (by decide +kernel), writes_sub_of_mem (y := main_v73) (by decide +kernel),
    writes_sub_of_mem (y := main_v74) (by decide +kernel), writes_sub_of_mem (y := main_v75) (by decide +kernel), writes_sub_of_mem (y := main_v76) (by decide +kernel),
    writes_sub_of_mem (y := main_v77) (by decide +kernel), writes_sub_of_mem (y := main_v78) (by decide +kernel), writes_sub_of_mem (y := main_v79) (by decide +kernel),
    writes_sub_of_mem (y := main_v80) (by decide +kernel), writes_sub_of_mem (y := main_v81) (by decide +kernel), writes_sub_of_mem (y := main_v82) (by decide +kernel),
    writes_sub_of_mem (y := main_v83) (by decide +kernel), writes_sub_of_mem (y := main_cst_15) (by decide +kernel), writes_sub_of_mem (y := main_v84) (by decide +kernel),
    writes_sub_of_mem (y := main_v85) (by decide +kernel), writes_sub_of_mem (y := main_cst_16) (by decide +kernel), writes_sub_of_mem (y := main_v86) (by decide +kernel),
    writes_sub_of_mem (y := main_v87) (by decide +kernel), writes_sub_of_mem (y := main_v88) (by decide +kernel), writes_sub_of_mem (y := main_v89) (by decide +kernel)⟩

theorem ops04_writes : (ops04 : List (HloOp τ sig (Elt F))).Forall fun op =>
    op.writes ⊆ (written04.map (Proc.devRef (τ := τ) .tc)).toFinset :=
  ⟨writes_sub_of_mem (y := main_v90) (by decide +kernel), writes_sub_of_mem (y := main_v91) (by decide +kernel), writes_sub_of_mem (y := main_v92) (by decide +kernel),
    writes_sub_of_mem (y := main_v93) (by decide +kernel), writes_sub_of_mem (y := main_v94) (by decide +kernel), writes_sub_of_mem (y := main_cst_17) (by decide +kernel),
    writes_sub_of_mem (y := main_v95) (by decide +kernel), writes_sub_of_mem (y := main_cst_18) (by decide +kernel), writes_sub_of_mem (y := main_v96) (by decide +kernel),
    writes_sub_of_mem (y := main_v97) (by decide +kernel), writes_sub_of_mem (y := main_c_19) (by decide +kernel)⟩

theorem ops05_writes : (ops05 : List (HloOp τ sig (Elt F))).Forall fun op =>
    op.writes ⊆ (written05.map (Proc.devRef (τ := τ) .tc)).toFinset :=
  ⟨writes_sub_of_mem (y := main_call4_cst) (by decide +kernel), writes_sub_of_mem (y := main_call4_v0) (by decide +kernel), writes_sub_of_mem (y := main_call4_v1) (by decide +kernel),
    writes_sub_of_mem (y := main_call4_cst_0) (by decide +kernel), writes_sub_of_mem (y := main_call4_v2) (by decide +kernel), writes_sub_of_mem (y := main_call4_v3) (by decide +kernel),
    writes_sub_of_mem (y := main_call4_v4) (by decide +kernel), writes_sub_of_mem (y := main_call4_v5) (by decide +kernel), writes_sub_of_mem (y := main_call4_v6) (by decide +kernel),
    writes_sub_of_mem (y := main_call4_v7) (by decide +kernel), writes_sub_of_mem (y := main_call4_cst_1) (by decide +kernel), writes_sub_of_mem (y := main_call4_v8) (by decide +kernel),
    writes_sub_of_mem (y := main_call4_cst_2) (by decide +kernel), writes_sub_of_mem (y := main_call4_v9) (by decide +kernel), writes_sub_of_mem (y := main_call4_v10) (by decide +kernel),
    writes_sub_of_mem (y := main_call4_v11) (by decide +kernel), writes_sub_of_mem (y := main_call4_cst_3) (by decide +kernel), writes_sub_of_mem (y := main_call4_v12) (by decide +kernel),
    writes_sub_of_mem (y := main_call4_cst_4) (by decide +kernel), writes_sub_of_mem (y := main_call4_call0_v0) (by decide +kernel), writes_sub_of_mem (y := main_call4_call0_v1) (by decide +kernel),
    writes_sub_of_mem (y := main_v98) (by decide +kernel), writes_sub_of_mem (y := main_v99) (by decide +kernel), writes_sub_of_mem (y := main_v100) (by decide +kernel),
    writes_sub_of_mem (y := main_v101) (by decide +kernel), writes_sub_of_mem (y := main_cst_20) (by decide +kernel), writes_sub_of_mem (y := main_v102) (by decide +kernel),
    writes_sub_of_mem (y := main_v103) (by decide +kernel), writes_sub_of_mem (y := main_v104) (by decide +kernel), writes_sub_of_mem (y := main_v105) (by decide +kernel),
    writes_sub_of_mem (y := main_v106) (by decide +kernel), writes_sub_of_mem (y := main_v107) (by decide +kernel), writes_sub_of_mem (y := main_v108) (by decide +kernel),
    writes_sub_of_mem (y := main_v109) (by decide +kernel), writes_sub_of_mem (y := main_v110) (by decide +kernel), writes_sub_of_mem (y := main_v111) (by decide +kernel),
    writes_sub_of_mem (y := main_v112) (by decide +kernel), writes_sub_of_mem (y := main_v113) (by decide +kernel), writes_sub_of_mem (y := main_cst_21) (by decide +kernel),
    writes_sub_of_mem (y := main_v114) (by decide +kernel), writes_sub_of_mem (y := main_v115) (by decide +kernel), writes_sub_of_mem (y := main_cst_22) (by decide +kernel),
    writes_sub_of_mem (y := main_v116) (by decide +kernel), writes_sub_of_mem (y := main_v117) (by decide +kernel), writes_sub_of_mem (y := main_v118) (by decide +kernel)⟩

theorem ops06_writes : (ops06 : List (HloOp τ sig (Elt F))).Forall fun op =>
    op.writes ⊆ (written06.map (Proc.devRef (τ := τ) .tc)).toFinset :=
  ⟨writes_sub_of_mem (y := main_v119) (by decide +kernel), writes_sub_of_mem (y := main_v120) (by decide +kernel), writes_sub_of_mem (y := main_v121) (by decide +kernel),
    writes_sub_of_mem (y := main_v122) (by decide +kernel), writes_sub_of_mem (y := main_v123) (by decide +kernel), writes_sub_of_mem (y := main_cst_23) (by decide +kernel),
    writes_sub_of_mem (y := main_v124) (by decide +kernel), writes_sub_of_mem (y := main_cst_24) (by decide +kernel), writes_sub_of_mem (y := main_v125) (by decide +kernel),
    writes_sub_of_mem (y := main_v126) (by decide +kernel), writes_sub_of_mem (y := main_c_25) (by decide +kernel), writes_sub_of_mem (y := main_call6_cst) (by decide +kernel),
    writes_sub_of_mem (y := main_call6_v0) (by decide +kernel), writes_sub_of_mem (y := main_call6_v1) (by decide +kernel), writes_sub_of_mem (y := main_call6_cst_0) (by decide +kernel),
    writes_sub_of_mem (y := main_call6_v2) (by decide +kernel), writes_sub_of_mem (y := main_call6_v3) (by decide +kernel), writes_sub_of_mem (y := main_call6_v4) (by decide +kernel),
    writes_sub_of_mem (y := main_call6_v5) (by decide +kernel), writes_sub_of_mem (y := main_call6_v6) (by decide +kernel), writes_sub_of_mem (y := main_call6_v7) (by decide +kernel),
    writes_sub_of_mem (y := main_call6_cst_1) (by decide +kernel), writes_sub_of_mem (y := main_call6_v8) (by decide +kernel), writes_sub_of_mem (y := main_call6_cst_2) (by decide +kernel),
    writes_sub_of_mem (y := main_call6_v9) (by decide +kernel), writes_sub_of_mem (y := main_call6_v10) (by decide +kernel), writes_sub_of_mem (y := main_call6_v11) (by decide +kernel),
    writes_sub_of_mem (y := main_call6_cst_3) (by decide +kernel), writes_sub_of_mem (y := main_call6_v12) (by decide +kernel), writes_sub_of_mem (y := main_call6_cst_4) (by decide +kernel),
    writes_sub_of_mem (y := main_call6_call0_v0) (by decide +kernel), writes_sub_of_mem (y := main_call6_call0_v1) (by decide +kernel), writes_sub_of_mem (y := main_v127) (by decide +kernel),
    writes_sub_of_mem (y := main_v128) (by decide +kernel), writes_sub_of_mem (y := main_v129) (by decide +kernel), writes_sub_of_mem (y := main_v130) (by decide +kernel),
    writes_sub_of_mem (y := main_cst_26) (by decide +kernel), writes_sub_of_mem (y := main_v131) (by decide +kernel), writes_sub_of_mem (y := main_v132) (by decide +kernel),
    writes_sub_of_mem (y := main_v133) (by decide +kernel), writes_sub_of_mem (y := main_v134) (by decide +kernel), writes_sub_of_mem (y := main_v135) (by decide +kernel),
    writes_sub_of_mem (y := main_v136) (by decide +kernel), writes_sub_of_mem (y := main_v137) (by decide +kernel), writes_sub_of_mem (y := main_v138) (by decide +kernel),
    writes_sub_of_mem (y := main_v139) (by decide +kernel), writes_sub_of_mem (y := main_v140) (by decide +kernel), writes_sub_of_mem (y := main_v141) (by decide +kernel),
    writes_sub_of_mem (y := main_v142) (by decide +kernel), writes_sub_of_mem (y := main_cst_27) (by decide +kernel), writes_sub_of_mem (y := main_v143) (by decide +kernel),
    writes_sub_of_mem (y := main_v144) (by decide +kernel), writes_sub_of_mem (y := main_cst_28) (by decide +kernel), writes_sub_of_mem (y := main_v145) (by decide +kernel),
    writes_sub_of_mem (y := main_v146) (by decide +kernel), writes_sub_of_mem (y := main_v147) (by decide +kernel), writes_sub_of_mem (y := main_v148) (by decide +kernel)⟩

theorem ops07_writes : (ops07 : List (HloOp τ sig (Elt F))).Forall fun op =>
    op.writes ⊆ (written07.map (Proc.devRef (τ := τ) .tc)).toFinset :=
  ⟨writes_sub_of_mem (y := main_v149) (by decide +kernel), writes_sub_of_mem (y := main_v150) (by decide +kernel), writes_sub_of_mem (y := main_v151) (by decide +kernel),
    writes_sub_of_mem (y := main_v152) (by decide +kernel), writes_sub_of_mem (y := main_v153) (by decide +kernel), writes_sub_of_mem (y := main_v154) (by decide +kernel),
    writes_sub_of_mem (y := main_v155) (by decide +kernel), writes_sub_of_mem (y := main_cst_29) (by decide +kernel), writes_sub_of_mem (y := main_v156) (by decide +kernel),
    writes_sub_of_mem (y := main_v157) (by decide +kernel), writes_sub_of_mem (y := main_cst_30) (by decide +kernel), writes_sub_of_mem (y := main_v158) (by decide +kernel),
    writes_sub_of_mem (y := main_v159) (by decide +kernel), writes_sub_of_mem (y := main_v160) (by decide +kernel), writes_sub_of_mem (y := main_v161) (by decide +kernel),
    writes_sub_of_mem (y := main_v162) (by decide +kernel), writes_sub_of_mem (y := main_v163) (by decide +kernel), writes_sub_of_mem (y := main_v164) (by decide +kernel),
    writes_sub_of_mem (y := main_v165) (by decide +kernel), writes_sub_of_mem (y := main_v166) (by decide +kernel), writes_sub_of_mem (y := main_v167) (by decide +kernel),
    writes_sub_of_mem (y := main_cst_31) (by decide +kernel), writes_sub_of_mem (y := main_v168) (by decide +kernel), writes_sub_of_mem (y := main_v169) (by decide +kernel),
    writes_sub_of_mem (y := main_cst_32) (by decide +kernel), writes_sub_of_mem (y := main_v170) (by decide +kernel), writes_sub_of_mem (y := main_v171) (by decide +kernel),
    writes_sub_of_mem (y := main_v172) (by decide +kernel)⟩

theorem ops08_writes : (ops08 : List (HloOp τ sig (Elt F))).Forall fun op =>
    op.writes ⊆ (written08.map (Proc.devRef (τ := τ) .tc)).toFinset :=
  ⟨writes_sub_of_mem (y := main_v173) (by decide +kernel), writes_sub_of_mem (y := main_c_33) (by decide +kernel), writes_sub_of_mem (y := main_v174) (by decide +kernel),
    writes_sub_of_mem (y := main_v175) (by decide +kernel), writes_sub_of_mem (y := main_c_34) (by decide +kernel), writes_sub_of_mem (y := main_v176) (by decide +kernel),
    writes_sub_of_mem (y := main_v177) (by decide +kernel), writes_sub_of_mem (y := main_v178) (by decide +kernel), writes_sub_of_mem (y := main_v179) (by decide +kernel),
    writes_sub_of_mem (y := main_v180) (by decide +kernel), writes_sub_of_mem (y := main_v181) (by decide +kernel), writes_sub_of_mem (y := main_v182) (by decide +kernel),
    writes_sub_of_mem (y := main_cst_35) (by decide +kernel), writes_sub_of_mem (y := main_v183) (by decide +kernel), writes_sub_of_mem (y := main_v184) (by decide +kernel),
    writes_sub_of_mem (y := main_v185) (by decide +kernel), writes_sub_of_mem (y := main_v186) (by decide +kernel), writes_sub_of_mem (y := main_c_36) (by decide +kernel),
    writes_sub_of_mem (y := main_v187) (by decide +kernel), writes_sub_of_mem (y := main_v188) (by decide +kernel), writes_sub_of_mem (y := main_c_37) (by decide +kernel),
    writes_sub_of_mem (y := main_v189) (by decide +kernel), writes_sub_of_mem (y := main_v190) (by decide +kernel), writes_sub_of_mem (y := main_v191) (by decide +kernel),
    writes_sub_of_mem (y := main_v192) (by decide +kernel), writes_sub_of_mem (y := main_v193) (by decide +kernel), writes_sub_of_mem (y := main_v194) (by decide +kernel),
    writes_sub_of_mem (y := main_v195) (by decide +kernel), writes_sub_of_mem (y := main_cst_38) (by decide +kernel), writes_sub_of_mem (y := main_v196) (by decide +kernel),
    writes_sub_of_mem (y := main_v197) (by decide +kernel), writes_sub_of_mem (y := main_v198) (by decide +kernel)⟩

theorem ops09_writes : (ops09 : List (HloOp τ sig (Elt F))).Forall fun op =>
    op.writes ⊆ (written09.map (Proc.devRef (τ := τ) .tc)).toFinset :=
  ⟨writes_sub_of_mem (y := main_v199) (by decide +kernel), writes_sub_of_mem (y := main_c_39) (by decide +kernel), writes_sub_of_mem (y := main_v200) (by decide +kernel),
    writes_sub_of_mem (y := main_v201) (by decide +kernel), writes_sub_of_mem (y := main_c_40) (by decide +kernel), writes_sub_of_mem (y := main_v202) (by decide +kernel),
    writes_sub_of_mem (y := main_v203) (by decide +kernel), writes_sub_of_mem (y := main_v204) (by decide +kernel), writes_sub_of_mem (y := main_v205) (by decide +kernel),
    writes_sub_of_mem (y := main_v206) (by decide +kernel), writes_sub_of_mem (y := main_v207) (by decide +kernel), writes_sub_of_mem (y := main_v208) (by decide +kernel),
    writes_sub_of_mem (y := main_cst_41) (by decide +kernel), writes_sub_of_mem (y := main_v209) (by decide +kernel), writes_sub_of_mem (y := main_v210) (by decide +kernel),
    writes_sub_of_mem (y := main_v211) (by decide +kernel), writes_sub_of_mem (y := main_v212) (by decide +kernel), writes_sub_of_mem (y := main_c_42) (by decide +kernel),
    writes_sub_of_mem (y := main_v213) (by decide +kernel), writes_sub_of_mem (y := main_v214) (by decide +kernel), writes_sub_of_mem (y := main_c_43) (by decide +kernel),
    writes_sub_of_mem (y := main_v215) (by decide +kernel), writes_sub_of_mem (y := main_v216) (by decide +kernel), writes_sub_of_mem (y := main_v217) (by decide +kernel),
    writes_sub_of_mem (y := main_v218) (by decide +kernel), writes_sub_of_mem (y := main_v219) (by decide +kernel), writes_sub_of_mem (y := main_v220) (by decide +kernel),
    writes_sub_of_mem (y := main_v221) (by decide +kernel), writes_sub_of_mem (y := main_cst_44) (by decide +kernel), writes_sub_of_mem (y := main_v222) (by decide +kernel),
    writes_sub_of_mem (y := main_v223) (by decide +kernel), writes_sub_of_mem (y := main_v224) (by decide +kernel)⟩

theorem ops10_writes : (ops10 : List (HloOp τ sig (Elt F))).Forall fun op =>
    op.writes ⊆ (written10.map (Proc.devRef (τ := τ) .tc)).toFinset :=
  ⟨writes_sub_of_mem (y := main_v225) (by decide +kernel), writes_sub_of_mem (y := main_c_45) (by decide +kernel), writes_sub_of_mem (y := main_v226) (by decide +kernel),
    writes_sub_of_mem (y := main_v227) (by decide +kernel), writes_sub_of_mem (y := main_c_46) (by decide +kernel), writes_sub_of_mem (y := main_v228) (by decide +kernel),
    writes_sub_of_mem (y := main_v229) (by decide +kernel), writes_sub_of_mem (y := main_v230) (by decide +kernel), writes_sub_of_mem (y := main_v231) (by decide +kernel),
    writes_sub_of_mem (y := main_v232) (by decide +kernel), writes_sub_of_mem (y := main_v233) (by decide +kernel), writes_sub_of_mem (y := main_v234) (by decide +kernel),
    writes_sub_of_mem (y := main_cst_47) (by decide +kernel), writes_sub_of_mem (y := main_v235) (by decide +kernel), writes_sub_of_mem (y := main_v236) (by decide +kernel),
    writes_sub_of_mem (y := main_v237) (by decide +kernel), writes_sub_of_mem (y := main_v238) (by decide +kernel), writes_sub_of_mem (y := main_c_48) (by decide +kernel),
    writes_sub_of_mem (y := main_v239) (by decide +kernel), writes_sub_of_mem (y := main_v240) (by decide +kernel), writes_sub_of_mem (y := main_c_49) (by decide +kernel),
    writes_sub_of_mem (y := main_v241) (by decide +kernel), writes_sub_of_mem (y := main_v242) (by decide +kernel), writes_sub_of_mem (y := main_v243) (by decide +kernel),
    writes_sub_of_mem (y := main_v244) (by decide +kernel), writes_sub_of_mem (y := main_v245) (by decide +kernel), writes_sub_of_mem (y := main_v246) (by decide +kernel),
    writes_sub_of_mem (y := main_v247) (by decide +kernel)⟩

theorem ops11_writes : (ops11 : List (HloOp τ sig (Elt F))).Forall fun op =>
    op.writes ⊆ (written11.map (Proc.devRef (τ := τ) .tc)).toFinset :=
  ⟨writes_sub_of_mem (y := main_cst_50) (by decide +kernel), writes_sub_of_mem (y := main_v248) (by decide +kernel), writes_sub_of_mem (y := main_v249) (by decide +kernel),
    writes_sub_of_mem (y := main_v250) (by decide +kernel)⟩

theorem ops12_writes : (ops12 : List (HloOp τ sig (Elt F))).Forall fun op =>
    op.writes ⊆ (written12.map (Proc.devRef (τ := τ) .tc)).toFinset :=
  ⟨writes_sub_of_mem (y := main_v251) (by decide +kernel), writes_sub_of_mem (y := main_v252) (by decide +kernel), writes_sub_of_mem (y := main_v253) (by decide +kernel),
    writes_sub_of_mem (y := main_v254) (by decide +kernel), writes_sub_of_mem (y := main_v255) (by decide +kernel), writes_sub_of_mem (y := main_v256) (by decide +kernel),
    writes_sub_of_mem (y := main_v257) (by decide +kernel), writes_sub_of_mem (y := main_cst_51) (by decide +kernel), writes_sub_of_mem (y := main_v258) (by decide +kernel),
    writes_sub_of_mem (y := main_v259) (by decide +kernel), writes_sub_of_mem (y := main_cst_52) (by decide +kernel), writes_sub_of_mem (y := main_v260) (by decide +kernel),
    writes_sub_of_mem (y := main_v261) (by decide +kernel), writes_sub_of_mem (y := main_v262) (by decide +kernel), writes_sub_of_mem (y := main_v263) (by decide +kernel),
    writes_sub_of_mem (y := main_v264) (by decide +kernel), writes_sub_of_mem (y := main_v265) (by decide +kernel), writes_sub_of_mem (y := main_v266) (by decide +kernel),
    writes_sub_of_mem (y := main_v267) (by decide +kernel), writes_sub_of_mem (y := main_v268) (by decide +kernel), writes_sub_of_mem (y := main_v269) (by decide +kernel),
    writes_sub_of_mem (y := main_cst_53) (by decide +kernel), writes_sub_of_mem (y := main_v270) (by decide +kernel), writes_sub_of_mem (y := main_v271) (by decide +kernel),
    writes_sub_of_mem (y := main_cst_54) (by decide +kernel), writes_sub_of_mem (y := main_v272) (by decide +kernel), writes_sub_of_mem (y := main_v273) (by decide +kernel),
    writes_sub_of_mem (y := main_v274) (by decide +kernel), writes_sub_of_mem (y := main_v275) (by decide +kernel), writes_sub_of_mem (y := main_v276) (by decide +kernel),
    writes_sub_of_mem (y := main_v277) (by decide +kernel), writes_sub_of_mem (y := main_cst_55) (by decide +kernel), writes_sub_of_mem (y := main_v278) (by decide +kernel),
    writes_sub_of_mem (y := main_cst_56) (by decide +kernel), writes_sub_of_mem (y := main_v279) (by decide +kernel), writes_sub_of_mem (y := main_v280) (by decide +kernel),
    writes_sub_of_mem (y := main_v281) (by decide +kernel), writes_sub_of_mem (y := main_v282) (by decide +kernel), writes_sub_of_mem (y := main_v283) (by decide +kernel),
    writes_sub_of_mem (y := main_v284) (by decide +kernel), writes_sub_of_mem (y := main_cst_57) (by decide +kernel), writes_sub_of_mem (y := main_v285) (by decide +kernel),
    writes_sub_of_mem (y := main_v286) (by decide +kernel), writes_sub_of_mem (y := main_v287) (by decide +kernel), writes_sub_of_mem (y := main_v288) (by decide +kernel),
    writes_sub_of_mem (y := main_v289) (by decide +kernel), writes_sub_of_mem (y := main_v290) (by decide +kernel), writes_sub_of_mem (y := main_v291) (by decide +kernel),
    writes_sub_of_mem (y := main_v292) (by decide +kernel), writes_sub_of_mem (y := main_v293) (by decide +kernel), writes_sub_of_mem (y := main_v294) (by decide +kernel),
    writes_sub_of_mem (y := main_v295) (by decide +kernel), writes_sub_of_mem (y := main_v296) (by decide +kernel)⟩

/-- Every operation of the line writes inside `written`. -/
theorem ops_writes : (ops : List (HloOp τ sig (Elt F))).Forall fun op =>
    op.writes ⊆ (written.map (Proc.devRef (τ := τ) .tc)).toFinset :=
  (List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(writes_sub_mono (fun _ hy => (List.mem_append_left _ (List.mem_append_left _ (List.mem_append_left _ (List.mem_append_left _ (List.mem_append_left _ (List.mem_append_left _ (List.mem_append_left _ (List.mem_append_left _ (List.mem_append_left _ (List.mem_append_left _ (List.mem_append_left _ (List.mem_append_left _ hy))))))))))))) ops00_writes),
    (writes_sub_mono (fun _ hy => (List.mem_append_left _ (List.mem_append_left _ (List.mem_append_left _ (List.mem_append_left _ (List.mem_append_left _ (List.mem_append_left _ (List.mem_append_left _ (List.mem_append_left _ (List.mem_append_left _ (List.mem_append_left _ (List.mem_append_left _ (List.mem_append_right _ hy))))))))))))) ops01_writes)⟩),
    (writes_sub_mono (fun _ hy => (List.mem_append_left _ (List.mem_append_left _ (List.mem_append_left _ (List.mem_append_left _ (List.mem_append_left _ (List.mem_append_left _ (List.mem_append_left _ (List.mem_append_left _ (List.mem_append_left _ (List.mem_append_left _ (List.mem_append_right _ hy)))))))))))) ops02_writes)⟩),
    (writes_sub_mono (fun _ hy => (List.mem_append_left _ (List.mem_append_left _ (List.mem_append_left _ (List.mem_append_left _ (List.mem_append_left _ (List.mem_append_left _ (List.mem_append_left _ (List.mem_append_left _ (List.mem_append_left _ (List.mem_append_right _ hy))))))))))) ops03_writes)⟩),
    (writes_sub_mono (fun _ hy => (List.mem_append_left _ (List.mem_append_left _ (List.mem_append_left _ (List.mem_append_left _ (List.mem_append_left _ (List.mem_append_left _ (List.mem_append_left _ (List.mem_append_left _ (List.mem_append_right _ hy)))))))))) ops04_writes)⟩),
    (writes_sub_mono (fun _ hy => (List.mem_append_left _ (List.mem_append_left _ (List.mem_append_left _ (List.mem_append_left _ (List.mem_append_left _ (List.mem_append_left _ (List.mem_append_left _ (List.mem_append_right _ hy))))))))) ops05_writes)⟩),
    (writes_sub_mono (fun _ hy => (List.mem_append_left _ (List.mem_append_left _ (List.mem_append_left _ (List.mem_append_left _ (List.mem_append_left _ (List.mem_append_left _ (List.mem_append_right _ hy)))))))) ops06_writes)⟩),
    (writes_sub_mono (fun _ hy => (List.mem_append_left _ (List.mem_append_left _ (List.mem_append_left _ (List.mem_append_left _ (List.mem_append_left _ (List.mem_append_right _ hy))))))) ops07_writes)⟩),
    (writes_sub_mono (fun _ hy => (List.mem_append_left _ (List.mem_append_left _ (List.mem_append_left _ (List.mem_append_left _ (List.mem_append_right _ hy)))))) ops08_writes)⟩),
    (writes_sub_mono (fun _ hy => (List.mem_append_left _ (List.mem_append_left _ (List.mem_append_left _ (List.mem_append_right _ hy))))) ops09_writes)⟩),
    (writes_sub_mono (fun _ hy => (List.mem_append_left _ (List.mem_append_left _ (List.mem_append_right _ hy)))) ops10_writes)⟩),
    (writes_sub_mono (fun _ hy => (List.mem_append_left _ (List.mem_append_right _ hy))) ops11_writes)⟩),
    (writes_sub_mono (fun _ hy => (List.mem_append_right _ hy)) ops12_writes)⟩)

/-- A reference no operation writes keeps its contents through the whole line. -/
theorem after_ops_of_not_written {r : Ref sig .tc} (hr : r ∉ written) (V : Valuation τ sig (Elt F)) :
    after ops V (r : DevRef τ sig) = V (r : DevRef τ sig) :=
  after_of_writes_sub ops V ops_writes hr

/-! ## The arguments are left as launched

No argument is the result of an operation: each is outside `written`, by inspection of the list. -/

theorem arg0_eq (V : Valuation τ sig (Elt F)) : after ops V (main_arg0 : DevRef τ sig) = V (main_arg0 : DevRef τ sig) :=
  after_ops_of_not_written (by decide +kernel) V
theorem arg1_eq (V : Valuation τ sig (Elt F)) : after ops V (main_arg1 : DevRef τ sig) = V (main_arg1 : DevRef τ sig) :=
  after_ops_of_not_written (by decide +kernel) V
theorem arg2_eq (V : Valuation τ sig (Elt F)) : after ops V (main_arg2 : DevRef τ sig) = V (main_arg2 : DevRef τ sig) :=
  after_ops_of_not_written (by decide +kernel) V
theorem arg3_eq (V : Valuation τ sig (Elt F)) : after ops V (main_arg3 : DevRef τ sig) = V (main_arg3 : DevRef τ sig) :=
  after_ops_of_not_written (by decide +kernel) V
theorem arg4_eq (V : Valuation τ sig (Elt F)) : after ops V (main_arg4 : DevRef τ sig) = V (main_arg4 : DevRef τ sig) :=
  after_ops_of_not_written (by decide +kernel) V
theorem arg5_eq (V : Valuation τ sig (Elt F)) : after ops V (main_arg5 : DevRef τ sig) = V (main_arg5 : DevRef τ sig) :=
  after_ops_of_not_written (by decide +kernel) V
theorem arg6_eq (V : Valuation τ sig (Elt F)) : after ops V (main_arg6 : DevRef τ sig) = V (main_arg6 : DevRef τ sig) :=
  after_ops_of_not_written (by decide +kernel) V
theorem arg7_eq (V : Valuation τ sig (Elt F)) : after ops V (main_arg7 : DevRef τ sig) = V (main_arg7 : DevRef τ sig) :=
  after_ops_of_not_written (by decide +kernel) V
theorem arg8_eq (V : Valuation τ sig (Elt F)) : after ops V (main_arg8 : DevRef τ sig) = V (main_arg8 : DevRef τ sig) :=
  after_ops_of_not_written (by decide +kernel) V
theorem arg9_eq (V : Valuation τ sig (Elt F)) : after ops V (main_arg9 : DevRef τ sig) = V (main_arg9 : DevRef τ sig) :=
  after_ops_of_not_written (by decide +kernel) V
theorem arg10_eq (V : Valuation τ sig (Elt F)) : after ops V (main_arg10 : DevRef τ sig) = V (main_arg10 : DevRef τ sig) :=
  after_ops_of_not_written (by decide +kernel) V
theorem arg11_eq (V : Valuation τ sig (Elt F)) : after ops V (main_arg11 : DevRef τ sig) = V (main_arg11 : DevRef τ sig) :=
  after_ops_of_not_written (by decide +kernel) V
theorem arg12_eq (V : Valuation τ sig (Elt F)) : after ops V (main_arg12 : DevRef τ sig) = V (main_arg12 : DevRef τ sig) :=
  after_ops_of_not_written (by decide +kernel) V
theorem arg13_eq (V : Valuation τ sig (Elt F)) : after ops V (main_arg13 : DevRef τ sig) = V (main_arg13 : DevRef τ sig) :=
  after_ops_of_not_written (by decide +kernel) V
theorem arg14_eq (V : Valuation τ sig (Elt F)) : after ops V (main_arg14 : DevRef τ sig) = V (main_arg14 : DevRef τ sig) :=
  after_ops_of_not_written (by decide +kernel) V
theorem arg15_eq (V : Valuation τ sig (Elt F)) : after ops V (main_arg15 : DevRef τ sig) = V (main_arg15 : DevRef τ sig) :=
  after_ops_of_not_written (by decide +kernel) V
theorem arg16_eq (V : Valuation τ sig (Elt F)) : after ops V (main_arg16 : DevRef τ sig) = V (main_arg16 : DevRef τ sig) :=
  after_ops_of_not_written (by decide +kernel) V
theorem arg17_eq (V : Valuation τ sig (Elt F)) : after ops V (main_arg17 : DevRef τ sig) = V (main_arg17 : DevRef τ sig) :=
  after_ops_of_not_written (by decide +kernel) V
theorem arg18_eq (V : Valuation τ sig (Elt F)) : after ops V (main_arg18 : DevRef τ sig) = V (main_arg18 : DevRef τ sig) :=
  after_ops_of_not_written (by decide +kernel) V
theorem arg19_eq (V : Valuation τ sig (Elt F)) : after ops V (main_arg19 : DevRef τ sig) = V (main_arg19 : DevRef τ sig) :=
  after_ops_of_not_written (by decide +kernel) V
theorem arg20_eq (V : Valuation τ sig (Elt F)) : after ops V (main_arg20 : DevRef τ sig) = V (main_arg20 : DevRef τ sig) :=
  after_ops_of_not_written (by decide +kernel) V
theorem arg21_eq (V : Valuation τ sig (Elt F)) : after ops V (main_arg21 : DevRef τ sig) = V (main_arg21 : DevRef τ sig) :=
  after_ops_of_not_written (by decide +kernel) V
theorem arg22_eq (V : Valuation τ sig (Elt F)) : after ops V (main_arg22 : DevRef τ sig) = V (main_arg22 : DevRef τ sig) :=
  after_ops_of_not_written (by decide +kernel) V
theorem arg23_eq (V : Valuation τ sig (Elt F)) : after ops V (main_arg23 : DevRef τ sig) = V (main_arg23 : DevRef τ sig) :=
  after_ops_of_not_written (by decide +kernel) V
theorem arg24_eq (V : Valuation τ sig (Elt F)) : after ops V (main_arg24 : DevRef τ sig) = V (main_arg24 : DevRef τ sig) :=
  after_ops_of_not_written (by decide +kernel) V
theorem arg25_eq (V : Valuation τ sig (Elt F)) : after ops V (main_arg25 : DevRef τ sig) = V (main_arg25 : DevRef τ sig) :=
  after_ops_of_not_written (by decide +kernel) V
theorem arg26_eq (V : Valuation τ sig (Elt F)) : after ops V (main_arg26 : DevRef τ sig) = V (main_arg26 : DevRef τ sig) :=
  after_ops_of_not_written (by decide +kernel) V
theorem arg27_eq (V : Valuation τ sig (Elt F)) : after ops V (main_arg27 : DevRef τ sig) = V (main_arg27 : DevRef τ sig) :=
  after_ops_of_not_written (by decide +kernel) V
theorem arg28_eq (V : Valuation τ sig (Elt F)) : after ops V (main_arg28 : DevRef τ sig) = V (main_arg28 : DevRef τ sig) :=
  after_ops_of_not_written (by decide +kernel) V
theorem arg29_eq (V : Valuation τ sig (Elt F)) : after ops V (main_arg29 : DevRef τ sig) = V (main_arg29 : DevRef τ sig) :=
  after_ops_of_not_written (by decide +kernel) V
theorem arg30_eq (V : Valuation τ sig (Elt F)) : after ops V (main_arg30 : DevRef τ sig) = V (main_arg30 : DevRef τ sig) :=
  after_ops_of_not_written (by decide +kernel) V
theorem arg31_eq (V : Valuation τ sig (Elt F)) : after ops V (main_arg31 : DevRef τ sig) = V (main_arg31 : DevRef τ sig) :=
  after_ops_of_not_written (by decide +kernel) V
theorem arg32_eq (V : Valuation τ sig (Elt F)) : after ops V (main_arg32 : DevRef τ sig) = V (main_arg32 : DevRef τ sig) :=
  after_ops_of_not_written (by decide +kernel) V
theorem arg33_eq (V : Valuation τ sig (Elt F)) : after ops V (main_arg33 : DevRef τ sig) = V (main_arg33 : DevRef τ sig) :=
  after_ops_of_not_written (by decide +kernel) V
theorem arg34_eq (V : Valuation τ sig (Elt F)) : after ops V (main_arg34 : DevRef τ sig) = V (main_arg34 : DevRef τ sig) :=
  after_ops_of_not_written (by decide +kernel) V
theorem arg35_eq (V : Valuation τ sig (Elt F)) : after ops V (main_arg35 : DevRef τ sig) = V (main_arg35 : DevRef τ sig) :=
  after_ops_of_not_written (by decide +kernel) V
theorem arg36_eq (V : Valuation τ sig (Elt F)) : after ops V (main_arg36 : DevRef τ sig) = V (main_arg36 : DevRef τ sig) :=
  after_ops_of_not_written (by decide +kernel) V
theorem arg37_eq (V : Valuation τ sig (Elt F)) : after ops V (main_arg37 : DevRef τ sig) = V (main_arg37 : DevRef τ sig) :=
  after_ops_of_not_written (by decide +kernel) V
theorem arg38_eq (V : Valuation τ sig (Elt F)) : after ops V (main_arg38 : DevRef τ sig) = V (main_arg38 : DevRef τ sig) :=
  after_ops_of_not_written (by decide +kernel) V

/-- On every device, for any float values, from any memory with zero counters: every weakly fair execution of @main
    terminates with every argument buffer holding what it held at launch. -/
theorem frame_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38) :=
  (θ_run defs _ _).mono (fun _ h c => ⟨(h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _),
      (h c main_arg17).trans (arg17_eq _),
      (h c main_arg18).trans (arg18_eq _),
      (h c main_arg19).trans (arg19_eq _),
      (h c main_arg20).trans (arg20_eq _),
      (h c main_arg21).trans (arg21_eq _),
      (h c main_arg22).trans (arg22_eq _),
      (h c main_arg23).trans (arg23_eq _),
      (h c main_arg24).trans (arg24_eq _),
      (h c main_arg25).trans (arg25_eq _),
      (h c main_arg26).trans (arg26_eq _),
      (h c main_arg27).trans (arg27_eq _),
      (h c main_arg28).trans (arg28_eq _),
      (h c main_arg29).trans (arg29_eq _),
      (h c main_arg30).trans (arg30_eq _),
      (h c main_arg31).trans (arg31_eq _),
      (h c main_arg32).trans (arg32_eq _),
      (h c main_arg33).trans (arg33_eq _),
      (h c main_arg34).trans (arg34_eq _),
      (h c main_arg35).trans (arg35_eq _),
      (h c main_arg36).trans (arg36_eq _),
      (h c main_arg37).trans (arg37_eq _),
      (h c main_arg38).trans (arg38_eq _)⟩)
    (run_main m ρ)

/-- The certificate's frame conjunct for the reference program: the run above at the ideal float values, whatever the
    precondition. -/
theorem frame [hPre : Cert.Pre_finite_inputs.Facts] :
    Cert.frame_ReferenceIdeal (hReferenceIdeal := Cert.ReferenceIdeal.Gen.facts) (hPre_finite_inputs := hPre) :=
  fun m g _ => frame_run (F := Ideal) m g

end Cert.ReferenceIdeal.RefRun

end
-- ==== Proof.KI.Chain.lean ====
import proofs.«167917_j22402549416514_2_alg».proof.Proof.KI.Bounds
import Idealize.ShloMosaic.Lib.ValueLayout
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-! # What each region's input windows hold when the region is entered: an argument array as launched, an earlier region's
    output array as its write-backs left it, or a bias / gain vector of 64 entries reshaped on the host to one row. -/

/-- The buffers stretch 0's operations write. -/
def written0 : List (Ref sig .tc) := [main_v0, main_v1, main_c, main_v2, main_v3, main_c_0, main_v4, main_v5, main_v6, main_v7, main_v8, main_v9, main_v10, main_cst, main_v11, main_v12, main_v13, main_v14, main_c_1, main_v15, main_v16, main_c_2, main_v17, main_v18, main_v19, main_v20, main_v21, main_v22, main_v23, main_cst_3, main_v24, main_v25, main_v26, main_v27, main_v28, main_cst_4, main_v29, main_v30, main_v31]
theorem hostOps0_writes : ∀ op ∈ (hostOps0 : List (HloOp τ sig (Elt F))), ∀ b : Ref sig .tc, b ∉ written0 → (Proc.devRef .tc b : DevRef τ sig) ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (fun h => by subst h; exact hb (by decide))))
/-- A buffer stretch 0 does not write enters region 0 as the segment before left it. -/
theorem E0_keep (c : Dev nD) (b : Ref sig .tc) (hb : b ∉ written0) : E0 m ρ c (Proc.devRef .tc b) = W0 m ρ c (Proc.devRef .tc b) :=
  StableHlo.after_of_forall_not_mem _ _ fun op hop => hostOps0_writes op hop b hb

/-- The buffers stretch 1's operations write. -/
def written1 : List (Ref sig .tc) := [main_v33, main_v34]
theorem hostOps1_writes : ∀ op ∈ (hostOps1 : List (HloOp τ sig (Elt F))), ∀ b : Ref sig .tc, b ∉ written1 → (Proc.devRef .tc b : DevRef τ sig) ∉ op.writes :=
  List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (fun h => by subst h; exact hb (by decide))))
/-- A buffer stretch 1 does not write enters region 1 as the segment before left it. -/
theorem E1_keep (c : Dev nD) (b : Ref sig .tc) (hb : b ∉ written1) : E1 m ρ c (Proc.devRef .tc b) = X0 m ρ c (Proc.devRef .tc b) :=
  StableHlo.after_of_forall_not_mem _ _ fun op hop => hostOps1_writes op hop b hb

/-- The buffers stretch 2's operations write. -/
def written2 : List (Ref sig .tc) := [main_v36]
theorem hostOps2_writes : ∀ op ∈ (hostOps2 : List (HloOp τ sig (Elt F))), ∀ b : Ref sig .tc, b ∉ written2 → (Proc.devRef .tc b : DevRef τ sig) ∉ op.writes :=
  List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (fun h => by subst h; exact hb (by decide))))
/-- A buffer stretch 2 does not write enters region 2 as the segment before left it. -/
theorem E2_keep (c : Dev nD) (b : Ref sig .tc) (hb : b ∉ written2) : E2 m ρ c (Proc.devRef .tc b) = X1 m ρ c (Proc.devRef .tc b) :=
  StableHlo.after_of_forall_not_mem _ _ fun op hop => hostOps2_writes op hop b hb

/-- The buffers stretch 3's operations write. -/
def written3 : List (Ref sig .tc) := [main_v38, main_v39]
theorem hostOps3_writes : ∀ op ∈ (hostOps3 : List (HloOp τ sig (Elt F))), ∀ b : Ref sig .tc, b ∉ written3 → (Proc.devRef .tc b : DevRef τ sig) ∉ op.writes :=
  List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (fun h => by subst h; exact hb (by decide))))
/-- A buffer stretch 3 does not write enters region 3 as the segment before left it. -/
theorem E3_keep (c : Dev nD) (b : Ref sig .tc) (hb : b ∉ written3) : E3 m ρ c (Proc.devRef .tc b) = X2 m ρ c (Proc.devRef .tc b) :=
  StableHlo.after_of_forall_not_mem _ _ fun op hop => hostOps3_writes op hop b hb

/-- The buffers stretch 4's operations write. -/
def written4 : List (Ref sig .tc) := [main_v41]
theorem hostOps4_writes : ∀ op ∈ (hostOps4 : List (HloOp τ sig (Elt F))), ∀ b : Ref sig .tc, b ∉ written4 → (Proc.devRef .tc b : DevRef τ sig) ∉ op.writes :=
  List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (fun h => by subst h; exact hb (by decide))))
/-- A buffer stretch 4 does not write enters region 4 as the segment before left it. -/
theorem E4_keep (c : Dev nD) (b : Ref sig .tc) (hb : b ∉ written4) : E4 m ρ c (Proc.devRef .tc b) = X3 m ρ c (Proc.devRef .tc b) :=
  StableHlo.after_of_forall_not_mem _ _ fun op hop => hostOps4_writes op hop b hb

/-- The buffers stretch 5's operations write. -/
def written5 : List (Ref sig .tc) := [main_v43, main_v44]
theorem hostOps5_writes : ∀ op ∈ (hostOps5 : List (HloOp τ sig (Elt F))), ∀ b : Ref sig .tc, b ∉ written5 → (Proc.devRef .tc b : DevRef τ sig) ∉ op.writes :=
  List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (fun h => by subst h; exact hb (by decide))))
/-- A buffer stretch 5 does not write enters region 5 as the segment before left it. -/
theorem E5_keep (c : Dev nD) (b : Ref sig .tc) (hb : b ∉ written5) : E5 m ρ c (Proc.devRef .tc b) = X4 m ρ c (Proc.devRef .tc b) :=
  StableHlo.after_of_forall_not_mem _ _ fun op hop => hostOps5_writes op hop b hb

/-- The buffers stretch 6's operations write. -/
def written6 : List (Ref sig .tc) := [main_v46]
theorem hostOps6_writes : ∀ op ∈ (hostOps6 : List (HloOp τ sig (Elt F))), ∀ b : Ref sig .tc, b ∉ written6 → (Proc.devRef .tc b : DevRef τ sig) ∉ op.writes :=
  List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (fun h => by subst h; exact hb (by decide))))
/-- A buffer stretch 6 does not write enters region 6 as the segment before left it. -/
theorem E6_keep (c : Dev nD) (b : Ref sig .tc) (hb : b ∉ written6) : E6 m ρ c (Proc.devRef .tc b) = X5 m ρ c (Proc.devRef .tc b) :=
  StableHlo.after_of_forall_not_mem _ _ fun op hop => hostOps6_writes op hop b hb

/-- The buffers stretch 7's operations write. -/
def written7 : List (Ref sig .tc) := [main_v48, main_v49]
theorem hostOps7_writes : ∀ op ∈ (hostOps7 : List (HloOp τ sig (Elt F))), ∀ b : Ref sig .tc, b ∉ written7 → (Proc.devRef .tc b : DevRef τ sig) ∉ op.writes :=
  List.forall_iff_forall_mem.mp (by
    simp only [hostOps7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (fun h => by subst h; exact hb (by decide))))
/-- A buffer stretch 7 does not write enters region 7 as the segment before left it. -/
theorem E7_keep (c : Dev nD) (b : Ref sig .tc) (hb : b ∉ written7) : E7 m ρ c (Proc.devRef .tc b) = X6 m ρ c (Proc.devRef .tc b) :=
  StableHlo.after_of_forall_not_mem _ _ fun op hop => hostOps7_writes op hop b hb

/-- The buffers stretch 8's operations write. -/
def written8 : List (Ref sig .tc) := [main_v51]
theorem hostOps8_writes : ∀ op ∈ (hostOps8 : List (HloOp τ sig (Elt F))), ∀ b : Ref sig .tc, b ∉ written8 → (Proc.devRef .tc b : DevRef τ sig) ∉ op.writes :=
  List.forall_iff_forall_mem.mp (by
    simp only [hostOps8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (fun h => by subst h; exact hb (by decide))))
/-- A buffer stretch 8 does not write enters region 8 as the segment before left it. -/
theorem E8_keep (c : Dev nD) (b : Ref sig .tc) (hb : b ∉ written8) : E8 m ρ c (Proc.devRef .tc b) = X7 m ρ c (Proc.devRef .tc b) :=
  StableHlo.after_of_forall_not_mem _ _ fun op hop => hostOps8_writes op hop b hb

/-- The buffers stretch 9's operations write. -/
def written9 : List (Ref sig .tc) := [main_v53]
theorem hostOps9_writes : ∀ op ∈ (hostOps9 : List (HloOp τ sig (Elt F))), ∀ b : Ref sig .tc, b ∉ written9 → (Proc.devRef .tc b : DevRef τ sig) ∉ op.writes :=
  List.forall_iff_forall_mem.mp (by
    simp only [hostOps9, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (fun h => by subst h; exact hb (by decide))))
/-- A buffer stretch 9 does not write enters region 9 as the segment before left it. -/
theorem E9_keep (c : Dev nD) (b : Ref sig .tc) (hb : b ∉ written9) : E9 m ρ c (Proc.devRef .tc b) = X8 m ρ c (Proc.devRef .tc b) :=
  StableHlo.after_of_forall_not_mem _ _ fun op hop => hostOps9_writes op hop b hb

/-- The buffers stretch 10's operations write. -/
def written10 : List (Ref sig .tc) := [main_v55, main_c_5, main_v56, main_v57, main_c_6, main_v58, main_v59, main_v60, main_v61, main_v62, main_v63, main_v64, main_cst_7, main_v65, main_v66, main_v67, main_v68, main_c_8, main_v69, main_v70, main_c_9, main_v71, main_v72, main_v73, main_v74, main_v75, main_v76, main_v77, main_cst_10, main_v78, main_v79, main_v80, main_v81, main_c_11, main_v82, main_v83, main_c_12, main_v84, main_v85, main_v86, main_v87, main_v88, main_v89, main_v90, main_cst_13, main_v91, main_v92, main_v93, main_v94, main_c_14, main_v95, main_v96, main_c_15, main_v97, main_v98, main_v99, main_v100, main_v101, main_v102, main_v103, main_cst_16, main_v104, main_v105, main_v106, main_v107, main_c_17, main_v108, main_v109, main_c_18, main_v110, main_v111, main_v112, main_v113, main_v114, main_v115, main_v116, main_cst_19, main_v117, main_v118, main_v119, main_v120, main_c_20, main_v121, main_v122, main_c_21, main_v123, main_v124, main_v125, main_v126, main_v127, main_v128, main_v129, main_cst_22, main_v130, main_v131, main_v132, main_v133, main_v134, main_v135]
theorem hostOps10_writes : ∀ op ∈ (hostOps10 : List (HloOp τ sig (Elt F))), ∀ b : Ref sig .tc, b ∉ written10 → (Proc.devRef .tc b : DevRef τ sig) ∉ op.writes :=
  List.forall_iff_forall_mem.mp (by
    simp only [hostOps10, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (fun h => by subst h; exact hb (by decide))))
/-- A buffer stretch 10 does not write enters region 10 as the segment before left it. -/
theorem E10_keep (c : Dev nD) (b : Ref sig .tc) (hb : b ∉ written10) : E10 m ρ c (Proc.devRef .tc b) = X9 m ρ c (Proc.devRef .tc b) :=
  StableHlo.after_of_forall_not_mem _ _ fun op hop => hostOps10_writes op hop b hb

/-! ## Region 0's inputs -/
theorem in0_0 (c : Dev nD) : VE0 m ρ c main_arg14 = m ((c : Thread nD τ).loc main_arg14) := argsE0 m ρ c main_arg14 (by decide)
theorem in0_1 (c : Dev nD) : VE0 m ρ c main_arg16 = m ((c : Thread nD τ).loc main_arg16) := argsE0 m ρ c main_arg16 (by decide)
theorem in0_2 (c : Dev nD) (q : Fin 64) : (VE0 m ρ c main_v31 : S1x64.Idx → Elt F .f32) (ix2 (0 : Fin 1) q) = (m ((c : Thread nD τ).loc main_arg17) : S64.Idx → Elt F .f32) (ix1 q) := by
  have e : (E0 m ρ c (Proc.devRef .tc main_v31) : S1x64.Idx → Elt F .f32) = shapeCast S1x64 (W0 m ρ c (Proc.devRef .tc main_arg17) : S64.Idx → Elt F .f32) shapeCasts_S64_S1x64 := by
    show StableHlo.after hostOps0 (W0 m ρ c) (Proc.devRef .tc main_v31) = _
    dsimp only [hostOps0]; after_results_simp; rfl
  show (E0 m ρ c (Proc.devRef .tc main_v31) : S1x64.Idx → Elt F .f32) (ix2 (0 : Fin 1) q) = _
  rw [e, shapeCast_a_1a_apply]

/-! ## Region 1's inputs -/
theorem in1_0 (c : Dev nD) : VE1 m ρ c main_v32_0 = (dat0 (VE0 m ρ) c).arrAt 3 cfg0.N :=
  (E1_keep m ρ c main_v32_0 (by decide)).trans <| X0_arr m ρ c 3
theorem in1_1 (c : Dev nD) : VE1 m ρ c main_v32_1 = (dat0 (VE0 m ρ) c).arrAt 4 cfg0.N :=
  (E1_keep m ρ c main_v32_1 (by decide)).trans <| X0_arr m ρ c 4
theorem in1_2 (c : Dev nD) (q : Fin 64) : (VE1 m ρ c main_v33 : S1x64.Idx → Elt F .f32) (ix2 (0 : Fin 1) q) = (m ((c : Thread nD τ).loc main_arg18) : S64.Idx → Elt F .f32) (ix1 q) := by
  have e : (E1 m ρ c (Proc.devRef .tc main_v33) : S1x64.Idx → Elt F .f32) = shapeCast S1x64 (X0 m ρ c (Proc.devRef .tc main_arg18) : S64.Idx → Elt F .f32) shapeCasts_S64_S1x64 := by
    show StableHlo.after hostOps1 (X0 m ρ c) (Proc.devRef .tc main_v33) = _
    dsimp only [hostOps1]; after_results_simp; rfl
  show (E1 m ρ c (Proc.devRef .tc main_v33) : S1x64.Idx → Elt F .f32) (ix2 (0 : Fin 1) q) = _
  rw [e, shapeCast_a_1a_apply]
  exact congrFun (argsX0 m ρ c main_arg18 (by decide)) _
theorem in1_3 (c : Dev nD) (q : Fin 64) : (VE1 m ρ c main_v34 : S1x64.Idx → Elt F .f32) (ix2 (0 : Fin 1) q) = (m ((c : Thread nD τ).loc main_arg19) : S64.Idx → Elt F .f32) (ix1 q) := by
  have e : (E1 m ρ c (Proc.devRef .tc main_v34) : S1x64.Idx → Elt F .f32) = shapeCast S1x64 (X0 m ρ c (Proc.devRef .tc main_arg19) : S64.Idx → Elt F .f32) shapeCasts_S64_S1x64 := by
    show StableHlo.after hostOps1 (X0 m ρ c) (Proc.devRef .tc main_v34) = _
    dsimp only [hostOps1]; after_results_simp; rfl
  show (E1 m ρ c (Proc.devRef .tc main_v34) : S1x64.Idx → Elt F .f32) (ix2 (0 : Fin 1) q) = _
  rw [e, shapeCast_a_1a_apply]
  exact congrFun (argsX0 m ρ c main_arg19 (by decide)) _

/-! ## Region 2's inputs -/
theorem in2_0 (c : Dev nD) : VE2 m ρ c main_v35 = (dat1 (VE1 m ρ) c).arrAt 4 cfg1.N :=
  (E2_keep m ρ c main_v35 (by decide)).trans <| X1_arr m ρ c 4
theorem in2_1 (c : Dev nD) : VE2 m ρ c main_arg20 = m ((c : Thread nD τ).loc main_arg20) := argsE2 m ρ c main_arg20 (by decide)
theorem in2_2 (c : Dev nD) (q : Fin 64) : (VE2 m ρ c main_v36 : S1x64.Idx → Elt F .f32) (ix2 (0 : Fin 1) q) = (m ((c : Thread nD τ).loc main_arg21) : S64.Idx → Elt F .f32) (ix1 q) := by
  have e : (E2 m ρ c (Proc.devRef .tc main_v36) : S1x64.Idx → Elt F .f32) = shapeCast S1x64 (X1 m ρ c (Proc.devRef .tc main_arg21) : S64.Idx → Elt F .f32) shapeCasts_S64_S1x64 := by
    show StableHlo.after hostOps2 (X1 m ρ c) (Proc.devRef .tc main_v36) = _
    dsimp only [hostOps2]; after_results_simp; rfl
  show (E2 m ρ c (Proc.devRef .tc main_v36) : S1x64.Idx → Elt F .f32) (ix2 (0 : Fin 1) q) = _
  rw [e, shapeCast_a_1a_apply]
  exact congrFun (argsX1 m ρ c main_arg21 (by decide)) _

/-! ## Region 3's inputs -/
theorem in3_0 (c : Dev nD) : VE3 m ρ c main_v37_0 = (dat2 (VE2 m ρ) c).arrAt 3 cfg2.N :=
  (E3_keep m ρ c main_v37_0 (by decide)).trans <| X2_arr m ρ c 3
theorem in3_1 (c : Dev nD) : VE3 m ρ c main_v37_1 = (dat2 (VE2 m ρ) c).arrAt 4 cfg2.N :=
  (E3_keep m ρ c main_v37_1 (by decide)).trans <| X2_arr m ρ c 4
theorem in3_2 (c : Dev nD) (q : Fin 64) : (VE3 m ρ c main_v38 : S1x64.Idx → Elt F .f32) (ix2 (0 : Fin 1) q) = (m ((c : Thread nD τ).loc main_arg22) : S64.Idx → Elt F .f32) (ix1 q) := by
  have e : (E3 m ρ c (Proc.devRef .tc main_v38) : S1x64.Idx → Elt F .f32) = shapeCast S1x64 (X2 m ρ c (Proc.devRef .tc main_arg22) : S64.Idx → Elt F .f32) shapeCasts_S64_S1x64 := by
    show StableHlo.after hostOps3 (X2 m ρ c) (Proc.devRef .tc main_v38) = _
    dsimp only [hostOps3]; after_results_simp; rfl
  show (E3 m ρ c (Proc.devRef .tc main_v38) : S1x64.Idx → Elt F .f32) (ix2 (0 : Fin 1) q) = _
  rw [e, shapeCast_a_1a_apply]
  exact congrFun (argsX2 m ρ c main_arg22 (by decide)) _
theorem in3_3 (c : Dev nD) (q : Fin 64) : (VE3 m ρ c main_v39 : S1x64.Idx → Elt F .f32) (ix2 (0 : Fin 1) q) = (m ((c : Thread nD τ).loc main_arg23) : S64.Idx → Elt F .f32) (ix1 q) := by
  have e : (E3 m ρ c (Proc.devRef .tc main_v39) : S1x64.Idx → Elt F .f32) = shapeCast S1x64 (X2 m ρ c (Proc.devRef .tc main_arg23) : S64.Idx → Elt F .f32) shapeCasts_S64_S1x64 := by
    show StableHlo.after hostOps3 (X2 m ρ c) (Proc.devRef .tc main_v39) = _
    dsimp only [hostOps3]; after_results_simp; rfl
  show (E3 m ρ c (Proc.devRef .tc main_v39) : S1x64.Idx → Elt F .f32) (ix2 (0 : Fin 1) q) = _
  rw [e, shapeCast_a_1a_apply]
  exact congrFun (argsX2 m ρ c main_arg23 (by decide)) _
theorem in3_4 (c : Dev nD) : VE3 m ρ c main_v35 = (dat1 (VE1 m ρ) c).arrAt 4 cfg1.N :=
  (E3_keep m ρ c main_v35 (by decide)).trans <| (X2_keep m ρ c main_v35 (by decide)).trans <| (E2_keep m ρ c main_v35 (by decide)).trans <| X1_arr m ρ c 4

/-! ## Region 4's inputs -/
theorem in4_0 (c : Dev nD) : VE4 m ρ c main_arg15 = m ((c : Thread nD τ).loc main_arg15) := argsE4 m ρ c main_arg15 (by decide)
theorem in4_1 (c : Dev nD) : VE4 m ρ c main_arg24 = m ((c : Thread nD τ).loc main_arg24) := argsE4 m ρ c main_arg24 (by decide)
theorem in4_2 (c : Dev nD) (q : Fin 64) : (VE4 m ρ c main_v41 : S1x64.Idx → Elt F .f32) (ix2 (0 : Fin 1) q) = (m ((c : Thread nD τ).loc main_arg25) : S64.Idx → Elt F .f32) (ix1 q) := by
  have e : (E4 m ρ c (Proc.devRef .tc main_v41) : S1x64.Idx → Elt F .f32) = shapeCast S1x64 (X3 m ρ c (Proc.devRef .tc main_arg25) : S64.Idx → Elt F .f32) shapeCasts_S64_S1x64 := by
    show StableHlo.after hostOps4 (X3 m ρ c) (Proc.devRef .tc main_v41) = _
    dsimp only [hostOps4]; after_results_simp; rfl
  show (E4 m ρ c (Proc.devRef .tc main_v41) : S1x64.Idx → Elt F .f32) (ix2 (0 : Fin 1) q) = _
  rw [e, shapeCast_a_1a_apply]
  exact congrFun (argsX3 m ρ c main_arg25 (by decide)) _

/-! ## Region 5's inputs -/
theorem in5_0 (c : Dev nD) : VE5 m ρ c main_v42_0 = (dat4 (VE4 m ρ) c).arrAt 3 cfg4.N :=
  (E5_keep m ρ c main_v42_0 (by decide)).trans <| X4_arr m ρ c 3
theorem in5_1 (c : Dev nD) : VE5 m ρ c main_v42_1 = (dat4 (VE4 m ρ) c).arrAt 4 cfg4.N :=
  (E5_keep m ρ c main_v42_1 (by decide)).trans <| X4_arr m ρ c 4
theorem in5_2 (c : Dev nD) (q : Fin 64) : (VE5 m ρ c main_v43 : S1x64.Idx → Elt F .f32) (ix2 (0 : Fin 1) q) = (m ((c : Thread nD τ).loc main_arg26) : S64.Idx → Elt F .f32) (ix1 q) := by
  have e : (E5 m ρ c (Proc.devRef .tc main_v43) : S1x64.Idx → Elt F .f32) = shapeCast S1x64 (X4 m ρ c (Proc.devRef .tc main_arg26) : S64.Idx → Elt F .f32) shapeCasts_S64_S1x64 := by
    show StableHlo.after hostOps5 (X4 m ρ c) (Proc.devRef .tc main_v43) = _
    dsimp only [hostOps5]; after_results_simp; rfl
  show (E5 m ρ c (Proc.devRef .tc main_v43) : S1x64.Idx → Elt F .f32) (ix2 (0 : Fin 1) q) = _
  rw [e, shapeCast_a_1a_apply]
  exact congrFun (argsX4 m ρ c main_arg26 (by decide)) _
theorem in5_3 (c : Dev nD) (q : Fin 64) : (VE5 m ρ c main_v44 : S1x64.Idx → Elt F .f32) (ix2 (0 : Fin 1) q) = (m ((c : Thread nD τ).loc main_arg27) : S64.Idx → Elt F .f32) (ix1 q) := by
  have e : (E5 m ρ c (Proc.devRef .tc main_v44) : S1x64.Idx → Elt F .f32) = shapeCast S1x64 (X4 m ρ c (Proc.devRef .tc main_arg27) : S64.Idx → Elt F .f32) shapeCasts_S64_S1x64 := by
    show StableHlo.after hostOps5 (X4 m ρ c) (Proc.devRef .tc main_v44) = _
    dsimp only [hostOps5]; after_results_simp; rfl
  show (E5 m ρ c (Proc.devRef .tc main_v44) : S1x64.Idx → Elt F .f32) (ix2 (0 : Fin 1) q) = _
  rw [e, shapeCast_a_1a_apply]
  exact congrFun (argsX4 m ρ c main_arg27 (by decide)) _

/-! ## Region 6's inputs -/
theorem in6_0 (c : Dev nD) : VE6 m ρ c main_v45 = (dat5 (VE5 m ρ) c).arrAt 4 cfg5.N :=
  (E6_keep m ρ c main_v45 (by decide)).trans <| X5_arr m ρ c 4
theorem in6_1 (c : Dev nD) : VE6 m ρ c main_arg28 = m ((c : Thread nD τ).loc main_arg28) := argsE6 m ρ c main_arg28 (by decide)
theorem in6_2 (c : Dev nD) (q : Fin 64) : (VE6 m ρ c main_v46 : S1x64.Idx → Elt F .f32) (ix2 (0 : Fin 1) q) = (m ((c : Thread nD τ).loc main_arg29) : S64.Idx → Elt F .f32) (ix1 q) := by
  have e : (E6 m ρ c (Proc.devRef .tc main_v46) : S1x64.Idx → Elt F .f32) = shapeCast S1x64 (X5 m ρ c (Proc.devRef .tc main_arg29) : S64.Idx → Elt F .f32) shapeCasts_S64_S1x64 := by
    show StableHlo.after hostOps6 (X5 m ρ c) (Proc.devRef .tc main_v46) = _
    dsimp only [hostOps6]; after_results_simp; rfl
  show (E6 m ρ c (Proc.devRef .tc main_v46) : S1x64.Idx → Elt F .f32) (ix2 (0 : Fin 1) q) = _
  rw [e, shapeCast_a_1a_apply]
  exact congrFun (argsX5 m ρ c main_arg29 (by decide)) _

/-! ## Region 7's inputs -/
theorem in7_0 (c : Dev nD) : VE7 m ρ c main_v47_0 = (dat6 (VE6 m ρ) c).arrAt 3 cfg6.N :=
  (E7_keep m ρ c main_v47_0 (by decide)).trans <| X6_arr m ρ c 3
theorem in7_1 (c : Dev nD) : VE7 m ρ c main_v47_1 = (dat6 (VE6 m ρ) c).arrAt 4 cfg6.N :=
  (E7_keep m ρ c main_v47_1 (by decide)).trans <| X6_arr m ρ c 4
theorem in7_2 (c : Dev nD) (q : Fin 64) : (VE7 m ρ c main_v48 : S1x64.Idx → Elt F .f32) (ix2 (0 : Fin 1) q) = (m ((c : Thread nD τ).loc main_arg30) : S64.Idx → Elt F .f32) (ix1 q) := by
  have e : (E7 m ρ c (Proc.devRef .tc main_v48) : S1x64.Idx → Elt F .f32) = shapeCast S1x64 (X6 m ρ c (Proc.devRef .tc main_arg30) : S64.Idx → Elt F .f32) shapeCasts_S64_S1x64 := by
    show StableHlo.after hostOps7 (X6 m ρ c) (Proc.devRef .tc main_v48) = _
    dsimp only [hostOps7]; after_results_simp; rfl
  show (E7 m ρ c (Proc.devRef .tc main_v48) : S1x64.Idx → Elt F .f32) (ix2 (0 : Fin 1) q) = _
  rw [e, shapeCast_a_1a_apply]
  exact congrFun (argsX6 m ρ c main_arg30 (by decide)) _
theorem in7_3 (c : Dev nD) (q : Fin 64) : (VE7 m ρ c main_v49 : S1x64.Idx → Elt F .f32) (ix2 (0 : Fin 1) q) = (m ((c : Thread nD τ).loc main_arg31) : S64.Idx → Elt F .f32) (ix1 q) := by
  have e : (E7 m ρ c (Proc.devRef .tc main_v49) : S1x64.Idx → Elt F .f32) = shapeCast S1x64 (X6 m ρ c (Proc.devRef .tc main_arg31) : S64.Idx → Elt F .f32) shapeCasts_S64_S1x64 := by
    show StableHlo.after hostOps7 (X6 m ρ c) (Proc.devRef .tc main_v49) = _
    dsimp only [hostOps7]; after_results_simp; rfl
  show (E7 m ρ c (Proc.devRef .tc main_v49) : S1x64.Idx → Elt F .f32) (ix2 (0 : Fin 1) q) = _
  rw [e, shapeCast_a_1a_apply]
  exact congrFun (argsX6 m ρ c main_arg31 (by decide)) _
theorem in7_4 (c : Dev nD) : VE7 m ρ c main_v45 = (dat5 (VE5 m ρ) c).arrAt 4 cfg5.N :=
  (E7_keep m ρ c main_v45 (by decide)).trans <| (X6_keep m ρ c main_v45 (by decide)).trans <| (E6_keep m ρ c main_v45 (by decide)).trans <| X5_arr m ρ c 4

/-! ## Region 8's inputs -/
theorem in8_0 (c : Dev nD) : VE8 m ρ c main_v40 = (dat3 (VE3 m ρ) c).arrAt 5 cfg3.N :=
  (E8_keep m ρ c main_v40 (by decide)).trans <| (X7_keep m ρ c main_v40 (by decide)).trans <| (E7_keep m ρ c main_v40 (by decide)).trans <| (X6_keep m ρ c main_v40 (by decide)).trans <| (E6_keep m ρ c main_v40 (by decide)).trans <| (X5_keep m ρ c main_v40 (by decide)).trans <| (E5_keep m ρ c main_v40 (by decide)).trans <| (X4_keep m ρ c main_v40 (by decide)).trans <| (E4_keep m ρ c main_v40 (by decide)).trans <| X3_arr m ρ c 5
theorem in8_1 (c : Dev nD) : VE8 m ρ c main_arg32 = m ((c : Thread nD τ).loc main_arg32) := argsE8 m ρ c main_arg32 (by decide)
theorem in8_2 (c : Dev nD) (q : Fin 64) : (VE8 m ρ c main_v51 : S1x64.Idx → Elt F .f32) (ix2 (0 : Fin 1) q) = (m ((c : Thread nD τ).loc main_arg33) : S64.Idx → Elt F .f32) (ix1 q) := by
  have e : (E8 m ρ c (Proc.devRef .tc main_v51) : S1x64.Idx → Elt F .f32) = shapeCast S1x64 (X7 m ρ c (Proc.devRef .tc main_arg33) : S64.Idx → Elt F .f32) shapeCasts_S64_S1x64 := by
    show StableHlo.after hostOps8 (X7 m ρ c) (Proc.devRef .tc main_v51) = _
    dsimp only [hostOps8]; after_results_simp; rfl
  show (E8 m ρ c (Proc.devRef .tc main_v51) : S1x64.Idx → Elt F .f32) (ix2 (0 : Fin 1) q) = _
  rw [e, shapeCast_a_1a_apply]
  exact congrFun (argsX7 m ρ c main_arg33 (by decide)) _
theorem in8_3 (c : Dev nD) : VE8 m ρ c main_arg13 = m ((c : Thread nD τ).loc main_arg13) := argsE8 m ρ c main_arg13 (by decide)

/-! ## Region 9's inputs -/
theorem in9_0 (c : Dev nD) : VE9 m ρ c main_v50 = (dat7 (VE7 m ρ) c).arrAt 5 cfg7.N :=
  (E9_keep m ρ c main_v50 (by decide)).trans <| (X8_keep m ρ c main_v50 (by decide)).trans <| (E8_keep m ρ c main_v50 (by decide)).trans <| X7_arr m ρ c 5
theorem in9_1 (c : Dev nD) : VE9 m ρ c main_arg34 = m ((c : Thread nD τ).loc main_arg34) := argsE9 m ρ c main_arg34 (by decide)
theorem in9_2 (c : Dev nD) (q : Fin 64) : (VE9 m ρ c main_v53 : S1x64.Idx → Elt F .f32) (ix2 (0 : Fin 1) q) = (m ((c : Thread nD τ).loc main_arg35) : S64.Idx → Elt F .f32) (ix1 q) := by
  have e : (E9 m ρ c (Proc.devRef .tc main_v53) : S1x64.Idx → Elt F .f32) = shapeCast S1x64 (X8 m ρ c (Proc.devRef .tc main_arg35) : S64.Idx → Elt F .f32) shapeCasts_S64_S1x64 := by
    show StableHlo.after hostOps9 (X8 m ρ c) (Proc.devRef .tc main_v53) = _
    dsimp only [hostOps9]; after_results_simp; rfl
  show (E9 m ρ c (Proc.devRef .tc main_v53) : S1x64.Idx → Elt F .f32) (ix2 (0 : Fin 1) q) = _
  rw [e, shapeCast_a_1a_apply]
  exact congrFun (argsX8 m ρ c main_arg35 (by decide)) _
theorem in9_3 (c : Dev nD) : VE9 m ρ c main_arg13 = m ((c : Thread nD τ).loc main_arg13) := argsE9 m ρ c main_arg13 (by decide)

/-! ## Region 10's inputs -/
theorem in10_3 (c : Dev nD) : VE10 m ρ c main_arg36 = m ((c : Thread nD τ).loc main_arg36) := argsE10 m ρ c main_arg36 (by decide)
theorem in10_4 (c : Dev nD) (q : Fin 64) : (VE10 m ρ c main_v135 : S1x64.Idx → Elt F .f32) (ix2 (0 : Fin 1) q) = (m ((c : Thread nD τ).loc main_arg37) : S64.Idx → Elt F .f32) (ix1 q) := by
  have e : (E10 m ρ c (Proc.devRef .tc main_v135) : S1x64.Idx → Elt F .f32) = shapeCast S1x64 (X9 m ρ c (Proc.devRef .tc main_arg37) : S64.Idx → Elt F .f32) shapeCasts_S64_S1x64 := by
    show StableHlo.after hostOps10 (X9 m ρ c) (Proc.devRef .tc main_v135) = _
    dsimp only [hostOps10]; after_results_simp; rfl
  show (E10 m ρ c (Proc.devRef .tc main_v135) : S1x64.Idx → Elt F .f32) (ix2 (0 : Fin 1) q) = _
  rw [e, shapeCast_a_1a_apply]
  exact congrFun (argsX9 m ρ c main_arg37 (by decide)) _
theorem in10_5 (c : Dev nD) : VE10 m ρ c main_arg38 = m ((c : Thread nD τ).loc main_arg38) := argsE10 m ρ c main_arg38 (by decide)

end Cert.KernelIdeal.Regions

end
-- ==== Proof.Spec.lean ====
/-
  The scalar functions the network's stages compute at one entry, on the extended reals.

  A stage of the network is an array operation that, entry by entry, applies one of a few scalar functions to entries
  of its inputs: the affine normalisation by a column's mean and variance, the leaky rectifier, one entry of a dense
  layer, a logistic gate, the score of a row under a small attention head, the logistic weight of two scores and the
  convex mixture it weighs. They are named here, independently of any program, so that two programs computing the same
  network can each be read, index by index, as the same functions of their inputs. The float constants are kept as the
  f32 words the programs hold.
-/
import Idealize.ShloMosaic.PureOps.Ideal

noncomputable section

open scoped BigOperators

namespace Cert.Spec

open Idealize.ShloMosaic

/-- The affine normalisation of one entry: shifted by the mean, scaled by the reciprocal root of the variance plus
    the f32 word nearest 1e-5, scaled by the gain, shifted by the bias. -/
def normAff (x μ v g β : EReal) : EReal :=
  (x - μ) * Ideal.rsqrt (v + Ideal.ofBits .f32 0x3727C5AC#32) * g + β

/-- The leaky rectifier of one entry: the entry where it is at least zero, the f32 word nearest 0.01 times it
    elsewhere. -/
def leaky (z : EReal) : EReal :=
  Scalar.select (Ideal.cmp .oge z (Ideal.ofBits .f32 0x00000000#32)) z (Ideal.ofBits .f32 0x3C23D70A#32 * z)

/-- One entry of a dense layer: the inner product of a row of inputs with a row of weights, plus a bias. -/
def dense {n : Nat} (x w : Fin n → EReal) (b : EReal) : EReal :=
  (∑ k, x k * w k) + b

/-- A logistic gate: the entry times the logistic function of the gate's pre-activation. -/
def gate (e s : EReal) : EReal :=
  e * Ideal.logistic s

/-- The score of a row under a one-layer attention head: the rectified dense layer of the row, weighted by the head's
    vector and summed over the hidden units. -/
def score {n m : Nat} (x : Fin n → EReal) (w : Fin m → Fin n → EReal) (b a : Fin m → EReal) : EReal :=
  ∑ q, leaky (dense x (w q) (b q)) * a q

/-- The weight of the first of two scored alternatives: the logistic function of the difference of the scores (the
    first of the two softmax weights). -/
def mixWeight (s t : EReal) : EReal :=
  Ideal.logistic (s - t)

/-- The mixture of two entries with weight α on the first and one minus α (one as its f32 word) on the second. -/
def mix (α x y : EReal) : EReal :=
  α * x + (Ideal.ofBits .f32 0x3F800000#32 - α) * y

end Cert.Spec

end
-- ==== Proof.KI.Value1.lean ====
/-
  Region 1 read as a function: the normalised and rectified linear layer.

  The region walks the 40000 rows of the linear layer's output in eight blocks of 5000 rows. On each block it subtracts
  the column means, multiplies by the reciprocal root of the column variances plus a small constant, by the gains, adds
  the biases and applies the leaky rectifier; the means and variances are the two rows of a [2, 64] array, the gains and
  the biases [1, 64] arrays, the same at every block. Read at one entry the body is therefore one scalar function of
  the entry and of four numbers of its column, and since the eight blocks tile the rows, the output array after the
  region is that function applied entry by entry to the whole input arrays (G1 below).
-/
import proofs.«167917_j22402549416514_2_alg».proof.Proof.KI.Region1
import proofs.«167917_j22402549416514_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL.Sem
open Cert.Spec
open Idealize.ShloMosaic.Pipeline (Dat Cfg Window)

/-! # Region 1, read: the normalisation with the leaky rectifier as one function of the four input arrays -/

/-- What region 1 leaves in its output array: entry (r, q) is the rectified normalisation of the linear layer's entry
    (r, q) by column q's mean (row 0 of the statistics), variance (row 1), gain and bias. -/
def G1 (lin : S40000x64.Idx → EReal) (mv : S2x64.Idx → EReal) (g β : S1x64.Idx → EReal) : S40000x64.Idx → EReal :=
  fun i => leaky (normAff (lin i) (mv (ix2 (0 : Fin 2) (i 1))) (mv (ix2 (1 : Fin 2) (i 1))) (g (ix2 (0 : Fin 1) (i 1)))
    (β (ix2 (0 : Fin 1) (i 1))))

/-- The body's payload read at one entry. -/
theorem pay1_apply (v0 v2 : Vec Ideal S1x64 .f32) (v4 : Vec Ideal S5000x64 .f32) (v13 v17 : Vec Ideal S1x64 .f32)
    (p : Fin 5000) (q : Fin 64) :
    k1_pay1 (F := Ideal) v0 v2 v4 v13 v17 (ix2 p q)
      = leaky (normAff (v4 (ix2 p q)) (v0 (ix2 (0 : Fin 1) q)) (v2 (ix2 (0 : Fin 1) q)) (v13 (ix2 (0 : Fin 1) q))
          (v17 (ix2 (0 : Fin 1) q))) := by
  unfold k1_pay1
  simp only [shapeCast_self]
  simp only [select_apply, cmpf_apply, mulf_apply, addf_apply, subf_apply, broadcast_apply, broadcastTo_1b_ab_apply]
  rfl

theorem hz1 : (![0, 0] : Fin 2 → Nat) = fun _ => 0 := funext fun a => by fin_cases a <;> rfl

/-- The output block after the body, read at one entry: the rectified normalisation of the row block's entry by the
    statistics', the gain's and the bias's entries of its column. -/
theorem out1_4_apply (x0 : Vec Ideal S5000x64 .f32) (x1 : Vec Ideal S2x64 .f32) (x2 x3 : Vec Ideal S1x64 .f32)
    (p : Fin 5000) (q : Fin 64) :
    out1_4 (F := Ideal) x0 x1 x2 x3 (ix2 p q)
      = leaky (normAff (x0 (ix2 p q)) (x1 (ix2 (0 : Fin 2) q)) (x1 (ix2 (1 : Fin 2) q)) (x2 (ix2 (0 : Fin 1) q))
          (x3 (ix2 (0 : Fin 1) q))) := by
  unfold out1_4
  rw [View.canon_unit_zero hz1, pay1_apply]
  refine congrArg leaky ?_
  refine congr (congr (congr (congr (congrArg normAff ?_) ?_) ?_) ?_) ?_
  · exact congrArg x0 (funext fun a => Fin.ext (by
      match a with
      | ⟨0, _⟩ => show 0 + 1 * p.val = p.val; omega
      | ⟨1, _⟩ => show 0 + 1 * q.val = q.val; omega))
  · exact congrArg x1 (funext fun a => Fin.ext (by
      match a with
      | ⟨0, _⟩ => rfl
      | ⟨1, _⟩ => show 0 + 1 * q.val = q.val; omega))
  · exact congrArg x1 (funext fun a => Fin.ext (by
      match a with
      | ⟨0, _⟩ => rfl
      | ⟨1, _⟩ => show 0 + 1 * q.val = q.val; omega))
  · exact congrArg x2 (funext fun a => Fin.ext (by
      match a with
      | ⟨0, _⟩ => rfl
      | ⟨1, _⟩ => show 0 + 1 * q.val = q.val; omega))
  · exact congrArg x3 (funext fun a => Fin.ext (by
      match a with
      | ⟨0, _⟩ => rfl
      | ⟨1, _⟩ => show 0 + 1 * q.val = q.val; omega))

/-- The same at any index of the block. -/
theorem out1_4_apply' (x0 : Vec Ideal S5000x64 .f32) (x1 : Vec Ideal S2x64 .f32) (x2 x3 : Vec Ideal S1x64 .f32)
    (j : S5000x64.Idx) :
    out1_4 (F := Ideal) x0 x1 x2 x3 j
      = leaky (normAff (x0 j) (x1 (ix2 (0 : Fin 2) (j 1))) (x1 (ix2 (1 : Fin 2) (j 1))) (x2 (ix2 (0 : Fin 1) (j 1)))
          (x3 (ix2 (0 : Fin 1) (j 1)))) := by
  obtain ⟨p, q, rfl⟩ : ∃ (p : Fin 5000) (q : Fin 64), j = ix2 p q := ⟨j 0, j 1, eq_ix2 j⟩
  exact out1_4_apply x0 x1 x2 x3 p q

variable (V : (c : Dev nD) → (b : Ref sig .tc) → Buf (Elt Ideal) ((c : Thread nD τ).loc b))

/-- The printed index maps, decided over the grid: at point t the row block and the output block are block t of the rows,
    all columns; the statistics, the gain and the bias are the one block of their arrays. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The row block at point t is rows 5000 t … 5000 t + 4999 of the linear layer's output. -/
theorem iblk1_0_apply (c : Dev nD) (t : Fin cfg1.N) (x : S5000x64.Idx) (k : S40000x64.Idx)
    (hk0 : (k 0).val = 5000 * t.val + (x 0).val) (hk1 : (k 1).val = (x 1).val) :
    (iblk1 V c 0 t : Vec Ideal S5000x64 .f32) x = (V c (Pipeline.arrRef spec1 0) : S40000x64.Idx → EReal) k := by
  obtain ⟨e0, e1, -⟩ := idx_facts1 t
  unfold iblk1
  rw [View.read_apply]
  show V c (Pipeline.arrRef spec1 0) _ = V c (Pipeline.arrRef spec1 0) k
  congr 1
  funext a
  apply Fin.ext
  match a with
  | ⟨0, _⟩ => show win1_0.index t 0 * 5000 + 1 * (x 0).val = (k 0).val; rw [e0, hk0]; omega
  | ⟨1, _⟩ => show win1_0.index t 1 * 64 + 1 * (x 1).val = (k 1).val; rw [e1, hk1]; omega

/-- The statistics' block at every point is the whole [2, 64] array. -/
theorem iblk1_1_apply (c : Dev nD) (t : Fin cfg1.N) (x : S2x64.Idx) :
    (iblk1 V c 1 t : Vec Ideal S2x64 .f32) x = (V c (Pipeline.arrRef spec1 1) : S2x64.Idx → EReal) x := by
  obtain ⟨-, -, e0, e1, -⟩ := idx_facts1 t
  unfold iblk1
  rw [View.read_apply]
  show V c (Pipeline.arrRef spec1 1) _ = V c (Pipeline.arrRef spec1 1) x
  congr 1
  funext a
  apply Fin.ext
  match a with
  | ⟨0, _⟩ => show win1_1.index t 0 * 2 + 1 * (x 0).val = (x 0).val; rw [e0]; omega
  | ⟨1, _⟩ => show win1_1.index t 1 * 64 + 1 * (x 1).val = (x 1).val; rw [e1]; omega

/-- The gain's block at every point is the whole [1, 64] array. -/
theorem iblk1_2_apply (c : Dev nD) (t : Fin cfg1.N) (x : S1x64.Idx) :
    (iblk1 V c 2 t : Vec Ideal S1x64 .f32) x = (V c (Pipeline.arrRef spec1 2) : S1x64.Idx → EReal) x := by
  obtain ⟨-, -, -, -, e0, e1, -⟩ := idx_facts1 t
  unfold iblk1
  rw [View.read_apply]
  show V c (Pipeline.arrRef spec1 2) _ = V c (Pipeline.arrRef spec1 2) x
  congr 1
  funext a
  apply Fin.ext
  match a with
  | ⟨0, _⟩ => show win1_2.index t 0 * 1 + 1 * (x 0).val = (x 0).val; rw [e0]; omega
  | ⟨1, _⟩ => show win1_2.index t 1 * 64 + 1 * (x 1).val = (x 1).val; rw [e1]; omega

/-- The bias's block at every point is the whole [1, 64] array. -/
theorem iblk1_3_apply (c : Dev nD) (t : Fin cfg1.N) (x : S1x64.Idx) :
    (iblk1 V c 3 t : Vec Ideal S1x64 .f32) x = (V c (Pipeline.arrRef spec1 3) : S1x64.Idx → EReal) x := by
  obtain ⟨-, -, -, -, -, -, e0, e1, -⟩ := idx_facts1 t
  unfold iblk1
  rw [View.read_apply]
  show V c (Pipeline.arrRef spec1 3) _ = V c (Pipeline.arrRef spec1 3) x
  congr 1
  funext a
  apply Fin.ext
  match a with
  | ⟨0, _⟩ => show win1_3.index t 0 * 1 + 1 * (x 0).val = (x 0).val; rw [e0]; omega
  | ⟨1, _⟩ => show win1_3.index t 1 * 64 + 1 * (x 1).val = (x 1).val; rw [e1]; omega

/-- What point t writes back is block t of G1 of the four input arrays as the region finds them. -/
theorem flushed1_eq (c : Dev nD) (t : Fin cfg1.N) :
    (dat1 V c).flushed 4 t = ((cfg1.win 4).blk t).view.read (Elt Ideal)
      (G1 (V c (Pipeline.arrRef spec1 0)) (V c (Pipeline.arrRef spec1 1)) (V c (Pipeline.arrRef spec1 2))
        (V c (Pipeline.arrRef spec1 3))) := by
  show (cfg1.win 4).cut (grid1.coords t) ((dat1 V c).after 4 t) = _
  rw [after1_4]
  obtain ⟨-, -, -, -, -, -, -, -, e0, e1⟩ := idx_facts1 t
  funext j
  refine (out1_4_apply' _ _ _ _ j).trans ?_
  show _ = G1 _ _ _ _ (((cfg1.win 4).blk t).view.emb j)
  unfold G1
  have h1 : (j 1).val = ((((cfg1.win 4).blk t).view.emb j) 1).val := by
    show (j 1).val = win1_4.index t 1 * 64 + 1 * (j 1).val
    rw [e1]; omega
  refine congrArg leaky ?_
  refine congr (congr (congr (congr (congrArg normAff ?_) ?_) ?_) ?_) ?_
  · refine iblk1_0_apply V c t j _ ?_ ?_
    · show win1_4.index t 0 * 5000 + 1 * (j 0).val = 5000 * t.val + (j 0).val
      rw [e0]; omega
    · exact h1.symm
  · refine (iblk1_1_apply V c t _).trans (congrArg _ (funext fun a => Fin.ext ?_))
    match a with
    | ⟨0, _⟩ => rfl
    | ⟨1, _⟩ => exact h1
  · refine (iblk1_1_apply V c t _).trans (congrArg _ (funext fun a => Fin.ext ?_))
    match a with
    | ⟨0, _⟩ => rfl
    | ⟨1, _⟩ => exact h1
  · refine (iblk1_2_apply V c t _).trans (congrArg _ (funext fun a => Fin.ext ?_))
    match a with
    | ⟨0, _⟩ => rfl
    | ⟨1, _⟩ => exact h1
  · refine (iblk1_3_apply V c t _).trans (congrArg _ (funext fun a => Fin.ext ?_))
    match a with
    | ⟨0, _⟩ => rfl
    | ⟨1, _⟩ => exact h1

/-- An index of the output array is in point t's block iff each coordinate is in the block's range on its axis. -/
theorem mem_blk1_4 (t : Fin cfg1.N) (i : S40000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v35).slice (win1_4.rect t)).set ↔ _
  rw [View.set_slice_whole, Rect.mem_set_unit]
  exact Iff.rfl

/-- Every index of the output array is in the block of the point its row falls in. -/
theorem cover1_4_arr (i : S40000x64.Idx) :
    ∃ t : Fin cfg1.N, (cfg1.win 4).flush t = true ∧ i ∈ ((cfg1.win 4).blk t).view.set := by
  have hi0 : (i 0).val < 40000 := (i 0).isLt
  have hi1 : (i 1).val < 64 := (i 1).isLt
  obtain ⟨t, ht⟩ : ∃ t : Fin cfg1.N, t.val = (i 0).val / 5000 :=
    ⟨⟨(i 0).val / 5000, by rw [show cfg1.N = 8 from N_1]; omega⟩, rfl⟩
  obtain ⟨-, -, -, -, -, -, -, -, e0, e1⟩ := idx_facts1 t
  refine ⟨t, flush1_4 t, ?_⟩
  rw [mem_blk1_4]
  intro a
  match a with
  | ⟨0, _⟩ =>
    show win1_4.index t 0 * 5000 ≤ (i 0).val ∧ (i 0).val < win1_4.index t 0 * 5000 + 5000
    rw [e0, ht]; omega
  | ⟨1, _⟩ =>
    show win1_4.index t 1 * 64 ≤ (i 1).val ∧ (i 1).val < win1_4.index t 1 * 64 + 64
    rw [e1]; omega

/-- The output array after the region: G1 of the four input arrays as the region finds them. -/
theorem final1 (c : Dev nD) :
    (dat1 V c).arrAt 4 cfg1.N = G1 (V c (Pipeline.arrRef spec1 0)) (V c (Pipeline.arrRef spec1 1))
      (V c (Pipeline.arrRef spec1 2)) (V c (Pipeline.arrRef spec1 3)) :=
  (dat1 V c).arrAt_eq_of_cover 4 _ (fun t _ => flushed1_eq V c t) (fun i => cover1_4_arr i)

end Cert.KernelIdeal.Regions

end
-- ==== Proof.KI.Value3.lean ====
/-
  Region 3 read as a function: the normalised and rectified linear layer plus the residual.

  The region walks the 40000 rows of the linear layer's output in eight blocks of 5000 rows. On each block it subtracts
  the column means, multiplies by the reciprocal root of the column variances plus a small constant, by the gains, adds
  the biases, applies the leaky rectifier and adds the same rows of the residual array; the means and variances are the
  two rows of a [2, 64] array, the gains and the biases [1, 64] arrays, the same at every block. Read at one entry the
  body is one scalar function of the entry, of four numbers of its column and of the residual's entry, and since the
  eight blocks tile the rows the output array after the region is that function applied entry by entry to the whole
  input arrays (G3 below).
-/
import proofs.«167917_j22402549416514_2_alg».proof.Proof.KI.Region3
import proofs.«167917_j22402549416514_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

/-! # Region 3, read: the normalisation with the leaky rectifier, plus the residual, as one function of the input arrays -/

/-- What region 3 leaves in its output array: entry (r, q) is the rectified normalisation of the linear layer's entry
    (r, q) by column q's mean (row 0 of the statistics), variance (row 1), gain and bias, plus the residual's entry (r, q). -/
def G3 (lin : S40000x64.Idx → EReal) (mv : S2x64.Idx → EReal) (g β : S1x64.Idx → EReal) (res : S40000x64.Idx → EReal) : S40000x64.Idx → EReal :=
  fun i => leaky (normAff (lin i) (mv (ix2 (0 : Fin 2) (i 1))) (mv (ix2 (1 : Fin 2) (i 1))) (g (ix2 (0 : Fin 1) (i 1)))
    (β (ix2 (0 : Fin 1) (i 1)))) + res i

/-- The body's payload read at one entry. -/
theorem pay3_apply (v0 v2 : Vec Ideal S1x64 .f32) (v4 : Vec Ideal S5000x64 .f32) (v13 v17 : Vec Ideal S1x64 .f32) (v26 : Vec Ideal S5000x64 .f32)
    (p : Fin 5000) (q : Fin 64) :
    k3_pay1 (F := Ideal) v0 v2 v4 v13 v17 v26 (ix2 p q)
      = leaky (normAff (v4 (ix2 p q)) (v0 (ix2 (0 : Fin 1) q)) (v2 (ix2 (0 : Fin 1) q)) (v13 (ix2 (0 : Fin 1) q))
          (v17 (ix2 (0 : Fin 1) q))) + v26 (ix2 p q) := by
  unfold k3_pay1
  simp only [shapeCast_self]
  simp only [select_apply, cmpf_apply, mulf_apply, addf_apply, subf_apply, broadcast_apply, broadcastTo_1b_ab_apply]
  rfl

variable (V : (c : Dev nD) → (b : Ref sig .tc) → Buf (Elt Ideal) ((c : Thread nD τ).loc b))

theorem hz3 : (![0, 0] : Fin 2 → Nat) = fun _ => 0 := funext fun a => by fin_cases a <;> rfl

/-- The printed index maps, decided over the grid: at point t a window over row blocks is at block t of the rows, all
    columns; a window over a whole small array is at its one block. -/
theorem idx_facts3 : ∀ t : Fin cfg3.N,
    win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = t.val
    ∧ win3_4.index t (1 : Fin 2) = 0
    ∧ win3_5.index t (0 : Fin 2) = t.val
    ∧ win3_5.index t (1 : Fin 2) = 0 :=
  (by decide +kernel : ∀ t : Fin grid3.N, _)

/-- Window 0's block at point t is rows 5000 t … 5000 t + 4999 of its array. -/
theorem iblk3_0_apply (c : Dev nD) (t : Fin cfg3.N) (x : S5000x64.Idx) (k : S40000x64.Idx)
    (hk0 : (k 0).val = 5000 * t.val + (x 0).val) (hk1 : (k 1).val = (x 1).val) :
    (iblk3 V c 0 t : Vec Ideal S5000x64 .f32) x = (V c (Pipeline.arrRef spec3 0) : S40000x64.Idx → EReal) k := by
  obtain ⟨e0_0, e0_1, e1_0, e1_1, e2_0, e2_1, e3_0, e3_1, e4_0, e4_1, e5_0, e5_1⟩ := idx_facts3 t
  unfold iblk3
  rw [View.read_apply]
  show V c (Pipeline.arrRef spec3 0) _ = V c (Pipeline.arrRef spec3 0) k
  congr 1
  funext a
  apply Fin.ext
  match a with
  | ⟨0, _⟩ => show win3_0.index t 0 * 5000 + 1 * (x 0).val = (k 0).val; rw [e0_0, hk0]; omega
  | ⟨1, _⟩ => show win3_0.index t 1 * 64 + 1 * (x 1).val = (k 1).val; rw [e0_1, hk1]; omega

/-- Window 1's block at every point is its whole [2, 64] array. -/
theorem iblk3_1_apply (c : Dev nD) (t : Fin cfg3.N) (x : S2x64.Idx) :
    (iblk3 V c 1 t : Vec Ideal S2x64 .f32) x = (V c (Pipeline.arrRef spec3 1) : S2x64.Idx → EReal) x := by
  obtain ⟨e0_0, e0_1, e1_0, e1_1, e2_0, e2_1, e3_0, e3_1, e4_0, e4_1, e5_0, e5_1⟩ := idx_facts3 t
  unfold iblk3
  rw [View.read_apply]
  show V c (Pipeline.arrRef spec3 1) _ = V c (Pipeline.arrRef spec3 1) x
  congr 1
  funext a
  apply Fin.ext
  match a with
  | ⟨0, _⟩ => show win3_1.index t 0 * 2 + 1 * (x 0).val = (x 0).val; rw [e1_0]; omega
  | ⟨1, _⟩ => show win3_1.index t 1 * 64 + 1 * (x 1).val = (x 1).val; rw [e1_1]; omega

/-- Window 2's block at every point is its whole [1, 64] array. -/
theorem iblk3_2_apply (c : Dev nD) (t : Fin cfg3.N) (x : S1x64.Idx) :
    (iblk3 V c 2 t : Vec Ideal S1x64 .f32) x = (V c (Pipeline.arrRef spec3 2) : S1x64.Idx → EReal) x := by
  obtain ⟨e0_0, e0_1, e1_0, e1_1, e2_0, e2_1, e3_0, e3_1, e4_0, e4_1, e5_0, e5_1⟩ := idx_facts3 t
  unfold iblk3
  rw [View.read_apply]
  show V c (Pipeline.arrRef spec3 2) _ = V c (Pipeline.arrRef spec3 2) x
  congr 1
  funext a
  apply Fin.ext
  match a with
  | ⟨0, _⟩ => show win3_2.index t 0 * 1 + 1 * (x 0).val = (x 0).val; rw [e2_0]; omega
  | ⟨1, _⟩ => show win3_2.index t 1 * 64 + 1 * (x 1).val = (x 1).val; rw [e2_1]; omega

/-- Window 3's block at every point is its whole [1, 64] array. -/
theorem iblk3_3_apply (c : Dev nD) (t : Fin cfg3.N) (x : S1x64.Idx) :
    (iblk3 V c 3 t : Vec Ideal S1x64 .f32) x = (V c (Pipeline.arrRef spec3 3) : S1x64.Idx → EReal) x := by
  obtain ⟨e0_0, e0_1, e1_0, e1_1, e2_0, e2_1, e3_0, e3_1, e4_0, e4_1, e5_0, e5_1⟩ := idx_facts3 t
  unfold iblk3
  rw [View.read_apply]
  show V c (Pipeline.arrRef spec3 3) _ = V c (Pipeline.arrRef spec3 3) x
  congr 1
  funext a
  apply Fin.ext
  match a with
  | ⟨0, _⟩ => show win3_3.index t 0 * 1 + 1 * (x 0).val = (x 0).val; rw [e3_0]; omega
  | ⟨1, _⟩ => show win3_3.index t 1 * 64 + 1 * (x 1).val = (x 1).val; rw [e3_1]; omega

/-- Window 4's block at point t is rows 5000 t … 5000 t + 4999 of its array. -/
theorem iblk3_4_apply (c : Dev nD) (t : Fin cfg3.N) (x : S5000x64.Idx) (k : S40000x64.Idx)
    (hk0 : (k 0).val = 5000 * t.val + (x 0).val) (hk1 : (k 1).val = (x 1).val) :
    (iblk3 V c 4 t : Vec Ideal S5000x64 .f32) x = (V c (Pipeline.arrRef spec3 4) : S40000x64.Idx → EReal) k := by
  obtain ⟨e0_0, e0_1, e1_0, e1_1, e2_0, e2_1, e3_0, e3_1, e4_0, e4_1, e5_0, e5_1⟩ := idx_facts3 t
  unfold iblk3
  rw [View.read_apply]
  show V c (Pipeline.arrRef spec3 4) _ = V c (Pipeline.arrRef spec3 4) k
  congr 1
  funext a
  apply Fin.ext
  match a with
  | ⟨0, _⟩ => show win3_4.index t 0 * 5000 + 1 * (x 0).val = (k 0).val; rw [e4_0, hk0]; omega
  | ⟨1, _⟩ => show win3_4.index t 1 * 64 + 1 * (x 1).val = (k 1).val; rw [e4_1, hk1]; omega

/-- The output block after the body, read at one entry: the rectified normalisation of the row block's entry by the
    statistics', the gain's and the bias's entries of its column, plus the residual block's entry. -/
theorem out3_5_apply (x0 : Vec Ideal S5000x64 .f32) (x1 : Vec Ideal S2x64 .f32) (x2 x3 : Vec Ideal S1x64 .f32) (x4 : Vec Ideal S5000x64 .f32)
    (p : Fin 5000) (q : Fin 64) :
    out3_5 (F := Ideal) x0 x1 x2 x3 x4 (ix2 p q)
      = leaky (normAff (x0 (ix2 p q)) (x1 (ix2 (0 : Fin 2) q)) (x1 (ix2 (1 : Fin 2) q)) (x2 (ix2 (0 : Fin 1) q))
          (x3 (ix2 (0 : Fin 1) q))) + x4 (ix2 p q) := by
  unfold out3_5
  rw [View.canon_unit_zero hz3, pay3_apply]
  refine congrArg₂ (· + ·) ?_ ?_
  swap
  · exact congrArg x4 (funext fun a => Fin.ext (by
      match a with
      | ⟨0, _⟩ => show 0 + 1 * p.val = p.val; omega
      | ⟨1, _⟩ => show 0 + 1 * q.val = q.val; omega))
  refine congrArg leaky ?_
  refine congr (congr (congr (congr (congrArg normAff ?_) ?_) ?_) ?_) ?_
  · exact congrArg x0 (funext fun a => Fin.ext (by
      match a with
      | ⟨0, _⟩ => show 0 + 1 * p.val = p.val; omega
      | ⟨1, _⟩ => show 0 + 1 * q.val = q.val; omega))
  · exact congrArg x1 (funext fun a => Fin.ext (by
      match a with
      | ⟨0, _⟩ => rfl
      | ⟨1, _⟩ => show 0 + 1 * q.val = q.val; omega))
  · exact congrArg x1 (funext fun a => Fin.ext (by
      match a with
      | ⟨0, _⟩ => rfl
      | ⟨1, _⟩ => show 0 + 1 * q.val = q.val; omega))
  · exact congrArg x2 (funext fun a => Fin.ext (by
      match a with
      | ⟨0, _⟩ => rfl
      | ⟨1, _⟩ => show 0 + 1 * q.val = q.val; omega))
  · exact congrArg x3 (funext fun a => Fin.ext (by
      match a with
      | ⟨0, _⟩ => rfl
      | ⟨1, _⟩ => show 0 + 1 * q.val = q.val; omega))

/-- The same at any index of the block. -/
theorem out3_5_apply' (x0 : Vec Ideal S5000x64 .f32) (x1 : Vec Ideal S2x64 .f32) (x2 x3 : Vec Ideal S1x64 .f32) (x4 : Vec Ideal S5000x64 .f32)
    (j : S5000x64.Idx) :
    out3_5 (F := Ideal) x0 x1 x2 x3 x4 j
      = leaky (normAff (x0 j) (x1 (ix2 (0 : Fin 2) (j 1))) (x1 (ix2 (1 : Fin 2) (j 1))) (x2 (ix2 (0 : Fin 1) (j 1)))
          (x3 (ix2 (0 : Fin 1) (j 1)))) + x4 j := by
  obtain ⟨p, q, rfl⟩ : ∃ (p : Fin 5000) (q : Fin 64), j = ix2 p q := ⟨j 0, j 1, eq_ix2 j⟩
  exact out3_5_apply x0 x1 x2 x3 x4 p q

/-- What point t writes back is block t of G3 of the input arrays as the region finds them. -/
theorem flushed3_eq (c : Dev nD) (t : Fin cfg3.N) :
    (dat3 V c).flushed 5 t = ((cfg3.win 5).blk t).view.read (Elt Ideal)
      (G3 (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  obtain ⟨e0_0, e0_1, e1_0, e1_1, e2_0, e2_1, e3_0, e3_1, e4_0, e4_1, e5_0, e5_1⟩ := idx_facts3 t
  funext j
  refine (out3_5_apply' _ _ _ _ _ j).trans ?_
  show _ = G3 _ _ _ _ _ (((cfg3.win 5).blk t).view.emb j)
  unfold G3
  have h0 : ((((cfg3.win 5).blk t).view.emb j) 0).val = 5000 * t.val + (j 0).val := by
    show win3_5.index t 0 * 5000 + 1 * (j 0).val = 5000 * t.val + (j 0).val
    rw [e5_0]; omega
  have h1 : (j 1).val = ((((cfg3.win 5).blk t).view.emb j) 1).val := by
    show (j 1).val = win3_5.index t 1 * 64 + 1 * (j 1).val
    rw [e5_1]; omega
  refine congrArg₂ (· + ·) ?_ ?_
  swap
  · exact iblk3_4_apply V c t j _ h0 h1.symm
  refine congrArg leaky ?_
  refine congr (congr (congr (congr (congrArg normAff ?_) ?_) ?_) ?_) ?_
  · exact iblk3_0_apply V c t j _ h0 h1.symm
  · refine (iblk3_1_apply V c t _).trans (congrArg _ (funext fun a => Fin.ext ?_))
    match a with
    | ⟨0, _⟩ => rfl
    | ⟨1, _⟩ => exact h1
  · refine (iblk3_1_apply V c t _).trans (congrArg _ (funext fun a => Fin.ext ?_))
    match a with
    | ⟨0, _⟩ => rfl
    | ⟨1, _⟩ => exact h1
  · refine (iblk3_2_apply V c t _).trans (congrArg _ (funext fun a => Fin.ext ?_))
    match a with
    | ⟨0, _⟩ => rfl
    | ⟨1, _⟩ => exact h1
  · refine (iblk3_3_apply V c t _).trans (congrArg _ (funext fun a => Fin.ext ?_))
    match a with
    | ⟨0, _⟩ => rfl
    | ⟨1, _⟩ => exact h1

/-- An index of the output array is in point t's block iff each coordinate is in the block's range on its axis. -/
theorem mem_blk3_5 (t : Fin cfg3.N) (i : S40000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v40).slice (win3_5.rect t)).set ↔ _
  rw [View.set_slice_whole, Rect.mem_set_unit]
  exact Iff.rfl

/-- Every index of the output array is in the block of the point its row falls in. -/
theorem cover3_5_arr (i : S40000x64.Idx) :
    ∃ t : Fin cfg3.N, (cfg3.win 5).flush t = true ∧ i ∈ ((cfg3.win 5).blk t).view.set := by
  have hi0 : (i 0).val < 40000 := (i 0).isLt
  have hi1 : (i 1).val < 64 := (i 1).isLt
  obtain ⟨t, ht⟩ : ∃ t : Fin cfg3.N, t.val = (i 0).val / 5000 :=
    ⟨⟨(i 0).val / 5000, by rw [show cfg3.N = 8 from N_3]; omega⟩, rfl⟩
  obtain ⟨e0_0, e0_1, e1_0, e1_1, e2_0, e2_1, e3_0, e3_1, e4_0, e4_1, e5_0, e5_1⟩ := idx_facts3 t
  refine ⟨t, flush3_5 t, ?_⟩
  rw [mem_blk3_5]
  intro a
  match a with
  | ⟨0, _⟩ =>
    show win3_5.index t 0 * 5000 ≤ (i 0).val ∧ (i 0).val < win3_5.index t 0 * 5000 + 5000
    rw [e5_0, ht]; omega
  | ⟨1, _⟩ =>
    show win3_5.index t 1 * 64 ≤ (i 1).val ∧ (i 1).val < win3_5.index t 1 * 64 + 64
    rw [e5_1]; omega

/-- The output array after the region: G3 of the input arrays as the region finds them. -/
theorem final3 (c : Dev nD) :
    (dat3 V c).arrAt 5 cfg3.N = G3 (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5 _ (fun t _ => flushed3_eq V c t) (fun i => cover3_5_arr i)

end Cert.KernelIdeal.Regions

end
-- ==== Proof.KI.Value5.lean ====
/-
  Region 5 read as a function: the normalised and rectified linear layer.

  The region walks the 40000 rows of the linear layer's output in eight blocks of 5000 rows. On each block it subtracts
  the column means, multiplies by the reciprocal root of the column variances plus a small constant, by the gains, adds
  the biases and applies the leaky rectifier; the means and variances are the two rows of a [2, 64] array, the gains and
  the biases [1, 64] arrays, the same at every block. Read at one entry the body is one scalar function of the entry
  and of four numbers of its column, and since the eight blocks tile the rows the output array after the region is
  that function applied entry by entry to the whole input arrays (G5 below).
-/
import proofs.«167917_j22402549416514_2_alg».proof.Proof.KI.Region5
import proofs.«167917_j22402549416514_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

/-! # Region 5, read: the normalisation with the leaky rectifier as one function of the input arrays -/

/-- What region 5 leaves in its output array: entry (r, q) is the rectified normalisation of the linear layer's entry
    (r, q) by column q's mean (row 0 of the statistics), variance (row 1), gain and bias. -/
def G5 (lin : S40000x64.Idx → EReal) (mv : S2x64.Idx → EReal) (g β : S1x64.Idx → EReal) : S40000x64.Idx → EReal :=
  fun i => leaky (normAff (lin i) (mv (ix2 (0 : Fin 2) (i 1))) (mv (ix2 (1 : Fin 2) (i 1))) (g (ix2 (0 : Fin 1) (i 1)))
    (β (ix2 (0 : Fin 1) (i 1))))

/-- The body's payload read at one entry. -/
theorem pay5_apply (v0 v2 : Vec Ideal S1x64 .f32) (v4 : Vec Ideal S5000x64 .f32) (v13 v17 : Vec Ideal S1x64 .f32)
    (p : Fin 5000) (q : Fin 64) :
    k5_pay1 (F := Ideal) v0 v2 v4 v13 v17 (ix2 p q)
      = leaky (normAff (v4 (ix2 p q)) (v0 (ix2 (0 : Fin 1) q)) (v2 (ix2 (0 : Fin 1) q)) (v13 (ix2 (0 : Fin 1) q))
          (v17 (ix2 (0 : Fin 1) q))) := by
  unfold k5_pay1
  simp only [shapeCast_self]
  simp only [select_apply, cmpf_apply, mulf_apply, addf_apply, subf_apply, broadcast_apply, broadcastTo_1b_ab_apply]
  rfl

variable (V : (c : Dev nD) → (b : Ref sig .tc) → Buf (Elt Ideal) ((c : Thread nD τ).loc b))

theorem hz5 : (![0, 0] : Fin 2 → Nat) = fun _ => 0 := funext fun a => by fin_cases a <;> rfl

/-- The printed index maps, decided over the grid: at point t a window over row blocks is at block t of the rows, all
    columns; a window over a whole small array is at its one block. -/
theorem idx_facts5 : ∀ t : Fin cfg5.N,
    win5_0.index t (0 : Fin 2) = t.val
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = t.val
    ∧ win5_4.index t (1 : Fin 2) = 0 :=
  (by decide +kernel : ∀ t : Fin grid5.N, _)

/-- Window 0's block at point t is rows 5000 t … 5000 t + 4999 of its array. -/
theorem iblk5_0_apply (c : Dev nD) (t : Fin cfg5.N) (x : S5000x64.Idx) (k : S40000x64.Idx)
    (hk0 : (k 0).val = 5000 * t.val + (x 0).val) (hk1 : (k 1).val = (x 1).val) :
    (iblk5 V c 0 t : Vec Ideal S5000x64 .f32) x = (V c (Pipeline.arrRef spec5 0) : S40000x64.Idx → EReal) k := by
  obtain ⟨e0_0, e0_1, e1_0, e1_1, e2_0, e2_1, e3_0, e3_1, e4_0, e4_1⟩ := idx_facts5 t
  unfold iblk5
  rw [View.read_apply]
  show V c (Pipeline.arrRef spec5 0) _ = V c (Pipeline.arrRef spec5 0) k
  congr 1
  funext a
  apply Fin.ext
  match a with
  | ⟨0, _⟩ => show win5_0.index t 0 * 5000 + 1 * (x 0).val = (k 0).val; rw [e0_0, hk0]; omega
  | ⟨1, _⟩ => show win5_0.index t 1 * 64 + 1 * (x 1).val = (k 1).val; rw [e0_1, hk1]; omega

/-- Window 1's block at every point is its whole [2, 64] array. -/
theorem iblk5_1_apply (c : Dev nD) (t : Fin cfg5.N) (x : S2x64.Idx) :
    (iblk5 V c 1 t : Vec Ideal S2x64 .f32) x = (V c (Pipeline.arrRef spec5 1) : S2x64.Idx → EReal) x := by
  obtain ⟨e0_0, e0_1, e1_0, e1_1, e2_0, e2_1, e3_0, e3_1, e4_0, e4_1⟩ := idx_facts5 t
  unfold iblk5
  rw [View.read_apply]
  show V c (Pipeline.arrRef spec5 1) _ = V c (Pipeline.arrRef spec5 1) x
  congr 1
  funext a
  apply Fin.ext
  match a with
  | ⟨0, _⟩ => show win5_1.index t 0 * 2 + 1 * (x 0).val = (x 0).val; rw [e1_0]; omega
  | ⟨1, _⟩ => show win5_1.index t 1 * 64 + 1 * (x 1).val = (x 1).val; rw [e1_1]; omega

/-- Window 2's block at every point is its whole [1, 64] array. -/
theorem iblk5_2_apply (c : Dev nD) (t : Fin cfg5.N) (x : S1x64.Idx) :
    (iblk5 V c 2 t : Vec Ideal S1x64 .f32) x = (V c (Pipeline.arrRef spec5 2) : S1x64.Idx → EReal) x := by
  obtain ⟨e0_0, e0_1, e1_0, e1_1, e2_0, e2_1, e3_0, e3_1, e4_0, e4_1⟩ := idx_facts5 t
  unfold iblk5
  rw [View.read_apply]
  show V c (Pipeline.arrRef spec5 2) _ = V c (Pipeline.arrRef spec5 2) x
  congr 1
  funext a
  apply Fin.ext
  match a with
  | ⟨0, _⟩ => show win5_2.index t 0 * 1 + 1 * (x 0).val = (x 0).val; rw [e2_0]; omega
  | ⟨1, _⟩ => show win5_2.index t 1 * 64 + 1 * (x 1).val = (x 1).val; rw [e2_1]; omega

/-- Window 3's block at every point is its whole [1, 64] array. -/
theorem iblk5_3_apply (c : Dev nD) (t : Fin cfg5.N) (x : S1x64.Idx) :
    (iblk5 V c 3 t : Vec Ideal S1x64 .f32) x = (V c (Pipeline.arrRef spec5 3) : S1x64.Idx → EReal) x := by
  obtain ⟨e0_0, e0_1, e1_0, e1_1, e2_0, e2_1, e3_0, e3_1, e4_0, e4_1⟩ := idx_facts5 t
  unfold iblk5
  rw [View.read_apply]
  show V c (Pipeline.arrRef spec5 3) _ = V c (Pipeline.arrRef spec5 3) x
  congr 1
  funext a
  apply Fin.ext
  match a with
  | ⟨0, _⟩ => show win5_3.index t 0 * 1 + 1 * (x 0).val = (x 0).val; rw [e3_0]; omega
  | ⟨1, _⟩ => show win5_3.index t 1 * 64 + 1 * (x 1).val = (x 1).val; rw [e3_1]; omega

/-- The output block after the body, read at one entry: the rectified normalisation of the row block's entry by the
    statistics', the gain's and the bias's entries of its column. -/
theorem out5_4_apply (x0 : Vec Ideal S5000x64 .f32) (x1 : Vec Ideal S2x64 .f32) (x2 x3 : Vec Ideal S1x64 .f32)
    (p : Fin 5000) (q : Fin 64) :
    out5_4 (F := Ideal) x0 x1 x2 x3 (ix2 p q)
      = leaky (normAff (x0 (ix2 p q)) (x1 (ix2 (0 : Fin 2) q)) (x1 (ix2 (1 : Fin 2) q)) (x2 (ix2 (0 : Fin 1) q))
          (x3 (ix2 (0 : Fin 1) q))) := by
  unfold out5_4
  rw [View.canon_unit_zero hz5, pay5_apply]
  refine congrArg leaky ?_
  refine congr (congr (congr (congr (congrArg normAff ?_) ?_) ?_) ?_) ?_
  · exact congrArg x0 (funext fun a => Fin.ext (by
      match a with
      | ⟨0, _⟩ => show 0 + 1 * p.val = p.val; omega
      | ⟨1, _⟩ => show 0 + 1 * q.val = q.val; omega))
  · exact congrArg x1 (funext fun a => Fin.ext (by
      match a with
      | ⟨0, _⟩ => rfl
      | ⟨1, _⟩ => show 0 + 1 * q.val = q.val; omega))
  · exact congrArg x1 (funext fun a => Fin.ext (by
      match a with
      | ⟨0, _⟩ => rfl
      | ⟨1, _⟩ => show 0 + 1 * q.val = q.val; omega))
  · exact congrArg x2 (funext fun a => Fin.ext (by
      match a with
      | ⟨0, _⟩ => rfl
      | ⟨1, _⟩ => show 0 + 1 * q.val = q.val; omega))
  · exact congrArg x3 (funext fun a => Fin.ext (by
      match a with
      | ⟨0, _⟩ => rfl
      | ⟨1, _⟩ => show 0 + 1 * q.val = q.val; omega))

/-- The same at any index of the block. -/
theorem out5_4_apply' (x0 : Vec Ideal S5000x64 .f32) (x1 : Vec Ideal S2x64 .f32) (x2 x3 : Vec Ideal S1x64 .f32)
    (j : S5000x64.Idx) :
    out5_4 (F := Ideal) x0 x1 x2 x3 j
      = leaky (normAff (x0 j) (x1 (ix2 (0 : Fin 2) (j 1))) (x1 (ix2 (1 : Fin 2) (j 1))) (x2 (ix2 (0 : Fin 1) (j 1)))
          (x3 (ix2 (0 : Fin 1) (j 1)))) := by
  obtain ⟨p, q, rfl⟩ : ∃ (p : Fin 5000) (q : Fin 64), j = ix2 p q := ⟨j 0, j 1, eq_ix2 j⟩
  exact out5_4_apply x0 x1 x2 x3 p q

/-- What point t writes back is block t of G5 of the input arrays as the region finds them. -/
theorem flushed5_eq (c : Dev nD) (t : Fin cfg5.N) :
    (dat5 V c).flushed 4 t = ((cfg5.win 4).blk t).view.read (Elt Ideal)
      (G5 (V c (Pipeline.arrRef spec5 0)) (V c (Pipeline.arrRef spec5 1)) (V c (Pipeline.arrRef spec5 2)) (V c (Pipeline.arrRef spec5 3))) := by
  show (cfg5.win 4).cut (grid5.coords t) ((dat5 V c).after 4 t) = _
  rw [after5_4]
  obtain ⟨e0_0, e0_1, e1_0, e1_1, e2_0, e2_1, e3_0, e3_1, e4_0, e4_1⟩ := idx_facts5 t
  funext j
  refine (out5_4_apply' _ _ _ _ j).trans ?_
  show _ = G5 _ _ _ _ (((cfg5.win 4).blk t).view.emb j)
  unfold G5
  have h0 : ((((cfg5.win 4).blk t).view.emb j) 0).val = 5000 * t.val + (j 0).val := by
    show win5_4.index t 0 * 5000 + 1 * (j 0).val = 5000 * t.val + (j 0).val
    rw [e4_0]; omega
  have h1 : (j 1).val = ((((cfg5.win 4).blk t).view.emb j) 1).val := by
    show (j 1).val = win5_4.index t 1 * 64 + 1 * (j 1).val
    rw [e4_1]; omega
  refine congrArg leaky ?_
  refine congr (congr (congr (congr (congrArg normAff ?_) ?_) ?_) ?_) ?_
  · exact iblk5_0_apply V c t j _ h0 h1.symm
  · refine (iblk5_1_apply V c t _).trans (congrArg _ (funext fun a => Fin.ext ?_))
    match a with
    | ⟨0, _⟩ => rfl
    | ⟨1, _⟩ => exact h1
  · refine (iblk5_1_apply V c t _).trans (congrArg _ (funext fun a => Fin.ext ?_))
    match a with
    | ⟨0, _⟩ => rfl
    | ⟨1, _⟩ => exact h1
  · refine (iblk5_2_apply V c t _).trans (congrArg _ (funext fun a => Fin.ext ?_))
    match a with
    | ⟨0, _⟩ => rfl
    | ⟨1, _⟩ => exact h1
  · refine (iblk5_3_apply V c t _).trans (congrArg _ (funext fun a => Fin.ext ?_))
    match a with
    | ⟨0, _⟩ => rfl
    | ⟨1, _⟩ => exact h1

/-- An index of the output array is in point t's block iff each coordinate is in the block's range on its axis. -/
theorem mem_blk5_4 (t : Fin cfg5.N) (i : S40000x64.Idx) :
    i ∈ ((cfg5.win 4).blk t).view.set ↔ ∀ a : Fin 2, win5_4.index t a * S5000x64.size a ≤ (i a).val
      ∧ (i a).val < win5_4.index t a * S5000x64.size a + S5000x64.size a := by
  show i ∈ ((View.whole main_v45).slice (win5_4.rect t)).set ↔ _
  rw [View.set_slice_whole, Rect.mem_set_unit]
  exact Iff.rfl

/-- Every index of the output array is in the block of the point its row falls in. -/
theorem cover5_4_arr (i : S40000x64.Idx) :
    ∃ t : Fin cfg5.N, (cfg5.win 4).flush t = true ∧ i ∈ ((cfg5.win 4).blk t).view.set := by
  have hi0 : (i 0).val < 40000 := (i 0).isLt
  have hi1 : (i 1).val < 64 := (i 1).isLt
  obtain ⟨t, ht⟩ : ∃ t : Fin cfg5.N, t.val = (i 0).val / 5000 :=
    ⟨⟨(i 0).val / 5000, by rw [show cfg5.N = 8 from N_5]; omega⟩, rfl⟩
  obtain ⟨e0_0, e0_1, e1_0, e1_1, e2_0, e2_1, e3_0, e3_1, e4_0, e4_1⟩ := idx_facts5 t
  refine ⟨t, flush5_4 t, ?_⟩
  rw [mem_blk5_4]
  intro a
  match a with
  | ⟨0, _⟩ =>
    show win5_4.index t 0 * 5000 ≤ (i 0).val ∧ (i 0).val < win5_4.index t 0 * 5000 + 5000
    rw [e4_0, ht]; omega
  | ⟨1, _⟩ =>
    show win5_4.index t 1 * 64 ≤ (i 1).val ∧ (i 1).val < win5_4.index t 1 * 64 + 64
    rw [e4_1]; omega

/-- The output array after the region: G5 of the input arrays as the region finds them. -/
theorem final5 (c : Dev nD) :
    (dat5 V c).arrAt 4 cfg5.N = G5 (V c (Pipeline.arrRef spec5 0)) (V c (Pipeline.arrRef spec5 1)) (V c (Pipeline.arrRef spec5 2)) (V c (Pipeline.arrRef spec5 3)) :=
  (dat5 V c).arrAt_eq_of_cover 4 _ (fun t _ => flushed5_eq V c t) (fun i => cover5_4_arr i)

end Cert.KernelIdeal.Regions

end
-- ==== Proof.KI.Value7.lean ====
/-
  Region 7 read as a function: the normalised and rectified linear layer plus the residual.

  The region walks the 40000 rows of the linear layer's output in eight blocks of 5000 rows. On each block it subtracts
  the column means, multiplies by the reciprocal root of the column variances plus a small constant, by the gains, adds
  the biases, applies the leaky rectifier and adds the same rows of the residual array; the means and variances are the
  two rows of a [2, 64] array, the gains and the biases [1, 64] arrays, the same at every block. Read at one entry the
  body is one scalar function of the entry, of four numbers of its column and of the residual's entry, and since the
  eight blocks tile the rows the output array after the region is that function applied entry by entry to the whole
  input arrays (G7 below).
-/
import proofs.«167917_j22402549416514_2_alg».proof.Proof.KI.Region7
import proofs.«167917_j22402549416514_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

/-! # Region 7, read: the normalisation with the leaky rectifier, plus the residual, as one function of the input arrays -/

/-- What region 7 leaves in its output array: entry (r, q) is the rectified normalisation of the linear layer's entry
    (r, q) by column q's mean (row 0 of the statistics), variance (row 1), gain and bias, plus the residual's entry (r, q). -/
def G7 (lin : S40000x64.Idx → EReal) (mv : S2x64.Idx → EReal) (g β : S1x64.Idx → EReal) (res : S40000x64.Idx → EReal) : S40000x64.Idx → EReal :=
  fun i => leaky (normAff (lin i) (mv (ix2 (0 : Fin 2) (i 1))) (mv (ix2 (1 : Fin 2) (i 1))) (g (ix2 (0 : Fin 1) (i 1)))
    (β (ix2 (0 : Fin 1) (i 1)))) + res i

/-- The body's payload read at one entry. -/
theorem pay7_apply (v0 v2 : Vec Ideal S1x64 .f32) (v4 : Vec Ideal S5000x64 .f32) (v13 v17 : Vec Ideal S1x64 .f32) (v26 : Vec Ideal S5000x64 .f32)
    (p : Fin 5000) (q : Fin 64) :
    k7_pay1 (F := Ideal) v0 v2 v4 v13 v17 v26 (ix2 p q)
      = leaky (normAff (v4 (ix2 p q)) (v0 (ix2 (0 : Fin 1) q)) (v2 (ix2 (0 : Fin 1) q)) (v13 (ix2 (0 : Fin 1) q))
          (v17 (ix2 (0 : Fin 1) q))) + v26 (ix2 p q) := by
  unfold k7_pay1
  simp only [shapeCast_self]
  simp only [select_apply, cmpf_apply, mulf_apply, addf_apply, subf_apply, broadcast_apply, broadcastTo_1b_ab_apply]
  rfl

variable (V : (c : Dev nD) → (b : Ref sig .tc) → Buf (Elt Ideal) ((c : Thread nD τ).loc b))

theorem hz7 : (![0, 0] : Fin 2 → Nat) = fun _ => 0 := funext fun a => by fin_cases a <;> rfl

/-- The printed index maps, decided over the grid: at point t a window over row blocks is at block t of the rows, all
    columns; a window over a whole small array is at its one block. -/
theorem idx_facts7 : ∀ t : Fin cfg7.N,
    win7_0.index t (0 : Fin 2) = t.val
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = t.val
    ∧ win7_4.index t (1 : Fin 2) = 0
    ∧ win7_5.index t (0 : Fin 2) = t.val
    ∧ win7_5.index t (1 : Fin 2) = 0 :=
  (by decide +kernel : ∀ t : Fin grid7.N, _)

/-- Window 0's block at point t is rows 5000 t … 5000 t + 4999 of its array. -/
theorem iblk7_0_apply (c : Dev nD) (t : Fin cfg7.N) (x : S5000x64.Idx) (k : S40000x64.Idx)
    (hk0 : (k 0).val = 5000 * t.val + (x 0).val) (hk1 : (k 1).val = (x 1).val) :
    (iblk7 V c 0 t : Vec Ideal S5000x64 .f32) x = (V c (Pipeline.arrRef spec7 0) : S40000x64.Idx → EReal) k := by
  obtain ⟨e0_0, e0_1, e1_0, e1_1, e2_0, e2_1, e3_0, e3_1, e4_0, e4_1, e5_0, e5_1⟩ := idx_facts7 t
  unfold iblk7
  rw [View.read_apply]
  show V c (Pipeline.arrRef spec7 0) _ = V c (Pipeline.arrRef spec7 0) k
  congr 1
  funext a
  apply Fin.ext
  match a with
  | ⟨0, _⟩ => show win7_0.index t 0 * 5000 + 1 * (x 0).val = (k 0).val; rw [e0_0, hk0]; omega
  | ⟨1, _⟩ => show win7_0.index t 1 * 64 + 1 * (x 1).val = (k 1).val; rw [e0_1, hk1]; omega

/-- Window 1's block at every point is its whole [2, 64] array. -/
theorem iblk7_1_apply (c : Dev nD) (t : Fin cfg7.N) (x : S2x64.Idx) :
    (iblk7 V c 1 t : Vec Ideal S2x64 .f32) x = (V c (Pipeline.arrRef spec7 1) : S2x64.Idx → EReal) x := by
  obtain ⟨e0_0, e0_1, e1_0, e1_1, e2_0, e2_1, e3_0, e3_1, e4_0, e4_1, e5_0, e5_1⟩ := idx_facts7 t
  unfold iblk7
  rw [View.read_apply]
  show V c (Pipeline.arrRef spec7 1) _ = V c (Pipeline.arrRef spec7 1) x
  congr 1
  funext a
  apply Fin.ext
  match a with
  | ⟨0, _⟩ => show win7_1.index t 0 * 2 + 1 * (x 0).val = (x 0).val; rw [e1_0]; omega
  | ⟨1, _⟩ => show win7_1.index t 1 * 64 + 1 * (x 1).val = (x 1).val; rw [e1_1]; omega

/-- Window 2's block at every point is its whole [1, 64] array. -/
theorem iblk7_2_apply (c : Dev nD) (t : Fin cfg7.N) (x : S1x64.Idx) :
    (iblk7 V c 2 t : Vec Ideal S1x64 .f32) x = (V c (Pipeline.arrRef spec7 2) : S1x64.Idx → EReal) x := by
  obtain ⟨e0_0, e0_1, e1_0, e1_1, e2_0, e2_1, e3_0, e3_1, e4_0, e4_1, e5_0, e5_1⟩ := idx_facts7 t
  unfold iblk7
  rw [View.read_apply]
  show V c (Pipeline.arrRef spec7 2) _ = V c (Pipeline.arrRef spec7 2) x
  congr 1
  funext a
  apply Fin.ext
  match a with
  | ⟨0, _⟩ => show win7_2.index t 0 * 1 + 1 * (x 0).val = (x 0).val; rw [e2_0]; omega
  | ⟨1, _⟩ => show win7_2.index t 1 * 64 + 1 * (x 1).val = (x 1).val; rw [e2_1]; omega

/-- Window 3's block at every point is its whole [1, 64] array. -/
theorem iblk7_3_apply (c : Dev nD) (t : Fin cfg7.N) (x : S1x64.Idx) :
    (iblk7 V c 3 t : Vec Ideal S1x64 .f32) x = (V c (Pipeline.arrRef spec7 3) : S1x64.Idx → EReal) x := by
  obtain ⟨e0_0, e0_1, e1_0, e1_1, e2_0, e2_1, e3_0, e3_1, e4_0, e4_1, e5_0, e5_1⟩ := idx_facts7 t
  unfold iblk7
  rw [View.read_apply]
  show V c (Pipeline.arrRef spec7 3) _ = V c (Pipeline.arrRef spec7 3) x
  congr 1
  funext a
  apply Fin.ext
  match a with
  | ⟨0, _⟩ => show win7_3.index t 0 * 1 + 1 * (x 0).val = (x 0).val; rw [e3_0]; omega
  | ⟨1, _⟩ => show win7_3.index t 1 * 64 + 1 * (x 1).val = (x 1).val; rw [e3_1]; omega

/-- Window 4's block at point t is rows 5000 t … 5000 t + 4999 of its array. -/
theorem iblk7_4_apply (c : Dev nD) (t : Fin cfg7.N) (x : S5000x64.Idx) (k : S40000x64.Idx)
    (hk0 : (k 0).val = 5000 * t.val + (x 0).val) (hk1 : (k 1).val = (x 1).val) :
    (iblk7 V c 4 t : Vec Ideal S5000x64 .f32) x = (V c (Pipeline.arrRef spec7 4) : S40000x64.Idx → EReal) k := by
  obtain ⟨e0_0, e0_1, e1_0, e1_1, e2_0, e2_1, e3_0, e3_1, e4_0, e4_1, e5_0, e5_1⟩ := idx_facts7 t
  unfold iblk7
  rw [View.read_apply]
  show V c (Pipeline.arrRef spec7 4) _ = V c (Pipeline.arrRef spec7 4) k
  congr 1
  funext a
  apply Fin.ext
  match a with
  | ⟨0, _⟩ => show win7_4.index t 0 * 5000 + 1 * (x 0).val = (k 0).val; rw [e4_0, hk0]; omega
  | ⟨1, _⟩ => show win7_4.index t 1 * 64 + 1 * (x 1).val = (k 1).val; rw [e4_1, hk1]; omega

/-- The output block after the body, read at one entry: the rectified normalisation of the row block's entry by the
    statistics', the gain's and the bias's entries of its column, plus the residual block's entry. -/
theorem out7_5_apply (x0 : Vec Ideal S5000x64 .f32) (x1 : Vec Ideal S2x64 .f32) (x2 x3 : Vec Ideal S1x64 .f32) (x4 : Vec Ideal S5000x64 .f32)
    (p : Fin 5000) (q : Fin 64) :
    out7_5 (F := Ideal) x0 x1 x2 x3 x4 (ix2 p q)
      = leaky (normAff (x0 (ix2 p q)) (x1 (ix2 (0 : Fin 2) q)) (x1 (ix2 (1 : Fin 2) q)) (x2 (ix2 (0 : Fin 1) q))
          (x3 (ix2 (0 : Fin 1) q))) + x4 (ix2 p q) := by
  unfold out7_5
  rw [View.canon_unit_zero hz7, pay7_apply]
  refine congrArg₂ (· + ·) ?_ ?_
  swap
  · exact congrArg x4 (funext fun a => Fin.ext (by
      match a with
      | ⟨0, _⟩ => show 0 + 1 * p.val = p.val; omega
      | ⟨1, _⟩ => show 0 + 1 * q.val = q.val; omega))
  refine congrArg leaky ?_
  refine congr (congr (congr (congr (congrArg normAff ?_) ?_) ?_) ?_) ?_
  · exact congrArg x0 (funext fun a => Fin.ext (by
      match a with
      | ⟨0, _⟩ => show 0 + 1 * p.val = p.val; omega
      | ⟨1, _⟩ => show 0 + 1 * q.val = q.val; omega))
  · exact congrArg x1 (funext fun a => Fin.ext (by
      match a with
      | ⟨0, _⟩ => rfl
      | ⟨1, _⟩ => show 0 + 1 * q.val = q.val; omega))
  · exact congrArg x1 (funext fun a => Fin.ext (by
      match a with
      | ⟨0, _⟩ => rfl
      | ⟨1, _⟩ => show 0 + 1 * q.val = q.val; omega))
  · exact congrArg x2 (funext fun a => Fin.ext (by
      match a with
      | ⟨0, _⟩ => rfl
      | ⟨1, _⟩ => show 0 + 1 * q.val = q.val; omega))
  · exact congrArg x3 (funext fun a => Fin.ext (by
      match a with
      | ⟨0, _⟩ => rfl
      | ⟨1, _⟩ => show 0 + 1 * q.val = q.val; omega))

/-- The same at any index of the block. -/
theorem out7_5_apply' (x0 : Vec Ideal S5000x64 .f32) (x1 : Vec Ideal S2x64 .f32) (x2 x3 : Vec Ideal S1x64 .f32) (x4 : Vec Ideal S5000x64 .f32)
    (j : S5000x64.Idx) :
    out7_5 (F := Ideal) x0 x1 x2 x3 x4 j
      = leaky (normAff (x0 j) (x1 (ix2 (0 : Fin 2) (j 1))) (x1 (ix2 (1 : Fin 2) (j 1))) (x2 (ix2 (0 : Fin 1) (j 1)))
          (x3 (ix2 (0 : Fin 1) (j 1)))) + x4 j := by
  obtain ⟨p, q, rfl⟩ : ∃ (p : Fin 5000) (q : Fin 64), j = ix2 p q := ⟨j 0, j 1, eq_ix2 j⟩
  exact out7_5_apply x0 x1 x2 x3 x4 p q

/-- What point t writes back is block t of G7 of the input arrays as the region finds them. -/
theorem flushed7_eq (c : Dev nD) (t : Fin cfg7.N) :
    (dat7 V c).flushed 5 t = ((cfg7.win 5).blk t).view.read (Elt Ideal)
      (G7 (V c (Pipeline.arrRef spec7 0)) (V c (Pipeline.arrRef spec7 1)) (V c (Pipeline.arrRef spec7 2)) (V c (Pipeline.arrRef spec7 3)) (V c (Pipeline.arrRef spec7 4))) := by
  show (cfg7.win 5).cut (grid7.coords t) ((dat7 V c).after 5 t) = _
  rw [after7_5]
  obtain ⟨e0_0, e0_1, e1_0, e1_1, e2_0, e2_1, e3_0, e3_1, e4_0, e4_1, e5_0, e5_1⟩ := idx_facts7 t
  funext j
  refine (out7_5_apply' _ _ _ _ _ j).trans ?_
  show _ = G7 _ _ _ _ _ (((cfg7.win 5).blk t).view.emb j)
  unfold G7
  have h0 : ((((cfg7.win 5).blk t).view.emb j) 0).val = 5000 * t.val + (j 0).val := by
    show win7_5.index t 0 * 5000 + 1 * (j 0).val = 5000 * t.val + (j 0).val
    rw [e5_0]; omega
  have h1 : (j 1).val = ((((cfg7.win 5).blk t).view.emb j) 1).val := by
    show (j 1).val = win7_5.index t 1 * 64 + 1 * (j 1).val
    rw [e5_1]; omega
  refine congrArg₂ (· + ·) ?_ ?_
  swap
  · exact iblk7_4_apply V c t j _ h0 h1.symm
  refine congrArg leaky ?_
  refine congr (congr (congr (congr (congrArg normAff ?_) ?_) ?_) ?_) ?_
  · exact iblk7_0_apply V c t j _ h0 h1.symm
  · refine (iblk7_1_apply V c t _).trans (congrArg _ (funext fun a => Fin.ext ?_))
    match a with
    | ⟨0, _⟩ => rfl
    | ⟨1, _⟩ => exact h1
  · refine (iblk7_1_apply V c t _).trans (congrArg _ (funext fun a => Fin.ext ?_))
    match a with
    | ⟨0, _⟩ => rfl
    | ⟨1, _⟩ => exact h1
  · refine (iblk7_2_apply V c t _).trans (congrArg _ (funext fun a => Fin.ext ?_))
    match a with
    | ⟨0, _⟩ => rfl
    | ⟨1, _⟩ => exact h1
  · refine (iblk7_3_apply V c t _).trans (congrArg _ (funext fun a => Fin.ext ?_))
    match a with
    | ⟨0, _⟩ => rfl
    | ⟨1, _⟩ => exact h1

/-- An index of the output array is in point t's block iff each coordinate is in the block's range on its axis. -/
theorem mem_blk7_5 (t : Fin cfg7.N) (i : S40000x64.Idx) :
    i ∈ ((cfg7.win 5).blk t).view.set ↔ ∀ a : Fin 2, win7_5.index t a * S5000x64.size a ≤ (i a).val
      ∧ (i a).val < win7_5.index t a * S5000x64.size a + S5000x64.size a := by
  show i ∈ ((View.whole main_v50).slice (win7_5.rect t)).set ↔ _
  rw [View.set_slice_whole, Rect.mem_set_unit]
  exact Iff.rfl

/-- Every index of the output array is in the block of the point its row falls in. -/
theorem cover7_5_arr (i : S40000x64.Idx) :
    ∃ t : Fin cfg7.N, (cfg7.win 5).flush t = true ∧ i ∈ ((cfg7.win 5).blk t).view.set := by
  have hi0 : (i 0).val < 40000 := (i 0).isLt
  have hi1 : (i 1).val < 64 := (i 1).isLt
  obtain ⟨t, ht⟩ : ∃ t : Fin cfg7.N, t.val = (i 0).val / 5000 :=
    ⟨⟨(i 0).val / 5000, by rw [show cfg7.N = 8 from N_7]; omega⟩, rfl⟩
  obtain ⟨e0_0, e0_1, e1_0, e1_1, e2_0, e2_1, e3_0, e3_1, e4_0, e4_1, e5_0, e5_1⟩ := idx_facts7 t
  refine ⟨t, flush7_5 t, ?_⟩
  rw [mem_blk7_5]
  intro a
  match a with
  | ⟨0, _⟩ =>
    show win7_5.index t 0 * 5000 ≤ (i 0).val ∧ (i 0).val < win7_5.index t 0 * 5000 + 5000
    rw [e5_0, ht]; omega
  | ⟨1, _⟩ =>
    show win7_5.index t 1 * 64 ≤ (i 1).val ∧ (i 1).val < win7_5.index t 1 * 64 + 64
    rw [e5_1]; omega

/-- The output array after the region: G7 of the input arrays as the region finds them. -/
theorem final7 (c : Dev nD) :
    (dat7 V c).arrAt 5 cfg7.N = G7 (V c (Pipeline.arrRef spec7 0)) (V c (Pipeline.arrRef spec7 1)) (V c (Pipeline.arrRef spec7 2)) (V c (Pipeline.arrRef spec7 3)) (V c (Pipeline.arrRef spec7 4)) :=
  (dat7 V c).arrAt_eq_of_cover 5 _ (fun t _ => flushed7_eq V c t) (fun i => cover7_5_arr i)

end Cert.KernelIdeal.Regions

end
-- ==== Proof.LibMatmulT.lean ====
/-
  A matrix product against a transposed right operand, read at an entry.

  For A of shape [m, k] and B of shape [n, k], the product that contracts the second axis of both, accumulated onto
  zeros, is at entry (a, b) the inner product of row a of A with row b of B:  ∑ c, A (a, c) · B (b, c).  On the
  extended reals the accumulation is the exact finite sum, so this is the reading of the matrix unit's product at an
  index; the sum over the product's one-axis contraction index is re-indexed by its one coordinate.
-/
import Idealize.ShloMosaic.Lib.ValueIdx
import Idealize.ShloMosaic.PureOps.Ideal.Laws

noncomputable section

open scoped BigOperators

namespace Idealize.ShloMosaic.MatmulT

open Idealize.ShloMosaic Idealize.ShloMosaic.ValueIdx

/-- The product of an [m, k] by the transpose of an [n, k] matrix, onto zeros, at entry (a, b): the inner product of
    row a of the first with row b of the second. -/
theorem matmul_tr_zero_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (F := Ideal) (⟨[1], [1], [0], [0], [], [], w⟩ : DotDims _ _ _) prec A B
        (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Idealize.ShloMosaic.MatmulT

end
-- ==== Proof.KI.Value8.lean ====
/-
  Region 8 read as a function: the logistic gate on the item embedding.

  The region walks the 40000 rows of a feature array in eight blocks of 5000 rows. On each block it multiplies the
  rows by the transpose of a 64 x 64 weight (an inner product of a feature row with a weight row per entry), adds a
  bias row, applies the logistic function and multiplies, entry by entry, the same rows of the item embedding. Read
  at one entry the body is one scalar function of the embedding's entry, a feature row, a weight row and a bias, and
  since the eight blocks tile the rows the output array after the region is that function applied entry by entry to
  the whole input arrays (G8 below).
-/
import proofs.«167917_j22402549416514_2_alg».proof.Proof.KI.Region8
import proofs.«167917_j22402549416514_2_alg».proof.Proof.Spec
import proofs.«167917_j22402549416514_2_alg».proof.Proof.LibMatmulT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

/-! # Region 8, read: the gated embedding as one function of the four input arrays -/

/-- What region 8 leaves in its output array: entry (r, q) is the embedding's entry (r, q) times the logistic function of
    the dense layer's entry (r, q): row r of the features against row q of the weight, plus the bias of column q. -/
def G8 (f : S40000x64.Idx → EReal) (w : S64x64.Idx → EReal) (b : S1x64.Idx → EReal) (emb : S40000x64.Idx → EReal) :
    S40000x64.Idx → EReal :=
  fun i => gate (emb i) (dense (fun k : Fin 64 => f (ix2 (i 0) k)) (fun k : Fin 64 => w (ix2 (i 1) k))
    (b (ix2 (0 : Fin 1) (i 1))))

/-- The logistic function of an array, read at an entry. -/
theorem logistic_apply8 {s : Shape} {φ : FTy} (a : FVec Ideal s φ) (i : s.Idx) : logistic a i = Ideal.logistic (a i) := rfl

/-- The body's payload read at one entry. -/
theorem pay8_apply (v0 : Vec Ideal S5000x64 .f32) (v3 : Vec Ideal S64x64 .f32) (v6 : Vec Ideal S1x64 .f32)
    (v11 : Vec Ideal S5000x64 .f32) (p : Fin 5000) (q : Fin 64) :
    k8_pay1 (F := Ideal) v0 v3 v6 v11 (ix2 p q)
      = gate (v11 (ix2 p q)) (dense (fun k : Fin 64 => v0 (ix2 p k)) (fun k : Fin 64 => v3 (ix2 q k))
          (v6 (ix2 (0 : Fin 1) q))) := by
  have hm : matmul (F := Ideal) dot_S5000x64_S64x64_S5000x64_1_1_0_0_n_n none (truncf .bf16 v0 bitsLt_bf16_f32)
      (truncf .bf16 v3 bitsLt_bf16_f32) (constant (F := Ideal) S5000x64 .f32 0x00000000#32) (ix2 p q)
      = ∑ c : Fin 64, v0 (ix2 p c) * v3 (ix2 q c) :=
    Idealize.ShloMosaic.MatmulT.matmul_tr_zero_apply _ none _ _ p q
  unfold k8_pay1
  simp only [shapeCast_self]
  simp only [mulf_apply, addf_apply, logistic_apply8, broadcastTo_1b_ab_apply]
  rw [hm]
  rfl

variable (V : (c : Dev nD) → (b : Ref sig .tc) → Buf (Elt Ideal) ((c : Thread nD τ).loc b))

theorem hz8 : (![0, 0] : Fin 2 → Nat) = fun _ => 0 := funext fun a => by fin_cases a <;> rfl

/-- The printed index maps, decided over the grid: at point t a window over row blocks is at block t of the rows, all
    columns; a window over a whole small array is at its one block. -/
theorem idx_facts8 : ∀ t : Fin cfg8.N,
    win8_0.index t (0 : Fin 2) = t.val
    ∧ win8_0.index t (1 : Fin 2) = 0
    ∧ win8_1.index t (0 : Fin 2) = 0
    ∧ win8_1.index t (1 : Fin 2) = 0
    ∧ win8_2.index t (0 : Fin 2) = 0
    ∧ win8_2.index t (1 : Fin 2) = 0
    ∧ win8_3.index t (0 : Fin 2) = t.val
    ∧ win8_3.index t (1 : Fin 2) = 0
    ∧ win8_4.index t (0 : Fin 2) = t.val
    ∧ win8_4.index t (1 : Fin 2) = 0 :=
  (by decide +kernel : ∀ t : Fin grid8.N, _)

/-- Window 0's block at point t is rows 5000 t … 5000 t + 4999 of its array. -/
theorem iblk8_0_apply (c : Dev nD) (t : Fin cfg8.N) (x : S5000x64.Idx) (k : S40000x64.Idx)
    (hk0 : (k 0).val = 5000 * t.val + (x 0).val) (hk1 : (k 1).val = (x 1).val) :
    (iblk8 V c 0 t : Vec Ideal S5000x64 .f32) x = (V c (Pipeline.arrRef spec8 0) : S40000x64.Idx → EReal) k := by
  obtain ⟨e0_0, e0_1, e1_0, e1_1, e2_0, e2_1, e3_0, e3_1, e4_0, e4_1⟩ := idx_facts8 t
  unfold iblk8
  rw [View.read_apply]
  show V c (Pipeline.arrRef spec8 0) _ = V c (Pipeline.arrRef spec8 0) k
  congr 1
  funext a
  apply Fin.ext
  match a with
  | ⟨0, _⟩ => show win8_0.index t 0 * 5000 + 1 * (x 0).val = (k 0).val; rw [e0_0, hk0]; omega
  | ⟨1, _⟩ => show win8_0.index t 1 * 64 + 1 * (x 1).val = (k 1).val; rw [e0_1, hk1]; omega

/-- Window 1's block at every point is its whole [64, 64] array. -/
theorem iblk8_1_apply (c : Dev nD) (t : Fin cfg8.N) (x : S64x64.Idx) :
    (iblk8 V c 1 t : Vec Ideal S64x64 .f32) x = (V c (Pipeline.arrRef spec8 1) : S64x64.Idx → EReal) x := by
  obtain ⟨e0_0, e0_1, e1_0, e1_1, e2_0, e2_1, e3_0, e3_1, e4_0, e4_1⟩ := idx_facts8 t
  unfold iblk8
  rw [View.read_apply]
  show V c (Pipeline.arrRef spec8 1) _ = V c (Pipeline.arrRef spec8 1) x
  congr 1
  funext a
  apply Fin.ext
  match a with
  | ⟨0, _⟩ => show win8_1.index t 0 * 64 + 1 * (x 0).val = (x 0).val; rw [e1_0]; omega
  | ⟨1, _⟩ => show win8_1.index t 1 * 64 + 1 * (x 1).val = (x 1).val; rw [e1_1]; omega

/-- Window 2's block at every point is its whole [1, 64] array. -/
theorem iblk8_2_apply (c : Dev nD) (t : Fin cfg8.N) (x : S1x64.Idx) :
    (iblk8 V c 2 t : Vec Ideal S1x64 .f32) x = (V c (Pipeline.arrRef spec8 2) : S1x64.Idx → EReal) x := by
  obtain ⟨e0_0, e0_1, e1_0, e1_1, e2_0, e2_1, e3_0, e3_1, e4_0, e4_1⟩ := idx_facts8 t
  unfold iblk8
  rw [View.read_apply]
  show V c (Pipeline.arrRef spec8 2) _ = V c (Pipeline.arrRef spec8 2) x
  congr 1
  funext a
  apply Fin.ext
  match a with
  | ⟨0, _⟩ => show win8_2.index t 0 * 1 + 1 * (x 0).val = (x 0).val; rw [e2_0]; omega
  | ⟨1, _⟩ => show win8_2.index t 1 * 64 + 1 * (x 1).val = (x 1).val; rw [e2_1]; omega

/-- Window 3's block at point t is rows 5000 t … 5000 t + 4999 of its array. -/
theorem iblk8_3_apply (c : Dev nD) (t : Fin cfg8.N) (x : S5000x64.Idx) (k : S40000x64.Idx)
    (hk0 : (k 0).val = 5000 * t.val + (x 0).val) (hk1 : (k 1).val = (x 1).val) :
    (iblk8 V c 3 t : Vec Ideal S5000x64 .f32) x = (V c (Pipeline.arrRef spec8 3) : S40000x64.Idx → EReal) k := by
  obtain ⟨e0_0, e0_1, e1_0, e1_1, e2_0, e2_1, e3_0, e3_1, e4_0, e4_1⟩ := idx_facts8 t
  unfold iblk8
  rw [View.read_apply]
  show V c (Pipeline.arrRef spec8 3) _ = V c (Pipeline.arrRef spec8 3) k
  congr 1
  funext a
  apply Fin.ext
  match a with
  | ⟨0, _⟩ => show win8_3.index t 0 * 5000 + 1 * (x 0).val = (k 0).val; rw [e3_0, hk0]; omega
  | ⟨1, _⟩ => show win8_3.index t 1 * 64 + 1 * (x 1).val = (k 1).val; rw [e3_1, hk1]; omega

/-- The output block after the body is the payload of the four input blocks: every load is of a whole block. -/
theorem out8_4_eq (x0 : Vec Ideal S5000x64 .f32) (x1 : Vec Ideal S64x64 .f32) (x2 : Vec Ideal S1x64 .f32)
    (x3 : Vec Ideal S5000x64 .f32) : out8_4 (F := Ideal) x0 x1 x2 x3 = k8_pay1 (F := Ideal) x0 x1 x2 x3 := by
  unfold out8_4
  rw [View.canon_unit_zero hz8]
  simp only [View.ld_unit_zero (S := S5000x64) hz8, View.ld_unit_zero (S := S64x64) hz8,
    View.ld_unit_zero (S := S1x64) hz8]

/-- The output block after the body, read at any index of the block. -/
theorem out8_4_apply' (x0 : Vec Ideal S5000x64 .f32) (x1 : Vec Ideal S64x64 .f32) (x2 : Vec Ideal S1x64 .f32)
    (x3 : Vec Ideal S5000x64 .f32) (j : S5000x64.Idx) :
    out8_4 (F := Ideal) x0 x1 x2 x3 j
      = gate (x3 j) (dense (fun k : Fin 64 => x0 (ix2 (j 0) k)) (fun k : Fin 64 => x1 (ix2 (j 1) k))
          (x2 (ix2 (0 : Fin 1) (j 1)))) := by
  obtain ⟨p, q, rfl⟩ : ∃ (p : Fin 5000) (q : Fin 64), j = ix2 p q := ⟨j 0, j 1, eq_ix2 j⟩
  rw [out8_4_eq]
  exact pay8_apply x0 x1 x2 x3 p q

/-- What point t writes back is block t of G8 of the four input arrays as the region finds them. -/
theorem flushed8_eq (c : Dev nD) (t : Fin cfg8.N) :
    (dat8 V c).flushed 4 t = ((cfg8.win 4).blk t).view.read (Elt Ideal)
      (G8 (V c (Pipeline.arrRef spec8 0)) (V c (Pipeline.arrRef spec8 1)) (V c (Pipeline.arrRef spec8 2))
        (V c (Pipeline.arrRef spec8 3))) := by
  show (cfg8.win 4).cut (grid8.coords t) ((dat8 V c).after 4 t) = _
  rw [after8_4]
  obtain ⟨e0_0, e0_1, e1_0, e1_1, e2_0, e2_1, e3_0, e3_1, e4_0, e4_1⟩ := idx_facts8 t
  funext j
  refine (out8_4_apply' _ _ _ _ j).trans ?_
  show _ = G8 _ _ _ _ (((cfg8.win 4).blk t).view.emb j)
  unfold G8
  have h0 : ((((cfg8.win 4).blk t).view.emb j) 0).val = 5000 * t.val + (j 0).val := by
    show win8_4.index t 0 * 5000 + 1 * (j 0).val = 5000 * t.val + (j 0).val
    rw [e4_0]; omega
  have h1 : (j 1).val = ((((cfg8.win 4).blk t).view.emb j) 1).val := by
    show (j 1).val = win8_4.index t 1 * 64 + 1 * (j 1).val
    rw [e4_1]; omega
  refine congr (congrArg gate ?_) ?_
  · exact iblk8_3_apply V c t j _ h0 h1.symm
  refine congr (congr (congrArg dense (funext fun k => ?_)) (funext fun k => ?_)) ?_
  · exact iblk8_0_apply V c t _ _ h0 rfl
  · refine (iblk8_1_apply V c t _).trans (congrArg _ (funext fun a => Fin.ext ?_))
    match a with
    | ⟨0, _⟩ => exact h1
    | ⟨1, _⟩ => rfl
  · refine (iblk8_2_apply V c t _).trans (congrArg _ (funext fun a => Fin.ext ?_))
    match a with
    | ⟨0, _⟩ => rfl
    | ⟨1, _⟩ => exact h1

/-- An index of the output array is in point t's block iff each coordinate is in the block's range on its axis. -/
theorem mem_blk8_4 (t : Fin cfg8.N) (i : S40000x64.Idx) :
    i ∈ ((cfg8.win 4).blk t).view.set ↔ ∀ a : Fin 2, win8_4.index t a * S5000x64.size a ≤ (i a).val
      ∧ (i a).val < win8_4.index t a * S5000x64.size a + S5000x64.size a := by
  show i ∈ ((View.whole main_v52).slice (win8_4.rect t)).set ↔ _
  rw [View.set_slice_whole, Rect.mem_set_unit]
  exact Iff.rfl

/-- Every index of the output array is in the block of the point its row falls in. -/
theorem cover8_4_arr (i : S40000x64.Idx) :
    ∃ t : Fin cfg8.N, (cfg8.win 4).flush t = true ∧ i ∈ ((cfg8.win 4).blk t).view.set := by
  have hi0 : (i 0).val < 40000 := (i 0).isLt
  have hi1 : (i 1).val < 64 := (i 1).isLt
  obtain ⟨t, ht⟩ : ∃ t : Fin cfg8.N, t.val = (i 0).val / 5000 :=
    ⟨⟨(i 0).val / 5000, by rw [show cfg8.N = 8 from N_8]; omega⟩, rfl⟩
  obtain ⟨e0_0, e0_1, e1_0, e1_1, e2_0, e2_1, e3_0, e3_1, e4_0, e4_1⟩ := idx_facts8 t
  refine ⟨t, flush8_4 t, ?_⟩
  rw [mem_blk8_4]
  intro a
  match a with
  | ⟨0, _⟩ =>
    show win8_4.index t 0 * 5000 ≤ (i 0).val ∧ (i 0).val < win8_4.index t 0 * 5000 + 5000
    rw [e4_0, ht]; omega
  | ⟨1, _⟩ =>
    show win8_4.index t 1 * 64 ≤ (i 1).val ∧ (i 1).val < win8_4.index t 1 * 64 + 64
    rw [e4_1]; omega

/-- The output array after the region: G8 of the four input arrays as the region finds them. -/
theorem final8 (c : Dev nD) :
    (dat8 V c).arrAt 4 cfg8.N = G8 (V c (Pipeline.arrRef spec8 0)) (V c (Pipeline.arrRef spec8 1))
      (V c (Pipeline.arrRef spec8 2)) (V c (Pipeline.arrRef spec8 3)) :=
  (dat8 V c).arrAt_eq_of_cover 4 _ (fun t _ => flushed8_eq V c t) (fun i => cover8_4_arr i)

end Cert.KernelIdeal.Regions

end
-- ==== Proof.KI.Value9.lean ====
/-
  Region 9 read as a function: the logistic gate on the item embedding.

  The region walks the 40000 rows of a feature array in eight blocks of 5000 rows. On each block it multiplies the
  rows by the transpose of a 64 x 64 weight (an inner product of a feature row with a weight row per entry), adds a
  bias row, applies the logistic function and multiplies, entry by entry, the same rows of the item embedding. Read
  at one entry the body is one scalar function of the embedding's entry, a feature row, a weight row and a bias, and
  since the eight blocks tile the rows the output array after the region is that function applied entry by entry to
  the whole input arrays (G9 below).
-/
import proofs.«167917_j22402549416514_2_alg».proof.Proof.KI.Region9
import proofs.«167917_j22402549416514_2_alg».proof.Proof.Spec
import proofs.«167917_j22402549416514_2_alg».proof.Proof.LibMatmulT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

/-! # Region 9, read: the gated embedding as one function of the four input arrays -/

/-- What region 9 leaves in its output array: entry (r, q) is the embedding's entry (r, q) times the logistic function of
    the dense layer's entry (r, q): row r of the features against row q of the weight, plus the bias of column q. -/
def G9 (f : S40000x64.Idx → EReal) (w : S64x64.Idx → EReal) (b : S1x64.Idx → EReal) (emb : S40000x64.Idx → EReal) :
    S40000x64.Idx → EReal :=
  fun i => gate (emb i) (dense (fun k : Fin 64 => f (ix2 (i 0) k)) (fun k : Fin 64 => w (ix2 (i 1) k))
    (b (ix2 (0 : Fin 1) (i 1))))

/-- The logistic function of an array, read at an entry. -/
theorem logistic_apply9 {s : Shape} {φ : FTy} (a : FVec Ideal s φ) (i : s.Idx) : logistic a i = Ideal.logistic (a i) := rfl

/-- The body's payload read at one entry. -/
theorem pay9_apply (v0 : Vec Ideal S5000x64 .f32) (v3 : Vec Ideal S64x64 .f32) (v6 : Vec Ideal S1x64 .f32)
    (v11 : Vec Ideal S5000x64 .f32) (p : Fin 5000) (q : Fin 64) :
    k9_pay1 (F := Ideal) v0 v3 v6 v11 (ix2 p q)
      = gate (v11 (ix2 p q)) (dense (fun k : Fin 64 => v0 (ix2 p k)) (fun k : Fin 64 => v3 (ix2 q k))
          (v6 (ix2 (0 : Fin 1) q))) := by
  have hm : matmul (F := Ideal) dot_S5000x64_S64x64_S5000x64_1_1_0_0_n_n none (truncf .bf16 v0 bitsLt_bf16_f32)
      (truncf .bf16 v3 bitsLt_bf16_f32) (constant (F := Ideal) S5000x64 .f32 0x00000000#32) (ix2 p q)
      = ∑ c : Fin 64, v0 (ix2 p c) * v3 (ix2 q c) :=
    Idealize.ShloMosaic.MatmulT.matmul_tr_zero_apply _ none _ _ p q
  unfold k9_pay1
  simp only [shapeCast_self]
  simp only [mulf_apply, addf_apply, logistic_apply9, broadcastTo_1b_ab_apply]
  rw [hm]
  rfl

variable (V : (c : Dev nD) → (b : Ref sig .tc) → Buf (Elt Ideal) ((c : Thread nD τ).loc b))

theorem hz9 : (![0, 0] : Fin 2 → Nat) = fun _ => 0 := funext fun a => by fin_cases a <;> rfl

/-- The printed index maps, decided over the grid: at point t a window over row blocks is at block t of the rows, all
    columns; a window over a whole small array is at its one block. -/
theorem idx_facts9 : ∀ t : Fin cfg9.N,
    win9_0.index t (0 : Fin 2) = t.val
    ∧ win9_0.index t (1 : Fin 2) = 0
    ∧ win9_1.index t (0 : Fin 2) = 0
    ∧ win9_1.index t (1 : Fin 2) = 0
    ∧ win9_2.index t (0 : Fin 2) = 0
    ∧ win9_2.index t (1 : Fin 2) = 0
    ∧ win9_3.index t (0 : Fin 2) = t.val
    ∧ win9_3.index t (1 : Fin 2) = 0
    ∧ win9_4.index t (0 : Fin 2) = t.val
    ∧ win9_4.index t (1 : Fin 2) = 0 :=
  (by decide +kernel : ∀ t : Fin grid9.N, _)

/-- Window 0's block at point t is rows 5000 t … 5000 t + 4999 of its array. -/
theorem iblk9_0_apply (c : Dev nD) (t : Fin cfg9.N) (x : S5000x64.Idx) (k : S40000x64.Idx)
    (hk0 : (k 0).val = 5000 * t.val + (x 0).val) (hk1 : (k 1).val = (x 1).val) :
    (iblk9 V c 0 t : Vec Ideal S5000x64 .f32) x = (V c (Pipeline.arrRef spec9 0) : S40000x64.Idx → EReal) k := by
  obtain ⟨e0_0, e0_1, e1_0, e1_1, e2_0, e2_1, e3_0, e3_1, e4_0, e4_1⟩ := idx_facts9 t
  unfold iblk9
  rw [View.read_apply]
  show V c (Pipeline.arrRef spec9 0) _ = V c (Pipeline.arrRef spec9 0) k
  congr 1
  funext a
  apply Fin.ext
  match a with
  | ⟨0, _⟩ => show win9_0.index t 0 * 5000 + 1 * (x 0).val = (k 0).val; rw [e0_0, hk0]; omega
  | ⟨1, _⟩ => show win9_0.index t 1 * 64 + 1 * (x 1).val = (k 1).val; rw [e0_1, hk1]; omega

/-- Window 1's block at every point is its whole [64, 64] array. -/
theorem iblk9_1_apply (c : Dev nD) (t : Fin cfg9.N) (x : S64x64.Idx) :
    (iblk9 V c 1 t : Vec Ideal S64x64 .f32) x = (V c (Pipeline.arrRef spec9 1) : S64x64.Idx → EReal) x := by
  obtain ⟨e0_0, e0_1, e1_0, e1_1, e2_0, e2_1, e3_0, e3_1, e4_0, e4_1⟩ := idx_facts9 t
  unfold iblk9
  rw [View.read_apply]
  show V c (Pipeline.arrRef spec9 1) _ = V c (Pipeline.arrRef spec9 1) x
  congr 1
  funext a
  apply Fin.ext
  match a with
  | ⟨0, _⟩ => show win9_1.index t 0 * 64 + 1 * (x 0).val = (x 0).val; rw [e1_0]; omega
  | ⟨1, _⟩ => show win9_1.index t 1 * 64 + 1 * (x 1).val = (x 1).val; rw [e1_1]; omega

/-- Window 2's block at every point is its whole [1, 64] array. -/
theorem iblk9_2_apply (c : Dev nD) (t : Fin cfg9.N) (x : S1x64.Idx) :
    (iblk9 V c 2 t : Vec Ideal S1x64 .f32) x = (V c (Pipeline.arrRef spec9 2) : S1x64.Idx → EReal) x := by
  obtain ⟨e0_0, e0_1, e1_0, e1_1, e2_0, e2_1, e3_0, e3_1, e4_0, e4_1⟩ := idx_facts9 t
  unfold iblk9
  rw [View.read_apply]
  show V c (Pipeline.arrRef spec9 2) _ = V c (Pipeline.arrRef spec9 2) x
  congr 1
  funext a
  apply Fin.ext
  match a with
  | ⟨0, _⟩ => show win9_2.index t 0 * 1 + 1 * (x 0).val = (x 0).val; rw [e2_0]; omega
  | ⟨1, _⟩ => show win9_2.index t 1 * 64 + 1 * (x 1).val = (x 1).val; rw [e2_1]; omega

/-- Window 3's block at point t is rows 5000 t … 5000 t + 4999 of its array. -/
theorem iblk9_3_apply (c : Dev nD) (t : Fin cfg9.N) (x : S5000x64.Idx) (k : S40000x64.Idx)
    (hk0 : (k 0).val = 5000 * t.val + (x 0).val) (hk1 : (k 1).val = (x 1).val) :
    (iblk9 V c 3 t : Vec Ideal S5000x64 .f32) x = (V c (Pipeline.arrRef spec9 3) : S40000x64.Idx → EReal) k := by
  obtain ⟨e0_0, e0_1, e1_0, e1_1, e2_0, e2_1, e3_0, e3_1, e4_0, e4_1⟩ := idx_facts9 t
  unfold iblk9
  rw [View.read_apply]
  show V c (Pipeline.arrRef spec9 3) _ = V c (Pipeline.arrRef spec9 3) k
  congr 1
  funext a
  apply Fin.ext
  match a with
  | ⟨0, _⟩ => show win9_3.index t 0 * 5000 + 1 * (x 0).val = (k 0).val; rw [e3_0, hk0]; omega
  | ⟨1, _⟩ => show win9_3.index t 1 * 64 + 1 * (x 1).val = (k 1).val; rw [e3_1, hk1]; omega

/-- The output block after the body is the payload of the four input blocks: every load is of a whole block. -/
theorem out9_4_eq (x0 : Vec Ideal S5000x64 .f32) (x1 : Vec Ideal S64x64 .f32) (x2 : Vec Ideal S1x64 .f32)
    (x3 : Vec Ideal S5000x64 .f32) : out9_4 (F := Ideal) x0 x1 x2 x3 = k9_pay1 (F := Ideal) x0 x1 x2 x3 := by
  unfold out9_4
  rw [View.canon_unit_zero hz9]
  simp only [View.ld_unit_zero (S := S5000x64) hz9, View.ld_unit_zero (S := S64x64) hz9,
    View.ld_unit_zero (S := S1x64) hz9]

/-- The output block after the body, read at any index of the block. -/
theorem out9_4_apply' (x0 : Vec Ideal S5000x64 .f32) (x1 : Vec Ideal S64x64 .f32) (x2 : Vec Ideal S1x64 .f32)
    (x3 : Vec Ideal S5000x64 .f32) (j : S5000x64.Idx) :
    out9_4 (F := Ideal) x0 x1 x2 x3 j
      = gate (x3 j) (dense (fun k : Fin 64 => x0 (ix2 (j 0) k)) (fun k : Fin 64 => x1 (ix2 (j 1) k))
          (x2 (ix2 (0 : Fin 1) (j 1)))) := by
  obtain ⟨p, q, rfl⟩ : ∃ (p : Fin 5000) (q : Fin 64), j = ix2 p q := ⟨j 0, j 1, eq_ix2 j⟩
  rw [out9_4_eq]
  exact pay9_apply x0 x1 x2 x3 p q

/-- What point t writes back is block t of G9 of the four input arrays as the region finds them. -/
theorem flushed9_eq (c : Dev nD) (t : Fin cfg9.N) :
    (dat9 V c).flushed 4 t = ((cfg9.win 4).blk t).view.read (Elt Ideal)
      (G9 (V c (Pipeline.arrRef spec9 0)) (V c (Pipeline.arrRef spec9 1)) (V c (Pipeline.arrRef spec9 2))
        (V c (Pipeline.arrRef spec9 3))) := by
  show (cfg9.win 4).cut (grid9.coords t) ((dat9 V c).after 4 t) = _
  rw [after9_4]
  obtain ⟨e0_0, e0_1, e1_0, e1_1, e2_0, e2_1, e3_0, e3_1, e4_0, e4_1⟩ := idx_facts9 t
  funext j
  refine (out9_4_apply' _ _ _ _ j).trans ?_
  show _ = G9 _ _ _ _ (((cfg9.win 4).blk t).view.emb j)
  unfold G9
  have h0 : ((((cfg9.win 4).blk t).view.emb j) 0).val = 5000 * t.val + (j 0).val := by
    show win9_4.index t 0 * 5000 + 1 * (j 0).val = 5000 * t.val + (j 0).val
    rw [e4_0]; omega
  have h1 : (j 1).val = ((((cfg9.win 4).blk t).view.emb j) 1).val := by
    show (j 1).val = win9_4.index t 1 * 64 + 1 * (j 1).val
    rw [e4_1]; omega
  refine congr (congrArg gate ?_) ?_
  · exact iblk9_3_apply V c t j _ h0 h1.symm
  refine congr (congr (congrArg dense (funext fun k => ?_)) (funext fun k => ?_)) ?_
  · exact iblk9_0_apply V c t _ _ h0 rfl
  · refine (iblk9_1_apply V c t _).trans (congrArg _ (funext fun a => Fin.ext ?_))
    match a with
    | ⟨0, _⟩ => exact h1
    | ⟨1, _⟩ => rfl
  · refine (iblk9_2_apply V c t _).trans (congrArg _ (funext fun a => Fin.ext ?_))
    match a with
    | ⟨0, _⟩ => rfl
    | ⟨1, _⟩ => exact h1

/-- An index of the output array is in point t's block iff each coordinate is in the block's range on its axis. -/
theorem mem_blk9_4 (t : Fin cfg9.N) (i : S40000x64.Idx) :
    i ∈ ((cfg9.win 4).blk t).view.set ↔ ∀ a : Fin 2, win9_4.index t a * S5000x64.size a ≤ (i a).val
      ∧ (i a).val < win9_4.index t a * S5000x64.size a + S5000x64.size a := by
  show i ∈ ((View.whole main_v54).slice (win9_4.rect t)).set ↔ _
  rw [View.set_slice_whole, Rect.mem_set_unit]
  exact Iff.rfl

/-- Every index of the output array is in the block of the point its row falls in. -/
theorem cover9_4_arr (i : S40000x64.Idx) :
    ∃ t : Fin cfg9.N, (cfg9.win 4).flush t = true ∧ i ∈ ((cfg9.win 4).blk t).view.set := by
  have hi0 : (i 0).val < 40000 := (i 0).isLt
  have hi1 : (i 1).val < 64 := (i 1).isLt
  obtain ⟨t, ht⟩ : ∃ t : Fin cfg9.N, t.val = (i 0).val / 5000 :=
    ⟨⟨(i 0).val / 5000, by rw [show cfg9.N = 8 from N_9]; omega⟩, rfl⟩
  obtain ⟨e0_0, e0_1, e1_0, e1_1, e2_0, e2_1, e3_0, e3_1, e4_0, e4_1⟩ := idx_facts9 t
  refine ⟨t, flush9_4 t, ?_⟩
  rw [mem_blk9_4]
  intro a
  match a with
  | ⟨0, _⟩ =>
    show win9_4.index t 0 * 5000 ≤ (i 0).val ∧ (i 0).val < win9_4.index t 0 * 5000 + 5000
    rw [e4_0, ht]; omega
  | ⟨1, _⟩ =>
    show win9_4.index t 1 * 64 ≤ (i 1).val ∧ (i 1).val < win9_4.index t 1 * 64 + 64
    rw [e4_1]; omega

/-- The output array after the region: G9 of the four input arrays as the region finds them. -/
theorem final9 (c : Dev nD) :
    (dat9 V c).arrAt 4 cfg9.N = G9 (V c (Pipeline.arrRef spec9 0)) (V c (Pipeline.arrRef spec9 1))
      (V c (Pipeline.arrRef spec9 2)) (V c (Pipeline.arrRef spec9 3)) :=
  (dat9 V c).arrAt_eq_of_cover 4 _ (fun t _ => flushed9_eq V c t) (fun i => cover9_4_arr i)

end Cert.KernelIdeal.Regions

end
-- ==== Proof.KI.Value10.lean ====
/-
  Region 10 read as a function: the attention-weighted fusion of two tables onto the content.

  The region walks the 70000 rows of two tables (call them the first and the second) and of the content array in ten
  blocks of 7000 rows. For each row it scores the first table's row and the second table's row with one small
  attention head (a dense layer against a 64 x 64 weight and a bias row, the leaky rectifier, then the inner product
  with the head's vector), takes the logistic function of the difference of the two scores as the weight of the first
  table (the first weight of a two-way softmax) and one minus it as the weight of the second, and adds the weighted
  mixture of the two rows to the content's row. Read at one entry the body is one scalar function of the content's
  entry, the two tables' entries and rows, the weight, the bias and the head's vector; since the ten blocks tile the
  rows the output array after the region is that function applied entry by entry to the whole input arrays (G10).
-/
import proofs.«167917_j22402549416514_2_alg».proof.Proof.KI.Region10
import proofs.«167917_j22402549416514_2_alg».proof.Proof.Spec
import proofs.«167917_j22402549416514_2_alg».proof.Proof.LibMatmulT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

/-! # Region 10, read -/

/-- What region 10 leaves in its output array: entry (r, q) is the content's entry plus the mixture of the two tables'
    entries, the first weighted by the logistic function of the difference of the two rows' scores. Arguments in window
    order: the first table, the second table, the content, the head's weight, its bias row, its vector. -/
def G10 (x0 x1 x2 : S70000x64.Idx → EReal) (w : S64x64.Idx → EReal) (b a : S1x64.Idx → EReal) : S70000x64.Idx → EReal :=
  fun i => x2 i + mix
    (mixWeight (score (fun k : Fin 64 => x0 (ix2 (i 0) k)) (fun (q k : Fin 64) => w (ix2 q k)) (fun q : Fin 64 => b (ix2 (0 : Fin 1) q))
        (fun q : Fin 64 => a (ix2 (0 : Fin 1) q)))
      (score (fun k : Fin 64 => x1 (ix2 (i 0) k)) (fun (q k : Fin 64) => w (ix2 q k)) (fun q : Fin 64 => b (ix2 (0 : Fin 1) q))
        (fun q : Fin 64 => a (ix2 (0 : Fin 1) q))))
    (x0 i) (x1 i)

/-- The logistic function of an array, read at an entry. -/
theorem logistic_apply10 {s : Shape} {φ : FTy} (a : FVec Ideal s φ) (i : s.Idx) : logistic a i = Ideal.logistic (a i) := rfl

/-- A [a] array cast to a column [a, 1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of a [7000, 64] array, at row p: the sum over the 64 columns of row p. -/
theorem rowsum10 (src : FVec Ideal S7000x64 .f32) (p : Fin 7000) :
    multiReduction (F := Ideal) .add [1] S7000 src 0x00000000#32 reduces_S7000x64_S7000 (.inl rfl) rfl (ix1 p)
      = ∑ k : Fin 64, src (ix2 p k) := by
  refine (Ideal.multiReduction_add_single src _ reduces_S7000x64_S7000 (.inl rfl) rfl (ix1 p)).trans ?_
  refine Finset.sum_congr rfl fun k _ => congrArg src (funext fun c => Fin.ext ?_)
  match c with
  | ⟨0, _⟩ => rfl
  | ⟨1, _⟩ => rfl

/-- The dense layer of the head on a block of rows: the block against the transposed weight, plus the bias row. -/
def headLin (x : Vec Ideal S7000x64 .f32) (v4 : Vec Ideal S64x64 .f32) (v6 : Vec Ideal S1x64 .f32) : FVec Ideal S7000x64 .f32 :=
  addf (matmul dot_S7000x64_S64x64_S7000x64_1_1_0_0_n_n none (truncf .bf16 x bitsLt_bf16_f32) (truncf .bf16 v4 bitsLt_bf16_f32)
    (constant S7000x64 .f32 0x00000000#32)) (broadcastTo S7000x64 v6 broadcasts_S1x64_S7000x64)

/-- The rectified dense layer weighted, column by column, by the head's vector. -/
def headTerm (x : Vec Ideal S7000x64 .f32) (v4 : Vec Ideal S64x64 .f32) (v6 v8 : Vec Ideal S1x64 .f32) : FVec Ideal S7000x64 .f32 :=
  mulf (select (cmpf .oge (headLin x v4 v6) (broadcast S7000x64 (Scalar.ofBits .f32 0x00000000#32))) (headLin x v4 v6)
    (mulf (broadcast S7000x64 (Scalar.ofBits .f32 0x3C23D70A#32)) (headLin x v4 v6))) (broadcastTo S7000x64 v8 broadcasts_S1x64_S7000x64)

/-- The column of the rows' scores. -/
def headScore (x : Vec Ideal S7000x64 .f32) (v4 : Vec Ideal S64x64 .f32) (v6 v8 : Vec Ideal S1x64 .f32) : FVec Ideal S7000x1 .f32 :=
  shapeCast S7000x1 (multiReduction .add [1] S7000 (headTerm x v4 v6 v8) 0x00000000#32 reduces_S7000x64_S7000 (.inl rfl) rfl)
    shapeCasts_S7000_S7000x1

/-- One entry of the weighted rectified dense layer. -/
theorem headTerm_apply (x : Vec Ideal S7000x64 .f32) (v4 : Vec Ideal S64x64 .f32) (v6 v8 : Vec Ideal S1x64 .f32)
    (p : Fin 7000) (q : Fin 64) :
    headTerm x v4 v6 v8 (ix2 p q)
      = leaky (dense (fun k : Fin 64 => x (ix2 p k)) (fun k : Fin 64 => v4 (ix2 q k)) (v6 (ix2 (0 : Fin 1) q)))
          * v8 (ix2 (0 : Fin 1) q) := by
  have hm : matmul (F := Ideal) dot_S7000x64_S64x64_S7000x64_1_1_0_0_n_n none (truncf .bf16 x bitsLt_bf16_f32)
      (truncf .bf16 v4 bitsLt_bf16_f32) (constant (F := Ideal) S7000x64 .f32 0x00000000#32) (ix2 p q)
      = ∑ c : Fin 64, x (ix2 p c) * v4 (ix2 q c) :=
    Idealize.ShloMosaic.MatmulT.matmul_tr_zero_apply _ none _ _ p q
  unfold headTerm headLin
  simp only [select_apply, cmpf_apply, mulf_apply, addf_apply, broadcast_apply, broadcastTo_1b_ab_apply]
  rw [hm]
  rfl

/-- One entry of the column of scores: the score of the row. -/
theorem headScore_apply (x : Vec Ideal S7000x64 .f32) (v4 : Vec Ideal S64x64 .f32) (v6 v8 : Vec Ideal S1x64 .f32)
    (p : Fin 7000) (u : Fin 1) :
    headScore x v4 v6 v8 (ix2 p u)
      = score (fun k : Fin 64 => x (ix2 p k)) (fun (q k : Fin 64) => v4 (ix2 q k)) (fun q : Fin 64 => v6 (ix2 (0 : Fin 1) q))
          (fun q : Fin 64 => v8 (ix2 (0 : Fin 1) q)) := by
  unfold headScore
  rw [shapeCast_a_a1_apply, rowsum10]
  unfold score
  exact Finset.sum_congr rfl fun q _ => headTerm_apply x v4 v6 v8 p q

/-- The weight column as the logistic function of the difference of the two score columns. -/
theorem pay10_4_eq (v0 v2 : Vec Ideal S7000x64 .f32) (v4 : Vec Ideal S64x64 .f32) (v6 v8 : Vec Ideal S1x64 .f32) :
    k10_pay4 (F := Ideal) v0 v2 v4 v6 v8 = logistic (subf (headScore v0 v4 v6 v8) (headScore v2 v4 v6 v8)) := by
  unfold k10_pay4 k10_pay2 k10_pay3 headScore headTerm headLin
  simp only [shapeCast_self]

/-- The weight of the first table at row p. -/
theorem pay10_4_apply (v0 v2 : Vec Ideal S7000x64 .f32) (v4 : Vec Ideal S64x64 .f32) (v6 v8 : Vec Ideal S1x64 .f32)
    (p : Fin 7000) (u : Fin 1) :
    k10_pay4 (F := Ideal) v0 v2 v4 v6 v8 (ix2 p u)
      = mixWeight
          (score (fun k : Fin 64 => v0 (ix2 p k)) (fun (q k : Fin 64) => v4 (ix2 q k)) (fun q : Fin 64 => v6 (ix2 (0 : Fin 1) q))
            (fun q : Fin 64 => v8 (ix2 (0 : Fin 1) q)))
          (score (fun k : Fin 64 => v2 (ix2 p k)) (fun (q k : Fin 64) => v4 (ix2 q k)) (fun q : Fin 64 => v6 (ix2 (0 : Fin 1) q))
            (fun q : Fin 64 => v8 (ix2 (0 : Fin 1) q))) := by
  rw [pay10_4_eq]
  show Ideal.logistic (headScore v0 v4 v6 v8 (ix2 p u) - headScore v2 v4 v6 v8 (ix2 p u)) = _
  rw [headScore_apply, headScore_apply]
  rfl

/-- The store's payload read at one entry: the content's entry plus the mixture. -/
theorem pay10_1_apply (v0 v2 v44 : Vec Ideal S7000x64 .f32) (v4 : Vec Ideal S64x64 .f32) (v6 v8 : Vec Ideal S1x64 .f32)
    (p : Fin 7000) (q : Fin 64) :
    k10_pay1 (F := Ideal) (k10_pay2 v0) (k10_pay3 v2) (k10_pay5 v0 v2 v4 v6 v8) (k10_pay6 v0 v2 v4 v6 v8) v44 (ix2 p q)
      = v44 (ix2 p q) + mix (k10_pay4 (F := Ideal) v0 v2 v4 v6 v8 (ix2 p (0 : Fin 1))) (v0 (ix2 p q)) (v2 (ix2 p q)) := by
  unfold k10_pay1 k10_pay2 k10_pay3 k10_pay5 k10_pay6
  simp only [shapeCast_self]
  simp only [addf_apply, mulf_apply, broadcastTo_a1_ab_apply]
  rfl

variable (V : (c : Dev nD) → (b : Ref sig .tc) → Buf (Elt Ideal) ((c : Thread nD τ).loc b))

theorem hz10 : (![0, 0] : Fin 2 → Nat) = fun _ => 0 := funext fun a => by fin_cases a <;> rfl

/-- The printed index maps, decided over the grid: at point t a window over row blocks is at block t of the rows, all
    columns; a window over a whole small array is at its one block. -/
theorem idx_facts10 : ∀ t : Fin cfg10.N,
    win10_0.index t (0 : Fin 2) = t.val
    ∧ win10_0.index t (1 : Fin 2) = 0
    ∧ win10_1.index t (0 : Fin 2) = t.val
    ∧ win10_1.index t (1 : Fin 2) = 0
    ∧ win10_2.index t (0 : Fin 2) = t.val
    ∧ win10_2.index t (1 : Fin 2) = 0
    ∧ win10_3.index t (0 : Fin 2) = 0
    ∧ win10_3.index t (1 : Fin 2) = 0
    ∧ win10_4.index t (0 : Fin 2) = 0
    ∧ win10_4.index t (1 : Fin 2) = 0
    ∧ win10_5.index t (0 : Fin 2) = 0
    ∧ win10_5.index t (1 : Fin 2) = 0
    ∧ win10_6.index t (0 : Fin 2) = t.val
    ∧ win10_6.index t (1 : Fin 2) = 0 :=
  (by decide +kernel : ∀ t : Fin grid10.N, _)

/-- Window 0's block at point t is rows 7000 t … 7000 t + 6999 of its array. -/
theorem iblk10_0_apply (c : Dev nD) (t : Fin cfg10.N) (x : S7000x64.Idx) (k : S70000x64.Idx)
    (hk0 : (k 0).val = 7000 * t.val + (x 0).val) (hk1 : (k 1).val = (x 1).val) :
    (iblk10 V c 0 t : Vec Ideal S7000x64 .f32) x = (V c (Pipeline.arrRef spec10 0) : S70000x64.Idx → EReal) k := by
  obtain ⟨e0_0, e0_1, e1_0, e1_1, e2_0, e2_1, e3_0, e3_1, e4_0, e4_1, e5_0, e5_1, e6_0, e6_1⟩ := idx_facts10 t
  unfold iblk10
  rw [View.read_apply]
  show V c (Pipeline.arrRef spec10 0) _ = V c (Pipeline.arrRef spec10 0) k
  congr 1
  funext a
  apply Fin.ext
  match a with
  | ⟨0, _⟩ => show win10_0.index t 0 * 7000 + 1 * (x 0).val = (k 0).val; rw [e0_0, hk0]; omega
  | ⟨1, _⟩ => show win10_0.index t 1 * 64 + 1 * (x 1).val = (k 1).val; rw [e0_1, hk1]; omega

/-- Window 1's block at point t is rows 7000 t … 7000 t + 6999 of its array. -/
theorem iblk10_1_apply (c : Dev nD) (t : Fin cfg10.N) (x : S7000x64.Idx) (k : S70000x64.Idx)
    (hk0 : (k 0).val = 7000 * t.val + (x 0).val) (hk1 : (k 1).val = (x 1).val) :
    (iblk10 V c 1 t : Vec Ideal S7000x64 .f32) x = (V c (Pipeline.arrRef spec10 1) : S70000x64.Idx → EReal) k := by
  obtain ⟨e0_0, e0_1, e1_0, e1_1, e2_0, e2_1, e3_0, e3_1, e4_0, e4_1, e5_0, e5_1, e6_0, e6_1⟩ := idx_facts10 t
  unfold iblk10
  rw [View.read_apply]
  show V c (Pipeline.arrRef spec10 1) _ = V c (Pipeline.arrRef spec10 1) k
  congr 1
  funext a
  apply Fin.ext
  match a with
  | ⟨0, _⟩ => show win10_1.index t 0 * 7000 + 1 * (x 0).val = (k 0).val; rw [e1_0, hk0]; omega
  | ⟨1, _⟩ => show win10_1.index t 1 * 64 + 1 * (x 1).val = (k 1).val; rw [e1_1, hk1]; omega

/-- Window 2's block at point t is rows 7000 t … 7000 t + 6999 of its array. -/
theorem iblk10_2_apply (c : Dev nD) (t : Fin cfg10.N) (x : S7000x64.Idx) (k : S70000x64.Idx)
    (hk0 : (k 0).val = 7000 * t.val + (x 0).val) (hk1 : (k 1).val = (x 1).val) :
    (iblk10 V c 2 t : Vec Ideal S7000x64 .f32) x = (V c (Pipeline.arrRef spec10 2) : S70000x64.Idx → EReal) k := by
  obtain ⟨e0_0, e0_1, e1_0, e1_1, e2_0, e2_1, e3_0, e3_1, e4_0, e4_1, e5_0, e5_1, e6_0, e6_1⟩ := idx_facts10 t
  unfold iblk10
  rw [View.read_apply]
  show V c (Pipeline.arrRef spec10 2) _ = V c (Pipeline.arrRef spec10 2) k
  congr 1
  funext a
  apply Fin.ext
  match a with
  | ⟨0, _⟩ => show win10_2.index t 0 * 7000 + 1 * (x 0).val = (k 0).val; rw [e2_0, hk0]; omega
  | ⟨1, _⟩ => show win10_2.index t 1 * 64 + 1 * (x 1).val = (k 1).val; rw [e2_1, hk1]; omega

/-- Window 3's block at every point is its whole [64, 64] array. -/
theorem iblk10_3_apply (c : Dev nD) (t : Fin cfg10.N) (x : S64x64.Idx) :
    (iblk10 V c 3 t : Vec Ideal S64x64 .f32) x = (V c (Pipeline.arrRef spec10 3) : S64x64.Idx → EReal) x := by
  obtain ⟨e0_0, e0_1, e1_0, e1_1, e2_0, e2_1, e3_0, e3_1, e4_0, e4_1, e5_0, e5_1, e6_0, e6_1⟩ := idx_facts10 t
  unfold iblk10
  rw [View.read_apply]
  show V c (Pipeline.arrRef spec10 3) _ = V c (Pipeline.arrRef spec10 3) x
  congr 1
  funext a
  apply Fin.ext
  match a with
  | ⟨0, _⟩ => show win10_3.index t 0 * 64 + 1 * (x 0).val = (x 0).val; rw [e3_0]; omega
  | ⟨1, _⟩ => show win10_3.index t 1 * 64 + 1 * (x 1).val = (x 1).val; rw [e3_1]; omega

/-- Window 4's block at every point is its whole [1, 64] array. -/
theorem iblk10_4_apply (c : Dev nD) (t : Fin cfg10.N) (x : S1x64.Idx) :
    (iblk10 V c 4 t : Vec Ideal S1x64 .f32) x = (V c (Pipeline.arrRef spec10 4) : S1x64.Idx → EReal) x := by
  obtain ⟨e0_0, e0_1, e1_0, e1_1, e2_0, e2_1, e3_0, e3_1, e4_0, e4_1, e5_0, e5_1, e6_0, e6_1⟩ := idx_facts10 t
  unfold iblk10
  rw [View.read_apply]
  show V c (Pipeline.arrRef spec10 4) _ = V c (Pipeline.arrRef spec10 4) x
  congr 1
  funext a
  apply Fin.ext
  match a with
  | ⟨0, _⟩ => show win10_4.index t 0 * 1 + 1 * (x 0).val = (x 0).val; rw [e4_0]; omega
  | ⟨1, _⟩ => show win10_4.index t 1 * 64 + 1 * (x 1).val = (x 1).val; rw [e4_1]; omega

/-- Window 5's block at every point is its whole [1, 64] array. -/
theorem iblk10_5_apply (c : Dev nD) (t : Fin cfg10.N) (x : S1x64.Idx) :
    (iblk10 V c 5 t : Vec Ideal S1x64 .f32) x = (V c (Pipeline.arrRef spec10 5) : S1x64.Idx → EReal) x := by
  obtain ⟨e0_0, e0_1, e1_0, e1_1, e2_0, e2_1, e3_0, e3_1, e4_0, e4_1, e5_0, e5_1, e6_0, e6_1⟩ := idx_facts10 t
  unfold iblk10
  rw [View.read_apply]
  show V c (Pipeline.arrRef spec10 5) _ = V c (Pipeline.arrRef spec10 5) x
  congr 1
  funext a
  apply Fin.ext
  match a with
  | ⟨0, _⟩ => show win10_5.index t 0 * 1 + 1 * (x 0).val = (x 0).val; rw [e5_0]; omega
  | ⟨1, _⟩ => show win10_5.index t 1 * 64 + 1 * (x 1).val = (x 1).val; rw [e5_1]; omega

/-- The output block after the body is the store's payload of the six input blocks: every load is of a whole block. -/
theorem out10_6_eq (x0 x1 x2 : Vec Ideal S7000x64 .f32) (x3 : Vec Ideal S64x64 .f32) (x4 x5 : Vec Ideal S1x64 .f32) :
    out10_6 (F := Ideal) x0 x1 x2 x3 x4 x5
      = k10_pay1 (F := Ideal) (k10_pay2 x0) (k10_pay3 x1) (k10_pay5 x0 x1 x3 x4 x5) (k10_pay6 x0 x1 x3 x4 x5) x2 := by
  unfold out10_6
  rw [View.canon_unit_zero hz10]
  simp only [View.ld_unit_zero (S := S7000x64) hz10, View.ld_unit_zero (S := S64x64) hz10,
    View.ld_unit_zero (S := S1x64) hz10]

/-- The output block after the body, read at any index of the block. -/
theorem out10_6_apply' (x0 x1 x2 : Vec Ideal S7000x64 .f32) (x3 : Vec Ideal S64x64 .f32) (x4 x5 : Vec Ideal S1x64 .f32)
    (j : S7000x64.Idx) :
    out10_6 (F := Ideal) x0 x1 x2 x3 x4 x5 j
      = x2 j + mix
          (mixWeight
            (score (fun k : Fin 64 => x0 (ix2 (j 0) k)) (fun (q k : Fin 64) => x3 (ix2 q k)) (fun q : Fin 64 => x4 (ix2 (0 : Fin 1) q))
              (fun q : Fin 64 => x5 (ix2 (0 : Fin 1) q)))
            (score (fun k : Fin 64 => x1 (ix2 (j 0) k)) (fun (q k : Fin 64) => x3 (ix2 q k)) (fun q : Fin 64 => x4 (ix2 (0 : Fin 1) q))
              (fun q : Fin 64 => x5 (ix2 (0 : Fin 1) q))))
          (x0 j) (x1 j) := by
  obtain ⟨p, q, rfl⟩ : ∃ (p : Fin 7000) (q : Fin 64), j = ix2 p q := ⟨j 0, j 1, eq_ix2 j⟩
  rw [out10_6_eq, pay10_1_apply, pay10_4_apply]

/-- What point t writes back is block t of G10 of the six input arrays as the region finds them. -/
theorem flushed10_eq (c : Dev nD) (t : Fin cfg10.N) :
    (dat10 V c).flushed 6 t = ((cfg10.win 6).blk t).view.read (Elt Ideal)
      (G10 (V c (Pipeline.arrRef spec10 0)) (V c (Pipeline.arrRef spec10 1)) (V c (Pipeline.arrRef spec10 2)) (V c (Pipeline.arrRef spec10 3)) (V c (Pipeline.arrRef spec10 4)) (V c (Pipeline.arrRef spec10 5))) := by
  show (cfg10.win 6).cut (grid10.coords t) ((dat10 V c).after 6 t) = _
  rw [after10_6]
  obtain ⟨e0_0, e0_1, e1_0, e1_1, e2_0, e2_1, e3_0, e3_1, e4_0, e4_1, e5_0, e5_1, e6_0, e6_1⟩ := idx_facts10 t
  funext j
  refine (out10_6_apply' _ _ _ _ _ _ j).trans ?_
  show _ = G10 _ _ _ _ _ _ (((cfg10.win 6).blk t).view.emb j)
  unfold G10
  have h0 : ((((cfg10.win 6).blk t).view.emb j) 0).val = 7000 * t.val + (j 0).val := by
    show win10_6.index t 0 * 7000 + 1 * (j 0).val = 7000 * t.val + (j 0).val
    rw [e6_0]; omega
  have h1 : (j 1).val = ((((cfg10.win 6).blk t).view.emb j) 1).val := by
    show (j 1).val = win10_6.index t 1 * 64 + 1 * (j 1).val
    rw [e6_1]; omega
  have hw : (fun (q k : Fin 64) => (iblk10 V c 3 t : Vec Ideal S64x64 .f32) (ix2 q k))
      = fun (q k : Fin 64) => (V c (Pipeline.arrRef spec10 3) : S64x64.Idx → EReal) (ix2 q k) :=
    funext fun q => funext fun k => iblk10_3_apply V c t _
  have hb : (fun q : Fin 64 => (iblk10 V c 4 t : Vec Ideal S1x64 .f32) (ix2 (0 : Fin 1) q))
      = fun q : Fin 64 => (V c (Pipeline.arrRef spec10 4) : S1x64.Idx → EReal) (ix2 (0 : Fin 1) q) :=
    funext fun q => iblk10_4_apply V c t _
  have ha : (fun q : Fin 64 => (iblk10 V c 5 t : Vec Ideal S1x64 .f32) (ix2 (0 : Fin 1) q))
      = fun q : Fin 64 => (V c (Pipeline.arrRef spec10 5) : S1x64.Idx → EReal) (ix2 (0 : Fin 1) q) :=
    funext fun q => iblk10_5_apply V c t _
  refine congrArg₂ (· + ·) ?_ ?_
  · exact iblk10_2_apply V c t j _ h0 h1.symm
  refine congr (congr (congrArg mix ?_) ?_) ?_
  · refine congrArg₂ mixWeight ?_ ?_
    · refine congr (congr (congr (congrArg score (funext fun k => ?_)) hw) hb) ha
      exact iblk10_0_apply V c t _ _ h0 rfl
    · refine congr (congr (congr (congrArg score (funext fun k => ?_)) hw) hb) ha
      exact iblk10_1_apply V c t _ _ h0 rfl
  · exact iblk10_0_apply V c t j _ h0 h1.symm
  · exact iblk10_1_apply V c t j _ h0 h1.symm

/-- An index of the output array is in point t's block iff each coordinate is in the block's range on its axis. -/
theorem mem_blk10_6 (t : Fin cfg10.N) (i : S70000x64.Idx) :
    i ∈ ((cfg10.win 6).blk t).view.set ↔ ∀ a : Fin 2, win10_6.index t a * S7000x64.size a ≤ (i a).val
      ∧ (i a).val < win10_6.index t a * S7000x64.size a + S7000x64.size a := by
  show i ∈ ((View.whole main_v136).slice (win10_6.rect t)).set ↔ _
  rw [View.set_slice_whole, Rect.mem_set_unit]
  exact Iff.rfl

/-- Every index of the output array is in the block of the point its row falls in. -/
theorem cover10_6_arr (i : S70000x64.Idx) :
    ∃ t : Fin cfg10.N, (cfg10.win 6).flush t = true ∧ i ∈ ((cfg10.win 6).blk t).view.set := by
  have hi0 : (i 0).val < 70000 := (i 0).isLt
  have hi1 : (i 1).val < 64 := (i 1).isLt
  obtain ⟨t, ht⟩ : ∃ t : Fin cfg10.N, t.val = (i 0).val / 7000 :=
    ⟨⟨(i 0).val / 7000, by rw [show cfg10.N = 10 from N_10]; omega⟩, rfl⟩
  obtain ⟨e0_0, e0_1, e1_0, e1_1, e2_0, e2_1, e3_0, e3_1, e4_0, e4_1, e5_0, e5_1, e6_0, e6_1⟩ := idx_facts10 t
  refine ⟨t, flush10_6 t, ?_⟩
  rw [mem_blk10_6]
  intro a
  match a with
  | ⟨0, _⟩ =>
    show win10_6.index t 0 * 7000 ≤ (i 0).val ∧ (i 0).val < win10_6.index t 0 * 7000 + 7000
    rw [e6_0, ht]; omega
  | ⟨1, _⟩ =>
    show win10_6.index t 1 * 64 ≤ (i 1).val ∧ (i 1).val < win10_6.index t 1 * 64 + 64
    rw [e6_1]; omega

/-- The output array after the region: G10 of the six input arrays as the region finds them. -/
theorem final10 (c : Dev nD) :
    (dat10 V c).arrAt 6 cfg10.N = G10 (V c (Pipeline.arrRef spec10 0)) (V c (Pipeline.arrRef spec10 1)) (V c (Pipeline.arrRef spec10 2)) (V c (Pipeline.arrRef spec10 3)) (V c (Pipeline.arrRef spec10 4)) (V c (Pipeline.arrRef spec10 5)) :=
  (dat10 V c).arrAt_eq_of_cover 6 _ (fun t _ => flushed10_eq V c t) (fun i => cover10_6_arr i)

end Cert.KernelIdeal.Regions

end
-- ==== Proof.LibStagedRun.lean ====
/-
  A host program read in stages.  The contents of the buffers after a list of host operations is a fold over the
  list, and the fold over a concatenation is the fold over the first part followed by the fold over the second.
  Cutting a long program's operation list after each stage therefore lets every stage be read on its own, from
  named contents of the buffers that the previous cut leaves: no composed term of the whole program is ever
  needed.  A stage that calls an outlined function reads and writes its buffers through type transports that are
  identities; unfolding the two transports and removing casts along a reflexive equation clears them
  (`dsimp only [TRef.ofBuf, TRef.toBuf]` then `simp only [cast_eq]`) before the stage's term is compared.
-/
import Idealize.ShloMosaic.Lib.StableHlo.Run

namespace Cert.Lib.StagedRun

open Idealize.ShloMosaic Idealize.ShloMosaic.StableHlo

variable {τ : Topo} {sig : RefSig} {Val : EltTy → Type}

/-- Running a concatenation of operation lists is running its parts in turn. -/
theorem after_append : ∀ (l1 l2 : List (HloOp τ sig Val)) (V : Valuation τ sig Val),
    after (l1 ++ l2) V = after l2 (after l1 V)
  | [], _, _ => rfl
  | op :: l, l2, V => by rw [List.cons_append, after_cons, after_cons, after_append l l2]

end Cert.Lib.StagedRun
-- ==== Proof.RefStages.lean ====
/-
  The fold over the reference program's line, stage by stage.

  The line is the concatenation of its thirteen stages, and the fold over a concatenation is the fold over the first part
  followed by the fold over the second: what the buffers hold after the whole line is what they hold after the last stage
  run from what the stages before it leave.
-/
import proofs.«167917_j22402549416514_2_alg».proof.Proof.RefRun
import proofs.«167917_j22402549416514_2_alg».proof.Proof.LibStagedRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers after the whole line: the stages' folds composed in order. -/
theorem after_ops (V : Valuation τ sig (Elt F)) :
    after ops V = after ops12 (after ops11 (after ops10 (after ops09 (after ops08 (after ops07 (after ops06 (after ops05 (after ops04 (after ops03 (after ops02 (after ops01 (after ops00 (V))))))))))))) := by
  simp only [ops, Cert.Lib.StagedRun.after_append]

/-- The run of @main read stage by stage: each TensorCore buffer ends at the stages' folds, composed in order, of its
    launch contents. -/
theorem run_main_stages (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after ops12 (after ops11 (after ops10 (after ops09 (after ops08 (after ops07 (after ops06 (after ops05 (after ops04 (after ops03 (after ops02 (after ops01 (after ops00 (launchContents m c))))))))))))) (b : DevRef τ sig) :=
  (θ_run defs _ _).mono (fun _ h c b => (h c b).trans (congrFun (after_ops _) _)) (run_main m ρ)

end Cert.ReferenceIdeal.RefRun

end
-- ==== Proof.LibVariance.lean ====
/-
  The variance of finitely many real numbers, computed in one pass and in two, on the extended reals.

  For real data `a i` over a finite index type with `n` elements (`n ≠ 0`) and `c = 1 / n`:

    (∑ a i ²) · c − ((∑ a i) · c)²  =  (∑ (a i − (∑ a) / n)²) / n.

  The left side is the "mean of squares minus square of the mean", the right side the mean of the
  squared deviations from the mean. The identity is distributivity, so it is a statement about real
  numbers: on the extended reals `x · (a + b) = x · a + x · b` fails at the infinities. It is stated
  here for extended-real data every entry of which is (the coercion of) a real, with the division
  the ideal float division `Ideal.div` and the scaling a product with `c`: the two forms in which
  a fused and an unfused normalisation kernel compute a row's variance. Also here: a finite sum of
  coerced reals is the coerced sum; a product with `1 / n` is the ideal quotient by `n` at every
  extended real; and the two f32 words `2⁻¹²` and `4096` as the reals they denote.
-/
import Idealize.ShloMosaic.PureOps.Ideal

noncomputable section

namespace Idealize.ShloMosaic.Variance

open scoped BigOperators

/-- A finite sum of coerced reals is the coercion of the real sum. -/
theorem coe_sum {ι : Type*} (s : Finset ι) (a : ι → ℝ) :
    ∑ i ∈ s, ((a i : ℝ) : EReal) = ((∑ i ∈ s, a i : ℝ) : EReal) := by
  classical
  induction s using Finset.induction_on with
  | empty => simp
  | insert i s hi ih => rw [Finset.sum_insert hi, Finset.sum_insert hi, ih, EReal.coe_add]

/-- The one-pass and the two-pass variance of real data agree: with `S = ∑ a`,
    `∑ (a i − S/n)² = ∑ a i² − 2 (S/n) S + n (S/n)² = ∑ a i² − S²/n`. -/
theorem real_one_pass_eq_two_pass {ι : Type*} [Fintype ι] (a : ι → ℝ) (n : ℝ) (hn : (Fintype.card ι : ℝ) = n)
    (hn0 : n ≠ 0) :
    (∑ i, a i * a i) * (1 / n) - ((∑ i, a i) * (1 / n)) * ((∑ i, a i) * (1 / n))
      = (∑ i, (a i - (∑ i, a i) * (1 / n)) * (a i - (∑ i, a i) * (1 / n))) * (1 / n) := by
  have h : ∀ μ : ℝ, ∑ i, (a i - μ) * (a i - μ) = (∑ i, a i * a i) - 2 * μ * (∑ i, a i) + n * (μ * μ) := by
    intro μ
    have e : ∀ i, (a i - μ) * (a i - μ) = a i * a i - 2 * μ * a i + μ * μ := fun i => by ring
    simp only [e]
    rw [Finset.sum_add_distrib, Finset.sum_sub_distrib, ← Finset.mul_sum, Finset.sum_const, Finset.card_univ,
      nsmul_eq_mul, hn]
  rw [h]
  field_simp
  ring

/-- A product with the real `1 / n` is the ideal quotient by `n`, at every extended real. -/
theorem mul_inv_eq_div {n : ℝ} (hn0 : n ≠ 0) (c d : EReal) (hc : c = ((1 / n : ℝ) : EReal)) (hd : d = (n : EReal))
    (s : EReal) : s * c = Ideal.div s d := by
  rw [hc, hd, Ideal.div_coe hn0]

/-- The one-pass variance `(∑ x²) · c − ((∑ x) · c)²` of extended-real data whose every entry is a real
    is the two-pass variance `(∑ (x − (∑ x) / d)²) / d`, for `c` the real `1 / n` and `d` the real `n`,
    `n` the number of entries. -/
theorem one_pass_eq_two_pass {ι : Type*} [Fintype ι] (x : ι → EReal) (hx : ∀ i, ∃ r : ℝ, x i = (r : EReal))
    (n : ℝ) (hn : (Fintype.card ι : ℝ) = n) (hn0 : n ≠ 0) (c d : EReal) (hc : c = ((1 / n : ℝ) : EReal))
    (hd : d = (n : EReal)) :
    (∑ i, x i * x i) * c - ((∑ i, x i) * c) * ((∑ i, x i) * c)
      = Ideal.div (∑ i, (x i - Ideal.div (∑ i, x i) d) * (x i - Ideal.div (∑ i, x i) d)) d := by
  choose a ha using hx
  obtain rfl : x = fun i => ((a i : ℝ) : EReal) := funext ha
  subst hc hd
  simp only [Ideal.div_coe hn0]
  simp only [← EReal.coe_mul, coe_sum, ← EReal.coe_sub]
  exact congrArg _ (real_one_pass_eq_two_pass a n hn hn0)

/-- The f32 word `0x39800000` denotes `2⁻¹² = 1 / 4096`. -/
theorem ofBits_inv_4096 : Ideal.ofBits .f32 0x39800000#32 = ((1 / 4096 : ℝ) : EReal) := by
  simp [Ideal.ofBits, Ideal.ieee, -EReal.coe_mul]; norm_num

/-- The f32 word `0x45800000` denotes `4096`. -/
theorem ofBits_4096 : Ideal.ofBits .f32 0x45800000#32 = ((4096 : ℝ) : EReal) := by
  simp [Ideal.ofBits, Ideal.ieee, -EReal.coe_mul]; norm_num

/-- Scaling by the word `2⁻¹²` is the ideal quotient by the word `4096`, at every extended real. -/
theorem mul_word_eq_div_word (s : EReal) :
    s * Ideal.ofBits .f32 0x39800000#32 = Ideal.div s (Ideal.ofBits .f32 0x45800000#32) :=
  mul_inv_eq_div (by norm_num : (4096 : ℝ) ≠ 0) _ _ ofBits_inv_4096 ofBits_4096 s

/-- The one-pass variance with the word `2⁻¹²` is the two-pass variance with the word `4096`, for 4096
    entries each of which is a real. -/
theorem one_pass_eq_two_pass_4096 {ι : Type*} [Fintype ι] (hι : Fintype.card ι = 4096) (x : ι → EReal)
    (hx : ∀ i, ∃ r : ℝ, x i = (r : EReal)) :
    (∑ i, x i * x i) * Ideal.ofBits .f32 0x39800000#32
        - ((∑ i, x i) * Ideal.ofBits .f32 0x39800000#32) * ((∑ i, x i) * Ideal.ofBits .f32 0x39800000#32)
      = Ideal.div (∑ i, (x i - Ideal.div (∑ i, x i) (Ideal.ofBits .f32 0x45800000#32))
          * (x i - Ideal.div (∑ i, x i) (Ideal.ofBits .f32 0x45800000#32))) (Ideal.ofBits .f32 0x45800000#32) :=
  one_pass_eq_two_pass x hx 4096 (by rw [hι]; norm_num) (by norm_num) _ _ ofBits_inv_4096 ofBits_4096

end Idealize.ShloMosaic.Variance

end
-- ==== Proof.LibVarianceDiv.lean ====
/-
  The one-pass variance in its division form.

  For real data `x i` over a finite index type with `n ≠ 0` elements,

    (∑ x i ²) / n − ((∑ x i) / n)²  =  (∑ (x i − (∑ x) / n)²) / n :

  the mean of the squares minus the square of the mean is the mean of the squared deviations from the
  mean. It is the identity of the file this one imports, with the scaling by `1 / n` written as the
  ideal float quotient by `n` on the left side as well (a product with the real `1 / n` is the ideal
  quotient by `n` at every extended real). As there, it is a statement about real numbers, stated
  for extended-real data every entry of which is a real. Also here: the f32 word `0x471C4000` as the
  real `40000` it denotes, and the identity at `40000` entries with that word as the divisor.
-/
import proofs.«167917_j22402549416514_2_alg».proof.Proof.LibVariance

noncomputable section

namespace Idealize.ShloMosaic.Variance

open scoped BigOperators

/-- The one-pass variance `(∑ x²) / d − ((∑ x) / d)²` of extended-real data whose every entry is a real is the
    two-pass variance `(∑ (x − (∑ x) / d)²) / d`, for `d` the real `n`, the number of entries. -/
theorem one_pass_div_eq_two_pass {ι : Type*} [Fintype ι] (x : ι → EReal) (hx : ∀ i, ∃ r : ℝ, x i = (r : EReal))
    (n : ℝ) (hn : (Fintype.card ι : ℝ) = n) (hn0 : n ≠ 0) (d : EReal) (hd : d = (n : EReal)) :
    Ideal.div (∑ i, x i * x i) d - Ideal.div (∑ i, x i) d * Ideal.div (∑ i, x i) d
      = Ideal.div (∑ i, (x i - Ideal.div (∑ i, x i) d) * (x i - Ideal.div (∑ i, x i) d)) d := by
  have h := one_pass_eq_two_pass x hx n hn hn0 ((1 / n : ℝ) : EReal) d rfl hd
  rw [mul_inv_eq_div hn0 ((1 / n : ℝ) : EReal) d rfl hd (∑ i, x i * x i),
    mul_inv_eq_div hn0 ((1 / n : ℝ) : EReal) d rfl hd (∑ i, x i)] at h
  exact h

/-- The f32 word `0x471C4000` denotes `40000 = 2¹⁵ · 1.220703125`. -/
theorem ofBits_40000 : Ideal.ofBits .f32 0x471C4000#32 = ((40000 : ℝ) : EReal) := by
  simp [Ideal.ofBits, Ideal.ieee, -EReal.coe_mul]; norm_num

/-- The one-pass variance in division form is the two-pass variance, for 40000 entries each of which is a real,
    the divisor the f32 word `40000`. -/
theorem one_pass_div_eq_two_pass_40000 {ι : Type*} [Fintype ι] (hι : Fintype.card ι = 40000) (x : ι → EReal)
    (hx : ∀ i, ∃ r : ℝ, x i = (r : EReal)) :
    Ideal.div (∑ i, x i * x i) (Ideal.ofBits .f32 0x471C4000#32)
        - Ideal.div (∑ i, x i) (Ideal.ofBits .f32 0x471C4000#32) * Ideal.div (∑ i, x i) (Ideal.ofBits .f32 0x471C4000#32)
      = Ideal.div (∑ i, (x i - Ideal.div (∑ i, x i) (Ideal.ofBits .f32 0x471C4000#32))
          * (x i - Ideal.div (∑ i, x i) (Ideal.ofBits .f32 0x471C4000#32))) (Ideal.ofBits .f32 0x471C4000#32) :=
  one_pass_div_eq_two_pass x hx 40000 (by rw [hι]; norm_num) (by norm_num) _ ofBits_40000

end Idealize.ShloMosaic.Variance

end
-- ==== Proof.RefReadKit.lean ====
/-
  Reading the reference program's buffers at the end of its line, stage by stage, and its host operations at an entry.

  What a buffer holds at the end of the line is what it held after the stage that writes it: the later stages write
  none of its references. So a buffer written in stage `k` is read as that stage's fold from the contents before it
  (`R_eq_V‹k+1›`), and every operand the stage reads from an earlier stage — or from the launch — holds there what it
  holds at the end (`R_eq_V‹k›`, read right to left). One stage's operations are then unrolled over an arbitrary
  valuation, never the whole line.

  Below that, at the ideal float values: the program's layout and contraction operations read at one entry of their
  result — a vector laid along the rows of a matrix, a transpose, a plain matrix product, a sum over the rows — each the
  operand's entry it copies or the sum it takes.
-/
import proofs.«167917_j22402549416514_2_alg».proof.Proof.RefFrame
import proofs.«167917_j22402549416514_2_alg».proof.Proof.RefStages
import proofs.«167917_j22402549416514_2_alg».proof.Proof.LibVarianceDiv
import Idealize.ShloMosaic.Lib.IdealHost
import Idealize.ShloMosaic.Lib.StackMember
import Idealize.ShloMosaic.Lib.KernelVsHost

noncomputable section

namespace Cert.ReferenceIdeal.RefRun

open Cert.ReferenceIdeal Cert.ReferenceIdeal.Gen Idealize.ShloMosaic Idealize.ShloMosaic.TcCoe Idealize.SL.Sem Idealize.ShloMosaic.StableHlo

open Idealize.ShloMosaic.ValueIdx
open scoped BigOperators

/-- What a buffer holds after the whole line, from launch contents `W`. -/
abbrev R (W : Valuation τ sig (Elt Ideal)) (b : Ref sig .tc) : (b : DevRef τ sig).ty.Contents (Elt Ideal) :=
  after ops W (b : DevRef τ sig)

/-! ## The contents before each stage -/

/-- The contents before stage 0: the launch contents. -/
abbrev V00 (W : Valuation τ sig (Elt Ideal)) : Valuation τ sig (Elt Ideal) := W
/-- The contents after stage 0 (before stage 1). -/
abbrev V01 (W : Valuation τ sig (Elt Ideal)) : Valuation τ sig (Elt Ideal) := after ops00 (V00 W)
/-- The contents after stage 1 (before stage 2). -/
abbrev V02 (W : Valuation τ sig (Elt Ideal)) : Valuation τ sig (Elt Ideal) := after ops01 (V01 W)
/-- The contents after stage 2 (before stage 3). -/
abbrev V03 (W : Valuation τ sig (Elt Ideal)) : Valuation τ sig (Elt Ideal) := after ops02 (V02 W)
/-- The contents after stage 3 (before stage 4). -/
abbrev V04 (W : Valuation τ sig (Elt Ideal)) : Valuation τ sig (Elt Ideal) := after ops03 (V03 W)
/-- The contents after stage 4 (before stage 5). -/
abbrev V05 (W : Valuation τ sig (Elt Ideal)) : Valuation τ sig (Elt Ideal) := after ops04 (V04 W)
/-- The contents after stage 5 (before stage 6). -/
abbrev V06 (W : Valuation τ sig (Elt Ideal)) : Valuation τ sig (Elt Ideal) := after ops05 (V05 W)
/-- The contents after stage 6 (before stage 7). -/
abbrev V07 (W : Valuation τ sig (Elt Ideal)) : Valuation τ sig (Elt Ideal) := after ops06 (V06 W)
/-- The contents after stage 7 (before stage 8). -/
abbrev V08 (W : Valuation τ sig (Elt Ideal)) : Valuation τ sig (Elt Ideal) := after ops07 (V07 W)
/-- The contents after stage 8 (before stage 9). -/
abbrev V09 (W : Valuation τ sig (Elt Ideal)) : Valuation τ sig (Elt Ideal) := after ops08 (V08 W)
/-- The contents after stage 9 (before stage 10). -/
abbrev V10 (W : Valuation τ sig (Elt Ideal)) : Valuation τ sig (Elt Ideal) := after ops09 (V09 W)
/-- The contents after stage 10 (before stage 11). -/
abbrev V11 (W : Valuation τ sig (Elt Ideal)) : Valuation τ sig (Elt Ideal) := after ops10 (V10 W)
/-- The contents after stage 11 (before stage 12). -/
abbrev V12 (W : Valuation τ sig (Elt Ideal)) : Valuation τ sig (Elt Ideal) := after ops11 (V11 W)
/-- The contents after stage 12. -/
abbrev V13 (W : Valuation τ sig (Elt Ideal)) : Valuation τ sig (Elt Ideal) := after ops12 (V12 W)

/-- The references written from stage `k` on. -/
abbrev wfrom12 : List (Ref sig .tc) := written12
abbrev wfrom11 : List (Ref sig .tc) := written11 ++ wfrom12
abbrev wfrom10 : List (Ref sig .tc) := written10 ++ wfrom11
abbrev wfrom09 : List (Ref sig .tc) := written09 ++ wfrom10
abbrev wfrom08 : List (Ref sig .tc) := written08 ++ wfrom09
abbrev wfrom07 : List (Ref sig .tc) := written07 ++ wfrom08
abbrev wfrom06 : List (Ref sig .tc) := written06 ++ wfrom07
abbrev wfrom05 : List (Ref sig .tc) := written05 ++ wfrom06
abbrev wfrom04 : List (Ref sig .tc) := written04 ++ wfrom05
abbrev wfrom03 : List (Ref sig .tc) := written03 ++ wfrom04
abbrev wfrom02 : List (Ref sig .tc) := written02 ++ wfrom03
abbrev wfrom01 : List (Ref sig .tc) := written01 ++ wfrom02
abbrev wfrom00 : List (Ref sig .tc) := written00 ++ wfrom01

/-- A buffer no stage from `k` on writes holds at the end what it held before stage `k`. -/
theorem R_eq_V13 (b : Ref sig .tc) (W : Valuation τ sig (Elt Ideal)) : R W b = V13 W (b : DevRef τ sig) :=
  congrFun (after_ops W) _
theorem R_eq_V12 {b : Ref sig .tc} (h : b ∉ wfrom12) (W : Valuation τ sig (Elt Ideal)) : R W b = V12 W (b : DevRef τ sig) :=
  (R_eq_V13 b W).trans (after_of_writes_sub ops12 _ ops12_writes h)
theorem R_eq_V11 {b : Ref sig .tc} (h : b ∉ wfrom11) (W : Valuation τ sig (Elt Ideal)) : R W b = V11 W (b : DevRef τ sig) :=
  (R_eq_V12 (fun hm => h (List.mem_append_right _ hm)) W).trans
    (after_of_writes_sub ops11 _ ops11_writes (fun hm => h (List.mem_append_left _ hm)))
theorem R_eq_V10 {b : Ref sig .tc} (h : b ∉ wfrom10) (W : Valuation τ sig (Elt Ideal)) : R W b = V10 W (b : DevRef τ sig) :=
  (R_eq_V11 (fun hm => h (List.mem_append_right _ hm)) W).trans
    (after_of_writes_sub ops10 _ ops10_writes (fun hm => h (List.mem_append_left _ hm)))
theorem R_eq_V09 {b : Ref sig .tc} (h : b ∉ wfrom09) (W : Valuation τ sig (Elt Ideal)) : R W b = V09 W (b : DevRef τ sig) :=
  (R_eq_V10 (fun hm => h (List.mem_append_right _ hm)) W).trans
    (after_of_writes_sub ops09 _ ops09_writes (fun hm => h (List.mem_append_left _ hm)))
theorem R_eq_V08 {b : Ref sig .tc} (h : b ∉ wfrom08) (W : Valuation τ sig (Elt Ideal)) : R W b = V08 W (b : DevRef τ sig) :=
  (R_eq_V09 (fun hm => h (List.mem_append_right _ hm)) W).trans
    (after_of_writes_sub ops08 _ ops08_writes (fun hm => h (List.mem_append_left _ hm)))
theorem R_eq_V07 {b : Ref sig .tc} (h : b ∉ wfrom07) (W : Valuation τ sig (Elt Ideal)) : R W b = V07 W (b : DevRef τ sig) :=
  (R_eq_V08 (fun hm => h (List.mem_append_right _ hm)) W).trans
    (after_of_writes_sub ops07 _ ops07_writes (fun hm => h (List.mem_append_left _ hm)))
theorem R_eq_V06 {b : Ref sig .tc} (h : b ∉ wfrom06) (W : Valuation τ sig (Elt Ideal)) : R W b = V06 W (b : DevRef τ sig) :=
  (R_eq_V07 (fun hm => h (List.mem_append_right _ hm)) W).trans
    (after_of_writes_sub ops06 _ ops06_writes (fun hm => h (List.mem_append_left _ hm)))
theorem R_eq_V05 {b : Ref sig .tc} (h : b ∉ wfrom05) (W : Valuation τ sig (Elt Ideal)) : R W b = V05 W (b : DevRef τ sig) :=
  (R_eq_V06 (fun hm => h (List.mem_append_right _ hm)) W).trans
    (after_of_writes_sub ops05 _ ops05_writes (fun hm => h (List.mem_append_left _ hm)))
theorem R_eq_V04 {b : Ref sig .tc} (h : b ∉ wfrom04) (W : Valuation τ sig (Elt Ideal)) : R W b = V04 W (b : DevRef τ sig) :=
  (R_eq_V05 (fun hm => h (List.mem_append_right _ hm)) W).trans
    (after_of_writes_sub ops04 _ ops04_writes (fun hm => h (List.mem_append_left _ hm)))
theorem R_eq_V03 {b : Ref sig .tc} (h : b ∉ wfrom03) (W : Valuation τ sig (Elt Ideal)) : R W b = V03 W (b : DevRef τ sig) :=
  (R_eq_V04 (fun hm => h (List.mem_append_right _ hm)) W).trans
    (after_of_writes_sub ops03 _ ops03_writes (fun hm => h (List.mem_append_left _ hm)))
theorem R_eq_V02 {b : Ref sig .tc} (h : b ∉ wfrom02) (W : Valuation τ sig (Elt Ideal)) : R W b = V02 W (b : DevRef τ sig) :=
  (R_eq_V03 (fun hm => h (List.mem_append_right _ hm)) W).trans
    (after_of_writes_sub ops02 _ ops02_writes (fun hm => h (List.mem_append_left _ hm)))
theorem R_eq_V01 {b : Ref sig .tc} (h : b ∉ wfrom01) (W : Valuation τ sig (Elt Ideal)) : R W b = V01 W (b : DevRef τ sig) :=
  (R_eq_V02 (fun hm => h (List.mem_append_right _ hm)) W).trans
    (after_of_writes_sub ops01 _ ops01_writes (fun hm => h (List.mem_append_left _ hm)))
theorem R_eq_V00 {b : Ref sig .tc} (h : b ∉ wfrom00) (W : Valuation τ sig (Elt Ideal)) : R W b = V00 W (b : DevRef τ sig) :=
  (R_eq_V01 (fun hm => h (List.mem_append_right _ hm)) W).trans
    (after_of_writes_sub ops00 _ ops00_writes (fun hm => h (List.mem_append_left _ hm)))

/-! ## Host operations read at an entry

The layout and contraction operations of the program, each read at one entry of its result as the operand's entry it
copies, or the sum it takes; at the ideal values. -/

section Kit
variable {α : Type} {m n k : Nat}

/-- An entry of a rank-2 float buffer, as an extended real. -/
abbrev rd2 (x : FVec Ideal ⟨2, ![m, n]⟩ .f32) (a : Fin m) (b : Fin n) : EReal := x (ix2 a b)
/-- An entry of a rank-1 float buffer, as an extended real. -/
abbrev rd1 (x : FVec Ideal ⟨1, ![n]⟩ .f32) (a : Fin n) : EReal := x (ix1 a)

/-- A vector laid along every row of a matrix (through a one-row matrix) reads, at an entry, the vector at the column. -/
theorem rowBcast_apply (C : (⟨1, ![n]⟩ : Shape).Idx → α) (h1 : (⟨1, ![n]⟩ : Shape).BroadcastsInDim ⟨2, ![1, n]⟩ ![1])
    (h2 : (⟨2, ![1, n]⟩ : Shape).BroadcastsInDim ⟨2, ![m, n]⟩ ![0, 1]) (r : Fin m) (q : Fin n) :
    broadcastInDim ⟨2, ![m, n]⟩ ![0, 1] h2 (broadcastInDim ⟨2, ![1, n]⟩ ![1] h1 C) (ix2 r q) = C (ix1 q) := by
  rw [broadcastInDim_oneRow_apply]
  refine broadcastInDim_apply ![1] h1 C (ix2 (0 : Fin 1) q) (ix1 q) ?_
  intro a
  fin_cases a
  show q.val = if n = 1 then 0 else q.val
  split_ifs with hn
  · have := q.isLt; omega
  · rfl

/-- A one-row matrix holding a vector reads, at an entry, the vector at the column. -/
theorem oneRow_apply (C : (⟨1, ![n]⟩ : Shape).Idx → α) (h1 : (⟨1, ![n]⟩ : Shape).BroadcastsInDim ⟨2, ![1, n]⟩ ![1]) (q : Fin n) :
    broadcastInDim ⟨2, ![1, n]⟩ ![1] h1 C (ix2 (0 : Fin 1) q) = C (ix1 q) := by
  refine broadcastInDim_apply ![1] h1 C (ix2 (0 : Fin 1) q) (ix1 q) ?_
  intro a
  fin_cases a
  show q.val = if n = 1 then 0 else q.val
  split_ifs with hn
  · have := q.isLt; omega
  · rfl

/-- The transpose of a matrix reads the mirrored entry. -/
theorem transpose2_apply (B : (⟨2, ![n, k]⟩ : Shape).Idx → α) (ht : (⟨2, ![n, k]⟩ : Shape).Transposes [1, 0] ⟨2, ![k, n]⟩)
    (c : Fin k) (q : Fin n) : transpose ⟨2, ![k, n]⟩ [1, 0] B ht (ix2 c q) = B (ix2 q c) :=
  transpose_apply [1, 0] B ht (ix2 c q) (ix2 q c) (fun b => by fin_cases b <;> rfl)

/-- A product of two matrices with the plain dimension numbers reads, at an entry, the sum over the contracted
    coordinate of the products of the two entries. -/
theorem dotPlain_apply (D : DotDims ⟨2, ![m, k]⟩ ⟨2, ![k, n]⟩ ⟨2, ![m, n]⟩) (hD : D = DotDims.plain m k n)
    (A : FVec Ideal ⟨2, ![m, k]⟩ .f32) (B : FVec Ideal ⟨2, ![k, n]⟩ .f32) (r : Fin m) (q : Fin n) :
    Host.dotGeneral D none A B (ix2 r q) = ∑ c : Fin k, A (ix2 r c) * B (ix2 c q) := by
  subst hD; exact StackMember.dotGeneral_plain_apply none A B r q

/-- A sum over the rows of a matrix reads, at a column, the initial value plus the sum of the column's entries. -/
theorem colReduce_apply {u : Shape} (X : FVec Ideal ⟨2, ![m, n]⟩ .f32) (init : u.Idx → Ideal .f32)
    (h' : (⟨2, ![m, n]⟩ : Shape).ReducesTo [0] ⟨1, ![n]⟩) (h : (⟨2, ![m, n]⟩ : Shape).Reduces [0] ⟨1, ![n]⟩)
    (hu : 0 < u.numel) (q : Fin n) :
    Host.reduceAdd X init h' hu (ix1 q) = init (Shape.Idx.first hu) + ∑ r : Fin m, X (ix2 r q) := by
  rw [hostReduceAdd_apply, Ideal.hostReduceAdd_single h' h]
  exact congrArg _ (Finset.sum_congr rfl fun p _ => congrArg X (funext fun a => Fin.ext (by
    match a with
    | ⟨0, _⟩ => rfl
    | ⟨1, _⟩ => rfl)))

/-- A splat integer constant reads its word everywhere. -/
theorem constantI_apply {s : Shape} {w : Nat} (b : BitVec w) (i : s.Idx) : constantI s w b i = b := rfl
/-- The integer zero converted to a float is zero. -/
theorem sitofp_zero_apply {s : Shape} (i : s.Idx) : (sitofp .f32 (constantI s 32 0#32) : FVec Ideal s .f32) i = 0 := by
  show ((((0#32 : BitVec 32).toInt : ℤ) : ℝ) : EReal) = 0
  simp
/-- The host's negation, exponential and reciprocal square root at an entry. -/
theorem hostNegf_apply {s : Shape} {φ : FTy} (a : FVec Ideal s φ) (i : s.Idx) : Host.negf a i = -(a i) := rfl
theorem hostExp_apply {s : Shape} {φ : FTy} (a : FVec Ideal s φ) (i : s.Idx) : Host.exp a i = Ideal.exp (a i) := rfl
theorem hostRsqrt_apply {s : Shape} {φ : FTy} (a : FVec Ideal s φ) (i : s.Idx) : Host.rsqrt a i = Ideal.rsqrt (a i) := rfl
/-- The f32 word of 40000 is above zero: the variance's divisor is positive. -/
theorem cmp_ogt_40000 : Ideal.cmp .ogt (Ideal.ofBits .f32 0x471C4000#32) 0 = 1#1 := by
  rw [Variance.ofBits_40000]
  have h : (0 : EReal) < ((40000 : ℝ) : EReal) := EReal.coe_pos.mpr (by norm_num)
  simp [Ideal.cmp, h]

end Kit

end Cert.ReferenceIdeal.RefRun

end
-- ==== Proof.RefRead1.lean ====
/-
  The reference program's dense layers and gates, read at an entry.

  At the ideal float values, from any launch contents `W`: each linear layer's result is the row's product with the
  weight's row plus the bias; its column mean and variance are the column's sum and the sum of its squared deviations
  over the f32 word of 40000 (the outlined variance recomputes the mean, divides by 40000 less the converted integer
  zero, and guards the quotient by a select on that divisor's sign, which is positive); a layer's output is the leaky
  rectifier of the affine normalisation (the scalar functions of `Spec.lean`), the second layer of a branch adding its
  input; a gate is the embedding's entry times the logistic function of a linear layer. Every statement reads the
  buffers at the end of the whole line (`R W b`) and the arguments at launch (`W`).
-/
import proofs.«167917_j22402549416514_2_alg».proof.Proof.RefReadKit
import proofs.«167917_j22402549416514_2_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

open Idealize.ShloMosaic.ValueIdx
open scoped BigOperators

/-! ## The first branch's first layer -/

/-- The first linear layer of the first feature matrix at an entry: the row's product with the weight's row, plus the bias. -/
theorem v35_apply (W : Valuation τ sig (Elt Ideal)) (r : Fin 40000) (q : Fin 64) :
    rd2 (R W main_v35) r q = (∑ c : Fin 4096, rd2 (W (main_arg14 : DevRef τ sig)) r c * rd2 (W (main_arg16 : DevRef τ sig)) q c) + rd1 (W (main_arg17 : DevRef τ sig)) q := by
  have e_main_v35 : R W main_v35 = after ops01 (V01 W) (main_v35 : DevRef τ sig) := R_eq_V02 (by decide +kernel) W
  have i_main_arg14 : V01 W (main_arg14 : DevRef τ sig) = W (main_arg14 : DevRef τ sig) :=
    (R_eq_V01 (by decide +kernel) W).symm.trans (arg14_eq W)
  have i_main_arg16 : V01 W (main_arg16 : DevRef τ sig) = W (main_arg16 : DevRef τ sig) :=
    (R_eq_V01 (by decide +kernel) W).symm.trans (arg16_eq W)
  have i_main_arg17 : V01 W (main_arg17 : DevRef τ sig) = W (main_arg17 : DevRef τ sig) :=
    (R_eq_V01 (by decide +kernel) W).symm.trans (arg17_eq W)
  rw [e_main_v35]
  generalize V01 W = V at *
  after_results_simp
  simp only [i_main_arg14, i_main_arg16, i_main_arg17]
  simp only [rd2, rd1, addf_apply, subf_apply, mulf_apply, select_apply, cmpf_apply, Ideal.cmpf_def, hostDivf_apply, hostNegf_apply, hostExp_apply, hostRsqrt_apply, rowBcast_apply (m := 40000) (n := 64), oneRow_apply (n := 64), Idealize.ShloMosaic.broadcastInDim_oneRow_apply (m := 40000) (n := 64), broadcastInDim_scalar_apply (T := S64), broadcastInDim_scalar_apply (T := S1x64), broadcastInDim_scalar_apply (T := S40000x64), constant_apply, constantI_apply, sitofp_zero_apply, colReduce_apply (m := 40000) (n := 64) (h := by decide), dotPlain_apply (m := 40000) (k := 4096) (n := 64) _ (show dot_S40000x4096_S4096x64_S40000x64_1_0_0_1_n_n = DotDims.plain 40000 4096 64 from rfl), transpose2_apply (n := 64) (k := 4096), Ideal.ofBits_zero_f32, zero_add, sub_zero, cmp_ogt_40000, select_one, id_eq]

/-- Its column mean: the column's sum divided by the f32 word of 40000. -/
theorem v38_apply (W : Valuation τ sig (Elt Ideal)) (q : Fin 64) :
    rd1 (R W main_v38) q = Ideal.div (∑ r : Fin 40000, rd2 (R W main_v35) r q) (Ideal.ofBits .f32 0x471C4000#32) := by
  have e_main_v38 : R W main_v38 = after ops01 (V01 W) (main_v38 : DevRef τ sig) := R_eq_V02 (by decide +kernel) W
  have e_main_v35 : R W main_v35 = after ops01 (V01 W) (main_v35 : DevRef τ sig) := R_eq_V02 (by decide +kernel) W
  have i_main_arg14 : V01 W (main_arg14 : DevRef τ sig) = W (main_arg14 : DevRef τ sig) :=
    (R_eq_V01 (by decide +kernel) W).symm.trans (arg14_eq W)
  have i_main_arg16 : V01 W (main_arg16 : DevRef τ sig) = W (main_arg16 : DevRef τ sig) :=
    (R_eq_V01 (by decide +kernel) W).symm.trans (arg16_eq W)
  have i_main_arg17 : V01 W (main_arg17 : DevRef τ sig) = W (main_arg17 : DevRef τ sig) :=
    (R_eq_V01 (by decide +kernel) W).symm.trans (arg17_eq W)
  rw [e_main_v38, e_main_v35]
  generalize V01 W = V at *
  after_results_simp
  simp only [i_main_arg14, i_main_arg16, i_main_arg17]
  simp only [rd2, rd1, addf_apply, subf_apply, mulf_apply, select_apply, cmpf_apply, Ideal.cmpf_def, hostDivf_apply, hostNegf_apply, hostExp_apply, hostRsqrt_apply, rowBcast_apply (m := 40000) (n := 64), oneRow_apply (n := 64), Idealize.ShloMosaic.broadcastInDim_oneRow_apply (m := 40000) (n := 64), broadcastInDim_scalar_apply (T := S64), broadcastInDim_scalar_apply (T := S1x64), broadcastInDim_scalar_apply (T := S40000x64), constant_apply, constantI_apply, sitofp_zero_apply, colReduce_apply (m := 40000) (n := 64) (h := by decide), dotPlain_apply (m := 40000) (k := 4096) (n := 64) _ (show dot_S40000x4096_S4096x64_S40000x64_1_0_0_1_n_n = DotDims.plain 40000 4096 64 from rfl), transpose2_apply (n := 64) (k := 4096), Ideal.ofBits_zero_f32, zero_add, sub_zero, cmp_ogt_40000, select_one, id_eq]

/-- Its column variance: the mean of the squared deviations from the column mean (the outlined function's divisor is 40000 less the converted integer zero, which is positive, so its select returns the quotient). -/
theorem v39_apply (W : Valuation τ sig (Elt Ideal)) (q : Fin 64) :
    rd1 (R W main_v39) q = Ideal.div (∑ r : Fin 40000, (rd2 (R W main_v35) r q - rd1 (R W main_v38) q) * (rd2 (R W main_v35) r q - rd1 (R W main_v38) q)) (Ideal.ofBits .f32 0x471C4000#32) := by
  have e_main_v39 : R W main_v39 = after ops01 (V01 W) (main_v39 : DevRef τ sig) := R_eq_V02 (by decide +kernel) W
  have e_main_v35 : R W main_v35 = after ops01 (V01 W) (main_v35 : DevRef τ sig) := R_eq_V02 (by decide +kernel) W
  have e_main_v38 : R W main_v38 = after ops01 (V01 W) (main_v38 : DevRef τ sig) := R_eq_V02 (by decide +kernel) W
  have i_main_arg14 : V01 W (main_arg14 : DevRef τ sig) = W (main_arg14 : DevRef τ sig) :=
    (R_eq_V01 (by decide +kernel) W).symm.trans (arg14_eq W)
  have i_main_arg16 : V01 W (main_arg16 : DevRef τ sig) = W (main_arg16 : DevRef τ sig) :=
    (R_eq_V01 (by decide +kernel) W).symm.trans (arg16_eq W)
  have i_main_arg17 : V01 W (main_arg17 : DevRef τ sig) = W (main_arg17 : DevRef τ sig) :=
    (R_eq_V01 (by decide +kernel) W).symm.trans (arg17_eq W)
  rw [e_main_v39, e_main_v35, e_main_v38]
  generalize V01 W = V at *
  after_results_simp
  dsimp only [TRef.ofBuf, TRef.toBuf]
  simp only [cast_eq]
  simp only [i_main_arg14, i_main_arg16, i_main_arg17]
  simp only [rd2, rd1, addf_apply, subf_apply, mulf_apply, select_apply, cmpf_apply, Ideal.cmpf_def, hostDivf_apply, hostNegf_apply, hostExp_apply, hostRsqrt_apply, rowBcast_apply (m := 40000) (n := 64), oneRow_apply (n := 64), Idealize.ShloMosaic.broadcastInDim_oneRow_apply (m := 40000) (n := 64), broadcastInDim_scalar_apply (T := S64), broadcastInDim_scalar_apply (T := S1x64), broadcastInDim_scalar_apply (T := S40000x64), constant_apply, constantI_apply, sitofp_zero_apply, colReduce_apply (m := 40000) (n := 64) (h := by decide), dotPlain_apply (m := 40000) (k := 4096) (n := 64) _ (show dot_S40000x4096_S4096x64_S40000x64_1_0_0_1_n_n = DotDims.plain 40000 4096 64 from rfl), transpose2_apply (n := 64) (k := 4096), Ideal.ofBits_zero_f32, zero_add, sub_zero, cmp_ogt_40000, select_one, id_eq]

/-- The centred entry times the reciprocal square root of the variance plus epsilon. -/
theorem v48_apply (W : Valuation τ sig (Elt Ideal)) (r : Fin 40000) (q : Fin 64) :
    rd2 (R W main_v48) r q = (rd2 (R W main_v35) r q - rd1 (R W main_v38) q) * Ideal.rsqrt (rd1 (R W main_v39) q + Ideal.ofBits .f32 0x3727C5AC#32) := by
  have e_main_v48 : R W main_v48 = after ops01 (V01 W) (main_v48 : DevRef τ sig) := R_eq_V02 (by decide +kernel) W
  have e_main_v35 : R W main_v35 = after ops01 (V01 W) (main_v35 : DevRef τ sig) := R_eq_V02 (by decide +kernel) W
  have e_main_v38 : R W main_v38 = after ops01 (V01 W) (main_v38 : DevRef τ sig) := R_eq_V02 (by decide +kernel) W
  have e_main_v39 : R W main_v39 = after ops01 (V01 W) (main_v39 : DevRef τ sig) := R_eq_V02 (by decide +kernel) W
  have i_main_arg14 : V01 W (main_arg14 : DevRef τ sig) = W (main_arg14 : DevRef τ sig) :=
    (R_eq_V01 (by decide +kernel) W).symm.trans (arg14_eq W)
  have i_main_arg16 : V01 W (main_arg16 : DevRef τ sig) = W (main_arg16 : DevRef τ sig) :=
    (R_eq_V01 (by decide +kernel) W).symm.trans (arg16_eq W)
  have i_main_arg17 : V01 W (main_arg17 : DevRef τ sig) = W (main_arg17 : DevRef τ sig) :=
    (R_eq_V01 (by decide +kernel) W).symm.trans (arg17_eq W)
  rw [e_main_v48, e_main_v35, e_main_v38, e_main_v39]
  generalize V01 W = V at *
  after_results_simp
  dsimp only [TRef.ofBuf, TRef.toBuf]
  simp only [cast_eq]
  simp only [i_main_arg14, i_main_arg16, i_main_arg17]
  simp only [rd2, rd1, addf_apply, subf_apply, mulf_apply, select_apply, cmpf_apply, Ideal.cmpf_def, hostDivf_apply, hostNegf_apply, hostExp_apply, hostRsqrt_apply, rowBcast_apply (m := 40000) (n := 64), oneRow_apply (n := 64), Idealize.ShloMosaic.broadcastInDim_oneRow_apply (m := 40000) (n := 64), broadcastInDim_scalar_apply (T := S64), broadcastInDim_scalar_apply (T := S1x64), broadcastInDim_scalar_apply (T := S40000x64), constant_apply, constantI_apply, sitofp_zero_apply, colReduce_apply (m := 40000) (n := 64) (h := by decide), dotPlain_apply (m := 40000) (k := 4096) (n := 64) _ (show dot_S40000x4096_S4096x64_S40000x64_1_0_0_1_n_n = DotDims.plain 40000 4096 64 from rfl), transpose2_apply (n := 64) (k := 4096), Ideal.ofBits_zero_f32, zero_add, sub_zero, cmp_ogt_40000, select_one, id_eq]

/-- The layer's output at an entry: the leaky rectifier of the affine normalisation of the linear layer's entry by its column's mean and variance. -/
theorem v59_apply (W : Valuation τ sig (Elt Ideal)) (r : Fin 40000) (q : Fin 64) :
    rd2 (R W main_v59) r q = Cert.Spec.leaky (Cert.Spec.normAff (rd2 (R W main_v35) r q) (rd1 (R W main_v38) q) (rd1 (R W main_v39) q) (rd1 (W (main_arg18 : DevRef τ sig)) q) (rd1 (W (main_arg19 : DevRef τ sig)) q)) := by
  have e_main_v59 : R W main_v59 = after ops02 (V02 W) (main_v59 : DevRef τ sig) := R_eq_V03 (by decide +kernel) W
  have i_main_v48 : V02 W (main_v48 : DevRef τ sig) = R W main_v48 :=
    (R_eq_V02 (by decide +kernel) W).symm
  have i_main_arg18 : V02 W (main_arg18 : DevRef τ sig) = W (main_arg18 : DevRef τ sig) :=
    (R_eq_V02 (by decide +kernel) W).symm.trans (arg18_eq W)
  have i_main_arg19 : V02 W (main_arg19 : DevRef τ sig) = W (main_arg19 : DevRef τ sig) :=
    (R_eq_V02 (by decide +kernel) W).symm.trans (arg19_eq W)
  have h48 := v48_apply W r q
  simp only [rd2, rd1] at h48
  rw [e_main_v59]
  generalize V02 W = V at *
  after_results_simp
  dsimp only [TRef.ofBuf, TRef.toBuf]
  simp only [cast_eq]
  simp only [i_main_v48, i_main_arg18, i_main_arg19]
  simp only [rd2, rd1, addf_apply, subf_apply, mulf_apply, select_apply, cmpf_apply, Ideal.cmpf_def, hostDivf_apply, hostNegf_apply, hostExp_apply, hostRsqrt_apply, rowBcast_apply (m := 40000) (n := 64), oneRow_apply (n := 64), Idealize.ShloMosaic.broadcastInDim_oneRow_apply (m := 40000) (n := 64), broadcastInDim_scalar_apply (T := S64), broadcastInDim_scalar_apply (T := S1x64), broadcastInDim_scalar_apply (T := S40000x64), constant_apply, constantI_apply, sitofp_zero_apply, colReduce_apply (m := 40000) (n := 64) (h := by decide), dotPlain_apply (m := 40000) (k := 4096) (n := 64) _ (show dot_S40000x4096_S4096x64_S40000x64_1_0_0_1_n_n = DotDims.plain 40000 4096 64 from rfl), transpose2_apply (n := 64) (k := 4096), Ideal.ofBits_zero_f32, zero_add, sub_zero, cmp_ogt_40000, select_one, id_eq, Cert.Spec.leaky, Cert.Spec.normAff]
  rw [h48]

/-! ## The first branch's second layer -/

/-- The linear layer at an entry: the row's product with the weight's row, plus the bias. -/
theorem v64_apply (W : Valuation τ sig (Elt Ideal)) (r : Fin 40000) (q : Fin 64) :
    rd2 (R W main_v64) r q = (∑ c : Fin 64, rd2 (R W main_v59) r c * rd2 (W (main_arg20 : DevRef τ sig)) q c) + rd1 (W (main_arg21 : DevRef τ sig)) q := by
  have e_main_v64 : R W main_v64 = after ops03 (V03 W) (main_v64 : DevRef τ sig) := R_eq_V04 (by decide +kernel) W
  have i_main_v59 : V03 W (main_v59 : DevRef τ sig) = R W main_v59 :=
    (R_eq_V03 (by decide +kernel) W).symm
  have i_main_arg20 : V03 W (main_arg20 : DevRef τ sig) = W (main_arg20 : DevRef τ sig) :=
    (R_eq_V03 (by decide +kernel) W).symm.trans (arg20_eq W)
  have i_main_arg21 : V03 W (main_arg21 : DevRef τ sig) = W (main_arg21 : DevRef τ sig) :=
    (R_eq_V03 (by decide +kernel) W).symm.trans (arg21_eq W)
  rw [e_main_v64]
  generalize V03 W = V at *
  after_results_simp
  simp only [i_main_v59, i_main_arg20, i_main_arg21]
  simp only [rd2, rd1, addf_apply, subf_apply, mulf_apply, select_apply, cmpf_apply, Ideal.cmpf_def, hostDivf_apply, hostNegf_apply, hostExp_apply, hostRsqrt_apply, rowBcast_apply (m := 40000) (n := 64), oneRow_apply (n := 64), Idealize.ShloMosaic.broadcastInDim_oneRow_apply (m := 40000) (n := 64), broadcastInDim_scalar_apply (T := S64), broadcastInDim_scalar_apply (T := S1x64), broadcastInDim_scalar_apply (T := S40000x64), constant_apply, constantI_apply, sitofp_zero_apply, colReduce_apply (m := 40000) (n := 64) (h := by decide), dotPlain_apply (m := 40000) (k := 64) (n := 64) _ (show dot_S40000x64_S64x64_S40000x64_1_0_0_1_n_n = DotDims.plain 40000 64 64 from rfl), transpose2_apply (n := 64) (k := 64), Ideal.ofBits_zero_f32, zero_add, sub_zero, cmp_ogt_40000, select_one, id_eq]

/-- Its column mean: the column's sum divided by the f32 word of 40000. -/
theorem v67_apply (W : Valuation τ sig (Elt Ideal)) (q : Fin 64) :
    rd1 (R W main_v67) q = Ideal.div (∑ r : Fin 40000, rd2 (R W main_v64) r q) (Ideal.ofBits .f32 0x471C4000#32) := by
  have e_main_v67 : R W main_v67 = after ops03 (V03 W) (main_v67 : DevRef τ sig) := R_eq_V04 (by decide +kernel) W
  have e_main_v64 : R W main_v64 = after ops03 (V03 W) (main_v64 : DevRef τ sig) := R_eq_V04 (by decide +kernel) W
  have i_main_v59 : V03 W (main_v59 : DevRef τ sig) = R W main_v59 :=
    (R_eq_V03 (by decide +kernel) W).symm
  have i_main_arg20 : V03 W (main_arg20 : DevRef τ sig) = W (main_arg20 : DevRef τ sig) :=
    (R_eq_V03 (by decide +kernel) W).symm.trans (arg20_eq W)
  have i_main_arg21 : V03 W (main_arg21 : DevRef τ sig) = W (main_arg21 : DevRef τ sig) :=
    (R_eq_V03 (by decide +kernel) W).symm.trans (arg21_eq W)
  rw [e_main_v67, e_main_v64]
  generalize V03 W = V at *
  after_results_simp
  simp only [i_main_v59, i_main_arg20, i_main_arg21]
  simp only [rd2, rd1, addf_apply, subf_apply, mulf_apply, select_apply, cmpf_apply, Ideal.cmpf_def, hostDivf_apply, hostNegf_apply, hostExp_apply, hostRsqrt_apply, rowBcast_apply (m := 40000) (n := 64), oneRow_apply (n := 64), Idealize.ShloMosaic.broadcastInDim_oneRow_apply (m := 40000) (n := 64), broadcastInDim_scalar_apply (T := S64), broadcastInDim_scalar_apply (T := S1x64), broadcastInDim_scalar_apply (T := S40000x64), constant_apply, constantI_apply, sitofp_zero_apply, colReduce_apply (m := 40000) (n := 64) (h := by decide), dotPlain_apply (m := 40000) (k := 64) (n := 64) _ (show dot_S40000x64_S64x64_S40000x64_1_0_0_1_n_n = DotDims.plain 40000 64 64 from rfl), transpose2_apply (n := 64) (k := 64), Ideal.ofBits_zero_f32, zero_add, sub_zero, cmp_ogt_40000, select_one, id_eq]

/-- Its column variance: the mean of the squared deviations from the column mean (the outlined function's divisor is 40000 less the converted integer zero, which is positive, so its select returns the quotient). -/
theorem v68_apply (W : Valuation τ sig (Elt Ideal)) (q : Fin 64) :
    rd1 (R W main_v68) q = Ideal.div (∑ r : Fin 40000, (rd2 (R W main_v64) r q - rd1 (R W main_v67) q) * (rd2 (R W main_v64) r q - rd1 (R W main_v67) q)) (Ideal.ofBits .f32 0x471C4000#32) := by
  have e_main_v68 : R W main_v68 = after ops03 (V03 W) (main_v68 : DevRef τ sig) := R_eq_V04 (by decide +kernel) W
  have e_main_v64 : R W main_v64 = after ops03 (V03 W) (main_v64 : DevRef τ sig) := R_eq_V04 (by decide +kernel) W
  have e_main_v67 : R W main_v67 = after ops03 (V03 W) (main_v67 : DevRef τ sig) := R_eq_V04 (by decide +kernel) W
  have i_main_v59 : V03 W (main_v59 : DevRef τ sig) = R W main_v59 :=
    (R_eq_V03 (by decide +kernel) W).symm
  have i_main_arg20 : V03 W (main_arg20 : DevRef τ sig) = W (main_arg20 : DevRef τ sig) :=
    (R_eq_V03 (by decide +kernel) W).symm.trans (arg20_eq W)
  have i_main_arg21 : V03 W (main_arg21 : DevRef τ sig) = W (main_arg21 : DevRef τ sig) :=
    (R_eq_V03 (by decide +kernel) W).symm.trans (arg21_eq W)
  rw [e_main_v68, e_main_v64, e_main_v67]
  generalize V03 W = V at *
  after_results_simp
  dsimp only [TRef.ofBuf, TRef.toBuf]
  simp only [cast_eq]
  simp only [i_main_v59, i_main_arg20, i_main_arg21]
  simp only [rd2, rd1, addf_apply, subf_apply, mulf_apply, select_apply, cmpf_apply, Ideal.cmpf_def, hostDivf_apply, hostNegf_apply, hostExp_apply, hostRsqrt_apply, rowBcast_apply (m := 40000) (n := 64), oneRow_apply (n := 64), Idealize.ShloMosaic.broadcastInDim_oneRow_apply (m := 40000) (n := 64), broadcastInDim_scalar_apply (T := S64), broadcastInDim_scalar_apply (T := S1x64), broadcastInDim_scalar_apply (T := S40000x64), constant_apply, constantI_apply, sitofp_zero_apply, colReduce_apply (m := 40000) (n := 64) (h := by decide), dotPlain_apply (m := 40000) (k := 64) (n := 64) _ (show dot_S40000x64_S64x64_S40000x64_1_0_0_1_n_n = DotDims.plain 40000 64 64 from rfl), transpose2_apply (n := 64) (k := 64), Ideal.ofBits_zero_f32, zero_add, sub_zero, cmp_ogt_40000, select_one, id_eq]

/-- The layer's output at an entry: the leaky rectifier of the affine normalisation of the linear layer's entry by its column's mean and variance, plus the layer's input there. -/
theorem v89_apply (W : Valuation τ sig (Elt Ideal)) (r : Fin 40000) (q : Fin 64) :
    rd2 (R W main_v89) r q = Cert.Spec.leaky (Cert.Spec.normAff (rd2 (R W main_v64) r q) (rd1 (R W main_v67) q) (rd1 (R W main_v68) q) (rd1 (W (main_arg22 : DevRef τ sig)) q) (rd1 (W (main_arg23 : DevRef τ sig)) q)) + rd2 (R W main_v59) r q := by
  have e_main_v89 : R W main_v89 = after ops03 (V03 W) (main_v89 : DevRef τ sig) := R_eq_V04 (by decide +kernel) W
  have e_main_v64 : R W main_v64 = after ops03 (V03 W) (main_v64 : DevRef τ sig) := R_eq_V04 (by decide +kernel) W
  have e_main_v67 : R W main_v67 = after ops03 (V03 W) (main_v67 : DevRef τ sig) := R_eq_V04 (by decide +kernel) W
  have e_main_v68 : R W main_v68 = after ops03 (V03 W) (main_v68 : DevRef τ sig) := R_eq_V04 (by decide +kernel) W
  have i_main_v59 : V03 W (main_v59 : DevRef τ sig) = R W main_v59 :=
    (R_eq_V03 (by decide +kernel) W).symm
  have i_main_arg20 : V03 W (main_arg20 : DevRef τ sig) = W (main_arg20 : DevRef τ sig) :=
    (R_eq_V03 (by decide +kernel) W).symm.trans (arg20_eq W)
  have i_main_arg21 : V03 W (main_arg21 : DevRef τ sig) = W (main_arg21 : DevRef τ sig) :=
    (R_eq_V03 (by decide +kernel) W).symm.trans (arg21_eq W)
  have i_main_arg22 : V03 W (main_arg22 : DevRef τ sig) = W (main_arg22 : DevRef τ sig) :=
    (R_eq_V03 (by decide +kernel) W).symm.trans (arg22_eq W)
  have i_main_arg23 : V03 W (main_arg23 : DevRef τ sig) = W (main_arg23 : DevRef τ sig) :=
    (R_eq_V03 (by decide +kernel) W).symm.trans (arg23_eq W)
  rw [e_main_v89, e_main_v64, e_main_v67, e_main_v68]
  generalize V03 W = V at *
  after_results_simp
  dsimp only [TRef.ofBuf, TRef.toBuf]
  simp only [cast_eq]
  simp only [i_main_v59, i_main_arg20, i_main_arg21, i_main_arg22, i_main_arg23]
  simp only [rd2, rd1, addf_apply, subf_apply, mulf_apply, select_apply, cmpf_apply, Ideal.cmpf_def, hostDivf_apply, hostNegf_apply, hostExp_apply, hostRsqrt_apply, rowBcast_apply (m := 40000) (n := 64), oneRow_apply (n := 64), Idealize.ShloMosaic.broadcastInDim_oneRow_apply (m := 40000) (n := 64), broadcastInDim_scalar_apply (T := S64), broadcastInDim_scalar_apply (T := S1x64), broadcastInDim_scalar_apply (T := S40000x64), constant_apply, constantI_apply, sitofp_zero_apply, colReduce_apply (m := 40000) (n := 64) (h := by decide), dotPlain_apply (m := 40000) (k := 64) (n := 64) _ (show dot_S40000x64_S64x64_S40000x64_1_0_0_1_n_n = DotDims.plain 40000 64 64 from rfl), transpose2_apply (n := 64) (k := 64), Ideal.ofBits_zero_f32, zero_add, sub_zero, cmp_ogt_40000, select_one, id_eq, Cert.Spec.leaky, Cert.Spec.normAff]

/-! ## The second branch's first layer -/

/-- The linear layer at an entry: the row's product with the weight's row, plus the bias. -/
theorem v94_apply (W : Valuation τ sig (Elt Ideal)) (r : Fin 40000) (q : Fin 64) :
    rd2 (R W main_v94) r q = (∑ c : Fin 768, rd2 (W (main_arg15 : DevRef τ sig)) r c * rd2 (W (main_arg24 : DevRef τ sig)) q c) + rd1 (W (main_arg25 : DevRef τ sig)) q := by
  have e_main_v94 : R W main_v94 = after ops04 (V04 W) (main_v94 : DevRef τ sig) := R_eq_V05 (by decide +kernel) W
  have i_main_arg15 : V04 W (main_arg15 : DevRef τ sig) = W (main_arg15 : DevRef τ sig) :=
    (R_eq_V04 (by decide +kernel) W).symm.trans (arg15_eq W)
  have i_main_arg24 : V04 W (main_arg24 : DevRef τ sig) = W (main_arg24 : DevRef τ sig) :=
    (R_eq_V04 (by decide +kernel) W).symm.trans (arg24_eq W)
  have i_main_arg25 : V04 W (main_arg25 : DevRef τ sig) = W (main_arg25 : DevRef τ sig) :=
    (R_eq_V04 (by decide +kernel) W).symm.trans (arg25_eq W)
  rw [e_main_v94]
  generalize V04 W = V at *
  after_results_simp
  simp only [i_main_arg15, i_main_arg24, i_main_arg25]
  simp only [rd2, rd1, addf_apply, subf_apply, mulf_apply, select_apply, cmpf_apply, Ideal.cmpf_def, hostDivf_apply, hostNegf_apply, hostExp_apply, hostRsqrt_apply, rowBcast_apply (m := 40000) (n := 64), oneRow_apply (n := 64), Idealize.ShloMosaic.broadcastInDim_oneRow_apply (m := 40000) (n := 64), broadcastInDim_scalar_apply (T := S64), broadcastInDim_scalar_apply (T := S1x64), broadcastInDim_scalar_apply (T := S40000x64), constant_apply, constantI_apply, sitofp_zero_apply, colReduce_apply (m := 40000) (n := 64) (h := by decide), dotPlain_apply (m := 40000) (k := 768) (n := 64) _ (show dot_S40000x768_S768x64_S40000x64_1_0_0_1_n_n = DotDims.plain 40000 768 64 from rfl), transpose2_apply (n := 64) (k := 768), Ideal.ofBits_zero_f32, zero_add, sub_zero, cmp_ogt_40000, select_one, id_eq]

/-- Its column mean: the column's sum divided by the f32 word of 40000. -/
theorem v97_apply (W : Valuation τ sig (Elt Ideal)) (q : Fin 64) :
    rd1 (R W main_v97) q = Ideal.div (∑ r : Fin 40000, rd2 (R W main_v94) r q) (Ideal.ofBits .f32 0x471C4000#32) := by
  have e_main_v97 : R W main_v97 = after ops04 (V04 W) (main_v97 : DevRef τ sig) := R_eq_V05 (by decide +kernel) W
  have e_main_v94 : R W main_v94 = after ops04 (V04 W) (main_v94 : DevRef τ sig) := R_eq_V05 (by decide +kernel) W
  have i_main_arg15 : V04 W (main_arg15 : DevRef τ sig) = W (main_arg15 : DevRef τ sig) :=
    (R_eq_V04 (by decide +kernel) W).symm.trans (arg15_eq W)
  have i_main_arg24 : V04 W (main_arg24 : DevRef τ sig) = W (main_arg24 : DevRef τ sig) :=
    (R_eq_V04 (by decide +kernel) W).symm.trans (arg24_eq W)
  have i_main_arg25 : V04 W (main_arg25 : DevRef τ sig) = W (main_arg25 : DevRef τ sig) :=
    (R_eq_V04 (by decide +kernel) W).symm.trans (arg25_eq W)
  rw [e_main_v97, e_main_v94]
  generalize V04 W = V at *
  after_results_simp
  simp only [i_main_arg15, i_main_arg24, i_main_arg25]
  simp only [rd2, rd1, addf_apply, subf_apply, mulf_apply, select_apply, cmpf_apply, Ideal.cmpf_def, hostDivf_apply, hostNegf_apply, hostExp_apply, hostRsqrt_apply, rowBcast_apply (m := 40000) (n := 64), oneRow_apply (n := 64), Idealize.ShloMosaic.broadcastInDim_oneRow_apply (m := 40000) (n := 64), broadcastInDim_scalar_apply (T := S64), broadcastInDim_scalar_apply (T := S1x64), broadcastInDim_scalar_apply (T := S40000x64), constant_apply, constantI_apply, sitofp_zero_apply, colReduce_apply (m := 40000) (n := 64) (h := by decide), dotPlain_apply (m := 40000) (k := 768) (n := 64) _ (show dot_S40000x768_S768x64_S40000x64_1_0_0_1_n_n = DotDims.plain 40000 768 64 from rfl), transpose2_apply (n := 64) (k := 768), Ideal.ofBits_zero_f32, zero_add, sub_zero, cmp_ogt_40000, select_one, id_eq]

/-- The integer the variance's call is given: the zero word. -/
theorem c19_eq (W : Valuation τ sig (Elt Ideal)) : R W main_c_19 = constantI S_ 32 0#32 := by
  have e : R W main_c_19 = after ops04 (V04 W) (main_c_19 : DevRef τ sig) := R_eq_V05 (by decide +kernel) W
  rw [e]
  generalize V04 W = V
  after_results_simp

/-- Its column variance: the mean of the squared deviations from the column mean. -/
theorem v98_apply (W : Valuation τ sig (Elt Ideal)) (q : Fin 64) :
    rd1 (R W main_v98) q = Ideal.div (∑ r : Fin 40000, (rd2 (R W main_v94) r q - rd1 (R W main_v97) q) * (rd2 (R W main_v94) r q - rd1 (R W main_v97) q)) (Ideal.ofBits .f32 0x471C4000#32) := by
  have e_main_v98 : R W main_v98 = after ops05 (V05 W) (main_v98 : DevRef τ sig) := R_eq_V06 (by decide +kernel) W
  have i_main_v94 : V05 W (main_v94 : DevRef τ sig) = R W main_v94 :=
    (R_eq_V05 (by decide +kernel) W).symm
  have i_main_c_19 : V05 W (main_c_19 : DevRef τ sig) = R W main_c_19 :=
    (R_eq_V05 (by decide +kernel) W).symm
  have hx0 := v97_apply W q
  simp only [rd2, rd1] at hx0
  have hx1 := c19_eq W
  rw [e_main_v98]
  generalize V05 W = V at *
  after_results_simp
  dsimp only [TRef.ofBuf, TRef.toBuf]
  simp only [cast_eq]
  simp only [i_main_v94, i_main_c_19]
  simp only [rd2, rd1, hx0, hx1]
  simp only [rd2, rd1, addf_apply, subf_apply, mulf_apply, select_apply, cmpf_apply, Ideal.cmpf_def, hostDivf_apply, hostNegf_apply, hostExp_apply, hostRsqrt_apply, rowBcast_apply (m := 40000) (n := 64), oneRow_apply (n := 64), Idealize.ShloMosaic.broadcastInDim_oneRow_apply (m := 40000) (n := 64), broadcastInDim_scalar_apply (T := S64), broadcastInDim_scalar_apply (T := S1x64), broadcastInDim_scalar_apply (T := S40000x64), constant_apply, constantI_apply, sitofp_zero_apply, colReduce_apply (m := 40000) (n := 64) (h := by decide), dotPlain_apply (m := 40000) (k := 768) (n := 64) _ (show dot_S40000x768_S768x64_S40000x64_1_0_0_1_n_n = DotDims.plain 40000 768 64 from rfl), transpose2_apply (n := 64) (k := 768), Ideal.ofBits_zero_f32, zero_add, sub_zero, cmp_ogt_40000, select_one, id_eq]

/-- The layer's output at an entry: the leaky rectifier of the affine normalisation of the linear layer's entry by its column's mean and variance. -/
theorem v118_apply (W : Valuation τ sig (Elt Ideal)) (r : Fin 40000) (q : Fin 64) :
    rd2 (R W main_v118) r q = Cert.Spec.leaky (Cert.Spec.normAff (rd2 (R W main_v94) r q) (rd1 (R W main_v97) q) (rd1 (R W main_v98) q) (rd1 (W (main_arg26 : DevRef τ sig)) q) (rd1 (W (main_arg27 : DevRef τ sig)) q)) := by
  have e_main_v118 : R W main_v118 = after ops05 (V05 W) (main_v118 : DevRef τ sig) := R_eq_V06 (by decide +kernel) W
  have e_main_v98 : R W main_v98 = after ops05 (V05 W) (main_v98 : DevRef τ sig) := R_eq_V06 (by decide +kernel) W
  have i_main_v94 : V05 W (main_v94 : DevRef τ sig) = R W main_v94 :=
    (R_eq_V05 (by decide +kernel) W).symm
  have i_main_v97 : V05 W (main_v97 : DevRef τ sig) = R W main_v97 :=
    (R_eq_V05 (by decide +kernel) W).symm
  have i_main_c_19 : V05 W (main_c_19 : DevRef τ sig) = R W main_c_19 :=
    (R_eq_V05 (by decide +kernel) W).symm
  have i_main_arg26 : V05 W (main_arg26 : DevRef τ sig) = W (main_arg26 : DevRef τ sig) :=
    (R_eq_V05 (by decide +kernel) W).symm.trans (arg26_eq W)
  have i_main_arg27 : V05 W (main_arg27 : DevRef τ sig) = W (main_arg27 : DevRef τ sig) :=
    (R_eq_V05 (by decide +kernel) W).symm.trans (arg27_eq W)
  have hx1 := c19_eq W
  rw [e_main_v118, e_main_v98]
  generalize V05 W = V at *
  after_results_simp
  dsimp only [TRef.ofBuf, TRef.toBuf]
  simp only [cast_eq]
  simp only [i_main_v94, i_main_v97, i_main_c_19, i_main_arg26, i_main_arg27]
  simp only [rd2, rd1, hx1]
  simp only [rd2, rd1, addf_apply, subf_apply, mulf_apply, select_apply, cmpf_apply, Ideal.cmpf_def, hostDivf_apply, hostNegf_apply, hostExp_apply, hostRsqrt_apply, rowBcast_apply (m := 40000) (n := 64), oneRow_apply (n := 64), Idealize.ShloMosaic.broadcastInDim_oneRow_apply (m := 40000) (n := 64), broadcastInDim_scalar_apply (T := S64), broadcastInDim_scalar_apply (T := S1x64), broadcastInDim_scalar_apply (T := S40000x64), constant_apply, constantI_apply, sitofp_zero_apply, colReduce_apply (m := 40000) (n := 64) (h := by decide), dotPlain_apply (m := 40000) (k := 768) (n := 64) _ (show dot_S40000x768_S768x64_S40000x64_1_0_0_1_n_n = DotDims.plain 40000 768 64 from rfl), transpose2_apply (n := 64) (k := 768), Ideal.ofBits_zero_f32, zero_add, sub_zero, cmp_ogt_40000, select_one, id_eq, Cert.Spec.leaky, Cert.Spec.normAff]

/-! ## The second branch's second layer -/

/-- The linear layer at an entry: the row's product with the weight's row, plus the bias. -/
theorem v123_apply (W : Valuation τ sig (Elt Ideal)) (r : Fin 40000) (q : Fin 64) :
    rd2 (R W main_v123) r q = (∑ c : Fin 64, rd2 (R W main_v118) r c * rd2 (W (main_arg28 : DevRef τ sig)) q c) + rd1 (W (main_arg29 : DevRef τ sig)) q := by
  have e_main_v123 : R W main_v123 = after ops06 (V06 W) (main_v123 : DevRef τ sig) := R_eq_V07 (by decide +kernel) W
  have i_main_v118 : V06 W (main_v118 : DevRef τ sig) = R W main_v118 :=
    (R_eq_V06 (by decide +kernel) W).symm
  have i_main_arg28 : V06 W (main_arg28 : DevRef τ sig) = W (main_arg28 : DevRef τ sig) :=
    (R_eq_V06 (by decide +kernel) W).symm.trans (arg28_eq W)
  have i_main_arg29 : V06 W (main_arg29 : DevRef τ sig) = W (main_arg29 : DevRef τ sig) :=
    (R_eq_V06 (by decide +kernel) W).symm.trans (arg29_eq W)
  rw [e_main_v123]
  generalize V06 W = V at *
  after_results_simp
  simp only [i_main_v118, i_main_arg28, i_main_arg29]
  simp only [rd2, rd1, addf_apply, subf_apply, mulf_apply, select_apply, cmpf_apply, Ideal.cmpf_def, hostDivf_apply, hostNegf_apply, hostExp_apply, hostRsqrt_apply, rowBcast_apply (m := 40000) (n := 64), oneRow_apply (n := 64), Idealize.ShloMosaic.broadcastInDim_oneRow_apply (m := 40000) (n := 64), broadcastInDim_scalar_apply (T := S64), broadcastInDim_scalar_apply (T := S1x64), broadcastInDim_scalar_apply (T := S40000x64), constant_apply, constantI_apply, sitofp_zero_apply, colReduce_apply (m := 40000) (n := 64) (h := by decide), dotPlain_apply (m := 40000) (k := 64) (n := 64) _ (show dot_S40000x64_S64x64_S40000x64_1_0_0_1_n_n = DotDims.plain 40000 64 64 from rfl), transpose2_apply (n := 64) (k := 64), Ideal.ofBits_zero_f32, zero_add, sub_zero, cmp_ogt_40000, select_one, id_eq]

/-- Its column mean: the column's sum divided by the f32 word of 40000. -/
theorem v126_apply (W : Valuation τ sig (Elt Ideal)) (q : Fin 64) :
    rd1 (R W main_v126) q = Ideal.div (∑ r : Fin 40000, rd2 (R W main_v123) r q) (Ideal.ofBits .f32 0x471C4000#32) := by
  have e_main_v126 : R W main_v126 = after ops06 (V06 W) (main_v126 : DevRef τ sig) := R_eq_V07 (by decide +kernel) W
  have e_main_v123 : R W main_v123 = after ops06 (V06 W) (main_v123 : DevRef τ sig) := R_eq_V07 (by decide +kernel) W
  have i_main_v118 : V06 W (main_v118 : DevRef τ sig) = R W main_v118 :=
    (R_eq_V06 (by decide +kernel) W).symm
  have i_main_arg28 : V06 W (main_arg28 : DevRef τ sig) = W (main_arg28 : DevRef τ sig) :=
    (R_eq_V06 (by decide +kernel) W).symm.trans (arg28_eq W)
  have i_main_arg29 : V06 W (main_arg29 : DevRef τ sig) = W (main_arg29 : DevRef τ sig) :=
    (R_eq_V06 (by decide +kernel) W).symm.trans (arg29_eq W)
  rw [e_main_v126, e_main_v123]
  generalize V06 W = V at *
  after_results_simp
  simp only [i_main_v118, i_main_arg28, i_main_arg29]
  simp only [rd2, rd1, addf_apply, subf_apply, mulf_apply, select_apply, cmpf_apply, Ideal.cmpf_def, hostDivf_apply, hostNegf_apply, hostExp_apply, hostRsqrt_apply, rowBcast_apply (m := 40000) (n := 64), oneRow_apply (n := 64), Idealize.ShloMosaic.broadcastInDim_oneRow_apply (m := 40000) (n := 64), broadcastInDim_scalar_apply (T := S64), broadcastInDim_scalar_apply (T := S1x64), broadcastInDim_scalar_apply (T := S40000x64), constant_apply, constantI_apply, sitofp_zero_apply, colReduce_apply (m := 40000) (n := 64) (h := by decide), dotPlain_apply (m := 40000) (k := 64) (n := 64) _ (show dot_S40000x64_S64x64_S40000x64_1_0_0_1_n_n = DotDims.plain 40000 64 64 from rfl), transpose2_apply (n := 64) (k := 64), Ideal.ofBits_zero_f32, zero_add, sub_zero, cmp_ogt_40000, select_one, id_eq]

/-- Its column variance: the mean of the squared deviations from the column mean (the outlined function's divisor is 40000 less the converted integer zero, which is positive, so its select returns the quotient). -/
theorem v127_apply (W : Valuation τ sig (Elt Ideal)) (q : Fin 64) :
    rd1 (R W main_v127) q = Ideal.div (∑ r : Fin 40000, (rd2 (R W main_v123) r q - rd1 (R W main_v126) q) * (rd2 (R W main_v123) r q - rd1 (R W main_v126) q)) (Ideal.ofBits .f32 0x471C4000#32) := by
  have e_main_v127 : R W main_v127 = after ops06 (V06 W) (main_v127 : DevRef τ sig) := R_eq_V07 (by decide +kernel) W
  have e_main_v123 : R W main_v123 = after ops06 (V06 W) (main_v123 : DevRef τ sig) := R_eq_V07 (by decide +kernel) W
  have e_main_v126 : R W main_v126 = after ops06 (V06 W) (main_v126 : DevRef τ sig) := R_eq_V07 (by decide +kernel) W
  have i_main_v118 : V06 W (main_v118 : DevRef τ sig) = R W main_v118 :=
    (R_eq_V06 (by decide +kernel) W).symm
  have i_main_arg28 : V06 W (main_arg28 : DevRef τ sig) = W (main_arg28 : DevRef τ sig) :=
    (R_eq_V06 (by decide +kernel) W).symm.trans (arg28_eq W)
  have i_main_arg29 : V06 W (main_arg29 : DevRef τ sig) = W (main_arg29 : DevRef τ sig) :=
    (R_eq_V06 (by decide +kernel) W).symm.trans (arg29_eq W)
  rw [e_main_v127, e_main_v123, e_main_v126]
  generalize V06 W = V at *
  after_results_simp
  dsimp only [TRef.ofBuf, TRef.toBuf]
  simp only [cast_eq]
  simp only [i_main_v118, i_main_arg28, i_main_arg29]
  simp only [rd2, rd1, addf_apply, subf_apply, mulf_apply, select_apply, cmpf_apply, Ideal.cmpf_def, hostDivf_apply, hostNegf_apply, hostExp_apply, hostRsqrt_apply, rowBcast_apply (m := 40000) (n := 64), oneRow_apply (n := 64), Idealize.ShloMosaic.broadcastInDim_oneRow_apply (m := 40000) (n := 64), broadcastInDim_scalar_apply (T := S64), broadcastInDim_scalar_apply (T := S1x64), broadcastInDim_scalar_apply (T := S40000x64), constant_apply, constantI_apply, sitofp_zero_apply, colReduce_apply (m := 40000) (n := 64) (h := by decide), dotPlain_apply (m := 40000) (k := 64) (n := 64) _ (show dot_S40000x64_S64x64_S40000x64_1_0_0_1_n_n = DotDims.plain 40000 64 64 from rfl), transpose2_apply (n := 64) (k := 64), Ideal.ofBits_zero_f32, zero_add, sub_zero, cmp_ogt_40000, select_one, id_eq]

/-- The layer's output at an entry: the leaky rectifier of the affine normalisation of the linear layer's entry by its column's mean and variance, plus the layer's input there. -/
theorem v148_apply (W : Valuation τ sig (Elt Ideal)) (r : Fin 40000) (q : Fin 64) :
    rd2 (R W main_v148) r q = Cert.Spec.leaky (Cert.Spec.normAff (rd2 (R W main_v123) r q) (rd1 (R W main_v126) q) (rd1 (R W main_v127) q) (rd1 (W (main_arg30 : DevRef τ sig)) q) (rd1 (W (main_arg31 : DevRef τ sig)) q)) + rd2 (R W main_v118) r q := by
  have e_main_v148 : R W main_v148 = after ops06 (V06 W) (main_v148 : DevRef τ sig) := R_eq_V07 (by decide +kernel) W
  have e_main_v123 : R W main_v123 = after ops06 (V06 W) (main_v123 : DevRef τ sig) := R_eq_V07 (by decide +kernel) W
  have e_main_v126 : R W main_v126 = after ops06 (V06 W) (main_v126 : DevRef τ sig) := R_eq_V07 (by decide +kernel) W
  have e_main_v127 : R W main_v127 = after ops06 (V06 W) (main_v127 : DevRef τ sig) := R_eq_V07 (by decide +kernel) W
  have i_main_v118 : V06 W (main_v118 : DevRef τ sig) = R W main_v118 :=
    (R_eq_V06 (by decide +kernel) W).symm
  have i_main_arg28 : V06 W (main_arg28 : DevRef τ sig) = W (main_arg28 : DevRef τ sig) :=
    (R_eq_V06 (by decide +kernel) W).symm.trans (arg28_eq W)
  have i_main_arg29 : V06 W (main_arg29 : DevRef τ sig) = W (main_arg29 : DevRef τ sig) :=
    (R_eq_V06 (by decide +kernel) W).symm.trans (arg29_eq W)
  have i_main_arg30 : V06 W (main_arg30 : DevRef τ sig) = W (main_arg30 : DevRef τ sig) :=
    (R_eq_V06 (by decide +kernel) W).symm.trans (arg30_eq W)
  have i_main_arg31 : V06 W (main_arg31 : DevRef τ sig) = W (main_arg31 : DevRef τ sig) :=
    (R_eq_V06 (by decide +kernel) W).symm.trans (arg31_eq W)
  rw [e_main_v148, e_main_v123, e_main_v126, e_main_v127]
  generalize V06 W = V at *
  after_results_simp
  dsimp only [TRef.ofBuf, TRef.toBuf]
  simp only [cast_eq]
  simp only [i_main_v118, i_main_arg28, i_main_arg29, i_main_arg30, i_main_arg31]
  simp only [rd2, rd1, addf_apply, subf_apply, mulf_apply, select_apply, cmpf_apply, Ideal.cmpf_def, hostDivf_apply, hostNegf_apply, hostExp_apply, hostRsqrt_apply, rowBcast_apply (m := 40000) (n := 64), oneRow_apply (n := 64), Idealize.ShloMosaic.broadcastInDim_oneRow_apply (m := 40000) (n := 64), broadcastInDim_scalar_apply (T := S64), broadcastInDim_scalar_apply (T := S1x64), broadcastInDim_scalar_apply (T := S40000x64), constant_apply, constantI_apply, sitofp_zero_apply, colReduce_apply (m := 40000) (n := 64) (h := by decide), dotPlain_apply (m := 40000) (k := 64) (n := 64) _ (show dot_S40000x64_S64x64_S40000x64_1_0_0_1_n_n = DotDims.plain 40000 64 64 from rfl), transpose2_apply (n := 64) (k := 64), Ideal.ofBits_zero_f32, zero_add, sub_zero, cmp_ogt_40000, select_one, id_eq, Cert.Spec.leaky, Cert.Spec.normAff]

/-! ## The gates -/

/-- A gated entry of the second embedding table: the entry times the logistic function (written `1 / (1 + exp (-x))` by the program) of a linear layer of the branch's output. -/
theorem v160_apply (W : Valuation τ sig (Elt Ideal)) (r : Fin 40000) (q : Fin 64) :
    rd2 (R W main_v160) r q = rd2 (W (main_arg13 : DevRef τ sig)) r q * Ideal.logistic ((∑ c : Fin 64, rd2 (R W main_v89) r c * rd2 (W (main_arg32 : DevRef τ sig)) q c) + rd1 (W (main_arg33 : DevRef τ sig)) q) := by
  have e_main_v160 : R W main_v160 = after ops07 (V07 W) (main_v160 : DevRef τ sig) := R_eq_V08 (by decide +kernel) W
  have i_main_v89 : V07 W (main_v89 : DevRef τ sig) = R W main_v89 :=
    (R_eq_V07 (by decide +kernel) W).symm
  have i_main_arg32 : V07 W (main_arg32 : DevRef τ sig) = W (main_arg32 : DevRef τ sig) :=
    (R_eq_V07 (by decide +kernel) W).symm.trans (arg32_eq W)
  have i_main_arg33 : V07 W (main_arg33 : DevRef τ sig) = W (main_arg33 : DevRef τ sig) :=
    (R_eq_V07 (by decide +kernel) W).symm.trans (arg33_eq W)
  have i_main_arg13 : V07 W (main_arg13 : DevRef τ sig) = W (main_arg13 : DevRef τ sig) :=
    (R_eq_V07 (by decide +kernel) W).symm.trans (arg13_eq W)
  rw [e_main_v160]
  generalize V07 W = V at *
  after_results_simp
  simp only [i_main_v89, i_main_arg32, i_main_arg33, i_main_arg13]
  simp only [rd2, rd1, addf_apply, subf_apply, mulf_apply, select_apply, cmpf_apply, Ideal.cmpf_def, hostDivf_apply, hostNegf_apply, hostExp_apply, hostRsqrt_apply, rowBcast_apply (m := 40000) (n := 64), oneRow_apply (n := 64), Idealize.ShloMosaic.broadcastInDim_oneRow_apply (m := 40000) (n := 64), broadcastInDim_scalar_apply (T := S64), broadcastInDim_scalar_apply (T := S1x64), broadcastInDim_scalar_apply (T := S40000x64), constant_apply, constantI_apply, sitofp_zero_apply, colReduce_apply (m := 40000) (n := 64) (h := by decide), dotPlain_apply (m := 40000) (k := 64) (n := 64) _ (show dot_S40000x64_S64x64_S40000x64_1_0_0_1_n_n = DotDims.plain 40000 64 64 from rfl), transpose2_apply (n := 64) (k := 64), Ideal.ofBits_zero_f32, zero_add, sub_zero, cmp_ogt_40000, select_one, id_eq, Ideal.logistic, Ideal.ofBits_one_f32]

/-- A gated entry of the second embedding table: the entry times the logistic function (written `1 / (1 + exp (-x))` by the program) of a linear layer of the branch's output. -/
theorem v172_apply (W : Valuation τ sig (Elt Ideal)) (r : Fin 40000) (q : Fin 64) :
    rd2 (R W main_v172) r q = rd2 (W (main_arg13 : DevRef τ sig)) r q * Ideal.logistic ((∑ c : Fin 64, rd2 (R W main_v148) r c * rd2 (W (main_arg34 : DevRef τ sig)) q c) + rd1 (W (main_arg35 : DevRef τ sig)) q) := by
  have e_main_v172 : R W main_v172 = after ops07 (V07 W) (main_v172 : DevRef τ sig) := R_eq_V08 (by decide +kernel) W
  have i_main_v148 : V07 W (main_v148 : DevRef τ sig) = R W main_v148 :=
    (R_eq_V07 (by decide +kernel) W).symm
  have i_main_arg34 : V07 W (main_arg34 : DevRef τ sig) = W (main_arg34 : DevRef τ sig) :=
    (R_eq_V07 (by decide +kernel) W).symm.trans (arg34_eq W)
  have i_main_arg35 : V07 W (main_arg35 : DevRef τ sig) = W (main_arg35 : DevRef τ sig) :=
    (R_eq_V07 (by decide +kernel) W).symm.trans (arg35_eq W)
  have i_main_arg13 : V07 W (main_arg13 : DevRef τ sig) = W (main_arg13 : DevRef τ sig) :=
    (R_eq_V07 (by decide +kernel) W).symm.trans (arg13_eq W)
  rw [e_main_v172]
  generalize V07 W = V at *
  after_results_simp
  simp only [i_main_v148, i_main_arg34, i_main_arg35, i_main_arg13]
  simp only [rd2, rd1, addf_apply, subf_apply, mulf_apply, select_apply, cmpf_apply, Ideal.cmpf_def, hostDivf_apply, hostNegf_apply, hostExp_apply, hostRsqrt_apply, rowBcast_apply (m := 40000) (n := 64), oneRow_apply (n := 64), Idealize.ShloMosaic.broadcastInDim_oneRow_apply (m := 40000) (n := 64), broadcastInDim_scalar_apply (T := S64), broadcastInDim_scalar_apply (T := S1x64), broadcastInDim_scalar_apply (T := S40000x64), constant_apply, constantI_apply, sitofp_zero_apply, colReduce_apply (m := 40000) (n := 64) (h := by decide), dotPlain_apply (m := 40000) (k := 64) (n := 64) _ (show dot_S40000x64_S64x64_S40000x64_1_0_0_1_n_n = DotDims.plain 40000 64 64 from rfl), transpose2_apply (n := 64) (k := 64), Ideal.ofBits_zero_f32, zero_add, sub_zero, cmp_ogt_40000, select_one, id_eq, Ideal.logistic, Ideal.ofBits_one_f32]

end Cert.ReferenceIdeal.RefRun

end
-- ==== Proof.LibRealClosure.lean ====
/-
  Closure of "is a real number" inside the extended reals.

  An extended real is either a real number or one of the two infinities. Sums, differences, products,
  finite sums, maxima, quotients by a nonzero real, exponentials, logistic values and reciprocal square
  roots of positive reals, of real numbers, are real numbers again: none of these operations leaves the
  finite part of the extended real line. The identities of real arithmetic (distributivity, cancelling a
  common factor of a quotient, ...) hold on the finite part only, so a computation that is to be compared
  with another one by such an identity must first be known to stay finite; the lemmas here propagate
  finiteness from the inputs of a computation to every intermediate value.

  Also here: the mean of the squares of finitely many reals is a nonnegative real, and it stays positive
  after a positive real is added, so that its reciprocal square root is a (positive) real.
-/
import Idealize.ShloMosaic.PureOps.Ideal

noncomputable section

namespace Idealize.ShloMosaic.RealClosure

open scoped BigOperators

/-- An extended real is a real when it is (the coercion of) a real number. -/
def IsReal (x : EReal) : Prop := ∃ r : ℝ, x = (r : EReal)

/-- A coerced real number is a real. -/
theorem isReal_coe (r : ℝ) : IsReal (r : EReal) := ⟨r, rfl⟩

/-- Zero is a real. -/
theorem isReal_zero : IsReal (0 : EReal) := ⟨0, EReal.coe_zero.symm⟩

/-- One is a real. -/
theorem isReal_one : IsReal (1 : EReal) := ⟨1, EReal.coe_one.symm⟩

/-- An extended real is a real exactly when it is neither of the two infinities. -/
theorem isReal_iff (x : EReal) : IsReal x ↔ x ≠ ⊤ ∧ x ≠ ⊥ := by
  induction x using EReal.rec with
  | bot => exact ⟨fun ⟨r, h⟩ => absurd h.symm (EReal.coe_ne_bot r), fun h => absurd rfl h.2⟩
  | coe r => exact ⟨fun _ => ⟨EReal.coe_ne_top r, EReal.coe_ne_bot r⟩, fun _ => ⟨r, rfl⟩⟩
  | top => exact ⟨fun ⟨r, h⟩ => absurd h.symm (EReal.coe_ne_top r), fun h => absurd rfl h.1⟩

/-- A real is not plus infinity. -/
theorem IsReal.ne_top {x : EReal} (hx : IsReal x) : x ≠ ⊤ := ((isReal_iff x).1 hx).1

/-- A real is not minus infinity. -/
theorem IsReal.ne_bot {x : EReal} (hx : IsReal x) : x ≠ ⊥ := ((isReal_iff x).1 hx).2

/-- The sum of two reals is a real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The difference of two reals is a real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The negative of a real is a real. -/
theorem IsReal.neg {x : EReal} (hx : IsReal x) : IsReal (-x) := by
  obtain ⟨a, rfl⟩ := hx
  exact ⟨-a, (EReal.coe_neg a).symm⟩

/-- The product of two reals is a real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of coerced reals is the coercion of the real sum. -/
theorem coe_finset_sum {ι : Type*} (s : Finset ι) (a : ι → ℝ) :
    ∑ i ∈ s, ((a i : ℝ) : EReal) = ((∑ i ∈ s, a i : ℝ) : EReal) := by
  classical
  induction s using Finset.induction_on with
  | empty => simp
  | insert i s hi ih => rw [Finset.sum_insert hi, Finset.sum_insert hi, ih, EReal.coe_add]

/-- A sum of reals over a finite set is a real. -/
theorem IsReal.sum {ι : Type*} (s : Finset ι) (x : ι → EReal) (hx : ∀ i ∈ s, IsReal (x i)) :
    IsReal (∑ i ∈ s, x i) := by
  classical
  induction s using Finset.induction_on with
  | empty => simpa using isReal_zero
  | insert i s hi ih =>
    rw [Finset.sum_insert hi]
    exact (hx i (Finset.mem_insert_self i s)).add (ih fun j hj => hx j (Finset.mem_insert_of_mem hj))

/-- A sum of reals over a finite index type is a real. -/
theorem IsReal.sum_univ {ι : Type*} [Fintype ι] (x : ι → EReal) (hx : ∀ i, IsReal (x i)) :
    IsReal (∑ i, x i) :=
  IsReal.sum Finset.univ x fun i _ => hx i

/-- The maximum of two coerced reals is the coercion of the real maximum. -/
theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The minimum of two coerced reals is the coercion of the real minimum. -/
theorem min_coe (a b : ℝ) : min (a : EReal) (b : EReal) = ((min a b : ℝ) : EReal) := by
  rcases le_total a b with h | h
  · rw [min_eq_left h, min_eq_left (EReal.coe_le_coe_iff.2 h)]
  · rw [min_eq_right h, min_eq_right (EReal.coe_le_coe_iff.2 h)]

/-- The maximum of two reals is a real. -/
theorem IsReal.max {x y : EReal} (hx : IsReal x) (hy : IsReal y) : IsReal (max x y) := by
  obtain ⟨a, rfl⟩ := hx
  obtain ⟨b, rfl⟩ := hy
  exact ⟨_, max_coe a b⟩

/-- The minimum of two reals is a real. -/
theorem IsReal.min {x y : EReal} (hx : IsReal x) (hy : IsReal y) : IsReal (min x y) := by
  obtain ⟨a, rfl⟩ := hx
  obtain ⟨b, rfl⟩ := hy
  exact ⟨_, min_coe a b⟩

/-- The quotient of a coerced real by a nonzero coerced real is the coercion of the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The quotient of a real by a nonzero real is a real. -/
theorem IsReal.div_coe {x : EReal} (hx : IsReal x) {b : ℝ} (hb : b ≠ 0) : IsReal (Ideal.div x (b : EReal)) := by
  obtain ⟨a, rfl⟩ := hx
  exact ⟨_, div_coe_coe a hb⟩

/-- The quotient of a real by an extended real that is a nonzero real is a real. -/
theorem IsReal.div {x y : EReal} (hx : IsReal x) {b : ℝ} (hb : b ≠ 0) (hy : y = (b : EReal)) :
    IsReal (Ideal.div x y) := by
  subst hy
  exact hx.div_coe hb

/-- The quotient of a real by a real other than zero is a real. -/
theorem IsReal.div_of_ne_zero {x y : EReal} (hx : IsReal x) (hy : IsReal y) (hy0 : y ≠ 0) :
    IsReal (Ideal.div x y) := by
  obtain ⟨b, rfl⟩ := hy
  exact hx.div_coe (fun h => hy0 (by rw [h, EReal.coe_zero]))

/-- The exponential of a real is a real. -/
theorem IsReal.exp {x : EReal} (hx : IsReal x) : IsReal (Ideal.exp x) := by
  obtain ⟨a, rfl⟩ := hx
  exact ⟨Real.exp a, Ideal.exp_coe a⟩

/-- The exponential of a real is a positive real. -/
theorem IsReal.exp_pos {x : EReal} (hx : IsReal x) : ∃ r : ℝ, 0 < r ∧ Ideal.exp x = (r : EReal) := by
  obtain ⟨a, rfl⟩ := hx
  exact ⟨Real.exp a, Real.exp_pos a, Ideal.exp_coe a⟩

/-- The logistic function `1 / (1 + e^{-x})` of a real is a real. -/
theorem IsReal.logistic {x : EReal} (hx : IsReal x) : IsReal (Ideal.logistic x) := by
  obtain ⟨a, rfl⟩ := hx
  exact ⟨_, Ideal.logistic_coe a⟩

/-- The reciprocal square root of a positive real `r` is the real `1 / √r`. -/
theorem rsqrt_coe_of_pos {r : ℝ} (hr : 0 < r) : Ideal.rsqrt (r : EReal) = (((Real.sqrt r)⁻¹ : ℝ) : EReal) := by
  rw [Ideal.rsqrt_coe, if_neg (not_lt.2 hr.le), if_neg hr.ne']

/-- The reciprocal square root of a positive real is a real. -/
theorem IsReal.rsqrt {x : EReal} {r : ℝ} (hr : 0 < r) (hx : x = (r : EReal)) : IsReal (Ideal.rsqrt x) := by
  subst hx
  exact ⟨_, rsqrt_coe_of_pos hr⟩

/-- The reciprocal square root of a positive real is a positive real. -/
theorem rsqrt_pos {x : EReal} {r : ℝ} (hr : 0 < r) (hx : x = (r : EReal)) :
    ∃ s : ℝ, 0 < s ∧ Ideal.rsqrt x = (s : EReal) := by
  subst hx
  exact ⟨_, inv_pos.2 (Real.sqrt_pos.2 hr), rsqrt_coe_of_pos hr⟩

/-- A choice between two reals is a real. -/
theorem IsReal.ite {p : Prop} [Decidable p] {x y : EReal} (hx : IsReal x) (hy : IsReal y) :
    IsReal (if p then x else y) := by
  split_ifs
  · exact hx
  · exact hy

/-- The mean of the squares of finitely many reals (their sum of squares divided by a positive real `n`)
    is a nonnegative real. -/
theorem sum_sq_div_nonneg {ι : Type*} [Fintype ι] (y : ι → EReal) (hy : ∀ i, IsReal (y i)) (n : ℝ) (hn : 0 < n) :
    ∃ r : ℝ, 0 ≤ r ∧ Ideal.div (∑ i, y i * y i) (n : EReal) = (r : EReal) := by
  choose a ha using hy
  obtain rfl : y = fun i => ((a i : ℝ) : EReal) := funext ha
  refine ⟨(∑ i, a i * a i) / n, div_nonneg (Finset.sum_nonneg fun i _ => mul_self_nonneg (a i)) hn.le, ?_⟩
  simp only [← EReal.coe_mul, coe_finset_sum]
  exact div_coe_coe _ hn.ne'

/-- The mean of the squares of finitely many reals plus a positive real `ε` is a positive real: the argument
    of a normalisation's reciprocal square root is never zero, negative or infinite on real data. -/
theorem var_add_eps_pos {ι : Type*} [Fintype ι] (y : ι → EReal) (hy : ∀ i, IsReal (y i)) (n ε : ℝ) (hn : 0 < n)
    (hε : 0 < ε) : ∃ r : ℝ, 0 < r ∧ Ideal.div (∑ i, y i * y i) (n : EReal) + (ε : EReal) = (r : EReal) := by
  obtain ⟨r, hr0, hr⟩ := sum_sq_div_nonneg y hy n hn
  exact ⟨r + ε, by linarith, by rw [hr, EReal.coe_add]⟩

end Idealize.ShloMosaic.RealClosure

end
-- ==== Proof.LibSoftmaxPair.lean ====
/-
  The softmax of two real numbers is the logistic function of their difference.

  For real numbers `a`, `b` and any real shift `M` (a softmax subtracts the running maximum before it
  exponentiates, but the value does not depend on what is subtracted):

    e^{a−M} / (e^{a−M} + e^{b−M}) = 1 / (1 + e^{−(a−b)}),      e^{b−M} / (e^{a−M} + e^{b−M}) = 1 − 1 / (1 + e^{−(a−b)}).

  Indeed `e^{b−M} = e^{a−M} · e^{−(a−b)}`, so the denominator is `e^{a−M} (1 + e^{−(a−b)})` and the positive
  factor `e^{a−M}` cancels; the two quotients add up to one. Cancelling is an identity of real numbers
  (on the extended reals `∞ / ∞` is not one), so the statements are about extended reals each of which
  is a real, with the ideal float operations `Ideal.exp`, `Ideal.div`, `Ideal.logistic`. The denominator
  is also given in the two shapes a sum that starts from the initial value zero takes. Also here: the
  maximum of two reals, folded from the initial value minus infinity, is the real maximum.
-/
import proofs.«167917_j22402549416514_2_alg».proof.Proof.LibRealClosure

noncomputable section

namespace Idealize.ShloMosaic.SoftmaxPair

open Idealize.ShloMosaic.RealClosure

/-- On the reals: `e^{a−M} / (e^{a−M} + e^{b−M}) = 1 / (1 + e^{−(a−b)})`, since
    `e^{b−M} = e^{a−M} e^{−(a−b)}` and the factor `e^{a−M} ≠ 0` cancels. -/
theorem real_softmax_left (a b M : ℝ) :
    Real.exp (a - M) / (Real.exp (a - M) + Real.exp (b - M)) = (1 + Real.exp (-(a - b)))⁻¹ := by
  have h : Real.exp (b - M) = Real.exp (a - M) * Real.exp (-(a - b)) := by
    rw [← Real.exp_add]
    congr 1
    ring
  have hp : Real.exp (a - M) ≠ 0 := Real.exp_ne_zero _
  rw [h, ← mul_one_add, div_mul_eq_div_div, div_self hp, one_div]

/-- On the reals: `e^{b−M} / (e^{a−M} + e^{b−M}) = 1 − 1 / (1 + e^{−(a−b)})`: the two quotients add up to one. -/
theorem real_softmax_right (a b M : ℝ) :
    Real.exp (b - M) / (Real.exp (a - M) + Real.exp (b - M)) = 1 - (1 + Real.exp (-(a - b)))⁻¹ := by
  have hs : Real.exp (a - M) + Real.exp (b - M) ≠ 0 := by positivity
  rw [← real_softmax_left a b M, eq_sub_iff_add_eq, ← add_div, add_comm (Real.exp (b - M)), div_self hs]

/-- The first weight of the softmax of two reals, shifted by any real `M`, is the logistic of their difference. -/
theorem softmax_left_coe (a b M : ℝ) :
    Ideal.div (Ideal.exp ((a : EReal) - (M : EReal)))
        (Ideal.exp ((a : EReal) - (M : EReal)) + Ideal.exp ((b : EReal) - (M : EReal)))
      = Ideal.logistic ((a : EReal) - (b : EReal)) := by
  have hs : Real.exp (a - M) + Real.exp (b - M) ≠ 0 := by positivity
  simp only [← EReal.coe_sub, Ideal.exp_coe, ← EReal.coe_add, Ideal.logistic_coe]
  rw [div_coe_coe _ hs, real_softmax_left]

/-- The second weight of the softmax of two reals, shifted by any real `M`, is one minus the logistic of their
    difference. -/
theorem softmax_right_coe (a b M : ℝ) :
    Ideal.div (Ideal.exp ((b : EReal) - (M : EReal)))
        (Ideal.exp ((a : EReal) - (M : EReal)) + Ideal.exp ((b : EReal) - (M : EReal)))
      = (1 : EReal) - Ideal.logistic ((a : EReal) - (b : EReal)) := by
  have hs : Real.exp (a - M) + Real.exp (b - M) ≠ 0 := by positivity
  simp only [← EReal.coe_sub, Ideal.exp_coe, ← EReal.coe_add, Ideal.logistic_coe]
  rw [div_coe_coe _ hs, real_softmax_right, ← EReal.coe_one, ← EReal.coe_sub]

/-- The first softmax weight of two reals is the logistic of their difference. -/
theorem softmax_left {x y m : EReal} (hx : IsReal x) (hy : IsReal y) (hm : IsReal m) :
    Ideal.div (Ideal.exp (x - m)) (Ideal.exp (x - m) + Ideal.exp (y - m)) = Ideal.logistic (x - y) := by
  obtain ⟨a, rfl⟩ := hx
  obtain ⟨b, rfl⟩ := hy
  obtain ⟨M, rfl⟩ := hm
  exact softmax_left_coe a b M

/-- The second softmax weight of two reals is one minus the logistic of their difference. -/
theorem softmax_right {x y m : EReal} (hx : IsReal x) (hy : IsReal y) (hm : IsReal m) :
    Ideal.div (Ideal.exp (y - m)) (Ideal.exp (x - m) + Ideal.exp (y - m)) = (1 : EReal) - Ideal.logistic (x - y) := by
  obtain ⟨a, rfl⟩ := hx
  obtain ⟨b, rfl⟩ := hy
  obtain ⟨M, rfl⟩ := hm
  exact softmax_right_coe a b M

/-- The first softmax weight, the denominator a sum that starts from zero: `0 + (e^{x−m} + e^{y−m})`. -/
theorem softmax_left_zero_add {x y m : EReal} (hx : IsReal x) (hy : IsReal y) (hm : IsReal m) :
    Ideal.div (Ideal.exp (x - m)) ((0 : EReal) + (Ideal.exp (x - m) + Ideal.exp (y - m))) = Ideal.logistic (x - y) := by
  rw [zero_add]
  exact softmax_left hx hy hm

/-- The second softmax weight, the denominator a sum that starts from zero: `0 + (e^{x−m} + e^{y−m})`. -/
theorem softmax_right_zero_add {x y m : EReal} (hx : IsReal x) (hy : IsReal y) (hm : IsReal m) :
    Ideal.div (Ideal.exp (y - m)) ((0 : EReal) + (Ideal.exp (x - m) + Ideal.exp (y - m)))
      = (1 : EReal) - Ideal.logistic (x - y) := by
  rw [zero_add]
  exact softmax_right hx hy hm

/-- The first softmax weight, the denominator folded from zero on the left: `(0 + e^{x−m}) + e^{y−m}`. -/
theorem softmax_left_zero_add' {x y m : EReal} (hx : IsReal x) (hy : IsReal y) (hm : IsReal m) :
    Ideal.div (Ideal.exp (x - m)) (((0 : EReal) + Ideal.exp (x - m)) + Ideal.exp (y - m)) = Ideal.logistic (x - y) := by
  rw [zero_add]
  exact softmax_left hx hy hm

/-- The second softmax weight, the denominator folded from zero on the left: `(0 + e^{x−m}) + e^{y−m}`. -/
theorem softmax_right_zero_add' {x y m : EReal} (hx : IsReal x) (hy : IsReal y) (hm : IsReal m) :
    Ideal.div (Ideal.exp (y - m)) (((0 : EReal) + Ideal.exp (x - m)) + Ideal.exp (y - m))
      = (1 : EReal) - Ideal.logistic (x - y) := by
  rw [zero_add]
  exact softmax_right hx hy hm

/-- The first softmax weight of two coerced reals, denominator `0 + (e^{a−M} + e^{b−M})`. -/
theorem softmax_left_coe_zero_add (a b M : ℝ) :
    Ideal.div (Ideal.exp ((a : EReal) - (M : EReal)))
        ((0 : EReal) + (Ideal.exp ((a : EReal) - (M : EReal)) + Ideal.exp ((b : EReal) - (M : EReal))))
      = Ideal.logistic ((a : EReal) - (b : EReal)) :=
  softmax_left_zero_add (isReal_coe a) (isReal_coe b) (isReal_coe M)

/-- The second softmax weight of two coerced reals, denominator `0 + (e^{a−M} + e^{b−M})`. -/
theorem softmax_right_coe_zero_add (a b M : ℝ) :
    Ideal.div (Ideal.exp ((b : EReal) - (M : EReal)))
        ((0 : EReal) + (Ideal.exp ((a : EReal) - (M : EReal)) + Ideal.exp ((b : EReal) - (M : EReal))))
      = (1 : EReal) - Ideal.logistic ((a : EReal) - (b : EReal)) :=
  softmax_right_zero_add (isReal_coe a) (isReal_coe b) (isReal_coe M)

/-- The first softmax weight of two coerced reals, denominator `(0 + e^{a−M}) + e^{b−M}`. -/
theorem softmax_left_coe_zero_add' (a b M : ℝ) :
    Ideal.div (Ideal.exp ((a : EReal) - (M : EReal)))
        (((0 : EReal) + Ideal.exp ((a : EReal) - (M : EReal))) + Ideal.exp ((b : EReal) - (M : EReal)))
      = Ideal.logistic ((a : EReal) - (b : EReal)) :=
  softmax_left_zero_add' (isReal_coe a) (isReal_coe b) (isReal_coe M)

/-- The second softmax weight of two coerced reals, denominator `(0 + e^{a−M}) + e^{b−M}`. -/
theorem softmax_right_coe_zero_add' (a b M : ℝ) :
    Ideal.div (Ideal.exp ((b : EReal) - (M : EReal)))
        (((0 : EReal) + Ideal.exp ((a : EReal) - (M : EReal))) + Ideal.exp ((b : EReal) - (M : EReal)))
      = (1 : EReal) - Ideal.logistic ((a : EReal) - (b : EReal)) :=
  softmax_right_zero_add' (isReal_coe a) (isReal_coe b) (isReal_coe M)

/-- The maximum of two reals folded from minus infinity, `max ⊥ (max a b)`, is the real maximum. -/
theorem max_bot_max_coe (a b : ℝ) : max (⊥ : EReal) (max (a : EReal) (b : EReal)) = ((max a b : ℝ) : EReal) := by
  rw [max_eq_right bot_le, max_coe]

/-- The maximum of two reals folded from minus infinity on the left, `max (max ⊥ a) b`, is the real maximum. -/
theorem max_max_bot_coe (a b : ℝ) : max (max (⊥ : EReal) (a : EReal)) (b : EReal) = ((max a b : ℝ) : EReal) := by
  rw [max_eq_right bot_le, max_coe]

/-- The maximum of two reals folded from minus infinity, `max ⊥ (max x y)`, is a real. -/
theorem isReal_max_bot_max {x y : EReal} (hx : IsReal x) (hy : IsReal y) : IsReal (max (⊥ : EReal) (max x y)) := by
  obtain ⟨a, rfl⟩ := hx
  obtain ⟨b, rfl⟩ := hy
  exact ⟨_, max_bot_max_coe a b⟩

/-- The maximum of two reals folded from minus infinity on the left, `max (max ⊥ x) y`, is a real. -/
theorem isReal_max_max_bot {x y : EReal} (hx : IsReal x) (hy : IsReal y) : IsReal (max (max (⊥ : EReal) x) y) := by
  obtain ⟨a, rfl⟩ := hx
  obtain ⟨b, rfl⟩ := hy
  exact ⟨_, max_max_bot_coe a b⟩

/-- Folding a maximum from minus infinity changes nothing: `max ⊥ x = x`. -/
theorem max_bot_left (x : EReal) : max (⊥ : EReal) x = x := max_eq_right bot_le

end Idealize.ShloMosaic.SoftmaxPair

end
-- ==== Proof.RefRead12.lean ====
/-
  The reference program's fusion stage, read at an entry.

  The last stage of the reference scores each row of two tables with one small attention head — a dense layer, the
  leaky rectifier, an inner product with the head's vector —, sets the two score columns side by side, takes the
  softmax of each row's two scores (shifted by the row's maximum, which is folded from minus infinity) and adds to the
  content array the two tables' rows weighted by the two softmax weights. A softmax of two real numbers is the logistic
  function of their difference and one minus it, whatever real shift is subtracted first, so for real scores the
  stage's result at an entry is the content's entry plus the mixture of the two tables' entries weighted by the logistic
  function of the difference of the rows' scores: the same scalar functions (Spec.lean) another program computing the
  fusion can be read as.
-/
import proofs.«167917_j22402549416514_2_alg».proof.Proof.RefReadKit
import proofs.«167917_j22402549416514_2_alg».proof.Proof.Spec
import proofs.«167917_j22402549416514_2_alg».proof.Proof.LibSoftmaxPair
import Idealize.ShloMosaic.Lib.Pipeline.Value
import Idealize.ShloMosaic.Lib.ValueLayout

noncomputable section

namespace Cert.ReferenceIdeal.RefRun

open Cert.ReferenceIdeal Cert.ReferenceIdeal.Gen Idealize.ShloMosaic Idealize.ShloMosaic.TcCoe Idealize.SL.Sem Idealize.ShloMosaic.StableHlo

open Idealize.ShloMosaic.ValueIdx Idealize.ShloMosaic.RealClosure
open scoped BigOperators

/-! ## Columns: the layout operations of a two-way softmax over the rows of a matrix, read at an entry -/

section ColumnKit
variable {α : Type} {m n : Nat}

/-- A column laid along every column of a matrix reads, at an entry, the column at the row. -/
theorem colBcast_apply (C : (⟨2, ![m, 1]⟩ : Shape).Idx → α) (h : (⟨2, ![m, 1]⟩ : Shape).BroadcastsInDim ⟨2, ![m, n]⟩ ![0, 1])
    (r : Fin m) (q : Fin n) : broadcastInDim ⟨2, ![m, n]⟩ ![0, 1] h C (ix2 r q) = C (ix2 r (0 : Fin 1)) := by
  refine broadcastInDim_apply ![0, 1] h C (ix2 r q) (ix2 r (0 : Fin 1)) ?_
  intro a
  fin_cases a
  · show r.val = if m = 1 then 0 else r.val
    split_ifs with hm
    · have := r.isLt; omega
    · rfl
  · rfl

/-- A vector stood up as a column reads, at an entry, the vector at the row. -/
theorem vecCol_apply (C : (⟨1, ![m]⟩ : Shape).Idx → α) (h : (⟨1, ![m]⟩ : Shape).BroadcastsInDim ⟨2, ![m, 1]⟩ ![0])
    (r : Fin m) (u : Fin 1) : broadcastInDim ⟨2, ![m, 1]⟩ ![0] h C (ix2 r u) = C (ix1 r) := by
  refine broadcastInDim_apply ![0] h C (ix2 r u) (ix1 r) ?_
  intro a
  fin_cases a
  show r.val = if m = 1 then 0 else r.val
  split_ifs with hm
  · have := r.isLt; omega
  · rfl

/-- The first column of a two-column matrix, sliced out. -/
theorem colSlice0_apply (X : (⟨2, ![m, 2]⟩ : Shape).Idx → α) (h : (⟨2, ![m, 2]⟩ : Shape).Slices ![0, 0] ⟨2, ![m, 1]⟩)
    (r : Fin m) (u : Fin 1) : extractStridedSlice ⟨2, ![m, 1]⟩ ![0, 0] X h (ix2 r u) = X (ix2 r (0 : Fin 2)) := by
  refine extractStridedSlice_apply ![0, 0] X h (ix2 r u) (ix2 r (0 : Fin 2)) ?_
  intro a
  have hu : u.val = 0 := by omega
  fin_cases a
  · show r.val = 0 + r.val; omega
  · show 0 = 0 + u.val; omega

/-- The second column of a two-column matrix, sliced out. -/
theorem colSlice1_apply (X : (⟨2, ![m, 2]⟩ : Shape).Idx → α) (h : (⟨2, ![m, 2]⟩ : Shape).Slices ![0, 1] ⟨2, ![m, 1]⟩)
    (r : Fin m) (u : Fin 1) : extractStridedSlice ⟨2, ![m, 1]⟩ ![0, 1] X h (ix2 r u) = X (ix2 r (1 : Fin 2)) := by
  refine extractStridedSlice_apply ![0, 1] X h (ix2 r u) (ix2 r (1 : Fin 2)) ?_
  intro a
  have hu : u.val = 0 := by omega
  fin_cases a
  · show r.val = 0 + r.val; omega
  · show 1 = 1 + u.val; omega

/-- Two columns set side by side: the first column of the result is the first piece. -/
theorem concatCols_left (a b : (⟨2, ![m, 1]⟩ : Shape).Idx → α)
    (h : Shape.Concatenates [(⟨2, ![m, 1]⟩ : Shape), (⟨2, ![m, 1]⟩ : Shape)] ⟨2, ![m, 2]⟩ 1) (r : Fin m) :
    concatenate ⟨2, ![m, 2]⟩ 1 [⟨(⟨2, ![m, 1]⟩ : Shape), a⟩, ⟨(⟨2, ![m, 1]⟩ : Shape), b⟩] h (ix2 r (0 : Fin 2)) = a (ix2 r (0 : Fin 1)) :=
  concatenate_pair_apply_left 1 a b h (ix2 r (0 : Fin 2)) rfl (ix2 r (0 : Fin 1)) (fun c => by fin_cases c <;> rfl)

/-- Two columns set side by side: the second column of the result is the second piece. -/
theorem concatCols_right (a b : (⟨2, ![m, 1]⟩ : Shape).Idx → α)
    (h : Shape.Concatenates [(⟨2, ![m, 1]⟩ : Shape), (⟨2, ![m, 1]⟩ : Shape)] ⟨2, ![m, 2]⟩ 1) (r : Fin m) :
    concatenate ⟨2, ![m, 2]⟩ 1 [⟨(⟨2, ![m, 1]⟩ : Shape), a⟩, ⟨(⟨2, ![m, 1]⟩ : Shape), b⟩] h (ix2 r (1 : Fin 2)) = b (ix2 r (0 : Fin 1)) :=
  concatenate_pair_apply_right 1 a b h (ix2 r (1 : Fin 2)) rfl rfl (ix2 r (0 : Fin 1))
    (fun c hc => by
      fin_cases c
      · rfl
      · exact absurd rfl hc)
    rfl

/-- A sum over the two columns of a matrix reads, at a row, the initial value plus the sum of the row's two entries. -/
theorem rowReduce2_apply {u : Shape} (X : FVec Ideal ⟨2, ![m, 2]⟩ .f32) (init : u.Idx → Ideal .f32)
    (h' : (⟨2, ![m, 2]⟩ : Shape).ReducesTo [1] ⟨1, ![m]⟩) (h : (⟨2, ![m, 2]⟩ : Shape).Reduces [1] ⟨1, ![m]⟩)
    (hu : 0 < u.numel) (r : Fin m) :
    Host.reduceAdd X init h' hu (ix1 r)
      = init (Shape.Idx.first hu) + (X (ix2 r (0 : Fin 2)) + X (ix2 r (1 : Fin 2))) := by
  rw [hostReduceAdd_apply, Ideal.hostReduceAdd_single h' h]
  refine congrArg _ ?_
  show (∑ k : Fin 2, X (h.lift (ix1 r) k)) = _
  rw [Fin.sum_univ_two]
  refine congrArg₂ (· + ·) (congrArg X (funext fun a => Fin.ext ?_)) (congrArg X (funext fun a => Fin.ext ?_))
  · match a with
    | ⟨0, _⟩ => rfl
    | ⟨1, _⟩ => rfl
  · match a with
    | ⟨0, _⟩ => rfl
    | ⟨1, _⟩ => rfl

/-- A maximum over the two columns of a matrix reads, at a row, the maximum of the row's two entries and the initial
    value. -/
theorem rowMax2_apply {u : Shape} (X : FVec Ideal ⟨2, ![m, 2]⟩ .f32) (init : u.Idx → Ideal .f32)
    (h' : (⟨2, ![m, 2]⟩ : Shape).ReducesTo [1] ⟨1, ![m]⟩) (h : (⟨2, ![m, 2]⟩ : Shape).Reduces [1] ⟨1, ![m]⟩)
    (hu : 0 < u.numel) (r : Fin m) :
    Host.reduce FloatOps.maximumf X init h' hu (ix1 r)
      = max (X (ix2 r (0 : Fin 2))) (max (X (ix2 r (1 : Fin 2))) (init (Shape.Idx.first hu))) := by
  rw [Host.reduce_eq_fold_single FloatOps.maximumf X init h' h hu]
  show (Finset.univ : Finset (Fin 2)).fold max (init (Shape.Idx.first hu)) (X ∘ h.lift (ix1 r)) = _
  simp only [Fin.univ_succ, Finset.fold_cons, Finset.fold_map, Finset.univ_unique, Finset.fold_singleton]
  refine congrArg₂ max (congrArg X (funext fun a => Fin.ext ?_)) (congrArg₂ max (congrArg X (funext fun a => Fin.ext ?_)) rfl)
  · match a with
    | ⟨0, _⟩ => rfl
    | ⟨1, _⟩ => rfl
  · match a with
    | ⟨0, _⟩ => rfl
    | ⟨1, _⟩ => rfl

end ColumnKit

/-! ## The two-way softmax of two real scores -/

/-- The f32 word of minus infinity is the bottom of the extended reals. -/
theorem ofBits_neg_inf : Ideal.ofBits .f32 0xFF800000#32 = (⊥ : EReal) := by
  simp [Ideal.ofBits, Ideal.ieee]

/-- The two softmax weights of two real scores, as the program computes them (the shift the maximum folded from minus
    infinity and capped below by minus infinity, the denominator a sum from zero), are the logistic function of the
    scores' difference and one minus it. -/
theorem softmax2 {s t : EReal} (hs : IsReal s) (ht : IsReal t) :
    Ideal.div (Ideal.exp (s - max (⊥ : EReal) (max s (max t ⊥))))
        (0 + (Ideal.exp (s - max (⊥ : EReal) (max s (max t ⊥))) + Ideal.exp (t - max (⊥ : EReal) (max s (max t ⊥)))))
      = Cert.Spec.mixWeight s t
    ∧ Ideal.div (Ideal.exp (t - max (⊥ : EReal) (max s (max t ⊥))))
        (0 + (Ideal.exp (s - max (⊥ : EReal) (max s (max t ⊥))) + Ideal.exp (t - max (⊥ : EReal) (max s (max t ⊥)))))
      = Ideal.ofBits .f32 0x3F800000#32 - Cert.Spec.mixWeight s t := by
  have hM : IsReal (max (⊥ : EReal) (max s (max t ⊥))) := by
    rw [max_eq_right bot_le, max_eq_left (bot_le : (⊥ : EReal) ≤ t)]
    exact hs.max ht
  refine ⟨SoftmaxPair.softmax_left_zero_add hs ht hM, ?_⟩
  rw [Ideal.ofBits_one_f32]
  exact SoftmaxPair.softmax_right_zero_add hs ht hM

/-! ## The fusion stage, read at an entry -/

/-- The first table's score column at a row: the score of the table's row under the attention head. -/
theorem v264_apply (W : Valuation τ sig (Elt Ideal)) (r : Fin 70000) :
    rd2 (R W main_v264) r (0 : Fin 1)
      = Cert.Spec.score (fun k : Fin 64 => rd2 (R W main_v251) r k) (fun (q k : Fin 64) => rd2 (W (main_arg36 : DevRef τ sig)) q k)
        (fun q : Fin 64 => rd1 (W (main_arg37 : DevRef τ sig)) q) (fun q : Fin 64 => rd2 (W (main_arg38 : DevRef τ sig)) (0 : Fin 1) q) := by
  have eo : R W main_v264 = after ops12 (V12 W) (main_v264 : DevRef τ sig) := R_eq_V13 _ W
  have et : R W main_v251 = after ops12 (V12 W) (main_v251 : DevRef τ sig) := R_eq_V13 _ W
  have i36 : V12 W (main_arg36 : DevRef τ sig) = W (main_arg36 : DevRef τ sig) :=
    (R_eq_V12 (by decide +kernel) W).symm.trans (arg36_eq W)
  have i37 : V12 W (main_arg37 : DevRef τ sig) = W (main_arg37 : DevRef τ sig) :=
    (R_eq_V12 (by decide +kernel) W).symm.trans (arg37_eq W)
  have i38 : V12 W (main_arg38 : DevRef τ sig) = W (main_arg38 : DevRef τ sig) :=
    (R_eq_V12 (by decide +kernel) W).symm.trans (arg38_eq W)
  rw [eo, et]
  generalize V12 W = V at *
  after_results_simp
  try dsimp only [TRef.ofBuf, TRef.toBuf]
  try simp only [cast_eq]
  simp only [i36, i37, i38]
  simp only [rd2, rd1, addf_apply, mulf_apply, select_apply, cmpf_apply, Ideal.cmpf_def, rowBcast_apply (m := 70000) (n := 64),
    broadcastInDim_scalar_apply (T := S70000x64), constant_apply,
    dotPlain_apply (m := 70000) (k := 64) (n := 64) _ (show dot_S70000x64_S64x64_S70000x64_1_0_0_1_n_n = DotDims.plain 70000 64 64 from rfl),
    dotPlain_apply (m := 70000) (k := 64) (n := 1) _ (show dot_S70000x64_S64x1_S70000x1_1_0_0_1_n_n = DotDims.plain 70000 64 1 from rfl),
    transpose2_apply (n := 64) (k := 64), transpose2_apply (n := 1) (k := 64)]
  rfl

/-- The second table's score column at a row: the score of the table's row under the attention head. -/
theorem v276_apply (W : Valuation τ sig (Elt Ideal)) (r : Fin 70000) :
    rd2 (R W main_v276) r (0 : Fin 1)
      = Cert.Spec.score (fun k : Fin 64 => rd2 (R W main_v252) r k) (fun (q k : Fin 64) => rd2 (W (main_arg36 : DevRef τ sig)) q k)
        (fun q : Fin 64 => rd1 (W (main_arg37 : DevRef τ sig)) q) (fun q : Fin 64 => rd2 (W (main_arg38 : DevRef τ sig)) (0 : Fin 1) q) := by
  have eo : R W main_v276 = after ops12 (V12 W) (main_v276 : DevRef τ sig) := R_eq_V13 _ W
  have et : R W main_v252 = after ops12 (V12 W) (main_v252 : DevRef τ sig) := R_eq_V13 _ W
  have i36 : V12 W (main_arg36 : DevRef τ sig) = W (main_arg36 : DevRef τ sig) :=
    (R_eq_V12 (by decide +kernel) W).symm.trans (arg36_eq W)
  have i37 : V12 W (main_arg37 : DevRef τ sig) = W (main_arg37 : DevRef τ sig) :=
    (R_eq_V12 (by decide +kernel) W).symm.trans (arg37_eq W)
  have i38 : V12 W (main_arg38 : DevRef τ sig) = W (main_arg38 : DevRef τ sig) :=
    (R_eq_V12 (by decide +kernel) W).symm.trans (arg38_eq W)
  rw [eo, et]
  generalize V12 W = V at *
  after_results_simp
  try dsimp only [TRef.ofBuf, TRef.toBuf]
  try simp only [cast_eq]
  simp only [i36, i37, i38]
  simp only [rd2, rd1, addf_apply, mulf_apply, select_apply, cmpf_apply, Ideal.cmpf_def, rowBcast_apply (m := 70000) (n := 64),
    broadcastInDim_scalar_apply (T := S70000x64), constant_apply,
    dotPlain_apply (m := 70000) (k := 64) (n := 64) _ (show dot_S70000x64_S64x64_S70000x64_1_0_0_1_n_n = DotDims.plain 70000 64 64 from rfl),
    dotPlain_apply (m := 70000) (k := 64) (n := 1) _ (show dot_S70000x64_S64x1_S70000x1_1_0_0_1_n_n = DotDims.plain 70000 64 1 from rfl),
    transpose2_apply (n := 64) (k := 64), transpose2_apply (n := 1) (k := 64)]
  rfl

/-- The two score columns side by side: the first column is the first table's scores. -/
theorem v277_apply0 (W : Valuation τ sig (Elt Ideal)) (r : Fin 70000) :
    rd2 (R W main_v277) r (0 : Fin 2) = rd2 (R W main_v264) r (0 : Fin 1) := by
  have e1 : R W main_v277 = after ops12 (V12 W) (main_v277 : DevRef τ sig) := R_eq_V13 _ W
  have e2 : R W main_v264 = after ops12 (V12 W) (main_v264 : DevRef τ sig) := R_eq_V13 _ W
  rw [e1, e2]
  generalize V12 W = V at *
  after_results_simp
  try dsimp only [TRef.ofBuf, TRef.toBuf]
  try simp only [cast_eq]
  simp only [rd2, concatCols_left (m := 70000)]
  after_results_simp
  try dsimp only [TRef.ofBuf, TRef.toBuf]
  try simp only [cast_eq]

/-- The two score columns side by side: the second column is the second table's scores. -/
theorem v277_apply1 (W : Valuation τ sig (Elt Ideal)) (r : Fin 70000) :
    rd2 (R W main_v277) r (1 : Fin 2) = rd2 (R W main_v276) r (0 : Fin 1) := by
  have e1 : R W main_v277 = after ops12 (V12 W) (main_v277 : DevRef τ sig) := R_eq_V13 _ W
  have e2 : R W main_v276 = after ops12 (V12 W) (main_v276 : DevRef τ sig) := R_eq_V13 _ W
  rw [e1, e2]
  generalize V12 W = V at *
  after_results_simp
  try dsimp only [TRef.ofBuf, TRef.toBuf]
  try simp only [cast_eq]
  simp only [rd2, concatCols_right (m := 70000)]
  after_results_simp
  try dsimp only [TRef.ofBuf, TRef.toBuf]
  try simp only [cast_eq]

/-- The softmax over the two columns at an entry: the exponential of the entry less the row's maximum (folded from minus
    infinity and capped below by it), over the sum, from zero, of the row's two such exponentials. -/
theorem v288_apply (W : Valuation τ sig (Elt Ideal)) (r : Fin 70000) (c : Fin 2) :
    rd2 (R W main_v288) r c
      = Ideal.div (Ideal.exp (rd2 (R W main_v277) r c
            - max (⊥ : EReal) (max (rd2 (R W main_v277) r (0 : Fin 2)) (max (rd2 (R W main_v277) r (1 : Fin 2)) ⊥))))
          (0 + (Ideal.exp (rd2 (R W main_v277) r (0 : Fin 2)
              - max (⊥ : EReal) (max (rd2 (R W main_v277) r (0 : Fin 2)) (max (rd2 (R W main_v277) r (1 : Fin 2)) ⊥)))
            + Ideal.exp (rd2 (R W main_v277) r (1 : Fin 2)
              - max (⊥ : EReal) (max (rd2 (R W main_v277) r (0 : Fin 2)) (max (rd2 (R W main_v277) r (1 : Fin 2)) ⊥))))) := by
  have e1 : R W main_v288 = after ops12 (V12 W) (main_v288 : DevRef τ sig) := R_eq_V13 _ W
  have e2 : R W main_v277 = after ops12 (V12 W) (main_v277 : DevRef τ sig) := R_eq_V13 _ W
  rw [e1, e2]
  generalize V12 W = V at *
  after_results_simp
  try dsimp only [TRef.ofBuf, TRef.toBuf]
  try simp only [cast_eq]
  simp only [rd2, subf_apply, maximumf_apply, hostDivf_apply, hostExp_apply, colBcast_apply (m := 70000) (n := 2),
    vecCol_apply (m := 70000), rowReduce2_apply (m := 70000) (h := by decide), rowMax2_apply (m := 70000) (h := by decide),
    broadcastInDim_scalar_apply (T := S70000), constant_apply, ofBits_neg_inf, Ideal.ofBits_zero_f32]

/-- The fused array at an entry: the content's entry plus the two tables' entries weighted by the row's two softmax
    weights. -/
theorem v296_raw (W : Valuation τ sig (Elt Ideal)) (r : Fin 70000) (j : Fin 64) :
    rd2 (R W main_v296) r j
      = rd2 (R W main_v30) r j + (rd2 (R W main_v288) r (0 : Fin 2) * rd2 (R W main_v251) r j
          + rd2 (R W main_v288) r (1 : Fin 2) * rd2 (R W main_v252) r j) := by
  have e1 : R W main_v296 = after ops12 (V12 W) (main_v296 : DevRef τ sig) := R_eq_V13 _ W
  have e2 : R W main_v288 = after ops12 (V12 W) (main_v288 : DevRef τ sig) := R_eq_V13 _ W
  have e3 : R W main_v251 = after ops12 (V12 W) (main_v251 : DevRef τ sig) := R_eq_V13 _ W
  have e4 : R W main_v252 = after ops12 (V12 W) (main_v252 : DevRef τ sig) := R_eq_V13 _ W
  have e5 : R W main_v30 = V12 W (main_v30 : DevRef τ sig) := R_eq_V12 (by decide +kernel) W
  rw [e1, e2, e3, e4, e5]
  generalize V12 W = V at *
  after_results_simp
  try dsimp only [TRef.ofBuf, TRef.toBuf]
  try simp only [cast_eq]
  simp only [rd2, addf_apply, mulf_apply, colBcast_apply (m := 70000) (n := 64), colSlice0_apply (m := 70000),
    colSlice1_apply (m := 70000)]

/-- THE FUSION STAGE at an entry, for real scores: the content's entry plus the mixture of the two tables' entries, the
    first weighted by the logistic function of the difference of the two rows' scores under the attention head. -/
theorem v296_apply (W : Valuation τ sig (Elt Ideal))
    (hs : ∀ r : Fin 70000, IsReal (Cert.Spec.score (fun k : Fin 64 => rd2 (R W main_v251) r k) (fun (q k : Fin 64) => rd2 (W (main_arg36 : DevRef τ sig)) q k)
        (fun q : Fin 64 => rd1 (W (main_arg37 : DevRef τ sig)) q) (fun q : Fin 64 => rd2 (W (main_arg38 : DevRef τ sig)) (0 : Fin 1) q))
      ∧ IsReal (Cert.Spec.score (fun k : Fin 64 => rd2 (R W main_v252) r k) (fun (q k : Fin 64) => rd2 (W (main_arg36 : DevRef τ sig)) q k)
        (fun q : Fin 64 => rd1 (W (main_arg37 : DevRef τ sig)) q) (fun q : Fin 64 => rd2 (W (main_arg38 : DevRef τ sig)) (0 : Fin 1) q)))
    (r : Fin 70000) (j : Fin 64) :
    rd2 (R W main_v296) r j
      = rd2 (R W main_v30) r j + Cert.Spec.mix
          (Cert.Spec.mixWeight
            (Cert.Spec.score (fun k : Fin 64 => rd2 (R W main_v251) r k) (fun (q k : Fin 64) => rd2 (W (main_arg36 : DevRef τ sig)) q k)
        (fun q : Fin 64 => rd1 (W (main_arg37 : DevRef τ sig)) q) (fun q : Fin 64 => rd2 (W (main_arg38 : DevRef τ sig)) (0 : Fin 1) q))
            (Cert.Spec.score (fun k : Fin 64 => rd2 (R W main_v252) r k) (fun (q k : Fin 64) => rd2 (W (main_arg36 : DevRef τ sig)) q k)
        (fun q : Fin 64 => rd1 (W (main_arg37 : DevRef τ sig)) q) (fun q : Fin 64 => rd2 (W (main_arg38 : DevRef τ sig)) (0 : Fin 1) q)))
          (rd2 (R W main_v251) r j) (rd2 (R W main_v252) r j) := by
  obtain ⟨h1, h2⟩ := hs r
  obtain ⟨w1, w2⟩ := softmax2 h1 h2
  rw [v296_raw, v288_apply, v288_apply, v277_apply0, v277_apply1, v264_apply, v276_apply, w1, w2]
  rfl

end Cert.ReferenceIdeal.RefRun

end
-- ==== Proof.Bridge1.lean ====
import proofs.«167917_j22402549416514_2_alg».proof.Proof.KI.Chain
import proofs.«167917_j22402549416514_2_alg».proof.Proof.KI.Value1
import proofs.«167917_j22402549416514_2_alg».proof.Proof.KI.Value3
import proofs.«167917_j22402549416514_2_alg».proof.Proof.KI.Value5
import proofs.«167917_j22402549416514_2_alg».proof.Proof.KI.Value7
import proofs.«167917_j22402549416514_2_alg».proof.Proof.KI.Value8
import proofs.«167917_j22402549416514_2_alg».proof.Proof.KI.Value9
import proofs.«167917_j22402549416514_2_alg».proof.Proof.KI.Value10
import proofs.«167917_j22402549416514_2_alg».proof.Proof.RefRead1
import proofs.«167917_j22402549416514_2_alg».proof.Proof.RefRead12
import proofs.«167917_j22402549416514_2_alg».proof.Proof.LibRealClosure
import Idealize.ShloMosaic.Lib.ValueIdx

set_option maxRecDepth 16384

noncomputable section

namespace Cert.Bridge

open Idealize.ShloMosaic Idealize.ShloMosaic.TcCoe Idealize.ShloMosaic.ValueIdx Idealize.SL.Sem
open Idealize.ShloMosaic.StableHlo
open Cert.ReferenceIdeal.RefRun (R rd1 rd2)
open scoped BigOperators

/-! # The bridge: every array a kernel region leaves equals, entry by entry, the reference buffer that holds the same
    quantity. `m` is the kernel program's launch memory, `W'` the reference's launch contents; they agree on the arguments. -/

variable (m : (ℓ : Loc Cert.KernelIdeal.nD Cert.KernelIdeal.τ Cert.KernelIdeal.sig) → Buf (Elt Ideal) ℓ) (ρ : Dev Cert.KernelIdeal.nD → PrngReg)
variable (c : Dev Cert.KernelIdeal.nD)
variable (W' : Valuation Cert.ReferenceIdeal.τ Cert.ReferenceIdeal.sig (Elt Ideal))

set_option maxHeartbeats 1000000
open Idealize.ShloMosaic.RealClosure

/-- The image branch's first normalisation: the kernel's output rows are the reference's, given that the linear layer's rows and its batch mean and variance agree and the gain and bias vectors are the same arguments. -/
theorem norm_img
    (hlin : ∀ (r : Fin 40000) (q : Fin 64), ((Cert.KernelIdeal.Regions.dat0 (Cert.KernelIdeal.Regions.VE0 m ρ) c).arrAt 3 Cert.KernelIdeal.cfg0.N : Cert.KernelIdeal.S40000x64.Idx → EReal) (ix2 r q) = rd2 (R W' Cert.ReferenceIdeal.main_v35) r q)
    (hmean : ∀ q : Fin 64, ((Cert.KernelIdeal.Regions.dat0 (Cert.KernelIdeal.Regions.VE0 m ρ) c).arrAt 4 Cert.KernelIdeal.cfg0.N : Cert.KernelIdeal.S2x64.Idx → EReal) (ix2 (0 : Fin 2) q) = rd1 (R W' Cert.ReferenceIdeal.main_v38) q)
    (hvar : ∀ q : Fin 64, ((Cert.KernelIdeal.Regions.dat0 (Cert.KernelIdeal.Regions.VE0 m ρ) c).arrAt 4 Cert.KernelIdeal.cfg0.N : Cert.KernelIdeal.S2x64.Idx → EReal) (ix2 (1 : Fin 2) q) = rd1 (R W' Cert.ReferenceIdeal.main_v39) q)
    (hg : ∀ q : Fin 64, (m ((c : Thread Cert.KernelIdeal.nD Cert.KernelIdeal.τ).loc Cert.KernelIdeal.main_arg18) : Cert.KernelIdeal.S64.Idx → EReal) (ix1 q) = rd1 (W' (Cert.ReferenceIdeal.main_arg18 : DevRef Cert.ReferenceIdeal.τ Cert.ReferenceIdeal.sig)) q)
    (hb : ∀ q : Fin 64, (m ((c : Thread Cert.KernelIdeal.nD Cert.KernelIdeal.τ).loc Cert.KernelIdeal.main_arg19) : Cert.KernelIdeal.S64.Idx → EReal) (ix1 q) = rd1 (W' (Cert.ReferenceIdeal.main_arg19 : DevRef Cert.ReferenceIdeal.τ Cert.ReferenceIdeal.sig)) q)
    (r : Fin 40000) (q : Fin 64) :
    ((Cert.KernelIdeal.Regions.dat1 (Cert.KernelIdeal.Regions.VE1 m ρ) c).arrAt 4 Cert.KernelIdeal.cfg1.N : Cert.KernelIdeal.S40000x64.Idx → EReal) (ix2 r q) = rd2 (R W' Cert.ReferenceIdeal.main_v59) r q := by
  have h0 : (Cert.KernelIdeal.Regions.VE1 m ρ c (Pipeline.arrRef Cert.KernelIdeal.spec1 0) : Cert.KernelIdeal.S40000x64.Idx → EReal) (ix2 r q) = rd2 (R W' Cert.ReferenceIdeal.main_v35) r q :=
    (congrFun (Cert.KernelIdeal.Regions.in1_0 m ρ c) _).trans (hlin r q)
  have h1 : (Cert.KernelIdeal.Regions.VE1 m ρ c (Pipeline.arrRef Cert.KernelIdeal.spec1 1) : Cert.KernelIdeal.S2x64.Idx → EReal) (ix2 (0 : Fin 2) q) = rd1 (R W' Cert.ReferenceIdeal.main_v38) q :=
    (congrFun (Cert.KernelIdeal.Regions.in1_1 m ρ c) _).trans (hmean q)
  have h2 : (Cert.KernelIdeal.Regions.VE1 m ρ c (Pipeline.arrRef Cert.KernelIdeal.spec1 1) : Cert.KernelIdeal.S2x64.Idx → EReal) (ix2 (1 : Fin 2) q) = rd1 (R W' Cert.ReferenceIdeal.main_v39) q :=
    (congrFun (Cert.KernelIdeal.Regions.in1_1 m ρ c) _).trans (hvar q)
  have h3 : (Cert.KernelIdeal.Regions.VE1 m ρ c (Pipeline.arrRef Cert.KernelIdeal.spec1 2) : Cert.KernelIdeal.S1x64.Idx → EReal) (ix2 (0 : Fin 1) q) = rd1 (W' (Cert.ReferenceIdeal.main_arg18 : DevRef Cert.ReferenceIdeal.τ Cert.ReferenceIdeal.sig)) q :=
    (Cert.KernelIdeal.Regions.in1_2 m ρ c q).trans (hg q)
  have h4 : (Cert.KernelIdeal.Regions.VE1 m ρ c (Pipeline.arrRef Cert.KernelIdeal.spec1 3) : Cert.KernelIdeal.S1x64.Idx → EReal) (ix2 (0 : Fin 1) q) = rd1 (W' (Cert.ReferenceIdeal.main_arg19 : DevRef Cert.ReferenceIdeal.τ Cert.ReferenceIdeal.sig)) q :=
    (Cert.KernelIdeal.Regions.in1_3 m ρ c q).trans (hb q)
  refine (congrFun (Cert.KernelIdeal.Regions.final1 (Cert.KernelIdeal.Regions.VE1 m ρ) c) (ix2 r q)).trans ?_
  refine Eq.trans ?_ (Cert.ReferenceIdeal.RefRun.v59_apply W' r q).symm
  exact congrArg Cert.Spec.leaky (congr (congr (congr (congr (congrArg Cert.Spec.normAff h0) h1) h2) h3) h4)

/-- The image branch's second normalisation, with the first one's output added back after the rectifier. -/
theorem norm2_img
    (hlin : ∀ (r : Fin 40000) (q : Fin 64), ((Cert.KernelIdeal.Regions.dat2 (Cert.KernelIdeal.Regions.VE2 m ρ) c).arrAt 3 Cert.KernelIdeal.cfg2.N : Cert.KernelIdeal.S40000x64.Idx → EReal) (ix2 r q) = rd2 (R W' Cert.ReferenceIdeal.main_v64) r q)
    (hmean : ∀ q : Fin 64, ((Cert.KernelIdeal.Regions.dat2 (Cert.KernelIdeal.Regions.VE2 m ρ) c).arrAt 4 Cert.KernelIdeal.cfg2.N : Cert.KernelIdeal.S2x64.Idx → EReal) (ix2 (0 : Fin 2) q) = rd1 (R W' Cert.ReferenceIdeal.main_v67) q)
    (hvar : ∀ q : Fin 64, ((Cert.KernelIdeal.Regions.dat2 (Cert.KernelIdeal.Regions.VE2 m ρ) c).arrAt 4 Cert.KernelIdeal.cfg2.N : Cert.KernelIdeal.S2x64.Idx → EReal) (ix2 (1 : Fin 2) q) = rd1 (R W' Cert.ReferenceIdeal.main_v68) q)
    (hg : ∀ q : Fin 64, (m ((c : Thread Cert.KernelIdeal.nD Cert.KernelIdeal.τ).loc Cert.KernelIdeal.main_arg22) : Cert.KernelIdeal.S64.Idx → EReal) (ix1 q) = rd1 (W' (Cert.ReferenceIdeal.main_arg22 : DevRef Cert.ReferenceIdeal.τ Cert.ReferenceIdeal.sig)) q)
    (hb : ∀ q : Fin 64, (m ((c : Thread Cert.KernelIdeal.nD Cert.KernelIdeal.τ).loc Cert.KernelIdeal.main_arg23) : Cert.KernelIdeal.S64.Idx → EReal) (ix1 q) = rd1 (W' (Cert.ReferenceIdeal.main_arg23 : DevRef Cert.ReferenceIdeal.τ Cert.ReferenceIdeal.sig)) q)
    (hres : ∀ (r : Fin 40000) (q : Fin 64), ((Cert.KernelIdeal.Regions.dat1 (Cert.KernelIdeal.Regions.VE1 m ρ) c).arrAt 4 Cert.KernelIdeal.cfg1.N : Cert.KernelIdeal.S40000x64.Idx → EReal) (ix2 r q) = rd2 (R W' Cert.ReferenceIdeal.main_v59) r q)
    (r : Fin 40000) (q : Fin 64) :
    ((Cert.KernelIdeal.Regions.dat3 (Cert.KernelIdeal.Regions.VE3 m ρ) c).arrAt 5 Cert.KernelIdeal.cfg3.N : Cert.KernelIdeal.S40000x64.Idx → EReal) (ix2 r q) = rd2 (R W' Cert.ReferenceIdeal.main_v89) r q := by
  have h0 : (Cert.KernelIdeal.Regions.VE3 m ρ c (Pipeline.arrRef Cert.KernelIdeal.spec3 0) : Cert.KernelIdeal.S40000x64.Idx → EReal) (ix2 r q) = rd2 (R W' Cert.ReferenceIdeal.main_v64) r q :=
    (congrFun (Cert.KernelIdeal.Regions.in3_0 m ρ c) _).trans (hlin r q)
  have h1 : (Cert.KernelIdeal.Regions.VE3 m ρ c (Pipeline.arrRef Cert.KernelIdeal.spec3 1) : Cert.KernelIdeal.S2x64.Idx → EReal) (ix2 (0 : Fin 2) q) = rd1 (R W' Cert.ReferenceIdeal.main_v67) q :=
    (congrFun (Cert.KernelIdeal.Regions.in3_1 m ρ c) _).trans (hmean q)
  have h2 : (Cert.KernelIdeal.Regions.VE3 m ρ c (Pipeline.arrRef Cert.KernelIdeal.spec3 1) : Cert.KernelIdeal.S2x64.Idx → EReal) (ix2 (1 : Fin 2) q) = rd1 (R W' Cert.ReferenceIdeal.main_v68) q :=
    (congrFun (Cert.KernelIdeal.Regions.in3_1 m ρ c) _).trans (hvar q)
  have h3 : (Cert.KernelIdeal.Regions.VE3 m ρ c (Pipeline.arrRef Cert.KernelIdeal.spec3 2) : Cert.KernelIdeal.S1x64.Idx → EReal) (ix2 (0 : Fin 1) q) = rd1 (W' (Cert.ReferenceIdeal.main_arg22 : DevRef Cert.ReferenceIdeal.τ Cert.ReferenceIdeal.sig)) q :=
    (Cert.KernelIdeal.Regions.in3_2 m ρ c q).trans (hg q)
  have h4 : (Cert.KernelIdeal.Regions.VE3 m ρ c (Pipeline.arrRef Cert.KernelIdeal.spec3 3) : Cert.KernelIdeal.S1x64.Idx → EReal) (ix2 (0 : Fin 1) q) = rd1 (W' (Cert.ReferenceIdeal.main_arg23 : DevRef Cert.ReferenceIdeal.τ Cert.ReferenceIdeal.sig)) q :=
    (Cert.KernelIdeal.Regions.in3_3 m ρ c q).trans (hb q)
  have h5 : (Cert.KernelIdeal.Regions.VE3 m ρ c (Pipeline.arrRef Cert.KernelIdeal.spec3 4) : Cert.KernelIdeal.S40000x64.Idx → EReal) (ix2 r q) = rd2 (R W' Cert.ReferenceIdeal.main_v59) r q :=
    (congrFun (Cert.KernelIdeal.Regions.in3_4 m ρ c) _).trans (hres r q)
  refine (congrFun (Cert.KernelIdeal.Regions.final3 (Cert.KernelIdeal.Regions.VE3 m ρ) c) (ix2 r q)).trans ?_
  refine Eq.trans ?_ (Cert.ReferenceIdeal.RefRun.v89_apply W' r q).symm
  exact congr (congrArg (HAdd.hAdd (α := EReal) (β := EReal) (γ := EReal)) (congrArg Cert.Spec.leaky (congr (congr (congr (congr (congrArg Cert.Spec.normAff h0) h1) h2) h3) h4))) h5

/-- The text branch's first normalisation. -/
theorem norm_txt
    (hlin : ∀ (r : Fin 40000) (q : Fin 64), ((Cert.KernelIdeal.Regions.dat4 (Cert.KernelIdeal.Regions.VE4 m ρ) c).arrAt 3 Cert.KernelIdeal.cfg4.N : Cert.KernelIdeal.S40000x64.Idx → EReal) (ix2 r q) = rd2 (R W' Cert.ReferenceIdeal.main_v94) r q)
    (hmean : ∀ q : Fin 64, ((Cert.KernelIdeal.Regions.dat4 (Cert.KernelIdeal.Regions.VE4 m ρ) c).arrAt 4 Cert.KernelIdeal.cfg4.N : Cert.KernelIdeal.S2x64.Idx → EReal) (ix2 (0 : Fin 2) q) = rd1 (R W' Cert.ReferenceIdeal.main_v97) q)
    (hvar : ∀ q : Fin 64, ((Cert.KernelIdeal.Regions.dat4 (Cert.KernelIdeal.Regions.VE4 m ρ) c).arrAt 4 Cert.KernelIdeal.cfg4.N : Cert.KernelIdeal.S2x64.Idx → EReal) (ix2 (1 : Fin 2) q) = rd1 (R W' Cert.ReferenceIdeal.main_v98) q)
    (hg : ∀ q : Fin 64, (m ((c : Thread Cert.KernelIdeal.nD Cert.KernelIdeal.τ).loc Cert.KernelIdeal.main_arg26) : Cert.KernelIdeal.S64.Idx → EReal) (ix1 q) = rd1 (W' (Cert.ReferenceIdeal.main_arg26 : DevRef Cert.ReferenceIdeal.τ Cert.ReferenceIdeal.sig)) q)
    (hb : ∀ q : Fin 64, (m ((c : Thread Cert.KernelIdeal.nD Cert.KernelIdeal.τ).loc Cert.KernelIdeal.main_arg27) : Cert.KernelIdeal.S64.Idx → EReal) (ix1 q) = rd1 (W' (Cert.ReferenceIdeal.main_arg27 : DevRef Cert.ReferenceIdeal.τ Cert.ReferenceIdeal.sig)) q)
    (r : Fin 40000) (q : Fin 64) :
    ((Cert.KernelIdeal.Regions.dat5 (Cert.KernelIdeal.Regions.VE5 m ρ) c).arrAt 4 Cert.KernelIdeal.cfg5.N : Cert.KernelIdeal.S40000x64.Idx → EReal) (ix2 r q) = rd2 (R W' Cert.ReferenceIdeal.main_v118) r q := by
  have h0 : (Cert.KernelIdeal.Regions.VE5 m ρ c (Pipeline.arrRef Cert.KernelIdeal.spec5 0) : Cert.KernelIdeal.S40000x64.Idx → EReal) (ix2 r q) = rd2 (R W' Cert.ReferenceIdeal.main_v94) r q :=
    (congrFun (Cert.KernelIdeal.Regions.in5_0 m ρ c) _).trans (hlin r q)
  have h1 : (Cert.KernelIdeal.Regions.VE5 m ρ c (Pipeline.arrRef Cert.KernelIdeal.spec5 1) : Cert.KernelIdeal.S2x64.Idx → EReal) (ix2 (0 : Fin 2) q) = rd1 (R W' Cert.ReferenceIdeal.main_v97) q :=
    (congrFun (Cert.KernelIdeal.Regions.in5_1 m ρ c) _).trans (hmean q)
  have h2 : (Cert.KernelIdeal.Regions.VE5 m ρ c (Pipeline.arrRef Cert.KernelIdeal.spec5 1) : Cert.KernelIdeal.S2x64.Idx → EReal) (ix2 (1 : Fin 2) q) = rd1 (R W' Cert.ReferenceIdeal.main_v98) q :=
    (congrFun (Cert.KernelIdeal.Regions.in5_1 m ρ c) _).trans (hvar q)
  have h3 : (Cert.KernelIdeal.Regions.VE5 m ρ c (Pipeline.arrRef Cert.KernelIdeal.spec5 2) : Cert.KernelIdeal.S1x64.Idx → EReal) (ix2 (0 : Fin 1) q) = rd1 (W' (Cert.ReferenceIdeal.main_arg26 : DevRef Cert.ReferenceIdeal.τ Cert.ReferenceIdeal.sig)) q :=
    (Cert.KernelIdeal.Regions.in5_2 m ρ c q).trans (hg q)
  have h4 : (Cert.KernelIdeal.Regions.VE5 m ρ c (Pipeline.arrRef Cert.KernelIdeal.spec5 3) : Cert.KernelIdeal.S1x64.Idx → EReal) (ix2 (0 : Fin 1) q) = rd1 (W' (Cert.ReferenceIdeal.main_arg27 : DevRef Cert.ReferenceIdeal.τ Cert.ReferenceIdeal.sig)) q :=
    (Cert.KernelIdeal.Regions.in5_3 m ρ c q).trans (hb q)
  refine (congrFun (Cert.KernelIdeal.Regions.final5 (Cert.KernelIdeal.Regions.VE5 m ρ) c) (ix2 r q)).trans ?_
  refine Eq.trans ?_ (Cert.ReferenceIdeal.RefRun.v118_apply W' r q).symm
  exact congrArg Cert.Spec.leaky (congr (congr (congr (congr (congrArg Cert.Spec.normAff h0) h1) h2) h3) h4)

/-- The text branch's second normalisation, with the first one's output added back. -/
theorem norm2_txt
    (hlin : ∀ (r : Fin 40000) (q : Fin 64), ((Cert.KernelIdeal.Regions.dat6 (Cert.KernelIdeal.Regions.VE6 m ρ) c).arrAt 3 Cert.KernelIdeal.cfg6.N : Cert.KernelIdeal.S40000x64.Idx → EReal) (ix2 r q) = rd2 (R W' Cert.ReferenceIdeal.main_v123) r q)
    (hmean : ∀ q : Fin 64, ((Cert.KernelIdeal.Regions.dat6 (Cert.KernelIdeal.Regions.VE6 m ρ) c).arrAt 4 Cert.KernelIdeal.cfg6.N : Cert.KernelIdeal.S2x64.Idx → EReal) (ix2 (0 : Fin 2) q) = rd1 (R W' Cert.ReferenceIdeal.main_v126) q)
    (hvar : ∀ q : Fin 64, ((Cert.KernelIdeal.Regions.dat6 (Cert.KernelIdeal.Regions.VE6 m ρ) c).arrAt 4 Cert.KernelIdeal.cfg6.N : Cert.KernelIdeal.S2x64.Idx → EReal) (ix2 (1 : Fin 2) q) = rd1 (R W' Cert.ReferenceIdeal.main_v127) q)
    (hg : ∀ q : Fin 64, (m ((c : Thread Cert.KernelIdeal.nD Cert.KernelIdeal.τ).loc Cert.KernelIdeal.main_arg30) : Cert.KernelIdeal.S64.Idx → EReal) (ix1 q) = rd1 (W' (Cert.ReferenceIdeal.main_arg30 : DevRef Cert.ReferenceIdeal.τ Cert.ReferenceIdeal.sig)) q)
    (hb : ∀ q : Fin 64, (m ((c : Thread Cert.KernelIdeal.nD Cert.KernelIdeal.τ).loc Cert.KernelIdeal.main_arg31) : Cert.KernelIdeal.S64.Idx → EReal) (ix1 q) = rd1 (W' (Cert.ReferenceIdeal.main_arg31 : DevRef Cert.ReferenceIdeal.τ Cert.ReferenceIdeal.sig)) q)
    (hres : ∀ (r : Fin 40000) (q : Fin 64), ((Cert.KernelIdeal.Regions.dat5 (Cert.KernelIdeal.Regions.VE5 m ρ) c).arrAt 4 Cert.KernelIdeal.cfg5.N : Cert.KernelIdeal.S40000x64.Idx → EReal) (ix2 r q) = rd2 (R W' Cert.ReferenceIdeal.main_v118) r q)
    (r : Fin 40000) (q : Fin 64) :
    ((Cert.KernelIdeal.Regions.dat7 (Cert.KernelIdeal.Regions.VE7 m ρ) c).arrAt 5 Cert.KernelIdeal.cfg7.N : Cert.KernelIdeal.S40000x64.Idx → EReal) (ix2 r q) = rd2 (R W' Cert.ReferenceIdeal.main_v148) r q := by
  have h0 : (Cert.KernelIdeal.Regions.VE7 m ρ c (Pipeline.arrRef Cert.KernelIdeal.spec7 0) : Cert.KernelIdeal.S40000x64.Idx → EReal) (ix2 r q) = rd2 (R W' Cert.ReferenceIdeal.main_v123) r q :=
    (congrFun (Cert.KernelIdeal.Regions.in7_0 m ρ c) _).trans (hlin r q)
  have h1 : (Cert.KernelIdeal.Regions.VE7 m ρ c (Pipeline.arrRef Cert.KernelIdeal.spec7 1) : Cert.KernelIdeal.S2x64.Idx → EReal) (ix2 (0 : Fin 2) q) = rd1 (R W' Cert.ReferenceIdeal.main_v126) q :=
    (congrFun (Cert.KernelIdeal.Regions.in7_1 m ρ c) _).trans (hmean q)
  have h2 : (Cert.KernelIdeal.Regions.VE7 m ρ c (Pipeline.arrRef Cert.KernelIdeal.spec7 1) : Cert.KernelIdeal.S2x64.Idx → EReal) (ix2 (1 : Fin 2) q) = rd1 (R W' Cert.ReferenceIdeal.main_v127) q :=
    (congrFun (Cert.KernelIdeal.Regions.in7_1 m ρ c) _).trans (hvar q)
  have h3 : (Cert.KernelIdeal.Regions.VE7 m ρ c (Pipeline.arrRef Cert.KernelIdeal.spec7 2) : Cert.KernelIdeal.S1x64.Idx → EReal) (ix2 (0 : Fin 1) q) = rd1 (W' (Cert.ReferenceIdeal.main_arg30 : DevRef Cert.ReferenceIdeal.τ Cert.ReferenceIdeal.sig)) q :=
    (Cert.KernelIdeal.Regions.in7_2 m ρ c q).trans (hg q)
  have h4 : (Cert.KernelIdeal.Regions.VE7 m ρ c (Pipeline.arrRef Cert.KernelIdeal.spec7 3) : Cert.KernelIdeal.S1x64.Idx → EReal) (ix2 (0 : Fin 1) q) = rd1 (W' (Cert.ReferenceIdeal.main_arg31 : DevRef Cert.ReferenceIdeal.τ Cert.ReferenceIdeal.sig)) q :=
    (Cert.KernelIdeal.Regions.in7_3 m ρ c q).trans (hb q)
  have h5 : (Cert.KernelIdeal.Regions.VE7 m ρ c (Pipeline.arrRef Cert.KernelIdeal.spec7 4) : Cert.KernelIdeal.S40000x64.Idx → EReal) (ix2 r q) = rd2 (R W' Cert.ReferenceIdeal.main_v118) r q :=
    (congrFun (Cert.KernelIdeal.Regions.in7_4 m ρ c) _).trans (hres r q)
  refine (congrFun (Cert.KernelIdeal.Regions.final7 (Cert.KernelIdeal.Regions.VE7 m ρ) c) (ix2 r q)).trans ?_
  refine Eq.trans ?_ (Cert.ReferenceIdeal.RefRun.v148_apply W' r q).symm
  exact congr (congrArg (HAdd.hAdd (α := EReal) (β := EReal) (γ := EReal)) (congrArg Cert.Spec.leaky (congr (congr (congr (congr (congrArg Cert.Spec.normAff h0) h1) h2) h3) h4))) h5

/-- The image gate: the item embedding times the logistic of a linear layer of the image features. -/
theorem gate_img
    (hprev : ∀ (r : Fin 40000) (k : Fin 64), ((Cert.KernelIdeal.Regions.dat3 (Cert.KernelIdeal.Regions.VE3 m ρ) c).arrAt 5 Cert.KernelIdeal.cfg3.N : Cert.KernelIdeal.S40000x64.Idx → EReal) (ix2 r k) = rd2 (R W' Cert.ReferenceIdeal.main_v89) r k)
    (hw : ∀ (q k : Fin 64), (m ((c : Thread Cert.KernelIdeal.nD Cert.KernelIdeal.τ).loc Cert.KernelIdeal.main_arg32) : Cert.KernelIdeal.S64x64.Idx → EReal) (ix2 q k) = rd2 (W' (Cert.ReferenceIdeal.main_arg32 : DevRef Cert.ReferenceIdeal.τ Cert.ReferenceIdeal.sig)) q k)
    (hb : ∀ q : Fin 64, (m ((c : Thread Cert.KernelIdeal.nD Cert.KernelIdeal.τ).loc Cert.KernelIdeal.main_arg33) : Cert.KernelIdeal.S64.Idx → EReal) (ix1 q) = rd1 (W' (Cert.ReferenceIdeal.main_arg33 : DevRef Cert.ReferenceIdeal.τ Cert.ReferenceIdeal.sig)) q)
    (hemb : ∀ (r : Fin 40000) (q : Fin 64), (m ((c : Thread Cert.KernelIdeal.nD Cert.KernelIdeal.τ).loc Cert.KernelIdeal.main_arg13) : Cert.KernelIdeal.S40000x64.Idx → EReal) (ix2 r q) = rd2 (W' (Cert.ReferenceIdeal.main_arg13 : DevRef Cert.ReferenceIdeal.τ Cert.ReferenceIdeal.sig)) r q)
    (r : Fin 40000) (q : Fin 64) :
    ((Cert.KernelIdeal.Regions.dat8 (Cert.KernelIdeal.Regions.VE8 m ρ) c).arrAt 4 Cert.KernelIdeal.cfg8.N : Cert.KernelIdeal.S40000x64.Idx → EReal) (ix2 r q) = rd2 (R W' Cert.ReferenceIdeal.main_v160) r q := by
  have hf : (fun k : Fin 64 => (Cert.KernelIdeal.Regions.VE8 m ρ c (Pipeline.arrRef Cert.KernelIdeal.spec8 0) : Cert.KernelIdeal.S40000x64.Idx → EReal) (ix2 r k)) = fun k => rd2 (R W' Cert.ReferenceIdeal.main_v89) r k :=
    funext fun k => (congrFun (Cert.KernelIdeal.Regions.in8_0 m ρ c) _).trans (hprev r k)
  have hw' : (fun k : Fin 64 => (Cert.KernelIdeal.Regions.VE8 m ρ c (Pipeline.arrRef Cert.KernelIdeal.spec8 1) : Cert.KernelIdeal.S64x64.Idx → EReal) (ix2 q k)) = fun k => rd2 (W' (Cert.ReferenceIdeal.main_arg32 : DevRef Cert.ReferenceIdeal.τ Cert.ReferenceIdeal.sig)) q k :=
    funext fun k => (congrFun (Cert.KernelIdeal.Regions.in8_1 m ρ c) _).trans (hw q k)
  have hb' : (Cert.KernelIdeal.Regions.VE8 m ρ c (Pipeline.arrRef Cert.KernelIdeal.spec8 2) : Cert.KernelIdeal.S1x64.Idx → EReal) (ix2 (0 : Fin 1) q) = rd1 (W' (Cert.ReferenceIdeal.main_arg33 : DevRef Cert.ReferenceIdeal.τ Cert.ReferenceIdeal.sig)) q :=
    (Cert.KernelIdeal.Regions.in8_2 m ρ c q).trans (hb q)
  have he : (Cert.KernelIdeal.Regions.VE8 m ρ c (Pipeline.arrRef Cert.KernelIdeal.spec8 3) : Cert.KernelIdeal.S40000x64.Idx → EReal) (ix2 r q) = rd2 (W' (Cert.ReferenceIdeal.main_arg13 : DevRef Cert.ReferenceIdeal.τ Cert.ReferenceIdeal.sig)) r q :=
    (congrFun (Cert.KernelIdeal.Regions.in8_3 m ρ c) _).trans (hemb r q)
  refine (congrFun (Cert.KernelIdeal.Regions.final8 (Cert.KernelIdeal.Regions.VE8 m ρ) c) (ix2 r q)).trans ?_
  refine Eq.trans ?_ (Cert.ReferenceIdeal.RefRun.v160_apply W' r q).symm
  exact congr (congrArg Cert.Spec.gate he) (congr (congr (congrArg (Cert.Spec.dense (n := 64)) hf) hw') hb')

/-- The text gate. -/
theorem gate_txt
    (hprev : ∀ (r : Fin 40000) (k : Fin 64), ((Cert.KernelIdeal.Regions.dat7 (Cert.KernelIdeal.Regions.VE7 m ρ) c).arrAt 5 Cert.KernelIdeal.cfg7.N : Cert.KernelIdeal.S40000x64.Idx → EReal) (ix2 r k) = rd2 (R W' Cert.ReferenceIdeal.main_v148) r k)
    (hw : ∀ (q k : Fin 64), (m ((c : Thread Cert.KernelIdeal.nD Cert.KernelIdeal.τ).loc Cert.KernelIdeal.main_arg34) : Cert.KernelIdeal.S64x64.Idx → EReal) (ix2 q k) = rd2 (W' (Cert.ReferenceIdeal.main_arg34 : DevRef Cert.ReferenceIdeal.τ Cert.ReferenceIdeal.sig)) q k)
    (hb : ∀ q : Fin 64, (m ((c : Thread Cert.KernelIdeal.nD Cert.KernelIdeal.τ).loc Cert.KernelIdeal.main_arg35) : Cert.KernelIdeal.S64.Idx → EReal) (ix1 q) = rd1 (W' (Cert.ReferenceIdeal.main_arg35 : DevRef Cert.ReferenceIdeal.τ Cert.ReferenceIdeal.sig)) q)
    (hemb : ∀ (r : Fin 40000) (q : Fin 64), (m ((c : Thread Cert.KernelIdeal.nD Cert.KernelIdeal.τ).loc Cert.KernelIdeal.main_arg13) : Cert.KernelIdeal.S40000x64.Idx → EReal) (ix2 r q) = rd2 (W' (Cert.ReferenceIdeal.main_arg13 : DevRef Cert.ReferenceIdeal.τ Cert.ReferenceIdeal.sig)) r q)
    (r : Fin 40000) (q : Fin 64) :
    ((Cert.KernelIdeal.Regions.dat9 (Cert.KernelIdeal.Regions.VE9 m ρ) c).arrAt 4 Cert.KernelIdeal.cfg9.N : Cert.KernelIdeal.S40000x64.Idx → EReal) (ix2 r q) = rd2 (R W' Cert.ReferenceIdeal.main_v172) r q := by
  have hf : (fun k : Fin 64 => (Cert.KernelIdeal.Regions.VE9 m ρ c (Pipeline.arrRef Cert.KernelIdeal.spec9 0) : Cert.KernelIdeal.S40000x64.Idx → EReal) (ix2 r k)) = fun k => rd2 (R W' Cert.ReferenceIdeal.main_v148) r k :=
    funext fun k => (congrFun (Cert.KernelIdeal.Regions.in9_0 m ρ c) _).trans (hprev r k)
  have hw' : (fun k : Fin 64 => (Cert.KernelIdeal.Regions.VE9 m ρ c (Pipeline.arrRef Cert.KernelIdeal.spec9 1) : Cert.KernelIdeal.S64x64.Idx → EReal) (ix2 q k)) = fun k => rd2 (W' (Cert.ReferenceIdeal.main_arg34 : DevRef Cert.ReferenceIdeal.τ Cert.ReferenceIdeal.sig)) q k :=
    funext fun k => (congrFun (Cert.KernelIdeal.Regions.in9_1 m ρ c) _).trans (hw q k)
  have hb' : (Cert.KernelIdeal.Regions.VE9 m ρ c (Pipeline.arrRef Cert.KernelIdeal.spec9 2) : Cert.KernelIdeal.S1x64.Idx → EReal) (ix2 (0 : Fin 1) q) = rd1 (W' (Cert.ReferenceIdeal.main_arg35 : DevRef Cert.ReferenceIdeal.τ Cert.ReferenceIdeal.sig)) q :=
    (Cert.KernelIdeal.Regions.in9_2 m ρ c q).trans (hb q)
  have he : (Cert.KernelIdeal.Regions.VE9 m ρ c (Pipeline.arrRef Cert.KernelIdeal.spec9 3) : Cert.KernelIdeal.S40000x64.Idx → EReal) (ix2 r q) = rd2 (W' (Cert.ReferenceIdeal.main_arg13 : DevRef Cert.ReferenceIdeal.τ Cert.ReferenceIdeal.sig)) r q :=
    (congrFun (Cert.KernelIdeal.Regions.in9_3 m ρ c) _).trans (hemb r q)
  refine (congrFun (Cert.KernelIdeal.Regions.final9 (Cert.KernelIdeal.Regions.VE9 m ρ) c) (ix2 r q)).trans ?_
  refine Eq.trans ?_ (Cert.ReferenceIdeal.RefRun.v172_apply W' r q).symm
  exact congr (congrArg Cert.Spec.gate he) (congr (congr (congrArg (Cert.Spec.dense (n := 64)) hf) hw') hb')

/-! ## What the last stretch and the fusion region find -/

/-- The content table, written by the first stretch, reaches the fusion region unchanged: no later stretch and no region writes it. -/
theorem content_pass : Cert.KernelIdeal.Regions.VE10 m ρ c Cert.KernelIdeal.main_v30 = Cert.KernelIdeal.Regions.E0 m ρ c (Proc.devRef .tc Cert.KernelIdeal.main_v30) :=
  (Cert.KernelIdeal.Regions.E10_keep m ρ c Cert.KernelIdeal.main_v30 (by decide)).trans <| (Cert.KernelIdeal.Regions.X9_keep m ρ c Cert.KernelIdeal.main_v30 (by decide)).trans <| (Cert.KernelIdeal.Regions.E9_keep m ρ c Cert.KernelIdeal.main_v30 (by decide)).trans <| (Cert.KernelIdeal.Regions.X8_keep m ρ c Cert.KernelIdeal.main_v30 (by decide)).trans <| (Cert.KernelIdeal.Regions.E8_keep m ρ c Cert.KernelIdeal.main_v30 (by decide)).trans <| (Cert.KernelIdeal.Regions.X7_keep m ρ c Cert.KernelIdeal.main_v30 (by decide)).trans <| (Cert.KernelIdeal.Regions.E7_keep m ρ c Cert.KernelIdeal.main_v30 (by decide)).trans <| (Cert.KernelIdeal.Regions.X6_keep m ρ c Cert.KernelIdeal.main_v30 (by decide)).trans <| (Cert.KernelIdeal.Regions.E6_keep m ρ c Cert.KernelIdeal.main_v30 (by decide)).trans <| (Cert.KernelIdeal.Regions.X5_keep m ρ c Cert.KernelIdeal.main_v30 (by decide)).trans <| (Cert.KernelIdeal.Regions.E5_keep m ρ c Cert.KernelIdeal.main_v30 (by decide)).trans <| (Cert.KernelIdeal.Regions.X4_keep m ρ c Cert.KernelIdeal.main_v30 (by decide)).trans <| (Cert.KernelIdeal.Regions.E4_keep m ρ c Cert.KernelIdeal.main_v30 (by decide)).trans <| (Cert.KernelIdeal.Regions.X3_keep m ρ c Cert.KernelIdeal.main_v30 (by decide)).trans <| (Cert.KernelIdeal.Regions.E3_keep m ρ c Cert.KernelIdeal.main_v30 (by decide)).trans <| (Cert.KernelIdeal.Regions.X2_keep m ρ c Cert.KernelIdeal.main_v30 (by decide)).trans <| (Cert.KernelIdeal.Regions.E2_keep m ρ c Cert.KernelIdeal.main_v30 (by decide)).trans <| (Cert.KernelIdeal.Regions.X1_keep m ρ c Cert.KernelIdeal.main_v30 (by decide)).trans <| (Cert.KernelIdeal.Regions.E1_keep m ρ c Cert.KernelIdeal.main_v30 (by decide)).trans <| Cert.KernelIdeal.Regions.X0_keep m ρ c Cert.KernelIdeal.main_v30 (by decide)

/-- The gated image table leaves the text gate's region as the image gate's region wrote it. -/
theorem img_gate_pass : Cert.KernelIdeal.Regions.X9 m ρ c (Proc.devRef .tc Cert.KernelIdeal.main_v52) = (Cert.KernelIdeal.Regions.dat8 (Cert.KernelIdeal.Regions.VE8 m ρ) c).arrAt 4 Cert.KernelIdeal.cfg8.N :=
  (Cert.KernelIdeal.Regions.X9_keep m ρ c Cert.KernelIdeal.main_v52 (by decide)).trans <| (Cert.KernelIdeal.Regions.E9_keep m ρ c Cert.KernelIdeal.main_v52 (by decide)).trans <| Cert.KernelIdeal.Regions.X8_arr m ρ c 4

/-- The fusion: the content row plus the mix of the two tables' rows, weighted by the logistic of the difference of their
    scores; the reference's two-way softmax gives the same weights when both scores are reals. -/
theorem fusion
    (hx0 : ∀ (r : Fin 70000) (k : Fin 64), (Cert.KernelIdeal.Regions.VE10 m ρ c Cert.KernelIdeal.main_v133 : Cert.KernelIdeal.S70000x64.Idx → EReal) (ix2 r k) = rd2 (R W' Cert.ReferenceIdeal.main_v251) r k)
    (hx1 : ∀ (r : Fin 70000) (k : Fin 64), (Cert.KernelIdeal.Regions.VE10 m ρ c Cert.KernelIdeal.main_v134 : Cert.KernelIdeal.S70000x64.Idx → EReal) (ix2 r k) = rd2 (R W' Cert.ReferenceIdeal.main_v252) r k)
    (hx2 : ∀ (r : Fin 70000) (j : Fin 64), (Cert.KernelIdeal.Regions.VE10 m ρ c Cert.KernelIdeal.main_v30 : Cert.KernelIdeal.S70000x64.Idx → EReal) (ix2 r j) = rd2 (R W' Cert.ReferenceIdeal.main_v30) r j)
    (hw : ∀ (q k : Fin 64), (m ((c : Thread Cert.KernelIdeal.nD Cert.KernelIdeal.τ).loc Cert.KernelIdeal.main_arg36) : Cert.KernelIdeal.S64x64.Idx → EReal) (ix2 q k) = rd2 (W' (Cert.ReferenceIdeal.main_arg36 : DevRef Cert.ReferenceIdeal.τ Cert.ReferenceIdeal.sig)) q k)
    (hb : ∀ q : Fin 64, (m ((c : Thread Cert.KernelIdeal.nD Cert.KernelIdeal.τ).loc Cert.KernelIdeal.main_arg37) : Cert.KernelIdeal.S64.Idx → EReal) (ix1 q) = rd1 (W' (Cert.ReferenceIdeal.main_arg37 : DevRef Cert.ReferenceIdeal.τ Cert.ReferenceIdeal.sig)) q)
    (ha : ∀ q : Fin 64, (m ((c : Thread Cert.KernelIdeal.nD Cert.KernelIdeal.τ).loc Cert.KernelIdeal.main_arg38) : Cert.KernelIdeal.S1x64.Idx → EReal) (ix2 (0 : Fin 1) q) = rd2 (W' (Cert.ReferenceIdeal.main_arg38 : DevRef Cert.ReferenceIdeal.τ Cert.ReferenceIdeal.sig)) (0 : Fin 1) q)
    (hs : ∀ r : Fin 70000, IsReal (Cert.Spec.score (fun k : Fin 64 => rd2 (R W' Cert.ReferenceIdeal.main_v251) r k) (fun (q k : Fin 64) => rd2 (W' (Cert.ReferenceIdeal.main_arg36 : DevRef Cert.ReferenceIdeal.τ Cert.ReferenceIdeal.sig)) q k) (fun q : Fin 64 => rd1 (W' (Cert.ReferenceIdeal.main_arg37 : DevRef Cert.ReferenceIdeal.τ Cert.ReferenceIdeal.sig)) q) (fun q : Fin 64 => rd2 (W' (Cert.ReferenceIdeal.main_arg38 : DevRef Cert.ReferenceIdeal.τ Cert.ReferenceIdeal.sig)) (0 : Fin 1) q))
      ∧ IsReal (Cert.Spec.score (fun k : Fin 64 => rd2 (R W' Cert.ReferenceIdeal.main_v252) r k) (fun (q k : Fin 64) => rd2 (W' (Cert.ReferenceIdeal.main_arg36 : DevRef Cert.ReferenceIdeal.τ Cert.ReferenceIdeal.sig)) q k) (fun q : Fin 64 => rd1 (W' (Cert.ReferenceIdeal.main_arg37 : DevRef Cert.ReferenceIdeal.τ Cert.ReferenceIdeal.sig)) q) (fun q : Fin 64 => rd2 (W' (Cert.ReferenceIdeal.main_arg38 : DevRef Cert.ReferenceIdeal.τ Cert.ReferenceIdeal.sig)) (0 : Fin 1) q)))
    (r : Fin 70000) (j : Fin 64) :
    ((Cert.KernelIdeal.Regions.dat10 (Cert.KernelIdeal.Regions.VE10 m ρ) c).arrAt 6 Cert.KernelIdeal.cfg10.N : Cert.KernelIdeal.S70000x64.Idx → EReal) (ix2 r j) = rd2 (R W' Cert.ReferenceIdeal.main_v296) r j := by
  have e0 : (fun k : Fin 64 => (Cert.KernelIdeal.Regions.VE10 m ρ c (Pipeline.arrRef Cert.KernelIdeal.spec10 0) : Cert.KernelIdeal.S70000x64.Idx → EReal) (ix2 r k)) = fun k => rd2 (R W' Cert.ReferenceIdeal.main_v251) r k := funext fun k => hx0 r k
  have e1 : (fun k : Fin 64 => (Cert.KernelIdeal.Regions.VE10 m ρ c (Pipeline.arrRef Cert.KernelIdeal.spec10 1) : Cert.KernelIdeal.S70000x64.Idx → EReal) (ix2 r k)) = fun k => rd2 (R W' Cert.ReferenceIdeal.main_v252) r k := funext fun k => hx1 r k
  have ew : (fun (q k : Fin 64) => (Cert.KernelIdeal.Regions.VE10 m ρ c (Pipeline.arrRef Cert.KernelIdeal.spec10 3) : Cert.KernelIdeal.S64x64.Idx → EReal) (ix2 q k)) = fun q k => rd2 (W' (Cert.ReferenceIdeal.main_arg36 : DevRef Cert.ReferenceIdeal.τ Cert.ReferenceIdeal.sig)) q k :=
    funext fun q => funext fun k => (congrFun (Cert.KernelIdeal.Regions.in10_3 m ρ c) _).trans (hw q k)
  have eb : (fun q : Fin 64 => (Cert.KernelIdeal.Regions.VE10 m ρ c (Pipeline.arrRef Cert.KernelIdeal.spec10 4) : Cert.KernelIdeal.S1x64.Idx → EReal) (ix2 (0 : Fin 1) q)) = fun q => rd1 (W' (Cert.ReferenceIdeal.main_arg37 : DevRef Cert.ReferenceIdeal.τ Cert.ReferenceIdeal.sig)) q :=
    funext fun q => (Cert.KernelIdeal.Regions.in10_4 m ρ c q).trans (hb q)
  have ea : (fun q : Fin 64 => (Cert.KernelIdeal.Regions.VE10 m ρ c (Pipeline.arrRef Cert.KernelIdeal.spec10 5) : Cert.KernelIdeal.S1x64.Idx → EReal) (ix2 (0 : Fin 1) q)) = fun q => rd2 (W' (Cert.ReferenceIdeal.main_arg38 : DevRef Cert.ReferenceIdeal.τ Cert.ReferenceIdeal.sig)) (0 : Fin 1) q :=
    funext fun q => (congrFun (Cert.KernelIdeal.Regions.in10_5 m ρ c) _).trans (ha q)
  have es0 := congr (congr (congr (congrArg (Cert.Spec.score (n := 64) (m := 64)) e0) ew) eb) ea
  have es1 := congr (congr (congr (congrArg (Cert.Spec.score (n := 64) (m := 64)) e1) ew) eb) ea
  refine (congrFun (Cert.KernelIdeal.Regions.final10 (Cert.KernelIdeal.Regions.VE10 m ρ) c) (ix2 r j)).trans ?_
  refine Eq.trans ?_ (Cert.ReferenceIdeal.RefRun.v296_apply W' hs r j).symm
  exact congr (congrArg (HAdd.hAdd (α := EReal) (β := EReal) (γ := EReal)) (hx2 r j)) (congr (congr (congrArg Cert.Spec.mix (congr (congrArg Cert.Spec.mixWeight es0) es1)) (hx0 r j)) (hx1 r j))

end Cert.Bridge

end
-- ==== Proof.LibColumnSums.lean ====
/-
  Column sums read at an entry on the extended reals: a sum over axis 0 of an [R, D] array (a vector multi-reduction
  with add over the rows, accumulator 0) read at column q is the sum of that column's R entries.  (The companion of the
  lane sum over axis 1, with the two axes exchanged.)
-/
import Idealize.ShloMosaic.PureOps.Ideal.Laws
import Idealize.ShloMosaic.Lib.ValueIdx

noncomputable section

namespace Cert.Lib.ColumnSums

open Idealize.ShloMosaic Idealize.ShloMosaic.ValueIdx
open scoped BigOperators

/-- A sum over axis 0 of an `[R, D]` array at column `q`: the sum of the column's entries. -/
theorem colSum_apply {R D : ℕ} (v : FVec Ideal ⟨2, ![R, D]⟩ .f32) (hred : (⟨2, ![R, D]⟩ : Shape).Reduces [0] ⟨1, ![D]⟩)
    (q : Fin D) :
    multiReduction .add [0] ⟨1, ![D]⟩ v 0x00000000#32 hred (.inl rfl) rfl (ix1 q) = ∑ p : Fin R, v (ix2 p q) :=
  (Ideal.multiReduction_add_single v _ hred _ _ (ix1 q)).trans
    (Finset.sum_congr rfl fun p _ => congrArg v (funext fun a => Fin.ext (by
      match a with
      | ⟨0, _⟩ => rfl
      | ⟨1, _⟩ => rfl)))

end Cert.Lib.ColumnSums

end
-- ==== Proof.LibTileSum.lean ====
/-
  A sum over K·T consecutive positions taken tile by tile, and a running total over the tiles.

  A kernel that walks a long axis in K tiles of T positions keeps a running total: it starts from a value z and at
  tile k adds that tile's own sum.  On any commutative monoid the total after the last tile is z plus the sum over all
  K·T positions: position k·T + q is position q of tile k, and this is a bijection between pairs (k, q) and positions.
-/
import Mathlib.Algebra.BigOperators.Fin
import Mathlib.Logic.Equiv.Fin.Basic

namespace Cert.Lib.TileSum

open scoped BigOperators

variable {M : Type*} [AddCommMonoid M]

/-- Position `q` of tile `k` lies below `K·T`. -/
theorem pos_lt {K T : ℕ} (k : Fin K) (q : Fin T) : k.val * T + q.val < K * T := by
  have hk := k.isLt
  have hq := q.isLt
  calc k.val * T + q.val < k.val * T + T := by omega
    _ = (k.val + 1) * T := by rw [Nat.add_mul, Nat.one_mul]
    _ ≤ K * T := Nat.mul_le_mul_right T (by omega)

/-- The sum over `K·T` positions is the sum over the tiles of each tile's sum. -/
theorem sum_tiles {K T : ℕ} (g : Fin (K * T) → M) :
    ∑ j, g j = ∑ k : Fin K, ∑ q : Fin T, g ⟨k.val * T + q.val, pos_lt k q⟩ := by
  rw [← Equiv.sum_comp finProdFinEquiv g, Fintype.sum_prod_type]
  refine Finset.sum_congr rfl fun k _ => Finset.sum_congr rfl fun q _ => congrArg g (Fin.ext ?_)
  show q.val + T * k.val = k.val * T + q.val
  rw [Nat.mul_comm, Nat.add_comm]

/-- The same for an extent `N` known to be `K·T` (a literal such as 4096 = 4·1024). -/
theorem sum_tiles_of_eq {N K T : ℕ} (h : N = K * T) (g : Fin N → M) :
    ∑ j, g j = ∑ k : Fin K, ∑ q : Fin T, g ⟨k.val * T + q.val, h ▸ pos_lt k q⟩ := by
  subst h
  exact sum_tiles g

/-- A running total that starts at `z` and at step `k` adds `t k`: after step `k` it is `z` plus the first `k + 1`
    terms. -/
theorem running_total {K : ℕ} (z : M) (t : Fin K → M) (a : (k : ℕ) → k < K → M)
    (h0 : ∀ h : 0 < K, a 0 h = z + t ⟨0, h⟩)
    (hs : ∀ (k : ℕ) (h : k + 1 < K), a (k + 1) h = a k (Nat.lt_of_succ_lt h) + t ⟨k + 1, h⟩) :
    ∀ (k : ℕ) (h : k < K), a k h = z + ∑ i : Fin (k + 1), t ⟨i.val, by have := i.isLt; omega⟩ := by
  intro k
  induction k with
  | zero =>
    intro h
    rw [h0 h]
    exact congrArg (z + ·) (Fin.sum_univ_one fun i : Fin 1 => t ⟨i.val, by have := i.isLt; omega⟩).symm
  | succ k ih =>
    intro h
    rw [hs k h, ih (Nat.lt_of_succ_lt h), add_assoc]
    exact congrArg (z + ·)
      (Fin.sum_univ_castSucc fun i : Fin (k + 1 + 1) => t ⟨i.val, by have := i.isLt; omega⟩).symm

/-- After the last step the running total is `z` plus every term. -/
theorem running_total_last {K : ℕ} (z : M) (t : Fin K → M) (a : (k : ℕ) → k < K → M)
    (h0 : ∀ h : 0 < K, a 0 h = z + t ⟨0, h⟩)
    (hs : ∀ (k : ℕ) (h : k + 1 < K), a (k + 1) h = a k (Nat.lt_of_succ_lt h) + t ⟨k + 1, h⟩)
    (k : ℕ) (hk : k + 1 = K) : a k (by omega) = z + ∑ i : Fin K, t i := by
  subst hk
  exact running_total z t a h0 hs k (by omega)

end Cert.Lib.TileSum
-- ==== Proof.KI.Value0.lean ====
/-
  Region 0 read as functions: the linear layer and the statistics of its columns.

  The region walks the 40000 rows of its input in 50 blocks of 800 rows. On each block it stores the dense layer of the
  block — each row's inner products with the 64 rows of the weight, plus the bias — and adds the block's column sums, and the
  column sums of its squares, onto two running rows that start at zero. Since the 50 blocks tile the rows, the first output
  array after the region is the dense layer of the whole input (Glin0 below), and the running rows after the last block are the
  column sums of that array and of its squares over all 40000 rows. The last point stores, from them, each column's mean and its
  mean of squares minus the squared mean (Gstats0 below), and that is the only point whose statistics are written back.
-/
import proofs.«167917_j22402549416514_2_alg».proof.Proof.KI.Region0
import proofs.«167917_j22402549416514_2_alg».proof.Proof.Spec
import proofs.«167917_j22402549416514_2_alg».proof.Proof.LibColumnSums
import proofs.«167917_j22402549416514_2_alg».proof.Proof.LibTileSum
import proofs.«167917_j22402549416514_2_alg».proof.Proof.LibMatmulT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL.Sem
open Cert.Spec
open Cert.Lib.ColumnSums Cert.Lib.TileSum Idealize.ShloMosaic.MatmulT
open Idealize.ShloMosaic.Pipeline (Dat Cfg Window)
open scoped BigOperators

/-! # Region 0, read: the linear layer and its batch statistics as functions of the three input arrays -/

/-- The f32 word of 40000, the number of rows the statistics average over. -/
abbrev rows0 : EReal := Ideal.ofBits .f32 0x471C4000#32

/-- What region 0 leaves in its first output array: entry (r, q) is the dense layer's entry — the inner product of row r of
    the input with row q of the weight, plus the bias of column q. -/
def Glin0 (x : S40000x4096.Idx → EReal) (w : S64x4096.Idx → EReal) (b : S1x64.Idx → EReal) : S40000x64.Idx → EReal :=
  fun i => dense (fun k : Fin 4096 => x (ix2 (i 0) k)) (fun k => w (ix2 (i 1) k)) (b (ix2 (0 : Fin 1) (i 1)))

/-- What region 0 leaves in its second output array, from the first, `y`: row 0 is each column's mean over the 40000 rows,
    row 1 each column's mean of squares minus the square of its mean. -/
def Gstats0 (y : S40000x64.Idx → EReal) : S2x64.Idx → EReal :=
  fun i =>
    if (i 0).val = 0 then Ideal.div (∑ r : Fin 40000, y (ix2 r (i 1))) rows0
    else Ideal.div (∑ r : Fin 40000, y (ix2 r (i 1)) * y (ix2 r (i 1))) rows0
      - Ideal.div (∑ r : Fin 40000, y (ix2 r (i 1))) rows0 * Ideal.div (∑ r : Fin 40000, y (ix2 r (i 1))) rows0

/-- The stored block read at one entry: a dense layer's entry of the block's rows. -/
theorem lin0_apply (x0 : Vec Ideal S800x4096 .f32) (x1 : Vec Ideal S64x4096 .f32) (x2 : Vec Ideal S1x64 .f32) (p : Fin 800) (q : Fin 64) :
    lin0 (F := Ideal) x0 x1 x2 (ix2 p q)
      = dense (fun k : Fin 4096 => x0 (ix2 p k)) (fun k => x1 (ix2 q k)) (x2 (ix2 (0 : Fin 1) q)) := by
  unfold lin0 k0_pay1
  simp only [shapeCast_self]
  rw [addf_apply, broadcastTo_1b_ab_apply]
  unfold dense dot_S800x4096_S64x4096_S800x64_1_1_0_0_n_n
  exact congrArg (· + x2 (ix2 (0 : Fin 1) q)) (matmul_tr_zero_apply _ none _ _ p q)

/-- The first accumulator after a point, at column q: what it held plus the sum of the block's column q. -/
theorem acc0_0_apply (x0 : Vec Ideal S800x4096 .f32) (x1 : Vec Ideal S64x4096 .f32) (x2 s : Vec Ideal S1x64 .f32) (q : Fin 64) :
    acc0_0 (F := Ideal) x0 x1 x2 s (ix2 (0 : Fin 1) q)
      = s (ix2 (0 : Fin 1) q) + ∑ p : Fin 800, lin0 (F := Ideal) x0 x1 x2 (ix2 p q) := by
  unfold acc0_0 k0_pay4 lin0
  simp only [shapeCast_self]
  rw [addf_apply, shapeCast_a_1a_apply, colSum_apply]

/-- The second accumulator after a point, at column q: what it held plus the sum of the squares of the block's column q. -/
theorem acc0_1_apply (x0 : Vec Ideal S800x4096 .f32) (x1 : Vec Ideal S64x4096 .f32) (x2 s : Vec Ideal S1x64 .f32) (q : Fin 64) :
    acc0_1 (F := Ideal) x0 x1 x2 s (ix2 (0 : Fin 1) q)
      = s (ix2 (0 : Fin 1) q) + ∑ p : Fin 800, lin0 (F := Ideal) x0 x1 x2 (ix2 p q) * lin0 (F := Ideal) x0 x1 x2 (ix2 p q) := by
  unfold acc0_1 k0_pay5 lin0
  simp only [shapeCast_self]
  rw [addf_apply, shapeCast_a_1a_apply, colSum_apply]
  rfl

/-- Both accumulators start from zero. -/
theorem zero0_0_apply (j : S1x64.Idx) : zero0_0 (F := Ideal) j = 0 := by
  unfold zero0_0 k0_pay2
  simp only [shapeCast_self, broadcast_apply]
  exact Ideal.ofBits_zero_f32
theorem zero0_1_apply (j : S1x64.Idx) : zero0_1 (F := Ideal) j = 0 := by
  unfold zero0_1 k0_pay3
  simp only [shapeCast_self, broadcast_apply]
  exact Ideal.ofBits_zero_f32

/-- Row 0 of the statistics of sums `s0`, `s1`: the mean. -/
theorem stats0_mean_apply (s0 s1 : Vec Ideal S1x64 .f32) (q : Fin 64) :
    stats0 (F := Ideal) s0 s1 (ix2 (0 : Fin 2) q) = Ideal.div (s0 (ix2 (0 : Fin 1) q)) rows0 := by
  have hn : ix2 (0 : Fin 2) q ∉ (r0_var : Rect S2x64).set := by
    rw [Rect.mem_set_unit]; intro h
    have h0 : (1 : ℕ) ≤ 0 := (h 0).1
    omega
  have he : ix2 (0 : Fin 2) q = (r0_mean : Rect S2x64).emb (ix2 (0 : Fin 1) q) := by
    funext a; apply Fin.ext
    match a with
    | ⟨0, _⟩ => rfl
    | ⟨1, _⟩ => show q.val = 0 + 1 * q.val; omega
  unfold stats0
  rw [View.canon_cons_of_not_mem (⟨r0_var, k0_pay7 s0 s1⟩ : View.Piece (Elt Ideal) S2x64 .f32) [⟨r0_mean, k0_pay6 s0⟩] hn]
  refine (congrArg (View.canon _) he).trans ?_
  rw [View.canon_cons_emb]
  unfold k0_pay6
  simp only [divf_apply, broadcast_apply]
  rfl

/-- Row 1 of the statistics of sums `s0`, `s1`: the mean of squares minus the squared mean. -/
theorem stats0_var_apply (s0 s1 : Vec Ideal S1x64 .f32) (q : Fin 64) :
    stats0 (F := Ideal) s0 s1 (ix2 (1 : Fin 2) q)
      = Ideal.div (s1 (ix2 (0 : Fin 1) q)) rows0 - Ideal.div (s0 (ix2 (0 : Fin 1) q)) rows0 * Ideal.div (s0 (ix2 (0 : Fin 1) q)) rows0 := by
  unfold stats0
  have he : ix2 (1 : Fin 2) q = (r0_var : Rect S2x64).emb (ix2 (0 : Fin 1) q) := by
    funext a; apply Fin.ext
    match a with
    | ⟨0, _⟩ => rfl
    | ⟨1, _⟩ => show q.val = 0 + 1 * q.val; omega
  rw [he, View.canon_cons_emb]
  unfold k0_pay7 k0_pay6
  simp only [subf_apply, divf_apply, mulf_apply, broadcast_apply]
  rfl

variable (V : (c : Dev nD) → (b : Ref sig .tc) → Buf (Elt Ideal) ((c : Thread nD τ).loc b))

/-- The printed index maps, decided over the grid: at point t the input block and the block of rows are block t of the rows,
    all columns; the weight, the bias and the statistics are the one block of their arrays. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

/-- The input block at point t is rows 800 t … 800 t + 799 of the input array. -/
theorem iblk0_0_apply (c : Dev nD) (t : Fin cfg0.N) (x : S800x4096.Idx) (k : S40000x4096.Idx)
    (hk0 : (k 0).val = 800 * t.val + (x 0).val) (hk1 : (k 1).val = (x 1).val) :
    (iblk0 V c 0 t : Vec Ideal S800x4096 .f32) x = (V c (Pipeline.arrRef spec0 0) : S40000x4096.Idx → EReal) k := by
  obtain ⟨e0, e1, -⟩ := idx_facts0 t
  unfold iblk0
  rw [View.read_apply]
  show V c (Pipeline.arrRef spec0 0) _ = V c (Pipeline.arrRef spec0 0) k
  congr 1
  funext a
  apply Fin.ext
  match a with
  | ⟨0, _⟩ => show win0_0.index t 0 * 800 + 1 * (x 0).val = (k 0).val; rw [e0, hk0]; omega
  | ⟨1, _⟩ => show win0_0.index t 1 * 4096 + 1 * (x 1).val = (k 1).val; rw [e1, hk1]; omega

/-- The weight's block at every point is the whole [64, 64] array. -/
theorem iblk0_1_apply (c : Dev nD) (t : Fin cfg0.N) (x : S64x4096.Idx) :
    (iblk0 V c 1 t : Vec Ideal S64x4096 .f32) x = (V c (Pipeline.arrRef spec0 1) : S64x4096.Idx → EReal) x := by
  obtain ⟨-, -, e0, e1, -⟩ := idx_facts0 t
  unfold iblk0
  rw [View.read_apply]
  show V c (Pipeline.arrRef spec0 1) _ = V c (Pipeline.arrRef spec0 1) x
  congr 1
  funext a
  apply Fin.ext
  match a with
  | ⟨0, _⟩ => show win0_1.index t 0 * 64 + 1 * (x 0).val = (x 0).val; rw [e0]; omega
  | ⟨1, _⟩ => show win0_1.index t 1 * 4096 + 1 * (x 1).val = (x 1).val; rw [e1]; omega

/-- The bias's block at every point is the whole [1, 64] array. -/
theorem iblk0_2_apply (c : Dev nD) (t : Fin cfg0.N) (x : S1x64.Idx) :
    (iblk0 V c 2 t : Vec Ideal S1x64 .f32) x = (V c (Pipeline.arrRef spec0 2) : S1x64.Idx → EReal) x := by
  obtain ⟨-, -, -, -, e0, e1, -⟩ := idx_facts0 t
  unfold iblk0
  rw [View.read_apply]
  show V c (Pipeline.arrRef spec0 2) _ = V c (Pipeline.arrRef spec0 2) x
  congr 1
  funext a
  apply Fin.ext
  match a with
  | ⟨0, _⟩ => show win0_2.index t 0 * 1 + 1 * (x 0).val = (x 0).val; rw [e0]; omega
  | ⟨1, _⟩ => show win0_2.index t 1 * 64 + 1 * (x 1).val = (x 1).val; rw [e1]; omega

/-- The block stored at point t, at entry j: the dense layer of the whole input arrays at row 800 t + j₀, column j₁. -/
theorem lin0_blk_apply (c : Dev nD) (t : Fin cfg0.N) (j : S800x64.Idx) (k : S40000x64.Idx)
    (hk0 : (k 0).val = 800 * t.val + (j 0).val) (hk1 : (k 1).val = (j 1).val) :
    lin0 (F := Ideal) (iblk0 V c 0 t) (iblk0 V c 1 t) (iblk0 V c 2 t) j = Glin0 (V c (Pipeline.arrRef spec0 0)) (V c (Pipeline.arrRef spec0 1)) (V c (Pipeline.arrRef spec0 2)) k := by
  obtain ⟨p, q, rfl⟩ : ∃ (p : Fin 800) (q : Fin 64), j = ix2 p q := ⟨j 0, j 1, eq_ix2 j⟩
  have hq : k 1 = q := Fin.ext hk1
  rw [lin0_apply]
  unfold Glin0
  rw [hq]
  refine congr (congr (congrArg dense ?_) ?_) ?_
  · funext kk; exact iblk0_0_apply V c t (ix2 p kk) (ix2 (k 0) kk) hk0 rfl
  · funext kk; exact iblk0_1_apply V c t (ix2 q kk)
  · exact iblk0_2_apply V c t (ix2 (0 : Fin 1) q)

/-- What point t writes back into the first output array is block t of `Glin0` of the three input arrays. -/
theorem flushed0_3_eq (c : Dev nD) (t : Fin cfg0.N) :
    (dat0 V c).flushed 3 t = ((cfg0.win 3).blk t).view.read (Elt Ideal) (Glin0 (V c (Pipeline.arrRef spec0 0)) (V c (Pipeline.arrRef spec0 1)) (V c (Pipeline.arrRef spec0 2))) := by
  show (cfg0.win 3).cut (grid0.coords t) ((dat0 V c).after 3 t) = _
  rw [after0_3_eq]
  obtain ⟨-, -, -, -, -, -, e0, e1, -⟩ := idx_facts0 t
  funext j
  show lin0 (F := Ideal) (iblk0 V c 0 t) (iblk0 V c 1 t) (iblk0 V c 2 t) j = Glin0 _ _ _ (((cfg0.win 3).blk t).view.emb j)
  refine lin0_blk_apply V c t j _ ?_ ?_
  · show win0_3.index t 0 * 800 + 1 * (j 0).val = 800 * t.val + (j 0).val
    rw [e0]; omega
  · show win0_3.index t 1 * 64 + 1 * (j 1).val = (j 1).val
    rw [e1]; omega

/-- An index of the first output array is in point t's block iff each coordinate is in the block's range on its axis. -/
theorem mem_blk0_3 (t : Fin cfg0.N) (i : S40000x64.Idx) :
    i ∈ ((cfg0.win 3).blk t).view.set ↔ ∀ a : Fin 2, win0_3.index t a * S800x64.size a ≤ (i a).val
      ∧ (i a).val < win0_3.index t a * S800x64.size a + S800x64.size a := by
  show i ∈ ((View.whole main_v32_0).slice (win0_3.rect t)).set ↔ _
  rw [View.set_slice_whole, Rect.mem_set_unit]
  exact Iff.rfl

/-- Every index of the first output array is in the block of the point its row falls in. -/
theorem cover0_3_arr (i : S40000x64.Idx) :
    ∃ t : Fin cfg0.N, (cfg0.win 3).flush t = true ∧ i ∈ ((cfg0.win 3).blk t).view.set := by
  have hi0 : (i 0).val < 40000 := (i 0).isLt
  have hi1 : (i 1).val < 64 := (i 1).isLt
  obtain ⟨t, ht⟩ : ∃ t : Fin cfg0.N, t.val = (i 0).val / 800 :=
    ⟨⟨(i 0).val / 800, by rw [show cfg0.N = 50 from N_0]; omega⟩, rfl⟩
  obtain ⟨-, -, -, -, -, -, e0, e1, -⟩ := idx_facts0 t
  refine ⟨t, flush0_3 t, ?_⟩
  rw [mem_blk0_3]
  intro a
  match a with
  | ⟨0, _⟩ =>
    show win0_3.index t 0 * 800 ≤ (i 0).val ∧ (i 0).val < win0_3.index t 0 * 800 + 800
    rw [e0, ht]; omega
  | ⟨1, _⟩ =>
    show win0_3.index t 1 * 64 ≤ (i 1).val ∧ (i 1).val < win0_3.index t 1 * 64 + 64
    rw [e1]; omega

/-- THE FIRST OUTPUT ARRAY after the region: the dense layer of the three input arrays as the region finds them. -/
theorem final0_lin (c : Dev nD) :
    (dat0 V c).arrAt 3 cfg0.N = Glin0 (V c (Pipeline.arrRef spec0 0)) (V c (Pipeline.arrRef spec0 1)) (V c (Pipeline.arrRef spec0 2)) :=
  (dat0 V c).arrAt_eq_of_cover 3 _ (fun t _ => flushed0_3_eq V c t) (fun i => cover0_3_arr i)

/-! ## The running sums: 50 tiles of 800 rows -/

theorem tiles0_eq : 40000 = 50 * 800 := by norm_num

/-- The sum of a function of the block's entries of column q at point t is the sum over tile t of the same function of the
    dense layer's entries: rows 800 t … 800 t + 799 of column q. -/
theorem tile0_sum (f : EReal → EReal) (c : Dev nD) (t : Fin cfg0.N) (ht : t.val < 50) (q : Fin 64) :
    ∑ p : Fin 800, f (lin0 (F := Ideal) (iblk0 V c 0 t) (iblk0 V c 1 t) (iblk0 V c 2 t) (ix2 p q))
      = ∑ p : Fin 800, f (Glin0 (V c (Pipeline.arrRef spec0 0)) (V c (Pipeline.arrRef spec0 1)) (V c (Pipeline.arrRef spec0 2))
          (ix2 (⟨(⟨t.val, ht⟩ : Fin 50).val * 800 + p.val, tiles0_eq ▸ pos_lt (⟨t.val, ht⟩ : Fin 50) p⟩ : Fin 40000) q)) :=
  Finset.sum_congr rfl fun p _ => congrArg f (lin0_blk_apply V c t (ix2 p q) _
    (by show t.val * 800 + p.val = 800 * t.val + p.val; omega) rfl)

/-- After the last point the first accumulator holds, at column q, the sum of the dense layer's column q over all 40000 rows, -/
theorem sums0_last_fst (c : Dev nD) (t : Fin cfg0.N) (ht : t.val = 49) (q : Fin 64) :
    (sums0 V c t.val t.isLt).1 (ix2 (0 : Fin 1) q) = ∑ r : Fin 40000, Glin0 (V c (Pipeline.arrRef spec0 0)) (V c (Pipeline.arrRef spec0 1)) (V c (Pipeline.arrRef spec0 2)) (ix2 r q) := by
  obtain ⟨n, hn⟩ := t
  dsimp only at ht
  subst ht
  have hN : cfg0.N = 50 := N_0
  have key := running_total_last (K := 50) (0 : EReal)
    (fun i : Fin 50 => ∑ p : Fin 800, Glin0 (V c (Pipeline.arrRef spec0 0)) (V c (Pipeline.arrRef spec0 1)) (V c (Pipeline.arrRef spec0 2)) (ix2 (⟨i.val * 800 + p.val, tiles0_eq ▸ pos_lt i p⟩ : Fin 40000) q))
    (fun k hk => (sums0 V c k (lt_of_lt_of_eq hk hN.symm)).1 (ix2 (0 : Fin 1) q))
    (fun h => by
      show (acc0_0 (F := Ideal) _ _ _ zero0_0) (ix2 (0 : Fin 1) q) = _
      rw [acc0_0_apply, zero0_0_apply]
      exact congrArg (0 + ·) (tile0_sum V id c ⟨0, lt_of_lt_of_eq h hN.symm⟩ h q))
    (fun k h => by
      show (acc0_0 (F := Ideal) _ _ _ (sums0 V c k _).1) (ix2 (0 : Fin 1) q) = _
      rw [acc0_0_apply]
      exact congrArg (_ + ·) (tile0_sum V id c ⟨k + 1, lt_of_lt_of_eq h hN.symm⟩ h q))
    49 rfl
  refine key.trans ?_
  rw [zero_add]
  exact (sum_tiles_of_eq tiles0_eq (fun r : Fin 40000 => Glin0 (V c (Pipeline.arrRef spec0 0)) (V c (Pipeline.arrRef spec0 1)) (V c (Pipeline.arrRef spec0 2)) (ix2 r q))).symm

/-- and the second the sum of the squares of that column. -/
theorem sums0_last_snd (c : Dev nD) (t : Fin cfg0.N) (ht : t.val = 49) (q : Fin 64) :
    (sums0 V c t.val t.isLt).2 (ix2 (0 : Fin 1) q)
      = ∑ r : Fin 40000, Glin0 (V c (Pipeline.arrRef spec0 0)) (V c (Pipeline.arrRef spec0 1)) (V c (Pipeline.arrRef spec0 2)) (ix2 r q) * Glin0 (V c (Pipeline.arrRef spec0 0)) (V c (Pipeline.arrRef spec0 1)) (V c (Pipeline.arrRef spec0 2)) (ix2 r q) := by
  obtain ⟨n, hn⟩ := t
  dsimp only at ht
  subst ht
  have hN : cfg0.N = 50 := N_0
  have key := running_total_last (K := 50) (0 : EReal)
    (fun i : Fin 50 => ∑ p : Fin 800, (fun y : EReal => y * y) (Glin0 (V c (Pipeline.arrRef spec0 0)) (V c (Pipeline.arrRef spec0 1)) (V c (Pipeline.arrRef spec0 2)) (ix2 (⟨i.val * 800 + p.val, tiles0_eq ▸ pos_lt i p⟩ : Fin 40000) q)))
    (fun k hk => (sums0 V c k (lt_of_lt_of_eq hk hN.symm)).2 (ix2 (0 : Fin 1) q))
    (fun h => by
      show (acc0_1 (F := Ideal) _ _ _ zero0_1) (ix2 (0 : Fin 1) q) = _
      rw [acc0_1_apply, zero0_1_apply]
      exact congrArg (0 + ·) (tile0_sum V (fun y => y * y) c ⟨0, lt_of_lt_of_eq h hN.symm⟩ h q))
    (fun k h => by
      show (acc0_1 (F := Ideal) _ _ _ (sums0 V c k _).2) (ix2 (0 : Fin 1) q) = _
      rw [acc0_1_apply]
      exact congrArg (_ + ·) (tile0_sum V (fun y => y * y) c ⟨k + 1, lt_of_lt_of_eq h hN.symm⟩ h q))
    49 rfl
  refine key.trans ?_
  rw [zero_add]
  exact (sum_tiles_of_eq tiles0_eq (fun r : Fin 40000 => Glin0 (V c (Pipeline.arrRef spec0 0)) (V c (Pipeline.arrRef spec0 1)) (V c (Pipeline.arrRef spec0 2)) (ix2 r q) * Glin0 (V c (Pipeline.arrRef spec0 0)) (V c (Pipeline.arrRef spec0 1)) (V c (Pipeline.arrRef spec0 2)) (ix2 r q))).symm

/-! ## The statistics array -/

/-- What the last point writes back into the second output array is `Gstats0` of the dense layer of the three input arrays. -/
theorem flushed0_4_eq (c : Dev nD) (t : Fin cfg0.N) (hf : (cfg0.win 4).flush t = true) :
    (dat0 V c).flushed 4 t = ((cfg0.win 4).blk t).view.read (Elt Ideal) (Gstats0 (Glin0 (V c (Pipeline.arrRef spec0 0)) (V c (Pipeline.arrRef spec0 1)) (V c (Pipeline.arrRef spec0 2)))) := by
  have ht : t.val = 49 := by
    have h := (flush0_4 t).mp hf
    have hN : t.val < 50 := lt_of_lt_of_eq t.isLt (show cfg0.N = 50 from N_0)
    omega
  show (cfg0.win 4).cut (grid0.coords t) ((dat0 V c).after 4 t) = _
  rw [after0_4_eq]
  obtain ⟨-, -, -, -, -, -, -, -, e0, e1⟩ := idx_facts0 t
  funext j
  show stats0 (F := Ideal) (sums0 V c t.val t.isLt).1 (sums0 V c t.val t.isLt).2 j = Gstats0 _ (((cfg0.win 4).blk t).view.emb j)
  have hemb : (((cfg0.win 4).blk t).view.emb j : S2x64.Idx) = j := by
    funext a; apply Fin.ext
    match a with
    | ⟨0, _⟩ => show win0_4.index t 0 * 2 + 1 * (j 0).val = (j 0).val; rw [e0]; omega
    | ⟨1, _⟩ => show win0_4.index t 1 * 64 + 1 * (j 1).val = (j 1).val; rw [e1]; omega
  rw [hemb]
  obtain ⟨u, q, rfl⟩ : ∃ (u : Fin 2) (q : Fin 64), j = ix2 u q := ⟨j 0, j 1, eq_ix2 j⟩
  unfold Gstats0
  match u with
  | ⟨0, _⟩ =>
    rw [if_pos (by rfl)]
    exact (stats0_mean_apply _ _ q).trans (congrArg (Ideal.div · rows0) (sums0_last_fst V c t ht q))
  | ⟨1, _⟩ =>
    rw [if_neg (by show ¬(1 : ℕ) = 0; omega)]
    refine (stats0_var_apply _ _ q).trans ?_
    rw [sums0_last_fst V c t ht q, sums0_last_snd V c t ht q]

/-- Every index of the second output array is in the last point's block, the whole array. -/
theorem cover0_4_arr (i : S2x64.Idx) :
    ∃ t : Fin cfg0.N, (cfg0.win 4).flush t = true ∧ i ∈ ((cfg0.win 4).blk t).view.set := by
  have hi0 : (i 0).val < 2 := (i 0).isLt
  have hi1 : (i 1).val < 64 := (i 1).isLt
  obtain ⟨t, ht⟩ : ∃ t : Fin cfg0.N, t.val = 49 := ⟨⟨49, by rw [show cfg0.N = 50 from N_0]; omega⟩, rfl⟩
  obtain ⟨-, -, -, -, -, -, -, -, e0, e1⟩ := idx_facts0 t
  refine ⟨t, (flush0_4 t).mpr (by rw [ht]), ?_⟩
  show i ∈ ((View.whole main_v32_1).slice (win0_4.rect t)).set
  rw [View.set_slice_whole, Rect.mem_set_unit]
  intro a
  match a with
  | ⟨0, _⟩ =>
    show win0_4.index t 0 * 2 ≤ (i 0).val ∧ (i 0).val < win0_4.index t 0 * 2 + 2
    rw [e0]; omega
  | ⟨1, _⟩ =>
    show win0_4.index t 1 * 64 ≤ (i 1).val ∧ (i 1).val < win0_4.index t 1 * 64 + 64
    rw [e1]; omega

/-- THE SECOND OUTPUT ARRAY after the region: the column statistics of the dense layer of the three input arrays. -/
theorem final0_stats (c : Dev nD) :
    (dat0 V c).arrAt 4 cfg0.N = Gstats0 (Glin0 (V c (Pipeline.arrRef spec0 0)) (V c (Pipeline.arrRef spec0 1)) (V c (Pipeline.arrRef spec0 2))) :=
  (dat0 V c).arrAt_eq_of_cover 4 _ (fun t hf => flushed0_4_eq V c t hf) (fun i => cover0_4_arr i)

end Cert.KernelIdeal.Regions

end
-- ==== Proof.KI.Value2.lean ====
/-
  Region 2 read as functions: the linear layer and the statistics of its columns.

  The region walks the 40000 rows of its input in eight blocks of 5000 rows. On each block it stores the dense layer of the
  block — each row's inner products with the 64 rows of the weight, plus the bias — and adds the block's column sums, and the
  column sums of its squares, onto two running rows that start at zero. Since the eight blocks tile the rows, the first output
  array after the region is the dense layer of the whole input (Glin2 below), and the running rows after the last block are the
  column sums of that array and of its squares over all 40000 rows. The last point stores, from them, each column's mean and its
  mean of squares minus the squared mean (Gstats2 below), and that is the only point whose statistics are written back.
-/
import proofs.«167917_j22402549416514_2_alg».proof.Proof.KI.Region2
import proofs.«167917_j22402549416514_2_alg».proof.Proof.Spec
import proofs.«167917_j22402549416514_2_alg».proof.Proof.LibColumnSums
import proofs.«167917_j22402549416514_2_alg».proof.Proof.LibTileSum
import proofs.«167917_j22402549416514_2_alg».proof.Proof.LibMatmulT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL.Sem
open Cert.Spec
open Cert.Lib.ColumnSums Cert.Lib.TileSum Idealize.ShloMosaic.MatmulT
open Idealize.ShloMosaic.Pipeline (Dat Cfg Window)
open scoped BigOperators

/-! # Region 2, read: the linear layer and its batch statistics as functions of the three input arrays -/

/-- The f32 word of 40000, the number of rows the statistics average over. -/
abbrev rows2 : EReal := Ideal.ofBits .f32 0x471C4000#32

/-- What region 2 leaves in its first output array: entry (r, q) is the dense layer's entry — the inner product of row r of
    the input with row q of the weight, plus the bias of column q. -/
def Glin2 (x : S40000x64.Idx → EReal) (w : S64x64.Idx → EReal) (b : S1x64.Idx → EReal) : S40000x64.Idx → EReal :=
  fun i => dense (fun k : Fin 64 => x (ix2 (i 0) k)) (fun k => w (ix2 (i 1) k)) (b (ix2 (0 : Fin 1) (i 1)))

/-- What region 2 leaves in its second output array, from the first, `y`: row 0 is each column's mean over the 40000 rows,
    row 1 each column's mean of squares minus the square of its mean. -/
def Gstats2 (y : S40000x64.Idx → EReal) : S2x64.Idx → EReal :=
  fun i =>
    if (i 0).val = 0 then Ideal.div (∑ r : Fin 40000, y (ix2 r (i 1))) rows2
    else Ideal.div (∑ r : Fin 40000, y (ix2 r (i 1)) * y (ix2 r (i 1))) rows2
      - Ideal.div (∑ r : Fin 40000, y (ix2 r (i 1))) rows2 * Ideal.div (∑ r : Fin 40000, y (ix2 r (i 1))) rows2

/-- The stored block read at one entry: a dense layer's entry of the block's rows. -/
theorem lin2_apply (x0 : Vec Ideal S5000x64 .f32) (x1 : Vec Ideal S64x64 .f32) (x2 : Vec Ideal S1x64 .f32) (p : Fin 5000) (q : Fin 64) :
    lin2 (F := Ideal) x0 x1 x2 (ix2 p q)
      = dense (fun k : Fin 64 => x0 (ix2 p k)) (fun k => x1 (ix2 q k)) (x2 (ix2 (0 : Fin 1) q)) := by
  unfold lin2 k2_pay3
  simp only [shapeCast_self]
  rw [addf_apply, broadcastTo_1b_ab_apply]
  unfold dense dot_S5000x64_S64x64_S5000x64_1_1_0_0_n_n
  exact congrArg (· + x2 (ix2 (0 : Fin 1) q)) (matmul_tr_zero_apply _ none _ _ p q)

/-- The first accumulator after a point, at column q: what it held plus the sum of the block's column q. -/
theorem acc2_0_apply (x0 : Vec Ideal S5000x64 .f32) (x1 : Vec Ideal S64x64 .f32) (x2 s : Vec Ideal S1x64 .f32) (q : Fin 64) :
    acc2_0 (F := Ideal) x0 x1 x2 s (ix2 (0 : Fin 1) q)
      = s (ix2 (0 : Fin 1) q) + ∑ p : Fin 5000, lin2 (F := Ideal) x0 x1 x2 (ix2 p q) := by
  unfold acc2_0 k2_pay6 lin2
  simp only [shapeCast_self]
  rw [addf_apply, shapeCast_a_1a_apply, colSum_apply]

/-- The second accumulator after a point, at column q: what it held plus the sum of the squares of the block's column q. -/
theorem acc2_1_apply (x0 : Vec Ideal S5000x64 .f32) (x1 : Vec Ideal S64x64 .f32) (x2 s : Vec Ideal S1x64 .f32) (q : Fin 64) :
    acc2_1 (F := Ideal) x0 x1 x2 s (ix2 (0 : Fin 1) q)
      = s (ix2 (0 : Fin 1) q) + ∑ p : Fin 5000, lin2 (F := Ideal) x0 x1 x2 (ix2 p q) * lin2 (F := Ideal) x0 x1 x2 (ix2 p q) := by
  unfold acc2_1 k2_pay7 lin2
  simp only [shapeCast_self]
  rw [addf_apply, shapeCast_a_1a_apply, colSum_apply]
  rfl

/-- Both accumulators start from zero. -/
theorem zero2_0_apply (j : S1x64.Idx) : zero2_0 (F := Ideal) j = 0 := by
  unfold zero2_0 k2_pay4
  simp only [shapeCast_self, broadcast_apply]
  exact Ideal.ofBits_zero_f32
theorem zero2_1_apply (j : S1x64.Idx) : zero2_1 (F := Ideal) j = 0 := by
  unfold zero2_1 k2_pay5
  simp only [shapeCast_self, broadcast_apply]
  exact Ideal.ofBits_zero_f32

/-- Row 0 of the statistics of sums `s0`, `s1`: the mean. -/
theorem stats2_mean_apply (s0 s1 : Vec Ideal S1x64 .f32) (q : Fin 64) :
    stats2 (F := Ideal) s0 s1 (ix2 (0 : Fin 2) q) = Ideal.div (s0 (ix2 (0 : Fin 1) q)) rows2 := by
  have hn : ix2 (0 : Fin 2) q ∉ (r2_var : Rect S2x64).set := by
    rw [Rect.mem_set_unit]; intro h
    have h0 : (1 : ℕ) ≤ 0 := (h 0).1
    omega
  have he : ix2 (0 : Fin 2) q = (r2_mean : Rect S2x64).emb (ix2 (0 : Fin 1) q) := by
    funext a; apply Fin.ext
    match a with
    | ⟨0, _⟩ => rfl
    | ⟨1, _⟩ => show q.val = 0 + 1 * q.val; omega
  unfold stats2
  rw [View.canon_cons_of_not_mem (⟨r2_var, k2_pay2 s0 s1⟩ : View.Piece (Elt Ideal) S2x64 .f32) [⟨r2_mean, k2_pay1 s0⟩] hn]
  refine (congrArg (View.canon _) he).trans ?_
  rw [View.canon_cons_emb]
  unfold k2_pay1
  simp only [divf_apply, broadcast_apply]
  rfl

/-- Row 1 of the statistics of sums `s0`, `s1`: the mean of squares minus the squared mean. -/
theorem stats2_var_apply (s0 s1 : Vec Ideal S1x64 .f32) (q : Fin 64) :
    stats2 (F := Ideal) s0 s1 (ix2 (1 : Fin 2) q)
      = Ideal.div (s1 (ix2 (0 : Fin 1) q)) rows2 - Ideal.div (s0 (ix2 (0 : Fin 1) q)) rows2 * Ideal.div (s0 (ix2 (0 : Fin 1) q)) rows2 := by
  unfold stats2
  have he : ix2 (1 : Fin 2) q = (r2_var : Rect S2x64).emb (ix2 (0 : Fin 1) q) := by
    funext a; apply Fin.ext
    match a with
    | ⟨0, _⟩ => rfl
    | ⟨1, _⟩ => show q.val = 0 + 1 * q.val; omega
  rw [he, View.canon_cons_emb]
  unfold k2_pay2 k2_pay1
  simp only [subf_apply, divf_apply, mulf_apply, broadcast_apply]
  rfl

variable (V : (c : Dev nD) → (b : Ref sig .tc) → Buf (Elt Ideal) ((c : Thread nD τ).loc b))

/-- The printed index maps, decided over the grid: at point t the input block and the block of rows are block t of the rows,
    all columns; the weight, the bias and the statistics are the one block of their arrays. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0 :=
  (by decide +kernel : ∀ t : Fin grid2.N, _)

/-- The input block at point t is rows 5000 t … 5000 t + 4999 of the input array. -/
theorem iblk2_0_apply (c : Dev nD) (t : Fin cfg2.N) (x : S5000x64.Idx) (k : S40000x64.Idx)
    (hk0 : (k 0).val = 5000 * t.val + (x 0).val) (hk1 : (k 1).val = (x 1).val) :
    (iblk2 V c 0 t : Vec Ideal S5000x64 .f32) x = (V c (Pipeline.arrRef spec2 0) : S40000x64.Idx → EReal) k := by
  obtain ⟨e0, e1, -⟩ := idx_facts2 t
  unfold iblk2
  rw [View.read_apply]
  show V c (Pipeline.arrRef spec2 0) _ = V c (Pipeline.arrRef spec2 0) k
  congr 1
  funext a
  apply Fin.ext
  match a with
  | ⟨0, _⟩ => show win2_0.index t 0 * 5000 + 1 * (x 0).val = (k 0).val; rw [e0, hk0]; omega
  | ⟨1, _⟩ => show win2_0.index t 1 * 64 + 1 * (x 1).val = (k 1).val; rw [e1, hk1]; omega

/-- The weight's block at every point is the whole [64, 64] array. -/
theorem iblk2_1_apply (c : Dev nD) (t : Fin cfg2.N) (x : S64x64.Idx) :
    (iblk2 V c 1 t : Vec Ideal S64x64 .f32) x = (V c (Pipeline.arrRef spec2 1) : S64x64.Idx → EReal) x := by
  obtain ⟨-, -, e0, e1, -⟩ := idx_facts2 t
  unfold iblk2
  rw [View.read_apply]
  show V c (Pipeline.arrRef spec2 1) _ = V c (Pipeline.arrRef spec2 1) x
  congr 1
  funext a
  apply Fin.ext
  match a with
  | ⟨0, _⟩ => show win2_1.index t 0 * 64 + 1 * (x 0).val = (x 0).val; rw [e0]; omega
  | ⟨1, _⟩ => show win2_1.index t 1 * 64 + 1 * (x 1).val = (x 1).val; rw [e1]; omega

/-- The bias's block at every point is the whole [1, 64] array. -/
theorem iblk2_2_apply (c : Dev nD) (t : Fin cfg2.N) (x : S1x64.Idx) :
    (iblk2 V c 2 t : Vec Ideal S1x64 .f32) x = (V c (Pipeline.arrRef spec2 2) : S1x64.Idx → EReal) x := by
  obtain ⟨-, -, -, -, e0, e1, -⟩ := idx_facts2 t
  unfold iblk2
  rw [View.read_apply]
  show V c (Pipeline.arrRef spec2 2) _ = V c (Pipeline.arrRef spec2 2) x
  congr 1
  funext a
  apply Fin.ext
  match a with
  | ⟨0, _⟩ => show win2_2.index t 0 * 1 + 1 * (x 0).val = (x 0).val; rw [e0]; omega
  | ⟨1, _⟩ => show win2_2.index t 1 * 64 + 1 * (x 1).val = (x 1).val; rw [e1]; omega

/-- The block stored at point t, at entry j: the dense layer of the whole input arrays at row 5000 t + j₀, column j₁. -/
theorem lin2_blk_apply (c : Dev nD) (t : Fin cfg2.N) (j : S5000x64.Idx) (k : S40000x64.Idx)
    (hk0 : (k 0).val = 5000 * t.val + (j 0).val) (hk1 : (k 1).val = (j 1).val) :
    lin2 (F := Ideal) (iblk2 V c 0 t) (iblk2 V c 1 t) (iblk2 V c 2 t) j = Glin2 (V c (Pipeline.arrRef spec2 0)) (V c (Pipeline.arrRef spec2 1)) (V c (Pipeline.arrRef spec2 2)) k := by
  obtain ⟨p, q, rfl⟩ : ∃ (p : Fin 5000) (q : Fin 64), j = ix2 p q := ⟨j 0, j 1, eq_ix2 j⟩
  have hq : k 1 = q := Fin.ext hk1
  rw [lin2_apply]
  unfold Glin2
  rw [hq]
  refine congr (congr (congrArg dense ?_) ?_) ?_
  · funext kk; exact iblk2_0_apply V c t (ix2 p kk) (ix2 (k 0) kk) hk0 rfl
  · funext kk; exact iblk2_1_apply V c t (ix2 q kk)
  · exact iblk2_2_apply V c t (ix2 (0 : Fin 1) q)

/-- What point t writes back into the first output array is block t of `Glin2` of the three input arrays. -/
theorem flushed2_3_eq (c : Dev nD) (t : Fin cfg2.N) :
    (dat2 V c).flushed 3 t = ((cfg2.win 3).blk t).view.read (Elt Ideal) (Glin2 (V c (Pipeline.arrRef spec2 0)) (V c (Pipeline.arrRef spec2 1)) (V c (Pipeline.arrRef spec2 2))) := by
  show (cfg2.win 3).cut (grid2.coords t) ((dat2 V c).after 3 t) = _
  rw [after2_3_eq]
  obtain ⟨-, -, -, -, -, -, e0, e1, -⟩ := idx_facts2 t
  funext j
  show lin2 (F := Ideal) (iblk2 V c 0 t) (iblk2 V c 1 t) (iblk2 V c 2 t) j = Glin2 _ _ _ (((cfg2.win 3).blk t).view.emb j)
  refine lin2_blk_apply V c t j _ ?_ ?_
  · show win2_3.index t 0 * 5000 + 1 * (j 0).val = 5000 * t.val + (j 0).val
    rw [e0]; omega
  · show win2_3.index t 1 * 64 + 1 * (j 1).val = (j 1).val
    rw [e1]; omega

/-- An index of the first output array is in point t's block iff each coordinate is in the block's range on its axis. -/
theorem mem_blk2_3 (t : Fin cfg2.N) (i : S40000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v37_0).slice (win2_3.rect t)).set ↔ _
  rw [View.set_slice_whole, Rect.mem_set_unit]
  exact Iff.rfl

/-- Every index of the first output array is in the block of the point its row falls in. -/
theorem cover2_3_arr (i : S40000x64.Idx) :
    ∃ t : Fin cfg2.N, (cfg2.win 3).flush t = true ∧ i ∈ ((cfg2.win 3).blk t).view.set := by
  have hi0 : (i 0).val < 40000 := (i 0).isLt
  have hi1 : (i 1).val < 64 := (i 1).isLt
  obtain ⟨t, ht⟩ : ∃ t : Fin cfg2.N, t.val = (i 0).val / 5000 :=
    ⟨⟨(i 0).val / 5000, by rw [show cfg2.N = 8 from N_2]; omega⟩, rfl⟩
  obtain ⟨-, -, -, -, -, -, e0, e1, -⟩ := idx_facts2 t
  refine ⟨t, flush2_3 t, ?_⟩
  rw [mem_blk2_3]
  intro a
  match a with
  | ⟨0, _⟩ =>
    show win2_3.index t 0 * 5000 ≤ (i 0).val ∧ (i 0).val < win2_3.index t 0 * 5000 + 5000
    rw [e0, ht]; omega
  | ⟨1, _⟩ =>
    show win2_3.index t 1 * 64 ≤ (i 1).val ∧ (i 1).val < win2_3.index t 1 * 64 + 64
    rw [e1]; omega

/-- THE FIRST OUTPUT ARRAY after the region: the dense layer of the three input arrays as the region finds them. -/
theorem final2_lin (c : Dev nD) :
    (dat2 V c).arrAt 3 cfg2.N = Glin2 (V c (Pipeline.arrRef spec2 0)) (V c (Pipeline.arrRef spec2 1)) (V c (Pipeline.arrRef spec2 2)) :=
  (dat2 V c).arrAt_eq_of_cover 3 _ (fun t _ => flushed2_3_eq V c t) (fun i => cover2_3_arr i)

/-! ## The running sums: eight tiles of 5000 rows -/

theorem tiles2_eq : 40000 = 8 * 5000 := by norm_num

/-- The sum of a function of the block's entries of column q at point t is the sum over tile t of the same function of the
    dense layer's entries: rows 5000 t … 5000 t + 4999 of column q. -/
theorem tile2_sum (f : EReal → EReal) (c : Dev nD) (t : Fin cfg2.N) (ht : t.val < 8) (q : Fin 64) :
    ∑ p : Fin 5000, f (lin2 (F := Ideal) (iblk2 V c 0 t) (iblk2 V c 1 t) (iblk2 V c 2 t) (ix2 p q))
      = ∑ p : Fin 5000, f (Glin2 (V c (Pipeline.arrRef spec2 0)) (V c (Pipeline.arrRef spec2 1)) (V c (Pipeline.arrRef spec2 2))
          (ix2 (⟨(⟨t.val, ht⟩ : Fin 8).val * 5000 + p.val, tiles2_eq ▸ pos_lt (⟨t.val, ht⟩ : Fin 8) p⟩ : Fin 40000) q)) :=
  Finset.sum_congr rfl fun p _ => congrArg f (lin2_blk_apply V c t (ix2 p q) _
    (by show t.val * 5000 + p.val = 5000 * t.val + p.val; omega) rfl)

/-- After the last point the first accumulator holds, at column q, the sum of the dense layer's column q over all 40000 rows, -/
theorem sums2_last_fst (c : Dev nD) (t : Fin cfg2.N) (ht : t.val = 7) (q : Fin 64) :
    (sums2 V c t.val t.isLt).1 (ix2 (0 : Fin 1) q) = ∑ r : Fin 40000, Glin2 (V c (Pipeline.arrRef spec2 0)) (V c (Pipeline.arrRef spec2 1)) (V c (Pipeline.arrRef spec2 2)) (ix2 r q) := by
  obtain ⟨n, hn⟩ := t
  dsimp only at ht
  subst ht
  have hN : cfg2.N = 8 := N_2
  have key := running_total_last (K := 8) (0 : EReal)
    (fun i : Fin 8 => ∑ p : Fin 5000, Glin2 (V c (Pipeline.arrRef spec2 0)) (V c (Pipeline.arrRef spec2 1)) (V c (Pipeline.arrRef spec2 2)) (ix2 (⟨i.val * 5000 + p.val, tiles2_eq ▸ pos_lt i p⟩ : Fin 40000) q))
    (fun k hk => (sums2 V c k (lt_of_lt_of_eq hk hN.symm)).1 (ix2 (0 : Fin 1) q))
    (fun h => by
      show (acc2_0 (F := Ideal) _ _ _ zero2_0) (ix2 (0 : Fin 1) q) = _
      rw [acc2_0_apply, zero2_0_apply]
      exact congrArg (0 + ·) (tile2_sum V id c ⟨0, lt_of_lt_of_eq h hN.symm⟩ h q))
    (fun k h => by
      show (acc2_0 (F := Ideal) _ _ _ (sums2 V c k _).1) (ix2 (0 : Fin 1) q) = _
      rw [acc2_0_apply]
      exact congrArg (_ + ·) (tile2_sum V id c ⟨k + 1, lt_of_lt_of_eq h hN.symm⟩ h q))
    7 rfl
  refine key.trans ?_
  rw [zero_add]
  exact (sum_tiles_of_eq tiles2_eq (fun r : Fin 40000 => Glin2 (V c (Pipeline.arrRef spec2 0)) (V c (Pipeline.arrRef spec2 1)) (V c (Pipeline.arrRef spec2 2)) (ix2 r q))).symm

/-- and the second the sum of the squares of that column. -/
theorem sums2_last_snd (c : Dev nD) (t : Fin cfg2.N) (ht : t.val = 7) (q : Fin 64) :
    (sums2 V c t.val t.isLt).2 (ix2 (0 : Fin 1) q)
      = ∑ r : Fin 40000, Glin2 (V c (Pipeline.arrRef spec2 0)) (V c (Pipeline.arrRef spec2 1)) (V c (Pipeline.arrRef spec2 2)) (ix2 r q) * Glin2 (V c (Pipeline.arrRef spec2 0)) (V c (Pipeline.arrRef spec2 1)) (V c (Pipeline.arrRef spec2 2)) (ix2 r q) := by
  obtain ⟨n, hn⟩ := t
  dsimp only at ht
  subst ht
  have hN : cfg2.N = 8 := N_2
  have key := running_total_last (K := 8) (0 : EReal)
    (fun i : Fin 8 => ∑ p : Fin 5000, (fun y : EReal => y * y) (Glin2 (V c (Pipeline.arrRef spec2 0)) (V c (Pipeline.arrRef spec2 1)) (V c (Pipeline.arrRef spec2 2)) (ix2 (⟨i.val * 5000 + p.val, tiles2_eq ▸ pos_lt i p⟩ : Fin 40000) q)))
    (fun k hk => (sums2 V c k (lt_of_lt_of_eq hk hN.symm)).2 (ix2 (0 : Fin 1) q))
    (fun h => by
      show (acc2_1 (F := Ideal) _ _ _ zero2_1) (ix2 (0 : Fin 1) q) = _
      rw [acc2_1_apply, zero2_1_apply]
      exact congrArg (0 + ·) (tile2_sum V (fun y => y * y) c ⟨0, lt_of_lt_of_eq h hN.symm⟩ h q))
    (fun k h => by
      show (acc2_1 (F := Ideal) _ _ _ (sums2 V c k _).2) (ix2 (0 : Fin 1) q) = _
      rw [acc2_1_apply]
      exact congrArg (_ + ·) (tile2_sum V (fun y => y * y) c ⟨k + 1, lt_of_lt_of_eq h hN.symm⟩ h q))
    7 rfl
  refine key.trans ?_
  rw [zero_add]
  exact (sum_tiles_of_eq tiles2_eq (fun r : Fin 40000 => Glin2 (V c (Pipeline.arrRef spec2 0)) (V c (Pipeline.arrRef spec2 1)) (V c (Pipeline.arrRef spec2 2)) (ix2 r q) * Glin2 (V c (Pipeline.arrRef spec2 0)) (V c (Pipeline.arrRef spec2 1)) (V c (Pipeline.arrRef spec2 2)) (ix2 r q))).symm

/-! ## The statistics array -/

/-- What the last point writes back into the second output array is `Gstats2` of the dense layer of the three input arrays. -/
theorem flushed2_4_eq (c : Dev nD) (t : Fin cfg2.N) (hf : (cfg2.win 4).flush t = true) :
    (dat2 V c).flushed 4 t = ((cfg2.win 4).blk t).view.read (Elt Ideal) (Gstats2 (Glin2 (V c (Pipeline.arrRef spec2 0)) (V c (Pipeline.arrRef spec2 1)) (V c (Pipeline.arrRef spec2 2)))) := by
  have ht : t.val = 7 := by
    have h := (flush2_4 t).mp hf
    have hN : t.val < 8 := lt_of_lt_of_eq t.isLt (show cfg2.N = 8 from N_2)
    omega
  show (cfg2.win 4).cut (grid2.coords t) ((dat2 V c).after 4 t) = _
  rw [after2_4_eq]
  obtain ⟨-, -, -, -, -, -, -, -, e0, e1⟩ := idx_facts2 t
  funext j
  show stats2 (F := Ideal) (sums2 V c t.val t.isLt).1 (sums2 V c t.val t.isLt).2 j = Gstats2 _ (((cfg2.win 4).blk t).view.emb j)
  have hemb : (((cfg2.win 4).blk t).view.emb j : S2x64.Idx) = j := by
    funext a; apply Fin.ext
    match a with
    | ⟨0, _⟩ => show win2_4.index t 0 * 2 + 1 * (j 0).val = (j 0).val; rw [e0]; omega
    | ⟨1, _⟩ => show win2_4.index t 1 * 64 + 1 * (j 1).val = (j 1).val; rw [e1]; omega
  rw [hemb]
  obtain ⟨u, q, rfl⟩ : ∃ (u : Fin 2) (q : Fin 64), j = ix2 u q := ⟨j 0, j 1, eq_ix2 j⟩
  unfold Gstats2
  match u with
  | ⟨0, _⟩ =>
    rw [if_pos (by rfl)]
    exact (stats2_mean_apply _ _ q).trans (congrArg (Ideal.div · rows2) (sums2_last_fst V c t ht q))
  | ⟨1, _⟩ =>
    rw [if_neg (by show ¬(1 : ℕ) = 0; omega)]
    refine (stats2_var_apply _ _ q).trans ?_
    rw [sums2_last_fst V c t ht q, sums2_last_snd V c t ht q]

/-- Every index of the second output array is in the last point's block, the whole array. -/
theorem cover2_4_arr (i : S2x64.Idx) :
    ∃ t : Fin cfg2.N, (cfg2.win 4).flush t = true ∧ i ∈ ((cfg2.win 4).blk t).view.set := by
  have hi0 : (i 0).val < 2 := (i 0).isLt
  have hi1 : (i 1).val < 64 := (i 1).isLt
  obtain ⟨t, ht⟩ : ∃ t : Fin cfg2.N, t.val = 7 := ⟨⟨7, by rw [show cfg2.N = 8 from N_2]; omega⟩, rfl⟩
  obtain ⟨-, -, -, -, -, -, -, -, e0, e1⟩ := idx_facts2 t
  refine ⟨t, (flush2_4 t).mpr (by rw [ht]), ?_⟩
  show i ∈ ((View.whole main_v37_1).slice (win2_4.rect t)).set
  rw [View.set_slice_whole, Rect.mem_set_unit]
  intro a
  match a with
  | ⟨0, _⟩ =>
    show win2_4.index t 0 * 2 ≤ (i 0).val ∧ (i 0).val < win2_4.index t 0 * 2 + 2
    rw [e0]; omega
  | ⟨1, _⟩ =>
    show win2_4.index t 1 * 64 ≤ (i 1).val ∧ (i 1).val < win2_4.index t 1 * 64 + 64
    rw [e1]; omega

/-- THE SECOND OUTPUT ARRAY after the region: the column statistics of the dense layer of the three input arrays. -/
theorem final2_stats (c : Dev nD) :
    (dat2 V c).arrAt 4 cfg2.N = Gstats2 (Glin2 (V c (Pipeline.arrRef spec2 0)) (V c (Pipeline.arrRef spec2 1)) (V c (Pipeline.arrRef spec2 2))) :=
  (dat2 V c).arrAt_eq_of_cover 4 _ (fun t hf => flushed2_4_eq V c t hf) (fun i => cover2_4_arr i)

end Cert.KernelIdeal.Regions

end
-- ==== Proof.KI.Value4.lean ====
/-
  Region 4 read as functions: the linear layer and the statistics of its columns.

  The region walks the 40000 rows of its input in 20 blocks of 2000 rows. On each block it stores the dense layer of the
  block — each row's inner products with the 64 rows of the weight, plus the bias — and adds the block's column sums, and the
  column sums of its squares, onto two running rows that start at zero. Since the 20 blocks tile the rows, the first output
  array after the region is the dense layer of the whole input (Glin4 below), and the running rows after the last block are the
  column sums of that array and of its squares over all 40000 rows. The last point stores, from them, each column's mean and its
  mean of squares minus the squared mean (Gstats4 below), and that is the only point whose statistics are written back.
-/
import proofs.«167917_j22402549416514_2_alg».proof.Proof.KI.Region4
import proofs.«167917_j22402549416514_2_alg».proof.Proof.Spec
import proofs.«167917_j22402549416514_2_alg».proof.Proof.LibColumnSums
import proofs.«167917_j22402549416514_2_alg».proof.Proof.LibTileSum
import proofs.«167917_j22402549416514_2_alg».proof.Proof.LibMatmulT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL.Sem
open Cert.Spec
open Cert.Lib.ColumnSums Cert.Lib.TileSum Idealize.ShloMosaic.MatmulT
open Idealize.ShloMosaic.Pipeline (Dat Cfg Window)
open scoped BigOperators

/-! # Region 4, read: the linear layer and its batch statistics as functions of the three input arrays -/

/-- The f32 word of 40000, the number of rows the statistics average over. -/
abbrev rows4 : EReal := Ideal.ofBits .f32 0x471C4000#32

/-- What region 4 leaves in its first output array: entry (r, q) is the dense layer's entry — the inner product of row r of
    the input with row q of the weight, plus the bias of column q. -/
def Glin4 (x : S40000x768.Idx → EReal) (w : S64x768.Idx → EReal) (b : S1x64.Idx → EReal) : S40000x64.Idx → EReal :=
  fun i => dense (fun k : Fin 768 => x (ix2 (i 0) k)) (fun k => w (ix2 (i 1) k)) (b (ix2 (0 : Fin 1) (i 1)))

/-- What region 4 leaves in its second output array, from the first, `y`: row 0 is each column's mean over the 40000 rows,
    row 1 each column's mean of squares minus the square of its mean. -/
def Gstats4 (y : S40000x64.Idx → EReal) : S2x64.Idx → EReal :=
  fun i =>
    if (i 0).val = 0 then Ideal.div (∑ r : Fin 40000, y (ix2 r (i 1))) rows4
    else Ideal.div (∑ r : Fin 40000, y (ix2 r (i 1)) * y (ix2 r (i 1))) rows4
      - Ideal.div (∑ r : Fin 40000, y (ix2 r (i 1))) rows4 * Ideal.div (∑ r : Fin 40000, y (ix2 r (i 1))) rows4

/-- The stored block read at one entry: a dense layer's entry of the block's rows. -/
theorem lin4_apply (x0 : Vec Ideal S2000x768 .f32) (x1 : Vec Ideal S64x768 .f32) (x2 : Vec Ideal S1x64 .f32) (p : Fin 2000) (q : Fin 64) :
    lin4 (F := Ideal) x0 x1 x2 (ix2 p q)
      = dense (fun k : Fin 768 => x0 (ix2 p k)) (fun k => x1 (ix2 q k)) (x2 (ix2 (0 : Fin 1) q)) := by
  unfold lin4 k4_pay1
  simp only [shapeCast_self]
  rw [addf_apply, broadcastTo_1b_ab_apply]
  unfold dense dot_S2000x768_S64x768_S2000x64_1_1_0_0_n_n
  exact congrArg (· + x2 (ix2 (0 : Fin 1) q)) (matmul_tr_zero_apply _ none _ _ p q)

/-- The first accumulator after a point, at column q: what it held plus the sum of the block's column q. -/
theorem acc4_0_apply (x0 : Vec Ideal S2000x768 .f32) (x1 : Vec Ideal S64x768 .f32) (x2 s : Vec Ideal S1x64 .f32) (q : Fin 64) :
    acc4_0 (F := Ideal) x0 x1 x2 s (ix2 (0 : Fin 1) q)
      = s (ix2 (0 : Fin 1) q) + ∑ p : Fin 2000, lin4 (F := Ideal) x0 x1 x2 (ix2 p q) := by
  unfold acc4_0 k4_pay4 lin4
  simp only [shapeCast_self]
  rw [addf_apply, shapeCast_a_1a_apply, colSum_apply]

/-- The second accumulator after a point, at column q: what it held plus the sum of the squares of the block's column q. -/
theorem acc4_1_apply (x0 : Vec Ideal S2000x768 .f32) (x1 : Vec Ideal S64x768 .f32) (x2 s : Vec Ideal S1x64 .f32) (q : Fin 64) :
    acc4_1 (F := Ideal) x0 x1 x2 s (ix2 (0 : Fin 1) q)
      = s (ix2 (0 : Fin 1) q) + ∑ p : Fin 2000, lin4 (F := Ideal) x0 x1 x2 (ix2 p q) * lin4 (F := Ideal) x0 x1 x2 (ix2 p q) := by
  unfold acc4_1 k4_pay5 lin4
  simp only [shapeCast_self]
  rw [addf_apply, shapeCast_a_1a_apply, colSum_apply]
  rfl

/-- Both accumulators start from zero. -/
theorem zero4_0_apply (j : S1x64.Idx) : zero4_0 (F := Ideal) j = 0 := by
  unfold zero4_0 k4_pay2
  simp only [shapeCast_self, broadcast_apply]
  exact Ideal.ofBits_zero_f32
theorem zero4_1_apply (j : S1x64.Idx) : zero4_1 (F := Ideal) j = 0 := by
  unfold zero4_1 k4_pay3
  simp only [shapeCast_self, broadcast_apply]
  exact Ideal.ofBits_zero_f32

/-- Row 0 of the statistics of sums `s0`, `s1`: the mean. -/
theorem stats4_mean_apply (s0 s1 : Vec Ideal S1x64 .f32) (q : Fin 64) :
    stats4 (F := Ideal) s0 s1 (ix2 (0 : Fin 2) q) = Ideal.div (s0 (ix2 (0 : Fin 1) q)) rows4 := by
  have hn : ix2 (0 : Fin 2) q ∉ (r4_var : Rect S2x64).set := by
    rw [Rect.mem_set_unit]; intro h
    have h0 : (1 : ℕ) ≤ 0 := (h 0).1
    omega
  have he : ix2 (0 : Fin 2) q = (r4_mean : Rect S2x64).emb (ix2 (0 : Fin 1) q) := by
    funext a; apply Fin.ext
    match a with
    | ⟨0, _⟩ => rfl
    | ⟨1, _⟩ => show q.val = 0 + 1 * q.val; omega
  unfold stats4
  rw [View.canon_cons_of_not_mem (⟨r4_var, k4_pay7 s0 s1⟩ : View.Piece (Elt Ideal) S2x64 .f32) [⟨r4_mean, k4_pay6 s0⟩] hn]
  refine (congrArg (View.canon _) he).trans ?_
  rw [View.canon_cons_emb]
  unfold k4_pay6
  simp only [divf_apply, broadcast_apply]
  rfl

/-- Row 1 of the statistics of sums `s0`, `s1`: the mean of squares minus the squared mean. -/
theorem stats4_var_apply (s0 s1 : Vec Ideal S1x64 .f32) (q : Fin 64) :
    stats4 (F := Ideal) s0 s1 (ix2 (1 : Fin 2) q)
      = Ideal.div (s1 (ix2 (0 : Fin 1) q)) rows4 - Ideal.div (s0 (ix2 (0 : Fin 1) q)) rows4 * Ideal.div (s0 (ix2 (0 : Fin 1) q)) rows4 := by
  unfold stats4
  have he : ix2 (1 : Fin 2) q = (r4_var : Rect S2x64).emb (ix2 (0 : Fin 1) q) := by
    funext a; apply Fin.ext
    match a with
    | ⟨0, _⟩ => rfl
    | ⟨1, _⟩ => show q.val = 0 + 1 * q.val; omega
  rw [he, View.canon_cons_emb]
  unfold k4_pay7 k4_pay6
  simp only [subf_apply, divf_apply, mulf_apply, broadcast_apply]
  rfl

variable (V : (c : Dev nD) → (b : Ref sig .tc) → Buf (Elt Ideal) ((c : Thread nD τ).loc b))

/-- The printed index maps, decided over the grid: at point t the input block and the block of rows are block t of the rows,
    all columns; the weight, the bias and the statistics are the one block of their arrays. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0 :=
  (by decide +kernel : ∀ t : Fin grid4.N, _)

/-- The input block at point t is rows 2000 t … 2000 t + 1999 of the input array. -/
theorem iblk4_0_apply (c : Dev nD) (t : Fin cfg4.N) (x : S2000x768.Idx) (k : S40000x768.Idx)
    (hk0 : (k 0).val = 2000 * t.val + (x 0).val) (hk1 : (k 1).val = (x 1).val) :
    (iblk4 V c 0 t : Vec Ideal S2000x768 .f32) x = (V c (Pipeline.arrRef spec4 0) : S40000x768.Idx → EReal) k := by
  obtain ⟨e0, e1, -⟩ := idx_facts4 t
  unfold iblk4
  rw [View.read_apply]
  show V c (Pipeline.arrRef spec4 0) _ = V c (Pipeline.arrRef spec4 0) k
  congr 1
  funext a
  apply Fin.ext
  match a with
  | ⟨0, _⟩ => show win4_0.index t 0 * 2000 + 1 * (x 0).val = (k 0).val; rw [e0, hk0]; omega
  | ⟨1, _⟩ => show win4_0.index t 1 * 768 + 1 * (x 1).val = (k 1).val; rw [e1, hk1]; omega

/-- The weight's block at every point is the whole [64, 64] array. -/
theorem iblk4_1_apply (c : Dev nD) (t : Fin cfg4.N) (x : S64x768.Idx) :
    (iblk4 V c 1 t : Vec Ideal S64x768 .f32) x = (V c (Pipeline.arrRef spec4 1) : S64x768.Idx → EReal) x := by
  obtain ⟨-, -, e0, e1, -⟩ := idx_facts4 t
  unfold iblk4
  rw [View.read_apply]
  show V c (Pipeline.arrRef spec4 1) _ = V c (Pipeline.arrRef spec4 1) x
  congr 1
  funext a
  apply Fin.ext
  match a with
  | ⟨0, _⟩ => show win4_1.index t 0 * 64 + 1 * (x 0).val = (x 0).val; rw [e0]; omega
  | ⟨1, _⟩ => show win4_1.index t 1 * 768 + 1 * (x 1).val = (x 1).val; rw [e1]; omega

/-- The bias's block at every point is the whole [1, 64] array. -/
theorem iblk4_2_apply (c : Dev nD) (t : Fin cfg4.N) (x : S1x64.Idx) :
    (iblk4 V c 2 t : Vec Ideal S1x64 .f32) x = (V c (Pipeline.arrRef spec4 2) : S1x64.Idx → EReal) x := by
  obtain ⟨-, -, -, -, e0, e1, -⟩ := idx_facts4 t
  unfold iblk4
  rw [View.read_apply]
  show V c (Pipeline.arrRef spec4 2) _ = V c (Pipeline.arrRef spec4 2) x
  congr 1
  funext a
  apply Fin.ext
  match a with
  | ⟨0, _⟩ => show win4_2.index t 0 * 1 + 1 * (x 0).val = (x 0).val; rw [e0]; omega
  | ⟨1, _⟩ => show win4_2.index t 1 * 64 + 1 * (x 1).val = (x 1).val; rw [e1]; omega

/-- The block stored at point t, at entry j: the dense layer of the whole input arrays at row 2000 t + j₀, column j₁. -/
theorem lin4_blk_apply (c : Dev nD) (t : Fin cfg4.N) (j : S2000x64.Idx) (k : S40000x64.Idx)
    (hk0 : (k 0).val = 2000 * t.val + (j 0).val) (hk1 : (k 1).val = (j 1).val) :
    lin4 (F := Ideal) (iblk4 V c 0 t) (iblk4 V c 1 t) (iblk4 V c 2 t) j = Glin4 (V c (Pipeline.arrRef spec4 0)) (V c (Pipeline.arrRef spec4 1)) (V c (Pipeline.arrRef spec4 2)) k := by
  obtain ⟨p, q, rfl⟩ : ∃ (p : Fin 2000) (q : Fin 64), j = ix2 p q := ⟨j 0, j 1, eq_ix2 j⟩
  have hq : k 1 = q := Fin.ext hk1
  rw [lin4_apply]
  unfold Glin4
  rw [hq]
  refine congr (congr (congrArg dense ?_) ?_) ?_
  · funext kk; exact iblk4_0_apply V c t (ix2 p kk) (ix2 (k 0) kk) hk0 rfl
  · funext kk; exact iblk4_1_apply V c t (ix2 q kk)
  · exact iblk4_2_apply V c t (ix2 (0 : Fin 1) q)

/-- What point t writes back into the first output array is block t of `Glin4` of the three input arrays. -/
theorem flushed4_3_eq (c : Dev nD) (t : Fin cfg4.N) :
    (dat4 V c).flushed 3 t = ((cfg4.win 3).blk t).view.read (Elt Ideal) (Glin4 (V c (Pipeline.arrRef spec4 0)) (V c (Pipeline.arrRef spec4 1)) (V c (Pipeline.arrRef spec4 2))) := by
  show (cfg4.win 3).cut (grid4.coords t) ((dat4 V c).after 3 t) = _
  rw [after4_3_eq]
  obtain ⟨-, -, -, -, -, -, e0, e1, -⟩ := idx_facts4 t
  funext j
  show lin4 (F := Ideal) (iblk4 V c 0 t) (iblk4 V c 1 t) (iblk4 V c 2 t) j = Glin4 _ _ _ (((cfg4.win 3).blk t).view.emb j)
  refine lin4_blk_apply V c t j _ ?_ ?_
  · show win4_3.index t 0 * 2000 + 1 * (j 0).val = 2000 * t.val + (j 0).val
    rw [e0]; omega
  · show win4_3.index t 1 * 64 + 1 * (j 1).val = (j 1).val
    rw [e1]; omega

/-- An index of the first output array is in point t's block iff each coordinate is in the block's range on its axis. -/
theorem mem_blk4_3 (t : Fin cfg4.N) (i : S40000x64.Idx) :
    i ∈ ((cfg4.win 3).blk t).view.set ↔ ∀ a : Fin 2, win4_3.index t a * S2000x64.size a ≤ (i a).val
      ∧ (i a).val < win4_3.index t a * S2000x64.size a + S2000x64.size a := by
  show i ∈ ((View.whole main_v42_0).slice (win4_3.rect t)).set ↔ _
  rw [View.set_slice_whole, Rect.mem_set_unit]
  exact Iff.rfl

/-- Every index of the first output array is in the block of the point its row falls in. -/
theorem cover4_3_arr (i : S40000x64.Idx) :
    ∃ t : Fin cfg4.N, (cfg4.win 3).flush t = true ∧ i ∈ ((cfg4.win 3).blk t).view.set := by
  have hi0 : (i 0).val < 40000 := (i 0).isLt
  have hi1 : (i 1).val < 64 := (i 1).isLt
  obtain ⟨t, ht⟩ : ∃ t : Fin cfg4.N, t.val = (i 0).val / 2000 :=
    ⟨⟨(i 0).val / 2000, by rw [show cfg4.N = 20 from N_4]; omega⟩, rfl⟩
  obtain ⟨-, -, -, -, -, -, e0, e1, -⟩ := idx_facts4 t
  refine ⟨t, flush4_3 t, ?_⟩
  rw [mem_blk4_3]
  intro a
  match a with
  | ⟨0, _⟩ =>
    show win4_3.index t 0 * 2000 ≤ (i 0).val ∧ (i 0).val < win4_3.index t 0 * 2000 + 2000
    rw [e0, ht]; omega
  | ⟨1, _⟩ =>
    show win4_3.index t 1 * 64 ≤ (i 1).val ∧ (i 1).val < win4_3.index t 1 * 64 + 64
    rw [e1]; omega

/-- THE FIRST OUTPUT ARRAY after the region: the dense layer of the three input arrays as the region finds them. -/
theorem final4_lin (c : Dev nD) :
    (dat4 V c).arrAt 3 cfg4.N = Glin4 (V c (Pipeline.arrRef spec4 0)) (V c (Pipeline.arrRef spec4 1)) (V c (Pipeline.arrRef spec4 2)) :=
  (dat4 V c).arrAt_eq_of_cover 3 _ (fun t _ => flushed4_3_eq V c t) (fun i => cover4_3_arr i)

/-! ## The running sums: 20 tiles of 2000 rows -/

theorem tiles4_eq : 40000 = 20 * 2000 := by norm_num

/-- The sum of a function of the block's entries of column q at point t is the sum over tile t of the same function of the
    dense layer's entries: rows 2000 t … 2000 t + 1999 of column q. -/
theorem tile4_sum (f : EReal → EReal) (c : Dev nD) (t : Fin cfg4.N) (ht : t.val < 20) (q : Fin 64) :
    ∑ p : Fin 2000, f (lin4 (F := Ideal) (iblk4 V c 0 t) (iblk4 V c 1 t) (iblk4 V c 2 t) (ix2 p q))
      = ∑ p : Fin 2000, f (Glin4 (V c (Pipeline.arrRef spec4 0)) (V c (Pipeline.arrRef spec4 1)) (V c (Pipeline.arrRef spec4 2))
          (ix2 (⟨(⟨t.val, ht⟩ : Fin 20).val * 2000 + p.val, tiles4_eq ▸ pos_lt (⟨t.val, ht⟩ : Fin 20) p⟩ : Fin 40000) q)) :=
  Finset.sum_congr rfl fun p _ => congrArg f (lin4_blk_apply V c t (ix2 p q) _
    (by show t.val * 2000 + p.val = 2000 * t.val + p.val; omega) rfl)

/-- After the last point the first accumulator holds, at column q, the sum of the dense layer's column q over all 40000 rows, -/
theorem sums4_last_fst (c : Dev nD) (t : Fin cfg4.N) (ht : t.val = 19) (q : Fin 64) :
    (sums4 V c t.val t.isLt).1 (ix2 (0 : Fin 1) q) = ∑ r : Fin 40000, Glin4 (V c (Pipeline.arrRef spec4 0)) (V c (Pipeline.arrRef spec4 1)) (V c (Pipeline.arrRef spec4 2)) (ix2 r q) := by
  obtain ⟨n, hn⟩ := t
  dsimp only at ht
  subst ht
  have hN : cfg4.N = 20 := N_4
  have key := running_total_last (K := 20) (0 : EReal)
    (fun i : Fin 20 => ∑ p : Fin 2000, Glin4 (V c (Pipeline.arrRef spec4 0)) (V c (Pipeline.arrRef spec4 1)) (V c (Pipeline.arrRef spec4 2)) (ix2 (⟨i.val * 2000 + p.val, tiles4_eq ▸ pos_lt i p⟩ : Fin 40000) q))
    (fun k hk => (sums4 V c k (lt_of_lt_of_eq hk hN.symm)).1 (ix2 (0 : Fin 1) q))
    (fun h => by
      show (acc4_0 (F := Ideal) _ _ _ zero4_0) (ix2 (0 : Fin 1) q) = _
      rw [acc4_0_apply, zero4_0_apply]
      exact congrArg (0 + ·) (tile4_sum V id c ⟨0, lt_of_lt_of_eq h hN.symm⟩ h q))
    (fun k h => by
      show (acc4_0 (F := Ideal) _ _ _ (sums4 V c k _).1) (ix2 (0 : Fin 1) q) = _
      rw [acc4_0_apply]
      exact congrArg (_ + ·) (tile4_sum V id c ⟨k + 1, lt_of_lt_of_eq h hN.symm⟩ h q))
    19 rfl
  refine key.trans ?_
  rw [zero_add]
  exact (sum_tiles_of_eq tiles4_eq (fun r : Fin 40000 => Glin4 (V c (Pipeline.arrRef spec4 0)) (V c (Pipeline.arrRef spec4 1)) (V c (Pipeline.arrRef spec4 2)) (ix2 r q))).symm

/-- and the second the sum of the squares of that column. -/
theorem sums4_last_snd (c : Dev nD) (t : Fin cfg4.N) (ht : t.val = 19) (q : Fin 64) :
    (sums4 V c t.val t.isLt).2 (ix2 (0 : Fin 1) q)
      = ∑ r : Fin 40000, Glin4 (V c (Pipeline.arrRef spec4 0)) (V c (Pipeline.arrRef spec4 1)) (V c (Pipeline.arrRef spec4 2)) (ix2 r q) * Glin4 (V c (Pipeline.arrRef spec4 0)) (V c (Pipeline.arrRef spec4 1)) (V c (Pipeline.arrRef spec4 2)) (ix2 r q) := by
  obtain ⟨n, hn⟩ := t
  dsimp only at ht
  subst ht
  have hN : cfg4.N = 20 := N_4
  have key := running_total_last (K := 20) (0 : EReal)
    (fun i : Fin 20 => ∑ p : Fin 2000, (fun y : EReal => y * y) (Glin4 (V c (Pipeline.arrRef spec4 0)) (V c (Pipeline.arrRef spec4 1)) (V c (Pipeline.arrRef spec4 2)) (ix2 (⟨i.val * 2000 + p.val, tiles4_eq ▸ pos_lt i p⟩ : Fin 40000) q)))
    (fun k hk => (sums4 V c k (lt_of_lt_of_eq hk hN.symm)).2 (ix2 (0 : Fin 1) q))
    (fun h => by
      show (acc4_1 (F := Ideal) _ _ _ zero4_1) (ix2 (0 : Fin 1) q) = _
      rw [acc4_1_apply, zero4_1_apply]
      exact congrArg (0 + ·) (tile4_sum V (fun y => y * y) c ⟨0, lt_of_lt_of_eq h hN.symm⟩ h q))
    (fun k h => by
      show (acc4_1 (F := Ideal) _ _ _ (sums4 V c k _).2) (ix2 (0 : Fin 1) q) = _
      rw [acc4_1_apply]
      exact congrArg (_ + ·) (tile4_sum V (fun y => y * y) c ⟨k + 1, lt_of_lt_of_eq h hN.symm⟩ h q))
    19 rfl
  refine key.trans ?_
  rw [zero_add]
  exact (sum_tiles_of_eq tiles4_eq (fun r : Fin 40000 => Glin4 (V c (Pipeline.arrRef spec4 0)) (V c (Pipeline.arrRef spec4 1)) (V c (Pipeline.arrRef spec4 2)) (ix2 r q) * Glin4 (V c (Pipeline.arrRef spec4 0)) (V c (Pipeline.arrRef spec4 1)) (V c (Pipeline.arrRef spec4 2)) (ix2 r q))).symm

/-! ## The statistics array -/

/-- What the last point writes back into the second output array is `Gstats4` of the dense layer of the three input arrays. -/
theorem flushed4_4_eq (c : Dev nD) (t : Fin cfg4.N) (hf : (cfg4.win 4).flush t = true) :
    (dat4 V c).flushed 4 t = ((cfg4.win 4).blk t).view.read (Elt Ideal) (Gstats4 (Glin4 (V c (Pipeline.arrRef spec4 0)) (V c (Pipeline.arrRef spec4 1)) (V c (Pipeline.arrRef spec4 2)))) := by
  have ht : t.val = 19 := by
    have h := (flush4_4 t).mp hf
    have hN : t.val < 20 := lt_of_lt_of_eq t.isLt (show cfg4.N = 20 from N_4)
    omega
  show (cfg4.win 4).cut (grid4.coords t) ((dat4 V c).after 4 t) = _
  rw [after4_4_eq]
  obtain ⟨-, -, -, -, -, -, -, -, e0, e1⟩ := idx_facts4 t
  funext j
  show stats4 (F := Ideal) (sums4 V c t.val t.isLt).1 (sums4 V c t.val t.isLt).2 j = Gstats4 _ (((cfg4.win 4).blk t).view.emb j)
  have hemb : (((cfg4.win 4).blk t).view.emb j : S2x64.Idx) = j := by
    funext a; apply Fin.ext
    match a with
    | ⟨0, _⟩ => show win4_4.index t 0 * 2 + 1 * (j 0).val = (j 0).val; rw [e0]; omega
    | ⟨1, _⟩ => show win4_4.index t 1 * 64 + 1 * (j 1).val = (j 1).val; rw [e1]; omega
  rw [hemb]
  obtain ⟨u, q, rfl⟩ : ∃ (u : Fin 2) (q : Fin 64), j = ix2 u q := ⟨j 0, j 1, eq_ix2 j⟩
  unfold Gstats4
  match u with
  | ⟨0, _⟩ =>
    rw [if_pos (by rfl)]
    exact (stats4_mean_apply _ _ q).trans (congrArg (Ideal.div · rows4) (sums4_last_fst V c t ht q))
  | ⟨1, _⟩ =>
    rw [if_neg (by show ¬(1 : ℕ) = 0; omega)]
    refine (stats4_var_apply _ _ q).trans ?_
    rw [sums4_last_fst V c t ht q, sums4_last_snd V c t ht q]

/-- Every index of the second output array is in the last point's block, the whole array. -/
theorem cover4_4_arr (i : S2x64.Idx) :
    ∃ t : Fin cfg4.N, (cfg4.win 4).flush t = true ∧ i ∈ ((cfg4.win 4).blk t).view.set := by
  have hi0 : (i 0).val < 2 := (i 0).isLt
  have hi1 : (i 1).val < 64 := (i 1).isLt
  obtain ⟨t, ht⟩ : ∃ t : Fin cfg4.N, t.val = 19 := ⟨⟨19, by rw [show cfg4.N = 20 from N_4]; omega⟩, rfl⟩
  obtain ⟨-, -, -, -, -, -, -, -, e0, e1⟩ := idx_facts4 t
  refine ⟨t, (flush4_4 t).mpr (by rw [ht]), ?_⟩
  show i ∈ ((View.whole main_v42_1).slice (win4_4.rect t)).set
  rw [View.set_slice_whole, Rect.mem_set_unit]
  intro a
  match a with
  | ⟨0, _⟩ =>
    show win4_4.index t 0 * 2 ≤ (i 0).val ∧ (i 0).val < win4_4.index t 0 * 2 + 2
    rw [e0]; omega
  | ⟨1, _⟩ =>
    show win4_4.index t 1 * 64 ≤ (i 1).val ∧ (i 1).val < win4_4.index t 1 * 64 + 64
    rw [e1]; omega

/-- THE SECOND OUTPUT ARRAY after the region: the column statistics of the dense layer of the three input arrays. -/
theorem final4_stats (c : Dev nD) :
    (dat4 V c).arrAt 4 cfg4.N = Gstats4 (Glin4 (V c (Pipeline.arrRef spec4 0)) (V c (Pipeline.arrRef spec4 1)) (V c (Pipeline.arrRef spec4 2))) :=
  (dat4 V c).arrAt_eq_of_cover 4 _ (fun t hf => flushed4_4_eq V c t hf) (fun i => cover4_4_arr i)

end Cert.KernelIdeal.Regions

end
-- ==== Proof.KI.Value6.lean ====
/-
  Region 6 read as functions: the linear layer and the statistics of its columns.

  The region walks the 40000 rows of its input in eight blocks of 5000 rows. On each block it stores the dense layer of the
  block — each row's inner products with the 64 rows of the weight, plus the bias — and adds the block's column sums, and the
  column sums of its squares, onto two running rows that start at zero. Since the eight blocks tile the rows, the first output
  array after the region is the dense layer of the whole input (Glin6 below), and the running rows after the last block are the
  column sums of that array and of its squares over all 40000 rows. The last point stores, from them, each column's mean and its
  mean of squares minus the squared mean (Gstats6 below), and that is the only point whose statistics are written back.
-/
import proofs.«167917_j22402549416514_2_alg».proof.Proof.KI.Region6
import proofs.«167917_j22402549416514_2_alg».proof.Proof.Spec
import proofs.«167917_j22402549416514_2_alg».proof.Proof.LibColumnSums
import proofs.«167917_j22402549416514_2_alg».proof.Proof.LibTileSum
import proofs.«167917_j22402549416514_2_alg».proof.Proof.LibMatmulT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL.Sem
open Cert.Spec
open Cert.Lib.ColumnSums Cert.Lib.TileSum Idealize.ShloMosaic.MatmulT
open Idealize.ShloMosaic.Pipeline (Dat Cfg Window)
open scoped BigOperators

/-! # Region 6, read: the linear layer and its batch statistics as functions of the three input arrays -/

/-- The f32 word of 40000, the number of rows the statistics average over. -/
abbrev rows6 : EReal := Ideal.ofBits .f32 0x471C4000#32

/-- What region 6 leaves in its first output array: entry (r, q) is the dense layer's entry — the inner product of row r of
    the input with row q of the weight, plus the bias of column q. -/
def Glin6 (x : S40000x64.Idx → EReal) (w : S64x64.Idx → EReal) (b : S1x64.Idx → EReal) : S40000x64.Idx → EReal :=
  fun i => dense (fun k : Fin 64 => x (ix2 (i 0) k)) (fun k => w (ix2 (i 1) k)) (b (ix2 (0 : Fin 1) (i 1)))

/-- What region 6 leaves in its second output array, from the first, `y`: row 0 is each column's mean over the 40000 rows,
    row 1 each column's mean of squares minus the square of its mean. -/
def Gstats6 (y : S40000x64.Idx → EReal) : S2x64.Idx → EReal :=
  fun i =>
    if (i 0).val = 0 then Ideal.div (∑ r : Fin 40000, y (ix2 r (i 1))) rows6
    else Ideal.div (∑ r : Fin 40000, y (ix2 r (i 1)) * y (ix2 r (i 1))) rows6
      - Ideal.div (∑ r : Fin 40000, y (ix2 r (i 1))) rows6 * Ideal.div (∑ r : Fin 40000, y (ix2 r (i 1))) rows6

/-- The stored block read at one entry: a dense layer's entry of the block's rows. -/
theorem lin6_apply (x0 : Vec Ideal S5000x64 .f32) (x1 : Vec Ideal S64x64 .f32) (x2 : Vec Ideal S1x64 .f32) (p : Fin 5000) (q : Fin 64) :
    lin6 (F := Ideal) x0 x1 x2 (ix2 p q)
      = dense (fun k : Fin 64 => x0 (ix2 p k)) (fun k => x1 (ix2 q k)) (x2 (ix2 (0 : Fin 1) q)) := by
  unfold lin6 k6_pay3
  simp only [shapeCast_self]
  rw [addf_apply, broadcastTo_1b_ab_apply]
  unfold dense dot_S5000x64_S64x64_S5000x64_1_1_0_0_n_n
  exact congrArg (· + x2 (ix2 (0 : Fin 1) q)) (matmul_tr_zero_apply _ none _ _ p q)

/-- The first accumulator after a point, at column q: what it held plus the sum of the block's column q. -/
theorem acc6_0_apply (x0 : Vec Ideal S5000x64 .f32) (x1 : Vec Ideal S64x64 .f32) (x2 s : Vec Ideal S1x64 .f32) (q : Fin 64) :
    acc6_0 (F := Ideal) x0 x1 x2 s (ix2 (0 : Fin 1) q)
      = s (ix2 (0 : Fin 1) q) + ∑ p : Fin 5000, lin6 (F := Ideal) x0 x1 x2 (ix2 p q) := by
  unfold acc6_0 k6_pay6 lin6
  simp only [shapeCast_self]
  rw [addf_apply, shapeCast_a_1a_apply, colSum_apply]

/-- The second accumulator after a point, at column q: what it held plus the sum of the squares of the block's column q. -/
theorem acc6_1_apply (x0 : Vec Ideal S5000x64 .f32) (x1 : Vec Ideal S64x64 .f32) (x2 s : Vec Ideal S1x64 .f32) (q : Fin 64) :
    acc6_1 (F := Ideal) x0 x1 x2 s (ix2 (0 : Fin 1) q)
      = s (ix2 (0 : Fin 1) q) + ∑ p : Fin 5000, lin6 (F := Ideal) x0 x1 x2 (ix2 p q) * lin6 (F := Ideal) x0 x1 x2 (ix2 p q) := by
  unfold acc6_1 k6_pay7 lin6
  simp only [shapeCast_self]
  rw [addf_apply, shapeCast_a_1a_apply, colSum_apply]
  rfl

/-- Both accumulators start from zero. -/
theorem zero6_0_apply (j : S1x64.Idx) : zero6_0 (F := Ideal) j = 0 := by
  unfold zero6_0 k6_pay4
  simp only [shapeCast_self, broadcast_apply]
  exact Ideal.ofBits_zero_f32
theorem zero6_1_apply (j : S1x64.Idx) : zero6_1 (F := Ideal) j = 0 := by
  unfold zero6_1 k6_pay5
  simp only [shapeCast_self, broadcast_apply]
  exact Ideal.ofBits_zero_f32

/-- Row 0 of the statistics of sums `s0`, `s1`: the mean. -/
theorem stats6_mean_apply (s0 s1 : Vec Ideal S1x64 .f32) (q : Fin 64) :
    stats6 (F := Ideal) s0 s1 (ix2 (0 : Fin 2) q) = Ideal.div (s0 (ix2 (0 : Fin 1) q)) rows6 := by
  have hn : ix2 (0 : Fin 2) q ∉ (r6_var : Rect S2x64).set := by
    rw [Rect.mem_set_unit]; intro h
    have h0 : (1 : ℕ) ≤ 0 := (h 0).1
    omega
  have he : ix2 (0 : Fin 2) q = (r6_mean : Rect S2x64).emb (ix2 (0 : Fin 1) q) := by
    funext a; apply Fin.ext
    match a with
    | ⟨0, _⟩ => rfl
    | ⟨1, _⟩ => show q.val = 0 + 1 * q.val; omega
  unfold stats6
  rw [View.canon_cons_of_not_mem (⟨r6_var, k6_pay2 s0 s1⟩ : View.Piece (Elt Ideal) S2x64 .f32) [⟨r6_mean, k6_pay1 s0⟩] hn]
  refine (congrArg (View.canon _) he).trans ?_
  rw [View.canon_cons_emb]
  unfold k6_pay1
  simp only [divf_apply, broadcast_apply]
  rfl

/-- Row 1 of the statistics of sums `s0`, `s1`: the mean of squares minus the squared mean. -/
theorem stats6_var_apply (s0 s1 : Vec Ideal S1x64 .f32) (q : Fin 64) :
    stats6 (F := Ideal) s0 s1 (ix2 (1 : Fin 2) q)
      = Ideal.div (s1 (ix2 (0 : Fin 1) q)) rows6 - Ideal.div (s0 (ix2 (0 : Fin 1) q)) rows6 * Ideal.div (s0 (ix2 (0 : Fin 1) q)) rows6 := by
  unfold stats6
  have he : ix2 (1 : Fin 2) q = (r6_var : Rect S2x64).emb (ix2 (0 : Fin 1) q) := by
    funext a; apply Fin.ext
    match a with
    | ⟨0, _⟩ => rfl
    | ⟨1, _⟩ => show q.val = 0 + 1 * q.val; omega
  rw [he, View.canon_cons_emb]
  unfold k6_pay2 k6_pay1
  simp only [subf_apply, divf_apply, mulf_apply, broadcast_apply]
  rfl

variable (V : (c : Dev nD) → (b : Ref sig .tc) → Buf (Elt Ideal) ((c : Thread nD τ).loc b))

/-- The printed index maps, decided over the grid: at point t the input block and the block of rows are block t of the rows,
    all columns; the weight, the bias and the statistics are the one block of their arrays. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0 :=
  (by decide +kernel : ∀ t : Fin grid6.N, _)

/-- The input block at point t is rows 5000 t … 5000 t + 4999 of the input array. -/
theorem iblk6_0_apply (c : Dev nD) (t : Fin cfg6.N) (x : S5000x64.Idx) (k : S40000x64.Idx)
    (hk0 : (k 0).val = 5000 * t.val + (x 0).val) (hk1 : (k 1).val = (x 1).val) :
    (iblk6 V c 0 t : Vec Ideal S5000x64 .f32) x = (V c (Pipeline.arrRef spec6 0) : S40000x64.Idx → EReal) k := by
  obtain ⟨e0, e1, -⟩ := idx_facts6 t
  unfold iblk6
  rw [View.read_apply]
  show V c (Pipeline.arrRef spec6 0) _ = V c (Pipeline.arrRef spec6 0) k
  congr 1
  funext a
  apply Fin.ext
  match a with
  | ⟨0, _⟩ => show win6_0.index t 0 * 5000 + 1 * (x 0).val = (k 0).val; rw [e0, hk0]; omega
  | ⟨1, _⟩ => show win6_0.index t 1 * 64 + 1 * (x 1).val = (k 1).val; rw [e1, hk1]; omega

/-- The weight's block at every point is the whole [64, 64] array. -/
theorem iblk6_1_apply (c : Dev nD) (t : Fin cfg6.N) (x : S64x64.Idx) :
    (iblk6 V c 1 t : Vec Ideal S64x64 .f32) x = (V c (Pipeline.arrRef spec6 1) : S64x64.Idx → EReal) x := by
  obtain ⟨-, -, e0, e1, -⟩ := idx_facts6 t
  unfold iblk6
  rw [View.read_apply]
  show V c (Pipeline.arrRef spec6 1) _ = V c (Pipeline.arrRef spec6 1) x
  congr 1
  funext a
  apply Fin.ext
  match a with
  | ⟨0, _⟩ => show win6_1.index t 0 * 64 + 1 * (x 0).val = (x 0).val; rw [e0]; omega
  | ⟨1, _⟩ => show win6_1.index t 1 * 64 + 1 * (x 1).val = (x 1).val; rw [e1]; omega

/-- The bias's block at every point is the whole [1, 64] array. -/
theorem iblk6_2_apply (c : Dev nD) (t : Fin cfg6.N) (x : S1x64.Idx) :
    (iblk6 V c 2 t : Vec Ideal S1x64 .f32) x = (V c (Pipeline.arrRef spec6 2) : S1x64.Idx → EReal) x := by
  obtain ⟨-, -, -, -, e0, e1, -⟩ := idx_facts6 t
  unfold iblk6
  rw [View.read_apply]
  show V c (Pipeline.arrRef spec6 2) _ = V c (Pipeline.arrRef spec6 2) x
  congr 1
  funext a
  apply Fin.ext
  match a with
  | ⟨0, _⟩ => show win6_2.index t 0 * 1 + 1 * (x 0).val = (x 0).val; rw [e0]; omega
  | ⟨1, _⟩ => show win6_2.index t 1 * 64 + 1 * (x 1).val = (x 1).val; rw [e1]; omega

/-- The block stored at point t, at entry j: the dense layer of the whole input arrays at row 5000 t + j₀, column j₁. -/
theorem lin6_blk_apply (c : Dev nD) (t : Fin cfg6.N) (j : S5000x64.Idx) (k : S40000x64.Idx)
    (hk0 : (k 0).val = 5000 * t.val + (j 0).val) (hk1 : (k 1).val = (j 1).val) :
    lin6 (F := Ideal) (iblk6 V c 0 t) (iblk6 V c 1 t) (iblk6 V c 2 t) j = Glin6 (V c (Pipeline.arrRef spec6 0)) (V c (Pipeline.arrRef spec6 1)) (V c (Pipeline.arrRef spec6 2)) k := by
  obtain ⟨p, q, rfl⟩ : ∃ (p : Fin 5000) (q : Fin 64), j = ix2 p q := ⟨j 0, j 1, eq_ix2 j⟩
  have hq : k 1 = q := Fin.ext hk1
  rw [lin6_apply]
  unfold Glin6
  rw [hq]
  refine congr (congr (congrArg dense ?_) ?_) ?_
  · funext kk; exact iblk6_0_apply V c t (ix2 p kk) (ix2 (k 0) kk) hk0 rfl
  · funext kk; exact iblk6_1_apply V c t (ix2 q kk)
  · exact iblk6_2_apply V c t (ix2 (0 : Fin 1) q)

/-- What point t writes back into the first output array is block t of `Glin6` of the three input arrays. -/
theorem flushed6_3_eq (c : Dev nD) (t : Fin cfg6.N) :
    (dat6 V c).flushed 3 t = ((cfg6.win 3).blk t).view.read (Elt Ideal) (Glin6 (V c (Pipeline.arrRef spec6 0)) (V c (Pipeline.arrRef spec6 1)) (V c (Pipeline.arrRef spec6 2))) := by
  show (cfg6.win 3).cut (grid6.coords t) ((dat6 V c).after 3 t) = _
  rw [after6_3_eq]
  obtain ⟨-, -, -, -, -, -, e0, e1, -⟩ := idx_facts6 t
  funext j
  show lin6 (F := Ideal) (iblk6 V c 0 t) (iblk6 V c 1 t) (iblk6 V c 2 t) j = Glin6 _ _ _ (((cfg6.win 3).blk t).view.emb j)
  refine lin6_blk_apply V c t j _ ?_ ?_
  · show win6_3.index t 0 * 5000 + 1 * (j 0).val = 5000 * t.val + (j 0).val
    rw [e0]; omega
  · show win6_3.index t 1 * 64 + 1 * (j 1).val = (j 1).val
    rw [e1]; omega

/-- An index of the first output array is in point t's block iff each coordinate is in the block's range on its axis. -/
theorem mem_blk6_3 (t : Fin cfg6.N) (i : S40000x64.Idx) :
    i ∈ ((cfg6.win 3).blk t).view.set ↔ ∀ a : Fin 2, win6_3.index t a * S5000x64.size a ≤ (i a).val
      ∧ (i a).val < win6_3.index t a * S5000x64.size a + S5000x64.size a := by
  show i ∈ ((View.whole main_v47_0).slice (win6_3.rect t)).set ↔ _
  rw [View.set_slice_whole, Rect.mem_set_unit]
  exact Iff.rfl

/-- Every index of the first output array is in the block of the point its row falls in. -/
theorem cover6_3_arr (i : S40000x64.Idx) :
    ∃ t : Fin cfg6.N, (cfg6.win 3).flush t = true ∧ i ∈ ((cfg6.win 3).blk t).view.set := by
  have hi0 : (i 0).val < 40000 := (i 0).isLt
  have hi1 : (i 1).val < 64 := (i 1).isLt
  obtain ⟨t, ht⟩ : ∃ t : Fin cfg6.N, t.val = (i 0).val / 5000 :=
    ⟨⟨(i 0).val / 5000, by rw [show cfg6.N = 8 from N_6]; omega⟩, rfl⟩
  obtain ⟨-, -, -, -, -, -, e0, e1, -⟩ := idx_facts6 t
  refine ⟨t, flush6_3 t, ?_⟩
  rw [mem_blk6_3]
  intro a
  match a with
  | ⟨0, _⟩ =>
    show win6_3.index t 0 * 5000 ≤ (i 0).val ∧ (i 0).val < win6_3.index t 0 * 5000 + 5000
    rw [e0, ht]; omega
  | ⟨1, _⟩ =>
    show win6_3.index t 1 * 64 ≤ (i 1).val ∧ (i 1).val < win6_3.index t 1 * 64 + 64
    rw [e1]; omega

/-- THE FIRST OUTPUT ARRAY after the region: the dense layer of the three input arrays as the region finds them. -/
theorem final6_lin (c : Dev nD) :
    (dat6 V c).arrAt 3 cfg6.N = Glin6 (V c (Pipeline.arrRef spec6 0)) (V c (Pipeline.arrRef spec6 1)) (V c (Pipeline.arrRef spec6 2)) :=
  (dat6 V c).arrAt_eq_of_cover 3 _ (fun t _ => flushed6_3_eq V c t) (fun i => cover6_3_arr i)

/-! ## The running sums: eight tiles of 5000 rows -/

theorem tiles6_eq : 40000 = 8 * 5000 := by norm_num

/-- The sum of a function of the block's entries of column q at point t is the sum over tile t of the same function of the
    dense layer's entries: rows 5000 t … 5000 t + 4999 of column q. -/
theorem tile6_sum (f : EReal → EReal) (c : Dev nD) (t : Fin cfg6.N) (ht : t.val < 8) (q : Fin 64) :
    ∑ p : Fin 5000, f (lin6 (F := Ideal) (iblk6 V c 0 t) (iblk6 V c 1 t) (iblk6 V c 2 t) (ix2 p q))
      = ∑ p : Fin 5000, f (Glin6 (V c (Pipeline.arrRef spec6 0)) (V c (Pipeline.arrRef spec6 1)) (V c (Pipeline.arrRef spec6 2))
          (ix2 (⟨(⟨t.val, ht⟩ : Fin 8).val * 5000 + p.val, tiles6_eq ▸ pos_lt (⟨t.val, ht⟩ : Fin 8) p⟩ : Fin 40000) q)) :=
  Finset.sum_congr rfl fun p _ => congrArg f (lin6_blk_apply V c t (ix2 p q) _
    (by show t.val * 5000 + p.val = 5000 * t.val + p.val; omega) rfl)

/-- After the last point the first accumulator holds, at column q, the sum of the dense layer's column q over all 40000 rows, -/
theorem sums6_last_fst (c : Dev nD) (t : Fin cfg6.N) (ht : t.val = 7) (q : Fin 64) :
    (sums6 V c t.val t.isLt).1 (ix2 (0 : Fin 1) q) = ∑ r : Fin 40000, Glin6 (V c (Pipeline.arrRef spec6 0)) (V c (Pipeline.arrRef spec6 1)) (V c (Pipeline.arrRef spec6 2)) (ix2 r q) := by
  obtain ⟨n, hn⟩ := t
  dsimp only at ht
  subst ht
  have hN : cfg6.N = 8 := N_6
  have key := running_total_last (K := 8) (0 : EReal)
    (fun i : Fin 8 => ∑ p : Fin 5000, Glin6 (V c (Pipeline.arrRef spec6 0)) (V c (Pipeline.arrRef spec6 1)) (V c (Pipeline.arrRef spec6 2)) (ix2 (⟨i.val * 5000 + p.val, tiles6_eq ▸ pos_lt i p⟩ : Fin 40000) q))
    (fun k hk => (sums6 V c k (lt_of_lt_of_eq hk hN.symm)).1 (ix2 (0 : Fin 1) q))
    (fun h => by
      show (acc6_0 (F := Ideal) _ _ _ zero6_0) (ix2 (0 : Fin 1) q) = _
      rw [acc6_0_apply, zero6_0_apply]
      exact congrArg (0 + ·) (tile6_sum V id c ⟨0, lt_of_lt_of_eq h hN.symm⟩ h q))
    (fun k h => by
      show (acc6_0 (F := Ideal) _ _ _ (sums6 V c k _).1) (ix2 (0 : Fin 1) q) = _
      rw [acc6_0_apply]
      exact congrArg (_ + ·) (tile6_sum V id c ⟨k + 1, lt_of_lt_of_eq h hN.symm⟩ h q))
    7 rfl
  refine key.trans ?_
  rw [zero_add]
  exact (sum_tiles_of_eq tiles6_eq (fun r : Fin 40000 => Glin6 (V c (Pipeline.arrRef spec6 0)) (V c (Pipeline.arrRef spec6 1)) (V c (Pipeline.arrRef spec6 2)) (ix2 r q))).symm

/-- and the second the sum of the squares of that column. -/
theorem sums6_last_snd (c : Dev nD) (t : Fin cfg6.N) (ht : t.val = 7) (q : Fin 64) :
    (sums6 V c t.val t.isLt).2 (ix2 (0 : Fin 1) q)
      = ∑ r : Fin 40000, Glin6 (V c (Pipeline.arrRef spec6 0)) (V c (Pipeline.arrRef spec6 1)) (V c (Pipeline.arrRef spec6 2)) (ix2 r q) * Glin6 (V c (Pipeline.arrRef spec6 0)) (V c (Pipeline.arrRef spec6 1)) (V c (Pipeline.arrRef spec6 2)) (ix2 r q) := by
  obtain ⟨n, hn⟩ := t
  dsimp only at ht
  subst ht
  have hN : cfg6.N = 8 := N_6
  have key := running_total_last (K := 8) (0 : EReal)
    (fun i : Fin 8 => ∑ p : Fin 5000, (fun y : EReal => y * y) (Glin6 (V c (Pipeline.arrRef spec6 0)) (V c (Pipeline.arrRef spec6 1)) (V c (Pipeline.arrRef spec6 2)) (ix2 (⟨i.val * 5000 + p.val, tiles6_eq ▸ pos_lt i p⟩ : Fin 40000) q)))
    (fun k hk => (sums6 V c k (lt_of_lt_of_eq hk hN.symm)).2 (ix2 (0 : Fin 1) q))
    (fun h => by
      show (acc6_1 (F := Ideal) _ _ _ zero6_1) (ix2 (0 : Fin 1) q) = _
      rw [acc6_1_apply, zero6_1_apply]
      exact congrArg (0 + ·) (tile6_sum V (fun y => y * y) c ⟨0, lt_of_lt_of_eq h hN.symm⟩ h q))
    (fun k h => by
      show (acc6_1 (F := Ideal) _ _ _ (sums6 V c k _).2) (ix2 (0 : Fin 1) q) = _
      rw [acc6_1_apply]
      exact congrArg (_ + ·) (tile6_sum V (fun y => y * y) c ⟨k + 1, lt_of_lt_of_eq h hN.symm⟩ h q))
    7 rfl
  refine key.trans ?_
  rw [zero_add]
  exact (sum_tiles_of_eq tiles6_eq (fun r : Fin 40000 => Glin6 (V c (Pipeline.arrRef spec6 0)) (V c (Pipeline.arrRef spec6 1)) (V c (Pipeline.arrRef spec6 2)) (ix2 r q) * Glin6 (V c (Pipeline.arrRef spec6 0)) (V c (Pipeline.arrRef spec6 1)) (V c (Pipeline.arrRef spec6 2)) (ix2 r q))).symm

/-! ## The statistics array -/

/-- What the last point writes back into the second output array is `Gstats6` of the dense layer of the three input arrays. -/
theorem flushed6_4_eq (c : Dev nD) (t : Fin cfg6.N) (hf : (cfg6.win 4).flush t = true) :
    (dat6 V c).flushed 4 t = ((cfg6.win 4).blk t).view.read (Elt Ideal) (Gstats6 (Glin6 (V c (Pipeline.arrRef spec6 0)) (V c (Pipeline.arrRef spec6 1)) (V c (Pipeline.arrRef spec6 2)))) := by
  have ht : t.val = 7 := by
    have h := (flush6_4 t).mp hf
    have hN : t.val < 8 := lt_of_lt_of_eq t.isLt (show cfg6.N = 8 from N_6)
    omega
  show (cfg6.win 4).cut (grid6.coords t) ((dat6 V c).after 4 t) = _
  rw [after6_4_eq]
  obtain ⟨-, -, -, -, -, -, -, -, e0, e1⟩ := idx_facts6 t
  funext j
  show stats6 (F := Ideal) (sums6 V c t.val t.isLt).1 (sums6 V c t.val t.isLt).2 j = Gstats6 _ (((cfg6.win 4).blk t).view.emb j)
  have hemb : (((cfg6.win 4).blk t).view.emb j : S2x64.Idx) = j := by
    funext a; apply Fin.ext
    match a with
    | ⟨0, _⟩ => show win6_4.index t 0 * 2 + 1 * (j 0).val = (j 0).val; rw [e0]; omega
    | ⟨1, _⟩ => show win6_4.index t 1 * 64 + 1 * (j 1).val = (j 1).val; rw [e1]; omega
  rw [hemb]
  obtain ⟨u, q, rfl⟩ : ∃ (u : Fin 2) (q : Fin 64), j = ix2 u q := ⟨j 0, j 1, eq_ix2 j⟩
  unfold Gstats6
  match u with
  | ⟨0, _⟩ =>
    rw [if_pos (by rfl)]
    exact (stats6_mean_apply _ _ q).trans (congrArg (Ideal.div · rows6) (sums6_last_fst V c t ht q))
  | ⟨1, _⟩ =>
    rw [if_neg (by show ¬(1 : ℕ) = 0; omega)]
    refine (stats6_var_apply _ _ q).trans ?_
    rw [sums6_last_fst V c t ht q, sums6_last_snd V c t ht q]

/-- Every index of the second output array is in the last point's block, the whole array. -/
theorem cover6_4_arr (i : S2x64.Idx) :
    ∃ t : Fin cfg6.N, (cfg6.win 4).flush t = true ∧ i ∈ ((cfg6.win 4).blk t).view.set := by
  have hi0 : (i 0).val < 2 := (i 0).isLt
  have hi1 : (i 1).val < 64 := (i 1).isLt
  obtain ⟨t, ht⟩ : ∃ t : Fin cfg6.N, t.val = 7 := ⟨⟨7, by rw [show cfg6.N = 8 from N_6]; omega⟩, rfl⟩
  obtain ⟨-, -, -, -, -, -, -, -, e0, e1⟩ := idx_facts6 t
  refine ⟨t, (flush6_4 t).mpr (by rw [ht]), ?_⟩
  show i ∈ ((View.whole main_v47_1).slice (win6_4.rect t)).set
  rw [View.set_slice_whole, Rect.mem_set_unit]
  intro a
  match a with
  | ⟨0, _⟩ =>
    show win6_4.index t 0 * 2 ≤ (i 0).val ∧ (i 0).val < win6_4.index t 0 * 2 + 2
    rw [e0]; omega
  | ⟨1, _⟩ =>
    show win6_4.index t 1 * 64 ≤ (i 1).val ∧ (i 1).val < win6_4.index t 1 * 64 + 64
    rw [e1]; omega

/-- THE SECOND OUTPUT ARRAY after the region: the column statistics of the dense layer of the three input arrays. -/
theorem final6_stats (c : Dev nD) :
    (dat6 V c).arrAt 4 cfg6.N = Gstats6 (Glin6 (V c (Pipeline.arrRef spec6 0)) (V c (Pipeline.arrRef spec6 1)) (V c (Pipeline.arrRef spec6 2))) :=
  (dat6 V c).arrAt_eq_of_cover 4 _ (fun t hf => flushed6_4_eq V c t hf) (fun i => cover6_4_arr i)

end Cert.KernelIdeal.Regions

end
-- ==== Proof.Bridge2.lean ====
import proofs.«167917_j22402549416514_2_alg».proof.Proof.KI.Chain
import proofs.«167917_j22402549416514_2_alg».proof.Proof.KI.Value0
import proofs.«167917_j22402549416514_2_alg».proof.Proof.KI.Value2
import proofs.«167917_j22402549416514_2_alg».proof.Proof.KI.Value4
import proofs.«167917_j22402549416514_2_alg».proof.Proof.KI.Value6
import proofs.«167917_j22402549416514_2_alg».proof.Proof.RefRead1
import proofs.«167917_j22402549416514_2_alg».proof.Proof.LibRealClosure
import proofs.«167917_j22402549416514_2_alg».proof.Proof.LibVarianceDiv
import Idealize.ShloMosaic.Lib.ValueIdx

set_option maxRecDepth 16384

noncomputable section

namespace Cert.Bridge

open Idealize.ShloMosaic Idealize.ShloMosaic.TcCoe Idealize.ShloMosaic.ValueIdx Idealize.SL.Sem
open Idealize.ShloMosaic.StableHlo
open Cert.ReferenceIdeal.RefRun (R rd1 rd2)
open scoped BigOperators

/-! # The bridge: every array a kernel region leaves equals, entry by entry, the reference buffer that holds the same
    quantity. `m` is the kernel program's launch memory, `W'` the reference's launch contents; they agree on the arguments. -/

variable (m : (ℓ : Loc Cert.KernelIdeal.nD Cert.KernelIdeal.τ Cert.KernelIdeal.sig) → Buf (Elt Ideal) ℓ) (ρ : Dev Cert.KernelIdeal.nD → PrngReg)
variable (c : Dev Cert.KernelIdeal.nD)
variable (W' : Valuation Cert.ReferenceIdeal.τ Cert.ReferenceIdeal.sig (Elt Ideal))

set_option maxHeartbeats 1000000
open Idealize.ShloMosaic.RealClosure

/-- The image branch's first linear layer (4096 features to 64): the kernel's rows are the reference's. -/
theorem lin0
    (hx : ∀ (r : Fin 40000) (k : Fin 4096), (m ((c : Thread Cert.KernelIdeal.nD Cert.KernelIdeal.τ).loc Cert.KernelIdeal.main_arg14) : Cert.KernelIdeal.S40000x4096.Idx → EReal) (ix2 r k) = rd2 (W' (Cert.ReferenceIdeal.main_arg14 : DevRef Cert.ReferenceIdeal.τ Cert.ReferenceIdeal.sig)) r k)
    (hw : ∀ (q : Fin 64) (k : Fin 4096), (m ((c : Thread Cert.KernelIdeal.nD Cert.KernelIdeal.τ).loc Cert.KernelIdeal.main_arg16) : Cert.KernelIdeal.S64x4096.Idx → EReal) (ix2 q k) = rd2 (W' (Cert.ReferenceIdeal.main_arg16 : DevRef Cert.ReferenceIdeal.τ Cert.ReferenceIdeal.sig)) q k)
    (hb : ∀ q : Fin 64, (m ((c : Thread Cert.KernelIdeal.nD Cert.KernelIdeal.τ).loc Cert.KernelIdeal.main_arg17) : Cert.KernelIdeal.S64.Idx → EReal) (ix1 q) = rd1 (W' (Cert.ReferenceIdeal.main_arg17 : DevRef Cert.ReferenceIdeal.τ Cert.ReferenceIdeal.sig)) q)
    (r : Fin 40000) (q : Fin 64) :
    ((Cert.KernelIdeal.Regions.dat0 (Cert.KernelIdeal.Regions.VE0 m ρ) c).arrAt 3 Cert.KernelIdeal.cfg0.N : Cert.KernelIdeal.S40000x64.Idx → EReal) (ix2 r q) = rd2 (R W' Cert.ReferenceIdeal.main_v35) r q := by
  have ex : (fun k : Fin 4096 => (Cert.KernelIdeal.Regions.VE0 m ρ c (Pipeline.arrRef Cert.KernelIdeal.spec0 0) : Cert.KernelIdeal.S40000x4096.Idx → EReal) (ix2 r k)) = fun k => rd2 (W' (Cert.ReferenceIdeal.main_arg14 : DevRef Cert.ReferenceIdeal.τ Cert.ReferenceIdeal.sig)) r k :=
    funext fun k => (congrFun (Cert.KernelIdeal.Regions.in0_0 m ρ c) _).trans (hx r k)
  have ew : (fun k : Fin 4096 => (Cert.KernelIdeal.Regions.VE0 m ρ c (Pipeline.arrRef Cert.KernelIdeal.spec0 1) : Cert.KernelIdeal.S64x4096.Idx → EReal) (ix2 q k)) = fun k => rd2 (W' (Cert.ReferenceIdeal.main_arg16 : DevRef Cert.ReferenceIdeal.τ Cert.ReferenceIdeal.sig)) q k :=
    funext fun k => (congrFun (Cert.KernelIdeal.Regions.in0_1 m ρ c) _).trans (hw q k)
  have eb : (Cert.KernelIdeal.Regions.VE0 m ρ c (Pipeline.arrRef Cert.KernelIdeal.spec0 2) : Cert.KernelIdeal.S1x64.Idx → EReal) (ix2 (0 : Fin 1) q) = rd1 (W' (Cert.ReferenceIdeal.main_arg17 : DevRef Cert.ReferenceIdeal.τ Cert.ReferenceIdeal.sig)) q :=
    (Cert.KernelIdeal.Regions.in0_2 m ρ c q).trans (hb q)
  refine (congrFun (Cert.KernelIdeal.Regions.final0_lin (Cert.KernelIdeal.Regions.VE0 m ρ) c) (ix2 r q)).trans ?_
  refine Eq.trans ?_ (Cert.ReferenceIdeal.RefRun.v35_apply W' r q).symm
  exact congr (congr (congrArg (Cert.Spec.dense (n := 4096)) ex) ew) eb

/-- The batch mean the kernel accumulated tile by tile is the reference's. -/
theorem mean0
    (hlin : ∀ (r : Fin 40000) (q : Fin 64), ((Cert.KernelIdeal.Regions.dat0 (Cert.KernelIdeal.Regions.VE0 m ρ) c).arrAt 3 Cert.KernelIdeal.cfg0.N : Cert.KernelIdeal.S40000x64.Idx → EReal) (ix2 r q) = rd2 (R W' Cert.ReferenceIdeal.main_v35) r q)
    (q : Fin 64) :
    ((Cert.KernelIdeal.Regions.dat0 (Cert.KernelIdeal.Regions.VE0 m ρ) c).arrAt 4 Cert.KernelIdeal.cfg0.N : Cert.KernelIdeal.S2x64.Idx → EReal) (ix2 (0 : Fin 2) q) = rd1 (R W' Cert.ReferenceIdeal.main_v38) q := by
  have e : ((Cert.KernelIdeal.Regions.dat0 (Cert.KernelIdeal.Regions.VE0 m ρ) c).arrAt 4 Cert.KernelIdeal.cfg0.N : Cert.KernelIdeal.S2x64.Idx → EReal) = Cert.KernelIdeal.Regions.Gstats0 ((Cert.KernelIdeal.Regions.dat0 (Cert.KernelIdeal.Regions.VE0 m ρ) c).arrAt 3 Cert.KernelIdeal.cfg0.N : Cert.KernelIdeal.S40000x64.Idx → EReal) :=
    (Cert.KernelIdeal.Regions.final0_stats (Cert.KernelIdeal.Regions.VE0 m ρ) c).trans (congrArg Cert.KernelIdeal.Regions.Gstats0 (Cert.KernelIdeal.Regions.final0_lin (Cert.KernelIdeal.Regions.VE0 m ρ) c).symm)
  refine (congrFun e _).trans ?_
  refine Eq.trans (if_pos rfl) ?_
  refine Eq.trans ?_ (Cert.ReferenceIdeal.RefRun.v38_apply W' q).symm
  exact congrArg (fun s => Ideal.div s (Ideal.ofBits .f32 0x471C4000#32)) (Finset.sum_congr rfl fun r _ => hlin r q)

/-- The batch variance: the kernel's one-pass form (mean of squares minus squared mean) is the reference's two-pass form
    (mean of squared deviations), the linear layer's entries being reals. -/
theorem var0
    (hlin : ∀ (r : Fin 40000) (q : Fin 64), ((Cert.KernelIdeal.Regions.dat0 (Cert.KernelIdeal.Regions.VE0 m ρ) c).arrAt 3 Cert.KernelIdeal.cfg0.N : Cert.KernelIdeal.S40000x64.Idx → EReal) (ix2 r q) = rd2 (R W' Cert.ReferenceIdeal.main_v35) r q)
    (hreal : ∀ (r : Fin 40000) (q : Fin 64), IsReal (rd2 (R W' Cert.ReferenceIdeal.main_v35) r q))
    (q : Fin 64) :
    ((Cert.KernelIdeal.Regions.dat0 (Cert.KernelIdeal.Regions.VE0 m ρ) c).arrAt 4 Cert.KernelIdeal.cfg0.N : Cert.KernelIdeal.S2x64.Idx → EReal) (ix2 (1 : Fin 2) q) = rd1 (R W' Cert.ReferenceIdeal.main_v39) q := by
  have e : ((Cert.KernelIdeal.Regions.dat0 (Cert.KernelIdeal.Regions.VE0 m ρ) c).arrAt 4 Cert.KernelIdeal.cfg0.N : Cert.KernelIdeal.S2x64.Idx → EReal) = Cert.KernelIdeal.Regions.Gstats0 ((Cert.KernelIdeal.Regions.dat0 (Cert.KernelIdeal.Regions.VE0 m ρ) c).arrAt 3 Cert.KernelIdeal.cfg0.N : Cert.KernelIdeal.S40000x64.Idx → EReal) :=
    (Cert.KernelIdeal.Regions.final0_stats (Cert.KernelIdeal.Regions.VE0 m ρ) c).trans (congrArg Cert.KernelIdeal.Regions.Gstats0 (Cert.KernelIdeal.Regions.final0_lin (Cert.KernelIdeal.Regions.VE0 m ρ) c).symm)
  refine (congrFun e _).trans ?_
  refine Eq.trans (if_neg (show ¬ ((1 : Fin 2).val = 0) from by decide)) ?_
  have s1 : (∑ r : Fin 40000, rd2 ((Cert.KernelIdeal.Regions.dat0 (Cert.KernelIdeal.Regions.VE0 m ρ) c).arrAt 3 Cert.KernelIdeal.cfg0.N : Cert.KernelIdeal.S40000x64.Idx → EReal) r q) = ∑ r : Fin 40000, rd2 (R W' Cert.ReferenceIdeal.main_v35) r q :=
    Finset.sum_congr rfl fun r _ => hlin r q
  have s2 : (∑ r : Fin 40000, rd2 ((Cert.KernelIdeal.Regions.dat0 (Cert.KernelIdeal.Regions.VE0 m ρ) c).arrAt 3 Cert.KernelIdeal.cfg0.N : Cert.KernelIdeal.S40000x64.Idx → EReal) r q * rd2 ((Cert.KernelIdeal.Regions.dat0 (Cert.KernelIdeal.Regions.VE0 m ρ) c).arrAt 3 Cert.KernelIdeal.cfg0.N : Cert.KernelIdeal.S40000x64.Idx → EReal) r q) = ∑ r : Fin 40000, rd2 (R W' Cert.ReferenceIdeal.main_v35) r q * rd2 (R W' Cert.ReferenceIdeal.main_v35) r q :=
    Finset.sum_congr rfl fun r _ => by rw [show rd2 ((Cert.KernelIdeal.Regions.dat0 (Cert.KernelIdeal.Regions.VE0 m ρ) c).arrAt 3 Cert.KernelIdeal.cfg0.N : Cert.KernelIdeal.S40000x64.Idx → EReal) r q = _ from hlin r q]
  refine Eq.trans (congr (congrArg HSub.hSub (congrArg (fun s => Ideal.div s (Ideal.ofBits .f32 0x471C4000#32)) s2))
    (congr (congrArg HMul.hMul (congrArg (fun s => Ideal.div s (Ideal.ofBits .f32 0x471C4000#32)) s1)) (congrArg (fun s => Ideal.div s (Ideal.ofBits .f32 0x471C4000#32)) s1))) ?_
  refine Eq.trans (Idealize.ShloMosaic.Variance.one_pass_div_eq_two_pass_40000 (ι := Fin 40000) (by simp) (fun r => rd2 (R W' Cert.ReferenceIdeal.main_v35) r q) (fun r => hreal r q)) ?_
  rw [Cert.ReferenceIdeal.RefRun.v39_apply W' q, Cert.ReferenceIdeal.RefRun.v38_apply W' q]

/-- The image branch's second linear layer: the kernel's rows are the reference's. -/
theorem lin2
    (hx : ∀ (r : Fin 40000) (k : Fin 64), ((Cert.KernelIdeal.Regions.dat1 (Cert.KernelIdeal.Regions.VE1 m ρ) c).arrAt 4 Cert.KernelIdeal.cfg1.N : Cert.KernelIdeal.S40000x64.Idx → EReal) (ix2 r k) = rd2 (R W' Cert.ReferenceIdeal.main_v59) r k)
    (hw : ∀ (q : Fin 64) (k : Fin 64), (m ((c : Thread Cert.KernelIdeal.nD Cert.KernelIdeal.τ).loc Cert.KernelIdeal.main_arg20) : Cert.KernelIdeal.S64x64.Idx → EReal) (ix2 q k) = rd2 (W' (Cert.ReferenceIdeal.main_arg20 : DevRef Cert.ReferenceIdeal.τ Cert.ReferenceIdeal.sig)) q k)
    (hb : ∀ q : Fin 64, (m ((c : Thread Cert.KernelIdeal.nD Cert.KernelIdeal.τ).loc Cert.KernelIdeal.main_arg21) : Cert.KernelIdeal.S64.Idx → EReal) (ix1 q) = rd1 (W' (Cert.ReferenceIdeal.main_arg21 : DevRef Cert.ReferenceIdeal.τ Cert.ReferenceIdeal.sig)) q)
    (r : Fin 40000) (q : Fin 64) :
    ((Cert.KernelIdeal.Regions.dat2 (Cert.KernelIdeal.Regions.VE2 m ρ) c).arrAt 3 Cert.KernelIdeal.cfg2.N : Cert.KernelIdeal.S40000x64.Idx → EReal) (ix2 r q) = rd2 (R W' Cert.ReferenceIdeal.main_v64) r q := by
  have ex : (fun k : Fin 64 => (Cert.KernelIdeal.Regions.VE2 m ρ c (Pipeline.arrRef Cert.KernelIdeal.spec2 0) : Cert.KernelIdeal.S40000x64.Idx → EReal) (ix2 r k)) = fun k => rd2 (R W' Cert.ReferenceIdeal.main_v59) r k :=
    funext fun k => (congrFun (Cert.KernelIdeal.Regions.in2_0 m ρ c) _).trans (hx r k)
  have ew : (fun k : Fin 64 => (Cert.KernelIdeal.Regions.VE2 m ρ c (Pipeline.arrRef Cert.KernelIdeal.spec2 1) : Cert.KernelIdeal.S64x64.Idx → EReal) (ix2 q k)) = fun k => rd2 (W' (Cert.ReferenceIdeal.main_arg20 : DevRef Cert.ReferenceIdeal.τ Cert.ReferenceIdeal.sig)) q k :=
    funext fun k => (congrFun (Cert.KernelIdeal.Regions.in2_1 m ρ c) _).trans (hw q k)
  have eb : (Cert.KernelIdeal.Regions.VE2 m ρ c (Pipeline.arrRef Cert.KernelIdeal.spec2 2) : Cert.KernelIdeal.S1x64.Idx → EReal) (ix2 (0 : Fin 1) q) = rd1 (W' (Cert.ReferenceIdeal.main_arg21 : DevRef Cert.ReferenceIdeal.τ Cert.ReferenceIdeal.sig)) q :=
    (Cert.KernelIdeal.Regions.in2_2 m ρ c q).trans (hb q)
  refine (congrFun (Cert.KernelIdeal.Regions.final2_lin (Cert.KernelIdeal.Regions.VE2 m ρ) c) (ix2 r q)).trans ?_
  refine Eq.trans ?_ (Cert.ReferenceIdeal.RefRun.v64_apply W' r q).symm
  exact congr (congr (congrArg (Cert.Spec.dense (n := 64)) ex) ew) eb

/-- The batch mean the kernel accumulated tile by tile is the reference's. -/
theorem mean2
    (hlin : ∀ (r : Fin 40000) (q : Fin 64), ((Cert.KernelIdeal.Regions.dat2 (Cert.KernelIdeal.Regions.VE2 m ρ) c).arrAt 3 Cert.KernelIdeal.cfg2.N : Cert.KernelIdeal.S40000x64.Idx → EReal) (ix2 r q) = rd2 (R W' Cert.ReferenceIdeal.main_v64) r q)
    (q : Fin 64) :
    ((Cert.KernelIdeal.Regions.dat2 (Cert.KernelIdeal.Regions.VE2 m ρ) c).arrAt 4 Cert.KernelIdeal.cfg2.N : Cert.KernelIdeal.S2x64.Idx → EReal) (ix2 (0 : Fin 2) q) = rd1 (R W' Cert.ReferenceIdeal.main_v67) q := by
  have e : ((Cert.KernelIdeal.Regions.dat2 (Cert.KernelIdeal.Regions.VE2 m ρ) c).arrAt 4 Cert.KernelIdeal.cfg2.N : Cert.KernelIdeal.S2x64.Idx → EReal) = Cert.KernelIdeal.Regions.Gstats2 ((Cert.KernelIdeal.Regions.dat2 (Cert.KernelIdeal.Regions.VE2 m ρ) c).arrAt 3 Cert.KernelIdeal.cfg2.N : Cert.KernelIdeal.S40000x64.Idx → EReal) :=
    (Cert.KernelIdeal.Regions.final2_stats (Cert.KernelIdeal.Regions.VE2 m ρ) c).trans (congrArg Cert.KernelIdeal.Regions.Gstats2 (Cert.KernelIdeal.Regions.final2_lin (Cert.KernelIdeal.Regions.VE2 m ρ) c).symm)
  refine (congrFun e _).trans ?_
  refine Eq.trans (if_pos rfl) ?_
  refine Eq.trans ?_ (Cert.ReferenceIdeal.RefRun.v67_apply W' q).symm
  exact congrArg (fun s => Ideal.div s (Ideal.ofBits .f32 0x471C4000#32)) (Finset.sum_congr rfl fun r _ => hlin r q)

/-- The batch variance: the kernel's one-pass form (mean of squares minus squared mean) is the reference's two-pass form
    (mean of squared deviations), the linear layer's entries being reals. -/
theorem var2
    (hlin : ∀ (r : Fin 40000) (q : Fin 64), ((Cert.KernelIdeal.Regions.dat2 (Cert.KernelIdeal.Regions.VE2 m ρ) c).arrAt 3 Cert.KernelIdeal.cfg2.N : Cert.KernelIdeal.S40000x64.Idx → EReal) (ix2 r q) = rd2 (R W' Cert.ReferenceIdeal.main_v64) r q)
    (hreal : ∀ (r : Fin 40000) (q : Fin 64), IsReal (rd2 (R W' Cert.ReferenceIdeal.main_v64) r q))
    (q : Fin 64) :
    ((Cert.KernelIdeal.Regions.dat2 (Cert.KernelIdeal.Regions.VE2 m ρ) c).arrAt 4 Cert.KernelIdeal.cfg2.N : Cert.KernelIdeal.S2x64.Idx → EReal) (ix2 (1 : Fin 2) q) = rd1 (R W' Cert.ReferenceIdeal.main_v68) q := by
  have e : ((Cert.KernelIdeal.Regions.dat2 (Cert.KernelIdeal.Regions.VE2 m ρ) c).arrAt 4 Cert.KernelIdeal.cfg2.N : Cert.KernelIdeal.S2x64.Idx → EReal) = Cert.KernelIdeal.Regions.Gstats2 ((Cert.KernelIdeal.Regions.dat2 (Cert.KernelIdeal.Regions.VE2 m ρ) c).arrAt 3 Cert.KernelIdeal.cfg2.N : Cert.KernelIdeal.S40000x64.Idx → EReal) :=
    (Cert.KernelIdeal.Regions.final2_stats (Cert.KernelIdeal.Regions.VE2 m ρ) c).trans (congrArg Cert.KernelIdeal.Regions.Gstats2 (Cert.KernelIdeal.Regions.final2_lin (Cert.KernelIdeal.Regions.VE2 m ρ) c).symm)
  refine (congrFun e _).trans ?_
  refine Eq.trans (if_neg (show ¬ ((1 : Fin 2).val = 0) from by decide)) ?_
  have s1 : (∑ r : Fin 40000, rd2 ((Cert.KernelIdeal.Regions.dat2 (Cert.KernelIdeal.Regions.VE2 m ρ) c).arrAt 3 Cert.KernelIdeal.cfg2.N : Cert.KernelIdeal.S40000x64.Idx → EReal) r q) = ∑ r : Fin 40000, rd2 (R W' Cert.ReferenceIdeal.main_v64) r q :=
    Finset.sum_congr rfl fun r _ => hlin r q
  have s2 : (∑ r : Fin 40000, rd2 ((Cert.KernelIdeal.Regions.dat2 (Cert.KernelIdeal.Regions.VE2 m ρ) c).arrAt 3 Cert.KernelIdeal.cfg2.N : Cert.KernelIdeal.S40000x64.Idx → EReal) r q * rd2 ((Cert.KernelIdeal.Regions.dat2 (Cert.KernelIdeal.Regions.VE2 m ρ) c).arrAt 3 Cert.KernelIdeal.cfg2.N : Cert.KernelIdeal.S40000x64.Idx → EReal) r q) = ∑ r : Fin 40000, rd2 (R W' Cert.ReferenceIdeal.main_v64) r q * rd2 (R W' Cert.ReferenceIdeal.main_v64) r q :=
    Finset.sum_congr rfl fun r _ => by rw [show rd2 ((Cert.KernelIdeal.Regions.dat2 (Cert.KernelIdeal.Regions.VE2 m ρ) c).arrAt 3 Cert.KernelIdeal.cfg2.N : Cert.KernelIdeal.S40000x64.Idx → EReal) r q = _ from hlin r q]
  refine Eq.trans (congr (congrArg HSub.hSub (congrArg (fun s => Ideal.div s (Ideal.ofBits .f32 0x471C4000#32)) s2))
    (congr (congrArg HMul.hMul (congrArg (fun s => Ideal.div s (Ideal.ofBits .f32 0x471C4000#32)) s1)) (congrArg (fun s => Ideal.div s (Ideal.ofBits .f32 0x471C4000#32)) s1))) ?_
  refine Eq.trans (Idealize.ShloMosaic.Variance.one_pass_div_eq_two_pass_40000 (ι := Fin 40000) (by simp) (fun r => rd2 (R W' Cert.ReferenceIdeal.main_v64) r q) (fun r => hreal r q)) ?_
  rw [Cert.ReferenceIdeal.RefRun.v68_apply W' q, Cert.ReferenceIdeal.RefRun.v67_apply W' q]

/-- The text branch's first linear layer (768 features to 64). -/
theorem lin4
    (hx : ∀ (r : Fin 40000) (k : Fin 768), (m ((c : Thread Cert.KernelIdeal.nD Cert.KernelIdeal.τ).loc Cert.KernelIdeal.main_arg15) : Cert.KernelIdeal.S40000x768.Idx → EReal) (ix2 r k) = rd2 (W' (Cert.ReferenceIdeal.main_arg15 : DevRef Cert.ReferenceIdeal.τ Cert.ReferenceIdeal.sig)) r k)
    (hw : ∀ (q : Fin 64) (k : Fin 768), (m ((c : Thread Cert.KernelIdeal.nD Cert.KernelIdeal.τ).loc Cert.KernelIdeal.main_arg24) : Cert.KernelIdeal.S64x768.Idx → EReal) (ix2 q k) = rd2 (W' (Cert.ReferenceIdeal.main_arg24 : DevRef Cert.ReferenceIdeal.τ Cert.ReferenceIdeal.sig)) q k)
    (hb : ∀ q : Fin 64, (m ((c : Thread Cert.KernelIdeal.nD Cert.KernelIdeal.τ).loc Cert.KernelIdeal.main_arg25) : Cert.KernelIdeal.S64.Idx → EReal) (ix1 q) = rd1 (W' (Cert.ReferenceIdeal.main_arg25 : DevRef Cert.ReferenceIdeal.τ Cert.ReferenceIdeal.sig)) q)
    (r : Fin 40000) (q : Fin 64) :
    ((Cert.KernelIdeal.Regions.dat4 (Cert.KernelIdeal.Regions.VE4 m ρ) c).arrAt 3 Cert.KernelIdeal.cfg4.N : Cert.KernelIdeal.S40000x64.Idx → EReal) (ix2 r q) = rd2 (R W' Cert.ReferenceIdeal.main_v94) r q := by
  have ex : (fun k : Fin 768 => (Cert.KernelIdeal.Regions.VE4 m ρ c (Pipeline.arrRef Cert.KernelIdeal.spec4 0) : Cert.KernelIdeal.S40000x768.Idx → EReal) (ix2 r k)) = fun k => rd2 (W' (Cert.ReferenceIdeal.main_arg15 : DevRef Cert.ReferenceIdeal.τ Cert.ReferenceIdeal.sig)) r k :=
    funext fun k => (congrFun (Cert.KernelIdeal.Regions.in4_0 m ρ c) _).trans (hx r k)
  have ew : (fun k : Fin 768 => (Cert.KernelIdeal.Regions.VE4 m ρ c (Pipeline.arrRef Cert.KernelIdeal.spec4 1) : Cert.KernelIdeal.S64x768.Idx → EReal) (ix2 q k)) = fun k => rd2 (W' (Cert.ReferenceIdeal.main_arg24 : DevRef Cert.ReferenceIdeal.τ Cert.ReferenceIdeal.sig)) q k :=
    funext fun k => (congrFun (Cert.KernelIdeal.Regions.in4_1 m ρ c) _).trans (hw q k)
  have eb : (Cert.KernelIdeal.Regions.VE4 m ρ c (Pipeline.arrRef Cert.KernelIdeal.spec4 2) : Cert.KernelIdeal.S1x64.Idx → EReal) (ix2 (0 : Fin 1) q) = rd1 (W' (Cert.ReferenceIdeal.main_arg25 : DevRef Cert.ReferenceIdeal.τ Cert.ReferenceIdeal.sig)) q :=
    (Cert.KernelIdeal.Regions.in4_2 m ρ c q).trans (hb q)
  refine (congrFun (Cert.KernelIdeal.Regions.final4_lin (Cert.KernelIdeal.Regions.VE4 m ρ) c) (ix2 r q)).trans ?_
  refine Eq.trans ?_ (Cert.ReferenceIdeal.RefRun.v94_apply W' r q).symm
  exact congr (congr (congrArg (Cert.Spec.dense (n := 768)) ex) ew) eb

/-- The batch mean the kernel accumulated tile by tile is the reference's. -/
theorem mean4
    (hlin : ∀ (r : Fin 40000) (q : Fin 64), ((Cert.KernelIdeal.Regions.dat4 (Cert.KernelIdeal.Regions.VE4 m ρ) c).arrAt 3 Cert.KernelIdeal.cfg4.N : Cert.KernelIdeal.S40000x64.Idx → EReal) (ix2 r q) = rd2 (R W' Cert.ReferenceIdeal.main_v94) r q)
    (q : Fin 64) :
    ((Cert.KernelIdeal.Regions.dat4 (Cert.KernelIdeal.Regions.VE4 m ρ) c).arrAt 4 Cert.KernelIdeal.cfg4.N : Cert.KernelIdeal.S2x64.Idx → EReal) (ix2 (0 : Fin 2) q) = rd1 (R W' Cert.ReferenceIdeal.main_v97) q := by
  have e : ((Cert.KernelIdeal.Regions.dat4 (Cert.KernelIdeal.Regions.VE4 m ρ) c).arrAt 4 Cert.KernelIdeal.cfg4.N : Cert.KernelIdeal.S2x64.Idx → EReal) = Cert.KernelIdeal.Regions.Gstats4 ((Cert.KernelIdeal.Regions.dat4 (Cert.KernelIdeal.Regions.VE4 m ρ) c).arrAt 3 Cert.KernelIdeal.cfg4.N : Cert.KernelIdeal.S40000x64.Idx → EReal) :=
    (Cert.KernelIdeal.Regions.final4_stats (Cert.KernelIdeal.Regions.VE4 m ρ) c).trans (congrArg Cert.KernelIdeal.Regions.Gstats4 (Cert.KernelIdeal.Regions.final4_lin (Cert.KernelIdeal.Regions.VE4 m ρ) c).symm)
  refine (congrFun e _).trans ?_
  refine Eq.trans (if_pos rfl) ?_
  refine Eq.trans ?_ (Cert.ReferenceIdeal.RefRun.v97_apply W' q).symm
  exact congrArg (fun s => Ideal.div s (Ideal.ofBits .f32 0x471C4000#32)) (Finset.sum_congr rfl fun r _ => hlin r q)

/-- The batch variance: the kernel's one-pass form (mean of squares minus squared mean) is the reference's two-pass form
    (mean of squared deviations), the linear layer's entries being reals. -/
theorem var4
    (hlin : ∀ (r : Fin 40000) (q : Fin 64), ((Cert.KernelIdeal.Regions.dat4 (Cert.KernelIdeal.Regions.VE4 m ρ) c).arrAt 3 Cert.KernelIdeal.cfg4.N : Cert.KernelIdeal.S40000x64.Idx → EReal) (ix2 r q) = rd2 (R W' Cert.ReferenceIdeal.main_v94) r q)
    (hreal : ∀ (r : Fin 40000) (q : Fin 64), IsReal (rd2 (R W' Cert.ReferenceIdeal.main_v94) r q))
    (q : Fin 64) :
    ((Cert.KernelIdeal.Regions.dat4 (Cert.KernelIdeal.Regions.VE4 m ρ) c).arrAt 4 Cert.KernelIdeal.cfg4.N : Cert.KernelIdeal.S2x64.Idx → EReal) (ix2 (1 : Fin 2) q) = rd1 (R W' Cert.ReferenceIdeal.main_v98) q := by
  have e : ((Cert.KernelIdeal.Regions.dat4 (Cert.KernelIdeal.Regions.VE4 m ρ) c).arrAt 4 Cert.KernelIdeal.cfg4.N : Cert.KernelIdeal.S2x64.Idx → EReal) = Cert.KernelIdeal.Regions.Gstats4 ((Cert.KernelIdeal.Regions.dat4 (Cert.KernelIdeal.Regions.VE4 m ρ) c).arrAt 3 Cert.KernelIdeal.cfg4.N : Cert.KernelIdeal.S40000x64.Idx → EReal) :=
    (Cert.KernelIdeal.Regions.final4_stats (Cert.KernelIdeal.Regions.VE4 m ρ) c).trans (congrArg Cert.KernelIdeal.Regions.Gstats4 (Cert.KernelIdeal.Regions.final4_lin (Cert.KernelIdeal.Regions.VE4 m ρ) c).symm)
  refine (congrFun e _).trans ?_
  refine Eq.trans (if_neg (show ¬ ((1 : Fin 2).val = 0) from by decide)) ?_
  have s1 : (∑ r : Fin 40000, rd2 ((Cert.KernelIdeal.Regions.dat4 (Cert.KernelIdeal.Regions.VE4 m ρ) c).arrAt 3 Cert.KernelIdeal.cfg4.N : Cert.KernelIdeal.S40000x64.Idx → EReal) r q) = ∑ r : Fin 40000, rd2 (R W' Cert.ReferenceIdeal.main_v94) r q :=
    Finset.sum_congr rfl fun r _ => hlin r q
  have s2 : (∑ r : Fin 40000, rd2 ((Cert.KernelIdeal.Regions.dat4 (Cert.KernelIdeal.Regions.VE4 m ρ) c).arrAt 3 Cert.KernelIdeal.cfg4.N : Cert.KernelIdeal.S40000x64.Idx → EReal) r q * rd2 ((Cert.KernelIdeal.Regions.dat4 (Cert.KernelIdeal.Regions.VE4 m ρ) c).arrAt 3 Cert.KernelIdeal.cfg4.N : Cert.KernelIdeal.S40000x64.Idx → EReal) r q) = ∑ r : Fin 40000, rd2 (R W' Cert.ReferenceIdeal.main_v94) r q * rd2 (R W' Cert.ReferenceIdeal.main_v94) r q :=
    Finset.sum_congr rfl fun r _ => by rw [show rd2 ((Cert.KernelIdeal.Regions.dat4 (Cert.KernelIdeal.Regions.VE4 m ρ) c).arrAt 3 Cert.KernelIdeal.cfg4.N : Cert.KernelIdeal.S40000x64.Idx → EReal) r q = _ from hlin r q]
  refine Eq.trans (congr (congrArg HSub.hSub (congrArg (fun s => Ideal.div s (Ideal.ofBits .f32 0x471C4000#32)) s2))
    (congr (congrArg HMul.hMul (congrArg (fun s => Ideal.div s (Ideal.ofBits .f32 0x471C4000#32)) s1)) (congrArg (fun s => Ideal.div s (Ideal.ofBits .f32 0x471C4000#32)) s1))) ?_
  refine Eq.trans (Idealize.ShloMosaic.Variance.one_pass_div_eq_two_pass_40000 (ι := Fin 40000) (by simp) (fun r => rd2 (R W' Cert.ReferenceIdeal.main_v94) r q) (fun r => hreal r q)) ?_
  rw [Cert.ReferenceIdeal.RefRun.v98_apply W' q, Cert.ReferenceIdeal.RefRun.v97_apply W' q]

/-- The text branch's second linear layer. -/
theorem lin6
    (hx : ∀ (r : Fin 40000) (k : Fin 64), ((Cert.KernelIdeal.Regions.dat5 (Cert.KernelIdeal.Regions.VE5 m ρ) c).arrAt 4 Cert.KernelIdeal.cfg5.N : Cert.KernelIdeal.S40000x64.Idx → EReal) (ix2 r k) = rd2 (R W' Cert.ReferenceIdeal.main_v118) r k)
    (hw : ∀ (q : Fin 64) (k : Fin 64), (m ((c : Thread Cert.KernelIdeal.nD Cert.KernelIdeal.τ).loc Cert.KernelIdeal.main_arg28) : Cert.KernelIdeal.S64x64.Idx → EReal) (ix2 q k) = rd2 (W' (Cert.ReferenceIdeal.main_arg28 : DevRef Cert.ReferenceIdeal.τ Cert.ReferenceIdeal.sig)) q k)
    (hb : ∀ q : Fin 64, (m ((c : Thread Cert.KernelIdeal.nD Cert.KernelIdeal.τ).loc Cert.KernelIdeal.main_arg29) : Cert.KernelIdeal.S64.Idx → EReal) (ix1 q) = rd1 (W' (Cert.ReferenceIdeal.main_arg29 : DevRef Cert.ReferenceIdeal.τ Cert.ReferenceIdeal.sig)) q)
    (r : Fin 40000) (q : Fin 64) :
    ((Cert.KernelIdeal.Regions.dat6 (Cert.KernelIdeal.Regions.VE6 m ρ) c).arrAt 3 Cert.KernelIdeal.cfg6.N : Cert.KernelIdeal.S40000x64.Idx → EReal) (ix2 r q) = rd2 (R W' Cert.ReferenceIdeal.main_v123) r q := by
  have ex : (fun k : Fin 64 => (Cert.KernelIdeal.Regions.VE6 m ρ c (Pipeline.arrRef Cert.KernelIdeal.spec6 0) : Cert.KernelIdeal.S40000x64.Idx → EReal) (ix2 r k)) = fun k => rd2 (R W' Cert.ReferenceIdeal.main_v118) r k :=
    funext fun k => (congrFun (Cert.KernelIdeal.Regions.in6_0 m ρ c) _).trans (hx r k)
  have ew : (fun k : Fin 64 => (Cert.KernelIdeal.Regions.VE6 m ρ c (Pipeline.arrRef Cert.KernelIdeal.spec6 1) : Cert.KernelIdeal.S64x64.Idx → EReal) (ix2 q k)) = fun k => rd2 (W' (Cert.ReferenceIdeal.main_arg28 : DevRef Cert.ReferenceIdeal.τ Cert.ReferenceIdeal.sig)) q k :=
    funext fun k => (congrFun (Cert.KernelIdeal.Regions.in6_1 m ρ c) _).trans (hw q k)
  have eb : (Cert.KernelIdeal.Regions.VE6 m ρ c (Pipeline.arrRef Cert.KernelIdeal.spec6 2) : Cert.KernelIdeal.S1x64.Idx → EReal) (ix2 (0 : Fin 1) q) = rd1 (W' (Cert.ReferenceIdeal.main_arg29 : DevRef Cert.ReferenceIdeal.τ Cert.ReferenceIdeal.sig)) q :=
    (Cert.KernelIdeal.Regions.in6_2 m ρ c q).trans (hb q)
  refine (congrFun (Cert.KernelIdeal.Regions.final6_lin (Cert.KernelIdeal.Regions.VE6 m ρ) c) (ix2 r q)).trans ?_
  refine Eq.trans ?_ (Cert.ReferenceIdeal.RefRun.v123_apply W' r q).symm
  exact congr (congr (congrArg (Cert.Spec.dense (n := 64)) ex) ew) eb

/-- The batch mean the kernel accumulated tile by tile is the reference's. -/
theorem mean6
    (hlin : ∀ (r : Fin 40000) (q : Fin 64), ((Cert.KernelIdeal.Regions.dat6 (Cert.KernelIdeal.Regions.VE6 m ρ) c).arrAt 3 Cert.KernelIdeal.cfg6.N : Cert.KernelIdeal.S40000x64.Idx → EReal) (ix2 r q) = rd2 (R W' Cert.ReferenceIdeal.main_v123) r q)
    (q : Fin 64) :
    ((Cert.KernelIdeal.Regions.dat6 (Cert.KernelIdeal.Regions.VE6 m ρ) c).arrAt 4 Cert.KernelIdeal.cfg6.N : Cert.KernelIdeal.S2x64.Idx → EReal) (ix2 (0 : Fin 2) q) = rd1 (R W' Cert.ReferenceIdeal.main_v126) q := by
  have e : ((Cert.KernelIdeal.Regions.dat6 (Cert.KernelIdeal.Regions.VE6 m ρ) c).arrAt 4 Cert.KernelIdeal.cfg6.N : Cert.KernelIdeal.S2x64.Idx → EReal) = Cert.KernelIdeal.Regions.Gstats6 ((Cert.KernelIdeal.Regions.dat6 (Cert.KernelIdeal.Regions.VE6 m ρ) c).arrAt 3 Cert.KernelIdeal.cfg6.N : Cert.KernelIdeal.S40000x64.Idx → EReal) :=
    (Cert.KernelIdeal.Regions.final6_stats (Cert.KernelIdeal.Regions.VE6 m ρ) c).trans (congrArg Cert.KernelIdeal.Regions.Gstats6 (Cert.KernelIdeal.Regions.final6_lin (Cert.KernelIdeal.Regions.VE6 m ρ) c).symm)
  refine (congrFun e _).trans ?_
  refine Eq.trans (if_pos rfl) ?_
  refine Eq.trans ?_ (Cert.ReferenceIdeal.RefRun.v126_apply W' q).symm
  exact congrArg (fun s => Ideal.div s (Ideal.ofBits .f32 0x471C4000#32)) (Finset.sum_congr rfl fun r _ => hlin r q)

/-- The batch variance: the kernel's one-pass form (mean of squares minus squared mean) is the reference's two-pass form
    (mean of squared deviations), the linear layer's entries being reals. -/
theorem var6
    (hlin : ∀ (r : Fin 40000) (q : Fin 64), ((Cert.KernelIdeal.Regions.dat6 (Cert.KernelIdeal.Regions.VE6 m ρ) c).arrAt 3 Cert.KernelIdeal.cfg6.N : Cert.KernelIdeal.S40000x64.Idx → EReal) (ix2 r q) = rd2 (R W' Cert.ReferenceIdeal.main_v123) r q)
    (hreal : ∀ (r : Fin 40000) (q : Fin 64), IsReal (rd2 (R W' Cert.ReferenceIdeal.main_v123) r q))
    (q : Fin 64) :
    ((Cert.KernelIdeal.Regions.dat6 (Cert.KernelIdeal.Regions.VE6 m ρ) c).arrAt 4 Cert.KernelIdeal.cfg6.N : Cert.KernelIdeal.S2x64.Idx → EReal) (ix2 (1 : Fin 2) q) = rd1 (R W' Cert.ReferenceIdeal.main_v127) q := by
  have e : ((Cert.KernelIdeal.Regions.dat6 (Cert.KernelIdeal.Regions.VE6 m ρ) c).arrAt 4 Cert.KernelIdeal.cfg6.N : Cert.KernelIdeal.S2x64.Idx → EReal) = Cert.KernelIdeal.Regions.Gstats6 ((Cert.KernelIdeal.Regions.dat6 (Cert.KernelIdeal.Regions.VE6 m ρ) c).arrAt 3 Cert.KernelIdeal.cfg6.N : Cert.KernelIdeal.S40000x64.Idx → EReal) :=
    (Cert.KernelIdeal.Regions.final6_stats (Cert.KernelIdeal.Regions.VE6 m ρ) c).trans (congrArg Cert.KernelIdeal.Regions.Gstats6 (Cert.KernelIdeal.Regions.final6_lin (Cert.KernelIdeal.Regions.VE6 m ρ) c).symm)
  refine (congrFun e _).trans ?_
  refine Eq.trans (if_neg (show ¬ ((1 : Fin 2).val = 0) from by decide)) ?_
  have s1 : (∑ r : Fin 40000, rd2 ((Cert.KernelIdeal.Regions.dat6 (Cert.KernelIdeal.Regions.VE6 m ρ) c).arrAt 3 Cert.KernelIdeal.cfg6.N : Cert.KernelIdeal.S40000x64.Idx → EReal) r q) = ∑ r : Fin 40000, rd2 (R W' Cert.ReferenceIdeal.main_v123) r q :=
    Finset.sum_congr rfl fun r _ => hlin r q
  have s2 : (∑ r : Fin 40000, rd2 ((Cert.KernelIdeal.Regions.dat6 (Cert.KernelIdeal.Regions.VE6 m ρ) c).arrAt 3 Cert.KernelIdeal.cfg6.N : Cert.KernelIdeal.S40000x64.Idx → EReal) r q * rd2 ((Cert.KernelIdeal.Regions.dat6 (Cert.KernelIdeal.Regions.VE6 m ρ) c).arrAt 3 Cert.KernelIdeal.cfg6.N : Cert.KernelIdeal.S40000x64.Idx → EReal) r q) = ∑ r : Fin 40000, rd2 (R W' Cert.ReferenceIdeal.main_v123) r q * rd2 (R W' Cert.ReferenceIdeal.main_v123) r q :=
    Finset.sum_congr rfl fun r _ => by rw [show rd2 ((Cert.KernelIdeal.Regions.dat6 (Cert.KernelIdeal.Regions.VE6 m ρ) c).arrAt 3 Cert.KernelIdeal.cfg6.N : Cert.KernelIdeal.S40000x64.Idx → EReal) r q = _ from hlin r q]
  refine Eq.trans (congr (congrArg HSub.hSub (congrArg (fun s => Ideal.div s (Ideal.ofBits .f32 0x471C4000#32)) s2))
    (congr (congrArg HMul.hMul (congrArg (fun s => Ideal.div s (Ideal.ofBits .f32 0x471C4000#32)) s1)) (congrArg (fun s => Ideal.div s (Ideal.ofBits .f32 0x471C4000#32)) s1))) ?_
  refine Eq.trans (Idealize.ShloMosaic.Variance.one_pass_div_eq_two_pass_40000 (ι := Fin 40000) (by simp) (fun r => rd2 (R W' Cert.ReferenceIdeal.main_v123) r q) (fun r => hreal r q)) ?_
  rw [Cert.ReferenceIdeal.RefRun.v127_apply W' q, Cert.ReferenceIdeal.RefRun.v126_apply W' q]

end Cert.Bridge

end
-- ==== Proof.BridgeHosts.lean ====
import proofs.«167917_j22402549416514_2_alg».proof.Proof.Gen.KernelIdeal.Launch
import proofs.«167917_j22402549416514_2_alg».proof.Proof.RefOps
import Idealize.ShloMosaic.Lib.StableHlo.Run
import Idealize.ShloMosaic.PureOps.Ideal

set_option maxRecDepth 16384

noncomputable section

namespace Cert.Bridge

open Idealize.ShloMosaic Idealize.ShloMosaic.TcCoe Idealize.ShloMosaic.StableHlo

/-! # The host operations the two programs share

    Outside their kernels both programs compute the same arrays by the same host operations — the sparse products
    (gather the rows a list of indices names, scale each by its weight, add them up into the rows a second list names) and the
    stacking of two tables into one — applied to the same arguments. Each theorem here says that one such array is the same in
    the two programs, for any two memories that agree on the arrays the computation starts from. -/

/-- The contents of the kernel program's buffers, and of the reference program's. -/
abbrev KV := Valuation Cert.KernelIdeal.τ Cert.KernelIdeal.sig (Elt Ideal)
abbrev RV := Valuation Cert.ReferenceIdeal.τ Cert.ReferenceIdeal.sig (Elt Ideal)

/-- The two programs' descriptions of a gather of rows and of a scatter-add into rows are the same descriptions. -/
theorem rec_g70 : Cert.KernelIdeal.gather_S70000x64_S2500000x1_S2500000x64_1_0_n_n_0_1_164 = Cert.ReferenceIdeal.gather_S70000x64_S2500000x1_S2500000x64_1_0_n_n_0_1_164 := rfl
theorem rec_s70 : Cert.KernelIdeal.scatter_S70000x64_S2500000x1_S2500000x64_1_0_0_1 = Cert.ReferenceIdeal.scatter_S70000x64_S2500000x1_S2500000x64_1_0_0_1 := rfl
theorem rec_g40 : Cert.KernelIdeal.gather_S40000x64_S1000000x1_S1000000x64_1_0_n_n_0_1_164 = Cert.ReferenceIdeal.gather_S40000x64_S1000000x1_S1000000x64_1_0_n_n_0_1_164 := rfl
theorem rec_s40 : Cert.KernelIdeal.scatter_S40000x64_S1000000x1_S1000000x64_1_0_0_1 = Cert.ReferenceIdeal.scatter_S40000x64_S1000000x1_S1000000x64_1_0_0_1 := rfl
theorem rec_s30 : Cert.KernelIdeal.scatter_S30000x64_S1000000x1_S1000000x64_1_0_0_1 = Cert.ReferenceIdeal.scatter_S30000x64_S1000000x1_S1000000x64_1_0_0_1 := rfl

/-- The content table: both programs apply the same host operations to the same five argument arrays. -/
theorem content_eq (V : KV) (V' : RV)
    (h0 : (V (Proc.devRef .tc Cert.KernelIdeal.main_arg0) : Cert.KernelIdeal.S2500000.Idx → BitVec 32) = V' (Proc.devRef .tc Cert.ReferenceIdeal.main_arg0))
    (h1 : (V (Proc.devRef .tc Cert.KernelIdeal.main_arg1) : Cert.KernelIdeal.S2500000.Idx → BitVec 32) = V' (Proc.devRef .tc Cert.ReferenceIdeal.main_arg1))
    (h2 : (V (Proc.devRef .tc Cert.KernelIdeal.main_arg2) : Cert.KernelIdeal.S2500000.Idx → EReal) = V' (Proc.devRef .tc Cert.ReferenceIdeal.main_arg2))
    (h12 : (V (Proc.devRef .tc Cert.KernelIdeal.main_arg12) : Cert.KernelIdeal.S30000x64.Idx → EReal) = V' (Proc.devRef .tc Cert.ReferenceIdeal.main_arg12))
    (h13 : (V (Proc.devRef .tc Cert.KernelIdeal.main_arg13) : Cert.KernelIdeal.S40000x64.Idx → EReal) = V' (Proc.devRef .tc Cert.ReferenceIdeal.main_arg13)) :
    (after (Cert.KernelIdeal.Gen.hostOps0 (F := Ideal)) V (Proc.devRef .tc Cert.KernelIdeal.main_v30) : Cert.KernelIdeal.S70000x64.Idx → EReal)
      = after (Cert.ReferenceIdeal.RefRun.ops00 (F := Ideal)) V' (Proc.devRef .tc Cert.ReferenceIdeal.main_v30) := by
  dsimp only [Cert.KernelIdeal.Gen.hostOps0, Cert.ReferenceIdeal.RefRun.ops00]
  after_results_simp
  rw [h0, h1, h2, h12, h13, rec_g70, rec_s70]

/-! ## The four tables after the gating kernels -/

set_option maxHeartbeats 4000000 in
/-- The image branch's item rows: the gated item table multiplied twice by the image item graph, in both programs. -/
theorem img_item_eq (V : KV) (V' : RV)
    (h52 : (V (Proc.devRef .tc Cert.KernelIdeal.main_v52) : Cert.KernelIdeal.S40000x64.Idx → EReal) = V' (Proc.devRef .tc Cert.ReferenceIdeal.main_v160))
    (h3 : (V (Proc.devRef .tc Cert.KernelIdeal.main_arg3) : Cert.KernelIdeal.S1000000.Idx → BitVec 32) = V' (Proc.devRef .tc Cert.ReferenceIdeal.main_arg3))
    (h4 : (V (Proc.devRef .tc Cert.KernelIdeal.main_arg4) : Cert.KernelIdeal.S1000000.Idx → BitVec 32) = V' (Proc.devRef .tc Cert.ReferenceIdeal.main_arg4))
    (h5 : (V (Proc.devRef .tc Cert.KernelIdeal.main_arg5) : Cert.KernelIdeal.S1000000.Idx → EReal) = V' (Proc.devRef .tc Cert.ReferenceIdeal.main_arg5)) :
    (after (Cert.KernelIdeal.Gen.hostOps10 (F := Ideal)) V (Proc.devRef .tc Cert.KernelIdeal.main_v80) : Cert.KernelIdeal.S40000x64.Idx → EReal)
      = after ((Cert.ReferenceIdeal.RefRun.ops08 (F := Ideal)) ++ Cert.ReferenceIdeal.RefRun.ops09 ++ Cert.ReferenceIdeal.RefRun.ops10 ++ Cert.ReferenceIdeal.RefRun.ops11) V' (Proc.devRef .tc Cert.ReferenceIdeal.main_v198) := by
  dsimp only [Cert.KernelIdeal.Gen.hostOps10, Cert.ReferenceIdeal.RefRun.ops08, Cert.ReferenceIdeal.RefRun.ops09, Cert.ReferenceIdeal.RefRun.ops10, Cert.ReferenceIdeal.RefRun.ops11, List.cons_append, List.nil_append, List.append_assoc]
  after_results_simp
  rw [h52, h3, h4, h5, rec_g40, rec_s40]

set_option maxHeartbeats 4000000 in
/-- The image branch's user rows: those item rows multiplied by the user-item graph, in both programs. -/
theorem img_user_eq (V : KV) (V' : RV)
    (h52 : (V (Proc.devRef .tc Cert.KernelIdeal.main_v52) : Cert.KernelIdeal.S40000x64.Idx → EReal) = V' (Proc.devRef .tc Cert.ReferenceIdeal.main_v160))
    (h3 : (V (Proc.devRef .tc Cert.KernelIdeal.main_arg3) : Cert.KernelIdeal.S1000000.Idx → BitVec 32) = V' (Proc.devRef .tc Cert.ReferenceIdeal.main_arg3))
    (h4 : (V (Proc.devRef .tc Cert.KernelIdeal.main_arg4) : Cert.KernelIdeal.S1000000.Idx → BitVec 32) = V' (Proc.devRef .tc Cert.ReferenceIdeal.main_arg4))
    (h5 : (V (Proc.devRef .tc Cert.KernelIdeal.main_arg5) : Cert.KernelIdeal.S1000000.Idx → EReal) = V' (Proc.devRef .tc Cert.ReferenceIdeal.main_arg5))
    (h9 : (V (Proc.devRef .tc Cert.KernelIdeal.main_arg9) : Cert.KernelIdeal.S1000000.Idx → BitVec 32) = V' (Proc.devRef .tc Cert.ReferenceIdeal.main_arg9))
    (h10 : (V (Proc.devRef .tc Cert.KernelIdeal.main_arg10) : Cert.KernelIdeal.S1000000.Idx → BitVec 32) = V' (Proc.devRef .tc Cert.ReferenceIdeal.main_arg10))
    (h11 : (V (Proc.devRef .tc Cert.KernelIdeal.main_arg11) : Cert.KernelIdeal.S1000000.Idx → EReal) = V' (Proc.devRef .tc Cert.ReferenceIdeal.main_arg11)) :
    (after (Cert.KernelIdeal.Gen.hostOps10 (F := Ideal)) V (Proc.devRef .tc Cert.KernelIdeal.main_v119) : Cert.KernelIdeal.S30000x64.Idx → EReal)
      = after ((Cert.ReferenceIdeal.RefRun.ops08 (F := Ideal)) ++ Cert.ReferenceIdeal.RefRun.ops09 ++ Cert.ReferenceIdeal.RefRun.ops10 ++ Cert.ReferenceIdeal.RefRun.ops11) V' (Proc.devRef .tc Cert.ReferenceIdeal.main_v237) := by
  dsimp only [Cert.KernelIdeal.Gen.hostOps10, Cert.ReferenceIdeal.RefRun.ops08, Cert.ReferenceIdeal.RefRun.ops09, Cert.ReferenceIdeal.RefRun.ops10, Cert.ReferenceIdeal.RefRun.ops11, List.cons_append, List.nil_append, List.append_assoc]
  after_results_simp
  rw [h52, h3, h4, h5, h9, h10, h11, rec_g40, rec_s40, rec_s30]

set_option maxHeartbeats 4000000 in
/-- The text branch's item rows: the gated item table multiplied twice by the text item graph, in both programs. -/
theorem txt_item_eq (V : KV) (V' : RV)
    (h54 : (V (Proc.devRef .tc Cert.KernelIdeal.main_v54) : Cert.KernelIdeal.S40000x64.Idx → EReal) = V' (Proc.devRef .tc Cert.ReferenceIdeal.main_v172))
    (h6 : (V (Proc.devRef .tc Cert.KernelIdeal.main_arg6) : Cert.KernelIdeal.S1000000.Idx → BitVec 32) = V' (Proc.devRef .tc Cert.ReferenceIdeal.main_arg6))
    (h7 : (V (Proc.devRef .tc Cert.KernelIdeal.main_arg7) : Cert.KernelIdeal.S1000000.Idx → BitVec 32) = V' (Proc.devRef .tc Cert.ReferenceIdeal.main_arg7))
    (h8 : (V (Proc.devRef .tc Cert.KernelIdeal.main_arg8) : Cert.KernelIdeal.S1000000.Idx → EReal) = V' (Proc.devRef .tc Cert.ReferenceIdeal.main_arg8)) :
    (after (Cert.KernelIdeal.Gen.hostOps10 (F := Ideal)) V (Proc.devRef .tc Cert.KernelIdeal.main_v106) : Cert.KernelIdeal.S40000x64.Idx → EReal)
      = after ((Cert.ReferenceIdeal.RefRun.ops08 (F := Ideal)) ++ Cert.ReferenceIdeal.RefRun.ops09 ++ Cert.ReferenceIdeal.RefRun.ops10 ++ Cert.ReferenceIdeal.RefRun.ops11) V' (Proc.devRef .tc Cert.ReferenceIdeal.main_v224) := by
  dsimp only [Cert.KernelIdeal.Gen.hostOps10, Cert.ReferenceIdeal.RefRun.ops08, Cert.ReferenceIdeal.RefRun.ops09, Cert.ReferenceIdeal.RefRun.ops10, Cert.ReferenceIdeal.RefRun.ops11, List.cons_append, List.nil_append, List.append_assoc]
  after_results_simp
  rw [h54, h6, h7, h8, rec_g40, rec_s40]

set_option maxHeartbeats 4000000 in
/-- The text branch's user rows: those item rows multiplied by the user-item graph, in both programs. -/
theorem txt_user_eq (V : KV) (V' : RV)
    (h54 : (V (Proc.devRef .tc Cert.KernelIdeal.main_v54) : Cert.KernelIdeal.S40000x64.Idx → EReal) = V' (Proc.devRef .tc Cert.ReferenceIdeal.main_v172))
    (h6 : (V (Proc.devRef .tc Cert.KernelIdeal.main_arg6) : Cert.KernelIdeal.S1000000.Idx → BitVec 32) = V' (Proc.devRef .tc Cert.ReferenceIdeal.main_arg6))
    (h7 : (V (Proc.devRef .tc Cert.KernelIdeal.main_arg7) : Cert.KernelIdeal.S1000000.Idx → BitVec 32) = V' (Proc.devRef .tc Cert.ReferenceIdeal.main_arg7))
    (h8 : (V (Proc.devRef .tc Cert.KernelIdeal.main_arg8) : Cert.KernelIdeal.S1000000.Idx → EReal) = V' (Proc.devRef .tc Cert.ReferenceIdeal.main_arg8))
    (h9 : (V (Proc.devRef .tc Cert.KernelIdeal.main_arg9) : Cert.KernelIdeal.S1000000.Idx → BitVec 32) = V' (Proc.devRef .tc Cert.ReferenceIdeal.main_arg9))
    (h10 : (V (Proc.devRef .tc Cert.KernelIdeal.main_arg10) : Cert.KernelIdeal.S1000000.Idx → BitVec 32) = V' (Proc.devRef .tc Cert.ReferenceIdeal.main_arg10))
    (h11 : (V (Proc.devRef .tc Cert.KernelIdeal.main_arg11) : Cert.KernelIdeal.S1000000.Idx → EReal) = V' (Proc.devRef .tc Cert.ReferenceIdeal.main_arg11)) :
    (after (Cert.KernelIdeal.Gen.hostOps10 (F := Ideal)) V (Proc.devRef .tc Cert.KernelIdeal.main_v132) : Cert.KernelIdeal.S30000x64.Idx → EReal)
      = after ((Cert.ReferenceIdeal.RefRun.ops08 (F := Ideal)) ++ Cert.ReferenceIdeal.RefRun.ops09 ++ Cert.ReferenceIdeal.RefRun.ops10 ++ Cert.ReferenceIdeal.RefRun.ops11) V' (Proc.devRef .tc Cert.ReferenceIdeal.main_v250) := by
  dsimp only [Cert.KernelIdeal.Gen.hostOps10, Cert.ReferenceIdeal.RefRun.ops08, Cert.ReferenceIdeal.RefRun.ops09, Cert.ReferenceIdeal.RefRun.ops10, Cert.ReferenceIdeal.RefRun.ops11, List.cons_append, List.nil_append, List.append_assoc]
  after_results_simp
  rw [h54, h6, h7, h8, h9, h10, h11, rec_g40, rec_s40, rec_s30]

/-! ## The kernel program's two stacked tables

    Each is the user rows stacked on the item rows of one branch. The stacking is one of the last three operations of the stretch
    and the two that follow it write other buffers, so the stacked table is the stacking of what the stretch leaves in the two. -/

set_option maxHeartbeats 4000000 in
/-- The image branch's table of all nodes: its user rows on top of its item rows. -/
theorem img_ui_concat (V : KV) :
    (after (Cert.KernelIdeal.Gen.hostOps10 (F := Ideal)) V (Proc.devRef .tc Cert.KernelIdeal.main_v133) : Cert.KernelIdeal.S70000x64.Idx → EReal)
      = concatenate Cert.KernelIdeal.S70000x64 0
          [⟨Cert.KernelIdeal.S30000x64, (after (Cert.KernelIdeal.Gen.hostOps10 (F := Ideal)) V (Proc.devRef .tc Cert.KernelIdeal.main_v119) : Cert.KernelIdeal.S30000x64.Idx → EReal)⟩,
           ⟨Cert.KernelIdeal.S40000x64, (after (Cert.KernelIdeal.Gen.hostOps10 (F := Ideal)) V (Proc.devRef .tc Cert.KernelIdeal.main_v80) : Cert.KernelIdeal.S40000x64.Idx → EReal)⟩]
          Cert.KernelIdeal.Facts₀.concatenates_S30000x64_S40000x64_S70000x64_d0 := by
  generalize hT : (after (Cert.KernelIdeal.Gen.hostOps10 (F := Ideal)) V (Proc.devRef .tc Cert.KernelIdeal.main_v119) : Cert.KernelIdeal.S30000x64.Idx → EReal) = T
  generalize hB : (after (Cert.KernelIdeal.Gen.hostOps10 (F := Ideal)) V (Proc.devRef .tc Cert.KernelIdeal.main_v80) : Cert.KernelIdeal.S40000x64.Idx → EReal) = B
  dsimp only [Cert.KernelIdeal.Gen.hostOps10] at hT hB ⊢
  simp only [after_cons, after_nil] at hT hB ⊢
  rw [reshape_result_ne (h := show Cert.KernelIdeal.main_v133 ≠ Cert.KernelIdeal.main_v135 by decide), binary_result_ne (h := show Cert.KernelIdeal.main_v133 ≠ Cert.KernelIdeal.main_v134 by decide), binary_result]
  rw [reshape_result_ne (h := show Cert.KernelIdeal.main_v119 ≠ Cert.KernelIdeal.main_v135 by decide), binary_result_ne (h := show Cert.KernelIdeal.main_v119 ≠ Cert.KernelIdeal.main_v134 by decide), binary_result_ne (h := show Cert.KernelIdeal.main_v119 ≠ Cert.KernelIdeal.main_v133 by decide)] at hT
  rw [reshape_result_ne (h := show Cert.KernelIdeal.main_v80 ≠ Cert.KernelIdeal.main_v135 by decide), binary_result_ne (h := show Cert.KernelIdeal.main_v80 ≠ Cert.KernelIdeal.main_v134 by decide), binary_result_ne (h := show Cert.KernelIdeal.main_v80 ≠ Cert.KernelIdeal.main_v133 by decide)] at hB
  subst hT hB
  rfl

set_option maxHeartbeats 4000000 in
/-- The text branch's table of all nodes: its user rows on top of its item rows. -/
theorem txt_ui_concat (V : KV) :
    (after (Cert.KernelIdeal.Gen.hostOps10 (F := Ideal)) V (Proc.devRef .tc Cert.KernelIdeal.main_v134) : Cert.KernelIdeal.S70000x64.Idx → EReal)
      = concatenate Cert.KernelIdeal.S70000x64 0
          [⟨Cert.KernelIdeal.S30000x64, (after (Cert.KernelIdeal.Gen.hostOps10 (F := Ideal)) V (Proc.devRef .tc Cert.KernelIdeal.main_v132) : Cert.KernelIdeal.S30000x64.Idx → EReal)⟩,
           ⟨Cert.KernelIdeal.S40000x64, (after (Cert.KernelIdeal.Gen.hostOps10 (F := Ideal)) V (Proc.devRef .tc Cert.KernelIdeal.main_v106) : Cert.KernelIdeal.S40000x64.Idx → EReal)⟩]
          Cert.KernelIdeal.Facts₀.concatenates_S30000x64_S40000x64_S70000x64_d0 := by
  generalize hT : (after (Cert.KernelIdeal.Gen.hostOps10 (F := Ideal)) V (Proc.devRef .tc Cert.KernelIdeal.main_v132) : Cert.KernelIdeal.S30000x64.Idx → EReal) = T
  generalize hB : (after (Cert.KernelIdeal.Gen.hostOps10 (F := Ideal)) V (Proc.devRef .tc Cert.KernelIdeal.main_v106) : Cert.KernelIdeal.S40000x64.Idx → EReal) = B
  dsimp only [Cert.KernelIdeal.Gen.hostOps10] at hT hB ⊢
  simp only [after_cons, after_nil] at hT hB ⊢
  rw [reshape_result_ne (h := show Cert.KernelIdeal.main_v134 ≠ Cert.KernelIdeal.main_v135 by decide), binary_result]
  rw [reshape_result_ne (h := show Cert.KernelIdeal.main_v132 ≠ Cert.KernelIdeal.main_v135 by decide), binary_result_ne (h := show Cert.KernelIdeal.main_v132 ≠ Cert.KernelIdeal.main_v134 by decide)] at hT
  rw [reshape_result_ne (h := show Cert.KernelIdeal.main_v106 ≠ Cert.KernelIdeal.main_v135 by decide), binary_result_ne (h := show Cert.KernelIdeal.main_v106 ≠ Cert.KernelIdeal.main_v134 by decide)] at hB
  subst hT hB
  rfl

end Cert.Bridge

end
-- ==== Proof.RefRead0.lean ====
/-
  The reference program's stacked tables, read at an entry.

  The program stacks a table of 30000 rows on one of 40000 rows three times: the two embedding tables at its start, and
  the two pairs of propagated tables before the scores. At a row of the first 30000 the stack holds the first table's
  row; at a later row, the second table's row 30000 up.
-/
import proofs.«167917_j22402549416514_2_alg».proof.Proof.RefReadKit

noncomputable section

namespace Cert.ReferenceIdeal.RefRun

open Cert.ReferenceIdeal Cert.ReferenceIdeal.Gen Idealize.ShloMosaic Idealize.ShloMosaic.TcCoe Idealize.SL.Sem Idealize.ShloMosaic.StableHlo

open Idealize.ShloMosaic.ValueIdx
open scoped BigOperators

section ConcatKit
variable {α : Type} {m₁ m₂ m n : Nat}

/-- Two matrices stacked by rows, read at a row of the first: the first matrix's entry. -/
theorem rowConcat_left (x₁ : (⟨2, ![m₁, n]⟩ : Shape).Idx → α) (x₂ : (⟨2, ![m₂, n]⟩ : Shape).Idx → α)
    (h : Shape.Concatenates [⟨2, ![m₁, n]⟩, ⟨2, ![m₂, n]⟩] ⟨2, ![m, n]⟩ 0) (r : Fin m₁) (hr : r.val < m) (c : Fin n) :
    concatenate ⟨2, ![m, n]⟩ 0 [⟨⟨2, ![m₁, n]⟩, x₁⟩, ⟨⟨2, ![m₂, n]⟩, x₂⟩] h (ix2 ⟨r.val, hr⟩ c) = x₁ (ix2 r c) :=
  concatenate_pair_apply_left 0 x₁ x₂ h _ rfl (ix2 r c) (fun b => by fin_cases b <;> rfl)

/-- Two matrices stacked by rows, read at a row past the first: the second matrix's entry, the first's row count less. -/
theorem rowConcat_right (x₁ : (⟨2, ![m₁, n]⟩ : Shape).Idx → α) (x₂ : (⟨2, ![m₂, n]⟩ : Shape).Idx → α)
    (h : Shape.Concatenates [⟨2, ![m₁, n]⟩, ⟨2, ![m₂, n]⟩] ⟨2, ![m, n]⟩ 0) (r : Fin m₂) (hr : m₁ + r.val < m) (c : Fin n) :
    concatenate ⟨2, ![m, n]⟩ 0 [⟨⟨2, ![m₁, n]⟩, x₁⟩, ⟨⟨2, ![m₂, n]⟩, x₂⟩] h (ix2 ⟨m₁ + r.val, hr⟩ c) = x₂ (ix2 r c) :=
  concatenate_pair_apply_right 0 x₁ x₂ h _ rfl rfl (ix2 r c)
    (fun b hb => by
      fin_cases b
      · exact absurd rfl hb
      · rfl)
    (by show r.val + m₁ = m₁ + r.val; omega)

end ConcatKit
/-! ## The stacked tables -/

/-- The stacked table at one of its first 30000 rows: the first table's entry. -/
theorem v0_left (W : Valuation τ sig (Elt Ideal)) (r : Fin 30000) (c : Fin 64) (hr : r.val < 70000) :
    rd2 (R W main_v0) ⟨r.val, hr⟩ c = rd2 (W (main_arg12 : DevRef τ sig)) r c := by
  have e : R W main_v0 = after ops00 W (main_v0 : DevRef τ sig) := R_eq_V01 (by decide +kernel) W
  rw [e]
  after_results_simp
  simp only [rd2, rowConcat_left (m₁ := 30000) (m₂ := 40000) (m := 70000) (n := 64), rowConcat_right (m₁ := 30000) (m₂ := 40000) (m := 70000) (n := 64)]

/-- The stacked table at one of its last 40000 rows: the second table's entry, 30000 rows up. -/
theorem v0_right (W : Valuation τ sig (Elt Ideal)) (r : Fin 40000) (c : Fin 64) (hr : 30000 + r.val < 70000) :
    rd2 (R W main_v0) ⟨30000 + r.val, hr⟩ c = rd2 (W (main_arg13 : DevRef τ sig)) r c := by
  have e : R W main_v0 = after ops00 W (main_v0 : DevRef τ sig) := R_eq_V01 (by decide +kernel) W
  rw [e]
  after_results_simp
  simp only [rd2, rowConcat_left (m₁ := 30000) (m₂ := 40000) (m := 70000) (n := 64), rowConcat_right (m₁ := 30000) (m₂ := 40000) (m := 70000) (n := 64)]

/-- The stacked table at one of its first 30000 rows: the first table's entry. -/
theorem v251_left (W : Valuation τ sig (Elt Ideal)) (r : Fin 30000) (c : Fin 64) (hr : r.val < 70000) :
    rd2 (R W main_v251) ⟨r.val, hr⟩ c = rd2 (R W main_v237) r c := by
  have e : R W main_v251 = after ops12 (V12 W) (main_v251 : DevRef τ sig) := R_eq_V13 _ W
  have i : V12 W (main_v237 : DevRef τ sig) = R W main_v237 := (R_eq_V12 (by decide +kernel) W).symm
  rw [e]
  generalize V12 W = V at *
  after_results_simp
  simp only [rd2, rowConcat_left (m₁ := 30000) (m₂ := 40000) (m := 70000) (n := 64), rowConcat_right (m₁ := 30000) (m₂ := 40000) (m := 70000) (n := 64)]
  try after_results_simp
  rw [i]

/-- The stacked table at one of its last 40000 rows: the second table's entry, 30000 rows up. -/
theorem v251_right (W : Valuation τ sig (Elt Ideal)) (r : Fin 40000) (c : Fin 64) (hr : 30000 + r.val < 70000) :
    rd2 (R W main_v251) ⟨30000 + r.val, hr⟩ c = rd2 (R W main_v198) r c := by
  have e : R W main_v251 = after ops12 (V12 W) (main_v251 : DevRef τ sig) := R_eq_V13 _ W
  have i : V12 W (main_v198 : DevRef τ sig) = R W main_v198 := (R_eq_V12 (by decide +kernel) W).symm
  rw [e]
  generalize V12 W = V at *
  after_results_simp
  simp only [rd2, rowConcat_left (m₁ := 30000) (m₂ := 40000) (m := 70000) (n := 64), rowConcat_right (m₁ := 30000) (m₂ := 40000) (m := 70000) (n := 64)]
  try after_results_simp
  rw [i]

/-- The stacked table at one of its first 30000 rows: the first table's entry. -/
theorem v252_left (W : Valuation τ sig (Elt Ideal)) (r : Fin 30000) (c : Fin 64) (hr : r.val < 70000) :
    rd2 (R W main_v252) ⟨r.val, hr⟩ c = rd2 (R W main_v250) r c := by
  have e : R W main_v252 = after ops12 (V12 W) (main_v252 : DevRef τ sig) := R_eq_V13 _ W
  have i : V12 W (main_v250 : DevRef τ sig) = R W main_v250 := (R_eq_V12 (by decide +kernel) W).symm
  rw [e]
  generalize V12 W = V at *
  after_results_simp
  simp only [rd2, rowConcat_left (m₁ := 30000) (m₂ := 40000) (m := 70000) (n := 64), rowConcat_right (m₁ := 30000) (m₂ := 40000) (m := 70000) (n := 64)]
  try after_results_simp
  rw [i]

/-- The stacked table at one of its last 40000 rows: the second table's entry, 30000 rows up. -/
theorem v252_right (W : Valuation τ sig (Elt Ideal)) (r : Fin 40000) (c : Fin 64) (hr : 30000 + r.val < 70000) :
    rd2 (R W main_v252) ⟨30000 + r.val, hr⟩ c = rd2 (R W main_v224) r c := by
  have e : R W main_v252 = after ops12 (V12 W) (main_v252 : DevRef τ sig) := R_eq_V13 _ W
  have i : V12 W (main_v224 : DevRef τ sig) = R W main_v224 := (R_eq_V12 (by decide +kernel) W).symm
  rw [e]
  generalize V12 W = V at *
  after_results_simp
  simp only [rd2, rowConcat_left (m₁ := 30000) (m₂ := 40000) (m := 70000) (n := 64), rowConcat_right (m₁ := 30000) (m₂ := 40000) (m := 70000) (n := 64)]
  try after_results_simp
  rw [i]

end Cert.ReferenceIdeal.RefRun

end
-- ==== Proof.BridgeTables.lean ====
/-
  The shared host chains, the kernel program's against the reference program's end of line.

  Outside their kernels both programs compute the content table and, for each branch, the table of all nodes (the
  branch's user rows stacked on its item rows) by the same host operations. Here each such array of the kernel program,
  read at an entry after its stretch of host operations, is the reference program's buffer at the end of its whole
  line, for any two memories that agree on the arrays the computation starts from: the stretch's array is the
  reference's stage's (the equalities of the shared chains), and the reference's stages after it write none of these
  buffers. A table of all nodes is read by rows: a row of the first 30000 in the user rows, a later one in the item
  rows 30000 up, on both sides.
-/
import proofs.«167917_j22402549416514_2_alg».proof.Proof.BridgeHosts
import proofs.«167917_j22402549416514_2_alg».proof.Proof.RefRead0

set_option maxRecDepth 16384

noncomputable section

namespace Cert.Bridge

open Idealize.ShloMosaic Idealize.ShloMosaic.TcCoe Idealize.ShloMosaic.StableHlo Idealize.ShloMosaic.ValueIdx
open Cert.ReferenceIdeal.RefRun

/-- The reference's four stages of sparse products, run from the contents before the first of them, leave the
    contents before its last stage. -/
theorem after_tables (W' : RV) :
    after ((Cert.ReferenceIdeal.RefRun.ops08 (F := Ideal)) ++ Cert.ReferenceIdeal.RefRun.ops09 ++ Cert.ReferenceIdeal.RefRun.ops10 ++ Cert.ReferenceIdeal.RefRun.ops11) (V08 W') = V12 W' := by
  simp only [Cert.Lib.StagedRun.after_append] <;> rfl

/-- The content table after the kernel program's first stretch of host operations, at an entry, is the reference's
    at the end of its line. -/
theorem content_bridge (V : KV) (W' : RV)
    (h0 : (V (Proc.devRef .tc Cert.KernelIdeal.main_arg0) : Cert.KernelIdeal.S2500000.Idx → BitVec 32) = W' (Proc.devRef .tc Cert.ReferenceIdeal.main_arg0))
    (h1 : (V (Proc.devRef .tc Cert.KernelIdeal.main_arg1) : Cert.KernelIdeal.S2500000.Idx → BitVec 32) = W' (Proc.devRef .tc Cert.ReferenceIdeal.main_arg1))
    (h2 : (V (Proc.devRef .tc Cert.KernelIdeal.main_arg2) : Cert.KernelIdeal.S2500000.Idx → EReal) = W' (Proc.devRef .tc Cert.ReferenceIdeal.main_arg2))
    (h12 : (V (Proc.devRef .tc Cert.KernelIdeal.main_arg12) : Cert.KernelIdeal.S30000x64.Idx → EReal) = W' (Proc.devRef .tc Cert.ReferenceIdeal.main_arg12))
    (h13 : (V (Proc.devRef .tc Cert.KernelIdeal.main_arg13) : Cert.KernelIdeal.S40000x64.Idx → EReal) = W' (Proc.devRef .tc Cert.ReferenceIdeal.main_arg13))
    (r : Fin 70000) (j : Fin 64) :
    (after (Cert.KernelIdeal.Gen.hostOps0 (F := Ideal)) V (Proc.devRef .tc Cert.KernelIdeal.main_v30) : Cert.KernelIdeal.S70000x64.Idx → EReal) (ix2 r j) = rd2 (R W' Cert.ReferenceIdeal.main_v30) r j :=
  (congrFun (content_eq V W' h0 h1 h2 h12 h13) (ix2 r j)).trans
    (congrFun (R_eq_V01 (b := Cert.ReferenceIdeal.main_v30) (by decide +kernel) W').symm (ix2 r j))

/-- The first branch's table of all nodes after the kernel program's second stretch of host operations, at an entry, is the reference's stacked table at the end of its line — given that the gated item table the stretch starts from is the reference's, entry by entry. -/
theorem img_table_bridge (V : KV) (W' : RV)
    (h52 : ∀ (r : Fin 40000) (q : Fin 64), (V (Proc.devRef .tc Cert.KernelIdeal.main_v52) : Cert.KernelIdeal.S40000x64.Idx → EReal) (ix2 r q) = rd2 (R W' Cert.ReferenceIdeal.main_v160) r q)
    (h3 : (V (Proc.devRef .tc Cert.KernelIdeal.main_arg3) : Cert.KernelIdeal.S1000000.Idx → BitVec 32) = W' (Proc.devRef .tc Cert.ReferenceIdeal.main_arg3))
    (h4 : (V (Proc.devRef .tc Cert.KernelIdeal.main_arg4) : Cert.KernelIdeal.S1000000.Idx → BitVec 32) = W' (Proc.devRef .tc Cert.ReferenceIdeal.main_arg4))
    (h5 : (V (Proc.devRef .tc Cert.KernelIdeal.main_arg5) : Cert.KernelIdeal.S1000000.Idx → EReal) = W' (Proc.devRef .tc Cert.ReferenceIdeal.main_arg5))
    (h9 : (V (Proc.devRef .tc Cert.KernelIdeal.main_arg9) : Cert.KernelIdeal.S1000000.Idx → BitVec 32) = W' (Proc.devRef .tc Cert.ReferenceIdeal.main_arg9))
    (h10 : (V (Proc.devRef .tc Cert.KernelIdeal.main_arg10) : Cert.KernelIdeal.S1000000.Idx → BitVec 32) = W' (Proc.devRef .tc Cert.ReferenceIdeal.main_arg10))
    (h11 : (V (Proc.devRef .tc Cert.KernelIdeal.main_arg11) : Cert.KernelIdeal.S1000000.Idx → EReal) = W' (Proc.devRef .tc Cert.ReferenceIdeal.main_arg11))
    (r : Fin 70000) (k : Fin 64) :
    (after (Cert.KernelIdeal.Gen.hostOps10 (F := Ideal)) V (Proc.devRef .tc Cert.KernelIdeal.main_v133) : Cert.KernelIdeal.S70000x64.Idx → EReal) (ix2 r k) = rd2 (R W' Cert.ReferenceIdeal.main_v251) r k := by
  -- the gated table and the arguments, as the reference holds them before its first sparse product of this group
  have g : (V (Proc.devRef .tc Cert.KernelIdeal.main_v52) : Cert.KernelIdeal.S40000x64.Idx → EReal) = V08 W' (Proc.devRef .tc Cert.ReferenceIdeal.main_v160) := by
    funext i
    obtain ⟨a, b, rfl⟩ : ∃ (a : Fin 40000) (b : Fin 64), i = ix2 a b := ⟨i 0, i 1, eq_ix2 i⟩
    exact (h52 a b).trans (congrFun (R_eq_V08 (b := Cert.ReferenceIdeal.main_v160) (by decide +kernel) W') (ix2 a b))
  have a3 : (V (Proc.devRef .tc Cert.KernelIdeal.main_arg3) : Cert.KernelIdeal.S1000000.Idx → BitVec 32) = V08 W' (Proc.devRef .tc Cert.ReferenceIdeal.main_arg3) :=
    h3.trans ((R_eq_V08 (b := Cert.ReferenceIdeal.main_arg3) (by decide +kernel) W').symm.trans (arg3_eq W')).symm
  have a4 : (V (Proc.devRef .tc Cert.KernelIdeal.main_arg4) : Cert.KernelIdeal.S1000000.Idx → BitVec 32) = V08 W' (Proc.devRef .tc Cert.ReferenceIdeal.main_arg4) :=
    h4.trans ((R_eq_V08 (b := Cert.ReferenceIdeal.main_arg4) (by decide +kernel) W').symm.trans (arg4_eq W')).symm
  have a5 : (V (Proc.devRef .tc Cert.KernelIdeal.main_arg5) : Cert.KernelIdeal.S1000000.Idx → EReal) = V08 W' (Proc.devRef .tc Cert.ReferenceIdeal.main_arg5) :=
    h5.trans ((R_eq_V08 (b := Cert.ReferenceIdeal.main_arg5) (by decide +kernel) W').symm.trans (arg5_eq W')).symm
  have a9 : (V (Proc.devRef .tc Cert.KernelIdeal.main_arg9) : Cert.KernelIdeal.S1000000.Idx → BitVec 32) = V08 W' (Proc.devRef .tc Cert.ReferenceIdeal.main_arg9) :=
    h9.trans ((R_eq_V08 (b := Cert.ReferenceIdeal.main_arg9) (by decide +kernel) W').symm.trans (arg9_eq W')).symm
  have a10 : (V (Proc.devRef .tc Cert.KernelIdeal.main_arg10) : Cert.KernelIdeal.S1000000.Idx → BitVec 32) = V08 W' (Proc.devRef .tc Cert.ReferenceIdeal.main_arg10) :=
    h10.trans ((R_eq_V08 (b := Cert.ReferenceIdeal.main_arg10) (by decide +kernel) W').symm.trans (arg10_eq W')).symm
  have a11 : (V (Proc.devRef .tc Cert.KernelIdeal.main_arg11) : Cert.KernelIdeal.S1000000.Idx → EReal) = V08 W' (Proc.devRef .tc Cert.ReferenceIdeal.main_arg11) :=
    h11.trans ((R_eq_V08 (b := Cert.ReferenceIdeal.main_arg11) (by decide +kernel) W').symm.trans (arg11_eq W')).symm
  have eu := img_user_eq V (V08 W') g a3 a4 a5 a9 a10 a11
  have ei := img_item_eq V (V08 W') g a3 a4 a5
  rw [after_tables W'] at eu ei
  have ru : V12 W' (Proc.devRef .tc Cert.ReferenceIdeal.main_v237) = R W' Cert.ReferenceIdeal.main_v237 := (R_eq_V12 (by decide +kernel) W').symm
  have ri : V12 W' (Proc.devRef .tc Cert.ReferenceIdeal.main_v198) = R W' Cert.ReferenceIdeal.main_v198 := (R_eq_V12 (by decide +kernel) W').symm
  rw [img_ui_concat V]
  obtain ⟨rv, hrv⟩ := r
  by_cases hlt : rv < 30000
  · -- a row of the first table
    refine (rowConcat_left (m₁ := 30000) (m₂ := 40000) (m := 70000) (n := 64) _ _ _ (⟨rv, hlt⟩ : Fin 30000) hrv k).trans ?_
    refine (congrFun eu (ix2 (⟨rv, hlt⟩ : Fin 30000) k)).trans ?_
    refine (congrFun ru (ix2 (⟨rv, hlt⟩ : Fin 30000) k)).trans ?_
    exact (v251_left W' (⟨rv, hlt⟩ : Fin 30000) k hrv).symm
  · -- a row of the second table
    obtain ⟨d, rfl⟩ : ∃ d, rv = 30000 + d := ⟨rv - 30000, by omega⟩
    have hd : d < 40000 := by omega
    refine (rowConcat_right (m₁ := 30000) (m₂ := 40000) (m := 70000) (n := 64) _ _ _ (⟨d, hd⟩ : Fin 40000) hrv k).trans ?_
    refine (congrFun ei (ix2 (⟨d, hd⟩ : Fin 40000) k)).trans ?_
    refine (congrFun ri (ix2 (⟨d, hd⟩ : Fin 40000) k)).trans ?_
    exact (v251_right W' (⟨d, hd⟩ : Fin 40000) k hrv).symm

/-- The second branch's table of all nodes, likewise. -/
theorem txt_table_bridge (V : KV) (W' : RV)
    (h54 : ∀ (r : Fin 40000) (q : Fin 64), (V (Proc.devRef .tc Cert.KernelIdeal.main_v54) : Cert.KernelIdeal.S40000x64.Idx → EReal) (ix2 r q) = rd2 (R W' Cert.ReferenceIdeal.main_v172) r q)
    (h6 : (V (Proc.devRef .tc Cert.KernelIdeal.main_arg6) : Cert.KernelIdeal.S1000000.Idx → BitVec 32) = W' (Proc.devRef .tc Cert.ReferenceIdeal.main_arg6))
    (h7 : (V (Proc.devRef .tc Cert.KernelIdeal.main_arg7) : Cert.KernelIdeal.S1000000.Idx → BitVec 32) = W' (Proc.devRef .tc Cert.ReferenceIdeal.main_arg7))
    (h8 : (V (Proc.devRef .tc Cert.KernelIdeal.main_arg8) : Cert.KernelIdeal.S1000000.Idx → EReal) = W' (Proc.devRef .tc Cert.ReferenceIdeal.main_arg8))
    (h9 : (V (Proc.devRef .tc Cert.KernelIdeal.main_arg9) : Cert.KernelIdeal.S1000000.Idx → BitVec 32) = W' (Proc.devRef .tc Cert.ReferenceIdeal.main_arg9))
    (h10 : (V (Proc.devRef .tc Cert.KernelIdeal.main_arg10) : Cert.KernelIdeal.S1000000.Idx → BitVec 32) = W' (Proc.devRef .tc Cert.ReferenceIdeal.main_arg10))
    (h11 : (V (Proc.devRef .tc Cert.KernelIdeal.main_arg11) : Cert.KernelIdeal.S1000000.Idx → EReal) = W' (Proc.devRef .tc Cert.ReferenceIdeal.main_arg11))
    (r : Fin 70000) (k : Fin 64) :
    (after (Cert.KernelIdeal.Gen.hostOps10 (F := Ideal)) V (Proc.devRef .tc Cert.KernelIdeal.main_v134) : Cert.KernelIdeal.S70000x64.Idx → EReal) (ix2 r k) = rd2 (R W' Cert.ReferenceIdeal.main_v252) r k := by
  -- the gated table and the arguments, as the reference holds them before its first sparse product of this group
  have g : (V (Proc.devRef .tc Cert.KernelIdeal.main_v54) : Cert.KernelIdeal.S40000x64.Idx → EReal) = V08 W' (Proc.devRef .tc Cert.ReferenceIdeal.main_v172) := by
    funext i
    obtain ⟨a, b, rfl⟩ : ∃ (a : Fin 40000) (b : Fin 64), i = ix2 a b := ⟨i 0, i 1, eq_ix2 i⟩
    exact (h54 a b).trans (congrFun (R_eq_V08 (b := Cert.ReferenceIdeal.main_v172) (by decide +kernel) W') (ix2 a b))
  have a6 : (V (Proc.devRef .tc Cert.KernelIdeal.main_arg6) : Cert.KernelIdeal.S1000000.Idx → BitVec 32) = V08 W' (Proc.devRef .tc Cert.ReferenceIdeal.main_arg6) :=
    h6.trans ((R_eq_V08 (b := Cert.ReferenceIdeal.main_arg6) (by decide +kernel) W').symm.trans (arg6_eq W')).symm
  have a7 : (V (Proc.devRef .tc Cert.KernelIdeal.main_arg7) : Cert.KernelIdeal.S1000000.Idx → BitVec 32) = V08 W' (Proc.devRef .tc Cert.ReferenceIdeal.main_arg7) :=
    h7.trans ((R_eq_V08 (b := Cert.ReferenceIdeal.main_arg7) (by decide +kernel) W').symm.trans (arg7_eq W')).symm
  have a8 : (V (Proc.devRef .tc Cert.KernelIdeal.main_arg8) : Cert.KernelIdeal.S1000000.Idx → EReal) = V08 W' (Proc.devRef .tc Cert.ReferenceIdeal.main_arg8) :=
    h8.trans ((R_eq_V08 (b := Cert.ReferenceIdeal.main_arg8) (by decide +kernel) W').symm.trans (arg8_eq W')).symm
  have a9 : (V (Proc.devRef .tc Cert.KernelIdeal.main_arg9) : Cert.KernelIdeal.S1000000.Idx → BitVec 32) = V08 W' (Proc.devRef .tc Cert.ReferenceIdeal.main_arg9) :=
    h9.trans ((R_eq_V08 (b := Cert.ReferenceIdeal.main_arg9) (by decide +kernel) W').symm.trans (arg9_eq W')).symm
  have a10 : (V (Proc.devRef .tc Cert.KernelIdeal.main_arg10) : Cert.KernelIdeal.S1000000.Idx → BitVec 32) = V08 W' (Proc.devRef .tc Cert.ReferenceIdeal.main_arg10) :=
    h10.trans ((R_eq_V08 (b := Cert.ReferenceIdeal.main_arg10) (by decide +kernel) W').symm.trans (arg10_eq W')).symm
  have a11 : (V (Proc.devRef .tc Cert.KernelIdeal.main_arg11) : Cert.KernelIdeal.S1000000.Idx → EReal) = V08 W' (Proc.devRef .tc Cert.ReferenceIdeal.main_arg11) :=
    h11.trans ((R_eq_V08 (b := Cert.ReferenceIdeal.main_arg11) (by decide +kernel) W').symm.trans (arg11_eq W')).symm
  have eu := txt_user_eq V (V08 W') g a6 a7 a8 a9 a10 a11
  have ei := txt_item_eq V (V08 W') g a6 a7 a8
  rw [after_tables W'] at eu ei
  have ru : V12 W' (Proc.devRef .tc Cert.ReferenceIdeal.main_v250) = R W' Cert.ReferenceIdeal.main_v250 := (R_eq_V12 (by decide +kernel) W').symm
  have ri : V12 W' (Proc.devRef .tc Cert.ReferenceIdeal.main_v224) = R W' Cert.ReferenceIdeal.main_v224 := (R_eq_V12 (by decide +kernel) W').symm
  rw [txt_ui_concat V]
  obtain ⟨rv, hrv⟩ := r
  by_cases hlt : rv < 30000
  · -- a row of the first table
    refine (rowConcat_left (m₁ := 30000) (m₂ := 40000) (m := 70000) (n := 64) _ _ _ (⟨rv, hlt⟩ : Fin 30000) hrv k).trans ?_
    refine (congrFun eu (ix2 (⟨rv, hlt⟩ : Fin 30000) k)).trans ?_
    refine (congrFun ru (ix2 (⟨rv, hlt⟩ : Fin 30000) k)).trans ?_
    exact (v252_left W' (⟨rv, hlt⟩ : Fin 30000) k hrv).symm
  · -- a row of the second table
    obtain ⟨d, rfl⟩ : ∃ d, rv = 30000 + d := ⟨rv - 30000, by omega⟩
    have hd : d < 40000 := by omega
    refine (rowConcat_right (m₁ := 30000) (m₂ := 40000) (m := 70000) (n := 64) _ _ _ (⟨d, hd⟩ : Fin 40000) hrv k).trans ?_
    refine (congrFun ei (ix2 (⟨d, hd⟩ : Fin 40000) k)).trans ?_
    refine (congrFun ri (ix2 (⟨d, hd⟩ : Fin 40000) k)).trans ?_
    exact (v252_right W' (⟨d, hd⟩ : Fin 40000) k hrv).symm

end Cert.Bridge

end
-- ==== Proof.Finite.lean ====
import proofs.«167917_j22402549416514_2_alg».proof.Defs
import proofs.«167917_j22402549416514_2_alg».proof.Proof.LibRealClosure
import Idealize.ShloMosaic.Lib.ReduceAll
import Idealize.ShloMosaic.Lib.ValueIdx

set_option maxRecDepth 16384

noncomputable section

namespace Cert.Finite

open Idealize.ShloMosaic Idealize.SL.Sem Idealize.ShloMosaic.RealClosure

/-! # The float arguments are arrays of real numbers

    The precondition says, of every float argument `x`, that `|x| < +∞` holds at every entry (the conjunction over the entries
    taken by an all-reduce, the conjunction over the arguments by `and`). An extended real whose absolute value is below `+∞`
    is neither infinity, so it is a real number. -/

/-- The shape of a scalar has one index. -/
instance : Subsingleton Cert.Pre_finite_inputs.S_.Idx := ⟨fun a b => funext fun d => d.elim0⟩

/-- The single-precision pattern with all exponent bits set and no fraction bit denotes `+∞`. -/
theorem inf_eq_top : Ideal.ofBits .f32 0x7F800000#32 = (⊤ : EReal) := by
  simp [Ideal.ofBits, Ideal.ieee]

/-- An extended real whose absolute value `max x (-x)` is below `+∞` is a real number: `+∞` and `-∞` both have absolute value `+∞`. -/
theorem isReal_of_abs_lt_top (x : EReal) (h : max x (-x) < ⊤) : IsReal x := by
  rw [isReal_iff]
  induction x using EReal.rec with
  | bot => simp at h
  | coe r => exact ⟨EReal.coe_ne_top r, EReal.coe_ne_bot r⟩
  | top => simp at h

/-- The test the precondition makes of one entry: the comparison `|x| < +∞` came out true. -/
theorem isReal_of_test (x : Ideal .f32)
    (h : FloatOps.cmpf (F := Ideal) .olt (FloatOps.hostAbsf x) (FloatOps.ofBits (F := Ideal) .f32 0x7F800000#32) = 1#1) : IsReal x := by
  have h' : Ideal.cmp .olt (max x (-x)) (Ideal.ofBits .f32 0x7F800000#32) = 1#1 := h
  rw [inf_eq_top] at h'
  unfold Ideal.cmp at h'
  apply isReal_of_abs_lt_top
  by_contra hn
  simp [hn] at h'

/-- ONE ARRAY. If the all-reduce by `and` of the entrywise test `|x| < +∞` is true, every entry of `x` is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel) (init : IVec Cert.Pre_finite_inputs.S_ 1)
    (e : Host.reduce IntOp.andi (cmpf .olt (Host.absf x) (broadcastInDim s ![] hb (constant Cert.Pre_finite_inputs.S_ .f32 0x7F800000#32))) init hr hu ValueIdx.ix0 = 1#1)
    (i : s.Idx) : IsReal (x i) :=
  isReal_of_test (x i) (Host.reduce_andi_all _ init hr hu ValueIdx.ix0 e i)

variable [Cert.Pre_finite_inputs.Facts]

set_option maxHeartbeats 1000000 in
/-- ALL THE ARGUMENTS. Under the precondition every entry of every float argument (arguments 2, 5, 8, 11 and 12 to 38; the others are
    integer arrays, of which the precondition says nothing) is a real number, on every device. -/
theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg2)) i))
      ∧ (∀ i, IsReal ((m ((c.tc : Thread Cert.KernelIdeal.nD Cert.KernelIdeal.τ).loc Cert.KernelIdeal.main_arg5)) i))
      ∧ (∀ i, IsReal ((m ((c.tc : Thread Cert.KernelIdeal.nD Cert.KernelIdeal.τ).loc Cert.KernelIdeal.main_arg8)) i))
      ∧ (∀ i, IsReal ((m ((c.tc : Thread Cert.KernelIdeal.nD Cert.KernelIdeal.τ).loc Cert.KernelIdeal.main_arg11)) i))
      ∧ (∀ i, IsReal ((m ((c.tc : Thread Cert.KernelIdeal.nD Cert.KernelIdeal.τ).loc Cert.KernelIdeal.main_arg12)) i))
      ∧ (∀ i, IsReal ((m ((c.tc : Thread Cert.KernelIdeal.nD Cert.KernelIdeal.τ).loc Cert.KernelIdeal.main_arg13)) i))
      ∧ (∀ i, IsReal ((m ((c.tc : Thread Cert.KernelIdeal.nD Cert.KernelIdeal.τ).loc Cert.KernelIdeal.main_arg14)) i))
      ∧ (∀ i, IsReal ((m ((c.tc : Thread Cert.KernelIdeal.nD Cert.KernelIdeal.τ).loc Cert.KernelIdeal.main_arg15)) i))
      ∧ (∀ i, IsReal ((m ((c.tc : Thread Cert.KernelIdeal.nD Cert.KernelIdeal.τ).loc Cert.KernelIdeal.main_arg16)) i))
      ∧ (∀ i, IsReal ((m ((c.tc : Thread Cert.KernelIdeal.nD Cert.KernelIdeal.τ).loc Cert.KernelIdeal.main_arg17)) i))
      ∧ (∀ i, IsReal ((m ((c.tc : Thread Cert.KernelIdeal.nD Cert.KernelIdeal.τ).loc Cert.KernelIdeal.main_arg18)) i))
      ∧ (∀ i, IsReal ((m ((c.tc : Thread Cert.KernelIdeal.nD Cert.KernelIdeal.τ).loc Cert.KernelIdeal.main_arg19)) i))
      ∧ (∀ i, IsReal ((m ((c.tc : Thread Cert.KernelIdeal.nD Cert.KernelIdeal.τ).loc Cert.KernelIdeal.main_arg20)) i))
      ∧ (∀ i, IsReal ((m ((c.tc : Thread Cert.KernelIdeal.nD Cert.KernelIdeal.τ).loc Cert.KernelIdeal.main_arg21)) i))
      ∧ (∀ i, IsReal ((m ((c.tc : Thread Cert.KernelIdeal.nD Cert.KernelIdeal.τ).loc Cert.KernelIdeal.main_arg22)) i))
      ∧ (∀ i, IsReal ((m ((c.tc : Thread Cert.KernelIdeal.nD Cert.KernelIdeal.τ).loc Cert.KernelIdeal.main_arg23)) i))
      ∧ (∀ i, IsReal ((m ((c.tc : Thread Cert.KernelIdeal.nD Cert.KernelIdeal.τ).loc Cert.KernelIdeal.main_arg24)) i))
      ∧ (∀ i, IsReal ((m ((c.tc : Thread Cert.KernelIdeal.nD Cert.KernelIdeal.τ).loc Cert.KernelIdeal.main_arg25)) i))
      ∧ (∀ i, IsReal ((m ((c.tc : Thread Cert.KernelIdeal.nD Cert.KernelIdeal.τ).loc Cert.KernelIdeal.main_arg26)) i))
      ∧ (∀ i, IsReal ((m ((c.tc : Thread Cert.KernelIdeal.nD Cert.KernelIdeal.τ).loc Cert.KernelIdeal.main_arg27)) i))
      ∧ (∀ i, IsReal ((m ((c.tc : Thread Cert.KernelIdeal.nD Cert.KernelIdeal.τ).loc Cert.KernelIdeal.main_arg28)) i))
      ∧ (∀ i, IsReal ((m ((c.tc : Thread Cert.KernelIdeal.nD Cert.KernelIdeal.τ).loc Cert.KernelIdeal.main_arg29)) i))
      ∧ (∀ i, IsReal ((m ((c.tc : Thread Cert.KernelIdeal.nD Cert.KernelIdeal.τ).loc Cert.KernelIdeal.main_arg30)) i))
      ∧ (∀ i, IsReal ((m ((c.tc : Thread Cert.KernelIdeal.nD Cert.KernelIdeal.τ).loc Cert.KernelIdeal.main_arg31)) i))
      ∧ (∀ i, IsReal ((m ((c.tc : Thread Cert.KernelIdeal.nD Cert.KernelIdeal.τ).loc Cert.KernelIdeal.main_arg32)) i))
      ∧ (∀ i, IsReal ((m ((c.tc : Thread Cert.KernelIdeal.nD Cert.KernelIdeal.τ).loc Cert.KernelIdeal.main_arg33)) i))
      ∧ (∀ i, IsReal ((m ((c.tc : Thread Cert.KernelIdeal.nD Cert.KernelIdeal.τ).loc Cert.KernelIdeal.main_arg34)) i))
      ∧ (∀ i, IsReal ((m ((c.tc : Thread Cert.KernelIdeal.nD Cert.KernelIdeal.τ).loc Cert.KernelIdeal.main_arg35)) i))
      ∧ (∀ i, IsReal ((m ((c.tc : Thread Cert.KernelIdeal.nD Cert.KernelIdeal.τ).loc Cert.KernelIdeal.main_arg36)) i))
      ∧ (∀ i, IsReal ((m ((c.tc : Thread Cert.KernelIdeal.nD Cert.KernelIdeal.τ).loc Cert.KernelIdeal.main_arg37)) i))
      ∧ (∀ i, IsReal ((m ((c.tc : Thread Cert.KernelIdeal.nD Cert.KernelIdeal.τ).loc Cert.KernelIdeal.main_arg38)) i)) := by
  have e := congrFun (h c) ValueIdx.ix0
  dsimp only [Cert.Pre_finite_inputs.fn, Cert.Pre_finite_inputs.fn_part1, Cert.Pre_finite_inputs.fn_part2, Cert.Pre_finite_inputs.fn_part3,
    Cert.Pre_finite_inputs.fn_part4, Cert.Pre_finite_inputs.fn_part5, Cert.Pre_finite_inputs.fn_part6, Cert.Pre_finite_inputs.fn_part7,
    Cert.Pre_finite_inputs.fn_part8, Idealize.ShloMosaic.andi] at e
  simp only [IntOp.andi_eq_one] at e
  obtain ⟨⟨⟨⟨⟨⟨⟨⟨⟨⟨⟨⟨⟨⟨⟨⟨⟨⟨⟨⟨⟨⟨⟨⟨⟨⟨⟨⟨⟨⟨h2, h5⟩, h8⟩, h11⟩, h12⟩, h13⟩, h14⟩, h15⟩, h16⟩, h17⟩, h18⟩, h19⟩, h20⟩, h21⟩, h22⟩, h23⟩, h24⟩, h25⟩, h26⟩, h27⟩, h28⟩, h29⟩, h30⟩, h31⟩, h32⟩, h33⟩, h34⟩, h35⟩, h36⟩, h37⟩, h38⟩ := e
  exact ⟨all_real _ _ _ _ _ h2, all_real _ _ _ _ _ h5, all_real _ _ _ _ _ h8, all_real _ _ _ _ _ h11, all_real _ _ _ _ _ h12, all_real _ _ _ _ _ h13, all_real _ _ _ _ _ h14, all_real _ _ _ _ _ h15, all_real _ _ _ _ _ h16, all_real _ _ _ _ _ h17, all_real _ _ _ _ _ h18, all_real _ _ _ _ _ h19, all_real _ _ _ _ _ h20, all_real _ _ _ _ _ h21, all_real _ _ _ _ _ h22, all_real _ _ _ _ _ h23, all_real _ _ _ _ _ h24, all_real _ _ _ _ _ h25, all_real _ _ _ _ _ h26, all_real _ _ _ _ _ h27, all_real _ _ _ _ _ h28, all_real _ _ _ _ _ h29, all_real _ _ _ _ _ h30, all_real _ _ _ _ _ h31, all_real _ _ _ _ _ h32, all_real _ _ _ _ _ h33, all_real _ _ _ _ _ h34, all_real _ _ _ _ _ h35, all_real _ _ _ _ _ h36, all_real _ _ _ _ _ h37, all_real _ _ _ _ _ h38⟩

/-! ## One argument at a time -/

theorem arg2_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg2)) i) := (args_real m h c).1
theorem arg5_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg5)) i) := (args_real m h c).2.1
theorem arg8_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg8)) i) := (args_real m h c).2.2.1
theorem arg11_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg11)) i) := (args_real m h c).2.2.2.1
theorem arg12_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg12)) i) := (args_real m h c).2.2.2.2.1
theorem arg13_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg13)) i) := (args_real m h c).2.2.2.2.2.1
theorem arg14_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg14)) i) := (args_real m h c).2.2.2.2.2.2.1
theorem arg15_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg15)) i) := (args_real m h c).2.2.2.2.2.2.2.1
theorem arg16_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg16)) i) := (args_real m h c).2.2.2.2.2.2.2.2.1
theorem arg17_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg17)) i) := (args_real m h c).2.2.2.2.2.2.2.2.2.1
theorem arg18_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg18)) i) := (args_real m h c).2.2.2.2.2.2.2.2.2.2.1
theorem arg19_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg19)) i) := (args_real m h c).2.2.2.2.2.2.2.2.2.2.2.1
theorem arg20_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg20)) i) := (args_real m h c).2.2.2.2.2.2.2.2.2.2.2.2.1
theorem arg21_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg21)) i) := (args_real m h c).2.2.2.2.2.2.2.2.2.2.2.2.2.1
theorem arg22_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg22)) i) := (args_real m h c).2.2.2.2.2.2.2.2.2.2.2.2.2.2.1
theorem arg23_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg23)) i) := (args_real m h c).2.2.2.2.2.2.2.2.2.2.2.2.2.2.2.1
theorem arg24_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg24)) i) := (args_real m h c).2.2.2.2.2.2.2.2.2.2.2.2.2.2.2.2.1
theorem arg25_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg25)) i) := (args_real m h c).2.2.2.2.2.2.2.2.2.2.2.2.2.2.2.2.2.1
theorem arg26_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg26)) i) := (args_real m h c).2.2.2.2.2.2.2.2.2.2.2.2.2.2.2.2.2.2.1
theorem arg27_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg27)) i) := (args_real m h c).2.2.2.2.2.2.2.2.2.2.2.2.2.2.2.2.2.2.2.1
theorem arg28_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg28)) i) := (args_real m h c).2.2.2.2.2.2.2.2.2.2.2.2.2.2.2.2.2.2.2.2.1
theorem arg29_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg29)) i) := (args_real m h c).2.2.2.2.2.2.2.2.2.2.2.2.2.2.2.2.2.2.2.2.2.1
theorem arg30_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg30)) i) := (args_real m h c).2.2.2.2.2.2.2.2.2.2.2.2.2.2.2.2.2.2.2.2.2.2.1
theorem arg31_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg31)) i) := (args_real m h c).2.2.2.2.2.2.2.2.2.2.2.2.2.2.2.2.2.2.2.2.2.2.2.1
theorem arg32_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg32)) i) := (args_real m h c).2.2.2.2.2.2.2.2.2.2.2.2.2.2.2.2.2.2.2.2.2.2.2.2.1
theorem arg33_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg33)) i) := (args_real m h c).2.2.2.2.2.2.2.2.2.2.2.2.2.2.2.2.2.2.2.2.2.2.2.2.2.1
theorem arg34_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg34)) i) := (args_real m h c).2.2.2.2.2.2.2.2.2.2.2.2.2.2.2.2.2.2.2.2.2.2.2.2.2.2.1
theorem arg35_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg35)) i) := (args_real m h c).2.2.2.2.2.2.2.2.2.2.2.2.2.2.2.2.2.2.2.2.2.2.2.2.2.2.2.1
theorem arg36_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg36)) i) := (args_real m h c).2.2.2.2.2.2.2.2.2.2.2.2.2.2.2.2.2.2.2.2.2.2.2.2.2.2.2.2.1
theorem arg37_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg37)) i) := (args_real m h c).2.2.2.2.2.2.2.2.2.2.2.2.2.2.2.2.2.2.2.2.2.2.2.2.2.2.2.2.2.1
theorem arg38_real (m : (ℓ : Loc Cert.KernelIdeal.nD Cert.KernelIdeal.τ Cert.KernelIdeal.sig) → Buf (Elt Ideal) ℓ) (h : Cert.Pre_KernelIdeal m) (c : Dev Cert.KernelIdeal.nD) :
    ∀ i, IsReal ((m ((c.tc : Thread Cert.KernelIdeal.nD Cert.KernelIdeal.τ).loc Cert.KernelIdeal.main_arg38)) i) := (args_real m h c).2.2.2.2.2.2.2.2.2.2.2.2.2.2.2.2.2.2.2.2.2.2.2.2.2.2.2.2.2.2

end Cert.Finite

end
-- ==== Proof.LibLayerReal.lean ====
/-
  Finiteness through the layers of a small network.

  Every array operation a dense layer, a rectifier, a normalisation or a gate is made of yields real
  numbers when it is given real numbers, read at one entry:

  * a contraction (a matrix product, with or without an accumulator) is a finite sum of products;
  * a reduction by addition is the initial value plus a finite sum;
  * a transpose, a slice, a reshape, a concatenation read an entry of an operand;
  * a quotient is real when the divisor is a real other than zero, a reciprocal square root when its
    argument is a positive real, an exponential and a logistic value always;
  * a choice between two reals is a real whatever decides it, so the leaky rectifier `y ≥ 0 ? y : slope · y`
    of a real is one;
  * the normalisation `(y − μ) · (v + ε)^{−1/2} · g + β` of reals is a real when `v + ε` is a positive real.

  None of these needs anything of the shapes or the dimension numbers. Also here: every finite f32 word
  denotes a real, and the three words `1e-5`, `0.01` (as f32 rounds them) as the positive reals they are.
-/
import Idealize.ShloMosaic.Lib.ValueIdx
import proofs.«167917_j22402549416514_2_alg».proof.Proof.LibRealClosure

noncomputable section

open scoped BigOperators

namespace Idealize.ShloMosaic.LayerReal

open Idealize.ShloMosaic Idealize.ShloMosaic.RealClosure

/-! ## One entry of a dense layer, a rectifier, a normalisation -/

/-- One entry of a dense layer, `(∑ₖ xₖ wₖ) + b`, is a real when the inputs, the weights and the bias are. -/
theorem isReal_linear {κ : Type*} [Fintype κ] (x w : κ → EReal) (b : EReal) (hx : ∀ k, IsReal (x k))
    (hw : ∀ k, IsReal (w k)) (hb : IsReal b) : IsReal ((∑ k, x k * w k) + b) :=
  (IsReal.sum_univ _ fun k => (hx k).mul (hw k)).add hb

/-- The leaky rectifier of a real, `y` or `slope · y` by any condition, is a real. -/
theorem isReal_leaky {p : Prop} [Decidable p] {y slope : EReal} (hy : IsReal y) (hs : IsReal slope) :
    IsReal (if p then y else slope * y) :=
  hy.ite (hs.mul hy)

/-- The normalisation `(y − μ) · (v)^{−1/2} · g + β` of reals is a real when `v` (the variance plus `ε`) is a
    positive real. -/
theorem isReal_normalise {y μ v g β : EReal} {r : ℝ} (hy : IsReal y) (hμ : IsReal μ) (hr : 0 < r)
    (hv : v = (r : EReal)) (hg : IsReal g) (hβ : IsReal β) : IsReal ((y - μ) * Ideal.rsqrt v * g + β) :=
  (((hy.sub hμ).mul (IsReal.rsqrt hr hv)).mul hg).add hβ

/-! ## The array operations, read at an entry -/

/-- Every entry of a host matrix product is a finite sum of products of entries: real if the operands are. -/
theorem isReal_dotGeneral {sl sr so : Shape} {φ₁ φ₂ : FTy} (d : DotDims sl sr so) (prec : Option ContractPrecision)
    (lhs : FVec Ideal sl φ₁) (rhs : FVec Ideal sr φ₂) (hl : ∀ i, IsReal (lhs i)) (hr : ∀ i, IsReal (rhs i))
    (j : so.Idx) : IsReal (Host.dotGeneral (F := Ideal) d prec lhs rhs j) := by
  show IsReal ((0 : EReal) + ∑ k : d.contr.Idx, lhs (d.lhsIdx j k) * rhs (d.rhsIdx j k))
  exact isReal_zero.add (IsReal.sum_univ _ fun k => (hl _).mul (hr _))

/-- Every entry of a matrix product onto an accumulator is the accumulator's entry plus a finite sum of
    products: real if the operands and the accumulator are. -/
theorem isReal_matmul {sl sr so : Shape} {φ₁ φ₂ : FTy} (d : DotDims sl sr so) (prec : Option ContractPrecision)
    (lhs : FVec Ideal sl φ₁) (rhs : FVec Ideal sr φ₂) (acc : FVec Ideal so .f32) (hl : ∀ i, IsReal (lhs i))
    (hr : ∀ i, IsReal (rhs i)) (ha : ∀ i, IsReal (acc i)) (j : so.Idx) :
    IsReal (matmul (F := Ideal) d prec lhs rhs acc j) := by
  show IsReal (acc j + ∑ k : d.contr.Idx, lhs (d.lhsIdx j k) * rhs (d.rhsIdx j k))
  exact (ha j).add (IsReal.sum_univ _ fun k => (hl _).mul (hr _))

/-- Every entry of a host sum along axes is the initial value plus a finite sum of entries: real if those are. -/
theorem isReal_hostReduceAdd {s t u : Shape} {φ : FTy} {axes : List (Fin s.rank)} (x : FVec Ideal s φ)
    (init : u.Idx → Ideal φ) (h : s.ReducesTo axes t) (hu : 0 < u.numel) (hx : ∀ i, IsReal (x i))
    (hinit : ∀ i, IsReal (init i)) (j : t.Idx) : IsReal (Host.reduceAdd (F := Ideal) x init h hu j) := by
  show IsReal (init (Shape.Idx.first hu) + ∑ i ∈ Finset.univ.filter (fun i => h.drop i = j), x i)
  exact (hinit _).add (IsReal.sum _ _ fun i _ => hx i)

/-- Every entry of a vector sum along axes is a finite sum of entries: real if those are. -/
theorem isReal_multiReduction_add {s t : Shape} {φ : FTy} (axes : List (Fin s.rank)) (src : FVec Ideal s φ)
    (acc : BitVec φ.bits) (h : s.Reduces axes t) (hφ : FKind.Formats φ) (hacc : acc = FKind.add.neutral φ hφ)
    (hx : ∀ i, IsReal (src i)) (j : t.Idx) :
    IsReal (multiReduction (F := Ideal) .add axes t src acc h hφ hacc j) := by
  show IsReal (∑ i ∈ Finset.univ.filter (fun i => h.drop i = j), src i)
  exact IsReal.sum _ _ fun i _ => hx i

/-- Every entry of a transposed array is an entry of the array. -/
theorem isReal_transpose {s t : Shape} (perm : List (Fin s.rank)) (x : s.Idx → EReal) (h : s.Transposes perm t)
    (hx : ∀ i, IsReal (x i)) (j : t.Idx) : IsReal (transpose t perm x h j) :=
  hx _

/-- Every entry of a slice is an entry of the array. -/
theorem isReal_slice {s t : Shape} (start strides : Fin s.rank → Nat) (x : s.Idx → EReal)
    (h : s.SlicesBy start strides t) (hx : ∀ i, IsReal (x i)) (j : t.Idx) :
    IsReal (Host.slice t start strides x h j) :=
  hx _

/-- Every entry of a reshaped array is an entry of the array. -/
theorem isReal_shapeCast {s t : Shape} (x : s.Idx → EReal) (h : s.ShapeCasts t) (hx : ∀ i, IsReal (x i))
    (j : t.Idx) : IsReal (shapeCast t x h j) :=
  hx _

/-- Every entry of a concatenation is an entry of one of the pieces. -/
theorem isReal_concatenate {t : Shape} (a : Fin t.rank) (xs : List ((s : Shape) × (s.Idx → EReal)))
    (h : Shape.Concatenates (xs.map (·.1)) t a) (hx : ∀ p ∈ xs, ∀ i, IsReal (p.2 i)) (j : t.Idx) :
    IsReal (concatenate t a xs h j) := by
  unfold concatenate
  exact hx _ (List.getElem_mem _) _

section Pointwise
variable {s : Shape} {φ : FTy}

/-- The host quotient of two arrays of reals, the divisor nowhere zero, is an array of reals. -/
theorem isReal_hostDivf (a b : FVec Ideal s φ) (ha : ∀ i, IsReal (a i)) (hb : ∀ i, IsReal (b i))
    (hb0 : ∀ i, b i ≠ 0) (i : s.Idx) : IsReal (Host.divf a b i) :=
  (ha i).div_of_ne_zero (hb i) (hb0 i)

/-- The quotient of two arrays of reals, the divisor nowhere zero, is an array of reals. -/
theorem isReal_divf (a b : FVec Ideal s φ) (ha : ∀ i, IsReal (a i)) (hb : ∀ i, IsReal (b i))
    (hb0 : ∀ i, b i ≠ 0) (i : s.Idx) : IsReal (divf a b i) :=
  (ha i).div_of_ne_zero (hb i) (hb0 i)

/-- The host reciprocal square root of an array of positive reals is an array of reals. -/
theorem isReal_hostRsqrt (x : FVec Ideal s φ) (hx : ∀ i, ∃ r : ℝ, 0 < r ∧ x i = (r : EReal)) (i : s.Idx) :
    IsReal (Host.rsqrt x i) := by
  obtain ⟨r, hr, h⟩ := hx i
  show IsReal (Ideal.rsqrt (x i))
  exact IsReal.rsqrt hr h

/-- The reciprocal square root of an array of positive reals is an array of reals. -/
theorem isReal_rsqrt (x : FVec Ideal s φ) (hx : ∀ i, ∃ r : ℝ, 0 < r ∧ x i = (r : EReal)) (i : s.Idx) :
    IsReal (rsqrt x i) := by
  obtain ⟨r, hr, h⟩ := hx i
  show IsReal (Ideal.rsqrt (x i))
  exact IsReal.rsqrt hr h

/-- The host exponential of an array of reals is an array of reals. -/
theorem isReal_hostExp (x : FVec Ideal s φ) (hx : ∀ i, IsReal (x i)) (i : s.Idx) : IsReal (Host.exp x i) := by
  show IsReal (Ideal.exp (x i))
  exact (hx i).exp

/-- The exponential of an array of reals is an array of reals. -/
theorem isReal_exp (x : FVec Ideal s φ) (hx : ∀ i, IsReal (x i)) (i : s.Idx) : IsReal (exp x i) := by
  show IsReal (Ideal.exp (x i))
  exact (hx i).exp

/-- The host logistic function of an array of reals is an array of reals. -/
theorem isReal_hostLogistic (x : FVec Ideal s φ) (hx : ∀ i, IsReal (x i)) (i : s.Idx) :
    IsReal (Host.logistic x i) := by
  show IsReal (Ideal.logistic (x i))
  exact (hx i).logistic

/-- The logistic function of an array of reals is an array of reals. -/
theorem isReal_logistic (x : FVec Ideal s φ) (hx : ∀ i, IsReal (x i)) (i : s.Idx) : IsReal (logistic x i) := by
  show IsReal (Ideal.logistic (x i))
  exact (hx i).logistic

/-- The host negative of an array of reals is an array of reals. -/
theorem isReal_hostNegf (x : FVec Ideal s φ) (hx : ∀ i, IsReal (x i)) (i : s.Idx) : IsReal (Host.negf x i) := by
  show IsReal (-(x i))
  exact (hx i).neg

/-- The leaky rectifier of an array of reals, `y` where the condition holds and `slope · y` elsewhere, is an array
    of reals, whatever the condition bits are. -/
theorem isReal_leaky_select (c : IVec s 1) (y slope : FVec Ideal s φ) (hy : ∀ i, IsReal (y i))
    (hs : ∀ i, IsReal (slope i)) (i : s.Idx) : IsReal (select c y (mulf slope y) i) := by
  show IsReal (if c i = 1 then y i else slope i * y i)
  exact isReal_leaky (hy i) (hs i)

end Pointwise

/-! ## Words -/

/-- An IEEE word whose exponent field is not all ones denotes a real number. -/
theorem isReal_ieee (e m : Nat) {w : Nat} (b : BitVec w) (h : (b.extractLsb' m e).toNat ≠ 2 ^ e - 1) :
    IsReal (Ideal.ieee e m b) := by
  unfold Ideal.ieee
  simp only [if_neg h]
  split_ifs <;> exact ⟨_, rfl⟩

/-- A finite f32 word (exponent field not 255) denotes a real number. -/
theorem isReal_ofBits_f32 (b : BitVec 32) (h : (b.extractLsb' 23 8).toNat ≠ 255) : IsReal (Ideal.ofBits .f32 b) :=
  isReal_ieee 8 23 b h

/-- The f32 word `0x3727C5AC` (what `1e-5` rounds to) denotes `10995116 · 2⁻⁴⁰`. -/
theorem ofBits_eps : Ideal.ofBits .f32 0x3727C5AC#32 = ((10995116 / 2 ^ 40 : ℝ) : EReal) := by
  simp [Ideal.ofBits, Ideal.ieee, -EReal.coe_mul]; norm_num

/-- The f32 word `0x3727C5AC` denotes a positive real. -/
theorem ofBits_eps_pos : ∃ r : ℝ, 0 < r ∧ Ideal.ofBits .f32 0x3727C5AC#32 = (r : EReal) :=
  ⟨_, by positivity, ofBits_eps⟩

/-- The f32 word `0x3C23D70A` (what `0.01` rounds to) denotes `10737418 · 2⁻³⁰`. -/
theorem ofBits_slope : Ideal.ofBits .f32 0x3C23D70A#32 = ((10737418 / 2 ^ 30 : ℝ) : EReal) := by
  simp [Ideal.ofBits, Ideal.ieee, -EReal.coe_mul]; norm_num

end Idealize.ShloMosaic.LayerReal

end
-- ==== Proof.LibSpmmReal.lean ====
/-
  Finiteness through a sparse matrix product.

  A sparse matrix in coordinate form is three lists of equal length: row numbers, column numbers and values.
  Its product with a dense table is computed in three steps: gather the table's rows at the column numbers,
  scale each gathered row by the value at its position, and scatter-add the scaled rows into a table of zeros
  at the row numbers. Read at one entry, every step stays inside the real numbers when its inputs do:

  * an entry of a gathered array is an entry of the table, whichever one the list names;
  * an entry of a broadcast array is an entry of its operand;
  * an entry of the elementwise product is the product of two entries;
  * an entry of the scatter-added table is the old entry plus the sum of the finitely many updates that land
    on it, and the old entry here is the constant zero.

  None of this depends on what the integer lists hold, nor on the dimension numbers of the gather and the
  scatter: the statements are for arbitrary ones. So if every entry of the table and every value is a real
  number, every entry of the product is (no infinity and no undefined form can appear), which is what lets an
  identity of real arithmetic be used on what the product feeds.
-/
import Idealize.ShloMosaic.Lib.ValueIdx
import Idealize.ShloMosaic.PureOps.Ideal.Laws
import proofs.«167917_j22402549416514_2_alg».proof.Proof.LibRealClosure

noncomputable section

open scoped BigOperators

namespace Idealize.ShloMosaic.SpmmReal

open Idealize.ShloMosaic Idealize.ShloMosaic.RealClosure

/-- Every entry of a gathered array is an entry of the table gathered from: real if all of those are. -/
theorem isReal_gather {s si t : Shape} {w : Nat} (d : GatherDims s si t) (x : s.Idx → EReal) (idx : IVec si w)
    (hx : ∀ k, IsReal (x k)) (j : t.Idx) : IsReal (Host.gather d x idx j) :=
  hx _

/-- Every entry of a broadcast array is an entry of its operand: real if all of those are. -/
theorem isReal_broadcastInDim {s t : Shape} (dims : Fin s.rank → Fin t.rank) (h : s.BroadcastsInDim t dims)
    (x : s.Idx → EReal) (hx : ∀ k, IsReal (x k)) (j : t.Idx) : IsReal (broadcastInDim t dims h x j) :=
  hx _

/-- The f32 constant zero is the real zero at every entry. -/
theorem isReal_constant_zero (s : Shape) (i : s.Idx) : IsReal (constant (F := Ideal) s .f32 0x00000000#32 i) := by
  show IsReal (Ideal.ofBits .f32 0x00000000#32)
  rw [Ideal.ofBits_zero_f32]
  exact isReal_zero

/-- A constant array whose word denotes a real is real at every entry. -/
theorem isReal_constant {φ : FTy} (s : Shape) (b : BitVec φ.bits) (hb : IsReal (Ideal.ofBits φ b)) (i : s.Idx) :
    IsReal (constant (F := Ideal) s φ b i) :=
  hb

section Pointwise
variable {s : Shape} {φ : FTy}

/-- The elementwise product of two arrays of reals is an array of reals. -/
theorem isReal_mulf (a b : FVec Ideal s φ) (ha : ∀ i, IsReal (a i)) (hb : ∀ i, IsReal (b i)) (i : s.Idx) :
    IsReal (mulf a b i) :=
  (ha i).mul (hb i)

/-- The elementwise sum of two arrays of reals is an array of reals. -/
theorem isReal_addf (a b : FVec Ideal s φ) (ha : ∀ i, IsReal (a i)) (hb : ∀ i, IsReal (b i)) (i : s.Idx) :
    IsReal (addf a b i) :=
  (ha i).add (hb i)

/-- The elementwise difference of two arrays of reals is an array of reals. -/
theorem isReal_subf (a b : FVec Ideal s φ) (ha : ∀ i, IsReal (a i)) (hb : ∀ i, IsReal (b i)) (i : s.Idx) :
    IsReal (subf a b i) :=
  (ha i).sub (hb i)

/-- The elementwise negative of an array of reals is an array of reals. -/
theorem isReal_negf (a : FVec Ideal s φ) (ha : ∀ i, IsReal (a i)) (i : s.Idx) : IsReal (negf a i) :=
  (ha i).neg

/-- The elementwise maximum of two arrays of reals is an array of reals. -/
theorem isReal_maximumf (a b : FVec Ideal s φ) (ha : ∀ i, IsReal (a i)) (hb : ∀ i, IsReal (b i)) (i : s.Idx) :
    IsReal (maximumf a b i) :=
  (ha i).max (hb i)

/-- An elementwise choice between two arrays of reals is an array of reals, whatever the conditions are. -/
theorem isReal_select (c : IVec s 1) (a b : s.Idx → EReal) (ha : ∀ i, IsReal (a i)) (hb : ∀ i, IsReal (b i))
    (i : s.Idx) : IsReal (select c a b i) := by
  show IsReal (if c i = 1 then a i else b i)
  exact (ha i).ite (hb i)

end Pointwise

/-- Every entry of a scatter-added table is the old entry plus a finite sum of updates: real if the old
    entries and the updates all are, wherever the updates land. -/
theorem isReal_scatterAdd {s si u : Shape} {φ : FTy} {w : Nat} (d : ScatterDims s si u) (x0 : FVec Ideal s φ)
    (idx : IVec si w) (upd : FVec Ideal u φ) (h0 : ∀ k, IsReal (x0 k)) (hu : ∀ j, IsReal (upd j)) (k : s.Idx) :
    IsReal (Host.scatterAdd (F := Ideal) d x0 idx upd k) := by
  show IsReal (x0 k + ∑ j ∈ Finset.univ.filter (fun j => d.resultIdx? j idx = some k), upd j)
  exact (h0 k).add (IsReal.sum _ _ fun j _ => hu j)

/-- The sparse product with the starting table any broadcast array of reals: gather the table's rows at one
    list, scale by the broadcast values, scatter-add into the starting table at the other list. Every entry of
    the result is a real if every entry of the table, of the values and of the starting table is. -/
theorem spmm_isReal_of_init {sT sO sI sU sV sZ : Shape} {φ : FTy} {w w' : Nat} (sd : ScatterDims sO sI sU)
    (gd : GatherDims sT sI sU) (dz : Fin sZ.rank → Fin sO.rank) (hz : sZ.BroadcastsInDim sO dz)
    (dv : Fin sV.rank → Fin sU.rank) (hv : sV.BroadcastsInDim sU dv) (z : FVec Ideal sZ φ) (x : FVec Ideal sT φ)
    (vals : FVec Ideal sV φ) (rows : IVec sI w) (cols : IVec sI w') (hzr : ∀ i, IsReal (z i))
    (hx : ∀ i, IsReal (x i)) (hvals : ∀ e, IsReal (vals e)) (i : sO.Idx) :
    IsReal (Host.scatterAdd (F := Ideal) sd (broadcastInDim sO dz hz z) rows
      (mulf (broadcastInDim sU dv hv vals) (Host.gather gd x cols)) i) :=
  isReal_scatterAdd sd _ rows _ (isReal_broadcastInDim dz hz z hzr)
    (isReal_mulf _ _ (isReal_broadcastInDim dv hv vals hvals) (isReal_gather gd x cols hx)) i

/-- The sparse product into a table of zeros (the f32 constant zero broadcast): every entry of the result is a
    real if every entry of the table and of the values is. -/
theorem spmm_isReal {sT sO sI sU sV sZ : Shape} {w w' : Nat} (sd : ScatterDims sO sI sU)
    (gd : GatherDims sT sI sU) (dz : Fin sZ.rank → Fin sO.rank) (hz : sZ.BroadcastsInDim sO dz)
    (dv : Fin sV.rank → Fin sU.rank) (hv : sV.BroadcastsInDim sU dv) (x : FVec Ideal sT .f32)
    (vals : FVec Ideal sV .f32) (rows : IVec sI w) (cols : IVec sI w') (hx : ∀ i, IsReal (x i))
    (hvals : ∀ e, IsReal (vals e)) (i : sO.Idx) :
    IsReal (Host.scatterAdd (F := Ideal) sd (broadcastInDim sO dz hz (constant (F := Ideal) sZ .f32 0x00000000#32)) rows
      (mulf (broadcastInDim sU dv hv vals) (Host.gather gd x cols)) i) :=
  spmm_isReal_of_init sd gd dz hz dv hv _ x vals rows cols (isReal_constant_zero sZ) hx hvals i

/-- The same with the values a vector broadcast twice (to a column, then across the row width), as a program
    that holds the values as a flat list writes it. -/
theorem spmm_isReal_flat {sT sO sI sU sV sV0 sZ : Shape} {w w' : Nat} (sd : ScatterDims sO sI sU)
    (gd : GatherDims sT sI sU) (dz : Fin sZ.rank → Fin sO.rank) (hz : sZ.BroadcastsInDim sO dz)
    (dv : Fin sV.rank → Fin sU.rank) (hv : sV.BroadcastsInDim sU dv) (dv0 : Fin sV0.rank → Fin sV.rank)
    (hv0 : sV0.BroadcastsInDim sV dv0) (x : FVec Ideal sT .f32) (vals : FVec Ideal sV0 .f32) (rows : IVec sI w)
    (cols : IVec sI w') (hx : ∀ i, IsReal (x i)) (hvals : ∀ e, IsReal (vals e)) (i : sO.Idx) :
    IsReal (Host.scatterAdd (F := Ideal) sd (broadcastInDim sO dz hz (constant (F := Ideal) sZ .f32 0x00000000#32)) rows
      (mulf (broadcastInDim sU dv hv (broadcastInDim sV dv0 hv0 vals)) (Host.gather gd x cols)) i) :=
  spmm_isReal sd gd dz hz dv hv x _ rows cols hx (isReal_broadcastInDim dv0 hv0 vals hvals) i

end Idealize.ShloMosaic.SpmmReal

end
-- ==== Proof.RefRealLayers.lean ====
/-
  Finiteness through the reference program's layers.

  If every entry of every float argument is a real number, so is every entry of every intermediate array of the
  reference's dense branches: a linear layer's entry is a finite sum of products plus a bias; a column mean is a finite
  sum over the f32 word 40000, which is not zero; a column variance is a sum of squares over 40000, so it is a
  nonnegative real, and with the positive f32 word nearest 1e-5 added it is a positive real, whose reciprocal square
  root is a real; the affine normalisation, the leaky rectifier (a choice between a real and a real multiple of it), a
  residual sum and a logistic gate keep real numbers real. The statements read the buffers at the end of the program's
  line, as the index-level readings of the layers do.
-/
import proofs.«167917_j22402549416514_2_alg».proof.Proof.RefRead1
import proofs.«167917_j22402549416514_2_alg».proof.Proof.LibLayerReal
import proofs.«167917_j22402549416514_2_alg».proof.Proof.LibSpmmReal

noncomputable section

namespace Cert.ReferenceIdeal.RefRun

open Cert.ReferenceIdeal Cert.ReferenceIdeal.Gen Idealize.ShloMosaic Idealize.ShloMosaic.TcCoe Idealize.SL.Sem Idealize.ShloMosaic.StableHlo

open Idealize.ShloMosaic.ValueIdx Idealize.ShloMosaic.RealClosure
open scoped BigOperators

/-- Every entry of every float argument is a real number. -/
structure ArgsReal (W : Valuation τ sig (Elt Ideal)) : Prop where
  a2 : ∀ i, IsReal (W (main_arg2 : DevRef τ sig) i)
  a5 : ∀ i, IsReal (W (main_arg5 : DevRef τ sig) i)
  a8 : ∀ i, IsReal (W (main_arg8 : DevRef τ sig) i)
  a11 : ∀ i, IsReal (W (main_arg11 : DevRef τ sig) i)
  a12 : ∀ i, IsReal (W (main_arg12 : DevRef τ sig) i)
  a13 : ∀ i, IsReal (W (main_arg13 : DevRef τ sig) i)
  a14 : ∀ i, IsReal (W (main_arg14 : DevRef τ sig) i)
  a15 : ∀ i, IsReal (W (main_arg15 : DevRef τ sig) i)
  a16 : ∀ i, IsReal (W (main_arg16 : DevRef τ sig) i)
  a17 : ∀ i, IsReal (W (main_arg17 : DevRef τ sig) i)
  a18 : ∀ i, IsReal (W (main_arg18 : DevRef τ sig) i)
  a19 : ∀ i, IsReal (W (main_arg19 : DevRef τ sig) i)
  a20 : ∀ i, IsReal (W (main_arg20 : DevRef τ sig) i)
  a21 : ∀ i, IsReal (W (main_arg21 : DevRef τ sig) i)
  a22 : ∀ i, IsReal (W (main_arg22 : DevRef τ sig) i)
  a23 : ∀ i, IsReal (W (main_arg23 : DevRef τ sig) i)
  a24 : ∀ i, IsReal (W (main_arg24 : DevRef τ sig) i)
  a25 : ∀ i, IsReal (W (main_arg25 : DevRef τ sig) i)
  a26 : ∀ i, IsReal (W (main_arg26 : DevRef τ sig) i)
  a27 : ∀ i, IsReal (W (main_arg27 : DevRef τ sig) i)
  a28 : ∀ i, IsReal (W (main_arg28 : DevRef τ sig) i)
  a29 : ∀ i, IsReal (W (main_arg29 : DevRef τ sig) i)
  a30 : ∀ i, IsReal (W (main_arg30 : DevRef τ sig) i)
  a31 : ∀ i, IsReal (W (main_arg31 : DevRef τ sig) i)
  a32 : ∀ i, IsReal (W (main_arg32 : DevRef τ sig) i)
  a33 : ∀ i, IsReal (W (main_arg33 : DevRef τ sig) i)
  a34 : ∀ i, IsReal (W (main_arg34 : DevRef τ sig) i)
  a35 : ∀ i, IsReal (W (main_arg35 : DevRef τ sig) i)
  a36 : ∀ i, IsReal (W (main_arg36 : DevRef τ sig) i)
  a37 : ∀ i, IsReal (W (main_arg37 : DevRef τ sig) i)
  a38 : ∀ i, IsReal (W (main_arg38 : DevRef τ sig) i)

/-! ## The scalar functions keep real numbers real -/

/-- The leaky rectifier of a real is a real: the real itself or a real multiple of it. -/
theorem isReal_leaky {z : EReal} (hz : IsReal z) : IsReal (Cert.Spec.leaky z) := by
  unfold Cert.Spec.leaky Scalar.select
  exact hz.ite ((LayerReal.isReal_ofBits_f32 _ (by decide)).mul hz)

/-- The affine normalisation of reals is a real when the variance plus the small constant is a positive real. -/
theorem isReal_normAff {x μ v g β : EReal} {ρ : ℝ} (hx : IsReal x) (hμ : IsReal μ) (hg : IsReal g) (hβ : IsReal β)
    (hρ : 0 < ρ) (hv : v + Ideal.ofBits .f32 0x3727C5AC#32 = (ρ : EReal)) : IsReal (Cert.Spec.normAff x μ v g β) := by
  unfold Cert.Spec.normAff
  exact LayerReal.isReal_normalise hx hμ hρ hv hg hβ

/-- A mean over the f32 word 40000 of finitely many reals is a real. -/
theorem isReal_mean {ι : Type*} [Fintype ι] (x : ι → EReal) (hx : ∀ i, IsReal (x i)) :
    IsReal (Ideal.div (∑ i, x i) (Ideal.ofBits .f32 0x471C4000#32)) := by
  rw [Variance.ofBits_40000]
  exact (IsReal.sum_univ x hx).div_coe (by norm_num)

/-- A mean of squares over the f32 word 40000 of finitely many reals is a real. -/
theorem isReal_meanSq {ι : Type*} [Fintype ι] (y : ι → EReal) (hy : ∀ i, IsReal (y i)) :
    IsReal (Ideal.div (∑ i, y i * y i) (Ideal.ofBits .f32 0x471C4000#32)) := by
  rw [Variance.ofBits_40000]
  obtain ⟨r, -, hr⟩ := sum_sq_div_nonneg y hy 40000 (by norm_num)
  exact ⟨r, hr⟩

/-- A mean of squares over 40000 of finitely many reals, plus the f32 word nearest 1e-5, is a positive real. -/
theorem meanSq_eps_pos {ι : Type*} [Fintype ι] (y : ι → EReal) (hy : ∀ i, IsReal (y i)) :
    ∃ ρ : ℝ, 0 < ρ ∧ Ideal.div (∑ i, y i * y i) (Ideal.ofBits .f32 0x471C4000#32) + Ideal.ofBits .f32 0x3727C5AC#32 = (ρ : EReal) := by
  rw [Variance.ofBits_40000, LayerReal.ofBits_eps]
  exact var_add_eps_pos y hy 40000 _ (by norm_num) (by positivity)

variable {W : Valuation τ sig (Elt Ideal)}

/-- Every entry of the linear layer v35 is a real. -/
theorem real_v35 (hW : ArgsReal W) (r : Fin 40000) (q : Fin 64) : IsReal (rd2 (R W main_v35) r q) := by
  rw [v35_apply]
  exact LayerReal.isReal_linear _ _ _ (fun c => hW.a14 _) (fun c => hW.a16 _) (hW.a17 _)

/-- Every column mean v38 is a real. -/
theorem real_v38 (hW : ArgsReal W) (q : Fin 64) : IsReal (rd1 (R W main_v38) q) := by
  rw [v38_apply]
  exact isReal_mean _ fun r => real_v35 hW r q

/-- Every column variance v39 is a real. -/
theorem real_v39 (hW : ArgsReal W) (q : Fin 64) : IsReal (rd1 (R W main_v39) q) := by
  rw [v39_apply]
  exact isReal_meanSq (fun r : Fin 40000 => rd2 (R W main_v35) r q - rd1 (R W main_v38) q)
    fun r => (real_v35 hW r q).sub (real_v38 hW q)

/-- Every column variance v39 plus the small constant is a positive real. -/
theorem pos_v39 (hW : ArgsReal W) (q : Fin 64) :
    ∃ ρ : ℝ, 0 < ρ ∧ rd1 (R W main_v39) q + Ideal.ofBits .f32 0x3727C5AC#32 = (ρ : EReal) := by
  rw [v39_apply]
  exact meanSq_eps_pos (fun r : Fin 40000 => rd2 (R W main_v35) r q - rd1 (R W main_v38) q)
    fun r => (real_v35 hW r q).sub (real_v38 hW q)

/-- Every entry of the layer's output v59 is a real. -/
theorem real_v59 (hW : ArgsReal W) (r : Fin 40000) (q : Fin 64) : IsReal (rd2 (R W main_v59) r q) := by
  rw [v59_apply]
  obtain ⟨ρ, hρ, e⟩ := pos_v39 hW q
  exact isReal_leaky (isReal_normAff (real_v35 hW r q) (real_v38 hW q) (hW.a18 _) (hW.a19 _) hρ e)

/-- Every entry of the linear layer v64 is a real. -/
theorem real_v64 (hW : ArgsReal W) (r : Fin 40000) (q : Fin 64) : IsReal (rd2 (R W main_v64) r q) := by
  rw [v64_apply]
  exact LayerReal.isReal_linear _ _ _ (fun c => real_v59 hW r c) (fun c => hW.a20 _) (hW.a21 _)

/-- Every column mean v67 is a real. -/
theorem real_v67 (hW : ArgsReal W) (q : Fin 64) : IsReal (rd1 (R W main_v67) q) := by
  rw [v67_apply]
  exact isReal_mean _ fun r => real_v64 hW r q

/-- Every column variance v68 is a real. -/
theorem real_v68 (hW : ArgsReal W) (q : Fin 64) : IsReal (rd1 (R W main_v68) q) := by
  rw [v68_apply]
  exact isReal_meanSq (fun r : Fin 40000 => rd2 (R W main_v64) r q - rd1 (R W main_v67) q)
    fun r => (real_v64 hW r q).sub (real_v67 hW q)

/-- Every column variance v68 plus the small constant is a positive real. -/
theorem pos_v68 (hW : ArgsReal W) (q : Fin 64) :
    ∃ ρ : ℝ, 0 < ρ ∧ rd1 (R W main_v68) q + Ideal.ofBits .f32 0x3727C5AC#32 = (ρ : EReal) := by
  rw [v68_apply]
  exact meanSq_eps_pos (fun r : Fin 40000 => rd2 (R W main_v64) r q - rd1 (R W main_v67) q)
    fun r => (real_v64 hW r q).sub (real_v67 hW q)

/-- Every entry of the layer's output v89 is a real. -/
theorem real_v89 (hW : ArgsReal W) (r : Fin 40000) (q : Fin 64) : IsReal (rd2 (R W main_v89) r q) := by
  rw [v89_apply]
  obtain ⟨ρ, hρ, e⟩ := pos_v68 hW q
  exact (isReal_leaky (isReal_normAff (real_v64 hW r q) (real_v67 hW q) (hW.a22 _) (hW.a23 _) hρ e)).add (real_v59 hW r q)

/-- Every entry of the linear layer v94 is a real. -/
theorem real_v94 (hW : ArgsReal W) (r : Fin 40000) (q : Fin 64) : IsReal (rd2 (R W main_v94) r q) := by
  rw [v94_apply]
  exact LayerReal.isReal_linear _ _ _ (fun c => hW.a15 _) (fun c => hW.a24 _) (hW.a25 _)

/-- Every column mean v97 is a real. -/
theorem real_v97 (hW : ArgsReal W) (q : Fin 64) : IsReal (rd1 (R W main_v97) q) := by
  rw [v97_apply]
  exact isReal_mean _ fun r => real_v94 hW r q

/-- Every column variance v98 is a real. -/
theorem real_v98 (hW : ArgsReal W) (q : Fin 64) : IsReal (rd1 (R W main_v98) q) := by
  rw [v98_apply]
  exact isReal_meanSq (fun r : Fin 40000 => rd2 (R W main_v94) r q - rd1 (R W main_v97) q)
    fun r => (real_v94 hW r q).sub (real_v97 hW q)

/-- Every column variance v98 plus the small constant is a positive real. -/
theorem pos_v98 (hW : ArgsReal W) (q : Fin 64) :
    ∃ ρ : ℝ, 0 < ρ ∧ rd1 (R W main_v98) q + Ideal.ofBits .f32 0x3727C5AC#32 = (ρ : EReal) := by
  rw [v98_apply]
  exact meanSq_eps_pos (fun r : Fin 40000 => rd2 (R W main_v94) r q - rd1 (R W main_v97) q)
    fun r => (real_v94 hW r q).sub (real_v97 hW q)

/-- Every entry of the layer's output v118 is a real. -/
theorem real_v118 (hW : ArgsReal W) (r : Fin 40000) (q : Fin 64) : IsReal (rd2 (R W main_v118) r q) := by
  rw [v118_apply]
  obtain ⟨ρ, hρ, e⟩ := pos_v98 hW q
  exact isReal_leaky (isReal_normAff (real_v94 hW r q) (real_v97 hW q) (hW.a26 _) (hW.a27 _) hρ e)

/-- Every entry of the linear layer v123 is a real. -/
theorem real_v123 (hW : ArgsReal W) (r : Fin 40000) (q : Fin 64) : IsReal (rd2 (R W main_v123) r q) := by
  rw [v123_apply]
  exact LayerReal.isReal_linear _ _ _ (fun c => real_v118 hW r c) (fun c => hW.a28 _) (hW.a29 _)

/-- Every column mean v126 is a real. -/
theorem real_v126 (hW : ArgsReal W) (q : Fin 64) : IsReal (rd1 (R W main_v126) q) := by
  rw [v126_apply]
  exact isReal_mean _ fun r => real_v123 hW r q

/-- Every column variance v127 is a real. -/
theorem real_v127 (hW : ArgsReal W) (q : Fin 64) : IsReal (rd1 (R W main_v127) q) := by
  rw [v127_apply]
  exact isReal_meanSq (fun r : Fin 40000 => rd2 (R W main_v123) r q - rd1 (R W main_v126) q)
    fun r => (real_v123 hW r q).sub (real_v126 hW q)

/-- Every column variance v127 plus the small constant is a positive real. -/
theorem pos_v127 (hW : ArgsReal W) (q : Fin 64) :
    ∃ ρ : ℝ, 0 < ρ ∧ rd1 (R W main_v127) q + Ideal.ofBits .f32 0x3727C5AC#32 = (ρ : EReal) := by
  rw [v127_apply]
  exact meanSq_eps_pos (fun r : Fin 40000 => rd2 (R W main_v123) r q - rd1 (R W main_v126) q)
    fun r => (real_v123 hW r q).sub (real_v126 hW q)

/-- Every entry of the layer's output v148 is a real. -/
theorem real_v148 (hW : ArgsReal W) (r : Fin 40000) (q : Fin 64) : IsReal (rd2 (R W main_v148) r q) := by
  rw [v148_apply]
  obtain ⟨ρ, hρ, e⟩ := pos_v127 hW q
  exact (isReal_leaky (isReal_normAff (real_v123 hW r q) (real_v126 hW q) (hW.a30 _) (hW.a31 _) hρ e)).add (real_v118 hW r q)

/-- Every entry of the gated embedding v160 is a real. -/
theorem real_v160 (hW : ArgsReal W) (r : Fin 40000) (q : Fin 64) : IsReal (rd2 (R W main_v160) r q) := by
  rw [v160_apply]
  exact (hW.a13 _).mul (LayerReal.isReal_linear _ _ _ (fun c => real_v89 hW r c) (fun c => hW.a32 _) (hW.a33 _)).logistic

/-- Every entry of the gated embedding v172 is a real. -/
theorem real_v172 (hW : ArgsReal W) (r : Fin 40000) (q : Fin 64) : IsReal (rd2 (R W main_v172) r q) := by
  rw [v172_apply]
  exact (hW.a13 _).mul (LayerReal.isReal_linear _ _ _ (fun c => real_v148 hW r c) (fun c => hW.a34 _) (hW.a35 _)).logistic

end Cert.ReferenceIdeal.RefRun

end
-- ==== Proof.BridgeArgs.lean ====
/-
  The certificate's last conjunct from one equation per device.

  The conjunct asks, for any two memories that hold the same 39 argument arrays (the first satisfying the
  precondition), for a result both programs end at, each leaving its arguments as launched. Both programs are known to
  run: the kernel program ends with its result array at what its last region's write-backs leave and its arguments as
  launched, the reference program with every buffer at its line's fold over the launch contents. So the conjunct
  follows from ONE equation per device — the kernel program's final array is the reference line's fold at its result
  buffer — under the hypotheses the equation may use: the precondition, and the agreement of the two memories on
  every argument, restated here array by array at its own type (`AgreeAll`), from which every float argument of the
  reference program is an array of reals (`argsReal_of`: the precondition says so of the kernel program's).
-/
import proofs.«167917_j22402549416514_2_alg».proof.Proof.KI.Run
import proofs.«167917_j22402549416514_2_alg».proof.Proof.Finite
import proofs.«167917_j22402549416514_2_alg».proof.Proof.RefRealLayers
import proofs.«167917_j22402549416514_2_alg».proof.Proof.RefFrame

set_option maxRecDepth 16384

noncomputable section

namespace Cert.Bridge

open Idealize.ShloMosaic Idealize.ShloMosaic.TcCoe Idealize.SL.Sem Idealize.ShloMosaic.StableHlo Idealize.ShloMosaic.RealClosure

variable [hPre : Cert.Pre_finite_inputs.Facts]

set_option maxHeartbeats 8000000 in
/-- The two memories hold the same 39 argument arrays on device `c`: argument by argument, the reference program's
    launch contents at its buffer, read at the array's own type, are the kernel program's memory at its buffer. -/
structure AgreeAll (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD) : Prop where
  a0 : (StableHlo.launchContents m' c (Proc.devRef .tc Cert.ReferenceIdeal.main_arg0) : Cert.KernelIdeal.S2500000.Idx → BitVec 32) = m ((c.tc : Thread Cert.KernelIdeal.nD Cert.KernelIdeal.τ).loc Cert.KernelIdeal.main_arg0)
  a1 : (StableHlo.launchContents m' c (Proc.devRef .tc Cert.ReferenceIdeal.main_arg1) : Cert.KernelIdeal.S2500000.Idx → BitVec 32) = m ((c.tc : Thread Cert.KernelIdeal.nD Cert.KernelIdeal.τ).loc Cert.KernelIdeal.main_arg1)
  a2 : (StableHlo.launchContents m' c (Proc.devRef .tc Cert.ReferenceIdeal.main_arg2) : Cert.KernelIdeal.S2500000.Idx → EReal) = m ((c.tc : Thread Cert.KernelIdeal.nD Cert.KernelIdeal.τ).loc Cert.KernelIdeal.main_arg2)
  a3 : (StableHlo.launchContents m' c (Proc.devRef .tc Cert.ReferenceIdeal.main_arg3) : Cert.KernelIdeal.S1000000.Idx → BitVec 32) = m ((c.tc : Thread Cert.KernelIdeal.nD Cert.KernelIdeal.τ).loc Cert.KernelIdeal.main_arg3)
  a4 : (StableHlo.launchContents m' c (Proc.devRef .tc Cert.ReferenceIdeal.main_arg4) : Cert.KernelIdeal.S1000000.Idx → BitVec 32) = m ((c.tc : Thread Cert.KernelIdeal.nD Cert.KernelIdeal.τ).loc Cert.KernelIdeal.main_arg4)
  a5 : (StableHlo.launchContents m' c (Proc.devRef .tc Cert.ReferenceIdeal.main_arg5) : Cert.KernelIdeal.S1000000.Idx → EReal) = m ((c.tc : Thread Cert.KernelIdeal.nD Cert.KernelIdeal.τ).loc Cert.KernelIdeal.main_arg5)
  a6 : (StableHlo.launchContents m' c (Proc.devRef .tc Cert.ReferenceIdeal.main_arg6) : Cert.KernelIdeal.S1000000.Idx → BitVec 32) = m ((c.tc : Thread Cert.KernelIdeal.nD Cert.KernelIdeal.τ).loc Cert.KernelIdeal.main_arg6)
  a7 : (StableHlo.launchContents m' c (Proc.devRef .tc Cert.ReferenceIdeal.main_arg7) : Cert.KernelIdeal.S1000000.Idx → BitVec 32) = m ((c.tc : Thread Cert.KernelIdeal.nD Cert.KernelIdeal.τ).loc Cert.KernelIdeal.main_arg7)
  a8 : (StableHlo.launchContents m' c (Proc.devRef .tc Cert.ReferenceIdeal.main_arg8) : Cert.KernelIdeal.S1000000.Idx → EReal) = m ((c.tc : Thread Cert.KernelIdeal.nD Cert.KernelIdeal.τ).loc Cert.KernelIdeal.main_arg8)
  a9 : (StableHlo.launchContents m' c (Proc.devRef .tc Cert.ReferenceIdeal.main_arg9) : Cert.KernelIdeal.S1000000.Idx → BitVec 32) = m ((c.tc : Thread Cert.KernelIdeal.nD Cert.KernelIdeal.τ).loc Cert.KernelIdeal.main_arg9)
  a10 : (StableHlo.launchContents m' c (Proc.devRef .tc Cert.ReferenceIdeal.main_arg10) : Cert.KernelIdeal.S1000000.Idx → BitVec 32) = m ((c.tc : Thread Cert.KernelIdeal.nD Cert.KernelIdeal.τ).loc Cert.KernelIdeal.main_arg10)
  a11 : (StableHlo.launchContents m' c (Proc.devRef .tc Cert.ReferenceIdeal.main_arg11) : Cert.KernelIdeal.S1000000.Idx → EReal) = m ((c.tc : Thread Cert.KernelIdeal.nD Cert.KernelIdeal.τ).loc Cert.KernelIdeal.main_arg11)
  a12 : (StableHlo.launchContents m' c (Proc.devRef .tc Cert.ReferenceIdeal.main_arg12) : Cert.KernelIdeal.S30000x64.Idx → EReal) = m ((c.tc : Thread Cert.KernelIdeal.nD Cert.KernelIdeal.τ).loc Cert.KernelIdeal.main_arg12)
  a13 : (StableHlo.launchContents m' c (Proc.devRef .tc Cert.ReferenceIdeal.main_arg13) : Cert.KernelIdeal.S40000x64.Idx → EReal) = m ((c.tc : Thread Cert.KernelIdeal.nD Cert.KernelIdeal.τ).loc Cert.KernelIdeal.main_arg13)
  a14 : (StableHlo.launchContents m' c (Proc.devRef .tc Cert.ReferenceIdeal.main_arg14) : Cert.KernelIdeal.S40000x4096.Idx → EReal) = m ((c.tc : Thread Cert.KernelIdeal.nD Cert.KernelIdeal.τ).loc Cert.KernelIdeal.main_arg14)
  a15 : (StableHlo.launchContents m' c (Proc.devRef .tc Cert.ReferenceIdeal.main_arg15) : Cert.KernelIdeal.S40000x768.Idx → EReal) = m ((c.tc : Thread Cert.KernelIdeal.nD Cert.KernelIdeal.τ).loc Cert.KernelIdeal.main_arg15)
  a16 : (StableHlo.launchContents m' c (Proc.devRef .tc Cert.ReferenceIdeal.main_arg16) : Cert.KernelIdeal.S64x4096.Idx → EReal) = m ((c.tc : Thread Cert.KernelIdeal.nD Cert.KernelIdeal.τ).loc Cert.KernelIdeal.main_arg16)
  a17 : (StableHlo.launchContents m' c (Proc.devRef .tc Cert.ReferenceIdeal.main_arg17) : Cert.KernelIdeal.S64.Idx → EReal) = m ((c.tc : Thread Cert.KernelIdeal.nD Cert.KernelIdeal.τ).loc Cert.KernelIdeal.main_arg17)
  a18 : (StableHlo.launchContents m' c (Proc.devRef .tc Cert.ReferenceIdeal.main_arg18) : Cert.KernelIdeal.S64.Idx → EReal) = m ((c.tc : Thread Cert.KernelIdeal.nD Cert.KernelIdeal.τ).loc Cert.KernelIdeal.main_arg18)
  a19 : (StableHlo.launchContents m' c (Proc.devRef .tc Cert.ReferenceIdeal.main_arg19) : Cert.KernelIdeal.S64.Idx → EReal) = m ((c.tc : Thread Cert.KernelIdeal.nD Cert.KernelIdeal.τ).loc Cert.KernelIdeal.main_arg19)
  a20 : (StableHlo.launchContents m' c (Proc.devRef .tc Cert.ReferenceIdeal.main_arg20) : Cert.KernelIdeal.S64x64.Idx → EReal) = m ((c.tc : Thread Cert.KernelIdeal.nD Cert.KernelIdeal.τ).loc Cert.KernelIdeal.main_arg20)
  a21 : (StableHlo.launchContents m' c (Proc.devRef .tc Cert.ReferenceIdeal.main_arg21) : Cert.KernelIdeal.S64.Idx → EReal) = m ((c.tc : Thread Cert.KernelIdeal.nD Cert.KernelIdeal.τ).loc Cert.KernelIdeal.main_arg21)
  a22 : (StableHlo.launchContents m' c (Proc.devRef .tc Cert.ReferenceIdeal.main_arg22) : Cert.KernelIdeal.S64.Idx → EReal) = m ((c.tc : Thread Cert.KernelIdeal.nD Cert.KernelIdeal.τ).loc Cert.KernelIdeal.main_arg22)
  a23 : (StableHlo.launchContents m' c (Proc.devRef .tc Cert.ReferenceIdeal.main_arg23) : Cert.KernelIdeal.S64.Idx → EReal) = m ((c.tc : Thread Cert.KernelIdeal.nD Cert.KernelIdeal.τ).loc Cert.KernelIdeal.main_arg23)
  a24 : (StableHlo.launchContents m' c (Proc.devRef .tc Cert.ReferenceIdeal.main_arg24) : Cert.KernelIdeal.S64x768.Idx → EReal) = m ((c.tc : Thread Cert.KernelIdeal.nD Cert.KernelIdeal.τ).loc Cert.KernelIdeal.main_arg24)
  a25 : (StableHlo.launchContents m' c (Proc.devRef .tc Cert.ReferenceIdeal.main_arg25) : Cert.KernelIdeal.S64.Idx → EReal) = m ((c.tc : Thread Cert.KernelIdeal.nD Cert.KernelIdeal.τ).loc Cert.KernelIdeal.main_arg25)
  a26 : (StableHlo.launchContents m' c (Proc.devRef .tc Cert.ReferenceIdeal.main_arg26) : Cert.KernelIdeal.S64.Idx → EReal) = m ((c.tc : Thread Cert.KernelIdeal.nD Cert.KernelIdeal.τ).loc Cert.KernelIdeal.main_arg26)
  a27 : (StableHlo.launchContents m' c (Proc.devRef .tc Cert.ReferenceIdeal.main_arg27) : Cert.KernelIdeal.S64.Idx → EReal) = m ((c.tc : Thread Cert.KernelIdeal.nD Cert.KernelIdeal.τ).loc Cert.KernelIdeal.main_arg27)
  a28 : (StableHlo.launchContents m' c (Proc.devRef .tc Cert.ReferenceIdeal.main_arg28) : Cert.KernelIdeal.S64x64.Idx → EReal) = m ((c.tc : Thread Cert.KernelIdeal.nD Cert.KernelIdeal.τ).loc Cert.KernelIdeal.main_arg28)
  a29 : (StableHlo.launchContents m' c (Proc.devRef .tc Cert.ReferenceIdeal.main_arg29) : Cert.KernelIdeal.S64.Idx → EReal) = m ((c.tc : Thread Cert.KernelIdeal.nD Cert.KernelIdeal.τ).loc Cert.KernelIdeal.main_arg29)
  a30 : (StableHlo.launchContents m' c (Proc.devRef .tc Cert.ReferenceIdeal.main_arg30) : Cert.KernelIdeal.S64.Idx → EReal) = m ((c.tc : Thread Cert.KernelIdeal.nD Cert.KernelIdeal.τ).loc Cert.KernelIdeal.main_arg30)
  a31 : (StableHlo.launchContents m' c (Proc.devRef .tc Cert.ReferenceIdeal.main_arg31) : Cert.KernelIdeal.S64.Idx → EReal) = m ((c.tc : Thread Cert.KernelIdeal.nD Cert.KernelIdeal.τ).loc Cert.KernelIdeal.main_arg31)
  a32 : (StableHlo.launchContents m' c (Proc.devRef .tc Cert.ReferenceIdeal.main_arg32) : Cert.KernelIdeal.S64x64.Idx → EReal) = m ((c.tc : Thread Cert.KernelIdeal.nD Cert.KernelIdeal.τ).loc Cert.KernelIdeal.main_arg32)
  a33 : (StableHlo.launchContents m' c (Proc.devRef .tc Cert.ReferenceIdeal.main_arg33) : Cert.KernelIdeal.S64.Idx → EReal) = m ((c.tc : Thread Cert.KernelIdeal.nD Cert.KernelIdeal.τ).loc Cert.KernelIdeal.main_arg33)
  a34 : (StableHlo.launchContents m' c (Proc.devRef .tc Cert.ReferenceIdeal.main_arg34) : Cert.KernelIdeal.S64x64.Idx → EReal) = m ((c.tc : Thread Cert.KernelIdeal.nD Cert.KernelIdeal.τ).loc Cert.KernelIdeal.main_arg34)
  a35 : (StableHlo.launchContents m' c (Proc.devRef .tc Cert.ReferenceIdeal.main_arg35) : Cert.KernelIdeal.S64.Idx → EReal) = m ((c.tc : Thread Cert.KernelIdeal.nD Cert.KernelIdeal.τ).loc Cert.KernelIdeal.main_arg35)
  a36 : (StableHlo.launchContents m' c (Proc.devRef .tc Cert.ReferenceIdeal.main_arg36) : Cert.KernelIdeal.S64x64.Idx → EReal) = m ((c.tc : Thread Cert.KernelIdeal.nD Cert.KernelIdeal.τ).loc Cert.KernelIdeal.main_arg36)
  a37 : (StableHlo.launchContents m' c (Proc.devRef .tc Cert.ReferenceIdeal.main_arg37) : Cert.KernelIdeal.S64.Idx → EReal) = m ((c.tc : Thread Cert.KernelIdeal.nD Cert.KernelIdeal.τ).loc Cert.KernelIdeal.main_arg37)
  a38 : (StableHlo.launchContents m' c (Proc.devRef .tc Cert.ReferenceIdeal.main_arg38) : Cert.KernelIdeal.S1x64.Idx → EReal) = m ((c.tc : Thread Cert.KernelIdeal.nD Cert.KernelIdeal.τ).loc Cert.KernelIdeal.main_arg38)

set_option maxHeartbeats 8000000 in
/-- The agreement as the certificate states it, a conjunction over the arguments, is the agreement array by array. -/
theorem agreeAll_of {m : (ℓ : Loc Cert.KernelIdeal.nD Cert.KernelIdeal.τ Cert.KernelIdeal.sig) → Buf (Elt Ideal) ℓ} {m' : (ℓ : Loc Cert.ReferenceIdeal.nD Cert.ReferenceIdeal.τ Cert.ReferenceIdeal.sig) → Buf (Elt Ideal) ℓ} {c : Dev Cert.KernelIdeal.nD}
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)) :
    AgreeAll m m' c :=
  ⟨hagree.1,
   hagree.2.1,
   hagree.2.2.1,
   hagree.2.2.2.1,
   hagree.2.2.2.2.1,
   hagree.2.2.2.2.2.1,
   hagree.2.2.2.2.2.2.1,
   hagree.2.2.2.2.2.2.2.1,
   hagree.2.2.2.2.2.2.2.2.1,
   hagree.2.2.2.2.2.2.2.2.2.1,
   hagree.2.2.2.2.2.2.2.2.2.2.1,
   hagree.2.2.2.2.2.2.2.2.2.2.2.1,
   hagree.2.2.2.2.2.2.2.2.2.2.2.2.1,
   hagree.2.2.2.2.2.2.2.2.2.2.2.2.2.1,
   hagree.2.2.2.2.2.2.2.2.2.2.2.2.2.2.1,
   hagree.2.2.2.2.2.2.2.2.2.2.2.2.2.2.2.1,
   hagree.2.2.2.2.2.2.2.2.2.2.2.2.2.2.2.2.1,
   hagree.2.2.2.2.2.2.2.2.2.2.2.2.2.2.2.2.2.1,
   hagree.2.2.2.2.2.2.2.2.2.2.2.2.2.2.2.2.2.2.1,
   hagree.2.2.2.2.2.2.2.2.2.2.2.2.2.2.2.2.2.2.2.1,
   hagree.2.2.2.2.2.2.2.2.2.2.2.2.2.2.2.2.2.2.2.2.1,
   hagree.2.2.2.2.2.2.2.2.2.2.2.2.2.2.2.2.2.2.2.2.2.1,
   hagree.2.2.2.2.2.2.2.2.2.2.2.2.2.2.2.2.2.2.2.2.2.2.1,
   hagree.2.2.2.2.2.2.2.2.2.2.2.2.2.2.2.2.2.2.2.2.2.2.2.1,
   hagree.2.2.2.2.2.2.2.2.2.2.2.2.2.2.2.2.2.2.2.2.2.2.2.2.1,
   hagree.2.2.2.2.2.2.2.2.2.2.2.2.2.2.2.2.2.2.2.2.2.2.2.2.2.1,
   hagree.2.2.2.2.2.2.2.2.2.2.2.2.2.2.2.2.2.2.2.2.2.2.2.2.2.2.1,
   hagree.2.2.2.2.2.2.2.2.2.2.2.2.2.2.2.2.2.2.2.2.2.2.2.2.2.2.2.1,
   hagree.2.2.2.2.2.2.2.2.2.2.2.2.2.2.2.2.2.2.2.2.2.2.2.2.2.2.2.2.1,
   hagree.2.2.2.2.2.2.2.2.2.2.2.2.2.2.2.2.2.2.2.2.2.2.2.2.2.2.2.2.2.1,
   hagree.2.2.2.2.2.2.2.2.2.2.2.2.2.2.2.2.2.2.2.2.2.2.2.2.2.2.2.2.2.2.1,
   hagree.2.2.2.2.2.2.2.2.2.2.2.2.2.2.2.2.2.2.2.2.2.2.2.2.2.2.2.2.2.2.2.1,
   hagree.2.2.2.2.2.2.2.2.2.2.2.2.2.2.2.2.2.2.2.2.2.2.2.2.2.2.2.2.2.2.2.2.1,
   hagree.2.2.2.2.2.2.2.2.2.2.2.2.2.2.2.2.2.2.2.2.2.2.2.2.2.2.2.2.2.2.2.2.2.1,
   hagree.2.2.2.2.2.2.2.2.2.2.2.2.2.2.2.2.2.2.2.2.2.2.2.2.2.2.2.2.2.2.2.2.2.2.1,
   hagree.2.2.2.2.2.2.2.2.2.2.2.2.2.2.2.2.2.2.2.2.2.2.2.2.2.2.2.2.2.2.2.2.2.2.2.1,
   hagree.2.2.2.2.2.2.2.2.2.2.2.2.2.2.2.2.2.2.2.2.2.2.2.2.2.2.2.2.2.2.2.2.2.2.2.2.1,
   hagree.2.2.2.2.2.2.2.2.2.2.2.2.2.2.2.2.2.2.2.2.2.2.2.2.2.2.2.2.2.2.2.2.2.2.2.2.2.1,
   hagree.2.2.2.2.2.2.2.2.2.2.2.2.2.2.2.2.2.2.2.2.2.2.2.2.2.2.2.2.2.2.2.2.2.2.2.2.2.2⟩

set_option maxHeartbeats 8000000 in
/-- Under the precondition on the kernel program's memory and the agreement, every float argument of the reference
    program's launch contents is an array of reals. -/
theorem argsReal_of (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (hpre : Cert.Pre_KernelIdeal m) (ag : AgreeAll m m' c) :
    Cert.ReferenceIdeal.RefRun.ArgsReal (StableHlo.launchContents m' c) where
  a2 := by
    have h := Cert.Finite.arg2_real m hpre c
    rw [← ag.a2] at h
    exact h
  a5 := by
    have h := Cert.Finite.arg5_real m hpre c
    rw [← ag.a5] at h
    exact h
  a8 := by
    have h := Cert.Finite.arg8_real m hpre c
    rw [← ag.a8] at h
    exact h
  a11 := by
    have h := Cert.Finite.arg11_real m hpre c
    rw [← ag.a11] at h
    exact h
  a12 := by
    have h := Cert.Finite.arg12_real m hpre c
    rw [← ag.a12] at h
    exact h
  a13 := by
    have h := Cert.Finite.arg13_real m hpre c
    rw [← ag.a13] at h
    exact h
  a14 := by
    have h := Cert.Finite.arg14_real m hpre c
    rw [← ag.a14] at h
    exact h
  a15 := by
    have h := Cert.Finite.arg15_real m hpre c
    rw [← ag.a15] at h
    exact h
  a16 := by
    have h := Cert.Finite.arg16_real m hpre c
    rw [← ag.a16] at h
    exact h
  a17 := by
    have h := Cert.Finite.arg17_real m hpre c
    rw [← ag.a17] at h
    exact h
  a18 := by
    have h := Cert.Finite.arg18_real m hpre c
    rw [← ag.a18] at h
    exact h
  a19 := by
    have h := Cert.Finite.arg19_real m hpre c
    rw [← ag.a19] at h
    exact h
  a20 := by
    have h := Cert.Finite.arg20_real m hpre c
    rw [← ag.a20] at h
    exact h
  a21 := by
    have h := Cert.Finite.arg21_real m hpre c
    rw [← ag.a21] at h
    exact h
  a22 := by
    have h := Cert.Finite.arg22_real m hpre c
    rw [← ag.a22] at h
    exact h
  a23 := by
    have h := Cert.Finite.arg23_real m hpre c
    rw [← ag.a23] at h
    exact h
  a24 := by
    have h := Cert.Finite.arg24_real m hpre c
    rw [← ag.a24] at h
    exact h
  a25 := by
    have h := Cert.Finite.arg25_real m hpre c
    rw [← ag.a25] at h
    exact h
  a26 := by
    have h := Cert.Finite.arg26_real m hpre c
    rw [← ag.a26] at h
    exact h
  a27 := by
    have h := Cert.Finite.arg27_real m hpre c
    rw [← ag.a27] at h
    exact h
  a28 := by
    have h := Cert.Finite.arg28_real m hpre c
    rw [← ag.a28] at h
    exact h
  a29 := by
    have h := Cert.Finite.arg29_real m hpre c
    rw [← ag.a29] at h
    exact h
  a30 := by
    have h := Cert.Finite.arg30_real m hpre c
    rw [← ag.a30] at h
    exact h
  a31 := by
    have h := Cert.Finite.arg31_real m hpre c
    rw [← ag.a31] at h
    exact h
  a32 := by
    have h := Cert.Finite.arg32_real m hpre c
    rw [← ag.a32] at h
    exact h
  a33 := by
    have h := Cert.Finite.arg33_real m hpre c
    rw [← ag.a33] at h
    exact h
  a34 := by
    have h := Cert.Finite.arg34_real m hpre c
    rw [← ag.a34] at h
    exact h
  a35 := by
    have h := Cert.Finite.arg35_real m hpre c
    rw [← ag.a35] at h
    exact h
  a36 := by
    have h := Cert.Finite.arg36_real m hpre c
    rw [← ag.a36] at h
    exact h
  a37 := by
    have h := Cert.Finite.arg37_real m hpre c
    rw [← ag.a37] at h
    exact h
  a38 := by
    have h := Cert.Finite.arg38_real m hpre c
    rw [← ag.a38] at h
    exact h

set_option maxHeartbeats 8000000 in
/-- The certificate's last conjunct, from the equation of the kernel program's final array with the reference line's
    fold at its result buffer, on every device, under the precondition and the agreement. -/
theorem algebraic_of
    (H : ∀ (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
        (hpre : Cert.Pre_KernelIdeal m) (hag : ∀ c, AgreeAll m m' c) (c : Dev Cert.KernelIdeal.nD),
        ((Cert.KernelIdeal.Regions.dat10 (Cert.KernelIdeal.Regions.VE10 (F := Ideal) m ρ) c).arrAt 6 Cert.KernelIdeal.cfg10.N : Cert.KernelIdeal.S70000x64.Idx → EReal)
          = StableHlo.after (Cert.ReferenceIdeal.RefRun.ops (F := Ideal)) (StableHlo.launchContents m' c) (Proc.devRef .tc Cert.ReferenceIdeal.main_v296)) :
    Cert.algebraic_KernelIdeal_ReferenceIdeal (hKernelIdeal := Cert.KernelIdeal.Gen.facts) (hReferenceIdeal := Cert.ReferenceIdeal.Gen.facts)
      (hPre_finite_inputs := hPre) := by
  intro m g m' g' hpre hagree
  have hag : ∀ c, AgreeAll m m' c := fun c => agreeAll_of (hagree c)
  refine ⟨fun c => (Cert.KernelIdeal.Regions.dat10 (Cert.KernelIdeal.Regions.VE10 (F := Ideal) m g) c).arrAt 6 Cert.KernelIdeal.cfg10.N, ?_, ?_⟩
  · exact (θ_run _ _ _).mono (fun _ h c => ⟨(h c).1,
      (h c).2 Cert.KernelIdeal.main_arg0 (by decide),
      (h c).2 Cert.KernelIdeal.main_arg1 (by decide),
      (h c).2 Cert.KernelIdeal.main_arg2 (by decide),
      (h c).2 Cert.KernelIdeal.main_arg3 (by decide),
      (h c).2 Cert.KernelIdeal.main_arg4 (by decide),
      (h c).2 Cert.KernelIdeal.main_arg5 (by decide),
      (h c).2 Cert.KernelIdeal.main_arg6 (by decide),
      (h c).2 Cert.KernelIdeal.main_arg7 (by decide),
      (h c).2 Cert.KernelIdeal.main_arg8 (by decide),
      (h c).2 Cert.KernelIdeal.main_arg9 (by decide),
      (h c).2 Cert.KernelIdeal.main_arg10 (by decide),
      (h c).2 Cert.KernelIdeal.main_arg11 (by decide),
      (h c).2 Cert.KernelIdeal.main_arg12 (by decide),
      (h c).2 Cert.KernelIdeal.main_arg13 (by decide),
      (h c).2 Cert.KernelIdeal.main_arg14 (by decide),
      (h c).2 Cert.KernelIdeal.main_arg15 (by decide),
      (h c).2 Cert.KernelIdeal.main_arg16 (by decide),
      (h c).2 Cert.KernelIdeal.main_arg17 (by decide),
      (h c).2 Cert.KernelIdeal.main_arg18 (by decide),
      (h c).2 Cert.KernelIdeal.main_arg19 (by decide),
      (h c).2 Cert.KernelIdeal.main_arg20 (by decide),
      (h c).2 Cert.KernelIdeal.main_arg21 (by decide),
      (h c).2 Cert.KernelIdeal.main_arg22 (by decide),
      (h c).2 Cert.KernelIdeal.main_arg23 (by decide),
      (h c).2 Cert.KernelIdeal.main_arg24 (by decide),
      (h c).2 Cert.KernelIdeal.main_arg25 (by decide),
      (h c).2 Cert.KernelIdeal.main_arg26 (by decide),
      (h c).2 Cert.KernelIdeal.main_arg27 (by decide),
      (h c).2 Cert.KernelIdeal.main_arg28 (by decide),
      (h c).2 Cert.KernelIdeal.main_arg29 (by decide),
      (h c).2 Cert.KernelIdeal.main_arg30 (by decide),
      (h c).2 Cert.KernelIdeal.main_arg31 (by decide),
      (h c).2 Cert.KernelIdeal.main_arg32 (by decide),
      (h c).2 Cert.KernelIdeal.main_arg33 (by decide),
      (h c).2 Cert.KernelIdeal.main_arg34 (by decide),
      (h c).2 Cert.KernelIdeal.main_arg35 (by decide),
      (h c).2 Cert.KernelIdeal.main_arg36 (by decide),
      (h c).2 Cert.KernelIdeal.main_arg37 (by decide),
      (h c).2 Cert.KernelIdeal.main_arg38 (by decide)⟩)
      (Cert.KernelIdeal.Regions.run (F := Ideal) m g)
  · exact (θ_run _ _ _).mono (fun _ h c => ⟨(h c Cert.ReferenceIdeal.main_v296).trans (H m g m' hpre hag c).symm,
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _),
      (h c Cert.ReferenceIdeal.main_arg9).trans (Cert.ReferenceIdeal.RefRun.arg9_eq _),
      (h c Cert.ReferenceIdeal.main_arg10).trans (Cert.ReferenceIdeal.RefRun.arg10_eq _),
      (h c Cert.ReferenceIdeal.main_arg11).trans (Cert.ReferenceIdeal.RefRun.arg11_eq _),
      (h c Cert.ReferenceIdeal.main_arg12).trans (Cert.ReferenceIdeal.RefRun.arg12_eq _),
      (h c Cert.ReferenceIdeal.main_arg13).trans (Cert.ReferenceIdeal.RefRun.arg13_eq _),
      (h c Cert.ReferenceIdeal.main_arg14).trans (Cert.ReferenceIdeal.RefRun.arg14_eq _),
      (h c Cert.ReferenceIdeal.main_arg15).trans (Cert.ReferenceIdeal.RefRun.arg15_eq _),
      (h c Cert.ReferenceIdeal.main_arg16).trans (Cert.ReferenceIdeal.RefRun.arg16_eq _),
      (h c Cert.ReferenceIdeal.main_arg17).trans (Cert.ReferenceIdeal.RefRun.arg17_eq _),
      (h c Cert.ReferenceIdeal.main_arg18).trans (Cert.ReferenceIdeal.RefRun.arg18_eq _),
      (h c Cert.ReferenceIdeal.main_arg19).trans (Cert.ReferenceIdeal.RefRun.arg19_eq _),
      (h c Cert.ReferenceIdeal.main_arg20).trans (Cert.ReferenceIdeal.RefRun.arg20_eq _),
      (h c Cert.ReferenceIdeal.main_arg21).trans (Cert.ReferenceIdeal.RefRun.arg21_eq _),
      (h c Cert.ReferenceIdeal.main_arg22).trans (Cert.ReferenceIdeal.RefRun.arg22_eq _),
      (h c Cert.ReferenceIdeal.main_arg23).trans (Cert.ReferenceIdeal.RefRun.arg23_eq _),
      (h c Cert.ReferenceIdeal.main_arg24).trans (Cert.ReferenceIdeal.RefRun.arg24_eq _),
      (h c Cert.ReferenceIdeal.main_arg25).trans (Cert.ReferenceIdeal.RefRun.arg25_eq _),
      (h c Cert.ReferenceIdeal.main_arg26).trans (Cert.ReferenceIdeal.RefRun.arg26_eq _),
      (h c Cert.ReferenceIdeal.main_arg27).trans (Cert.ReferenceIdeal.RefRun.arg27_eq _),
      (h c Cert.ReferenceIdeal.main_arg28).trans (Cert.ReferenceIdeal.RefRun.arg28_eq _),
      (h c Cert.ReferenceIdeal.main_arg29).trans (Cert.ReferenceIdeal.RefRun.arg29_eq _),
      (h c Cert.ReferenceIdeal.main_arg30).trans (Cert.ReferenceIdeal.RefRun.arg30_eq _),
      (h c Cert.ReferenceIdeal.main_arg31).trans (Cert.ReferenceIdeal.RefRun.arg31_eq _),
      (h c Cert.ReferenceIdeal.main_arg32).trans (Cert.ReferenceIdeal.RefRun.arg32_eq _),
      (h c Cert.ReferenceIdeal.main_arg33).trans (Cert.ReferenceIdeal.RefRun.arg33_eq _),
      (h c Cert.ReferenceIdeal.main_arg34).trans (Cert.ReferenceIdeal.RefRun.arg34_eq _),
      (h c Cert.ReferenceIdeal.main_arg35).trans (Cert.ReferenceIdeal.RefRun.arg35_eq _),
      (h c Cert.ReferenceIdeal.main_arg36).trans (Cert.ReferenceIdeal.RefRun.arg36_eq _),
      (h c Cert.ReferenceIdeal.main_arg37).trans (Cert.ReferenceIdeal.RefRun.arg37_eq _),
      (h c Cert.ReferenceIdeal.main_arg38).trans (Cert.ReferenceIdeal.RefRun.arg38_eq _)⟩)
      (Cert.ReferenceIdeal.RefRun.run_main (F := Ideal) m' g')

end Cert.Bridge

end
-- ==== Proof.RefRealTables.lean ====
import proofs.«167917_j22402549416514_2_alg».proof.Proof.RefRealLayers

noncomputable section

namespace Cert.ReferenceIdeal.RefRun

open Cert.ReferenceIdeal Cert.ReferenceIdeal.Gen Idealize.ShloMosaic Idealize.ShloMosaic.TcCoe Idealize.SL.Sem Idealize.ShloMosaic.StableHlo

open Idealize.ShloMosaic.ValueIdx Idealize.ShloMosaic.RealClosure
open scoped BigOperators

/-! # Finiteness through the reference program's tables: the first branch

    After the gates the reference program multiplies each gated item table by a weighted graph (twice by an item graph, once
    more by the user-item graph) and stacks the user rows on the item rows. A product
    by a weighted graph adds, into each target row, finitely many rows of the table each scaled by an edge weight, starting from
    zero; so if the table and the weights are real numbers, every entry of the product is. Stacking two tables of real numbers
    gives a table of real numbers. -/

variable {W : Valuation τ sig (Elt Ideal)}

/-- Every index of a matrix is a row and a column: a property of all entries read by row and column holds at every index. -/
theorem all_of_rd2 {m n : Nat} (x : FVec Ideal ⟨2, ![m, n]⟩ .f32) (hx : ∀ r q, IsReal (rd2 x r q)) (k : (⟨2, ![m, n]⟩ : Shape).Idx) :
    IsReal (x k) := by
  rw [eq_ix2 k]; exact hx _ _

/-! ## The two products -/

set_option maxHeartbeats 4000000 in
/-- The first gated table multiplied twice by the first item graph: every entry is a real number. -/
theorem real_v198 (hW : ArgsReal W) (i : S40000x64.Idx) : IsReal ((R W main_v198 : S40000x64.Idx → EReal) i) := by
  have e : R W main_v198 = after ops08 (V08 W) (main_v198 : DevRef τ sig) := R_eq_V09 (b := main_v198) (by decide +kernel) W
  have hin : ∀ k, IsReal ((V08 W (main_v160 : DevRef τ sig) : S40000x64.Idx → EReal) k) := by
    rw [show V08 W (main_v160 : DevRef τ sig) = R W main_v160 from (R_eq_V08 (b := main_v160) (by decide +kernel) W).symm]
    exact all_of_rd2 (m := 40000) (n := 64) _ (fun r q => real_v160 hW r q)
  have hvals : ∀ k, IsReal ((V08 W (main_arg5 : DevRef τ sig) : S1000000.Idx → EReal) k) := by
    rw [show V08 W (main_arg5 : DevRef τ sig) = W (main_arg5 : DevRef τ sig) from (R_eq_V08 (b := main_arg5) (by decide +kernel) W).symm.trans (arg5_eq W)]
    exact hW.a5
  rw [e]
  generalize V08 W = V at *
  after_results_simp
  refine SpmmReal.isReal_scatterAdd _ _ _ _ (fun k0 => ?_) (fun j0 => ?_) i
  · exact SpmmReal.isReal_broadcastInDim _ _ _ (fun z => SpmmReal.isReal_constant_zero _ z) k0
  · refine SpmmReal.isReal_mulf _ _ (fun u0 => ?_) (fun u0 => ?_) j0
    · exact SpmmReal.isReal_broadcastInDim _ _ _ (fun z => SpmmReal.isReal_broadcastInDim _ _ _ hvals z) u0
    · refine SpmmReal.isReal_gather _ _ _ (fun v0 => ?_) u0
      refine SpmmReal.isReal_scatterAdd _ _ _ _ (fun k1 => ?_) (fun j1 => ?_) v0
      · exact SpmmReal.isReal_broadcastInDim _ _ _ (fun z => SpmmReal.isReal_constant_zero _ z) k1
      · refine SpmmReal.isReal_mulf _ _ (fun u1 => ?_) (fun u1 => ?_) j1
        · exact SpmmReal.isReal_broadcastInDim _ _ _ (fun z => SpmmReal.isReal_broadcastInDim _ _ _ hvals z) u1
        · refine SpmmReal.isReal_gather _ _ _ (fun v1 => ?_) u1
          exact hin v1

set_option maxHeartbeats 4000000 in
/-- The first branch's item rows multiplied by the user-item graph, its user rows: every entry is a real number. -/
theorem real_v237 (hW : ArgsReal W) (i : S30000x64.Idx) : IsReal ((R W main_v237 : S30000x64.Idx → EReal) i) := by
  have e : R W main_v237 = after ops10 (V10 W) (main_v237 : DevRef τ sig) := R_eq_V11 (b := main_v237) (by decide +kernel) W
  have hin : ∀ k, IsReal ((V10 W (main_v198 : DevRef τ sig) : S40000x64.Idx → EReal) k) := by
    rw [show V10 W (main_v198 : DevRef τ sig) = R W main_v198 from (R_eq_V10 (b := main_v198) (by decide +kernel) W).symm]
    exact real_v198 hW
  have hvals : ∀ k, IsReal ((V10 W (main_arg11 : DevRef τ sig) : S1000000.Idx → EReal) k) := by
    rw [show V10 W (main_arg11 : DevRef τ sig) = W (main_arg11 : DevRef τ sig) from (R_eq_V10 (b := main_arg11) (by decide +kernel) W).symm.trans (arg11_eq W)]
    exact hW.a11
  rw [e]
  generalize V10 W = V at *
  after_results_simp
  refine SpmmReal.isReal_scatterAdd _ _ _ _ (fun k0 => ?_) (fun j0 => ?_) i
  · exact SpmmReal.isReal_broadcastInDim _ _ _ (fun z => SpmmReal.isReal_constant_zero _ z) k0
  · refine SpmmReal.isReal_mulf _ _ (fun u0 => ?_) (fun u0 => ?_) j0
    · exact SpmmReal.isReal_broadcastInDim _ _ _ (fun z => SpmmReal.isReal_broadcastInDim _ _ _ hvals z) u0
    · refine SpmmReal.isReal_gather _ _ _ (fun v0 => ?_) u0
      exact hin v0

/-! ## The stacked table -/

set_option maxHeartbeats 4000000 in
/-- The first branch's table of all nodes, its user rows stacked on its item rows: every entry is a real number. -/
theorem real_v251 (hW : ArgsReal W) (r : Fin 70000) (k : Fin 64) : IsReal (rd2 (R W main_v251) r k) := by
  have e : R W main_v251 = after ops12 (V12 W) (main_v251 : DevRef τ sig) := R_eq_V13 _ W
  have htop : ∀ j, IsReal ((V12 W (main_v237 : DevRef τ sig) : S30000x64.Idx → EReal) j) := by
    rw [show V12 W (main_v237 : DevRef τ sig) = R W main_v237 from (R_eq_V12 (b := main_v237) (by decide +kernel) W).symm]
    exact real_v237 hW
  have hbot : ∀ j, IsReal ((V12 W (main_v198 : DevRef τ sig) : S40000x64.Idx → EReal) j) := by
    rw [show V12 W (main_v198 : DevRef τ sig) = R W main_v198 from (R_eq_V12 (b := main_v198) (by decide +kernel) W).symm]
    exact real_v198 hW
  show IsReal (R W main_v251 (ix2 r k))
  rw [e]
  generalize V12 W = V at *
  after_results_simp
  refine LayerReal.isReal_concatenate _ _ _ ?_ _
  intro p hp
  rcases List.mem_cons.1 hp with rfl | hp
  · exact htop
  rcases List.mem_cons.1 hp with rfl | hp
  · exact hbot
  · cases hp

end Cert.ReferenceIdeal.RefRun

end
-- ==== Proof.RefRealTablesTxt.lean ====
/-
  Finiteness of the reference program's second pair of propagated tables and of their stack.

  The second gated table is multiplied twice by the second weighted graph on its own nodes, and the result once by the
  third weighted graph onto the other nodes. Each such product gathers rows of a table at one list of node numbers,
  scales every gathered row by its edge's weight and adds it into a table of zeros at another list of node numbers. If
  every entry of the table and every weight is a real number, so is every entry of the product — whatever the lists
  hold: an entry of the result is zero plus a finite sum of products of two reals. The gated table's entries are reals
  when all the float arguments are; hence so are the entries of the two products, of the third, and of the table that
  stacks the third product on the second.
-/
import proofs.«167917_j22402549416514_2_alg».proof.Proof.RefRealLayers
import proofs.«167917_j22402549416514_2_alg».proof.Proof.RefRead0

noncomputable section

namespace Cert.ReferenceIdeal.RefRun

open Cert.ReferenceIdeal Cert.ReferenceIdeal.Gen Idealize.ShloMosaic Idealize.ShloMosaic.TcCoe Idealize.SL.Sem Idealize.ShloMosaic.StableHlo

open Idealize.ShloMosaic.ValueIdx Idealize.ShloMosaic.RealClosure Idealize.ShloMosaic.SpmmReal
open scoped BigOperators

variable {W : Valuation τ sig (Elt Ideal)}

/-- Every entry of the second gated table, at any index, is a real. -/
theorem real_v172_idx (hW : ArgsReal W) (j : S40000x64.Idx) : IsReal (R W main_v172 j) := by
  rw [eq_ix2 j]
  exact real_v172 hW (j 0) (j 1)

set_option maxHeartbeats 1000000 in
/-- Every entry of the second gated table's double product with the second weighted graph is a real. -/
theorem real_v224 (hW : ArgsReal W) (j : S40000x64.Idx) : IsReal (R W main_v224 j) := by
  have e : R W main_v224 = after ops09 (V09 W) (main_v224 : DevRef τ sig) := R_eq_V10 (by decide +kernel) W
  have i172 : V09 W (main_v172 : DevRef τ sig) = R W main_v172 := (R_eq_V09 (by decide +kernel) W).symm
  have i8 : V09 W (main_arg8 : DevRef τ sig) = W (main_arg8 : DevRef τ sig) :=
    (R_eq_V09 (by decide +kernel) W).symm.trans (arg8_eq W)
  rw [e]
  generalize V09 W = V at *
  after_results_simp
  refine spmm_isReal_flat _ _ _ _ _ _ _ _ _ _ _ _ (fun k => ?_) (fun a => ?_) j
  · refine spmm_isReal_flat _ _ _ _ _ _ _ _ _ _ _ _ (fun k' => ?_) (fun a => ?_) k
    · rw [i172]; exact real_v172_idx hW k'
    · rw [i8]; exact hW.a8 a
  · rw [i8]; exact hW.a8 a

set_option maxHeartbeats 1000000 in
/-- Every gathered row of that result scaled by its edge's weight in the third graph is a row of reals. -/
theorem real_v247 (hW : ArgsReal W) (j : S1000000x64.Idx) : IsReal (R W main_v247 j) := by
  have e : R W main_v247 = after ops10 (V10 W) (main_v247 : DevRef τ sig) := R_eq_V11 (by decide +kernel) W
  have i224 : V10 W (main_v224 : DevRef τ sig) = R W main_v224 := (R_eq_V10 (by decide +kernel) W).symm
  have i11 : V10 W (main_arg11 : DevRef τ sig) = W (main_arg11 : DevRef τ sig) :=
    (R_eq_V10 (by decide +kernel) W).symm.trans (arg11_eq W)
  rw [e]
  generalize V10 W = V at *
  after_results_simp
  refine isReal_mulf _ _ (isReal_broadcastInDim _ _ _ (isReal_broadcastInDim _ _ _ (fun a => ?_)))
    (isReal_gather _ _ _ (fun k => ?_)) j
  · rw [i11]; exact hW.a11 a
  · rw [i224]; exact real_v224 hW k

/-- Every entry of the product with the third weighted graph — those rows added into a table of zeros — is a real. -/
theorem real_v250 (hW : ArgsReal W) (j : S30000x64.Idx) : IsReal (R W main_v250 j) := by
  have e : R W main_v250 = after ops11 (V11 W) (main_v250 : DevRef τ sig) := R_eq_V12 (by decide +kernel) W
  have i247 : V11 W (main_v247 : DevRef τ sig) = R W main_v247 := (R_eq_V11 (by decide +kernel) W).symm
  rw [e]
  generalize V11 W = V at *
  after_results_simp
  refine isReal_scatterAdd _ _ _ _ (isReal_broadcastInDim _ _ _ (isReal_constant_zero _)) (fun k => ?_) j
  rw [i247]; exact real_v247 hW k

/-- Every entry of the stack of the two — 30000 rows of the product with the third graph over 40000 rows of the double
    product with the second — is a real. -/
theorem real_v252 (hW : ArgsReal W) (r : Fin 70000) (k : Fin 64) : IsReal (rd2 (R W main_v252) r k) := by
  obtain ⟨n, hn⟩ := r
  by_cases h : n < 30000
  · show IsReal (rd2 (R W main_v252) ⟨(⟨n, h⟩ : Fin 30000).val, hn⟩ k)
    rw [v252_left]
    exact real_v250 hW _
  · obtain ⟨m, rfl⟩ : ∃ m, n = 30000 + m := ⟨n - 30000, by omega⟩
    have hm : m < 40000 := by omega
    show IsReal (rd2 (R W main_v252) ⟨30000 + (⟨m, hm⟩ : Fin 40000).val, hn⟩ k)
    rw [v252_right]
    exact real_v224 hW _

end Cert.ReferenceIdeal.RefRun

end
-- ==== Proof.RefRealScores.lean ====
/-
  Finiteness of the reference program's row scores.

  The score of a row under the one-layer attention head is a finite sum, over the head's 64 hidden units, of the leaky
  rectifier of a dense layer's entry times the head vector's entry. A dense layer's entry of real inputs, weights and
  bias is a real, the rectifier of a real is a real, and finite sums and products of reals are reals: so the score of a
  row of real numbers, under real weights, is a real number. This is applied to the rows of the two stacked tables,
  whose entries are assumed real here, under the head's three arguments.
-/
import proofs.«167917_j22402549416514_2_alg».proof.Proof.RefRealLayers

noncomputable section

namespace Cert.ReferenceIdeal.RefRun

open Cert.ReferenceIdeal Cert.ReferenceIdeal.Gen Idealize.ShloMosaic Idealize.ShloMosaic.TcCoe Idealize.SL.Sem Idealize.ShloMosaic.StableHlo

open Idealize.ShloMosaic.ValueIdx Idealize.ShloMosaic.RealClosure
open scoped BigOperators

/-- The score of a row of reals under a head whose weights, biases and vector are reals is a real. -/
theorem isReal_score {n m : ℕ} (x : Fin n → EReal) (w : Fin m → Fin n → EReal) (b a : Fin m → EReal)
    (hx : ∀ k, IsReal (x k)) (hw : ∀ q k, IsReal (w q k)) (hb : ∀ q, IsReal (b q)) (ha : ∀ q, IsReal (a q)) :
    IsReal (Cert.Spec.score x w b a) := by
  unfold Cert.Spec.score
  refine IsReal.sum_univ _ fun q => (isReal_leaky ?_).mul (ha q)
  unfold Cert.Spec.dense
  exact LayerReal.isReal_linear _ _ _ hx (hw q) (hb q)

variable {W : Valuation τ sig (Elt Ideal)}

/-- The scores of row `r` of the two stacked tables are reals, when the tables' entries are. -/
theorem real_scores (hW : ArgsReal W)
    (h251 : ∀ (r : Fin 70000) (k : Fin 64), IsReal (rd2 (R W main_v251) r k))
    (h252 : ∀ (r : Fin 70000) (k : Fin 64), IsReal (rd2 (R W main_v252) r k)) (r : Fin 70000) :
    IsReal (Cert.Spec.score (fun k : Fin 64 => rd2 (R W main_v251) r k)
        (fun (q k : Fin 64) => rd2 (W (main_arg36 : DevRef τ sig)) q k)
        (fun q : Fin 64 => rd1 (W (main_arg37 : DevRef τ sig)) q)
        (fun q : Fin 64 => rd2 (W (main_arg38 : DevRef τ sig)) (0 : Fin 1) q))
      ∧ IsReal (Cert.Spec.score (fun k : Fin 64 => rd2 (R W main_v252) r k)
        (fun (q k : Fin 64) => rd2 (W (main_arg36 : DevRef τ sig)) q k)
        (fun q : Fin 64 => rd1 (W (main_arg37 : DevRef τ sig)) q)
        (fun q : Fin 64 => rd2 (W (main_arg38 : DevRef τ sig)) (0 : Fin 1) q)) :=
  ⟨isReal_score _ _ _ _ (h251 r) (fun q k => hW.a36 _) (fun q => hW.a37 _) (fun q => hW.a38 _),
    isReal_score _ _ _ _ (h252 r) (fun q k => hW.a36 _) (fun q => hW.a37 _) (fun q => hW.a38 _)⟩

end Cert.ReferenceIdeal.RefRun

end
-- ==== Proof.Bridge3.lean ====
import proofs.«167917_j22402549416514_2_alg».proof.Proof.Bridge1
import proofs.«167917_j22402549416514_2_alg».proof.Proof.Bridge2
import proofs.«167917_j22402549416514_2_alg».proof.Proof.BridgeTables
import proofs.«167917_j22402549416514_2_alg».proof.Proof.BridgeArgs
import proofs.«167917_j22402549416514_2_alg».proof.Proof.RefRealTables
import proofs.«167917_j22402549416514_2_alg».proof.Proof.RefRealTablesTxt
import proofs.«167917_j22402549416514_2_alg».proof.Proof.RefRealScores
import Idealize.ShloMosaic.Lib.ValueIdx

set_option maxRecDepth 16384

noncomputable section

namespace Cert.Bridge

open Idealize.ShloMosaic Idealize.ShloMosaic.TcCoe Idealize.ShloMosaic.ValueIdx Idealize.SL.Sem
open Idealize.ShloMosaic.StableHlo
open Cert.ReferenceIdeal.RefRun (R rd1 rd2)
open scoped BigOperators

/-! # The bridge: every array a kernel region leaves equals, entry by entry, the reference buffer that holds the same
    quantity. `m` is the kernel program's launch memory, `W'` the reference's launch contents; they agree on the arguments. -/

variable (m : (ℓ : Loc Cert.KernelIdeal.nD Cert.KernelIdeal.τ Cert.KernelIdeal.sig) → Buf (Elt Ideal) ℓ) (ρ : Dev Cert.KernelIdeal.nD → PrngReg)
variable (c : Dev Cert.KernelIdeal.nD)
variable (W' : Valuation Cert.ReferenceIdeal.τ Cert.ReferenceIdeal.sig (Elt Ideal))

set_option maxHeartbeats 2000000
open Idealize.ShloMosaic.RealClosure

/-- The two programs' result arrays are equal: layer by layer every array a kernel region leaves is the reference buffer
    holding the same quantity — the linear layers and their batch statistics (the one-pass variance is the two-pass one on
    reals), the normalisations, the gates, the sparse products (the same host operations), and the fusion (the logistic
    of the score difference is the two-way softmax on reals). -/
theorem result_eq (m' : (ℓ : Loc Cert.ReferenceIdeal.nD Cert.ReferenceIdeal.τ Cert.ReferenceIdeal.sig) → Buf (Elt Ideal) ℓ)
    [Cert.Pre_finite_inputs.Facts] (hpre : Cert.Pre_KernelIdeal m) (hag : ∀ c, AgreeAll m m' c) :
    ((Cert.KernelIdeal.Regions.dat10 (Cert.KernelIdeal.Regions.VE10 m ρ) c).arrAt 6 Cert.KernelIdeal.cfg10.N : Cert.KernelIdeal.S70000x64.Idx → EReal) = StableHlo.after (Cert.ReferenceIdeal.RefRun.ops (F := Ideal)) (StableHlo.launchContents m' c) (Proc.devRef .tc Cert.ReferenceIdeal.main_v296) := by
  have ag := hag c
  have hW : Cert.ReferenceIdeal.RefRun.ArgsReal (StableHlo.launchContents m' c) := argsReal_of m m' c hpre ag
  -- the image branch
  have L0 := lin0 m ρ c (StableHlo.launchContents m' c) (fun _ _ => (congrFun ag.a14 _).symm) (fun _ _ => (congrFun ag.a16 _).symm) (fun _ => (congrFun ag.a17 _).symm)
  have M0 := mean0 m ρ c (StableHlo.launchContents m' c) L0
  have V0 := var0 m ρ c (StableHlo.launchContents m' c) L0 (fun r q => Cert.ReferenceIdeal.RefRun.real_v35 hW r q)
  have N1 := norm_img m ρ c (StableHlo.launchContents m' c) L0 M0 V0 (fun _ => (congrFun ag.a18 _).symm) (fun _ => (congrFun ag.a19 _).symm)
  have L2 := lin2 m ρ c (StableHlo.launchContents m' c) N1 (fun _ _ => (congrFun ag.a20 _).symm) (fun _ => (congrFun ag.a21 _).symm)
  have M2 := mean2 m ρ c (StableHlo.launchContents m' c) L2
  have V2 := var2 m ρ c (StableHlo.launchContents m' c) L2 (fun r q => Cert.ReferenceIdeal.RefRun.real_v64 hW r q)
  have N3 := norm2_img m ρ c (StableHlo.launchContents m' c) L2 M2 V2 (fun _ => (congrFun ag.a22 _).symm) (fun _ => (congrFun ag.a23 _).symm) N1
  have G8 := gate_img m ρ c (StableHlo.launchContents m' c) N3 (fun _ _ => (congrFun ag.a32 _).symm) (fun _ => (congrFun ag.a33 _).symm) (fun _ _ => (congrFun ag.a13 _).symm)
  -- the text branch
  have L4 := lin4 m ρ c (StableHlo.launchContents m' c) (fun _ _ => (congrFun ag.a15 _).symm) (fun _ _ => (congrFun ag.a24 _).symm) (fun _ => (congrFun ag.a25 _).symm)
  have M4 := mean4 m ρ c (StableHlo.launchContents m' c) L4
  have V4 := var4 m ρ c (StableHlo.launchContents m' c) L4 (fun r q => Cert.ReferenceIdeal.RefRun.real_v94 hW r q)
  have N5 := norm_txt m ρ c (StableHlo.launchContents m' c) L4 M4 V4 (fun _ => (congrFun ag.a26 _).symm) (fun _ => (congrFun ag.a27 _).symm)
  have L6 := lin6 m ρ c (StableHlo.launchContents m' c) N5 (fun _ _ => (congrFun ag.a28 _).symm) (fun _ => (congrFun ag.a29 _).symm)
  have M6 := mean6 m ρ c (StableHlo.launchContents m' c) L6
  have V6 := var6 m ρ c (StableHlo.launchContents m' c) L6 (fun r q => Cert.ReferenceIdeal.RefRun.real_v123 hW r q)
  have N7 := norm2_txt m ρ c (StableHlo.launchContents m' c) L6 M6 V6 (fun _ => (congrFun ag.a30 _).symm) (fun _ => (congrFun ag.a31 _).symm) N5
  have G9 := gate_txt m ρ c (StableHlo.launchContents m' c) N7 (fun _ _ => (congrFun ag.a34 _).symm) (fun _ => (congrFun ag.a35 _).symm) (fun _ _ => (congrFun ag.a13 _).symm)
  -- the two stacked tables and the content table
  have argX9 : ∀ b ∈ Cert.KernelIdeal.Regions.argRefs, Cert.KernelIdeal.Regions.X9 m ρ c (Proc.devRef .tc b) = m ((c : Thread Cert.KernelIdeal.nD Cert.KernelIdeal.τ).loc b) := Cert.KernelIdeal.Regions.argsX9 m ρ c
  have T1 := img_table_bridge (Cert.KernelIdeal.Regions.X9 m ρ c) (StableHlo.launchContents m' c)
    (fun r q => (congrFun (img_gate_pass m ρ c) _).trans (G8 r q))
    ((argX9 Cert.KernelIdeal.main_arg3 (by decide)).trans ag.a3.symm) ((argX9 Cert.KernelIdeal.main_arg4 (by decide)).trans ag.a4.symm) ((argX9 Cert.KernelIdeal.main_arg5 (by decide)).trans ag.a5.symm)
    ((argX9 Cert.KernelIdeal.main_arg9 (by decide)).trans ag.a9.symm) ((argX9 Cert.KernelIdeal.main_arg10 (by decide)).trans ag.a10.symm) ((argX9 Cert.KernelIdeal.main_arg11 (by decide)).trans ag.a11.symm)
  have T2 := txt_table_bridge (Cert.KernelIdeal.Regions.X9 m ρ c) (StableHlo.launchContents m' c)
    (fun r q => (congrFun (Cert.KernelIdeal.Regions.X9_arr m ρ c 4) _).trans (G9 r q))
    ((argX9 Cert.KernelIdeal.main_arg6 (by decide)).trans ag.a6.symm) ((argX9 Cert.KernelIdeal.main_arg7 (by decide)).trans ag.a7.symm) ((argX9 Cert.KernelIdeal.main_arg8 (by decide)).trans ag.a8.symm)
    ((argX9 Cert.KernelIdeal.main_arg9 (by decide)).trans ag.a9.symm) ((argX9 Cert.KernelIdeal.main_arg10 (by decide)).trans ag.a10.symm) ((argX9 Cert.KernelIdeal.main_arg11 (by decide)).trans ag.a11.symm)
  have C0 := content_bridge (Cert.KernelIdeal.Regions.W0 m ρ c) (StableHlo.launchContents m' c) ag.a0.symm ag.a1.symm ag.a2.symm ag.a12.symm ag.a13.symm
  -- the fusion
  have hs := Cert.ReferenceIdeal.RefRun.real_scores hW (Cert.ReferenceIdeal.RefRun.real_v251 hW) (Cert.ReferenceIdeal.RefRun.real_v252 hW)
  have F10 := fusion m ρ c (StableHlo.launchContents m' c) T1 T2
    (fun r j => (congrFun (content_pass m ρ c) _).trans (C0 r j))
    (fun _ _ => (congrFun ag.a36 _).symm) (fun _ => (congrFun ag.a37 _).symm) (fun _ => (congrFun ag.a38 _).symm) hs
  funext i
  rw [ValueIdx.eq_ix2 i]
  exact F10 (i 0) (i 1)

end Cert.Bridge

end
-- ==== Proof.lean ====
/-
  The certificate of the graph-convolution recommender's forward pass: a program of eleven Pallas kernels (four "linear layer +
  batch statistics" kernels that accumulate column sums and sums of squares in scratch memory over the row tiles, four
  batch-normalisation kernels, two gated-linear kernels, one attention-fusion kernel) among host gathers and scatter-adds,
  against the plain jnp reference.
  Frames: each program terminates without a fault and leaves its 39 argument arrays unchanged — for the two kernel programs
  by the run through the eleven regions (every stretch of host operations and every region leaves the arguments as it found
  them), for the reference by its run as a list of host operations. The idealization's ledger is empty.
  Values, on the extended reals: from memories agreeing on the arguments both programs end with the same [70000, 64] result.
  Each kernel region's output array is one whole-array function of its input arrays (the blocks it writes back cover the
  array; a statistics kernel's running column sums over the row tiles are the full column sums), and that function is the
  reference's buffer holding the same quantity: a linear layer is the same sum of products; the batch mean is the same
  quotient; the kernel's variance, mean of squares minus squared mean, is the reference's mean of squared deviations because
  every entry is a real (the inputs are finite, and sums, products, exponentials and reciprocal roots of positive reals are
  reals); normalisation, rectifier, residual and the logistic gates are entrywise the same expressions; the sparse products
  and concatenations are the same host operations on equal arrays; and in the fusion the kernel's weights, the logistic of
  the difference of the two row scores and one minus it, are the reference's two-way softmax of the scores, both scores
  being reals.
-/
import proofs.«167917_j22402549416514_2_alg».proof.Defs
import proofs.«167917_j22402549416514_2_alg».proof.Proof.Gen.Kernel
import proofs.«167917_j22402549416514_2_alg».proof.Proof.Gen.KernelIdeal
import proofs.«167917_j22402549416514_2_alg».proof.Proof.Gen.ReferenceIdeal
import proofs.«167917_j22402549416514_2_alg».proof.Proof.Gen.Pre_finite_inputs
import proofs.«167917_j22402549416514_2_alg».proof.Proof.KB.Run
import proofs.«167917_j22402549416514_2_alg».proof.Proof.KI.Run
import proofs.«167917_j22402549416514_2_alg».proof.Proof.RefFrame
import proofs.«167917_j22402549416514_2_alg».proof.Proof.Bridge3
import Idealize.ShloMosaic.Adequacy
import Idealize.ShloMosaic.Init

set_option maxRecDepth 16384

noncomputable section

namespace Cert.Proof

open Idealize.ShloMosaic Idealize.SL.Sem

/-- The word-level program runs to the end and leaves its arguments unchanged. -/
theorem frame_k : Cert.frame_Kernel := fun m ρ _ =>
  (θ_run Cert.Kernel.defs _ _).mono (fun r h c =>
    have ha := (h c).2
    ⟨ha Cert.Kernel.main_arg0 (by decide),
      ha Cert.Kernel.main_arg1 (by decide),
      ha Cert.Kernel.main_arg2 (by decide),
      ha Cert.Kernel.main_arg3 (by decide),
      ha Cert.Kernel.main_arg4 (by decide),
      ha Cert.Kernel.main_arg5 (by decide),
      ha Cert.Kernel.main_arg6 (by decide),
      ha Cert.Kernel.main_arg7 (by decide),
      ha Cert.Kernel.main_arg8 (by decide),
      ha Cert.Kernel.main_arg9 (by decide),
      ha Cert.Kernel.main_arg10 (by decide),
      ha Cert.Kernel.main_arg11 (by decide),
      ha Cert.Kernel.main_arg12 (by decide),
      ha Cert.Kernel.main_arg13 (by decide),
      ha Cert.Kernel.main_arg14 (by decide),
      ha Cert.Kernel.main_arg15 (by decide),
      ha Cert.Kernel.main_arg16 (by decide),
      ha Cert.Kernel.main_arg17 (by decide),
      ha Cert.Kernel.main_arg18 (by decide),
      ha Cert.Kernel.main_arg19 (by decide),
      ha Cert.Kernel.main_arg20 (by decide),
      ha Cert.Kernel.main_arg21 (by decide),
      ha Cert.Kernel.main_arg22 (by decide),
      ha Cert.Kernel.main_arg23 (by decide),
      ha Cert.Kernel.main_arg24 (by decide),
      ha Cert.Kernel.main_arg25 (by decide),
      ha Cert.Kernel.main_arg26 (by decide),
      ha Cert.Kernel.main_arg27 (by decide),
      ha Cert.Kernel.main_arg28 (by decide),
      ha Cert.Kernel.main_arg29 (by decide),
      ha Cert.Kernel.main_arg30 (by decide),
      ha Cert.Kernel.main_arg31 (by decide),
      ha Cert.Kernel.main_arg32 (by decide),
      ha Cert.Kernel.main_arg33 (by decide),
      ha Cert.Kernel.main_arg34 (by decide),
      ha Cert.Kernel.main_arg35 (by decide),
      ha Cert.Kernel.main_arg36 (by decide),
      ha Cert.Kernel.main_arg37 (by decide),
      ha Cert.Kernel.main_arg38 (by decide)⟩) (Cert.Kernel.Regions.run (F := Bits) m ρ)

/-- The idealized program runs to the end and leaves its arguments unchanged. -/
theorem frame_ki : Cert.frame_KernelIdeal := fun m ρ _ =>
  (θ_run Cert.KernelIdeal.defs _ _).mono (fun r h c =>
    have ha := (h c).2
    ⟨ha Cert.KernelIdeal.main_arg0 (by decide),
      ha Cert.KernelIdeal.main_arg1 (by decide),
      ha Cert.KernelIdeal.main_arg2 (by decide),
      ha Cert.KernelIdeal.main_arg3 (by decide),
      ha Cert.KernelIdeal.main_arg4 (by decide),
      ha Cert.KernelIdeal.main_arg5 (by decide),
      ha Cert.KernelIdeal.main_arg6 (by decide),
      ha Cert.KernelIdeal.main_arg7 (by decide),
      ha Cert.KernelIdeal.main_arg8 (by decide),
      ha Cert.KernelIdeal.main_arg9 (by decide),
      ha Cert.KernelIdeal.main_arg10 (by decide),
      ha Cert.KernelIdeal.main_arg11 (by decide),
      ha Cert.KernelIdeal.main_arg12 (by decide),
      ha Cert.KernelIdeal.main_arg13 (by decide),
      ha Cert.KernelIdeal.main_arg14 (by decide),
      ha Cert.KernelIdeal.main_arg15 (by decide),
      ha Cert.KernelIdeal.main_arg16 (by decide),
      ha Cert.KernelIdeal.main_arg17 (by decide),
      ha Cert.KernelIdeal.main_arg18 (by decide),
      ha Cert.KernelIdeal.main_arg19 (by decide),
      ha Cert.KernelIdeal.main_arg20 (by decide),
      ha Cert.KernelIdeal.main_arg21 (by decide),
      ha Cert.KernelIdeal.main_arg22 (by decide),
      ha Cert.KernelIdeal.main_arg23 (by decide),
      ha Cert.KernelIdeal.main_arg24 (by decide),
      ha Cert.KernelIdeal.main_arg25 (by decide),
      ha Cert.KernelIdeal.main_arg26 (by decide),
      ha Cert.KernelIdeal.main_arg27 (by decide),
      ha Cert.KernelIdeal.main_arg28 (by decide),
      ha Cert.KernelIdeal.main_arg29 (by decide),
      ha Cert.KernelIdeal.main_arg30 (by decide),
      ha Cert.KernelIdeal.main_arg31 (by decide),
      ha Cert.KernelIdeal.main_arg32 (by decide),
      ha Cert.KernelIdeal.main_arg33 (by decide),
      ha Cert.KernelIdeal.main_arg34 (by decide),
      ha Cert.KernelIdeal.main_arg35 (by decide),
      ha Cert.KernelIdeal.main_arg36 (by decide),
      ha Cert.KernelIdeal.main_arg37 (by decide),
      ha Cert.KernelIdeal.main_arg38 (by decide)⟩) (Cert.KernelIdeal.Regions.run (F := Ideal) m ρ)

/-- The reference runs to the end and leaves its arguments unchanged. -/
theorem frame_r : Cert.frame_ReferenceIdeal := Cert.ReferenceIdeal.RefRun.frame

/-- The ideal pass rewrote nothing: its ledger is empty. -/
theorem preserves : Cert.preserves_Kernel_KernelIdeal := trivial

/-- From memories agreeing on the arguments, finite on the kernel's side, both idealized programs run to the end with equal
    results and unchanged arguments. -/
theorem algebraic : Cert.algebraic_KernelIdeal_ReferenceIdeal :=
  Cert.Bridge.algebraic_of fun m ρ m' hpre hag c => Cert.Bridge.result_eq m ρ c m' hpre hag

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
